-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x100 : Shape := ⟨2, ![4096, 100]⟩
abbrev S120x200 : Shape := ⟨2, ![120, 200]⟩
abbrev S_ : Shape := ⟨0, ![]⟩

class Facts : Prop where
  bcast_S_S120x200 : S_.BroadcastsInDim S120x200 (![] : Fin 0 → Fin S120x200.rank)
  reducesTo_S120x200_S_d0_1 : S120x200.ReducesTo [0, 1] S_
  h_S_ : 0 < S_.numel
  bcast_S_S4096x100 : S_.BroadcastsInDim S4096x100 (![] : Fin 0 → Fin S4096x100.rank)
  reducesTo_S4096x100_S_d0_1 : S4096x100.ReducesTo [0, 1] S_

variable [Facts]

def fn {F : FTy → Type} [FloatOps F] (main_arg0 : IVec S4096x100 32) (main_arg1 : FVec F S120x200 .f32) : IVec S_ 1 :=
  let main_v0 : FVec F S120x200 .f32 := Host.absf main_arg1
  let main_cst : FVec F S_ .f32 := constant S_ .f32 0x7F800000#32
  let main_v1 : FVec F S120x200 .f32 := broadcastInDim S120x200 ![] bcast_S_S120x200 main_cst
  let main_v2 : IVec S120x200 1 := cmpf .olt main_v0 main_v1
  let main_c : IVec S_ 1 := constantI S_ 1 1#1
  let main_v3 : IVec S_ 1 := (fun x v => Host.reduce IntOp.andi x v reducesTo_S120x200_S_d0_1 h_S_) main_v2 main_c
  let main_c_0 : IVec S_ 32 := constantI S_ 32 0#32
  let main_v4 : IVec S4096x100 32 := broadcastInDim S4096x100 ![] bcast_S_S4096x100 main_c_0
  let main_v5 : IVec S4096x100 1 := cmpi .sge main_arg0 main_v4
  let main_c_1 : IVec S_ 32 := constantI S_ 32 119#32
  let main_v6 : IVec S4096x100 32 := broadcastInDim S4096x100 ![] bcast_S_S4096x100 main_c_1
  let main_v7 : IVec S4096x100 1 := cmpi .sle main_arg0 main_v6
  let main_v8 : IVec S4096x100 1 := andi main_v5 main_v7
  let main_c_2 : IVec S_ 1 := constantI S_ 1 1#1
  let main_v9 : IVec S_ 1 := (fun x v => Host.reduce IntOp.andi x v reducesTo_S4096x100_S_d0_1 h_S_) main_v8 main_c_2
  let main_v10 : IVec S_ 1 := andi main_v3 main_v9
  main_v10
-- ==== Kernel.lean ====
abbrev S4096x100 : Shape := ⟨2, ![4096, 100]⟩
abbrev S120x200 : Shape := ⟨2, ![120, 200]⟩
abbrev S32x128x100 : Shape := ⟨3, ![32, 128, 100]⟩
abbrev S_ : Shape := ⟨0, ![]⟩
abbrev S120x256 : Shape := ⟨2, ![120, 256]⟩
abbrev S4096x100x256 : Shape := ⟨3, ![4096, 100, 256]⟩
abbrev S128x100 : Shape := ⟨2, ![128, 100]⟩
abbrev S120x128 : Shape := ⟨2, ![120, 128]⟩
abbrev S100x128 : Shape := ⟨2, ![100, 128]⟩
abbrev S1x128x100 : Shape := ⟨3, ![1, 128, 100]⟩
abbrev S1x100 : Shape := ⟨2, ![1, 100]⟩
abbrev S100 : Shape := ⟨1, ![100]⟩
abbrev S1x100x256 : Shape := ⟨3, ![1, 100, 256]⟩
abbrev S100x256 : Shape := ⟨2, ![100, 256]⟩
abbrev S4096x100x200 : Shape := ⟨3, ![4096, 100, 200]⟩

abbrev nBuf : Table → Nat
  | .hbm => 10
  | .shared => 2
  | .local .scVector .vmem => 9
  | _ => 0

abbrev bufTy : (tb : Table) → Fin (nBuf tb) → BufTy
  | .hbm, ⟨0, _⟩ => ⟨S4096x100, .i32⟩
  | .hbm, ⟨1, _⟩ => ⟨S120x200, .f32⟩
  | .hbm, ⟨2, _⟩ => ⟨S32x128x100, .i32⟩
  | .hbm, ⟨3, _⟩ => ⟨S_, .f32⟩
  | .hbm, ⟨4, _⟩ => ⟨S120x256, .f32⟩
  | .hbm, ⟨5, _⟩ => ⟨S_, .i32⟩
  | .hbm, ⟨6, _⟩ => ⟨S_, .i32⟩
  | .hbm, ⟨7, _⟩ => ⟨S120x256, .f32⟩
  | .hbm, ⟨8, _⟩ => ⟨S4096x100x256, .f32⟩
  | .hbm, ⟨9, _⟩ => ⟨S4096x100x200, .f32⟩
  | .shared, ⟨0, _⟩ => ⟨S120x128, .f32⟩
  | .shared, ⟨1, _⟩ => ⟨S120x128, .f32⟩
  | .local .scVector .vmem, ⟨0, _⟩ => ⟨S128x100, .i32⟩
  | .local .scVector .vmem, ⟨1, _⟩ => ⟨S100x128, .f32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S100x128, .f32⟩
  | .local .scVector .vmem, ⟨6, _⟩ => ⟨S100x128, .f32⟩
  | .local .scVector .vmem, ⟨7, _⟩ => ⟨S100x128, .f32⟩
  | .local .scVector .vmem, ⟨8, _⟩ => ⟨S100x128, .f32⟩
  | _, _ => ⟨S4096x100, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 5 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 2, rfl⟩
abbrev main_v2_scv : Ref sig .scVector := ⟨.hbm, 7, rfl⟩
abbrev main_v3_scv : Ref sig .scVector := ⟨.hbm, 8, rfl⟩
abbrev cc0_scratch1 : Ref sig .scVector := ⟨.shared, 0, rfl⟩
abbrev cc0_scratch2 : Ref sig .scVector := ⟨.shared, 1, rfl⟩
abbrev cc0_scratch0 : Ref sig .scVector := ⟨.vmem, 0, rfl⟩
abbrev cc0_scratch3 : Ref sig .scVector := ⟨.vmem, 1, rfl⟩
abbrev cc0_scratch4 : Ref sig .scVector := ⟨.vmem, 2, rfl⟩
abbrev cc0_scratch5 : Ref sig .scVector := ⟨.vmem, 3, rfl⟩
abbrev cc0_scratch6 : Ref sig .scVector := ⟨.vmem, 4, rfl⟩
abbrev cc0_scratch7 : Ref sig .scVector := ⟨.vmem, 5, rfl⟩
abbrev cc0_scratch8 : Ref sig .scVector := ⟨.vmem, 6, rfl⟩
abbrev cc0_scratch9 : Ref sig .scVector := ⟨.vmem, 7, rfl⟩
abbrev cc0_scratch10 : Ref sig .scVector := ⟨.vmem, 8, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_94_r2 : BitVec 32 := 0#32
  let c0_i32_95_r2 : BitVec 32 := 0#32
  ![v1.toNat, 0, 0]
@[reducible] def k0_t1_loop : Scf.Loop 32 :=
  let c0_i32_19 : BitVec 32 := 0#32
  let c32_i32 : BitVec 32 := 32#32
  let v21 : BitVec 32 := Scalar.addi c0_i32_19 c32_i32
  let c1_i32_20 : BitVec 32 := 1#32
  ⟨c0_i32_19, v21, c1_i32_20⟩
def k0_cond3 (k0_t1 : Fin k0_t1_loop.trips) : BitVec 1 :=
  let c4_i32 : BitVec 32 := 4#32
  let c0_i32_19 : BitVec 32 := 0#32
  let c1_i32_20 : BitVec 32 := 1#32
  let arg32 : BitVec 32 := Scf.iv c0_i32_19 c1_i32_20 k0_t1
  let v70 : BitVec 32 := Scalar.muli c4_i32 arg32
  let c0_i32_94 : BitVec 32 := 0#32
  let v71 : BitVec 32 := Scalar.addi v70 c0_i32_94
  let c2_i32_95 : BitVec 32 := 2#32
  let v72 : BitVec 32 := Scalar.addi v71 c2_i32_95
  let c128_i32_96 : BitVec 32 := 128#32
  let v73 : BitVec 1 := Scalar.cmpi .slt v72 c128_i32_96
  let v74 : BitVec 32 := Scalar.extui v73
  let c0_i32_97 : BitVec 32 := 0#32
  let v75 : BitVec 1 := Scalar.cmpi .ne v74 c0_i32_97
  v75

def k0_off2 (k0_t1 : Fin k0_t1_loop.trips) : Fin 2 → Nat :=
  let c4_i32 : BitVec 32 := 4#32
  let c0_i32_19 : BitVec 32 := 0#32
  let c1_i32_20 : BitVec 32 := 1#32
  let arg32 : BitVec 32 := Scf.iv c0_i32_19 c1_i32_20 k0_t1
  let v70 : BitVec 32 := Scalar.muli c4_i32 arg32
  let c0_i32_94 : BitVec 32 := 0#32
  let v71 : BitVec 32 := Scalar.addi v70 c0_i32_94
  let c2_i32_202 : BitVec 32 := 2#32
  let v177 : BitVec 32 := Scalar.addi v71 c2_i32_202
  let c0_i32_203 : BitVec 32 := 0#32
  ![v177.toNat, 0]
def k0_off3 (k0_t1 : Fin k0_t1_loop.trips) (c0_i32_94 : BitVec 32) : Fin 2 → Nat :=
  let c4_i32 : BitVec 32 := 4#32
  let c0_i32_19 : BitVec 32 := 0#32
  let c1_i32_20 : BitVec 32 := 1#32
  let arg32 : BitVec 32 := Scf.iv c0_i32_19 c1_i32_20 k0_t1
  let v70 : BitVec 32 := Scalar.muli c4_i32 arg32
  let v71 : BitVec 32 := Scalar.addi v70 c0_i32_94
  let c0_i32_98 : BitVec 32 := 0#32
  ![v71.toNat, 0]
def k0_off4 (i : grid0.Coords) (k0_t1 : Fin k0_t1_loop.trips) (c0_i32_94 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let c0_i32_19 : BitVec 32 := 0#32
  let c1_i32_20 : BitVec 32 := 1#32
  let arg32 : BitVec 32 := Scf.iv c0_i32_19 c1_i32_20 k0_t1
  let v70 : BitVec 32 := Scalar.muli c4_i32 arg32
  let v71 : BitVec 32 := Scalar.addi v70 c0_i32_94
  let v79 : BitVec 32 := Scalar.addi v2 v71
  let c0_i32_101 : BitVec 32 := 0#32
  let c0_i32_102 : BitVec 32 := 0#32
  ![v79.toNat, 0, 0]
def k0_cond5 (k0_t1 : Fin k0_t1_loop.trips) : BitVec 1 :=
  let c4_i32_120 : BitVec 32 := 4#32
  let c0_i32_19 : BitVec 32 := 0#32
  let c1_i32_20 : BitVec 32 := 1#32
  let arg32 : BitVec 32 := Scf.iv c0_i32_19 c1_i32_20 k0_t1
  let v96 : BitVec 32 := Scalar.muli c4_i32_120 arg32
  let c1_i32_121 : BitVec 32 := 1#32
  let v97 : BitVec 32 := Scalar.addi v96 c1_i32_121
  let c2_i32_122 : BitVec 32 := 2#32
  let v98 : BitVec 32 := Scalar.addi v97 c2_i32_122
  let c128_i32_123 : BitVec 32 := 128#32
  let v99 : BitVec 1 := Scalar.cmpi .slt v98 c128_i32_123
  let v100 : BitVec 32 := Scalar.extui v99
  let c0_i32_124 : BitVec 32 := 0#32
  let v101 : BitVec 1 := Scalar.cmpi .ne v100 c0_i32_124
  v101

def k0_off5 (k0_t1 : Fin k0_t1_loop.trips) : Fin 2 → Nat :=
  let c4_i32_120 : BitVec 32 := 4#32
  let c0_i32_19 : BitVec 32 := 0#32
  let c1_i32_20 : BitVec 32 := 1#32
  let arg32 : BitVec 32 := Scf.iv c0_i32_19 c1_i32_20 k0_t1
  let v96 : BitVec 32 := Scalar.muli c4_i32_120 arg32
  let c1_i32_121 : BitVec 32 := 1#32
  let v97 : BitVec 32 := Scalar.addi v96 c1_i32_121
  let c2_i32_202 : BitVec 32 := 2#32
  let v177 : BitVec 32 := Scalar.addi v97 c2_i32_202
  let c0_i32_203 : BitVec 32 := 0#32
  ![v177.toNat, 0]
def k0_cond7 (k0_t1 : Fin k0_t1_loop.trips) : BitVec 1 :=
  let c4_i32_147 : BitVec 32 := 4#32
  let c0_i32_19 : BitVec 32 := 0#32
  let c1_i32_20 : BitVec 32 := 1#32
  let arg32 : BitVec 32 := Scf.iv c0_i32_19 c1_i32_20 k0_t1
  let v122 : BitVec 32 := Scalar.muli c4_i32_147 arg32
  let c2_i32_148 : BitVec 32 := 2#32
  let v123 : BitVec 32 := Scalar.addi v122 c2_i32_148
  let c2_i32_149 : BitVec 32 := 2#32
  let v124 : BitVec 32 := Scalar.addi v123 c2_i32_149
  let c128_i32_150 : BitVec 32 := 128#32
  let v125 : BitVec 1 := Scalar.cmpi .slt v124 c128_i32_150
  let v126 : BitVec 32 := Scalar.extui v125
  let c0_i32_151 : BitVec 32 := 0#32
  let v127 : BitVec 1 := Scalar.cmpi .ne v126 c0_i32_151
  v127

def k0_off6 (k0_t1 : Fin k0_t1_loop.trips) : Fin 2 → Nat :=
  let c4_i32_147 : BitVec 32 := 4#32
  let c0_i32_19 : BitVec 32 := 0#32
  let c1_i32_20 : BitVec 32 := 1#32
  let arg32 : BitVec 32 := Scf.iv c0_i32_19 c1_i32_20 k0_t1
  let v122 : BitVec 32 := Scalar.muli c4_i32_147 arg32
  let c2_i32_148 : BitVec 32 := 2#32
  let v123 : BitVec 32 := Scalar.addi v122 c2_i32_148
  let c2_i32_202 : BitVec 32 := 2#32
  let v177 : BitVec 32 := Scalar.addi v123 c2_i32_202
  let c0_i32_203 : BitVec 32 := 0#32
  ![v177.toNat, 0]
def k0_cond9 (k0_t1 : Fin k0_t1_loop.trips) : BitVec 1 :=
  let c4_i32_174 : BitVec 32 := 4#32
  let c0_i32_19 : BitVec 32 := 0#32
  let c1_i32_20 : BitVec 32 := 1#32
  let arg32 : BitVec 32 := Scf.iv c0_i32_19 c1_i32_20 k0_t1
  let v148 : BitVec 32 := Scalar.muli c4_i32_174 arg32
  let c3_i32 : BitVec 32 := 3#32
  let v149 : BitVec 32 := Scalar.addi v148 c3_i32
  let c2_i32_175 : BitVec 32 := 2#32
  let v150 : BitVec 32 := Scalar.addi v149 c2_i32_175
  let c128_i32_176 : BitVec 32 := 128#32
  let v151 : BitVec 1 := Scalar.cmpi .slt v150 c128_i32_176
  let v152 : BitVec 32 := Scalar.extui v151
  let c0_i32_177 : BitVec 32 := 0#32
  let v153 : BitVec 1 := Scalar.cmpi .ne v152 c0_i32_177
  v153

def k0_off7 (k0_t1 : Fin k0_t1_loop.trips) : Fin 2 → Nat :=
  let c4_i32_174 : BitVec 32 := 4#32
  let c0_i32_19 : BitVec 32 := 0#32
  let c1_i32_20 : BitVec 32 := 1#32
  let arg32 : BitVec 32 := Scf.iv c0_i32_19 c1_i32_20 k0_t1
  let v148 : BitVec 32 := Scalar.muli c4_i32_174 arg32
  let c3_i32 : BitVec 32 := 3#32
  let v149 : BitVec 32 := Scalar.addi v148 c3_i32
  let c2_i32_202 : BitVec 32 := 2#32
  let v177 : BitVec 32 := Scalar.addi v149 c2_i32_202
  let c0_i32_203 : BitVec 32 := 0#32
  ![v177.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x100_S32x128x100 : S4096x100.ShapeCasts S32x128x100
  bcast_S_S120x256 : S_.BroadcastsInDim S120x256 (![] : Fin 0 → Fin S120x256.rank)
  updateFits_S120x256_S120x200 : S120x256.Slices (fun _ => 0) S120x200
  h_S_ : 0 < S_.numel
  inb_S120x256_S120x128_0_0 : ∀ a, (![0, 0] : Fin 2 → Nat) a + S120x128.size a ≤ S120x256.size a
  inb_S120x256_S120x128_0_128 : ∀ a, (![0, 128] : Fin 2 → Nat) a + S120x128.size a ≤ S120x256.size a
  squeezes_S1x128x100_S128x100 : S1x128x100.Squeezes S128x100
  inb_S128x100_S1x100_0_0 : ∀ a, (![0, 0] : Fin 2 → Nat) a + S1x100.size a ≤ S128x100.size a
  squeezes_S1x100_S100 : S1x100.Squeezes S100
  inb_S120x128_S120x128_0_0 : ∀ a, (![0, 0] : Fin 2 → Nat) a + S120x128.size a ≤ S120x128.size a
  gathers_S120x128_S100x128 : S120x128.Gathers 0 S100x128
  inb_S128x100_S1x100_1_0 : ∀ a, (![1, 0] : Fin 2 → Nat) a + S1x100.size a ≤ S128x100.size a
  inb_S4096x100x256_S1x100x256_0_0_0 : ∀ a, (![0, 0, 0] : Fin 3 → Nat) a + S1x100x256.size a ≤ S4096x100x256.size a
  squeezes_S1x100x256_S100x256 : S1x100x256.Squeezes S100x256
  inb_S100x256_S100x128_0_0 : ∀ a, (![0, 0] : Fin 2 → Nat) a + S100x128.size a ≤ S100x256.size a
  inb_S100x256_S100x128_0_128 : ∀ a, (![0, 128] : Fin 2 → Nat) a + S100x128.size a ≤ S100x256.size a
  slices_S4096x100x256_S4096x100x200_0_0_0 : S4096x100x256.Slices ![0, 0, 0] S4096x100x200
  hcc0_scratch11 : 0 + S_.numel ≤ 19
  hcc0_scratch12 : 1 + S_.numel ≤ 19
  hcc0_scratch13 : 2 + S_.numel ≤ 19
  hcc0_scratch14 : 3 + S_.numel ≤ 19
  hcc0_scratch15 : 4 + S_.numel ≤ 19
  hcc0_scratch16 : 5 + S_.numel ≤ 19
  hcc0_scratch17 : 6 + S_.numel ≤ 19
  hcc0_scratch18 : 7 + S_.numel ≤ 19
  hcc0_scratch19 : 8 + S_.numel ≤ 19
  hcc0_scratch20 : 9 + S_.numel ≤ 19
  hcc0_scratch21 : 10 + S_.numel ≤ 19
  hcc0_scratch22 : 11 + S_.numel ≤ 19
  hcc0_scratch23 : 12 + S_.numel ≤ 19
  hcc0_scratch24 : 13 + S_.numel ≤ 19
  hcc0_scratch25 : 14 + S_.numel ≤ 19
  hcc0_scratch26 : 15 + S_.numel ≤ 19
  hcc0_scoped0 : 16 + S_.numel ≤ 19
  hcc0_scoped1 : 17 + S_.numel ≤ 19
  hcc0_scoped2 : 18 + S_.numel ≤ 19
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x128x100.size a ≤ S32x128x100.size a
  k0_t1_ok : k0_t1_loop.OK
  k0_off2_inb : ∀ k0_t1 : Fin k0_t1_loop.trips, ∀ (k0_h3 : k0_cond3 k0_t1 = 1#1), ∀ a, (k0_off2 k0_t1) a + S1x100.size a ≤ S128x100.size a
  k0_off3_inb : ∀ k0_t1 : Fin k0_t1_loop.trips, ∀ (r : Fin 4), ∀ a, (k0_off3 k0_t1 (BitVec.ofNat 32 r.val)) a + S1x100.size a ≤ S128x100.size a
  k0_off4_inb : ∀ (i : grid0.Coords) (k0_t1 : Fin k0_t1_loop.trips), ∀ (r : Fin 4), ∀ a, (k0_off4 i k0_t1 (BitVec.ofNat 32 r.val)) a + S1x100x256.size a ≤ S4096x100x256.size a
  k0_off5_inb : ∀ k0_t1 : Fin k0_t1_loop.trips, ∀ (k0_h5 : k0_cond5 k0_t1 = 1#1), ∀ a, (k0_off5 k0_t1) a + S1x100.size a ≤ S128x100.size a
  k0_off6_inb : ∀ k0_t1 : Fin k0_t1_loop.trips, ∀ (k0_h7 : k0_cond7 k0_t1 = 1#1), ∀ a, (k0_off6 k0_t1) a + S1x100.size a ≤ S128x100.size a
  k0_off7_inb : ∀ k0_t1 : Fin k0_t1_loop.trips, ∀ (k0_h9 : k0_cond9 k0_t1 = 1#1), ∀ a, (k0_off7 k0_t1) a + S1x100.size a ≤ S128x100.size a

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scratch14 : DmaSems sig S_ := SemArray.consecutive 3 S_ hcc0_scratch14
abbrev cc0_scratch15 : DmaSems sig S_ := SemArray.consecutive 4 S_ hcc0_scratch15
abbrev cc0_scratch16 : DmaSems sig S_ := SemArray.consecutive 5 S_ hcc0_scratch16
abbrev cc0_scratch17 : DmaSems sig S_ := SemArray.consecutive 6 S_ hcc0_scratch17
abbrev cc0_scratch18 : DmaSems sig S_ := SemArray.consecutive 7 S_ hcc0_scratch18
abbrev cc0_scratch19 : DmaSems sig S_ := SemArray.consecutive 8 S_ hcc0_scratch19
abbrev cc0_scratch20 : DmaSems sig S_ := SemArray.consecutive 9 S_ hcc0_scratch20
abbrev cc0_scratch21 : DmaSems sig S_ := SemArray.consecutive 10 S_ hcc0_scratch21
abbrev cc0_scratch22 : DmaSems sig S_ := SemArray.consecutive 11 S_ hcc0_scratch22
abbrev cc0_scratch23 : DmaSems sig S_ := SemArray.consecutive 12 S_ hcc0_scratch23
abbrev cc0_scratch24 : DmaSems sig S_ := SemArray.consecutive 13 S_ hcc0_scratch24
abbrev cc0_scratch25 : DmaSems sig S_ := SemArray.consecutive 14 S_ hcc0_scratch25
abbrev cc0_scratch26 : DmaSems sig S_ := SemArray.consecutive 15 S_ hcc0_scratch26
abbrev cc0_scoped0 : DmaSems sig S_ := SemArray.consecutive 16 S_ hcc0_scoped0
abbrev cc0_scoped1 : DmaSems sig S_ := SemArray.consecutive 17 S_ hcc0_scoped1
abbrev cc0_scoped2 : DmaSems sig S_ := SemArray.consecutive 18 S_ hcc0_scoped2

class Facts : Prop extends Facts₀ where

variable [Facts]
-- ==== ReferenceIdeal.lean ====
abbrev S4096x100 : Shape := ⟨2, ![4096, 100]⟩
abbrev S120x200 : Shape := ⟨2, ![120, 200]⟩
abbrev S_ : Shape := ⟨0, ![]⟩
abbrev S4096x100x1 : Shape := ⟨3, ![4096, 100, 1]⟩
abbrev S1 : Shape := ⟨1, ![1]⟩
abbrev S1x1x1 : Shape := ⟨3, ![1, 1, 1]⟩
abbrev S4096x100x200 : Shape := ⟨3, ![4096, 100, 200]⟩

abbrev nBuf : Space → Nat
  | .hbm => 25
  | .vmem => 0
  | .smem => 0
  | _ => 0

abbrev bufTy : (tb : Table) → Fin (tcTables nBuf tb) → BufTy
  | .hbm, ⟨0, _⟩ => ⟨S4096x100, .i32⟩
  | .hbm, ⟨1, _⟩ => ⟨S120x200, .f32⟩
  | .hbm, ⟨2, _⟩ => ⟨S_, .i32⟩
  | .hbm, ⟨3, _⟩ => ⟨S4096x100, .i32⟩
  | .hbm, ⟨4, _⟩ => ⟨S4096x100, .i1⟩
  | .hbm, ⟨5, _⟩ => ⟨S_, .i32⟩
  | .hbm, ⟨6, _⟩ => ⟨S4096x100, .i32⟩
  | .hbm, ⟨7, _⟩ => ⟨S4096x100, .i32⟩
  | .hbm, ⟨8, _⟩ => ⟨S4096x100, .i32⟩
  | .hbm, ⟨9, _⟩ => ⟨S4096x100x1, .i32⟩
  | .hbm, ⟨10, _⟩ => ⟨S1, .i32⟩
  | .hbm, ⟨11, _⟩ => ⟨S_, .i32⟩
  | .hbm, ⟨12, _⟩ => ⟨S4096x100x1, .i32⟩
  | .hbm, ⟨13, _⟩ => ⟨S4096x100x1, .i1⟩
  | .hbm, ⟨14, _⟩ => ⟨S1x1x1, .i32⟩
  | .hbm, ⟨15, _⟩ => ⟨S4096x100x1, .i32⟩
  | .hbm, ⟨16, _⟩ => ⟨S4096x100x1, .i1⟩
  | .hbm, ⟨17, _⟩ => ⟨S4096x100x1, .i1⟩
  | .hbm, ⟨18, _⟩ => ⟨S_, .i1⟩
  | .hbm, ⟨19, _⟩ => ⟨S4096x100, .i1⟩
  | .hbm, ⟨20, _⟩ => ⟨S4096x100x200, .f32⟩
  | .hbm, ⟨21, _⟩ => ⟨S4096x100x200, .i1⟩
  | .hbm, ⟨22, _⟩ => ⟨S_, .f32⟩
  | .hbm, ⟨23, _⟩ => ⟨S4096x100x200, .f32⟩
  | .hbm, ⟨24, _⟩ => ⟨S4096x100x200, .f32⟩
  | _, _ => ⟨S4096x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x100 : S_.BroadcastsInDim S4096x100 (![] : Fin 0 → Fin S4096x100.rank)
  bcast_S4096x100_S4096x100x1_0_1 : S4096x100.BroadcastsInDim S4096x100x1 (![0, 1] : Fin 2 → Fin S4096x100x1.rank)
  bcast_S_S4096x100x1 : S_.BroadcastsInDim S4096x100x1 (![] : Fin 0 → Fin S4096x100x1.rank)
  bcast_S1_S1x1x1_2 : S1.BroadcastsInDim S1x1x1 (![2] : Fin 1 → Fin S1x1x1.rank)
  bcast_S1x1x1_S4096x100x1_0_1_2 : S1x1x1.BroadcastsInDim S4096x100x1 (![0, 1, 2] : Fin 3 → Fin S4096x100x1.rank)
  reducesTo_S4096x100x1_S4096x100_d2 : S4096x100x1.ReducesTo [2] S4096x100
  h_S_ : 0 < S_.numel
  bcast_S4096x100_S4096x100x200_0_1 : S4096x100.BroadcastsInDim S4096x100x200 (![0, 1] : Fin 2 → Fin S4096x100x200.rank)
  bcast_S_S4096x100x200 : S_.BroadcastsInDim S4096x100x200 (![] : Fin 0 → Fin S4096x100x200.rank)
  gather_S120x200_S4096x100x1_S4096x100x200_2_0_n_n_0_2_1200_wf : GatherDims.WF S120x200 S4096x100x1 S4096x100x200 [2] [0] [] [0] [] 2 ![1, 200]

variable [Facts₀]

def gather_S120x200_S4096x100x1_S4096x100x200_2_0_n_n_0_2_1200 : GatherDims S120x200 S4096x100x1 S4096x100x200 where
  offsetDims := [2]
  collapsedSliceDims := [0]
  operandBatchingDims := []
  startIndicesBatchingDims := []
  startIndexMap := [0]
  indexVectorDim := 2
  sliceSizes := ![1, 200]
  wf := gather_S120x200_S4096x100x1_S4096x100x200_2_0_n_n_0_2_1200_wf

class Facts : Prop extends Facts₀ where

variable [Facts]
-- ==== Proof.Spec.lean ====
/-
  The function both programs compute: an embedding lookup. For a table `a` of 120 rows of 200 numbers and an array
  `x` of 4096 × 100 row numbers, the result at (r, j, k) is entry k of row x(r, j) of the table. The row number is
  read as the natural number the 32-bit word denotes, reduced modulo 120 so that the function is total; where the
  word lies in 0 … 119 (the precondition of the claim) the reduction changes nothing.
-/
import Idealize.ShloMosaic.PureOps.Ideal
import Idealize.ShloMosaic.Lib.ValueIdx

noncomputable section

namespace Cert.Proof.Spec

open Idealize.ShloMosaic Idealize.ShloMosaic.ValueIdx

abbrev SX : Shape := ⟨2, ![4096, 100]⟩
abbrev SA : Shape := ⟨2, ![120, 200]⟩
abbrev SO : Shape := ⟨3, ![4096, 100, 200]⟩

/-- The row of the table that the word `w` names. -/
def rowOf (w : BitVec 32) : Fin 120 := ⟨w.toNat % 120, Nat.mod_lt _ (by decide)⟩

/-- The lookup: entry (r, j, k) of the result is entry k of row x(r, j) of the table. -/
def lookup {F : FTy → Type} (x : IVec SX 32) (a : FVec F SA .f32) : FVec F SO .f32 :=
  fun i => a (ix2 (rowOf (x (ix2 (i 0) (i 1)))) (i 2))

theorem lookup_apply {F : FTy → Type} (x : IVec SX 32) (a : FVec F SA .f32) (r : Fin 4096) (j : Fin 100) (k : Fin 200) :
    lookup x a (ix3 r j k) = a (ix2 (rowOf (x (ix2 r j))) k) := rfl

/-- Where the word is one of 0 … 119, the row it names is the number it denotes. -/
theorem rowOf_val {w : BitVec 32} (h : w.toNat < 120) : (rowOf w).val = w.toNat := Nat.mod_eq_of_lt h

end Cert.Proof.Spec

end
-- ==== Proof.KI.Common.lean ====
/-
  The embedding lookup on the SparseCores, as the launch theorem sees it: the program's configuration, the ghost state
  (the launch handshakes' rounds, the subcore barrier's rounds, the transfers' counters), the arrays the one call moves
  and what each holds, and what the handshakes carry.

  The mathematics. The host pads the table `a` [120, 200] with zeros to `tblW` [120, 256] and regroups the row numbers
  `x` [4096, 100] as `idx3` [32, 128, 100]: worker w = 2·s + c (vector subcore s of SparseCore c) owns rows
  128·w … 128·w + 127 of `x` and of the result. On each SparseCore, subcore 0 copies columns 0 … 127 of `tblW` into
  the shared buffer `tbl_a`, subcore 1 columns 128 … 255 into `tbl_b`; all sixteen subcores meet at the barrier, after
  which each reads both shared buffers. For each of its 128 rows j a worker gathers the 100 table rows named by
  idx3(w, j, ·) from `tbl_a` and from `tbl_b` and writes them to columns 0 … 127 and 128 … 255 of row 128·w + j of the
  result [4096, 100, 256]. So the result at (R, r, k) is tblW(x(R, r), k): `outF`.
-/
import proofs.«203043_g45337674776592_cont_8to1_c_201_37_alg».proof.Defs
import proofs.«203043_g45337674776592_cont_8to1_c_201_37_alg».proof.Proof.Spec
import proofs.«203043_g45337674776592_cont_8to1_c_201_37_alg».proof.Proof.Gen.KernelIdeal
import proofs.«203043_g45337674776592_cont_8to1_c_201_37_alg».proof.Proof.Gen.KernelIdeal.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and what they hold -/

variable (m : (ℓ : Loc nD τ sig) → Buf (Elt F) ℓ) (ρ : Dev nD → PrngReg)

/-- The row numbers `x` and the table `a` (the program's arguments); the regrouped row numbers, the padded table, the
    kernel's result [4096, 100, 256] and the program's result [4096, 100, 200]. -/
abbrev xLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev tLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-- SparseCore `c`'s two shared buffers, as every tile of it addresses them. -/
abbrev shARef (c : Fin τ.nSC) : DevRef τ sig := ⟨.shared, ⟨0, by decide⟩, c⟩
abbrev shBRef (c : Fin τ.nSC) : DevRef τ sig := ⟨.shared, ⟨1, by decide⟩, c⟩
abbrev shALoc (d : Dev nD) (c : Fin τ.nSC) : Loc nD τ sig := (d, shARef c)
abbrev shBLoc (d : Dev nD) (c : Fin τ.nSC) : Loc nD τ sig := (d, shBRef c)

variable [FloatOps F]

/-- The row numbers regrouped [32, 128, 100]: the host's reshape, row-major. -/
def idx3 (d : Dev nD) : Buf (Elt F) (iLoc d) :=
  shapeCast S32x128x100 (m (xLoc d)) shapeCasts_S4096x100_S32x128x100
/-- The table padded with zero columns to [120, 256]: the host's update of a zero array at the origin. -/
def tblW (d : Dev nD) : Buf (Elt F) (tLoc d) :=
  Host.dynamicUpdateSlice (broadcastInDim S120x256 ![] bcast_S_S120x256 (constant (F := F) S_ .f32 0x00000000#32)) (m (aLoc d))
    (fun _ => ((constantI S_ 32 0#32 : IVec S_ 32) (Shape.Idx.first h_S_)).toInt) updateFits_S120x256_S120x200

/-- The left and the right half of the padded table, as the shared buffers hold them. -/
def tblA (d : Dev nD) (c : Fin τ.nSC) : Buf (Elt F) (shALoc d c) :=
  fun i => tblW m d (ix2 (i 0) ⟨(i 1).val, by have h : (i 1).val < 128 := (i 1).isLt; omega⟩)
def tblB (d : Dev nD) (c : Fin τ.nSC) : Buf (Elt F) (shBLoc d c) :=
  fun i => tblW m d (ix2 (i 0) ⟨(i 1).val + 128, by have h : (i 1).val < 128 := (i 1).isLt; omega⟩)

/-- What the kernel leaves in its result [4096, 100, 256]: at (R, r, k) entry k of the padded table's row x(R, r),
    the row number read off the regrouped array at (R / 128, R % 128, r). -/
def outF (d : Dev nD) : Buf (Elt F) (oLoc d) :=
  fun i => tblW m d (ix2 (Cert.Proof.Spec.rowOf (idx3 m d (ix3 ⟨(i 0).val / 128, by have h : (i 0).val < 4096 := (i 0).isLt; omega⟩
      ⟨(i 0).val % 128, Nat.mod_lt _ (by decide)⟩ (i 1)))) (i 2))

/-- What the proof asks of the launch memory: every row number is one of 0 … 119. -/
def PreOK : Prop := ∀ (d : Dev nD) (j : S4096x100.Idx), (m (xLoc d) j).toNat < 120

/-! ## Shares -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker w's share (of 32) of a read-only array; subcore s's share (of 16) of a shared buffer. -/
abbrev wq (w : Fin 32) : PosShare TreeShare := leaf 5 fullShare w
abbrev sq (s : Fin 16) : PosShare TreeShare := leaf 4 fullShare s

/-- The worker number of subcore `s` of SparseCore `c`. -/
def wid (c : Fin 2) (s : Fin 16) : Fin 32 := ⟨2 * s.val + c.val, by omega⟩

end Cert.Proof.KI

end
-- ==== Proof.KI.Pay.lean ====
/-
  The subcore barrier's cells and what crosses the barrier, and what the launch handshakes carry for the one call.

  The barrier. Each tile (c, j) has a barrier cell; its one round has a unit duty per tile of its SparseCore. Tile 0's
  duty in tile j's round hands over share j (of 16) of the shared buffer `tbl_a`, holding the left half of the padded
  table, which tile 0 has just written and waited for; tile 1's duty hands over share j of `tbl_b`, the right half.
  So after the barrier every tile holds a read share of both halves.

  The call. Worker w = 2·s + c is handed a read share of the regrouped row numbers, the 256 half-rows of the result it
  writes (32 trips × 4 rows × 2 halves, each spelt as the kernel addresses it), and — subcores 0 and 1 only — a read
  share of the padded table and the shared buffer it fills. It hands back the same, the half-rows at `outF`, and its
  shares of the two shared buffers.
-/
import proofs.«203043_g45337674776592_cont_8to1_c_201_37_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "oV" => (Memref.whole Cert.KernelIdeal.main_v3_scv : Memref Cert.KernelIdeal.sig Kind.scVector Space.hbm Cert.KernelIdeal.S4096x100x256 EltTy.f32)

variable (m : (ℓ : Loc nD τ sig) → Buf (Elt F) ℓ) (ρ : Dev nD → PrngReg)

theorem nSub_eq : τ.nSub = 16 := rfl
theorem nSC_eq : τ.nSC = 2 := rfl

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What duty `n` in tile `j`'s round hands over: tile 0's, share `j` of `tbl_a` at the table's left half; tile 1's,
    share `j` of `tbl_b` at the right half; the others', nothing. -/
def bPay (g : GSem nD τ sig) (n : ℕ) : sProp 𝕄 :=
  match g with
  | ((d, .scVector c j), _) =>
      if n = 0 then (shALoc d c ↦{sq (Fin.cast nSub_eq j)} tblA m d c)
      else if n = 1 then (shBLoc d c ↦{sq (Fin.cast nSub_eq j)} tblB m d c)
      else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing),
    its duty token in every tile's round 0, that each cell has reached round 0, its own position at the origin of
    round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The half-rows of the result, as the kernel addresses them -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Row `4·t + r` of worker `L`'s block of the result, [100, 256], and its two halves [100, 128]. -/
abbrev oRowK (L : grid0.Coords) (t : Fin k0_t1_loop.trips) (r : Fin 4) : Memref sig .scVector .hbm S100x256 .f32 :=
  ((oV).slice (Rect.unit (s := S4096x100x256) (k0_off4 L t (BitVec.ofNat 32 r.val)) S1x100x256.size (k0_off4_inb L t r)) (fun _ => rfl)).squeeze S100x256 squeezes_S1x100x256_S100x256
abbrev oHalfA (L : grid0.Coords) (t : Fin k0_t1_loop.trips) (r : Fin 4) : Memref sig .scVector .hbm S100x128 .f32 :=
  (oRowK L t r).slice (Rect.unit (s := S100x256) ![0, 0] S100x128.size inb_S100x256_S100x128_0_0) (fun _ => rfl)
abbrev oHalfB (L : grid0.Coords) (t : Fin k0_t1_loop.trips) (r : Fin 4) : Memref sig .scVector .hbm S100x128 .f32 :=
  (oRowK L t r).slice (Rect.unit (s := S100x256) ![0, 128] S100x128.size inb_S100x256_S100x128_0_128) (fun _ => rfl)

/-- Worker `L`'s 256 half-rows of the result at contents `f`. -/
def oPieces (d : Dev nD) (L : grid0.Coords) (f : Buf (Elt F) (oLoc d)) : sProp 𝕄 :=
  bigSep Finset.univ fun t : Fin k0_t1_loop.trips => bigSep Finset.univ fun r : Fin 4 =>
    iprop((oLoc d ↦[(oHalfA L t r).view.set]{fullShare} f) ∗ (oLoc d ↦[(oHalfB L t r).view.set]{fullShare} f))

/-! ## What the handshakes carry -/

abbrev coreOf (c : Fin ((K (F := F)).nCore 0)) : Fin τ.nSC := (K (F := F)).core 0 c
abbrev subOf (i : Fin ((K (F := F)).nSub 0)) : Fin τ.nSub := (K (F := F)).sub 0 i
/-- The grid coordinates of task `i` of the call's SparseCore `c`. -/
abbrev coordsOf (c : Fin ((K (F := F)).nCore 0)) (i : Fin ((K (F := F)).nSub 0)) : grid0.Coords := coordsV (Fin.cast nCore_zero c) (Fin.cast nSub_zero i)
abbrev widOf (c : Fin ((K (F := F)).nCore 0)) (i : Fin ((K (F := F)).nSub 0)) : Fin 32 := wid (Fin.cast nCore_zero c) (Fin.cast nSub_zero i)

/-- What subcore 0 (the left half) and subcore 1 (the right half) are handed besides: a read share of the padded
    table, and the shared buffer to fill. -/
def fillA (d : Dev nD) (c : Fin ((K (F := F)).nCore 0)) (i : Fin ((K (F := F)).nSub 0)) : sProp 𝕄 :=
  if i.val = 0 then iprop((tLoc d ↦{wq (widOf c i)} tblW m d) ∗ ∃ f, shALoc d (coreOf c) ↦{fullShare} f) else iprop(emp)
def fillB (d : Dev nD) (c : Fin ((K (F := F)).nCore 0)) (i : Fin ((K (F := F)).nSub 0)) : sProp 𝕄 :=
  if i.val = 1 then iprop((tLoc d ↦{wq (widOf c i)} tblW m d) ∗ ∃ f, shBLoc d (coreOf c) ↦{fullShare} f) else iprop(emp)
/-- and what they hand back of it: the table's share. -/
def fillA' (d : Dev nD) (c : Fin ((K (F := F)).nCore 0)) (i : Fin ((K (F := F)).nSub 0)) : sProp 𝕄 :=
  if i.val = 0 then (tLoc d ↦{wq (widOf c i)} tblW m d) else iprop(emp)
def fillB' (d : Dev nD) (c : Fin ((K (F := F)).nCore 0)) (i : Fin ((K (F := F)).nSub 0)) : sProp 𝕄 :=
  if i.val = 1 then (tLoc d ↦{wq (widOf c i)} tblW m d) else iprop(emp)

/-- A task's operands and its results. -/
def goV (d : Dev nD) (c : Fin ((K (F := F)).nCore 0)) (i : Fin ((K (F := F)).nSub 0)) : sProp 𝕄 :=
  iprop((iLoc d ↦{wq (widOf c i)} idx3 m d) ∗ oPieces d (coordsOf c i) (m (oLoc d)) ∗ fillA m d c i ∗ fillB m d c i)
def tdV (d : Dev nD) (c : Fin ((K (F := F)).nCore 0)) (i : Fin ((K (F := F)).nSub 0)) : sProp 𝕄 :=
  iprop((iLoc d ↦{wq (widOf c i)} idx3 m d) ∗ oPieces d (coordsOf c i) (outF m d) ∗ fillA' m d c i ∗ fillB' m d c i
    ∗ (shALoc d (coreOf c) ↦{sq (Fin.cast nSub_zero i)} tblA m d (coreOf c)) ∗ (shBLoc d (coreOf c) ↦{sq (Fin.cast nSub_zero i)} tblB m d (coreOf c)))

/-- The read share of the padded table that the two filling subcores carry. -/
def tblShare (d : Dev nD) (c : Fin ((K (F := F)).nCore 0)) (i : Fin ((K (F := F)).nSub 0)) : sProp 𝕄 :=
  if i.val = 0 ∨ i.val = 1 then (tLoc d ↦{wq (widOf c i)} tblW m d) else iprop(emp)

/-- A SparseCore's operands: its sixteen tasks' but the shared buffers (its sequencer's own); its results: its tasks'
    but their shares of the shared buffers. -/
def stV (d : Dev nD) (c : Fin ((K (F := F)).nCore 0)) : sProp 𝕄 :=
  bigSep Finset.univ fun i : Fin ((K (F := F)).nSub 0) =>
    iprop((iLoc d ↦{wq (widOf c i)} idx3 m d) ∗ oPieces d (coordsOf c i) (m (oLoc d))
      ∗ tblShare m d c i)
def dnV (d : Dev nD) (c : Fin ((K (F := F)).nCore 0)) : sProp 𝕄 :=
  bigSep Finset.univ fun i : Fin ((K (F := F)).nSub 0) =>
    iprop((iLoc d ↦{wq (widOf c i)} idx3 m d) ∗ oPieces d (coordsOf c i) (outF m d)
      ∗ tblShare m d c i)

instance fillA_storable (d : Dev nD) (c : Fin ((K (F := F)).nCore 0)) (i : Fin ((K (F := F)).nSub 0)) : BI.Storable (upEmb : UEmb _ 𝕄) (fillA m d c i) := by
  unfold fillA; split <;> infer_instance
instance fillB_storable (d : Dev nD) (c : Fin ((K (F := F)).nCore 0)) (i : Fin ((K (F := F)).nSub 0)) : BI.Storable (upEmb : UEmb _ 𝕄) (fillB m d c i) := by
  unfold fillB; split <;> infer_instance
instance fillA'_storable (d : Dev nD) (c : Fin ((K (F := F)).nCore 0)) (i : Fin ((K (F := F)).nSub 0)) : BI.Storable (upEmb : UEmb _ 𝕄) (fillA' m d c i) := by
  unfold fillA'; split <;> infer_instance
instance fillB'_storable (d : Dev nD) (c : Fin ((K (F := F)).nCore 0)) (i : Fin ((K (F := F)).nSub 0)) : BI.Storable (upEmb : UEmb _ 𝕄) (fillB' m d c i) := by
  unfold fillB'; split <;> infer_instance
instance tblShare_storable (d : Dev nD) (c : Fin ((K (F := F)).nCore 0)) (i : Fin ((K (F := F)).nSub 0)) : BI.Storable (upEmb : UEmb _ 𝕄) (tblShare m d c i) := by
  unfold tblShare; split <;> infer_instance
omit [FloatOps F] in
instance oPieces_storable (d : Dev nD) (L : grid0.Coords) (f : Buf (Elt F) (oLoc d)) : BI.Storable (upEmb : UEmb _ 𝕄) (oPieces d L f) := by
  unfold oPieces; infer_instance
instance goV_storable (d : Dev nD) (c : Fin ((K (F := F)).nCore 0)) (i : Fin ((K (F := F)).nSub 0)) : BI.Storable (upEmb : UEmb _ 𝕄) (goV m d c i) := by
  unfold goV; infer_instance
instance tdV_storable (d : Dev nD) (c : Fin ((K (F := F)).nCore 0)) (i : Fin ((K (F := F)).nSub 0)) : BI.Storable (upEmb : UEmb _ 𝕄) (tdV m d c i) := by
  unfold tdV; infer_instance
instance stV_storable (d : Dev nD) (c : Fin ((K (F := F)).nCore 0)) : BI.Storable (upEmb : UEmb _ 𝕄) (stV m d c) := by
  unfold stV; infer_instance
instance dnV_storable (d : Dev nD) (c : Fin ((K (F := F)).nCore 0)) : BI.Storable (upEmb : UEmb _ 𝕄) (dnV m d c) := by
  unfold dnV; infer_instance

/-- The one call: each task its operands and results; each task's proof consumes its barrier kit; each tile owes its
    arrivals at the barrier. -/
def P : (K (F := F)).Pay (nD := nD) (Val := Elt F) (Name := ℕ) (U := UU) where
  st := fun q d c => match q with | 0 => stV m d c
  dn := fun q d c => match q with | 0 => dnV m d c
  go := fun q d c i => match q with | 0 => goV m d c i
  td := fun q d c i => match q with | 0 => tdV m d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

/-! ## The program's result and what the run ends with -/

/-- The program's result [4096, 100, 200]: the first 200 columns of what the kernel leaves. -/
def resF (d : Dev nD) : Buf (Elt F) (rLoc d) :=
  extractStridedSlice S4096x100x200 ![0, 0, 0] (outF m d) slices_S4096x100x256_S4096x100x200_0_0_0

/-- What the run ends with: the result at `resF`, the two arguments unchanged. -/
def QC : PUnit × MemSt nD τ sig (Elt F) → Prop := fun r =>
  ∀ c : Dev nD, r.2.mem (rLoc c) = resF m c ∧ r.2.mem (xLoc c) = m (xLoc c) ∧ r.2.mem (aLoc c) = m (aLoc c)

instance P_storable : (P (F := F) m).IsStorable where
  st q d c := match q with | 0 => stV_storable m d c
  dn q d c := match q with | 0 => dnV_storable m d c
  go q d c i := match q with | 0 => goV_storable m d c i
  td q d c i := match q with | 0 => tdV_storable m d c i

end Cert.Proof.KI

end
-- ==== Proof.KI.Own.lean ====
/-
  A vector subcore's own scoped storage, split into the pieces the kernel names.

  The mathematics. A tile's own scoped semaphore cells are a finite set; so are its own buffers. The kernel names
  nineteen of the cells (its DMA semaphores, all scoped) and nine of the buffers (its private scratch; the two shared
  buffers are the SparseCore's, not the tile's). A big separating conjunction over a finite set s, and a duplicate-free
  list l of members of s, is the conjunct at each entry of l in turn beside the big conjunction over s \ l: peel the
  entries off one at a time, each absent from what is left because the list has no duplicates. The nineteen semaphores
  are pairwise distinct because their numbers are, and the map from a semaphore's number to the tile's cell is
  injective; likewise the nine buffers under the map from a tile's reference to the device's buffer.
-/
import proofs.«203043_g45337674776592_cont_8to1_c_201_37_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Peeling a list off a big separating conjunction -/

namespace Own

/-- The conjuncts at a duplicate-free list, one after the other, beside the big conjunction over a set the list
    avoids: together the big conjunction over both. -/
theorem bigSep_peel {M : Type} [URA M] {I : Type} [DecidableEq I] (Φ : I → sProp M) (t : Finset I) (l : List I)
    (hn : l.Nodup) (hd : ∀ a ∈ l, a ∉ t) :
    bigSep (l.toFinset ∪ t) Φ = l.foldr (fun a acc => iprop(Φ a ∗ acc)) (bigSep t Φ) := by
  induction l with
  | nil =>
    show bigSep (([] : List I).toFinset ∪ t) Φ = bigSep t Φ
    rw [List.toFinset_nil, Finset.empty_union]
  | cons a l ih =>
    have hn' := List.nodup_cons.mp hn
    have hnot : a ∉ l.toFinset ∪ t := fun h => by
      rcases Finset.mem_union.mp h with h | h
      · exact hn'.1 (List.mem_toFinset.mp h)
      · exact hd a (List.mem_cons.mpr (Or.inl rfl)) h
    show bigSep ((a :: l).toFinset ∪ t) Φ = iprop(Φ a ∗ l.foldr (fun a acc => iprop(Φ a ∗ acc)) (bigSep t Φ))
    rw [List.toFinset_cons, Finset.insert_union, SparseCore.bigSep_insert' hnot, ih hn'.2 fun b hb => hd b (List.mem_cons_of_mem _ hb)]

/-- A duplicate-free list of members of a finite set, peeled off the big conjunction over the set; what is left is
    named, so that a use may name it as it pleases. -/
theorem bigSep_peel_sub {M : Type} [URA M] {I : Type} [DecidableEq I] (Φ : I → sProp M) (s : Finset I) (l : List I)
    (R : Finset I) (hR : R = s \ l.toFinset) (hn : l.Nodup) (hs : ∀ a ∈ l, a ∈ s) :
    bigSep s Φ = l.foldr (fun a acc => iprop(Φ a ∗ acc)) (bigSep R Φ) := by
  subst hR
  have h : l.toFinset ∪ s \ l.toFinset = s := Finset.union_sdiff_of_subset fun a ha => hs a (List.mem_toFinset.mp ha)
  calc bigSep s Φ = bigSep (l.toFinset ∪ s \ l.toFinset) Φ := by rw [h]
    _ = _ := bigSep_peel Φ (s \ l.toFinset) l hn fun a ha h' => (Finset.mem_sdiff.mp h').2 (List.mem_toFinset.mpr ha)

/-- The tile's nineteen DMA semaphores, in the order the kernel names them. -/
def dsems : List (DmaSem sig) :=
  [cc0_scratch11.sem, cc0_scratch12.sem, cc0_scratch13.sem, cc0_scratch14.sem, cc0_scratch15.sem, cc0_scratch16.sem, cc0_scratch17.sem, cc0_scratch18.sem, cc0_scratch19.sem, cc0_scratch20.sem, cc0_scratch21.sem, cc0_scratch22.sem, cc0_scratch23.sem, cc0_scratch24.sem, cc0_scratch25.sem, cc0_scratch26.sem, cc0_scoped0.sem, cc0_scoped1.sem, cc0_scoped2.sem]

/-- The tile's nine private scratch buffers, in the order the kernel names them. -/
def drefs : List (Ref sig .scVector) := [cc0_scratch0, cc0_scratch3, cc0_scratch4, cc0_scratch5, cc0_scratch6, cc0_scratch7, cc0_scratch8, cc0_scratch9, cc0_scratch10]

theorem dsems_nodup : dsems.Nodup := by decide
theorem dsems_scoped : ∀ k ∈ dsems, (SemLoc.dma k : SemLoc sig).isScoped .scVector = true := by decide
theorem drefs_nodup : drefs.Nodup := by decide
/-- Each of the nine is the tile's own, not its SparseCore's. -/
theorem drefs_owner (c : Fin τ.nSC) (j : Fin τ.nSub) :
    ∀ r ∈ drefs, ((Proc.scVector c j).devRef r : DevRef τ sig).owner = .proc (.scVector c j) := by
  intro r hr
  simp only [drefs, List.mem_cons, List.mem_nil_iff, or_false] at hr
  rcases hr with rfl | rfl | rfl | rfl | rfl | rfl | rfl | rfl | rfl <;> rfl

end Own

/-! ## The tile at grid coordinates L -/

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)
/-- The tile's cell of DMA semaphore k. -/
abbrev dcell (d : Dev nD) (L : grid0.Coords) (k : DmaSem sig) : GSem nD τ sig := (V d (cV L) (jV L), .dma k)

theorem dcell_injective : Function.Injective (dcell d L) := fun _ _ e => SemLoc.dma.inj (Prod.mk.inj e).2

/-- The tile's own scoped cells other than the nineteen the kernel names. -/
def restCells (d : Dev nD) (L : grid0.Coords) : Finset (GSem nD τ sig) :=
  ownCells (V d (cV L) (jV L)) \ (Own.dsems.map (dcell d L)).toFinset
/-- The tile's own buffers other than the nine the kernel names. -/
def restRefs (L : grid0.Coords) : Finset (DevRef τ sig) :=
  ownRefs (τ := τ) (.scVector (cV L) (jV L)) \ (Own.drefs.map (Proc.scVector (cV L) (jV L)).devRef).toFinset

/-- The nineteen DMA semaphores are among the tile's own scoped cells: they, each at zero, and the rest. -/
theorem ownSems0_V :
    (ownSems0 (V d (cV L) (jV L)) : sProp 𝕄)
      = iprop(semVal (dcell d L cc0_scratch11.sem) 0 ∗ semVal (dcell d L cc0_scratch12.sem) 0 ∗ semVal (dcell d L cc0_scratch13.sem) 0
          ∗ semVal (dcell d L cc0_scratch14.sem) 0 ∗ semVal (dcell d L cc0_scratch15.sem) 0 ∗ semVal (dcell d L cc0_scratch16.sem) 0
          ∗ semVal (dcell d L cc0_scratch17.sem) 0 ∗ semVal (dcell d L cc0_scratch18.sem) 0 ∗ semVal (dcell d L cc0_scratch19.sem) 0
          ∗ semVal (dcell d L cc0_scratch20.sem) 0 ∗ semVal (dcell d L cc0_scratch21.sem) 0 ∗ semVal (dcell d L cc0_scratch22.sem) 0
          ∗ semVal (dcell d L cc0_scratch23.sem) 0 ∗ semVal (dcell d L cc0_scratch24.sem) 0 ∗ semVal (dcell d L cc0_scratch25.sem) 0
          ∗ semVal (dcell d L cc0_scratch26.sem) 0 ∗ semVal (dcell d L cc0_scoped0.sem) 0 ∗ semVal (dcell d L cc0_scoped1.sem) 0
          ∗ semVal (dcell d L cc0_scoped2.sem) 0
          ∗ bigSep (restCells d L) fun g => semVal g 0) := by
  unfold SparseCore.Cfg.ownSems0
  have h := Own.bigSep_peel_sub (fun g => (semVal g 0 : sProp 𝕄)) (ownCells (V d (cV L) (jV L))) (Own.dsems.map (dcell d L))
    (restCells d L) rfl (List.Nodup.map (dcell_injective d L) Own.dsems_nodup)
    (fun a ha => by
      obtain ⟨k, hk, rfl⟩ := List.mem_map.mp ha
      exact mem_ownCells.mpr ⟨rfl, Own.dsems_scoped k hk⟩)
  simp only [Own.dsems, List.map_cons, List.map_nil, List.foldr_cons, List.foldr_nil] at h
  exact h

/-- The nine scratch buffers are among the tile's own: they, each whole at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch3 ↦{fullShare} f) ∗ (∃ f, (V d (cV L) (jV L)).loc cc0_scratch4 ↦{fullShare} f)
          ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f)
          ∗ bigSep (restRefs L) fun b => iprop(∃ f, ((d, b) : Loc nD τ sig) ↦{fullShare} f)) := by
  unfold SparseCore.Cfg.ownBufs
  have h := Own.bigSep_peel_sub (fun b : DevRef τ sig => (iprop(∃ f, ((d, b) : Loc nD τ sig) ↦{fullShare} f) : sProp 𝕄))
    (ownRefs (τ := τ) (.scVector (cV L) (jV L))) (Own.drefs.map (Proc.scVector (cV L) (jV L)).devRef)
    (restRefs L) rfl (List.Nodup.map (Proc.devRef_injective _) Own.drefs_nodup)
    (fun b hb => by
      obtain ⟨r, hr, rfl⟩ := List.mem_map.mp hb
      exact SparseCore.Cfg.mem_ownRefs_of_owner (Own.drefs_owner (cV L) (jV L) r hr))
  simp only [Own.drefs, List.map_cons, List.map_nil, List.foldr_cons, List.foldr_nil] at h
  exact h

end Cert.Proof.KI

end
-- ==== Proof.KI.Geom.lean ====
/-
  How the arrays divide among the 32 workers: a read-only array into 32 equal shares, a shared buffer into 16, and the
  kernel's result [4096, 100, 256] into the 32 × 32 × 4 × 2 half-rows [100, 128] the workers write (worker w = 2·s + c,
  trip t, row r of the trip: row 128·w + 4·t + r of the result, columns 0 … 127 or 128 … 255), which are pairwise
  disjoint and cover it.
-/
import proofs.«203043_g45337674776592_cont_8to1_c_201_37_alg».proof.Proof.KI.Pay
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "oV" => (Memref.whole Cert.KernelIdeal.main_v3_scv : Memref Cert.KernelIdeal.sig Kind.scVector Space.hbm Cert.KernelIdeal.S4096x100x256 EltTy.f32)

/-! ## Shares: a points-to at a share is its leaves' -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once: halve the share, and each half is its own leaves'. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker numbers: (c, s) ↦ 2·s + c is a bijection of 2 × 16 onto 32. -/
def pairEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, s⟩
    have hc := c.isLt
    have hs := s.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- The same over the call's own index types. -/
def wEquiv : Fin ((K (F := F)).nCore 0) × Fin ((K (F := F)).nSub 0) ≃ Fin (2 ^ 5) :=
  ((finCongr nCore_zero).prodCongr (finCongr nSub_zero)).trans pairEquiv

theorem wEquiv_apply (c : Fin ((K (F := F)).nCore 0)) (i : Fin ((K (F := F)).nSub 0)) : wEquiv (c, i) = widOf c i := rfl

/-- A full points-to is the 32 workers' shares of it. -/
theorem pts_wq {ℓ : Loc nD τ sig} (f : Buf (Elt F) ℓ) :
    (ℓ ↦{fullShare} f : sProp 𝕄) = bigSep Finset.univ fun c : Fin ((K (F := F)).nCore 0) =>
      bigSep Finset.univ fun i : Fin ((K (F := F)).nSub 0) => ℓ ↦{wq (widOf c i)} f :=
  (pointsTo_leaves Finset.univ f 5 fullShare).trans <|
    (bigSep_univ_equiv (wEquiv (F := F)) (fun w : Fin (2 ^ 5) => (ℓ ↦{leaf 5 fullShare w} f : sProp 𝕄))).trans <|
      bigSep_univ_prod (fun p : Fin ((K (F := F)).nCore 0) × Fin ((K (F := F)).nSub 0) => (ℓ ↦{leaf 5 fullShare (wEquiv p)} f : sProp 𝕄))

/-- A full points-to is the 16 subcores' shares of it. -/
theorem pts_sq {ℓ : Loc nD τ sig} (f : Buf (Elt F) ℓ) :
    (ℓ ↦{fullShare} f : sProp 𝕄) = bigSep Finset.univ fun i : Fin ((K (F := F)).nSub 0) => ℓ ↦{sq (Fin.cast nSub_zero i)} f :=
  (pointsTo_leaves Finset.univ f 4 fullShare).trans <|
    bigSep_univ_equiv (finCongr (nSub_zero (F := F))) (fun s : Fin (2 ^ 4) => (ℓ ↦{leaf 4 fullShare s} f : sProp 𝕄))

/-! ## The elements of a half-row -/

theorem geom_trips_eq : k0_t1_loop.trips = 32 := by decide

theorem geom_lt4096 {R : ℕ} (inb : ∀ a, (![R, 0, 0] : Fin 3 → ℕ) a + S1x100x256.size a ≤ S4096x100x256.size a) : R < 4096 := by
  have h := inb 0
  have e : (![R, 0, 0] : Fin 3 → ℕ) 0 + S1x100x256.size 0 = R + 1 := rfl
  have e' : S4096x100x256.size 0 = 4096 := rfl
  omega
theorem geom_lt256 {c0 : ℕ} (inb2 : ∀ a, (![0, c0] : Fin 2 → ℕ) a + S100x128.size a ≤ S100x256.size a) (b : Fin 128) : c0 + b.val < 256 := by
  have h := inb2 1
  have e : (![0, c0] : Fin 2 → ℕ) 1 + S100x128.size 1 = c0 + 128 := rfl
  have e' : S100x256.size 1 = 256 := rfl
  have := b.isLt
  omega

/-- Where an index (a, b) of a half-row sits in the result: at the row, at a, and at b moved by the half's first column. -/
theorem half_emb {R c0 : ℕ} (inb : ∀ a, (![R, 0, 0] : Fin 3 → ℕ) a + S1x100x256.size a ≤ S4096x100x256.size a)
    (inb2 : ∀ a, (![0, c0] : Fin 2 → ℕ) a + S100x128.size a ≤ S100x256.size a) (a : Fin 100) (b : Fin 128) :
    ((((oV).slice (Rect.unit (s := S4096x100x256) ![R, 0, 0] S1x100x256.size inb) (fun _ => rfl)).squeeze S100x256 squeezes_S1x100x256_S100x256).slice
          (Rect.unit (s := S100x256) ![0, c0] S100x128.size inb2) (fun _ => rfl)).view.emb (ix2 a b)
      = ix3 (⟨R, geom_lt4096 inb⟩ : Fin 4096) a (⟨c0 + b.val, geom_lt256 inb2 b⟩ : Fin 256) := by
  show (Rect.unit (s := S4096x100x256) ![R, 0, 0] S1x100x256.size inb).emb
      (Shape.reshapeEquiv squeezes_S1x100x256_S100x256.numel_eq ((Rect.unit (s := S100x256) ![0, c0] S100x128.size inb2).emb (ix2 a b))) = _
  have e2 : (Rect.unit (s := S100x256) ![0, c0] S100x128.size inb2).emb (ix2 a b) = ix2 a (⟨c0 + b.val, geom_lt256 inb2 b⟩ : Fin 256) := by
    funext k; refine Fin.ext ?_; rw [Rect.emb_apply]
    match k with
    | 0 => show 0 + 1 * a.val = a.val; omega
    | 1 => show c0 + 1 * b.val = c0 + b.val; omega
  rw [e2, reshapeEquiv_ix2_1ab]
  funext k; refine Fin.ext ?_; rw [Rect.emb_apply]
  match k with
  | 0 => show R + 1 * 0 = R; omega
  | 1 => show 0 + 1 * a.val = a.val; omega
  | 2 => show 0 + 1 * (c0 + b.val) = c0 + b.val; omega

/-- The elements of a half-row: the row, and the half's 128 columns. -/
theorem mem_half {R c0 : ℕ} (inb : ∀ a, (![R, 0, 0] : Fin 3 → ℕ) a + S1x100x256.size a ≤ S4096x100x256.size a)
    (inb2 : ∀ a, (![0, c0] : Fin 2 → ℕ) a + S100x128.size a ≤ S100x256.size a) (j : S4096x100x256.Idx) :
    j ∈ ((((oV).slice (Rect.unit (s := S4096x100x256) ![R, 0, 0] S1x100x256.size inb) (fun _ => rfl)).squeeze S100x256 squeezes_S1x100x256_S100x256).slice
          (Rect.unit (s := S100x256) ![0, c0] S100x128.size inb2) (fun _ => rfl)).view.set
      ↔ (j 0).val = R ∧ c0 ≤ (j 2).val ∧ (j 2).val < c0 + 128 := by
  unfold View.set
  rw [Finset.mem_map]
  constructor
  · rintro ⟨x, -, rfl⟩
    obtain ⟨a, b, rfl⟩ : ∃ (a : Fin 100) (b : Fin 128), x = ix2 a b := ⟨x 0, x 1, eq_ix2 x⟩
    rw [half_emb inb inb2 a b]
    exact ⟨rfl, Nat.le_add_right _ _, Nat.add_lt_add_left b.isLt _⟩
  · rintro ⟨h0, h1, h2⟩
    refine ⟨ix2 (⟨(j 1).val, (j 1).isLt⟩ : Fin 100) (⟨(j 2).val - c0, by omega⟩ : Fin 128), Finset.mem_univ _, (half_emb inb inb2 _ _).trans ?_⟩
    funext k; refine Fin.ext ?_
    match k with
    | 0 => exact h0.symm
    | 1 => rfl
    | 2 => show c0 + ((j 2).val - c0) = (j 2).val; omega

/-- The same with the row's offset given by an equation. -/
theorem mem_half' {R c0 : ℕ} (off : Fin 3 → ℕ) (hoff : off = ![R, 0, 0]) (inb : ∀ a, off a + S1x100x256.size a ≤ S4096x100x256.size a)
    (inb2 : ∀ a, (![0, c0] : Fin 2 → ℕ) a + S100x128.size a ≤ S100x256.size a) (j : S4096x100x256.Idx) :
    j ∈ ((((oV).slice (Rect.unit (s := S4096x100x256) off S1x100x256.size inb) (fun _ => rfl)).squeeze S100x256 squeezes_S1x100x256_S100x256).slice
          (Rect.unit (s := S100x256) ![0, c0] S100x128.size inb2) (fun _ => rfl)).view.set
      ↔ (j 0).val = R ∧ c0 ≤ (j 2).val ∧ (j 2).val < c0 + 128 := by
  subst hoff; exact mem_half inb inb2 j

theorem mem_oHalfA (L : grid0.Coords) (t : Fin k0_t1_loop.trips) (r : Fin 4) (j : S4096x100x256.Idx) :
    j ∈ (oHalfA L t r).view.set ↔ (j 0).val = 256 * (L 1).val + 128 * (L 0).val + 4 * t.val + r.val ∧ 0 ≤ (j 2).val ∧ (j 2).val < 0 + 128 :=
  mem_half' _ (k0_off4_eq L t r) (k0_off4_inb L t r) inb_S100x256_S100x128_0_0 j
theorem mem_oHalfB (L : grid0.Coords) (t : Fin k0_t1_loop.trips) (r : Fin 4) (j : S4096x100x256.Idx) :
    j ∈ (oHalfB L t r).view.set ↔ (j 0).val = 256 * (L 1).val + 128 * (L 0).val + 4 * t.val + r.val ∧ 128 ≤ (j 2).val ∧ (j 2).val < 128 + 128 :=
  mem_half' _ (k0_off4_eq L t r) (k0_off4_inb L t r) inb_S100x256_S100x128_0_128 j

/-! ## The half-rows: pairwise disjoint, and all of the result -/

/-- A half-row's name: SparseCore, subcore, trip, row of the trip, half. -/
abbrev HRow (F : FTy → Type) : Type :=
  Fin ((K (F := F)).nCore 0) × Fin ((K (F := F)).nSub 0) × Fin k0_t1_loop.trips × Fin 4 × Fin 2

/-- Its elements. -/
def hset (x : HRow F) : Finset S4096x100x256.Idx :=
  if x.2.2.2.2 = 0 then (oHalfA (coordsOf x.1 x.2.1) x.2.2.1 x.2.2.2.1).view.set else (oHalfB (coordsOf x.1 x.2.1) x.2.2.1 x.2.2.2.1).view.set

theorem hset_zero (c : Fin ((K (F := F)).nCore 0)) (i : Fin ((K (F := F)).nSub 0)) (t : Fin k0_t1_loop.trips) (r : Fin 4) :
    hset (F := F) (c, i, t, r, 0) = (oHalfA (coordsOf c i) t r).view.set := if_pos rfl
theorem hset_one (c : Fin ((K (F := F)).nCore 0)) (i : Fin ((K (F := F)).nSub 0)) (t : Fin k0_t1_loop.trips) (r : Fin 4) :
    hset (F := F) (c, i, t, r, 1) = (oHalfB (coordsOf c i) t r).view.set := if_neg (show ¬ (1 : Fin 2) = 0 by decide)

/-- Row 256·s + 128·c + 4·t + r, columns 128·h … 128·h + 127. -/
theorem mem_hset (c : Fin ((K (F := F)).nCore 0)) (i : Fin ((K (F := F)).nSub 0)) (t : Fin k0_t1_loop.trips) (r : Fin 4) (h : Fin 2) (j : S4096x100x256.Idx) :
    j ∈ hset (F := F) (c, i, t, r, h) ↔ (j 0).val = 256 * i.val + 128 * c.val + 4 * t.val + r.val ∧ 128 * h.val ≤ (j 2).val ∧ (j 2).val < 128 * h.val + 128 := by
  match h with
  | 0 => rw [hset_zero, mem_oHalfA]; exact Iff.rfl
  | 1 => rw [hset_one, mem_oHalfB]; exact Iff.rfl

theorem hset_disjoint {x x' : HRow F} (hne : x ≠ x') : Disjoint (hset x) (hset x') := by
  obtain ⟨c, i, t, r, h⟩ := x
  obtain ⟨c', i', t', r', h'⟩ := x'
  rw [Finset.disjoint_left]
  intro j hj hj'
  have h1 := (mem_hset c i t r h j).mp hj
  have h2 := (mem_hset c' i' t' r' h' j).mp hj'
  clear hj hj'
  have hc : c.val < 2 := c.isLt
  have hc' : c'.val < 2 := c'.isLt
  have hi : i.val < 16 := i.isLt
  have hi' : i'.val < 16 := i'.isLt
  have ht : t.val < 32 := Nat.lt_of_lt_of_eq t.isLt geom_trips_eq
  have ht' : t'.val < 32 := Nat.lt_of_lt_of_eq t'.isLt geom_trips_eq
  have hr := r.isLt
  have hr' := r'.isLt
  have hh := h.isLt
  have hh' := h'.isLt
  refine hne (Prod.ext (Fin.ext ?_) (Prod.ext (Fin.ext ?_) (Prod.ext (Fin.ext ?_) (Prod.ext (Fin.ext ?_) (Fin.ext ?_)))))
  · show c.val = c'.val; omega
  · show i.val = i'.val; omega
  · show t.val = t'.val; omega
  · show r.val = r'.val; omega
  · show h.val = h'.val; omega

theorem hset_cover : (Finset.univ : Finset (HRow F)).biUnion hset = Finset.univ := by
  ext j
  simp only [Finset.mem_biUnion, Finset.mem_univ, true_and, iff_true]
  have h0 : (j 0).val < 4096 := (j 0).isLt
  have h2 : (j 2).val < 256 := (j 2).isLt
  refine ⟨(⟨(j 0).val / 128 % 2, show _ < 2 by omega⟩, ⟨(j 0).val / 256, show _ < 16 by omega⟩,
      ⟨(j 0).val % 128 / 4, Nat.lt_of_lt_of_eq (show (j 0).val % 128 / 4 < 32 by omega) geom_trips_eq.symm⟩, ⟨(j 0).val % 4, by omega⟩, ⟨(j 2).val / 128, by omega⟩), ?_⟩
  refine (mem_hset _ _ _ _ _ j).mpr ⟨?_, ?_, ?_⟩
  · show (j 0).val = 256 * ((j 0).val / 256) + 128 * ((j 0).val / 128 % 2) + 4 * ((j 0).val % 128 / 4) + (j 0).val % 4; omega
  · show 128 * ((j 2).val / 128) ≤ (j 2).val; omega
  · show (j 2).val < 128 * ((j 2).val / 128) + 128; omega

/-- The kernel's result whole is the 32 workers' half-rows of it. -/
theorem oPts_pieces (d : Dev nD) (f : Buf (Elt F) (oLoc d)) :
    (oLoc d ↦{fullShare} f : sProp 𝕄) = bigSep Finset.univ fun c : Fin ((K (F := F)).nCore 0) =>
      bigSep Finset.univ fun i : Fin ((K (F := F)).nSub 0) => oPieces d (coordsOf c i) f := by
  have h : (oLoc d ↦[(Finset.univ : Finset (HRow F)).biUnion hset]{fullShare} f : sProp 𝕄)
      = bigSep Finset.univ fun x : HRow F => oLoc d ↦[hset x]{fullShare} f :=
    pointsTo_biUnion Finset.univ (ℓ := oLoc d) hset fun x _ x' _ hne => hset_disjoint hne
  rw [hset_cover] at h
  refine h.trans ?_
  rw [bigSep_univ_prod]
  refine bigSep_congr fun c _ => ?_
  rw [bigSep_univ_prod]
  refine bigSep_congr fun i _ => ?_
  unfold oPieces
  rw [bigSep_univ_prod]
  refine bigSep_congr fun t _ => ?_
  rw [bigSep_univ_prod]
  refine bigSep_congr fun r _ => ?_
  rw [bigSep_univ_two, hset_zero, hset_one]

end Cert.Proof.KI

end
-- ==== Proof.LibUpdateSliceRead.lean ====
/-
  An array with a rectangle of it replaced, read inside the rectangle. `updateSlice x upd start` is `x` except on the
  window of `upd`'s shape at the offsets `start`, where it holds `upd`; read at an index that lies in the window, at
  position `k` of it, it is `upd k`. The host's `dynamic_update_slice` clamps its start indices into the operand; with
  every start index 0 the window sits at the origin, and an index whose coordinates are those of `k` reads `upd k`: a
  table padded with further columns still reads, at a column of the original, the original's entry.
-/
import Idealize.ShloMosaic.Lib.Pipeline.Value

noncomputable section

namespace Idealize.ShloMosaic

variable {α : Type} {s u : Shape}

/-- `updateSlice` read at an index inside the window: the update at the index's position in the window. -/
theorem updateSlice_apply_inside (x : s.Idx → α) (upd : u.Idx → α) (start : Fin s.rank → Nat) (h : s.Slices start u)
    (i : s.Idx) (k : u.Idx) (hk : ∀ a : Fin s.rank, (i a).val = start a + (k (a.cast h.1.symm)).val) :
    updateSlice x upd start h i = upd k := by
  unfold updateSlice
  rw [dif_pos (fun a => ⟨by rw [hk a]; omega, by rw [hk a]; have := (k (a.cast h.1.symm)).isLt; omega⟩)]
  refine congrArg upd (funext fun b => Fin.ext ?_)
  show (i (b.cast h.1)).val - start (b.cast h.1) = (k b).val
  rw [hk (b.cast h.1)]
  show start (b.cast h.1) + (k b).val - start (b.cast h.1) = (k b).val
  omega

/-- The host's `dynamic_update_slice` with every start index 0, read at an index with the coordinates of position `k` of
    the update: the update at `k`. -/
theorem Host.dynamicUpdateSlice_zero_apply (x : s.Idx → α) (upd : u.Idx → α) (start : Fin s.rank → Int)
    (hs : ∀ a, start a = 0) (h : s.Slices (fun _ => 0) u) (i : s.Idx) (k : u.Idx)
    (hk : ∀ a : Fin s.rank, (i a).val = (k (a.cast h.1.symm)).val) :
    Host.dynamicUpdateSlice x upd start h i = upd k := by
  rw [Host.dynamicUpdateSlice_eq_updateSlice x upd start h (fun _ => 0) (fun a => by rw [hs a]; omega) h]
  exact updateSlice_apply_inside x upd _ h i k (fun a => by rw [hk a]; omega)

end Idealize.ShloMosaic

end
-- ==== Proof.KI.Value.lean ====
/-
  What the program on the SparseCores computes, entry by entry: the lookup. Its result is the first 200 columns of the
  kernel's [4096, 100, 256] array, which at (R, r, k) holds entry k of the padded table's row named by the regrouped row
  numbers at (R / 128, R % 128, r). Regrouping [4096, 100] as [32, 128, 100] keeps the row-major order, and
  (R / 128) · 128 + R % 128 = R, so that row number is x(R, r); the padded table is the table with zero columns added on
  the right, so at a column k < 200 it reads the table's own entry. Hence the result at (R, r, k) is entry k of row
  x(R, r) of the table. This is data movement only: it holds however floats are read, and for every index array.
-/
import proofs.«203043_g45337674776592_cont_8to1_c_201_37_alg».proof.Proof.KI.Pay
import proofs.«203043_g45337674776592_cont_8to1_c_201_37_alg».proof.Proof.LibUpdateSliceRead

noncomputable section

namespace Cert.Proof.KI

open Cert.KernelIdeal Cert.KernelIdeal.Gen

open Idealize.ShloMosaic
open Idealize.ShloMosaic.SparseCore (S V T)
open Idealize.SL.Sem
open Idealize.ShloMosaic.ValueIdx

variable {F : FTy → Type}

variable (m : (ℓ : Loc nD τ sig) → Buf (Elt F) ℓ)

variable [FloatOps F]

/-- The regrouped row numbers at (q, p, r) are the row numbers at (128 · q + p, r): both arrays list the same entries in
    row-major order. -/
theorem idx3_apply (d : Dev nD) (q : Fin 32) (p : Fin 128) (r : Fin 100) :
    (idx3 m d : S32x128x100.Idx → BitVec 32) (ix3 q p r)
      = (m (xLoc d) : S4096x100.Idx → BitVec 32) (ix2 (⟨q.val * 128 + p.val, by omega⟩ : Fin 4096) r) := by
  unfold idx3
  refine shapeCast_apply _ _ _ _ ?_
  show (S4096x100.rowMajor (ix2 (⟨q.val * 128 + p.val, by omega⟩ : Fin 4096) r)).val = (S32x128x100.rowMajor (ix3 q p r)).val
  rw [Shape.rowMajor_val_two, Shape.rowMajor_val_three]
  rfl

/-- The padded table at a column of the table is the table's entry. -/
theorem tblW_apply (d : Dev nD) (q : Fin 120) (k : Fin 256) (hk : k.val < 200) :
    (tblW m d : S120x256.Idx → F .f32) (ix2 q k) = (m (aLoc d) : S120x200.Idx → F .f32) (ix2 q (⟨k.val, hk⟩ : Fin 200)) := by
  unfold tblW
  refine Host.dynamicUpdateSlice_zero_apply _ _ _ (fun _ => ?_) _ _ _ (fun a => ?_)
  · show (0#32 : BitVec 32).toInt = 0
    decide
  · match a with
    | ⟨0, _⟩ => rfl
    | ⟨1, _⟩ => rfl

/-- What the kernel leaves, at (R, r, k) with k < 200: entry k of row x(R, r) of the table. -/
theorem outF_apply (d : Dev nD) (R : Fin 4096) (r : Fin 100) (k : Fin 256) (hk : k.val < 200) :
    (outF m d : S4096x100x256.Idx → F .f32) (ix3 R r k)
      = (m (aLoc d) : S120x200.Idx → F .f32)
          (ix2 (Cert.Proof.Spec.rowOf ((m (xLoc d) : S4096x100.Idx → BitVec 32) (ix2 R r))) (⟨k.val, hk⟩ : Fin 200)) := by
  show (tblW m d : S120x256.Idx → F .f32) (ix2 (Cert.Proof.Spec.rowOf ((idx3 m d : S32x128x100.Idx → BitVec 32)
      (ix3 (⟨R.val / 128, by omega⟩ : Fin 32) (⟨R.val % 128, Nat.mod_lt _ (by decide)⟩ : Fin 128) r))) k) = _
  rw [tblW_apply m d _ k hk, idx3_apply]
  have e : (⟨R.val / 128 * 128 + R.val % 128, by omega⟩ : Fin 4096) = R := Fin.ext (Nat.div_add_mod' R.val 128)
  rw [e]

/-- THE VALUE: the program's result is the lookup of the row numbers in the table. -/
theorem resF_eq (hpre : PreOK m) (d : Dev nD) : resF m d = Cert.Proof.Spec.lookup (m (xLoc d)) (m (aLoc d)) := by
  show (resF m d : S4096x100x200.Idx → F .f32) = _
  funext i
  obtain ⟨R, r, k, rfl⟩ : ∃ (R : Fin 4096) (r : Fin 100) (k : Fin 200), i = ix3 R r k := ⟨i 0, i 1, i 2, eq_ix3 i⟩
  rw [Cert.Proof.Spec.lookup_apply]
  unfold resF
  rw [extractStridedSlice_apply _ _ _ _ (ix3 R r (⟨k.val, by omega⟩ : Fin 256)) (fun a => by
    match a with
    | ⟨0, _⟩ => show R.val = 0 + R.val; omega
    | ⟨1, _⟩ => show r.val = 0 + r.val; omega
    | ⟨2, _⟩ => show k.val = 0 + k.val; omega)]
  exact outF_apply m d R r _ k.isLt

end Cert.Proof.KI

end
-- ==== Proof.KI.BodyDefs.lean ====
/-
  The vocabulary of one tile's task: the tile's own buffers as the task addresses them, the read tokens, what the list
  buffer holds after the fetch, what a gather leaves in a row buffer, what each transfer in flight delivers, and the
  state between two trips of the task's loop.

  The task's loop. Rows are numbered j = 0 … 127 within the worker's block; row j uses slot j mod 4 (row buffers A and B
  of that slot, a gather cell and a write cell for each). Trip k handles rows 4k … 4k+3. For each row j in turn it
  (a) if j + 2 < 128: waits for the write of row j − 2 (same slot as j + 2) when j ≥ 2, and issues the gathers of row
  j + 2; (b) waits for the gathers of row j and issues the writes of row j. So before trip k (k < 32) the gathers of
  rows 4k and 4k+1 are in flight and — for k ≥ 1 — so are the writes of rows 4k−2 and 4k−1; after the last trip the
  writes of rows 124 … 127 are in flight and nothing else.
-/
import proofs.«203043_g45337674776592_cont_8to1_c_201_37_alg».proof.Proof.KI.Own
import proofs.«203043_g45337674776592_cont_8to1_c_201_37_alg».proof.Proof.KI.Geom
import proofs.«203043_g45337674776592_cont_8to1_c_201_37_alg».proof.Proof.KI.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The buffers as the task addresses them -/

omit [FloatOps F] in
theorem pts_sV (q : PosShare TreeShare) (f : Buf (Elt F) ((V d (cV L) (jV L)).loc cc0_scratch0)) :
    ((sV).view.loc (V d (cV L) (jV L)) ↦{q} f : sProp 𝕄) = (V d (cV L) (jV L)).loc cc0_scratch0 ↦{q} f := rfl
omit [FloatOps F] in
theorem pts_rA0 (q : PosShare TreeShare) (f : Buf (Elt F) ((V d (cV L) (jV L)).loc cc0_scratch3)) :
    ((rA0).view.loc (V d (cV L) (jV L)) ↦{q} f : sProp 𝕄) = (V d (cV L) (jV L)).loc cc0_scratch3 ↦{q} f := rfl
omit [FloatOps F] in
theorem pts_rA1 (q : PosShare TreeShare) (f : Buf (Elt F) ((V d (cV L) (jV L)).loc cc0_scratch4)) :
    ((rA1).view.loc (V d (cV L) (jV L)) ↦{q} f : sProp 𝕄) = (V d (cV L) (jV L)).loc cc0_scratch4 ↦{q} f := rfl
omit [FloatOps F] in
theorem pts_rA2 (q : PosShare TreeShare) (f : Buf (Elt F) ((V d (cV L) (jV L)).loc cc0_scratch5)) :
    ((rA2).view.loc (V d (cV L) (jV L)) ↦{q} f : sProp 𝕄) = (V d (cV L) (jV L)).loc cc0_scratch5 ↦{q} f := rfl
omit [FloatOps F] in
theorem pts_rA3 (q : PosShare TreeShare) (f : Buf (Elt F) ((V d (cV L) (jV L)).loc cc0_scratch6)) :
    ((rA3).view.loc (V d (cV L) (jV L)) ↦{q} f : sProp 𝕄) = (V d (cV L) (jV L)).loc cc0_scratch6 ↦{q} f := rfl
omit [FloatOps F] in
theorem pts_rB0 (q : PosShare TreeShare) (f : Buf (Elt F) ((V d (cV L) (jV L)).loc cc0_scratch7)) :
    ((rB0).view.loc (V d (cV L) (jV L)) ↦{q} f : sProp 𝕄) = (V d (cV L) (jV L)).loc cc0_scratch7 ↦{q} f := rfl
omit [FloatOps F] in
theorem pts_rB1 (q : PosShare TreeShare) (f : Buf (Elt F) ((V d (cV L) (jV L)).loc cc0_scratch8)) :
    ((rB1).view.loc (V d (cV L) (jV L)) ↦{q} f : sProp 𝕄) = (V d (cV L) (jV L)).loc cc0_scratch8 ↦{q} f := rfl
omit [FloatOps F] in
theorem pts_rB2 (q : PosShare TreeShare) (f : Buf (Elt F) ((V d (cV L) (jV L)).loc cc0_scratch9)) :
    ((rB2).view.loc (V d (cV L) (jV L)) ↦{q} f : sProp 𝕄) = (V d (cV L) (jV L)).loc cc0_scratch9 ↦{q} f := rfl
omit [FloatOps F] in
theorem pts_rB3 (q : PosShare TreeShare) (f : Buf (Elt F) ((V d (cV L) (jV L)).loc cc0_scratch10)) :
    ((rB3).view.loc (V d (cV L) (jV L)) ↦{q} f : sProp 𝕄) = (V d (cV L) (jV L)).loc cc0_scratch10 ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_aV (q : PosShare TreeShare) (f : Buf (Elt F) (shALoc d (cV L))) :
    ((aV).view.loc (V d (cV L) (jV L)) ↦{q} f : sProp 𝕄) = shALoc d (cV L) ↦{q} f := rfl
omit [FloatOps F] in
theorem pts_bV (q : PosShare TreeShare) (f : Buf (Elt F) (shBLoc d (cV L))) :
    ((bV).view.loc (V d (cV L) (jV L)) ↦{q} f : sProp 𝕄) = shBLoc d (cV L) ↦{q} f := rfl

omit [FloatOps F] in
/-- One more read token split off a share: what remains after `k` tokens is what remains after `k + 1` and token `k`. -/
theorem tok_step {ℓ : Loc nD τ sig} (S : Finset (Idx ℓ)) (q : PosShare TreeShare) (k : ℕ) (f : Buf (Elt F) ℓ) :
    (ℓ ↦[S]{Transfers.shareDrop q k} f : sProp 𝕄) ⊣⊢ iprop((ℓ ↦[S]{Transfers.shareDrop q (k + 1)} f) ∗ ℓ ↦[S]{Transfers.shareTokN q k} f) :=
  pointsTo_share (PosShare.mem_left_op_right _)

/-- Read token `k` of the list buffer (held whole by the tile) and of the tile's share of a shared buffer. -/
abbrev tokL (k : ℕ) : PosShare TreeShare := Transfers.shareTokN fullShare k
abbrev tokT (L : grid0.Coords) (k : ℕ) : PosShare TreeShare := Transfers.shareTokN (sq (jL L)) k

/-! ## The conditions on the subcore number -/

omit [FloatOps F] in
theorem cond0_false : ∀ s : Fin 16, s.val ≠ 0 → ¬ (Scalar.cmpi CmpIPredicate.ne (Scalar.extui (Scalar.cmpi CmpIPredicate.eq (BitVec.ofNat 32 s.val) 0#32)) 0#32 = 1#1) := by decide +kernel
omit [FloatOps F] in
theorem cond1_false : ∀ s : Fin 16, s.val ≠ 1 → ¬ (Scalar.cmpi CmpIPredicate.ne (Scalar.extui (Scalar.cmpi CmpIPredicate.eq (BitVec.ofNat 32 s.val) 1#32)) 0#32 = 1#1) := by decide +kernel
omit [FloatOps F] in
theorem cond0_true : ∀ s : Fin 16, s.val = 0 → (Scalar.cmpi CmpIPredicate.ne (Scalar.extui (Scalar.cmpi CmpIPredicate.eq (BitVec.ofNat 32 s.val) 0#32)) 0#32 = 1#1) := by decide +kernel
omit [FloatOps F] in
theorem cond1_true : ∀ s : Fin 16, s.val = 1 → (Scalar.cmpi CmpIPredicate.ne (Scalar.extui (Scalar.cmpi CmpIPredicate.eq (BitVec.ofNat 32 s.val) 1#32)) 0#32 = 1#1) := by decide +kernel

/-! ## The list buffer and the gathers -/

abbrev irowK (L : grid0.Coords) : Rect S32x128x100 := Rect.unit (s := S32x128x100) (k0_off1 L) S1x128x100.size (k0_off1_inb L)
/-- Worker `L`'s block of the regrouped row numbers, [128, 100], as the task addresses it. -/
abbrev iRowK (L : grid0.Coords) : Memref sig .scVector .hbm S128x100 .i32 := ((iV).slice (irowK L) (fun _ => rfl)).squeeze S128x100 squeezes_S1x128x100_S128x100
/-- Row `off 0` of the tile's list buffer, [100], as the task addresses it. -/
abbrev lRowK (off : Fin 2 → ℕ) (hoff : ∀ a, off a + S1x100.size a ≤ S128x100.size a) : Memref sig .scVector .vmem S100 .i32 :=
  ((sV).slice (Rect.unit (s := S128x100) off S1x100.size hoff) (fun _ => rfl)).squeeze S100 squeezes_S1x100_S100
/-- The two shared buffers whole, as the gathers address them. -/
abbrev aSl : Memref sig .scVector .shared S120x128 .f32 := (aV).slice (Rect.unit (s := S120x128) ![0, 0] S120x128.size inb_S120x128_S120x128_0_0) (fun _ => rfl)
abbrev bSl : Memref sig .scVector .shared S120x128 .f32 := (bV).slice (Rect.unit (s := S120x128) ![0, 0] S120x128.size inb_S120x128_S120x128_0_0) (fun _ => rfl)

/-- What the tile's list buffer holds after the fetch: the worker's block of the regrouped row numbers. -/
def lst : Buf (Elt F) ((V d (cV L) (jV L)).loc cc0_scratch0) := ReadAs.same.apply ((iRowK L).view.read (Elt F) (idx3 m d))

/-- Every row number in the list buffer is one of 0 … 119: what a gather asks of its list. -/
abbrev HIN : Prop := ∀ (off : Fin 2 → ℕ) (hoff : ∀ a, off a + S1x100.size a ≤ S128x100.size a) (x : S100.Idx),
  ((lRowK off hoff).view.read (Elt F) (lst m d L) x).toNat < S120x128.size gathers_S120x128_S100x128.axis

/-- Row `j` of the list buffer by its number. -/
abbrev offR (j : ℕ) : Fin 2 → ℕ := ![j, 0]
omit [FloatOps F] in
theorem offR_inb (j : ℕ) (hj : j < 128) : ∀ a, (offR j) a + S1x100.size a ≤ S128x100.size a := by
  intro a; match a with
  | ⟨0, _⟩ => show j + 1 ≤ 128; omega
  | ⟨1, _⟩ => show 0 + 100 ≤ 100; omega

/-- What the gather of list row `off` leaves in a row buffer: at (r, c) the table half's row named by entry r of the list row, column c. -/
def gPayA (hin : HIN m d L) (off : Fin 2 → ℕ) (hoff : ∀ a, off a + S1x100.size a ≤ S128x100.size a) : S100x128.Idx → Elt F .f32 :=
  SparseCore.gatherPayload gathers_S120x128_S100x128 ((aSl).view.read (Elt F) (tblA m d (cV L)))
    (SparseCore.rows ((lRowK off hoff).view.read (Elt F) (lst m d L)) rfl (hin off hoff))
def gPayB (hin : HIN m d L) (off : Fin 2 → ℕ) (hoff : ∀ a, off a + S1x100.size a ≤ S128x100.size a) : S100x128.Idx → Elt F .f32 :=
  SparseCore.gatherPayload gathers_S120x128_S100x128 ((bSl).view.read (Elt F) (tblB m d (cV L)))
    (SparseCore.rows ((lRowK off hoff).view.read (Elt F) (lst m d L)) rfl (hin off hoff))
/-- The same by the row's number. -/
def gA (j : ℕ) (hj : j < 128) (hin : HIN m d L) : S100x128.Idx → Elt F .f32 := gPayA m d L hin (offR j) (offR_inb j hj)
def gB (j : ℕ) (hj : j < 128) (hin : HIN m d L) : S100x128.Idx → Elt F .f32 := gPayB m d L hin (offR j) (offR_inb j hj)

/-! ## What a transfer in flight delivers -/

/-- The gather of list row `j` from `tbl_a` into row buffer A0 on cell 0: it delivers the buffer at the gathered rows, and the list's and the table's read tokens back. -/
def gDelA0 (j : ℕ) (hj : j < 128) (hin : HIN m d L) : sProp 𝕄 :=
  iprop(((rA0).view.loc (V d (cV L) (jV L)) ↦{fullShare} gA m d L j hj hin) ∗ ((sV).view.loc (V d (cV L) (jV L)) ↦{tokL 0} lst m d L)
    ∗ ((aV).view.loc (V d (cV L) (jV L)) ↦{tokT L 0} tblA m d (cV L)))
/-- The same from `tbl_b` into row buffer B0 on cell 4. -/
def gDelB0 (j : ℕ) (hj : j < 128) (hin : HIN m d L) : sProp 𝕄 :=
  iprop(((rB0).view.loc (V d (cV L) (jV L)) ↦{fullShare} gB m d L j hj hin) ∗ ((sV).view.loc (V d (cV L) (jV L)) ↦{tokL 4} lst m d L)
    ∗ ((bV).view.loc (V d (cV L) (jV L)) ↦{tokT L 4} tblB m d (cV L)))
/-- The write of row buffer A0 to the left half of row `4·t + 0` of the worker's block on cell 8: it delivers the half-row at `outF` and the buffer back. -/
def wDelA0 (t : Fin k0_t1_loop.trips) : sProp 𝕄 :=
  iprop(((oHalfA L t 0).view.loc (V d (cV L) (jV L)) ↦[(oHalfA L t 0).view.set]{fullShare} outF m d) ∗ ∃ g, (rA0).view.loc (V d (cV L) (jV L)) ↦{fullShare} g)
/-- The same for row buffer B0 and the right half on cell 12. -/
def wDelB0 (t : Fin k0_t1_loop.trips) : sProp 𝕄 :=
  iprop(((oHalfB L t 0).view.loc (V d (cV L) (jV L)) ↦[(oHalfB L t 0).view.set]{fullShare} outF m d) ∗ ∃ g, (rB0).view.loc (V d (cV L) (jV L)) ↦{fullShare} g)
/-- The gather of list row `j` from `tbl_a` into row buffer A1 on cell 1: it delivers the buffer at the gathered rows, and the list's and the table's read tokens back. -/
def gDelA1 (j : ℕ) (hj : j < 128) (hin : HIN m d L) : sProp 𝕄 :=
  iprop(((rA1).view.loc (V d (cV L) (jV L)) ↦{fullShare} gA m d L j hj hin) ∗ ((sV).view.loc (V d (cV L) (jV L)) ↦{tokL 1} lst m d L)
    ∗ ((aV).view.loc (V d (cV L) (jV L)) ↦{tokT L 1} tblA m d (cV L)))
/-- The same from `tbl_b` into row buffer B1 on cell 5. -/
def gDelB1 (j : ℕ) (hj : j < 128) (hin : HIN m d L) : sProp 𝕄 :=
  iprop(((rB1).view.loc (V d (cV L) (jV L)) ↦{fullShare} gB m d L j hj hin) ∗ ((sV).view.loc (V d (cV L) (jV L)) ↦{tokL 5} lst m d L)
    ∗ ((bV).view.loc (V d (cV L) (jV L)) ↦{tokT L 5} tblB m d (cV L)))
/-- The write of row buffer A1 to the left half of row `4·t + 1` of the worker's block on cell 9: it delivers the half-row at `outF` and the buffer back. -/
def wDelA1 (t : Fin k0_t1_loop.trips) : sProp 𝕄 :=
  iprop(((oHalfA L t 1).view.loc (V d (cV L) (jV L)) ↦[(oHalfA L t 1).view.set]{fullShare} outF m d) ∗ ∃ g, (rA1).view.loc (V d (cV L) (jV L)) ↦{fullShare} g)
/-- The same for row buffer B1 and the right half on cell 13. -/
def wDelB1 (t : Fin k0_t1_loop.trips) : sProp 𝕄 :=
  iprop(((oHalfB L t 1).view.loc (V d (cV L) (jV L)) ↦[(oHalfB L t 1).view.set]{fullShare} outF m d) ∗ ∃ g, (rB1).view.loc (V d (cV L) (jV L)) ↦{fullShare} g)
/-- The gather of list row `j` from `tbl_a` into row buffer A2 on cell 2: it delivers the buffer at the gathered rows, and the list's and the table's read tokens back. -/
def gDelA2 (j : ℕ) (hj : j < 128) (hin : HIN m d L) : sProp 𝕄 :=
  iprop(((rA2).view.loc (V d (cV L) (jV L)) ↦{fullShare} gA m d L j hj hin) ∗ ((sV).view.loc (V d (cV L) (jV L)) ↦{tokL 2} lst m d L)
    ∗ ((aV).view.loc (V d (cV L) (jV L)) ↦{tokT L 2} tblA m d (cV L)))
/-- The same from `tbl_b` into row buffer B2 on cell 6. -/
def gDelB2 (j : ℕ) (hj : j < 128) (hin : HIN m d L) : sProp 𝕄 :=
  iprop(((rB2).view.loc (V d (cV L) (jV L)) ↦{fullShare} gB m d L j hj hin) ∗ ((sV).view.loc (V d (cV L) (jV L)) ↦{tokL 6} lst m d L)
    ∗ ((bV).view.loc (V d (cV L) (jV L)) ↦{tokT L 6} tblB m d (cV L)))
/-- The write of row buffer A2 to the left half of row `4·t + 2` of the worker's block on cell 10: it delivers the half-row at `outF` and the buffer back. -/
def wDelA2 (t : Fin k0_t1_loop.trips) : sProp 𝕄 :=
  iprop(((oHalfA L t 2).view.loc (V d (cV L) (jV L)) ↦[(oHalfA L t 2).view.set]{fullShare} outF m d) ∗ ∃ g, (rA2).view.loc (V d (cV L) (jV L)) ↦{fullShare} g)
/-- The same for row buffer B2 and the right half on cell 14. -/
def wDelB2 (t : Fin k0_t1_loop.trips) : sProp 𝕄 :=
  iprop(((oHalfB L t 2).view.loc (V d (cV L) (jV L)) ↦[(oHalfB L t 2).view.set]{fullShare} outF m d) ∗ ∃ g, (rB2).view.loc (V d (cV L) (jV L)) ↦{fullShare} g)
/-- The gather of list row `j` from `tbl_a` into row buffer A3 on cell 3: it delivers the buffer at the gathered rows, and the list's and the table's read tokens back. -/
def gDelA3 (j : ℕ) (hj : j < 128) (hin : HIN m d L) : sProp 𝕄 :=
  iprop(((rA3).view.loc (V d (cV L) (jV L)) ↦{fullShare} gA m d L j hj hin) ∗ ((sV).view.loc (V d (cV L) (jV L)) ↦{tokL 3} lst m d L)
    ∗ ((aV).view.loc (V d (cV L) (jV L)) ↦{tokT L 3} tblA m d (cV L)))
/-- The same from `tbl_b` into row buffer B3 on cell 7. -/
def gDelB3 (j : ℕ) (hj : j < 128) (hin : HIN m d L) : sProp 𝕄 :=
  iprop(((rB3).view.loc (V d (cV L) (jV L)) ↦{fullShare} gB m d L j hj hin) ∗ ((sV).view.loc (V d (cV L) (jV L)) ↦{tokL 7} lst m d L)
    ∗ ((bV).view.loc (V d (cV L) (jV L)) ↦{tokT L 7} tblB m d (cV L)))
/-- The write of row buffer A3 to the left half of row `4·t + 3` of the worker's block on cell 11: it delivers the half-row at `outF` and the buffer back. -/
def wDelA3 (t : Fin k0_t1_loop.trips) : sProp 𝕄 :=
  iprop(((oHalfA L t 3).view.loc (V d (cV L) (jV L)) ↦[(oHalfA L t 3).view.set]{fullShare} outF m d) ∗ ∃ g, (rA3).view.loc (V d (cV L) (jV L)) ↦{fullShare} g)
/-- The same for row buffer B3 and the right half on cell 15. -/
def wDelB3 (t : Fin k0_t1_loop.trips) : sProp 𝕄 :=
  iprop(((oHalfB L t 3).view.loc (V d (cV L) (jV L)) ↦[(oHalfB L t 3).view.set]{fullShare} outF m d) ∗ ∃ g, (rB3).view.loc (V d (cV L) (jV L)) ↦{fullShare} g)

/-! ## The half-rows of a trip -/

/-- Trip `t`'s half-rows of rows 0, 1 and of rows 2, 3 at contents `f`, as the task addresses them. -/
def P01 (t : Fin k0_t1_loop.trips) (f : Buf (Elt F) (oLoc d)) : sProp 𝕄 :=
  iprop(((oHalfA L t 0).view.loc (V d (cV L) (jV L)) ↦[(oHalfA L t 0).view.set]{fullShare} f) ∗ ((oHalfB L t 0).view.loc (V d (cV L) (jV L)) ↦[(oHalfB L t 0).view.set]{fullShare} f)
    ∗ ((oHalfA L t 1).view.loc (V d (cV L) (jV L)) ↦[(oHalfA L t 1).view.set]{fullShare} f) ∗ ((oHalfB L t 1).view.loc (V d (cV L) (jV L)) ↦[(oHalfB L t 1).view.set]{fullShare} f))
def P23 (t : Fin k0_t1_loop.trips) (f : Buf (Elt F) (oLoc d)) : sProp 𝕄 :=
  iprop(((oHalfA L t 2).view.loc (V d (cV L) (jV L)) ↦[(oHalfA L t 2).view.set]{fullShare} f) ∗ ((oHalfB L t 2).view.loc (V d (cV L) (jV L)) ↦[(oHalfB L t 2).view.set]{fullShare} f)
    ∗ ((oHalfA L t 3).view.loc (V d (cV L) (jV L)) ↦[(oHalfA L t 3).view.set]{fullShare} f) ∗ ((oHalfB L t 3).view.loc (V d (cV L) (jV L)) ↦[(oHalfB L t 3).view.set]{fullShare} f))

/-! ## Between two trips -/

/-- Slots 2 and 3 before trip `k`: idle before the first trip, their writes of the previous trip's rows 2, 3 in flight otherwise. -/
def slots23 (k : ℕ) (hk : k < 32) : sProp 𝕄 :=
  if h0 : k = 0 then
    iprop((∃ g, (rA2).view.loc (V d (cV L) (jV L)) ↦{fullShare} g) ∗ (∃ g, (rB2).view.loc (V d (cV L) (jV L)) ↦{fullShare} g)
      ∗ (∃ g, (rA3).view.loc (V d (cV L) (jV L)) ↦{fullShare} g) ∗ (∃ g, (rB3).view.loc (V d (cV L) (jV L)) ↦{fullShare} g)
      ∗ semVal ((V d (cV L) (jV L), SemLoc.dma (⟨10, by decide⟩ : DmaSem sig)) : GSem nD τ sig) 0 ∗ semVal ((V d (cV L) (jV L), SemLoc.dma (⟨14, by decide⟩ : DmaSem sig)) : GSem nD τ sig) 0 ∗ semVal ((V d (cV L) (jV L), SemLoc.dma (⟨11, by decide⟩ : DmaSem sig)) : GSem nD τ sig) 0 ∗ semVal ((V d (cV L) (jV L), SemLoc.dma (⟨15, by decide⟩ : DmaSem sig)) : GSem nD τ sig) 0)
  else
    iprop(Transfers.Flight countersEmb (V d (cV L) (jV L)) (SemLoc.dma (⟨10, by decide⟩ : DmaSem sig)) (default : HIx 1) 409600 (wDelA2 m d L ⟨k - 1, by rw [geom_trips_eq]; omega⟩) ∗ Transfers.Flight countersEmb (V d (cV L) (jV L)) (SemLoc.dma (⟨14, by decide⟩ : DmaSem sig)) (default : HIx 1) 409600 (wDelB2 m d L ⟨k - 1, by rw [geom_trips_eq]; omega⟩)
      ∗ Transfers.Flight countersEmb (V d (cV L) (jV L)) (SemLoc.dma (⟨11, by decide⟩ : DmaSem sig)) (default : HIx 1) 409600 (wDelA3 m d L ⟨k - 1, by rw [geom_trips_eq]; omega⟩) ∗ Transfers.Flight countersEmb (V d (cV L) (jV L)) (SemLoc.dma (⟨15, by decide⟩ : DmaSem sig)) (default : HIx 1) 409600 (wDelB3 m d L ⟨k - 1, by rw [geom_trips_eq]; omega⟩))

/-- Before trip `k` (k < 32): the gathers of rows 4k and 4k+1 in flight on slots 0 and 1, slots 2 and 3 as above, the
    other cells at zero, the other tokens whole, and the half-rows: done below trip k (but rows 2, 3 of trip k − 1,
    which are in flight), untouched from trip k on. -/
def invMid (hin : HIN m d L) (k : ℕ) (hk : k < 32) : sProp 𝕄 :=
  iprop(Transfers.Flight countersEmb (V d (cV L) (jV L)) (SemLoc.dma (⟨0, by decide⟩ : DmaSem sig)) (default : HIx 1) 409600 (gDelA0 m d L (4 * k) (by omega) hin) ∗ Transfers.Flight countersEmb (V d (cV L) (jV L)) (SemLoc.dma (⟨4, by decide⟩ : DmaSem sig)) (default : HIx 1) 409600 (gDelB0 m d L (4 * k) (by omega) hin)
    ∗ Transfers.Flight countersEmb (V d (cV L) (jV L)) (SemLoc.dma (⟨1, by decide⟩ : DmaSem sig)) (default : HIx 1) 409600 (gDelA1 m d L (4 * k + 1) (by omega) hin) ∗ Transfers.Flight countersEmb (V d (cV L) (jV L)) (SemLoc.dma (⟨5, by decide⟩ : DmaSem sig)) (default : HIx 1) 409600 (gDelB1 m d L (4 * k + 1) (by omega) hin)
    ∗ slots23 m d L k hk
    ∗ semVal ((V d (cV L) (jV L), SemLoc.dma (⟨2, by decide⟩ : DmaSem sig)) : GSem nD τ sig) 0 ∗ semVal ((V d (cV L) (jV L), SemLoc.dma (⟨3, by decide⟩ : DmaSem sig)) : GSem nD τ sig) 0 ∗ semVal ((V d (cV L) (jV L), SemLoc.dma (⟨6, by decide⟩ : DmaSem sig)) : GSem nD τ sig) 0 ∗ semVal ((V d (cV L) (jV L), SemLoc.dma (⟨7, by decide⟩ : DmaSem sig)) : GSem nD τ sig) 0 ∗ semVal ((V d (cV L) (jV L), SemLoc.dma (⟨8, by decide⟩ : DmaSem sig)) : GSem nD τ sig) 0 ∗ semVal ((V d (cV L) (jV L), SemLoc.dma (⟨9, by decide⟩ : DmaSem sig)) : GSem nD τ sig) 0 ∗ semVal ((V d (cV L) (jV L), SemLoc.dma (⟨12, by decide⟩ : DmaSem sig)) : GSem nD τ sig) 0 ∗ semVal ((V d (cV L) (jV L), SemLoc.dma (⟨13, by decide⟩ : DmaSem sig)) : GSem nD τ sig) 0
    ∗ ((sV).view.loc (V d (cV L) (jV L)) ↦{tokL 2} lst m d L) ∗ ((sV).view.loc (V d (cV L) (jV L)) ↦{tokL 3} lst m d L) ∗ ((sV).view.loc (V d (cV L) (jV L)) ↦{tokL 6} lst m d L) ∗ ((sV).view.loc (V d (cV L) (jV L)) ↦{tokL 7} lst m d L) ∗ ((aV).view.loc (V d (cV L) (jV L)) ↦{tokT L 2} tblA m d (cV L)) ∗ ((aV).view.loc (V d (cV L) (jV L)) ↦{tokT L 3} tblA m d (cV L)) ∗ ((bV).view.loc (V d (cV L) (jV L)) ↦{tokT L 6} tblB m d (cV L)) ∗ ((bV).view.loc (V d (cV L) (jV L)) ↦{tokT L 7} tblB m d (cV L))
    ∗ (bigSep (Finset.univ.filter fun t : Fin k0_t1_loop.trips => t.val < k) fun t => P01 d L t (outF m d))
    ∗ (bigSep (Finset.univ.filter fun t : Fin k0_t1_loop.trips => t.val + 1 < k) fun t => P23 d L t (outF m d))
    ∗ (bigSep (Finset.univ.filter fun t : Fin k0_t1_loop.trips => k ≤ t.val) fun t => iprop(P01 d L t (m (oLoc d)) ∗ P23 d L t (m (oLoc d)))))

/-- After the last trip: the writes of rows 124 … 127 in flight on every slot, the gather cells at zero, every token
    whole, and every half-row below trip 31 done. -/
def invEnd (h31 : 31 < k0_t1_loop.trips) : sProp 𝕄 :=
  iprop(Transfers.Flight countersEmb (V d (cV L) (jV L)) (SemLoc.dma (⟨8, by decide⟩ : DmaSem sig)) (default : HIx 1) 409600 (wDelA0 m d L ⟨31, h31⟩) ∗ Transfers.Flight countersEmb (V d (cV L) (jV L)) (SemLoc.dma (⟨12, by decide⟩ : DmaSem sig)) (default : HIx 1) 409600 (wDelB0 m d L ⟨31, h31⟩) ∗ Transfers.Flight countersEmb (V d (cV L) (jV L)) (SemLoc.dma (⟨9, by decide⟩ : DmaSem sig)) (default : HIx 1) 409600 (wDelA1 m d L ⟨31, h31⟩) ∗ Transfers.Flight countersEmb (V d (cV L) (jV L)) (SemLoc.dma (⟨13, by decide⟩ : DmaSem sig)) (default : HIx 1) 409600 (wDelB1 m d L ⟨31, h31⟩)
    ∗ Transfers.Flight countersEmb (V d (cV L) (jV L)) (SemLoc.dma (⟨10, by decide⟩ : DmaSem sig)) (default : HIx 1) 409600 (wDelA2 m d L ⟨31, h31⟩) ∗ Transfers.Flight countersEmb (V d (cV L) (jV L)) (SemLoc.dma (⟨14, by decide⟩ : DmaSem sig)) (default : HIx 1) 409600 (wDelB2 m d L ⟨31, h31⟩) ∗ Transfers.Flight countersEmb (V d (cV L) (jV L)) (SemLoc.dma (⟨11, by decide⟩ : DmaSem sig)) (default : HIx 1) 409600 (wDelA3 m d L ⟨31, h31⟩) ∗ Transfers.Flight countersEmb (V d (cV L) (jV L)) (SemLoc.dma (⟨15, by decide⟩ : DmaSem sig)) (default : HIx 1) 409600 (wDelB3 m d L ⟨31, h31⟩)
    ∗ semVal ((V d (cV L) (jV L), SemLoc.dma (⟨0, by decide⟩ : DmaSem sig)) : GSem nD τ sig) 0 ∗ semVal ((V d (cV L) (jV L), SemLoc.dma (⟨1, by decide⟩ : DmaSem sig)) : GSem nD τ sig) 0 ∗ semVal ((V d (cV L) (jV L), SemLoc.dma (⟨2, by decide⟩ : DmaSem sig)) : GSem nD τ sig) 0 ∗ semVal ((V d (cV L) (jV L), SemLoc.dma (⟨3, by decide⟩ : DmaSem sig)) : GSem nD τ sig) 0 ∗ semVal ((V d (cV L) (jV L), SemLoc.dma (⟨4, by decide⟩ : DmaSem sig)) : GSem nD τ sig) 0 ∗ semVal ((V d (cV L) (jV L), SemLoc.dma (⟨5, by decide⟩ : DmaSem sig)) : GSem nD τ sig) 0 ∗ semVal ((V d (cV L) (jV L), SemLoc.dma (⟨6, by decide⟩ : DmaSem sig)) : GSem nD τ sig) 0 ∗ semVal ((V d (cV L) (jV L), SemLoc.dma (⟨7, by decide⟩ : DmaSem sig)) : GSem nD τ sig) 0
    ∗ ((sV).view.loc (V d (cV L) (jV L)) ↦{tokL 0} lst m d L) ∗ ((sV).view.loc (V d (cV L) (jV L)) ↦{tokL 1} lst m d L) ∗ ((sV).view.loc (V d (cV L) (jV L)) ↦{tokL 2} lst m d L) ∗ ((sV).view.loc (V d (cV L) (jV L)) ↦{tokL 3} lst m d L) ∗ ((sV).view.loc (V d (cV L) (jV L)) ↦{tokL 4} lst m d L) ∗ ((sV).view.loc (V d (cV L) (jV L)) ↦{tokL 5} lst m d L) ∗ ((sV).view.loc (V d (cV L) (jV L)) ↦{tokL 6} lst m d L) ∗ ((sV).view.loc (V d (cV L) (jV L)) ↦{tokL 7} lst m d L)
    ∗ ((aV).view.loc (V d (cV L) (jV L)) ↦{tokT L 0} tblA m d (cV L)) ∗ ((aV).view.loc (V d (cV L) (jV L)) ↦{tokT L 1} tblA m d (cV L)) ∗ ((aV).view.loc (V d (cV L) (jV L)) ↦{tokT L 2} tblA m d (cV L)) ∗ ((aV).view.loc (V d (cV L) (jV L)) ↦{tokT L 3} tblA m d (cV L)) ∗ ((bV).view.loc (V d (cV L) (jV L)) ↦{tokT L 4} tblB m d (cV L)) ∗ ((bV).view.loc (V d (cV L) (jV L)) ↦{tokT L 5} tblB m d (cV L)) ∗ ((bV).view.loc (V d (cV L) (jV L)) ↦{tokT L 6} tblB m d (cV L)) ∗ ((bV).view.loc (V d (cV L) (jV L)) ↦{tokT L 7} tblB m d (cV L))
    ∗ (bigSep (Finset.univ.filter fun t : Fin k0_t1_loop.trips => t.val < 31) fun t => iprop(P01 d L t (outF m d) ∗ P23 d L t (outF m d))))

/-- The loop's invariant: before trip `k` the levels are known (a persistent fact, carried so that each trip can show
    its waits admissible), the waits recorded so far are the tile's own, and the state is as above. -/
def Inv (hin : HIN m d L) (O : CellTallies nD τ sig (HIx 1)) (W₀ : Waits sig (HIx 1)) (k : ℕ) (_ : Unit) : sProp 𝕄 :=
  iprop(⌜k ≤ 32⌝ ∗ levAts (K (F := F)).L (K (F := F)).lev ∗ (∃ W', ⌜∀ p ∈ W', p ∈ W₀ ∨ p.2 = none ∨ p.2 = some (0 : Fin 1)⌝ ∗ owes (V d (cV L) (jV L)) O W')
    ∗ (if hk : k < 32 then invMid m d L hin k hk else invEnd m d L (by rw [geom_trips_eq]; decide)))

end Cert.Proof.KI

end
-- ==== Proof.KI.Tokens.lean ====
/-
  Eight read tokens of a share: a points-to at a share is what remains after eight halvings and the eight right halves
  split off on the way, and back.
-/
import proofs.«203043_g45337674776592_cont_8to1_c_201_37_alg».proof.Proof.KI.BodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

theorem toks8_split {ℓ : Loc nD τ sig} (q : PosShare TreeShare) (f : Buf (Elt F) ℓ) :
    (ℓ ↦{q} f : sProp 𝕄) ⊢ iprop((ℓ ↦{Transfers.shareDrop q 8} f) ∗ (ℓ ↦{Transfers.shareTokN q 0} f) ∗ (ℓ ↦{Transfers.shareTokN q 1} f) ∗ (ℓ ↦{Transfers.shareTokN q 2} f) ∗ (ℓ ↦{Transfers.shareTokN q 3} f) ∗ (ℓ ↦{Transfers.shareTokN q 4} f) ∗ (ℓ ↦{Transfers.shareTokN q 5} f) ∗ (ℓ ↦{Transfers.shareTokN q 6} f) ∗ (ℓ ↦{Transfers.shareTokN q 7} f)) := by
  iintro H0
  ihave H := (show (ℓ ↦{q} f : sProp 𝕄) ⊢ (ℓ ↦{Transfers.shareDrop q 0} f) from BI.Entails.refl _) $$ H0
  ihave Hx := (tok_step (F := F) (ℓ := ℓ) Finset.univ q 0 f).1 $$ H
  icases Hx with ⟨H, T0⟩
  ihave Hx := (tok_step (F := F) (ℓ := ℓ) Finset.univ q 1 f).1 $$ H
  icases Hx with ⟨H, T1⟩
  ihave Hx := (tok_step (F := F) (ℓ := ℓ) Finset.univ q 2 f).1 $$ H
  icases Hx with ⟨H, T2⟩
  ihave Hx := (tok_step (F := F) (ℓ := ℓ) Finset.univ q 3 f).1 $$ H
  icases Hx with ⟨H, T3⟩
  ihave Hx := (tok_step (F := F) (ℓ := ℓ) Finset.univ q 4 f).1 $$ H
  icases Hx with ⟨H, T4⟩
  ihave Hx := (tok_step (F := F) (ℓ := ℓ) Finset.univ q 5 f).1 $$ H
  icases Hx with ⟨H, T5⟩
  ihave Hx := (tok_step (F := F) (ℓ := ℓ) Finset.univ q 6 f).1 $$ H
  icases Hx with ⟨H, T6⟩
  ihave Hx := (tok_step (F := F) (ℓ := ℓ) Finset.univ q 7 f).1 $$ H
  icases Hx with ⟨H, T7⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

theorem toks8_join {ℓ : Loc nD τ sig} (q : PosShare TreeShare) (f : Buf (Elt F) ℓ) :
    iprop((ℓ ↦{Transfers.shareDrop q 8} f) ∗ (ℓ ↦{Transfers.shareTokN q 0} f) ∗ (ℓ ↦{Transfers.shareTokN q 1} f) ∗ (ℓ ↦{Transfers.shareTokN q 2} f) ∗ (ℓ ↦{Transfers.shareTokN q 3} f) ∗ (ℓ ↦{Transfers.shareTokN q 4} f) ∗ (ℓ ↦{Transfers.shareTokN q 5} f) ∗ (ℓ ↦{Transfers.shareTokN q 6} f) ∗ (ℓ ↦{Transfers.shareTokN q 7} f)) ⊢ (ℓ ↦{q} f : sProp 𝕄) := by
  iintro ⟨H, T0, T1, T2, T3, T4, T5, T6, T7⟩
  ihave H := (tok_step (F := F) (ℓ := ℓ) Finset.univ q 7 f).2 $$ [H T7]
  · isplitl [H] <;> iassumption
  ihave H := (tok_step (F := F) (ℓ := ℓ) Finset.univ q 6 f).2 $$ [H T6]
  · isplitl [H] <;> iassumption
  ihave H := (tok_step (F := F) (ℓ := ℓ) Finset.univ q 5 f).2 $$ [H T5]
  · isplitl [H] <;> iassumption
  ihave H := (tok_step (F := F) (ℓ := ℓ) Finset.univ q 4 f).2 $$ [H T4]
  · isplitl [H] <;> iassumption
  ihave H := (tok_step (F := F) (ℓ := ℓ) Finset.univ q 3 f).2 $$ [H T3]
  · isplitl [H] <;> iassumption
  ihave H := (tok_step (F := F) (ℓ := ℓ) Finset.univ q 2 f).2 $$ [H T2]
  · isplitl [H] <;> iassumption
  ihave H := (tok_step (F := F) (ℓ := ℓ) Finset.univ q 1 f).2 $$ [H T1]
  · isplitl [H] <;> iassumption
  ihave H := (tok_step (F := F) (ℓ := ℓ) Finset.univ q 0 f).2 $$ [H T0]
  · isplitl [H] <;> iassumption
  iexact H

end Cert.Proof.KI

end
-- ==== Proof.KI.FlightFrame.lean ====
/-
  The frame rule for a transfer in flight.

  The mathematics. What a thread holds of a transfer it has issued is a capability: a resource R which, for any
  continuation told what to do with the cell's counter back at zero and the delivery D, affords the atomic lowering
  of the counter by the transfer's units, and which a lowering by zero hands back whole. A resource Lf held beside
  it may be folded in: take R ∗ Lf for the resource. A continuation for the delivery D' with D ∗ Lf ⊢ D' is one for
  D once Lf is at hand, so the first clause is R's; a lowering by zero hands R back, and Lf was never touched, so
  the second clause is R's too. The flight then delivers D'.
-/
import proofs.«203043_g45337674776592_cont_8to1_c_201_37_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- A flight delivering D, beside a resource Lf, is a flight delivering anything D and Lf together yield. -/
theorem Flight_frame {thr : Thread nD τ} {sm : SemLoc sig} {ι : HIx 1} {N : ℕ} {D D' Lf : sProp 𝕄} (h : iprop(D ∗ Lf) ⊢ D') :
    iprop(Transfers.Flight countersEmb thr sm ι N D ∗ Lf) ⊢ Transfers.Flight countersEmb thr sm ι N D' := by
  unfold Transfers.Flight
  iintro ⟨⟨⟨%R, HR, %hcap, %hpeek⟩, Hcred⟩, HL⟩
  isplitl [HR HL]
  · iexists iprop(R ∗ Lf)
    isplitl [HR HL]; · isplitl [HR] <;> iassumption
    isplit
    · ipureintro
      intro K
      refine BIBase.Entails.trans ?_ (hcap K)
      iintro ⟨⟨HR, HL⟩, HK⟩
      isplitl [HR]; · iexact HR
      iintro ⟨Hv, HD⟩
      iapply HK
      isplitl [Hv]; · iexact Hv
      iapply h
      isplitl [HD] <;> iassumption
    · ipureintro
      intro K
      refine BIBase.Entails.trans ?_ (hpeek K)
      iintro ⟨⟨HR, HL⟩, HK⟩
      isplitl [HR]; · iexact HR
      iintro HR
      iapply HK
      isplitl [HR] <;> iassumption
  · iexact Hcred

end Cert.Proof.KI

end
-- ==== Proof.KI.BodyValue.lean ====
/-
  One tile's task, by values. What the list buffer holds are row numbers of the table (each below 120, under the
  precondition); what a gather leaves in a row buffer is, at (r, c), column c of the table half's row named by entry r of
  the list row; the list row j of worker w is the regrouped row numbers at (w, j, ·); and index (a, b) of the left or
  right half of row 4t + r of worker w's block of the result sits at row 128·w + 4t + r, column b or b + 128. Hence the
  half-row of the result, where it holds what the kernel leaves, is exactly what the gather of list row 4t + r left in the
  row buffer written to it.
-/
import proofs.«203043_g45337674776592_cont_8to1_c_201_37_alg».proof.Proof.KI.BodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)

variable (m : (ℓ : Loc nD τ sig) → Buf (Elt F) ℓ)
variable [FloatOps F]
variable (d : Dev nD) (L : grid0.Coords)

/-! ## The list buffer holds row numbers of the table -/

/-- Every entry of the regrouped row numbers is an entry of the row numbers: below 120 under the precondition. -/
theorem idx3_lt (hpre : PreOK m) (i : S32x128x100.Idx) : ((idx3 m d : S32x128x100.Idx → BitVec 32) i).toNat < 120 := by
  obtain ⟨q, p, r, rfl⟩ : ∃ (q : Fin 32) (p : Fin 128) (r : Fin 100), i = ix3 q p r := ⟨i 0, i 1, i 2, eq_ix3 i⟩
  rw [idx3_apply m d q p r]
  exact hpre d _

/-- Every entry of the list buffer is below 120: the buffer holds the worker's block of the regrouped row numbers, and a
    row of it read at an index is that block at an index. -/
theorem hin_of_pre (hpre : PreOK m) : HIN m d L := by
  intro off hoff x
  rw [show ∀ j, (lRowK off hoff).view.read (Elt F) (lst m d L) j = lst m d L ((lRowK off hoff).view.emb j) from
    fun j => (View.read_apply _ _).trans (cast_eq _ _)]
  show ((iRowK L).view.read (Elt F) (idx3 m d) ((lRowK off hoff).view.emb x)).toNat < 120
  rw [show ∀ j, (iRowK L).view.read (Elt F) (idx3 m d) j = idx3 m d ((iRowK L).view.emb j) from
    fun j => (View.read_apply _ _).trans (cast_eq _ _)]
  exact idx3_lt m d hpre _

/-! ## Where the task's views sit in their buffers -/

omit [FloatOps F] in
/-- The worker's number: 2 · subcore + SparseCore. -/
theorem wOf_lt : 2 * (L 1).val + (L 0).val < 32 := by
  have h0 : (L 0).val < 2 := (L 0).isLt
  have h1 : (L 1).val < 16 := (L 1).isLt
  omega

/-- The worker's number as a block of the regrouped row numbers. -/
abbrev wOf : Fin 32 := ⟨2 * (L 1).val + (L 0).val, wOf_lt L⟩

omit [FloatOps F] in
/-- A one-axis index regrouped with a leading unit axis. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)

omit [FloatOps F] in
/-- Entry y of row j of the list buffer sits at (j, y). -/
theorem lRow_emb (j : ℕ) (hj : j < 128) (y : Fin 100) :
    (lRowK (offR j) (offR_inb j hj)).view.emb (ix1 y) = ix2 (⟨j, hj⟩ : Fin 128) y := by
  show (Rect.unit (s := S128x100) (offR j) S1x100.size (offR_inb j hj)).emb
      (Shape.reshapeEquiv squeezes_S1x100_S100.numel_eq (ix1 y)) = _
  rw [reshapeEquiv_ix1_1a]
  funext k; refine Fin.ext ?_; rw [Rect.emb_apply]
  match k with
  | 0 => show j + 1 * 0 = j; omega
  | 1 => show 0 + 1 * y.val = y.val; omega

omit [FloatOps F] in
/-- Entry (p, r) of the worker's block of the regrouped row numbers sits at (w, p, r). -/
theorem iRow_emb (p : Fin 128) (r : Fin 100) : (iRowK L).view.emb (ix2 p r) = ix3 (wOf L) p r := by
  show (Rect.unit (s := S32x128x100) (k0_off1 L) S1x128x100.size (k0_off1_inb L)).emb
      (Shape.reshapeEquiv squeezes_S1x128x100_S128x100.numel_eq (ix2 p r)) = _
  rw [reshapeEquiv_ix2_1ab]
  funext k; refine Fin.ext ?_; rw [Rect.emb_apply]
  have e := k0_off1_eq L
  match k with
  | 0 => show k0_off1 L 0 + 1 * 0 = 2 * (L 1).val + (L 0).val; rw [e]; show 2 * (L 1).val + (L 0).val + 1 * 0 = _; omega
  | 1 => show k0_off1 L 1 + 1 * p.val = p.val; rw [e]; show 0 + 1 * p.val = p.val; omega
  | 2 => show k0_off1 L 2 + 1 * r.val = r.val; rw [e]; show 0 + 1 * r.val = r.val; omega

omit [FloatOps F] in
/-- A shared buffer addressed whole through the rectangle at the origin: every index sits at itself. -/
theorem aSl_emb (z : S120x128.Idx) : (aSl).view.emb z = z := by
  show (Rect.unit (s := S120x128) ![0, 0] S120x128.size inb_S120x128_S120x128_0_0).emb z = z
  funext k; refine Fin.ext ?_; rw [Rect.emb_apply]
  match k with
  | 0 => show 0 + 1 * (z 0).val = (z 0).val; omega
  | 1 => show 0 + 1 * (z 1).val = (z 1).val; omega
omit [FloatOps F] in
theorem bSl_emb (z : S120x128.Idx) : (bSl).view.emb z = z := by
  show (Rect.unit (s := S120x128) ![0, 0] S120x128.size inb_S120x128_S120x128_0_0).emb z = z
  funext k; refine Fin.ext ?_; rw [Rect.emb_apply]
  match k with
  | 0 => show 0 + 1 * (z 0).val = (z 0).val; omega
  | 1 => show 0 + 1 * (z 1).val = (z 1).val; omega

/-! ## What the list buffer holds, and what a gather leaves -/

/-- Entry y of row j of the list buffer is the regrouped row numbers at (w, j, y). -/
theorem lRow_read (j : ℕ) (hj : j < 128) (y : Fin 100) :
    (lRowK (offR j) (offR_inb j hj)).view.read (Elt F) (lst m d L) (ix1 y)
      = (idx3 m d : S32x128x100.Idx → BitVec 32) (ix3 (wOf L) (⟨j, hj⟩ : Fin 128) y) := by
  refine ((View.read_apply _ _).trans (cast_eq _ _)).trans ?_
  refine (congrArg (lst m d L : S128x100.Idx → BitVec 32) (lRow_emb j hj y)).trans ?_
  show (iRowK L).view.read (Elt F) (idx3 m d) (ix2 (⟨j, hj⟩ : Fin 128) y) = _
  refine ((View.read_apply _ _).trans (cast_eq _ _)).trans ?_
  exact congrArg (idx3 m d : S32x128x100.Idx → BitVec 32) (iRow_emb L (⟨j, hj⟩ : Fin 128) y)

omit [FloatOps F] in
/-- Entry k of a one-axis array in row-major order is the entry at k. -/
theorem rowMajor_symm_S100 (k : Fin S100.numel) : S100.rowMajor.symm k = ix1 (⟨k.val, k.isLt⟩ : Fin 100) :=
  (Equiv.symm_apply_eq _).2 (Fin.ext (by rw [Shape.rowMajor_val_one]))

/-- The row of the table that entry r of list row j names: the row numbered by the regrouped row numbers at (w, j, r). -/
theorem rows_eq (j : ℕ) (hj : j < 128) (hin : HIN m d L) (r : Fin 100) :
    (SparseCore.rows ((lRowK (offR j) (offR_inb j hj)).view.read (Elt F) (lst m d L)) rfl (hin (offR j) (offR_inb j hj)) r : Fin 120)
      = Cert.Proof.Spec.rowOf ((idx3 m d : S32x128x100.Idx → BitVec 32) (ix3 (wOf L) (⟨j, hj⟩ : Fin 128) r)) := by
  refine Fin.ext ?_
  have hw := hin (offR j) (offR_inb j hj) (ix1 r)
  rw [lRow_read m d L j hj r] at hw
  rw [Cert.Proof.Spec.rowOf_val hw]
  show ((lRowK (offR j) (offR_inb j hj)).view.read (Elt F) (lst m d L) (S100.rowMajor.symm (r.cast rfl))).toNat = _
  rw [rowMajor_symm_S100]
  exact congrArg BitVec.toNat (lRow_read m d L j hj r)

/-- WHAT A GATHER FROM THE LEFT HALF LEAVES, at (r, c): column c of the padded table's row named by the regrouped row
    numbers at (w, j, r). -/
theorem gA_apply (j : ℕ) (hj : j < 128) (hin : HIN m d L) (r : Fin 100) (c : Fin 128) :
    gA m d L j hj hin (ix2 r c)
      = (tblW m d : S120x256.Idx → F .f32) (ix2 (Cert.Proof.Spec.rowOf ((idx3 m d : S32x128x100.Idx → BitVec 32)
          (ix3 (wOf L) (⟨j, hj⟩ : Fin 128) r))) (⟨c.val, by omega⟩ : Fin 256)) := by
  unfold gA gPayA SparseCore.gatherPayload
  rw [show ∀ z, (aSl).view.read (Elt F) (tblA m d (cV L)) z = tblA m d (cV L) ((aSl).view.emb z) from
    fun z => (View.read_apply _ _).trans (cast_eq _ _)]
  rw [aSl_emb]
  have e : gathers_S120x128_S100x128.idx (SparseCore.rows ((lRowK (offR j) (offR_inb j hj)).view.read (Elt F) (lst m d L)) rfl
        (hin (offR j) (offR_inb j hj))) (ix2 r c)
      = ix2 (SparseCore.rows ((lRowK (offR j) (offR_inb j hj)).view.read (Elt F) (lst m d L)) rfl (hin (offR j) (offR_inb j hj)) r : Fin 120) c := by
    funext b; refine Fin.ext ?_
    match b with
    | ⟨0, _⟩ => rfl
    | ⟨1, _⟩ => rfl
  rw [e, rows_eq]
  rfl

/-- The same from the right half: column c + 128. -/
theorem gB_apply (j : ℕ) (hj : j < 128) (hin : HIN m d L) (r : Fin 100) (c : Fin 128) :
    gB m d L j hj hin (ix2 r c)
      = (tblW m d : S120x256.Idx → F .f32) (ix2 (Cert.Proof.Spec.rowOf ((idx3 m d : S32x128x100.Idx → BitVec 32)
          (ix3 (wOf L) (⟨j, hj⟩ : Fin 128) r))) (⟨c.val + 128, by omega⟩ : Fin 256)) := by
  unfold gB gPayB SparseCore.gatherPayload
  rw [show ∀ z, (bSl).view.read (Elt F) (tblB m d (cV L)) z = tblB m d (cV L) ((bSl).view.emb z) from
    fun z => (View.read_apply _ _).trans (cast_eq _ _)]
  rw [bSl_emb]
  have e : gathers_S120x128_S100x128.idx (SparseCore.rows ((lRowK (offR j) (offR_inb j hj)).view.read (Elt F) (lst m d L)) rfl
        (hin (offR j) (offR_inb j hj))) (ix2 r c)
      = ix2 (SparseCore.rows ((lRowK (offR j) (offR_inb j hj)).view.read (Elt F) (lst m d L)) rfl (hin (offR j) (offR_inb j hj)) r : Fin 120) c := by
    funext b; refine Fin.ext ?_
    match b with
    | ⟨0, _⟩ => rfl
    | ⟨1, _⟩ => rfl
  rw [e, rows_eq]
  rfl

/-! ## The half-rows of the result -/

omit [FloatOps F] in
/-- Row r of trip t is row 4t + r of the worker's block. -/
theorem row_lt (t : Fin k0_t1_loop.trips) (r : Fin 4) : 4 * t.val + r.val < 128 := by
  have ht : t.val < 32 := Nat.lt_of_lt_of_eq t.isLt geom_trips_eq
  have hr := r.isLt
  omega

omit [FloatOps F] in
/-- … and row 128·w + 4t + r of the result. -/
theorem rowR_lt (t : Fin k0_t1_loop.trips) (r : Fin 4) : 256 * (L 1).val + 128 * (L 0).val + 4 * t.val + r.val < 4096 := by
  have h0 : (L 0).val < 2 := (L 0).isLt
  have h1 : (L 1).val < 16 := (L 1).isLt
  have ht : t.val < 32 := Nat.lt_of_lt_of_eq t.isLt geom_trips_eq
  have hr := r.isLt
  omega

omit [FloatOps F] in
/-- Where an index (a, b) of a half-row sits, the row's offset given by an equation. -/
theorem half_emb' {R c0 : ℕ} (off : Fin 3 → ℕ) (hoff : off = ![R, 0, 0]) (inb : ∀ a, off a + S1x100x256.size a ≤ S4096x100x256.size a)
    (inb2 : ∀ a, (![0, c0] : Fin 2 → ℕ) a + S100x128.size a ≤ S100x256.size a) (hR : R < 4096) (a : Fin 100) (b : Fin 128)
    (hc : c0 + b.val < 256) :
    ((((oV).slice (Rect.unit (s := S4096x100x256) off S1x100x256.size inb) (fun _ => rfl)).squeeze S100x256 squeezes_S1x100x256_S100x256).slice
          (Rect.unit (s := S100x256) ![0, c0] S100x128.size inb2) (fun _ => rfl)).view.emb (ix2 a b)
      = ix3 (⟨R, hR⟩ : Fin 4096) a (⟨c0 + b.val, hc⟩ : Fin 256) := by
  subst hoff; exact half_emb inb inb2 a b

omit [FloatOps F] in
/-- Index (a, b) of the left half of row 4t + r sits at (128·w + 4t + r, a, b). -/
theorem oHalfA_emb (t : Fin k0_t1_loop.trips) (r : Fin 4) (a : Fin 100) (b : Fin 128) :
    (oHalfA L t r).view.emb (ix2 a b)
      = ix3 (⟨256 * (L 1).val + 128 * (L 0).val + 4 * t.val + r.val, rowR_lt L t r⟩ : Fin 4096) a (⟨b.val, by omega⟩ : Fin 256) := by
  refine (half_emb' _ (k0_off4_eq L t r) (k0_off4_inb L t r) inb_S100x256_S100x128_0_0 (rowR_lt L t r) a b (by omega)).trans ?_
  exact congrArg (fun q : Fin 256 => ix3 (⟨256 * (L 1).val + 128 * (L 0).val + 4 * t.val + r.val, rowR_lt L t r⟩ : Fin 4096) a q)
    (Fin.ext (Nat.zero_add _))

omit [FloatOps F] in
/-- Index (a, b) of the right half sits at (128·w + 4t + r, a, b + 128). -/
theorem oHalfB_emb (t : Fin k0_t1_loop.trips) (r : Fin 4) (a : Fin 100) (b : Fin 128) :
    (oHalfB L t r).view.emb (ix2 a b)
      = ix3 (⟨256 * (L 1).val + 128 * (L 0).val + 4 * t.val + r.val, rowR_lt L t r⟩ : Fin 4096) a (⟨b.val + 128, by omega⟩ : Fin 256) := by
  refine (half_emb' _ (k0_off4_eq L t r) (k0_off4_inb L t r) inb_S100x256_S100x128_0_128 (rowR_lt L t r) a b (by omega)).trans ?_
  exact congrArg (fun q : Fin 256 => ix3 (⟨256 * (L 1).val + 128 * (L 0).val + 4 * t.val + r.val, rowR_lt L t r⟩ : Fin 4096) a q)
    (Fin.ext (Nat.add_comm _ _))

/-- What the kernel leaves at (R, a, k), with R's block and row within the block named. -/
theorem outF_at (R : Fin 4096) (a : Fin 100) (k : Fin 256) (w : Fin 32) (p : Fin 128) (hw : R.val / 128 = w.val) (hp : R.val % 128 = p.val) :
    (outF m d : S4096x100x256.Idx → F .f32) (ix3 R a k)
      = (tblW m d : S120x256.Idx → F .f32) (ix2 (Cert.Proof.Spec.rowOf ((idx3 m d : S32x128x100.Idx → BitVec 32) (ix3 w p a))) k) := by
  have e1 : (⟨R.val / 128, by omega⟩ : Fin 32) = w := Fin.ext hw
  have e2 : (⟨R.val % 128, Nat.mod_lt _ (by decide)⟩ : Fin 128) = p := Fin.ext hp
  show (tblW m d : S120x256.Idx → F .f32) (ix2 (Cert.Proof.Spec.rowOf ((idx3 m d : S32x128x100.Idx → BitVec 32)
      (ix3 (⟨R.val / 128, by omega⟩ : Fin 32) (⟨R.val % 128, Nat.mod_lt _ (by decide)⟩ : Fin 128) a))) k) = _
  rw [e1, e2]

/-- THE LEFT HALF-ROW: where the result holds what the kernel leaves, the left half of row 4t + r of the worker's block is
    what the gather of list row 4t + r from the left half of the table left. -/
theorem outF_halfA (t : Fin k0_t1_loop.trips) (r : Fin 4) (hin : HIN m d L) (x : S100x128.Idx) :
    (outF m d : S4096x100x256.Idx → F .f32) ((oHalfA L t r).view.emb x) = gA m d L (4 * t.val + r.val) (row_lt t r) hin x := by
  obtain ⟨a, b, rfl⟩ : ∃ (a : Fin 100) (b : Fin 128), x = ix2 a b := ⟨x 0, x 1, eq_ix2 x⟩
  have h0 : (L 0).val < 2 := (L 0).isLt
  have h1 : (L 1).val < 16 := (L 1).isLt
  have hrow := row_lt t r
  rw [oHalfA_emb, gA_apply]
  exact outF_at m d _ a _ (wOf L) (⟨4 * t.val + r.val, row_lt t r⟩ : Fin 128)
    (by show (256 * (L 1).val + 128 * (L 0).val + 4 * t.val + r.val) / 128 = 2 * (L 1).val + (L 0).val; omega)
    (by show (256 * (L 1).val + 128 * (L 0).val + 4 * t.val + r.val) % 128 = 4 * t.val + r.val; omega)

/-- THE RIGHT HALF-ROW, likewise. -/
theorem outF_halfB (t : Fin k0_t1_loop.trips) (r : Fin 4) (hin : HIN m d L) (x : S100x128.Idx) :
    (outF m d : S4096x100x256.Idx → F .f32) ((oHalfB L t r).view.emb x) = gB m d L (4 * t.val + r.val) (row_lt t r) hin x := by
  obtain ⟨a, b, rfl⟩ : ∃ (a : Fin 100) (b : Fin 128), x = ix2 a b := ⟨x 0, x 1, eq_ix2 x⟩
  have h0 : (L 0).val < 2 := (L 0).isLt
  have h1 : (L 1).val < 16 := (L 1).isLt
  have hrow := row_lt t r
  rw [oHalfB_emb, gB_apply]
  exact outF_at m d _ a _ (wOf L) (⟨4 * t.val + r.val, row_lt t r⟩ : Fin 128)
    (by show (256 * (L 1).val + 128 * (L 0).val + 4 * t.val + r.val) / 128 = 2 * (L 1).val + (L 0).val; omega)
    (by show (256 * (L 1).val + 128 * (L 0).val + 4 * t.val + r.val) % 128 = 4 * t.val + r.val; omega)

/-! ## Two rewritings of what a buffer holds after a transfer -/

omit [FloatOps F] in
/-- One write through the whole of a buffer held whole leaves the payload, whatever it held. -/
theorem writes_whole_single {κ : Kind} (b : Ref sig κ) (f : b.ty.Contents (Elt F))
    (p : (Rect.whole b.ty.shape).shape.Idx → Elt F b.ty.elt) :
    (View.whole b).writes (Elt F) f [⟨Rect.whole b.ty.shape, p⟩] = p := by
  funext i
  show ((View.whole b).slice (Rect.whole b.ty.shape)).write (Elt F) f p Finset.univ i = p i
  have e : ((View.whole b).slice (Rect.whole b.ty.shape)).emb i = i := by
    show (Rect.whole b.ty.shape).emb i = i
    exact Rect.emb_whole_apply _ i
  have h := View.write_emb_of_mem (v := (View.whole b).slice (Rect.whole b.ty.shape)) f p (Finset.mem_univ i)
  rw [e] at h
  exact h.trans (cast_eq _ _)

omit [FloatOps F] in
/-- (a) A row buffer after its gather: held whole, written whole, it holds the payload. -/
theorem pts_writes_whole (b : Ref sig .scVector) (c : Fin τ.nSC) (j : Fin τ.nSub) (q : PosShare TreeShare) (f : b.ty.Contents (Elt F))
    (p : (Rect.whole b.ty.shape).shape.Idx → Elt F b.ty.elt) :
    (((Memref.whole b).view.loc (V d c j) ↦{q} (Memref.whole b).view.writes (Elt F) f [⟨Rect.whole b.ty.shape, p⟩] : sProp 𝕄))
      = ((Memref.whole b).view.loc (V d c j) ↦{q} p) :=
  congrArg (fun g : b.ty.Contents (Elt F) => (((Memref.whole b).view.loc (V d c j) ↦{q} g : sProp 𝕄))) (writes_whole_single b f p)

/-- (b) A half-row of the result after the write of a row buffer holding what the gather of list row 4t + r left: on the
    half-row's elements the written contents are what the kernel leaves. -/
theorem halfA_write_apply (t : Fin k0_t1_loop.trips) (r : Fin 4) (hin : HIN m d L) (f₀ : Buf (Elt F) (oLoc d))
    (pay : S100x128.Idx → Elt F .f32) (hpay : pay = gA m d L (4 * t.val + r.val) (row_lt t r) hin) :
    ∀ i ∈ (oHalfA L t r).view.set, View.write (Elt F) (oHalfA L t r).view f₀ pay Finset.univ i = outF m d i := by
  intro i hi
  obtain ⟨x, -, rfl⟩ := Finset.mem_map.mp hi
  subst hpay
  exact ((View.write_emb_of_mem _ _ (Finset.mem_univ x)).trans (cast_eq _ _)).trans (outF_halfA m d L t r hin x).symm
theorem halfB_write_apply (t : Fin k0_t1_loop.trips) (r : Fin 4) (hin : HIN m d L) (f₀ : Buf (Elt F) (oLoc d))
    (pay : S100x128.Idx → Elt F .f32) (hpay : pay = gB m d L (4 * t.val + r.val) (row_lt t r) hin) :
    ∀ i ∈ (oHalfB L t r).view.set, View.write (Elt F) (oHalfB L t r).view f₀ pay Finset.univ i = outF m d i := by
  intro i hi
  obtain ⟨x, -, rfl⟩ := Finset.mem_map.mp hi
  subst hpay
  exact ((View.write_emb_of_mem _ _ (Finset.mem_univ x)).trans (cast_eq _ _)).trans (outF_halfB m d L t r hin x).symm

/-- A points-to on a half-row's elements at contents that agree there with what the kernel leaves is the points-to at
    what the kernel leaves. -/
theorem pts_halfA_congr (t : Fin k0_t1_loop.trips) (r : Fin 4) (c : Fin τ.nSC) (j : Fin τ.nSub) (q : PosShare TreeShare) (W : Buf (Elt F) (oLoc d))
    (h : ∀ i ∈ (oHalfA L t r).view.set, W i = outF m d i) :
    (((oHalfA L t r).view.loc (V d c j) ↦[(oHalfA L t r).view.set]{q} W : sProp 𝕄))
      = ((oHalfA L t r).view.loc (V d c j) ↦[(oHalfA L t r).view.set]{q} outF m d) :=
  pointsTo_congr h
theorem pts_halfB_congr (t : Fin k0_t1_loop.trips) (r : Fin 4) (c : Fin τ.nSC) (j : Fin τ.nSub) (q : PosShare TreeShare) (W : Buf (Elt F) (oLoc d))
    (h : ∀ i ∈ (oHalfB L t r).view.set, W i = outF m d i) :
    (((oHalfB L t r).view.loc (V d c j) ↦[(oHalfB L t r).view.set]{q} W : sProp 𝕄))
      = ((oHalfB L t r).view.loc (V d c j) ↦[(oHalfB L t r).view.set]{q} outF m d) :=
  pointsTo_congr h

/-- The two together: the half-row after the write holds what the kernel leaves. -/
theorem pts_halfA_written (t : Fin k0_t1_loop.trips) (r : Fin 4) (hin : HIN m d L) (c : Fin τ.nSC) (j : Fin τ.nSub) (f₀ : Buf (Elt F) (oLoc d))
    (pay : S100x128.Idx → Elt F .f32) (hpay : pay = gA m d L (4 * t.val + r.val) (row_lt t r) hin) :
    (((oHalfA L t r).view.loc (V d c j) ↦[(oHalfA L t r).view.set]{fullShare} View.write (Elt F) (oHalfA L t r).view f₀ pay Finset.univ : sProp 𝕄))
      = ((oHalfA L t r).view.loc (V d c j) ↦[(oHalfA L t r).view.set]{fullShare} outF m d) :=
  pts_halfA_congr m d L t r c j fullShare _ (halfA_write_apply m d L t r hin f₀ pay hpay)
theorem pts_halfB_written (t : Fin k0_t1_loop.trips) (r : Fin 4) (hin : HIN m d L) (c : Fin τ.nSC) (j : Fin τ.nSub) (f₀ : Buf (Elt F) (oLoc d))
    (pay : S100x128.Idx → Elt F .f32) (hpay : pay = gB m d L (4 * t.val + r.val) (row_lt t r) hin) :
    (((oHalfB L t r).view.loc (V d c j) ↦[(oHalfB L t r).view.set]{fullShare} View.write (Elt F) (oHalfB L t r).view f₀ pay Finset.univ : sProp 𝕄))
      = ((oHalfB L t r).view.loc (V d c j) ↦[(oHalfB L t r).view.set]{fullShare} outF m d) :=
  pts_halfB_congr m d L t r c j fullShare _ (halfB_write_apply m d L t r hin f₀ pay hpay)

/-! ## The same after a transfer, in the spelling a run of the task leaves -/

/-- On a half-row's elements, one write of the gathered rows through the whole of the half-row leaves what the kernel
    leaves. -/
theorem halfA_writes_apply (hin : HIN m d L) (t : Fin k0_t1_loop.trips) (r : Fin 4) (f₀ : Buf (Elt F) (oLoc d)) (wpay : S100x128.Idx → Elt F .f32)
    (hw : wpay = gA m d L (4 * t.val + r.val) (row_lt t r) hin) :
    ∀ i ∈ (oHalfA L t r).view.set, (oHalfA L t r).view.writes (Elt F) f₀ [⟨Rect.whole S100x128, wpay⟩] i = outF m d i := by
  intro i hi
  obtain ⟨x, -, rfl⟩ := Finset.mem_map.mp hi
  subst hw
  have e : ((oHalfA L t r).view.slice (Rect.whole S100x128)).emb x = (oHalfA L t r).view.emb x := by
    show (oHalfA L t r).view.emb ((Rect.whole S100x128).emb x) = _
    rw [Rect.emb_whole_apply]
  have h := View.write_emb_of_mem (v := (oHalfA L t r).view.slice (Rect.whole S100x128)) f₀
    (gA m d L (4 * t.val + r.val) (row_lt t r) hin) (Finset.mem_univ x)
  rw [e] at h
  exact (h.trans (cast_eq _ _)).trans (outF_halfA m d L t r hin x).symm
theorem halfB_writes_apply (hin : HIN m d L) (t : Fin k0_t1_loop.trips) (r : Fin 4) (f₀ : Buf (Elt F) (oLoc d)) (wpay : S100x128.Idx → Elt F .f32)
    (hw : wpay = gB m d L (4 * t.val + r.val) (row_lt t r) hin) :
    ∀ i ∈ (oHalfB L t r).view.set, (oHalfB L t r).view.writes (Elt F) f₀ [⟨Rect.whole S100x128, wpay⟩] i = outF m d i := by
  intro i hi
  obtain ⟨x, -, rfl⟩ := Finset.mem_map.mp hi
  subst hw
  have e : ((oHalfB L t r).view.slice (Rect.whole S100x128)).emb x = (oHalfB L t r).view.emb x := by
    show (oHalfB L t r).view.emb ((Rect.whole S100x128).emb x) = _
    rw [Rect.emb_whole_apply]
  have h := View.write_emb_of_mem (v := (oHalfB L t r).view.slice (Rect.whole S100x128)) f₀
    (gB m d L (4 * t.val + r.val) (row_lt t r) hin) (Finset.mem_univ x)
  rw [e] at h
  exact (h.trans (cast_eq _ _)).trans (outF_halfB m d L t r hin x).symm

/-- A half-row after the write of a row buffer that held the gathered rows of its list row: it holds what the kernel leaves. -/
theorem halfA_writes_done (hin : HIN m d L) (t : Fin k0_t1_loop.trips) (r : Fin 4) (f₀ : Buf (Elt F) (oLoc d)) (wpay : S100x128.Idx → Elt F .f32)
    (hw : wpay = gA m d L (4 * t.val + r.val) (row_lt t r) hin) :
    (((oHalfA L t r).view.loc (V d (cV L) (jV L)) ↦[(oHalfA L t r).view.set]{fullShare} (oHalfA L t r).view.writes (Elt F) f₀ [⟨Rect.whole S100x128, wpay⟩] : sProp 𝕄))
      = ((oHalfA L t r).view.loc (V d (cV L) (jV L)) ↦[(oHalfA L t r).view.set]{fullShare} outF m d) :=
  pointsTo_congr (halfA_writes_apply m d L hin t r f₀ wpay hw)
theorem halfB_writes_done (hin : HIN m d L) (t : Fin k0_t1_loop.trips) (r : Fin 4) (f₀ : Buf (Elt F) (oLoc d)) (wpay : S100x128.Idx → Elt F .f32)
    (hw : wpay = gB m d L (4 * t.val + r.val) (row_lt t r) hin) :
    (((oHalfB L t r).view.loc (V d (cV L) (jV L)) ↦[(oHalfB L t r).view.set]{fullShare} (oHalfB L t r).view.writes (Elt F) f₀ [⟨Rect.whole S100x128, wpay⟩] : sProp 𝕄))
      = ((oHalfB L t r).view.loc (V d (cV L) (jV L)) ↦[(oHalfB L t r).view.set]{fullShare} outF m d) :=
  pointsTo_congr (halfB_writes_apply m d L hin t r f₀ wpay hw)

omit [FloatOps F] in
/-- Reading a buffer held whole gives back what it holds. -/
theorem read_whole_same (b : Ref sig .scVector) (f : b.ty.Contents (Elt F)) :
    (ReadAs.same : ReadAs (Elt F) b.ty.shape b.ty.elt b.ty.shape b.ty.elt).apply ((Memref.whole b).view.read (Elt F) f) = f := rfl
omit [FloatOps F] in
/-- After one write through the whole of it, reading it gives the payload. -/
theorem read_writes_whole (b : Ref sig .scVector) (g : b.ty.Contents (Elt F)) (p : (Rect.whole b.ty.shape).shape.Idx → Elt F b.ty.elt) :
    (ReadAs.same : ReadAs (Elt F) b.ty.shape b.ty.elt b.ty.shape b.ty.elt).apply
      ((Memref.whole b).view.read (Elt F) ((Memref.whole b).view.writes (Elt F) g [⟨Rect.whole b.ty.shape, p⟩])) = p :=
  writes_whole_single b g p

end Cert.Proof.KI

end
-- ==== Proof.KI.Epilogue.lean ====
/-
  The end of a tile's task, and how its half-rows of the result are counted by trips.

  After the loop's last trip the writes of the worker's rows 124 … 127 are in flight, one on each of the eight write
  cells. The task then waits for each in turn: two waits end the part that holds the loop, four make the next part,
  two end the task. Each wait names the first half-row of the result for its amount alone (a half-row's units, the
  same for every write); it lowers its cell to zero and hands over what the write delivers: the half-row at the
  result's final contents, and the row buffer back. Together with the half-rows of the trips below 31 these are all
  of the worker's half-rows; its four rows a trip, each in two halves, are the trip's two pairs of rows. The read
  tokens lent to the gathers, with what was left of the buffer they were split off, are the buffer again.
-/
import proofs.«203043_g45337674776592_cont_8to1_c_201_37_alg».proof.Proof.KI.Tokens

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ)
variable [FloatOps F]
variable (d : Dev nD) (L : grid0.Coords)

/-! ## The final waits -/

/-- The two halves of row 0 of the result, [100, 128]: what each final wait names, for its amount alone. -/
abbrev oDummyA : Memref sig .scVector .hbm S100x128 .f32 :=
  (((oV).slice (Rect.unit (s := S4096x100x256) ![0, 0, 0] S1x100x256.size inb_S4096x100x256_S1x100x256_0_0_0) (fun _ => rfl)).squeeze S100x256 squeezes_S1x100x256_S100x256).slice
    (Rect.unit (s := S100x256) ![0, 0] S100x128.size inb_S100x256_S100x128_0_0) (fun _ => rfl)
abbrev oDummyB : Memref sig .scVector .hbm S100x128 .f32 :=
  (((oV).slice (Rect.unit (s := S4096x100x256) ![0, 0, 0] S1x100x256.size inb_S4096x100x256_S1x100x256_0_0_0) (fun _ => rfl)).squeeze S100x256 squeezes_S1x100x256_S100x256).slice
    (Rect.unit (s := S100x256) ![0, 128] S100x128.size inb_S100x256_S100x128_0_128) (fun _ => rfl)

omit [FloatOps F] in
/-- A wait naming a half-row lowers its cell by a half-row's units, which is what a write of a row buffer raised it by. -/
theorem creditA : (oDummyA).view.dmaCredit = 409600 := by decide
omit [FloatOps F] in
theorem creditB : (oDummyB).view.dmaCredit = 409600 := by decide

/-- What the task does after its loop, to the end of that part: it waits for the writes of trip 31's row 0. -/
abbrev part5_tail (i : grid0.Coords) (arg4 : Memref sig .scVector .hbm S4096x100x256 .f32) (arg8 : Memref sig .scVector .vmem S100x128 .f32) (harg8 : arg8.IsWhole)
    (arg12 : Memref sig .scVector .vmem S100x128 .f32) (harg12 : arg12.IsWhole) (arg24 arg28 : DmaSems sig S_) :
    Prog (TpuEff nD τ sig (Elt F) Λ₀ (.scVector ((i 0).castLE hcore0) ((i 1).castLE hsub0))) PUnit := do
  let v25 : Memref sig .scVector .hbm S1x100x256 .f32 := arg4.slice (Rect.unit (s := S4096x100x256) ![0, 0, 0] S1x100x256.size inb_S4096x100x256_S1x100x256_0_0_0) (fun _ => rfl)
  let v26 : Memref sig .scVector .hbm S100x256 .f32 := v25.squeeze S100x256 squeezes_S1x100x256_S100x256
  let v27 : Memref sig .scVector .hbm S100x128 .f32 := v26.slice (Rect.unit (s := S100x256) ![0, 0] S100x128.size inb_S100x256_S100x128_0_0) (fun _ => rfl)
  Prog.lift (.waitDma2 arg24.sem arg8 v27 harg8.wordExact (View.wordExact_bits rfl))
  let v31 : Memref sig .scVector .hbm S1x100x256 .f32 := arg4.slice (Rect.unit (s := S4096x100x256) ![0, 0, 0] S1x100x256.size inb_S4096x100x256_S1x100x256_0_0_0) (fun _ => rfl)
  let v32 : Memref sig .scVector .hbm S100x256 .f32 := v31.squeeze S100x256 squeezes_S1x100x256_S100x256
  let v33 : Memref sig .scVector .hbm S100x128 .f32 := v32.slice (Rect.unit (s := S100x256) ![0, 128] S100x128.size inb_S100x256_S100x128_0_128) (fun _ => rfl)
  Prog.lift (.waitDma2 arg28.sem arg12 v33 harg12.wordExact (View.wordExact_bits rfl))
  pure ⟨⟩

/-- The printed part is its two first gathers, the loop, and that. -/
theorem part5_split (i : grid0.Coords) (arg2 : Memref sig .scVector .hbm S32x128x100 .i32) (harg2 : arg2.IsWhole) (arg3 : Memref sig .scVector .hbm S120x256 .f32) (harg3 : arg3.IsWhole) (arg4 : Memref sig .scVector .hbm S4096x100x256 .f32) (harg4 : arg4.IsWhole) (arg5 : Memref sig .scVector .vmem S128x100 .i32) (harg5 : arg5.IsWhole) (arg6 : Memref sig .scVector .shared S120x128 .f32) (harg6 : arg6.IsWhole) (arg7 : Memref sig .scVector .shared S120x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S100x128 .f32) (harg11 : arg11.IsWhole) (arg12 : Memref sig .scVector .vmem S100x128 .f32) (harg12 : arg12.IsWhole) (arg13 : Memref sig .scVector .vmem S100x128 .f32) (harg13 : arg13.IsWhole) (arg14 : Memref sig .scVector .vmem S100x128 .f32) (harg14 : arg14.IsWhole) (arg15 : Memref sig .scVector .vmem S100x128 .f32) (harg15 : arg15.IsWhole) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (arg31 : DmaSems sig S_) (v70_r0 : DmaSems sig S_) (v70_r1 : DmaSems sig S_) (v70_r2 : DmaSems sig S_) (v2 : BitVec 32) :
    k0_part5_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 v2 = (do
    let v17 : Memref sig .scVector .shared S120x128 .f32 := arg6.slice (Rect.unit (s := S120x128) ![0, 0] S120x128.size inb_S120x128_S120x128_0_0) (fun _ => rfl)
    let v15 : Memref sig .scVector .vmem S1x100 .i32 := arg5.slice (Rect.unit (s := S128x100) ![1, 0] S1x100.size inb_S128x100_S1x100_1_0) (fun _ => rfl)
    let v16 : Memref sig .scVector .vmem S100 .i32 := v15.squeeze S100 squeezes_S1x100_S100
    SparseCore.enqueueIndirectGather rfl v17 arg9 gathers_S120x128_S100x128 v16 rfl arg17.sem (View.wordExact_bits rfl) rfl (Or.inr rfl)
    let v18 : Memref sig .scVector .vmem S1x100 .i32 := arg5.slice (Rect.unit (s := S128x100) ![1, 0] S1x100.size inb_S128x100_S1x100_1_0) (fun _ => rfl)
    let v19 : Memref sig .scVector .vmem S100 .i32 := v18.squeeze S100 squeezes_S1x100_S100
    let v20 : Memref sig .scVector .shared S120x128 .f32 := arg7.slice (Rect.unit (s := S120x128) ![0, 0] S120x128.size inb_S120x128_S120x128_0_0) (fun _ => rfl)
    SparseCore.enqueueIndirectGather rfl v20 arg13 gathers_S120x128_S100x128 v19 rfl arg21.sem (View.wordExact_bits rfl) rfl (Or.inr rfl)
    Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 v2)
    part5_tail (F := F) i arg4 arg8 harg8 arg12 harg12 arg24 arg28) := rfl

/-- What the task does after its last part: it waits for the writes of trip 31's row 3. -/
abbrev cc0_tail (i : grid0.Coords) (arg4 : Memref sig .scVector .hbm S4096x100x256 .f32) (arg11 : Memref sig .scVector .vmem S100x128 .f32) (harg11 : arg11.IsWhole)
    (arg15 : Memref sig .scVector .vmem S100x128 .f32) (harg15 : arg15.IsWhole) (arg27 arg31 : DmaSems sig S_) :
    Prog (TpuEff nD τ sig (Elt F) Λ₀ (.scVector ((i 0).castLE hcore0) ((i 1).castLE hsub0))) PUnit := do
  let v61 : Memref sig .scVector .hbm S1x100x256 .f32 := arg4.slice (Rect.unit (s := S4096x100x256) ![0, 0, 0] S1x100x256.size inb_S4096x100x256_S1x100x256_0_0_0) (fun _ => rfl)
  let v62 : Memref sig .scVector .hbm S100x256 .f32 := v61.squeeze S100x256 squeezes_S1x100x256_S100x256
  let v63 : Memref sig .scVector .hbm S100x128 .f32 := v62.slice (Rect.unit (s := S100x256) ![0, 0] S100x128.size inb_S100x256_S100x128_0_0) (fun _ => rfl)
  Prog.lift (.waitDma2 arg27.sem arg11 v63 harg11.wordExact (View.wordExact_bits rfl))
  let v67 : Memref sig .scVector .hbm S1x100x256 .f32 := arg4.slice (Rect.unit (s := S4096x100x256) ![0, 0, 0] S1x100x256.size inb_S4096x100x256_S1x100x256_0_0_0) (fun _ => rfl)
  let v68 : Memref sig .scVector .hbm S100x256 .f32 := v67.squeeze S100x256 squeezes_S1x100x256_S100x256
  let v69 : Memref sig .scVector .hbm S100x128 .f32 := v68.slice (Rect.unit (s := S100x256) ![0, 128] S100x128.size inb_S100x256_S100x128_0_128) (fun _ => rfl)
  Prog.lift (.waitDma2 arg31.sem arg15 v69 harg15.wordExact (View.wordExact_bits rfl))
  pure ⟨⟩

/-- The printed task is its three parts and that. -/
theorem cc0_split (i : grid0.Coords) (arg2 : Memref sig .scVector .hbm S32x128x100 .i32) (harg2 : arg2.IsWhole) (arg3 : Memref sig .scVector .hbm S120x256 .f32) (harg3 : arg3.IsWhole) (arg4 : Memref sig .scVector .hbm S4096x100x256 .f32) (harg4 : arg4.IsWhole) (arg5 : Memref sig .scVector .vmem S128x100 .i32) (harg5 : arg5.IsWhole) (arg6 : Memref sig .scVector .shared S120x128 .f32) (harg6 : arg6.IsWhole) (arg7 : Memref sig .scVector .shared S120x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S100x128 .f32) (harg11 : arg11.IsWhole) (arg12 : Memref sig .scVector .vmem S100x128 .f32) (harg12 : arg12.IsWhole) (arg13 : Memref sig .scVector .vmem S100x128 .f32) (harg13 : arg13.IsWhole) (arg14 : Memref sig .scVector .vmem S100x128 .f32) (harg14 : arg14.IsWhole) (arg15 : Memref sig .scVector .vmem S100x128 .f32) (harg15 : arg15.IsWhole) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (arg31 : DmaSems sig S_) (v70_r0 : DmaSems sig S_) (v70_r1 : DmaSems sig S_) (v70_r2 : DmaSems sig S_) :
    cc0_k_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 = (do
    let v2 : BitVec 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2
    k0_part5 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 v2
    k0_part6 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2
    cc0_tail (F := F) i arg4 arg11 harg11 arg15 harg15 arg27 arg31) := rfl

set_option maxHeartbeats 4000000 in
/-- The two waits after the loop: the writes of trip 31's row 0 land. -/
theorem part5_tail_waits (h31 : 31 < k0_t1_loop.trips) (O : CellTallies nD τ sig (HIx 1)) (W : Waits sig (HIx 1)) (hO : ∀ g, O g none = 0) :
    iprop(levAts (K (F := F)).L (K (F := F)).lev
        ∗ Transfers.Flight countersEmb (V d (cV L) (jV L)) (SemLoc.dma (⟨8, by decide⟩ : DmaSem sig)) (default : HIx 1) 409600 (wDelA0 m d L ⟨31, h31⟩) ∗ Transfers.Flight countersEmb (V d (cV L) (jV L)) (SemLoc.dma (⟨12, by decide⟩ : DmaSem sig)) (default : HIx 1) 409600 (wDelB0 m d L ⟨31, h31⟩)
        ∗ owes (V d (cV L) (jV L)) O W)
      ⊢ wp frame (wpE (defs₀ (F := F)) 𝒱₀ (V d (cV L) (jV L)) none) Set.univ
          (part5_tail (F := F) L oV rA0 (Memref.isWhole_whole _) rB0 (Memref.isWhole_whole _) cc0_scratch19 cc0_scratch23)
          (fun _ => iprop(wDelA0 m d L ⟨31, h31⟩ ∗ wDelB0 m d L ⟨31, h31⟩ ∗ semVal ((V d (cV L) (jV L), SemLoc.dma (⟨8, by decide⟩ : DmaSem sig)) : GSem nD τ sig) 0 ∗ semVal ((V d (cV L) (jV L), SemLoc.dma (⟨12, by decide⟩ : DmaSem sig)) : GSem nD τ sig) 0
            ∗ owes (V d (cV L) (jV L)) O (insert (SemLoc.dma (⟨12, by decide⟩ : DmaSem sig), (default : HIx 1)) (insert (SemLoc.dma (⟨8, by decide⟩ : DmaSem sig), (default : HIx 1)) W)))) := by
  unfold part5_tail
  iintro ⟨#Hlv, HF8, HF12, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hmw8 := (Transfers.MayWaits.elim (SemLoc.dma (⟨8, by decide⟩ : DmaSem sig))) $$ Hmw
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  sl_exec
  ihave Hmw12 := (Transfers.MayWaits.elim (SemLoc.dma (⟨12, by decide⟩ : DmaSem sig))) $$ Hmw
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  sl_exec
  rw [wp_ret]; imodintro
  isplitl [HD8]; · iexact HD8
  isplitl [HD12]; · iexact HD12
  isplitl [Hv8]; · iexact Hv8
  isplitl [Hv12]; · iexact Hv12
  iexact HO

set_option maxHeartbeats 4000000 in
/-- The two waits that end the task: the writes of trip 31's row 3 land. -/
theorem cc0_tail_waits (h31 : 31 < k0_t1_loop.trips) (O : CellTallies nD τ sig (HIx 1)) (W : Waits sig (HIx 1)) (hO : ∀ g, O g none = 0) :
    iprop(levAts (K (F := F)).L (K (F := F)).lev
        ∗ Transfers.Flight countersEmb (V d (cV L) (jV L)) (SemLoc.dma (⟨11, by decide⟩ : DmaSem sig)) (default : HIx 1) 409600 (wDelA3 m d L ⟨31, h31⟩) ∗ Transfers.Flight countersEmb (V d (cV L) (jV L)) (SemLoc.dma (⟨15, by decide⟩ : DmaSem sig)) (default : HIx 1) 409600 (wDelB3 m d L ⟨31, h31⟩)
        ∗ owes (V d (cV L) (jV L)) O W)
      ⊢ wp frame (wpE (defs₀ (F := F)) 𝒱₀ (V d (cV L) (jV L)) none) Set.univ
          (cc0_tail (F := F) L oV rA3 (Memref.isWhole_whole _) rB3 (Memref.isWhole_whole _) cc0_scratch22 cc0_scratch26)
          (fun _ => iprop(wDelA3 m d L ⟨31, h31⟩ ∗ wDelB3 m d L ⟨31, h31⟩ ∗ semVal ((V d (cV L) (jV L), SemLoc.dma (⟨11, by decide⟩ : DmaSem sig)) : GSem nD τ sig) 0 ∗ semVal ((V d (cV L) (jV L), SemLoc.dma (⟨15, by decide⟩ : DmaSem sig)) : GSem nD τ sig) 0
            ∗ owes (V d (cV L) (jV L)) O (insert (SemLoc.dma (⟨15, by decide⟩ : DmaSem sig), (default : HIx 1)) (insert (SemLoc.dma (⟨11, by decide⟩ : DmaSem sig), (default : HIx 1)) W)))) := by
  unfold cc0_tail
  iintro ⟨#Hlv, HF11, HF15, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hmw11 := (Transfers.MayWaits.elim (SemLoc.dma (⟨11, by decide⟩ : DmaSem sig))) $$ Hmw
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  sl_exec
  ihave Hmw15 := (Transfers.MayWaits.elim (SemLoc.dma (⟨15, by decide⟩ : DmaSem sig))) $$ Hmw
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  sl_exec
  rw [wp_ret]; imodintro
  isplitl [HD11]; · iexact HD11
  isplitl [HD15]; · iexact HD15
  isplitl [Hv11]; · iexact Hv11
  isplitl [Hv15]; · iexact Hv15
  iexact HO

set_option maxHeartbeats 4000000 in
/-- The four waits of the task's last part but one: the writes of trip 31's rows 1 and 2 land. -/
theorem part6_waits (h31 : 31 < k0_t1_loop.trips) (O : CellTallies nD τ sig (HIx 1)) (W : Waits sig (HIx 1)) (hO : ∀ g, O g none = 0) :
    iprop(levAts (K (F := F)).L (K (F := F)).lev
        ∗ Transfers.Flight countersEmb (V d (cV L) (jV L)) (SemLoc.dma (⟨9, by decide⟩ : DmaSem sig)) (default : HIx 1) 409600 (wDelA1 m d L ⟨31, h31⟩) ∗ Transfers.Flight countersEmb (V d (cV L) (jV L)) (SemLoc.dma (⟨13, by decide⟩ : DmaSem sig)) (default : HIx 1) 409600 (wDelB1 m d L ⟨31, h31⟩)
        ∗ Transfers.Flight countersEmb (V d (cV L) (jV L)) (SemLoc.dma (⟨10, by decide⟩ : DmaSem sig)) (default : HIx 1) 409600 (wDelA2 m d L ⟨31, h31⟩) ∗ Transfers.Flight countersEmb (V d (cV L) (jV L)) (SemLoc.dma (⟨14, by decide⟩ : DmaSem sig)) (default : HIx 1) 409600 (wDelB2 m d L ⟨31, h31⟩)
        ∗ owes (V d (cV L) (jV L)) O W)
      ⊢ wp frame (wpE (defs₀ (F := F)) 𝒱₀ (V d (cV L) (jV L)) none) Set.univ
          (k0_part6 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          (fun _ => iprop(wDelA1 m d L ⟨31, h31⟩ ∗ wDelB1 m d L ⟨31, h31⟩ ∗ wDelA2 m d L ⟨31, h31⟩ ∗ wDelB2 m d L ⟨31, h31⟩
            ∗ semVal ((V d (cV L) (jV L), SemLoc.dma (⟨9, by decide⟩ : DmaSem sig)) : GSem nD τ sig) 0 ∗ semVal ((V d (cV L) (jV L), SemLoc.dma (⟨13, by decide⟩ : DmaSem sig)) : GSem nD τ sig) 0 ∗ semVal ((V d (cV L) (jV L), SemLoc.dma (⟨10, by decide⟩ : DmaSem sig)) : GSem nD τ sig) 0 ∗ semVal ((V d (cV L) (jV L), SemLoc.dma (⟨14, by decide⟩ : DmaSem sig)) : GSem nD τ sig) 0
            ∗ owes (V d (cV L) (jV L)) O (insert (SemLoc.dma (⟨14, by decide⟩ : DmaSem sig), (default : HIx 1)) (insert (SemLoc.dma (⟨10, by decide⟩ : DmaSem sig), (default : HIx 1)) (insert (SemLoc.dma (⟨13, by decide⟩ : DmaSem sig), (default : HIx 1)) (insert (SemLoc.dma (⟨9, by decide⟩ : DmaSem sig), (default : HIx 1)) W)))))) := by
  simp only [k0_part6_eq_skeleton]; unfold k0_part6_skel
  iintro ⟨#Hlv, HF9, HF13, HF10, HF14, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hmw9 := (Transfers.MayWaits.elim (SemLoc.dma (⟨9, by decide⟩ : DmaSem sig))) $$ Hmw
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  sl_exec
  ihave Hmw13 := (Transfers.MayWaits.elim (SemLoc.dma (⟨13, by decide⟩ : DmaSem sig))) $$ Hmw
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  sl_exec
  ihave Hmw10 := (Transfers.MayWaits.elim (SemLoc.dma (⟨10, by decide⟩ : DmaSem sig))) $$ Hmw
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  sl_exec
  ihave Hmw14 := (Transfers.MayWaits.elim (SemLoc.dma (⟨14, by decide⟩ : DmaSem sig))) $$ Hmw
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  sl_exec
  rw [wp_ret]; imodintro
  isplitl [HD9]; · iexact HD9
  isplitl [HD13]; · iexact HD13
  isplitl [HD10]; · iexact HD10
  isplitl [HD14]; · iexact HD14
  isplitl [Hv9]; · iexact Hv9
  isplitl [Hv13]; · iexact Hv13
  isplitl [Hv10]; · iexact Hv10
  isplitl [Hv14]; · iexact Hv14
  iexact HO

/-! ## A worker's half-rows, by trips -/

omit [FloatOps F] in
/-- A half-row as the task addresses it is the same elements of the result. -/
theorem pts_oHalfA (t : Fin k0_t1_loop.trips) (r : Fin 4) (f : Buf (Elt F) (oLoc d)) :
    ((oHalfA L t r).view.loc (V d (cV L) (jV L)) ↦[(oHalfA L t r).view.set]{fullShare} f : sProp 𝕄) = oLoc d ↦[(oHalfA L t r).view.set]{fullShare} f := rfl
omit [FloatOps F] in
theorem pts_oHalfB (t : Fin k0_t1_loop.trips) (r : Fin 4) (f : Buf (Elt F) (oLoc d)) :
    ((oHalfB L t r).view.loc (V d (cV L) (jV L)) ↦[(oHalfB L t r).view.set]{fullShare} f : sProp 𝕄) = oLoc d ↦[(oHalfB L t r).view.set]{fullShare} f := rfl

omit [FloatOps F] in
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- A trip's four rows, each its two halves. -/
abbrev tripRows (t : Fin k0_t1_loop.trips) (f : Buf (Elt F) (oLoc d)) : sProp 𝕄 :=
  bigSep Finset.univ fun r : Fin 4 => iprop((oLoc d ↦[(oHalfA L t r).view.set]{fullShare} f) ∗ (oLoc d ↦[(oHalfB L t r).view.set]{fullShare} f))

omit [FloatOps F] in
theorem tripRows_P (t : Fin k0_t1_loop.trips) (f : Buf (Elt F) (oLoc d)) : tripRows d L t f ⊢ (iprop(P01 d L t f ∗ P23 d L t f) : sProp 𝕄) := by
  unfold tripRows P01 P23
  rw [bigSep_fin_four, pts_oHalfA, pts_oHalfA, pts_oHalfA, pts_oHalfA, pts_oHalfB, pts_oHalfB, pts_oHalfB, pts_oHalfB]
  iintro ⟨⟨HA0, HB0⟩, ⟨HA1, HB1⟩, ⟨HA2, HB2⟩, HA3, HB3⟩
  isplitl [HA0 HB0 HA1 HB1]
  · isplitl [HA0]; · iexact HA0
    isplitl [HB0]; · iexact HB0
    isplitl [HA1]; · iexact HA1
    iexact HB1
  isplitl [HA2]; · iexact HA2
  isplitl [HB2]; · iexact HB2
  isplitl [HA3]; · iexact HA3
  iexact HB3

omit [FloatOps F] in
theorem P_tripRows (t : Fin k0_t1_loop.trips) (f : Buf (Elt F) (oLoc d)) : (iprop(P01 d L t f ∗ P23 d L t f) : sProp 𝕄) ⊢ tripRows d L t f := by
  unfold tripRows P01 P23
  rw [bigSep_fin_four, pts_oHalfA, pts_oHalfA, pts_oHalfA, pts_oHalfA, pts_oHalfB, pts_oHalfB, pts_oHalfB, pts_oHalfB]
  iintro ⟨⟨HA0, HB0, HA1, HB1⟩, HA2, HB2, HA3, HB3⟩
  isplitl [HA0 HB0]
  · isplitl [HA0]; · iexact HA0
    iexact HB0
  isplitl [HA1 HB1]
  · isplitl [HA1]; · iexact HA1
    iexact HB1
  isplitl [HA2 HB2]
  · isplitl [HA2]; · iexact HA2
    iexact HB2
  isplitl [HA3]; · iexact HA3
  iexact HB3

omit [FloatOps F] in
theorem univ_trips (h31 : 31 < k0_t1_loop.trips) :
    (Finset.univ : Finset (Fin k0_t1_loop.trips)) = insert ⟨31, h31⟩ (Finset.univ.filter fun t : Fin k0_t1_loop.trips => t.val < 31) := by
  ext t
  have ht : t.val < 32 := Nat.lt_of_lt_of_eq t.isLt geom_trips_eq
  simp only [Finset.mem_univ, Finset.mem_insert, Finset.mem_filter, true_and, true_iff]
  by_cases h : t.val < 31
  · exact Or.inr h
  · exact Or.inl (Fin.ext (by show t.val = 31; omega))

omit [FloatOps F] in
/-- After the last wait: the half-rows below trip 31 and trip 31's are the worker's half-rows. -/
theorem pieces_of_trips (h31 : 31 < k0_t1_loop.trips) (f : Buf (Elt F) (oLoc d)) :
    iprop((bigSep (Finset.univ.filter fun t : Fin k0_t1_loop.trips => t.val < 31) fun t => iprop(P01 d L t f ∗ P23 d L t f))
      ∗ P01 d L ⟨31, h31⟩ f ∗ P23 d L ⟨31, h31⟩ f) ⊢ (oPieces d L f : sProp 𝕄) := by
  have e : (bigSep Finset.univ fun t : Fin k0_t1_loop.trips => iprop(P01 d L t f ∗ P23 d L t f) : sProp 𝕄)
      = iprop(iprop(P01 d L ⟨31, h31⟩ f ∗ P23 d L ⟨31, h31⟩ f) ∗ bigSep (Finset.univ.filter fun t : Fin k0_t1_loop.trips => t.val < 31) fun t => iprop(P01 d L t f ∗ P23 d L t f)) := by
    have hnot : (⟨31, h31⟩ : Fin k0_t1_loop.trips) ∉ Finset.univ.filter fun t : Fin k0_t1_loop.trips => t.val < 31 :=
      fun h => absurd (Finset.mem_filter.mp h).2 (lt_irrefl 31)
    exact (congrArg (fun s => bigSep s fun t : Fin k0_t1_loop.trips => iprop(P01 d L t f ∗ P23 d L t f)) (univ_trips h31)).trans (bigSep_insert hnot)
  refine BIBase.Entails.trans ?_ (show (bigSep Finset.univ fun t : Fin k0_t1_loop.trips => iprop(P01 d L t f ∗ P23 d L t f) : sProp 𝕄) ⊢ oPieces d L f from
    bigSep_mono fun t _ => P_tripRows d L t f)
  rw [e]
  iintro ⟨Hlo, H01, H23⟩
  isplitl [H01 H23]
  · isplitl [H01]; · iexact H01
    iexact H23
  iexact Hlo

omit [FloatOps F] in
/-- Before the first trip: the worker's half-rows are every trip's. -/
theorem trips_of_pieces (f : Buf (Elt F) (oLoc d)) :
    (oPieces d L f : sProp 𝕄) ⊢ bigSep (Finset.univ.filter fun t : Fin k0_t1_loop.trips => 0 ≤ t.val) fun t => iprop(P01 d L t f ∗ P23 d L t f) := by
  rw [Finset.filter_true_of_mem fun t _ => Nat.zero_le t.val]
  exact bigSep_mono fun t _ => tripRows_P d L t f

/-! ## After the eight waits -/

/-- What the eight last writes deliver, with the half-rows below trip 31: the worker's half-rows at `outF`, and the
    eight row buffers back at some contents. -/
theorem pieces_of_dels (h31 : 31 < k0_t1_loop.trips) :
    iprop(wDelA0 m d L ⟨31, h31⟩ ∗ wDelB0 m d L ⟨31, h31⟩ ∗ wDelA1 m d L ⟨31, h31⟩ ∗ wDelB1 m d L ⟨31, h31⟩
        ∗ wDelA2 m d L ⟨31, h31⟩ ∗ wDelB2 m d L ⟨31, h31⟩ ∗ wDelA3 m d L ⟨31, h31⟩ ∗ wDelB3 m d L ⟨31, h31⟩
        ∗ (bigSep (Finset.univ.filter fun t : Fin k0_t1_loop.trips => t.val < 31) fun t => iprop(P01 d L t (outF m d) ∗ P23 d L t (outF m d))))
      ⊢ (iprop(oPieces d L (outF m d) ∗ (∃ g, (rA0).view.loc (V d (cV L) (jV L)) ↦{fullShare} g) ∗ (∃ g, (rB0).view.loc (V d (cV L) (jV L)) ↦{fullShare} g) ∗ (∃ g, (rA1).view.loc (V d (cV L) (jV L)) ↦{fullShare} g) ∗ (∃ g, (rB1).view.loc (V d (cV L) (jV L)) ↦{fullShare} g)
          ∗ (∃ g, (rA2).view.loc (V d (cV L) (jV L)) ↦{fullShare} g) ∗ (∃ g, (rB2).view.loc (V d (cV L) (jV L)) ↦{fullShare} g) ∗ (∃ g, (rA3).view.loc (V d (cV L) (jV L)) ↦{fullShare} g) ∗ (∃ g, (rB3).view.loc (V d (cV L) (jV L)) ↦{fullShare} g)) : sProp 𝕄) := by
  unfold wDelA0 wDelB0 wDelA1 wDelB1 wDelA2 wDelB2 wDelA3 wDelB3
  iintro ⟨⟨HA0, Ha0⟩, ⟨HB0, Hb0⟩, ⟨HA1, Ha1⟩, ⟨HB1, Hb1⟩, ⟨HA2, Ha2⟩, ⟨HB2, Hb2⟩, ⟨HA3, Ha3⟩, ⟨HB3, Hb3⟩, Hlo⟩
  isplitl [HA0 HB0 HA1 HB1 HA2 HB2 HA3 HB3 Hlo]
  · iapply (pieces_of_trips (F := F) d L h31 (outF m d))
    isplitl [Hlo]; · iexact Hlo
    unfold P01 P23
    isplitl [HA0 HB0 HA1 HB1]
    · isplitl [HA0]; · iexact HA0
      isplitl [HB0]; · iexact HB0
      isplitl [HA1]; · iexact HA1
      iexact HB1
    isplitl [HA2]; · iexact HA2
    isplitl [HB2]; · iexact HB2
    isplitl [HA3]; · iexact HA3
    iexact HB3
  isplitl [Ha0]; · iexact Ha0
  isplitl [Hb0]; · iexact Hb0
  isplitl [Ha1]; · iexact Ha1
  isplitl [Hb1]; · iexact Hb1
  isplitl [Ha2]; · iexact Ha2
  isplitl [Hb2]; · iexact Hb2
  isplitl [Ha3]; · iexact Ha3
  iexact Hb3

/-! ## The read tokens rejoined -/

/-- The list buffer's eight read tokens and what was left of it are the list buffer whole. -/
theorem lst_toks_join :
    iprop(((sV).view.loc (V d (cV L) (jV L)) ↦{Transfers.shareDrop fullShare 8} lst m d L) ∗ ((sV).view.loc (V d (cV L) (jV L)) ↦{tokL 0} lst m d L) ∗ ((sV).view.loc (V d (cV L) (jV L)) ↦{tokL 1} lst m d L)
        ∗ ((sV).view.loc (V d (cV L) (jV L)) ↦{tokL 2} lst m d L) ∗ ((sV).view.loc (V d (cV L) (jV L)) ↦{tokL 3} lst m d L) ∗ ((sV).view.loc (V d (cV L) (jV L)) ↦{tokL 4} lst m d L)
        ∗ ((sV).view.loc (V d (cV L) (jV L)) ↦{tokL 5} lst m d L) ∗ ((sV).view.loc (V d (cV L) (jV L)) ↦{tokL 6} lst m d L) ∗ ((sV).view.loc (V d (cV L) (jV L)) ↦{tokL 7} lst m d L))
      ⊢ ((sV).view.loc (V d (cV L) (jV L)) ↦{fullShare} lst m d L : sProp 𝕄) :=
  toks8_join (F := F) (ℓ := (sV).view.loc (V d (cV L) (jV L))) fullShare (lst m d L)

/-- The same for the tile's share of the left half of the table, -/
theorem tblA_toks_join :
    iprop(((aV).view.loc (V d (cV L) (jV L)) ↦{Transfers.shareDrop (sq (jL L)) 8} tblA m d (cV L)) ∗ ((aV).view.loc (V d (cV L) (jV L)) ↦{tokT L 0} tblA m d (cV L)) ∗ ((aV).view.loc (V d (cV L) (jV L)) ↦{tokT L 1} tblA m d (cV L))
        ∗ ((aV).view.loc (V d (cV L) (jV L)) ↦{tokT L 2} tblA m d (cV L)) ∗ ((aV).view.loc (V d (cV L) (jV L)) ↦{tokT L 3} tblA m d (cV L)) ∗ ((aV).view.loc (V d (cV L) (jV L)) ↦{tokT L 4} tblA m d (cV L))
        ∗ ((aV).view.loc (V d (cV L) (jV L)) ↦{tokT L 5} tblA m d (cV L)) ∗ ((aV).view.loc (V d (cV L) (jV L)) ↦{tokT L 6} tblA m d (cV L)) ∗ ((aV).view.loc (V d (cV L) (jV L)) ↦{tokT L 7} tblA m d (cV L)))
      ⊢ ((aV).view.loc (V d (cV L) (jV L)) ↦{sq (jL L)} tblA m d (cV L) : sProp 𝕄) :=
  toks8_join (F := F) (ℓ := (aV).view.loc (V d (cV L) (jV L))) (sq (jL L)) (tblA m d (cV L))

/-- and of the right half. -/
theorem tblB_toks_join :
    iprop(((bV).view.loc (V d (cV L) (jV L)) ↦{Transfers.shareDrop (sq (jL L)) 8} tblB m d (cV L)) ∗ ((bV).view.loc (V d (cV L) (jV L)) ↦{tokT L 0} tblB m d (cV L)) ∗ ((bV).view.loc (V d (cV L) (jV L)) ↦{tokT L 1} tblB m d (cV L))
        ∗ ((bV).view.loc (V d (cV L) (jV L)) ↦{tokT L 2} tblB m d (cV L)) ∗ ((bV).view.loc (V d (cV L) (jV L)) ↦{tokT L 3} tblB m d (cV L)) ∗ ((bV).view.loc (V d (cV L) (jV L)) ↦{tokT L 4} tblB m d (cV L))
        ∗ ((bV).view.loc (V d (cV L) (jV L)) ↦{tokT L 5} tblB m d (cV L)) ∗ ((bV).view.loc (V d (cV L) (jV L)) ↦{tokT L 6} tblB m d (cV L)) ∗ ((bV).view.loc (V d (cV L) (jV L)) ↦{tokT L 7} tblB m d (cV L)))
      ⊢ ((bV).view.loc (V d (cV L) (jV L)) ↦{sq (jL L)} tblB m d (cV L) : sProp 𝕄) :=
  toks8_join (F := F) (ℓ := (bV).view.loc (V d (cV L) (jV L))) (sq (jL L)) (tblB m d (cV L))

end Cert.Proof.KI

end
-- ==== Proof.KI.Fill.lean ====
/-
  The two filling subcores: what each copies into its SparseCore's shared buffer, and what it hands over at the barrier.

  The mathematics. The padded table is [120, 256]. Subcore 0 copies its columns 0 … 127 over the shared buffer tbl_a
  [120, 128], subcore 1 its columns 128 … 255 over tbl_b. A slice at offset (0, c0) of unit strides reads at (a, b)
  the table at (a, c0 + b); a copy that lands whole over a buffer replaces its contents; so after its copy tbl_a holds
  the table's left half and tbl_b its right half, whatever they held before. At the barrier subcore 0's duty in tile
  j's round hands over share j (of 16) of tbl_a, and a buffer held whole is its sixteen shares; likewise subcore 1 and
  tbl_b.
-/
import proofs.«203043_g45337674776592_cont_8to1_c_201_37_alg».proof.Proof.KI.BodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The two halves of the padded table, as the filling subcores address them -/

/-- Columns 0 … 127 and columns 128 … 255 of the padded table [120, 256]. -/
abbrev tSlA : Memref sig .scVector .hbm S120x128 .f32 := (tV).slice (Rect.unit (s := S120x256) ![0, 0] S120x128.size inb_S120x256_S120x128_0_0) (fun _ => rfl)
abbrev tSlB : Memref sig .scVector .hbm S120x128 .f32 := (tV).slice (Rect.unit (s := S120x256) ![0, 128] S120x128.size inb_S120x256_S120x128_0_128) (fun _ => rfl)

/-- What the left slice reads off the padded table: at (a, b) the table at (a, b). -/
theorem read_tSlA (c : Fin τ.nSC) : (tSlA).view.read (Elt F) (tblW m d) = tblA m d c := by
  funext i
  obtain ⟨a, b, rfl⟩ : ∃ (a : Fin 120) (b : Fin 128), i = ix2 a b := ⟨i 0, i 1, eq_ix2 i⟩
  show tblW m d ((Rect.unit (s := S120x256) ![0, 0] S120x128.size inb_S120x256_S120x128_0_0).emb (ix2 a b)) = tblW m d (ix2 a ⟨b.val, _⟩)
  refine congrArg (tblW m d) ?_
  funext k; refine Fin.ext ?_; rw [Rect.emb_apply]
  match k with
  | 0 => show 0 + 1 * a.val = a.val; omega
  | 1 => show 0 + 1 * b.val = b.val; omega

/-- What the right slice reads: at (a, b) the table at (a, b + 128). -/
theorem read_tSlB (c : Fin τ.nSC) : (tSlB).view.read (Elt F) (tblW m d) = tblB m d c := by
  funext i
  obtain ⟨a, b, rfl⟩ : ∃ (a : Fin 120) (b : Fin 128), i = ix2 a b := ⟨i 0, i 1, eq_ix2 i⟩
  show tblW m d ((Rect.unit (s := S120x256) ![0, 128] S120x128.size inb_S120x256_S120x128_0_128).emb (ix2 a b)) = tblW m d (ix2 a ⟨b.val + 128, _⟩)
  refine congrArg (tblW m d) ?_
  funext k; refine Fin.ext ?_; rw [Rect.emb_apply]
  match k with
  | 0 => show 0 + 1 * a.val = a.val; omega
  | 1 => show 128 + 1 * b.val = b.val + 128; omega

/-! ## The fill as a value -/

/-- Subcore 0's copy lands the left slice whole over the shared buffer: the buffer then holds the table's left half,
    whatever it held before. -/
theorem fillA_val (f : Buf (Elt F) ((V d (cV L) (jV L)).loc cc0_scratch1)) (pay : S120x128.Idx → Elt F .f32)
    (hpay : pay = ReadAs.same.apply ((tSlA).view.read (Elt F) (tblW m d))) :
    View.write (Elt F) (aV).view f pay Finset.univ = tblA m d (cV L) := by
  subst hpay
  exact (View.write_whole_univ _ _ _).trans (read_tSlA m d (cV L))

/-- Subcore 1's copy: the right half. -/
theorem fillB_val (f : Buf (Elt F) ((V d (cV L) (jV L)).loc cc0_scratch2)) (pay : S120x128.Idx → Elt F .f32)
    (hpay : pay = ReadAs.same.apply ((tSlB).view.read (Elt F) (tblW m d))) :
    View.write (Elt F) (bV).view f pay Finset.univ = tblB m d (cV L) := by
  subst hpay
  exact (View.write_whole_univ _ _ _).trans (read_tSlB m d (cV L))

/-! ## What the filling subcores hand over at the barrier -/

/-- Subcore 0's duty in tile j's round hands over share j (of 16) of the left half: the sixteen duties together, the
    shared buffer whole. -/
theorem pays_fillA (hs : (L 1).val = 0) :
    ((aV).view.loc (V d (cV L) (jV L)) ↦{fullShare} tblA m d (cV L) : sProp 𝕄)
      ⊢ (bigSep Finset.univ fun j : Fin (grid0.bound 1) => (bRd (F := F) m).payload (bcell d (cV L) (j.castLE hsub0)) 0 (jV L).val : sProp 𝕄) := by
  have e : (bigSep Finset.univ fun j : Fin (grid0.bound 1) => (bRd (F := F) m).payload (bcell d (cV L) (j.castLE hsub0)) 0 (jV L).val)
      = bigSep Finset.univ fun j : Fin ((K (F := F)).nSub 0) => (shALoc d (cV L) ↦{sq (Fin.cast nSub_zero j)} tblA m d (cV L) : sProp 𝕄) :=
    bigSep_congr fun j _ => by
      show bPay m (bcell d (cV L) (j.castLE hsub0)) (jV L).val = _
      unfold bPay; dsimp only
      rw [if_pos (show (jV L).val = 0 from hs)]
      rfl
  rw [e, pts_aV, pts_sq (F := F)]

/-- Subcore 1's duty hands over share j of the right half. -/
theorem pays_fillB (hs : (L 1).val = 1) :
    ((bV).view.loc (V d (cV L) (jV L)) ↦{fullShare} tblB m d (cV L) : sProp 𝕄)
      ⊢ (bigSep Finset.univ fun j : Fin (grid0.bound 1) => (bRd (F := F) m).payload (bcell d (cV L) (j.castLE hsub0)) 0 (jV L).val : sProp 𝕄) := by
  have h1 : (jV L).val = 1 := hs
  have h0 : ¬ (jV L).val = 0 := fun h => absurd (h.symm.trans h1) (by decide)
  have e : (bigSep Finset.univ fun j : Fin (grid0.bound 1) => (bRd (F := F) m).payload (bcell d (cV L) (j.castLE hsub0)) 0 (jV L).val)
      = bigSep Finset.univ fun j : Fin ((K (F := F)).nSub 0) => (shBLoc d (cV L) ↦{sq (Fin.cast nSub_zero j)} tblB m d (cV L) : sProp 𝕄) :=
    bigSep_congr fun j _ => by
      show bPay m (bcell d (cV L) (j.castLE hsub0)) (jV L).val = _
      unfold bPay; dsimp only
      rw [if_neg h0, if_pos h1]
      rfl
  rw [e, pts_bV, pts_sq (F := F)]

/-! ## The same, from the shared buffer as the copy's wait leaves it -/

/-- From the shared buffer overwritten whole by what the left slice reads, to what subcore 0 hands over at the barrier. -/
theorem pays_fillA_run (hs : (L 1).val = 0) (f : Buf (Elt F) ((V d (cV L) (jV L)).loc cc0_scratch1)) (pay : S120x128.Idx → Elt F .f32)
    (hpay : pay = ReadAs.same.apply ((tSlA).view.read (Elt F) (tblW m d))) :
    ((aV).view.loc (V d (cV L) (jV L)) ↦{fullShare} View.write (Elt F) (aV).view f pay Finset.univ : sProp 𝕄)
      ⊢ (bigSep Finset.univ fun j : Fin (grid0.bound 1) => (bRd (F := F) m).payload (bcell d (cV L) (j.castLE hsub0)) 0 (jV L).val : sProp 𝕄) := by
  rw [fillA_val m d L f pay hpay]; exact pays_fillA m d L hs
/-- Subcore 1's, from the right slice. -/
theorem pays_fillB_run (hs : (L 1).val = 1) (f : Buf (Elt F) ((V d (cV L) (jV L)).loc cc0_scratch2)) (pay : S120x128.Idx → Elt F .f32)
    (hpay : pay = ReadAs.same.apply ((tSlB).view.read (Elt F) (tblW m d))) :
    ((bV).view.loc (V d (cV L) (jV L)) ↦{fullShare} View.write (Elt F) (bV).view f pay Finset.univ : sProp 𝕄)
      ⊢ (bigSep Finset.univ fun j : Fin (grid0.bound 1) => (bRd (F := F) m).payload (bcell d (cV L) (j.castLE hsub0)) 0 (jV L).val : sProp 𝕄) := by
  rw [fillB_val m d L f pay hpay]; exact pays_fillB m d L hs

end Cert.Proof.KI

end
-- ==== Proof.KI.Fold.lean ====
/-
  A gather in flight, as issued, is a gather in flight that delivers its row buffer and its two read tokens whole.

  When a gather is issued the row buffer, the list's read token and the table's read token are each cut in two: the
  elements the transfer touches go into the flight, to come back at the wait, and the rest stays beside it. The row
  buffer is written whole, the list row and the table are read through views smaller than, or as large as, their
  buffers; in each case the elements touched and the rest are all of the buffer, so what the flight delivers with the
  three rests is the row buffer whole — at what the gather leaves, a write through the whole of a buffer leaving its
  payload whatever was there — and the two tokens whole. A resource beside a flight may be folded into what it delivers.

  Likewise a write of a row buffer to a half-row of the result, as issued, holds the half-row at the written contents and
  the row buffer's elements, the rest of the row buffer beside it. The row buffer held the gathered rows of the half-row's
  list row, so the half-row written holds what the kernel leaves there, and the row buffer comes back whole.
-/
import proofs.«203043_g45337674776592_cont_8to1_c_201_37_alg».proof.Proof.KI.BodyDefs
import proofs.«203043_g45337674776592_cont_8to1_c_201_37_alg».proof.Proof.KI.BodyValue
import proofs.«203043_g45337674776592_cont_8to1_c_201_37_alg».proof.Proof.KI.FlightFrame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ)
variable [FloatOps F]
variable (d : Dev nD) (L : grid0.Coords)

/-! ## The gather's payload by the row's number -/

/-- The gather's payload at a list row given by its offsets is the gathered rows of that row by its number. -/
theorem gPayA_off (hin : HIN m d L) (j : ℕ) (hj : j < 128) (off : Fin 2 → ℕ) (hoff : ∀ a, off a + S1x100.size a ≤ S128x100.size a) (hoj : off = offR j) :
    gPayA m d L hin off hoff = gA m d L j hj hin := by subst hoj; rfl
theorem gPayB_off (hin : HIN m d L) (j : ℕ) (hj : j < 128) (off : Fin 2 → ℕ) (hoff : ∀ a, off a + S1x100.size a ≤ S128x100.size a) (hoj : off = offR j) :
    gPayB m d L hin off hoff = gB m d L j hj hin := by subst hoj; rfl

/-- The gather of list row `j` from the left half of the table into row buffer A0, as issued: beside what it delivers, the
    rests of the row buffer, of the list's read token and of the table's. Together they are the row buffer whole at what
    the gather leaves, and the two tokens whole. -/
theorem fold_gA0 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch3)) (pay : S100x128.Idx → Elt F .f32) (hpay : pay = gPayA m d L hin off hoff) (hc : 0 < 19) :
    iprop(Transfers.Flight countersEmb (V d (cV L) (jV L)) (SemLoc.dma (⟨0, hc⟩ : DmaSem sig)) (default : HIx 1) 409600
        iprop((((rA0).view.loc (V d (cV L) (jV L)) ↦[(rA0).view.set]{fullShare} (rA0).view.writes (Elt F) g [⟨Rect.whole cc0_scratch3.ty.shape, pay⟩]) ∗ ((sV).view.loc (V d (cV L) (jV L)) ↦[(lRowK off hoff).view.set]{tokL 0} lst m d L))
          ∗ ((aV).view.loc (V d (cV L) (jV L)) ↦[(aSl).view.set]{tokT L 0} tblA m d (cV L)))
      ∗ ((rA0).view.loc (V d (cV L) (jV L)) ↦[Finset.univ \ (rA0).view.set]{fullShare} (rA0).view.writes (Elt F) g [⟨Rect.whole cc0_scratch3.ty.shape, pay⟩])
      ∗ ((sV).view.loc (V d (cV L) (jV L)) ↦[Finset.univ \ (lRowK off hoff).view.set]{tokL 0} lst m d L)
      ∗ ((aV).view.loc (V d (cV L) (jV L)) ↦[Finset.univ \ (aSl).view.set]{tokT L 0} tblA m d (cV L)))
    ⊢ (Transfers.Flight countersEmb (V d (cV L) (jV L)) (SemLoc.dma (⟨0, hc⟩ : DmaSem sig)) (default : HIx 1) 409600 (gDelA0 m d L j hj hin) : sProp 𝕄) := by
  subst hoj; subst hpay
  refine Flight_frame ?_
  unfold gDelA0
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch3 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B0, as issued: beside what it delivers, the
    rests of the row buffer, of the list's read token and of the table's. Together they are the row buffer whole at what
    the gather leaves, and the two tokens whole. -/
theorem fold_gB0 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch7)) (pay : S100x128.Idx → Elt F .f32) (hpay : pay = gPayB m d L hin off hoff) (hc : 4 < 19) :
    iprop(Transfers.Flight countersEmb (V d (cV L) (jV L)) (SemLoc.dma (⟨4, hc⟩ : DmaSem sig)) (default : HIx 1) 409600
        iprop((((rB0).view.loc (V d (cV L) (jV L)) ↦[(rB0).view.set]{fullShare} (rB0).view.writes (Elt F) g [⟨Rect.whole cc0_scratch7.ty.shape, pay⟩]) ∗ ((sV).view.loc (V d (cV L) (jV L)) ↦[(lRowK off hoff).view.set]{tokL 4} lst m d L))
          ∗ ((bV).view.loc (V d (cV L) (jV L)) ↦[(bSl).view.set]{tokT L 4} tblB m d (cV L)))
      ∗ ((rB0).view.loc (V d (cV L) (jV L)) ↦[Finset.univ \ (rB0).view.set]{fullShare} (rB0).view.writes (Elt F) g [⟨Rect.whole cc0_scratch7.ty.shape, pay⟩])
      ∗ ((sV).view.loc (V d (cV L) (jV L)) ↦[Finset.univ \ (lRowK off hoff).view.set]{tokL 4} lst m d L)
      ∗ ((bV).view.loc (V d (cV L) (jV L)) ↦[Finset.univ \ (bSl).view.set]{tokT L 4} tblB m d (cV L)))
    ⊢ (Transfers.Flight countersEmb (V d (cV L) (jV L)) (SemLoc.dma (⟨4, hc⟩ : DmaSem sig)) (default : HIx 1) 409600 (gDelB0 m d L j hj hin) : sProp 𝕄) := by
  subst hoj; subst hpay
  refine Flight_frame ?_
  unfold gDelB0
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch7 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the left half of the table into row buffer A1, as issued: beside what it delivers, the
    rests of the row buffer, of the list's read token and of the table's. Together they are the row buffer whole at what
    the gather leaves, and the two tokens whole. -/
theorem fold_gA1 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch4)) (pay : S100x128.Idx → Elt F .f32) (hpay : pay = gPayA m d L hin off hoff) (hc : 1 < 19) :
    iprop(Transfers.Flight countersEmb (V d (cV L) (jV L)) (SemLoc.dma (⟨1, hc⟩ : DmaSem sig)) (default : HIx 1) 409600
        iprop((((rA1).view.loc (V d (cV L) (jV L)) ↦[(rA1).view.set]{fullShare} (rA1).view.writes (Elt F) g [⟨Rect.whole cc0_scratch4.ty.shape, pay⟩]) ∗ ((sV).view.loc (V d (cV L) (jV L)) ↦[(lRowK off hoff).view.set]{tokL 1} lst m d L))
          ∗ ((aV).view.loc (V d (cV L) (jV L)) ↦[(aSl).view.set]{tokT L 1} tblA m d (cV L)))
      ∗ ((rA1).view.loc (V d (cV L) (jV L)) ↦[Finset.univ \ (rA1).view.set]{fullShare} (rA1).view.writes (Elt F) g [⟨Rect.whole cc0_scratch4.ty.shape, pay⟩])
      ∗ ((sV).view.loc (V d (cV L) (jV L)) ↦[Finset.univ \ (lRowK off hoff).view.set]{tokL 1} lst m d L)
      ∗ ((aV).view.loc (V d (cV L) (jV L)) ↦[Finset.univ \ (aSl).view.set]{tokT L 1} tblA m d (cV L)))
    ⊢ (Transfers.Flight countersEmb (V d (cV L) (jV L)) (SemLoc.dma (⟨1, hc⟩ : DmaSem sig)) (default : HIx 1) 409600 (gDelA1 m d L j hj hin) : sProp 𝕄) := by
  subst hoj; subst hpay
  refine Flight_frame ?_
  unfold gDelA1
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch4 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B1, as issued: beside what it delivers, the
    rests of the row buffer, of the list's read token and of the table's. Together they are the row buffer whole at what
    the gather leaves, and the two tokens whole. -/
theorem fold_gB1 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch8)) (pay : S100x128.Idx → Elt F .f32) (hpay : pay = gPayB m d L hin off hoff) (hc : 5 < 19) :
    iprop(Transfers.Flight countersEmb (V d (cV L) (jV L)) (SemLoc.dma (⟨5, hc⟩ : DmaSem sig)) (default : HIx 1) 409600
        iprop((((rB1).view.loc (V d (cV L) (jV L)) ↦[(rB1).view.set]{fullShare} (rB1).view.writes (Elt F) g [⟨Rect.whole cc0_scratch8.ty.shape, pay⟩]) ∗ ((sV).view.loc (V d (cV L) (jV L)) ↦[(lRowK off hoff).view.set]{tokL 5} lst m d L))
          ∗ ((bV).view.loc (V d (cV L) (jV L)) ↦[(bSl).view.set]{tokT L 5} tblB m d (cV L)))
      ∗ ((rB1).view.loc (V d (cV L) (jV L)) ↦[Finset.univ \ (rB1).view.set]{fullShare} (rB1).view.writes (Elt F) g [⟨Rect.whole cc0_scratch8.ty.shape, pay⟩])
      ∗ ((sV).view.loc (V d (cV L) (jV L)) ↦[Finset.univ \ (lRowK off hoff).view.set]{tokL 5} lst m d L)
      ∗ ((bV).view.loc (V d (cV L) (jV L)) ↦[Finset.univ \ (bSl).view.set]{tokT L 5} tblB m d (cV L)))
    ⊢ (Transfers.Flight countersEmb (V d (cV L) (jV L)) (SemLoc.dma (⟨5, hc⟩ : DmaSem sig)) (default : HIx 1) 409600 (gDelB1 m d L j hj hin) : sProp 𝕄) := by
  subst hoj; subst hpay
  refine Flight_frame ?_
  unfold gDelB1
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch8 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the left half of the table into row buffer A2, as issued: beside what it delivers, the
    rests of the row buffer, of the list's read token and of the table's. Together they are the row buffer whole at what
    the gather leaves, and the two tokens whole. -/
theorem fold_gA2 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch5)) (pay : S100x128.Idx → Elt F .f32) (hpay : pay = gPayA m d L hin off hoff) (hc : 2 < 19) :
    iprop(Transfers.Flight countersEmb (V d (cV L) (jV L)) (SemLoc.dma (⟨2, hc⟩ : DmaSem sig)) (default : HIx 1) 409600
        iprop((((rA2).view.loc (V d (cV L) (jV L)) ↦[(rA2).view.set]{fullShare} (rA2).view.writes (Elt F) g [⟨Rect.whole cc0_scratch5.ty.shape, pay⟩]) ∗ ((sV).view.loc (V d (cV L) (jV L)) ↦[(lRowK off hoff).view.set]{tokL 2} lst m d L))
          ∗ ((aV).view.loc (V d (cV L) (jV L)) ↦[(aSl).view.set]{tokT L 2} tblA m d (cV L)))
      ∗ ((rA2).view.loc (V d (cV L) (jV L)) ↦[Finset.univ \ (rA2).view.set]{fullShare} (rA2).view.writes (Elt F) g [⟨Rect.whole cc0_scratch5.ty.shape, pay⟩])
      ∗ ((sV).view.loc (V d (cV L) (jV L)) ↦[Finset.univ \ (lRowK off hoff).view.set]{tokL 2} lst m d L)
      ∗ ((aV).view.loc (V d (cV L) (jV L)) ↦[Finset.univ \ (aSl).view.set]{tokT L 2} tblA m d (cV L)))
    ⊢ (Transfers.Flight countersEmb (V d (cV L) (jV L)) (SemLoc.dma (⟨2, hc⟩ : DmaSem sig)) (default : HIx 1) 409600 (gDelA2 m d L j hj hin) : sProp 𝕄) := by
  subst hoj; subst hpay
  refine Flight_frame ?_
  unfold gDelA2
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch5 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B2, as issued: beside what it delivers, the
    rests of the row buffer, of the list's read token and of the table's. Together they are the row buffer whole at what
    the gather leaves, and the two tokens whole. -/
theorem fold_gB2 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch9)) (pay : S100x128.Idx → Elt F .f32) (hpay : pay = gPayB m d L hin off hoff) (hc : 6 < 19) :
    iprop(Transfers.Flight countersEmb (V d (cV L) (jV L)) (SemLoc.dma (⟨6, hc⟩ : DmaSem sig)) (default : HIx 1) 409600
        iprop((((rB2).view.loc (V d (cV L) (jV L)) ↦[(rB2).view.set]{fullShare} (rB2).view.writes (Elt F) g [⟨Rect.whole cc0_scratch9.ty.shape, pay⟩]) ∗ ((sV).view.loc (V d (cV L) (jV L)) ↦[(lRowK off hoff).view.set]{tokL 6} lst m d L))
          ∗ ((bV).view.loc (V d (cV L) (jV L)) ↦[(bSl).view.set]{tokT L 6} tblB m d (cV L)))
      ∗ ((rB2).view.loc (V d (cV L) (jV L)) ↦[Finset.univ \ (rB2).view.set]{fullShare} (rB2).view.writes (Elt F) g [⟨Rect.whole cc0_scratch9.ty.shape, pay⟩])
      ∗ ((sV).view.loc (V d (cV L) (jV L)) ↦[Finset.univ \ (lRowK off hoff).view.set]{tokL 6} lst m d L)
      ∗ ((bV).view.loc (V d (cV L) (jV L)) ↦[Finset.univ \ (bSl).view.set]{tokT L 6} tblB m d (cV L)))
    ⊢ (Transfers.Flight countersEmb (V d (cV L) (jV L)) (SemLoc.dma (⟨6, hc⟩ : DmaSem sig)) (default : HIx 1) 409600 (gDelB2 m d L j hj hin) : sProp 𝕄) := by
  subst hoj; subst hpay
  refine Flight_frame ?_
  unfold gDelB2
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch9 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the left half of the table into row buffer A3, as issued: beside what it delivers, the
    rests of the row buffer, of the list's read token and of the table's. Together they are the row buffer whole at what
    the gather leaves, and the two tokens whole. -/
theorem fold_gA3 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch6)) (pay : S100x128.Idx → Elt F .f32) (hpay : pay = gPayA m d L hin off hoff) (hc : 3 < 19) :
    iprop(Transfers.Flight countersEmb (V d (cV L) (jV L)) (SemLoc.dma (⟨3, hc⟩ : DmaSem sig)) (default : HIx 1) 409600
        iprop((((rA3).view.loc (V d (cV L) (jV L)) ↦[(rA3).view.set]{fullShare} (rA3).view.writes (Elt F) g [⟨Rect.whole cc0_scratch6.ty.shape, pay⟩]) ∗ ((sV).view.loc (V d (cV L) (jV L)) ↦[(lRowK off hoff).view.set]{tokL 3} lst m d L))
          ∗ ((aV).view.loc (V d (cV L) (jV L)) ↦[(aSl).view.set]{tokT L 3} tblA m d (cV L)))
      ∗ ((rA3).view.loc (V d (cV L) (jV L)) ↦[Finset.univ \ (rA3).view.set]{fullShare} (rA3).view.writes (Elt F) g [⟨Rect.whole cc0_scratch6.ty.shape, pay⟩])
      ∗ ((sV).view.loc (V d (cV L) (jV L)) ↦[Finset.univ \ (lRowK off hoff).view.set]{tokL 3} lst m d L)
      ∗ ((aV).view.loc (V d (cV L) (jV L)) ↦[Finset.univ \ (aSl).view.set]{tokT L 3} tblA m d (cV L)))
    ⊢ (Transfers.Flight countersEmb (V d (cV L) (jV L)) (SemLoc.dma (⟨3, hc⟩ : DmaSem sig)) (default : HIx 1) 409600 (gDelA3 m d L j hj hin) : sProp 𝕄) := by
  subst hoj; subst hpay
  refine Flight_frame ?_
  unfold gDelA3
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch6 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B3, as issued: beside what it delivers, the
    rests of the row buffer, of the list's read token and of the table's. Together they are the row buffer whole at what
    the gather leaves, and the two tokens whole. -/
theorem fold_gB3 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch10)) (pay : S100x128.Idx → Elt F .f32) (hpay : pay = gPayB m d L hin off hoff) (hc : 7 < 19) :
    iprop(Transfers.Flight countersEmb (V d (cV L) (jV L)) (SemLoc.dma (⟨7, hc⟩ : DmaSem sig)) (default : HIx 1) 409600
        iprop((((rB3).view.loc (V d (cV L) (jV L)) ↦[(rB3).view.set]{fullShare} (rB3).view.writes (Elt F) g [⟨Rect.whole cc0_scratch10.ty.shape, pay⟩]) ∗ ((sV).view.loc (V d (cV L) (jV L)) ↦[(lRowK off hoff).view.set]{tokL 7} lst m d L))
          ∗ ((bV).view.loc (V d (cV L) (jV L)) ↦[(bSl).view.set]{tokT L 7} tblB m d (cV L)))
      ∗ ((rB3).view.loc (V d (cV L) (jV L)) ↦[Finset.univ \ (rB3).view.set]{fullShare} (rB3).view.writes (Elt F) g [⟨Rect.whole cc0_scratch10.ty.shape, pay⟩])
      ∗ ((sV).view.loc (V d (cV L) (jV L)) ↦[Finset.univ \ (lRowK off hoff).view.set]{tokL 7} lst m d L)
      ∗ ((bV).view.loc (V d (cV L) (jV L)) ↦[Finset.univ \ (bSl).view.set]{tokT L 7} tblB m d (cV L)))
    ⊢ (Transfers.Flight countersEmb (V d (cV L) (jV L)) (SemLoc.dma (⟨7, hc⟩ : DmaSem sig)) (default : HIx 1) 409600 (gDelB3 m d L j hj hin) : sProp 𝕄) := by
  subst hoj; subst hpay
  refine Flight_frame ?_
  unfold gDelB3
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch10 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The write of row buffer A0 to the left half of row `4·t + 0` of the worker's block, as issued: beside what it delivers, the
    rest of the row buffer. The buffer held the gathered rows of list row `4·t + 0`, so the half-row written holds what the
    kernel leaves there; the buffer comes back whole at what it holds. -/
theorem fold_wA0 (hin : HIN m d L) (t : Fin k0_t1_loop.trips) (f₀ : Buf (Elt F) (oLoc d)) (g : Buf (Elt F) ((V d (cV L) (jV L)).loc cc0_scratch3))
    (pay wpay : S100x128.Idx → Elt F .f32) (hw : wpay = gA m d L (4 * t.val + 0) (row_lt t 0) hin) (hc : 8 < 19) :
    iprop(Transfers.Flight countersEmb (V d (cV L) (jV L)) (SemLoc.dma (⟨8, hc⟩ : DmaSem sig)) (default : HIx 1) 409600
        iprop(((oHalfA L t 0).view.loc (V d (cV L) (jV L)) ↦[(oHalfA L t 0).view.set]{fullShare} (oHalfA L t 0).view.writes (Elt F) f₀ [⟨Rect.whole S100x128, wpay⟩])
          ∗ ((rA0).view.loc (V d (cV L) (jV L)) ↦[(rA0).view.set]{fullShare} (rA0).view.writes (Elt F) g [⟨Rect.whole cc0_scratch3.ty.shape, pay⟩]))
      ∗ ((rA0).view.loc (V d (cV L) (jV L)) ↦[Finset.univ \ (rA0).view.set]{fullShare} (rA0).view.writes (Elt F) g [⟨Rect.whole cc0_scratch3.ty.shape, pay⟩]))
      ⊢ (Transfers.Flight countersEmb (V d (cV L) (jV L)) (SemLoc.dma (⟨8, hc⟩ : DmaSem sig)) (default : HIx 1) 409600 (wDelA0 m d L t) : sProp 𝕄) := by
  refine Flight_frame ?_
  unfold wDelA0
  iintro ⟨⟨Hh, Hr⟩, Hrr⟩
  isplitl [Hh]
  · ihave H := (Entails.of_eq (halfA_writes_done m d L hin t 0 f₀ wpay hw)) $$ Hh
    iexact H
  iexists (rA0).view.writes (Elt F) g [⟨Rect.whole cc0_scratch3.ty.shape, pay⟩]
  iapply (pointsTo_split_subset (Finset.subset_univ _)).2
  isplitl [Hr] <;> iassumption

/-- The write of row buffer B0 to the right half of row `4·t + 0` of the worker's block, as issued: beside what it delivers, the
    rest of the row buffer. The buffer held the gathered rows of list row `4·t + 0`, so the half-row written holds what the
    kernel leaves there; the buffer comes back whole at what it holds. -/
theorem fold_wB0 (hin : HIN m d L) (t : Fin k0_t1_loop.trips) (f₀ : Buf (Elt F) (oLoc d)) (g : Buf (Elt F) ((V d (cV L) (jV L)).loc cc0_scratch7))
    (pay wpay : S100x128.Idx → Elt F .f32) (hw : wpay = gB m d L (4 * t.val + 0) (row_lt t 0) hin) (hc : 12 < 19) :
    iprop(Transfers.Flight countersEmb (V d (cV L) (jV L)) (SemLoc.dma (⟨12, hc⟩ : DmaSem sig)) (default : HIx 1) 409600
        iprop(((oHalfB L t 0).view.loc (V d (cV L) (jV L)) ↦[(oHalfB L t 0).view.set]{fullShare} (oHalfB L t 0).view.writes (Elt F) f₀ [⟨Rect.whole S100x128, wpay⟩])
          ∗ ((rB0).view.loc (V d (cV L) (jV L)) ↦[(rB0).view.set]{fullShare} (rB0).view.writes (Elt F) g [⟨Rect.whole cc0_scratch7.ty.shape, pay⟩]))
      ∗ ((rB0).view.loc (V d (cV L) (jV L)) ↦[Finset.univ \ (rB0).view.set]{fullShare} (rB0).view.writes (Elt F) g [⟨Rect.whole cc0_scratch7.ty.shape, pay⟩]))
      ⊢ (Transfers.Flight countersEmb (V d (cV L) (jV L)) (SemLoc.dma (⟨12, hc⟩ : DmaSem sig)) (default : HIx 1) 409600 (wDelB0 m d L t) : sProp 𝕄) := by
  refine Flight_frame ?_
  unfold wDelB0
  iintro ⟨⟨Hh, Hr⟩, Hrr⟩
  isplitl [Hh]
  · ihave H := (Entails.of_eq (halfB_writes_done m d L hin t 0 f₀ wpay hw)) $$ Hh
    iexact H
  iexists (rB0).view.writes (Elt F) g [⟨Rect.whole cc0_scratch7.ty.shape, pay⟩]
  iapply (pointsTo_split_subset (Finset.subset_univ _)).2
  isplitl [Hr] <;> iassumption

/-- The write of row buffer A1 to the left half of row `4·t + 1` of the worker's block, as issued: beside what it delivers, the
    rest of the row buffer. The buffer held the gathered rows of list row `4·t + 1`, so the half-row written holds what the
    kernel leaves there; the buffer comes back whole at what it holds. -/
theorem fold_wA1 (hin : HIN m d L) (t : Fin k0_t1_loop.trips) (f₀ : Buf (Elt F) (oLoc d)) (g : Buf (Elt F) ((V d (cV L) (jV L)).loc cc0_scratch4))
    (pay wpay : S100x128.Idx → Elt F .f32) (hw : wpay = gA m d L (4 * t.val + 1) (row_lt t 1) hin) (hc : 9 < 19) :
    iprop(Transfers.Flight countersEmb (V d (cV L) (jV L)) (SemLoc.dma (⟨9, hc⟩ : DmaSem sig)) (default : HIx 1) 409600
        iprop(((oHalfA L t 1).view.loc (V d (cV L) (jV L)) ↦[(oHalfA L t 1).view.set]{fullShare} (oHalfA L t 1).view.writes (Elt F) f₀ [⟨Rect.whole S100x128, wpay⟩])
          ∗ ((rA1).view.loc (V d (cV L) (jV L)) ↦[(rA1).view.set]{fullShare} (rA1).view.writes (Elt F) g [⟨Rect.whole cc0_scratch4.ty.shape, pay⟩]))
      ∗ ((rA1).view.loc (V d (cV L) (jV L)) ↦[Finset.univ \ (rA1).view.set]{fullShare} (rA1).view.writes (Elt F) g [⟨Rect.whole cc0_scratch4.ty.shape, pay⟩]))
      ⊢ (Transfers.Flight countersEmb (V d (cV L) (jV L)) (SemLoc.dma (⟨9, hc⟩ : DmaSem sig)) (default : HIx 1) 409600 (wDelA1 m d L t) : sProp 𝕄) := by
  refine Flight_frame ?_
  unfold wDelA1
  iintro ⟨⟨Hh, Hr⟩, Hrr⟩
  isplitl [Hh]
  · ihave H := (Entails.of_eq (halfA_writes_done m d L hin t 1 f₀ wpay hw)) $$ Hh
    iexact H
  iexists (rA1).view.writes (Elt F) g [⟨Rect.whole cc0_scratch4.ty.shape, pay⟩]
  iapply (pointsTo_split_subset (Finset.subset_univ _)).2
  isplitl [Hr] <;> iassumption

/-- The write of row buffer B1 to the right half of row `4·t + 1` of the worker's block, as issued: beside what it delivers, the
    rest of the row buffer. The buffer held the gathered rows of list row `4·t + 1`, so the half-row written holds what the
    kernel leaves there; the buffer comes back whole at what it holds. -/
theorem fold_wB1 (hin : HIN m d L) (t : Fin k0_t1_loop.trips) (f₀ : Buf (Elt F) (oLoc d)) (g : Buf (Elt F) ((V d (cV L) (jV L)).loc cc0_scratch8))
    (pay wpay : S100x128.Idx → Elt F .f32) (hw : wpay = gB m d L (4 * t.val + 1) (row_lt t 1) hin) (hc : 13 < 19) :
    iprop(Transfers.Flight countersEmb (V d (cV L) (jV L)) (SemLoc.dma (⟨13, hc⟩ : DmaSem sig)) (default : HIx 1) 409600
        iprop(((oHalfB L t 1).view.loc (V d (cV L) (jV L)) ↦[(oHalfB L t 1).view.set]{fullShare} (oHalfB L t 1).view.writes (Elt F) f₀ [⟨Rect.whole S100x128, wpay⟩])
          ∗ ((rB1).view.loc (V d (cV L) (jV L)) ↦[(rB1).view.set]{fullShare} (rB1).view.writes (Elt F) g [⟨Rect.whole cc0_scratch8.ty.shape, pay⟩]))
      ∗ ((rB1).view.loc (V d (cV L) (jV L)) ↦[Finset.univ \ (rB1).view.set]{fullShare} (rB1).view.writes (Elt F) g [⟨Rect.whole cc0_scratch8.ty.shape, pay⟩]))
      ⊢ (Transfers.Flight countersEmb (V d (cV L) (jV L)) (SemLoc.dma (⟨13, hc⟩ : DmaSem sig)) (default : HIx 1) 409600 (wDelB1 m d L t) : sProp 𝕄) := by
  refine Flight_frame ?_
  unfold wDelB1
  iintro ⟨⟨Hh, Hr⟩, Hrr⟩
  isplitl [Hh]
  · ihave H := (Entails.of_eq (halfB_writes_done m d L hin t 1 f₀ wpay hw)) $$ Hh
    iexact H
  iexists (rB1).view.writes (Elt F) g [⟨Rect.whole cc0_scratch8.ty.shape, pay⟩]
  iapply (pointsTo_split_subset (Finset.subset_univ _)).2
  isplitl [Hr] <;> iassumption

/-- The write of row buffer A2 to the left half of row `4·t + 2` of the worker's block, as issued: beside what it delivers, the
    rest of the row buffer. The buffer held the gathered rows of list row `4·t + 2`, so the half-row written holds what the
    kernel leaves there; the buffer comes back whole at what it holds. -/
theorem fold_wA2 (hin : HIN m d L) (t : Fin k0_t1_loop.trips) (f₀ : Buf (Elt F) (oLoc d)) (g : Buf (Elt F) ((V d (cV L) (jV L)).loc cc0_scratch5))
    (pay wpay : S100x128.Idx → Elt F .f32) (hw : wpay = gA m d L (4 * t.val + 2) (row_lt t 2) hin) (hc : 10 < 19) :
    iprop(Transfers.Flight countersEmb (V d (cV L) (jV L)) (SemLoc.dma (⟨10, hc⟩ : DmaSem sig)) (default : HIx 1) 409600
        iprop(((oHalfA L t 2).view.loc (V d (cV L) (jV L)) ↦[(oHalfA L t 2).view.set]{fullShare} (oHalfA L t 2).view.writes (Elt F) f₀ [⟨Rect.whole S100x128, wpay⟩])
          ∗ ((rA2).view.loc (V d (cV L) (jV L)) ↦[(rA2).view.set]{fullShare} (rA2).view.writes (Elt F) g [⟨Rect.whole cc0_scratch5.ty.shape, pay⟩]))
      ∗ ((rA2).view.loc (V d (cV L) (jV L)) ↦[Finset.univ \ (rA2).view.set]{fullShare} (rA2).view.writes (Elt F) g [⟨Rect.whole cc0_scratch5.ty.shape, pay⟩]))
      ⊢ (Transfers.Flight countersEmb (V d (cV L) (jV L)) (SemLoc.dma (⟨10, hc⟩ : DmaSem sig)) (default : HIx 1) 409600 (wDelA2 m d L t) : sProp 𝕄) := by
  refine Flight_frame ?_
  unfold wDelA2
  iintro ⟨⟨Hh, Hr⟩, Hrr⟩
  isplitl [Hh]
  · ihave H := (Entails.of_eq (halfA_writes_done m d L hin t 2 f₀ wpay hw)) $$ Hh
    iexact H
  iexists (rA2).view.writes (Elt F) g [⟨Rect.whole cc0_scratch5.ty.shape, pay⟩]
  iapply (pointsTo_split_subset (Finset.subset_univ _)).2
  isplitl [Hr] <;> iassumption

/-- The write of row buffer B2 to the right half of row `4·t + 2` of the worker's block, as issued: beside what it delivers, the
    rest of the row buffer. The buffer held the gathered rows of list row `4·t + 2`, so the half-row written holds what the
    kernel leaves there; the buffer comes back whole at what it holds. -/
theorem fold_wB2 (hin : HIN m d L) (t : Fin k0_t1_loop.trips) (f₀ : Buf (Elt F) (oLoc d)) (g : Buf (Elt F) ((V d (cV L) (jV L)).loc cc0_scratch9))
    (pay wpay : S100x128.Idx → Elt F .f32) (hw : wpay = gB m d L (4 * t.val + 2) (row_lt t 2) hin) (hc : 14 < 19) :
    iprop(Transfers.Flight countersEmb (V d (cV L) (jV L)) (SemLoc.dma (⟨14, hc⟩ : DmaSem sig)) (default : HIx 1) 409600
        iprop(((oHalfB L t 2).view.loc (V d (cV L) (jV L)) ↦[(oHalfB L t 2).view.set]{fullShare} (oHalfB L t 2).view.writes (Elt F) f₀ [⟨Rect.whole S100x128, wpay⟩])
          ∗ ((rB2).view.loc (V d (cV L) (jV L)) ↦[(rB2).view.set]{fullShare} (rB2).view.writes (Elt F) g [⟨Rect.whole cc0_scratch9.ty.shape, pay⟩]))
      ∗ ((rB2).view.loc (V d (cV L) (jV L)) ↦[Finset.univ \ (rB2).view.set]{fullShare} (rB2).view.writes (Elt F) g [⟨Rect.whole cc0_scratch9.ty.shape, pay⟩]))
      ⊢ (Transfers.Flight countersEmb (V d (cV L) (jV L)) (SemLoc.dma (⟨14, hc⟩ : DmaSem sig)) (default : HIx 1) 409600 (wDelB2 m d L t) : sProp 𝕄) := by
  refine Flight_frame ?_
  unfold wDelB2
  iintro ⟨⟨Hh, Hr⟩, Hrr⟩
  isplitl [Hh]
  · ihave H := (Entails.of_eq (halfB_writes_done m d L hin t 2 f₀ wpay hw)) $$ Hh
    iexact H
  iexists (rB2).view.writes (Elt F) g [⟨Rect.whole cc0_scratch9.ty.shape, pay⟩]
  iapply (pointsTo_split_subset (Finset.subset_univ _)).2
  isplitl [Hr] <;> iassumption

/-- The write of row buffer A3 to the left half of row `4·t + 3` of the worker's block, as issued: beside what it delivers, the
    rest of the row buffer. The buffer held the gathered rows of list row `4·t + 3`, so the half-row written holds what the
    kernel leaves there; the buffer comes back whole at what it holds. -/
theorem fold_wA3 (hin : HIN m d L) (t : Fin k0_t1_loop.trips) (f₀ : Buf (Elt F) (oLoc d)) (g : Buf (Elt F) ((V d (cV L) (jV L)).loc cc0_scratch6))
    (pay wpay : S100x128.Idx → Elt F .f32) (hw : wpay = gA m d L (4 * t.val + 3) (row_lt t 3) hin) (hc : 11 < 19) :
    iprop(Transfers.Flight countersEmb (V d (cV L) (jV L)) (SemLoc.dma (⟨11, hc⟩ : DmaSem sig)) (default : HIx 1) 409600
        iprop(((oHalfA L t 3).view.loc (V d (cV L) (jV L)) ↦[(oHalfA L t 3).view.set]{fullShare} (oHalfA L t 3).view.writes (Elt F) f₀ [⟨Rect.whole S100x128, wpay⟩])
          ∗ ((rA3).view.loc (V d (cV L) (jV L)) ↦[(rA3).view.set]{fullShare} (rA3).view.writes (Elt F) g [⟨Rect.whole cc0_scratch6.ty.shape, pay⟩]))
      ∗ ((rA3).view.loc (V d (cV L) (jV L)) ↦[Finset.univ \ (rA3).view.set]{fullShare} (rA3).view.writes (Elt F) g [⟨Rect.whole cc0_scratch6.ty.shape, pay⟩]))
      ⊢ (Transfers.Flight countersEmb (V d (cV L) (jV L)) (SemLoc.dma (⟨11, hc⟩ : DmaSem sig)) (default : HIx 1) 409600 (wDelA3 m d L t) : sProp 𝕄) := by
  refine Flight_frame ?_
  unfold wDelA3
  iintro ⟨⟨Hh, Hr⟩, Hrr⟩
  isplitl [Hh]
  · ihave H := (Entails.of_eq (halfA_writes_done m d L hin t 3 f₀ wpay hw)) $$ Hh
    iexact H
  iexists (rA3).view.writes (Elt F) g [⟨Rect.whole cc0_scratch6.ty.shape, pay⟩]
  iapply (pointsTo_split_subset (Finset.subset_univ _)).2
  isplitl [Hr] <;> iassumption

/-- The write of row buffer B3 to the right half of row `4·t + 3` of the worker's block, as issued: beside what it delivers, the
    rest of the row buffer. The buffer held the gathered rows of list row `4·t + 3`, so the half-row written holds what the
    kernel leaves there; the buffer comes back whole at what it holds. -/
theorem fold_wB3 (hin : HIN m d L) (t : Fin k0_t1_loop.trips) (f₀ : Buf (Elt F) (oLoc d)) (g : Buf (Elt F) ((V d (cV L) (jV L)).loc cc0_scratch10))
    (pay wpay : S100x128.Idx → Elt F .f32) (hw : wpay = gB m d L (4 * t.val + 3) (row_lt t 3) hin) (hc : 15 < 19) :
    iprop(Transfers.Flight countersEmb (V d (cV L) (jV L)) (SemLoc.dma (⟨15, hc⟩ : DmaSem sig)) (default : HIx 1) 409600
        iprop(((oHalfB L t 3).view.loc (V d (cV L) (jV L)) ↦[(oHalfB L t 3).view.set]{fullShare} (oHalfB L t 3).view.writes (Elt F) f₀ [⟨Rect.whole S100x128, wpay⟩])
          ∗ ((rB3).view.loc (V d (cV L) (jV L)) ↦[(rB3).view.set]{fullShare} (rB3).view.writes (Elt F) g [⟨Rect.whole cc0_scratch10.ty.shape, pay⟩]))
      ∗ ((rB3).view.loc (V d (cV L) (jV L)) ↦[Finset.univ \ (rB3).view.set]{fullShare} (rB3).view.writes (Elt F) g [⟨Rect.whole cc0_scratch10.ty.shape, pay⟩]))
      ⊢ (Transfers.Flight countersEmb (V d (cV L) (jV L)) (SemLoc.dma (⟨15, hc⟩ : DmaSem sig)) (default : HIx 1) 409600 (wDelB3 m d L t) : sProp 𝕄) := by
  refine Flight_frame ?_
  unfold wDelB3
  iintro ⟨⟨Hh, Hr⟩, Hrr⟩
  isplitl [Hh]
  · ihave H := (Entails.of_eq (halfB_writes_done m d L hin t 3 f₀ wpay hw)) $$ Hh
    iexact H
  iexists (rB3).view.writes (Elt F) g [⟨Rect.whole cc0_scratch10.ty.shape, pay⟩]
  iapply (pointsTo_split_subset (Finset.subset_univ _)).2
  isplitl [Hr] <;> iassumption

end Cert.Proof.KI

end
-- ==== Proof.KI.RowsBase.lean ====
/-
  What every row of a trip uses: the trip's conditions decided, the bookkeeping of the recorded waits, and the fold of a write
  issued from a row buffer held whole.

  The mathematics. Row j = 4k + r of a worker's block (k the trip, r = 0 … 3) uses slot r. The conditions the kernel computes are
  facts about k alone: j + 2 < 128 holds for r = 0, 1 always and for r = 2, 3 exactly when k ≤ 30; j ≥ 2 holds for r = 2, 3 always
  and for r = 0, 1 exactly when k ≥ 1. A write issued from a row buffer that holds the gathered rows of its list row delivers its
  half-row at what the kernel leaves there, and the buffer back.
-/
import proofs.«203043_g45337674776592_cont_8to1_c_201_37_alg».proof.Proof.KI.BodyDefs
import proofs.«203043_g45337674776592_cont_8to1_c_201_37_alg».proof.Proof.KI.Fold

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The trip's conditions -/

omit [FloatOps F] in
theorem cond3_true : ∀ k : Fin k0_t1_loop.trips, k0_cond3 k = 1#1 := by decide +kernel
omit [FloatOps F] in
theorem cond5_true : ∀ k : Fin k0_t1_loop.trips, k0_cond5 k = 1#1 := by decide +kernel
omit [FloatOps F] in
theorem cond7_true : ∀ k : Fin k0_t1_loop.trips, k.val ≤ 30 → k0_cond7 k = 1#1 := by decide +kernel
omit [FloatOps F] in
theorem cond9_true : ∀ k : Fin k0_t1_loop.trips, k.val ≤ 30 → k0_cond9 k = 1#1 := by decide +kernel
omit [FloatOps F] in
theorem cond7_false : ∀ k : Fin k0_t1_loop.trips, k.val = 31 → ¬ k0_cond7 k = 1#1 := by decide +kernel
omit [FloatOps F] in
theorem cond9_false : ∀ k : Fin k0_t1_loop.trips, k.val = 31 → ¬ k0_cond9 k = 1#1 := by decide +kernel
omit [FloatOps F] in
theorem in0_true : ∀ k : Fin k0_t1_loop.trips, 1 ≤ k.val →
    Scalar.cmpi CmpIPredicate.ne (Scalar.extui (Scalar.cmpi CmpIPredicate.sge (Scalar.addi (Scalar.muli 4#32 (Scf.iv 0#32 1#32 k)) 0#32) 2#32)) 0#32 = 1#1 := by decide +kernel
omit [FloatOps F] in
theorem in1_true : ∀ k : Fin k0_t1_loop.trips, 1 ≤ k.val →
    Scalar.cmpi CmpIPredicate.ne (Scalar.extui (Scalar.cmpi CmpIPredicate.sge (Scalar.addi (Scalar.muli 4#32 (Scf.iv 0#32 1#32 k)) 1#32) 2#32)) 0#32 = 1#1 := by decide +kernel
omit [FloatOps F] in
theorem in0_false : ∀ k : Fin k0_t1_loop.trips, k.val = 0 →
    ¬ Scalar.cmpi CmpIPredicate.ne (Scalar.extui (Scalar.cmpi CmpIPredicate.sge (Scalar.addi (Scalar.muli 4#32 (Scf.iv 0#32 1#32 k)) 0#32) 2#32)) 0#32 = 1#1 := by decide +kernel
omit [FloatOps F] in
theorem in1_false : ∀ k : Fin k0_t1_loop.trips, k.val = 0 →
    ¬ Scalar.cmpi CmpIPredicate.ne (Scalar.extui (Scalar.cmpi CmpIPredicate.sge (Scalar.addi (Scalar.muli 4#32 (Scf.iv 0#32 1#32 k)) 1#32) 2#32)) 0#32 = 1#1 := by decide +kernel
omit [FloatOps F] in
theorem in2_true : ∀ k : Fin k0_t1_loop.trips,
    Scalar.cmpi CmpIPredicate.ne (Scalar.extui (Scalar.cmpi CmpIPredicate.sge (Scalar.addi (Scalar.muli 4#32 (Scf.iv 0#32 1#32 k)) 2#32) 2#32)) 0#32 = 1#1 := by decide +kernel
omit [FloatOps F] in
theorem in3_true : ∀ k : Fin k0_t1_loop.trips,
    Scalar.cmpi CmpIPredicate.ne (Scalar.extui (Scalar.cmpi CmpIPredicate.sge (Scalar.addi (Scalar.muli 4#32 (Scf.iv 0#32 1#32 k)) 3#32) 2#32)) 0#32 = 1#1 := by decide +kernel

omit [FloatOps F] in
theorem waits_ins {W W₁ : Waits sig (HIx 1)} {a : SemLoc sig × HIx 1} (h : a.2 = none) (h₁ : ∀ p ∈ W₁, p ∈ W ∨ p.2 = none) :
    ∀ p ∈ insert a W₁, p ∈ W ∨ p.2 = none := by
  intro p hp
  rcases Finset.mem_insert.mp hp with rfl | hp
  · exact Or.inr h
  · exact h₁ p hp

omit [FloatOps F] in
theorem waits_chain {W W₁ W₀ : Waits sig (HIx 1)} (h : ∀ p ∈ W₁, p ∈ W ∨ p.2 = none) (h0 : ∀ p ∈ W, p ∈ W₀ ∨ p.2 = none ∨ p.2 = some 0) :
    ∀ p ∈ W₁, p ∈ W₀ ∨ p.2 = none ∨ p.2 = some 0 :=
  fun p hp => (h p hp).elim (h0 p) fun e => Or.inr (Or.inl e)

/-! ## The writes from a buffer held whole -/

/-- The write of row buffer A0, held whole at `f`, to its half-row of trip `t`, as issued, with the rest of the buffer beside it: the clean flight. -/
theorem foldc_wA0 (hin : HIN m d L) (t : Fin k0_t1_loop.trips) (f₀ : Buf (Elt F) (oLoc d)) (f : Buf (Elt F) ((V d (cV L) (jV L)).loc cc0_scratch3))
    (wpay : S100x128.Idx → Elt F .f32) (hw : wpay = gA m d L (4 * t.val + 0) (row_lt t 0) hin) (hc : 8 < 19) :
    iprop(Transfers.Flight countersEmb (V d (cV L) (jV L)) (SemLoc.dma (⟨8, hc⟩ : DmaSem sig)) (default : HIx 1) 409600
        iprop(((oHalfA L t 0).view.loc (V d (cV L) (jV L)) ↦[(oHalfA L t 0).view.set]{fullShare} (oHalfA L t 0).view.writes (Elt F) f₀ [⟨Rect.whole S100x128, wpay⟩])
          ∗ ((rA0).view.loc (V d (cV L) (jV L)) ↦[(rA0).view.set]{fullShare} f))
      ∗ ((rA0).view.loc (V d (cV L) (jV L)) ↦[Finset.univ \ (rA0).view.set]{fullShare} f))
      ⊢ (Transfers.Flight countersEmb (V d (cV L) (jV L)) (SemLoc.dma (⟨8, hc⟩ : DmaSem sig)) (default : HIx 1) 409600 (wDelA0 m d L t) : sProp 𝕄) := by
  refine Flight_frame ?_
  unfold wDelA0
  iintro ⟨⟨Hh, Hr⟩, Hrr⟩
  isplitl [Hh]
  · ihave H := (Entails.of_eq (halfA_writes_done m d L hin t 0 f₀ wpay hw)) $$ Hh
    iexact H
  iexists f
  iapply (pointsTo_split_subset (Finset.subset_univ _)).2
  isplitl [Hr] <;> iassumption
/-- The write of row buffer B0, held whole at `f`, to its half-row of trip `t`, as issued, with the rest of the buffer beside it: the clean flight. -/
theorem foldc_wB0 (hin : HIN m d L) (t : Fin k0_t1_loop.trips) (f₀ : Buf (Elt F) (oLoc d)) (f : Buf (Elt F) ((V d (cV L) (jV L)).loc cc0_scratch7))
    (wpay : S100x128.Idx → Elt F .f32) (hw : wpay = gB m d L (4 * t.val + 0) (row_lt t 0) hin) (hc : 12 < 19) :
    iprop(Transfers.Flight countersEmb (V d (cV L) (jV L)) (SemLoc.dma (⟨12, hc⟩ : DmaSem sig)) (default : HIx 1) 409600
        iprop(((oHalfB L t 0).view.loc (V d (cV L) (jV L)) ↦[(oHalfB L t 0).view.set]{fullShare} (oHalfB L t 0).view.writes (Elt F) f₀ [⟨Rect.whole S100x128, wpay⟩])
          ∗ ((rB0).view.loc (V d (cV L) (jV L)) ↦[(rB0).view.set]{fullShare} f))
      ∗ ((rB0).view.loc (V d (cV L) (jV L)) ↦[Finset.univ \ (rB0).view.set]{fullShare} f))
      ⊢ (Transfers.Flight countersEmb (V d (cV L) (jV L)) (SemLoc.dma (⟨12, hc⟩ : DmaSem sig)) (default : HIx 1) 409600 (wDelB0 m d L t) : sProp 𝕄) := by
  refine Flight_frame ?_
  unfold wDelB0
  iintro ⟨⟨Hh, Hr⟩, Hrr⟩
  isplitl [Hh]
  · ihave H := (Entails.of_eq (halfB_writes_done m d L hin t 0 f₀ wpay hw)) $$ Hh
    iexact H
  iexists f
  iapply (pointsTo_split_subset (Finset.subset_univ _)).2
  isplitl [Hr] <;> iassumption

/-- The write of row buffer A1, held whole at `f`, to its half-row of trip `t`, as issued, with the rest of the buffer beside it: the clean flight. -/
theorem foldc_wA1 (hin : HIN m d L) (t : Fin k0_t1_loop.trips) (f₀ : Buf (Elt F) (oLoc d)) (f : Buf (Elt F) ((V d (cV L) (jV L)).loc cc0_scratch4))
    (wpay : S100x128.Idx → Elt F .f32) (hw : wpay = gA m d L (4 * t.val + 1) (row_lt t 1) hin) (hc : 9 < 19) :
    iprop(Transfers.Flight countersEmb (V d (cV L) (jV L)) (SemLoc.dma (⟨9, hc⟩ : DmaSem sig)) (default : HIx 1) 409600
        iprop(((oHalfA L t 1).view.loc (V d (cV L) (jV L)) ↦[(oHalfA L t 1).view.set]{fullShare} (oHalfA L t 1).view.writes (Elt F) f₀ [⟨Rect.whole S100x128, wpay⟩])
          ∗ ((rA1).view.loc (V d (cV L) (jV L)) ↦[(rA1).view.set]{fullShare} f))
      ∗ ((rA1).view.loc (V d (cV L) (jV L)) ↦[Finset.univ \ (rA1).view.set]{fullShare} f))
      ⊢ (Transfers.Flight countersEmb (V d (cV L) (jV L)) (SemLoc.dma (⟨9, hc⟩ : DmaSem sig)) (default : HIx 1) 409600 (wDelA1 m d L t) : sProp 𝕄) := by
  refine Flight_frame ?_
  unfold wDelA1
  iintro ⟨⟨Hh, Hr⟩, Hrr⟩
  isplitl [Hh]
  · ihave H := (Entails.of_eq (halfA_writes_done m d L hin t 1 f₀ wpay hw)) $$ Hh
    iexact H
  iexists f
  iapply (pointsTo_split_subset (Finset.subset_univ _)).2
  isplitl [Hr] <;> iassumption
/-- The write of row buffer B1, held whole at `f`, to its half-row of trip `t`, as issued, with the rest of the buffer beside it: the clean flight. -/
theorem foldc_wB1 (hin : HIN m d L) (t : Fin k0_t1_loop.trips) (f₀ : Buf (Elt F) (oLoc d)) (f : Buf (Elt F) ((V d (cV L) (jV L)).loc cc0_scratch8))
    (wpay : S100x128.Idx → Elt F .f32) (hw : wpay = gB m d L (4 * t.val + 1) (row_lt t 1) hin) (hc : 13 < 19) :
    iprop(Transfers.Flight countersEmb (V d (cV L) (jV L)) (SemLoc.dma (⟨13, hc⟩ : DmaSem sig)) (default : HIx 1) 409600
        iprop(((oHalfB L t 1).view.loc (V d (cV L) (jV L)) ↦[(oHalfB L t 1).view.set]{fullShare} (oHalfB L t 1).view.writes (Elt F) f₀ [⟨Rect.whole S100x128, wpay⟩])
          ∗ ((rB1).view.loc (V d (cV L) (jV L)) ↦[(rB1).view.set]{fullShare} f))
      ∗ ((rB1).view.loc (V d (cV L) (jV L)) ↦[Finset.univ \ (rB1).view.set]{fullShare} f))
      ⊢ (Transfers.Flight countersEmb (V d (cV L) (jV L)) (SemLoc.dma (⟨13, hc⟩ : DmaSem sig)) (default : HIx 1) 409600 (wDelB1 m d L t) : sProp 𝕄) := by
  refine Flight_frame ?_
  unfold wDelB1
  iintro ⟨⟨Hh, Hr⟩, Hrr⟩
  isplitl [Hh]
  · ihave H := (Entails.of_eq (halfB_writes_done m d L hin t 1 f₀ wpay hw)) $$ Hh
    iexact H
  iexists f
  iapply (pointsTo_split_subset (Finset.subset_univ _)).2
  isplitl [Hr] <;> iassumption

/-- The write of row buffer A2, held whole at `f`, to its half-row of trip `t`, as issued, with the rest of the buffer beside it: the clean flight. -/
theorem foldc_wA2 (hin : HIN m d L) (t : Fin k0_t1_loop.trips) (f₀ : Buf (Elt F) (oLoc d)) (f : Buf (Elt F) ((V d (cV L) (jV L)).loc cc0_scratch5))
    (wpay : S100x128.Idx → Elt F .f32) (hw : wpay = gA m d L (4 * t.val + 2) (row_lt t 2) hin) (hc : 10 < 19) :
    iprop(Transfers.Flight countersEmb (V d (cV L) (jV L)) (SemLoc.dma (⟨10, hc⟩ : DmaSem sig)) (default : HIx 1) 409600
        iprop(((oHalfA L t 2).view.loc (V d (cV L) (jV L)) ↦[(oHalfA L t 2).view.set]{fullShare} (oHalfA L t 2).view.writes (Elt F) f₀ [⟨Rect.whole S100x128, wpay⟩])
          ∗ ((rA2).view.loc (V d (cV L) (jV L)) ↦[(rA2).view.set]{fullShare} f))
      ∗ ((rA2).view.loc (V d (cV L) (jV L)) ↦[Finset.univ \ (rA2).view.set]{fullShare} f))
      ⊢ (Transfers.Flight countersEmb (V d (cV L) (jV L)) (SemLoc.dma (⟨10, hc⟩ : DmaSem sig)) (default : HIx 1) 409600 (wDelA2 m d L t) : sProp 𝕄) := by
  refine Flight_frame ?_
  unfold wDelA2
  iintro ⟨⟨Hh, Hr⟩, Hrr⟩
  isplitl [Hh]
  · ihave H := (Entails.of_eq (halfA_writes_done m d L hin t 2 f₀ wpay hw)) $$ Hh
    iexact H
  iexists f
  iapply (pointsTo_split_subset (Finset.subset_univ _)).2
  isplitl [Hr] <;> iassumption
/-- The write of row buffer B2, held whole at `f`, to its half-row of trip `t`, as issued, with the rest of the buffer beside it: the clean flight. -/
theorem foldc_wB2 (hin : HIN m d L) (t : Fin k0_t1_loop.trips) (f₀ : Buf (Elt F) (oLoc d)) (f : Buf (Elt F) ((V d (cV L) (jV L)).loc cc0_scratch9))
    (wpay : S100x128.Idx → Elt F .f32) (hw : wpay = gB m d L (4 * t.val + 2) (row_lt t 2) hin) (hc : 14 < 19) :
    iprop(Transfers.Flight countersEmb (V d (cV L) (jV L)) (SemLoc.dma (⟨14, hc⟩ : DmaSem sig)) (default : HIx 1) 409600
        iprop(((oHalfB L t 2).view.loc (V d (cV L) (jV L)) ↦[(oHalfB L t 2).view.set]{fullShare} (oHalfB L t 2).view.writes (Elt F) f₀ [⟨Rect.whole S100x128, wpay⟩])
          ∗ ((rB2).view.loc (V d (cV L) (jV L)) ↦[(rB2).view.set]{fullShare} f))
      ∗ ((rB2).view.loc (V d (cV L) (jV L)) ↦[Finset.univ \ (rB2).view.set]{fullShare} f))
      ⊢ (Transfers.Flight countersEmb (V d (cV L) (jV L)) (SemLoc.dma (⟨14, hc⟩ : DmaSem sig)) (default : HIx 1) 409600 (wDelB2 m d L t) : sProp 𝕄) := by
  refine Flight_frame ?_
  unfold wDelB2
  iintro ⟨⟨Hh, Hr⟩, Hrr⟩
  isplitl [Hh]
  · ihave H := (Entails.of_eq (halfB_writes_done m d L hin t 2 f₀ wpay hw)) $$ Hh
    iexact H
  iexists f
  iapply (pointsTo_split_subset (Finset.subset_univ _)).2
  isplitl [Hr] <;> iassumption

/-- The write of row buffer A3, held whole at `f`, to its half-row of trip `t`, as issued, with the rest of the buffer beside it: the clean flight. -/
theorem foldc_wA3 (hin : HIN m d L) (t : Fin k0_t1_loop.trips) (f₀ : Buf (Elt F) (oLoc d)) (f : Buf (Elt F) ((V d (cV L) (jV L)).loc cc0_scratch6))
    (wpay : S100x128.Idx → Elt F .f32) (hw : wpay = gA m d L (4 * t.val + 3) (row_lt t 3) hin) (hc : 11 < 19) :
    iprop(Transfers.Flight countersEmb (V d (cV L) (jV L)) (SemLoc.dma (⟨11, hc⟩ : DmaSem sig)) (default : HIx 1) 409600
        iprop(((oHalfA L t 3).view.loc (V d (cV L) (jV L)) ↦[(oHalfA L t 3).view.set]{fullShare} (oHalfA L t 3).view.writes (Elt F) f₀ [⟨Rect.whole S100x128, wpay⟩])
          ∗ ((rA3).view.loc (V d (cV L) (jV L)) ↦[(rA3).view.set]{fullShare} f))
      ∗ ((rA3).view.loc (V d (cV L) (jV L)) ↦[Finset.univ \ (rA3).view.set]{fullShare} f))
      ⊢ (Transfers.Flight countersEmb (V d (cV L) (jV L)) (SemLoc.dma (⟨11, hc⟩ : DmaSem sig)) (default : HIx 1) 409600 (wDelA3 m d L t) : sProp 𝕄) := by
  refine Flight_frame ?_
  unfold wDelA3
  iintro ⟨⟨Hh, Hr⟩, Hrr⟩
  isplitl [Hh]
  · ihave H := (Entails.of_eq (halfA_writes_done m d L hin t 3 f₀ wpay hw)) $$ Hh
    iexact H
  iexists f
  iapply (pointsTo_split_subset (Finset.subset_univ _)).2
  isplitl [Hr] <;> iassumption
/-- The write of row buffer B3, held whole at `f`, to its half-row of trip `t`, as issued, with the rest of the buffer beside it: the clean flight. -/
theorem foldc_wB3 (hin : HIN m d L) (t : Fin k0_t1_loop.trips) (f₀ : Buf (Elt F) (oLoc d)) (f : Buf (Elt F) ((V d (cV L) (jV L)).loc cc0_scratch10))
    (wpay : S100x128.Idx → Elt F .f32) (hw : wpay = gB m d L (4 * t.val + 3) (row_lt t 3) hin) (hc : 15 < 19) :
    iprop(Transfers.Flight countersEmb (V d (cV L) (jV L)) (SemLoc.dma (⟨15, hc⟩ : DmaSem sig)) (default : HIx 1) 409600
        iprop(((oHalfB L t 3).view.loc (V d (cV L) (jV L)) ↦[(oHalfB L t 3).view.set]{fullShare} (oHalfB L t 3).view.writes (Elt F) f₀ [⟨Rect.whole S100x128, wpay⟩])
          ∗ ((rB3).view.loc (V d (cV L) (jV L)) ↦[(rB3).view.set]{fullShare} f))
      ∗ ((rB3).view.loc (V d (cV L) (jV L)) ↦[Finset.univ \ (rB3).view.set]{fullShare} f))
      ⊢ (Transfers.Flight countersEmb (V d (cV L) (jV L)) (SemLoc.dma (⟨15, hc⟩ : DmaSem sig)) (default : HIx 1) 409600 (wDelB3 m d L t) : sProp 𝕄) := by
  refine Flight_frame ?_
  unfold wDelB3
  iintro ⟨⟨Hh, Hr⟩, Hrr⟩
  isplitl [Hh]
  · ihave H := (Entails.of_eq (halfB_writes_done m d L hin t 3 f₀ wpay hw)) $$ Hh
    iexact H
  iexists f
  iapply (pointsTo_split_subset (Finset.subset_univ _)).2
  isplitl [Hr] <;> iassumption

end Cert.Proof.KI

end
-- ==== Proof.KI.RowsMid.lean ====
/-
  The first three rows of a trip of the task's loop, for a trip 1 ≤ k ≤ 30.

  The mathematics. Row r of trip k (slot r; the other slot is r + 2 mod 4): the writes of the other slot's previous row land,
  giving that row's two half-rows at what the kernel leaves and the slot's row buffers back; the gathers of list row 4k + r + 2
  into that slot are issued; the gathers of list row 4k + r land, giving the row buffers at the gathered rows and the read tokens
  back; the writes of row 4k + r go out. Each lemma is stated for any continuation: from the row's resources, and from what the
  continuation needs of the row's results, the program's row followed by the continuation runs.
-/
import proofs.«203043_g45337674776592_cont_8to1_c_201_37_alg».proof.Proof.KI.BodyDefs
import proofs.«203043_g45337674776592_cont_8to1_c_201_37_alg».proof.Proof.KI.RowsBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)
set_option maxHeartbeats 8000000 in
/-- Row 0 of a trip (mid): the writes of the other slot's previous row land; the gathers of row 4k + 2 are issued; the gathers of row 4k + 0 land and its writes are issued. -/
theorem row0_mid (hin : HIN m d L) (O : CellTallies nD τ sig (HIx 1)) (hO : ∀ g, O g none = 0) (k : Fin k0_t1_loop.trips) (hk1 : 1 ≤ k.val) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨10, by decide⟩ : DmaSem sig)) (default : HIx 1) 409600 (wDelA2 m d L ⟨k.val - 1, by have := k.isLt; omega⟩)
      ∗ Transfers.Flight countersEmb (V d (cV L) (jV L)) (SemLoc.dma (⟨14, by decide⟩ : DmaSem sig)) (default : HIx 1) 409600 (wDelB2 m d L ⟨k.val - 1, by have := k.isLt; omega⟩)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 2).view.loc (V d (cV L) (jV L)) ↦[(oHalfA L ⟨k.val - 1, by have := k.isLt; omega⟩ 2).view.set]{fullShare} outF m d)
          ∗ ((oHalfB L ⟨k.val - 1, by have := k.isLt; omega⟩ 2).view.loc (V d (cV L) (jV L)) ↦[(oHalfB L ⟨k.val - 1, by have := k.isLt; omega⟩ 2).view.set]{fullShare} outF m d)
          ∗ semVal (((V d (cV L) (jV L)), (SemLoc.dma (⟨10, by decide⟩ : DmaSem sig))) : GSem nD τ sig) 0
          ∗ semVal (((V d (cV L) (jV L)), (SemLoc.dma (⟨14, by decide⟩ : DmaSem sig))) : GSem nD τ sig) 0
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ Φ (⟨(Scf.iv 0#32 1#32 k), 4#32⟩ : Σ' (_ : BitVec 32), BitVec 32)))
      ⊢ wp frame (wpE (defs₀ (F := F)) 𝒱₀ (V d (cV L) (jV L)) none) Set.univ (k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) Φ := by
  rw [k0_part1_eq_skeleton]; unfold k0_part1_skel
  iintro ⟨#Hlv, HO, FwA, FwB, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h3 := cond3_true k
  have hi0 := in0_true k hk1
  sl_exec
  iapply (Transfers.wp_waitLocalO countersEmb 𝒱₀ (V d (cV L) (jV L)) none (default : HIx 1) (N := 409600) rfl) $$ [FwA HO]
  · isplitl [FwA]; · iexact FwA
    isplitl [HO]; · iexact HO
    iapply (Transfers.MayWaits.elim (SemLoc.dma _)); iexact Hmw
  iintro ⟨HD, c8, HO⟩
  unfold wDelA2
  icases HD with ⟨xAh, %gA', bA⟩
  first | sl_exec | skip
  iapply (Transfers.wp_waitLocalO countersEmb 𝒱₀ (V d (cV L) (jV L)) none (default : HIx 1) (N := 409600) rfl) $$ [FwB HO]
  · isplitl [FwB]; · iexact FwB
    isplitl [HO]; · iexact HO
    iapply (Transfers.MayWaits.elim (SemLoc.dma _)); iexact Hmw
  iintro ⟨HD, c12, HO⟩
  unfold wDelB2
  icases HD with ⟨xBh, %gB', bB⟩
  sl_exec
  have hoj : k0_off2 k = offR (4 * k.val + 0 + 2) := by rw [k0_off2_eq]; try rfl
  ihave FA := (fold_gA2 (F := F) m d L hin (4 * k.val + 0 + 2) (by have h : k.val < 32 := Nat.lt_of_lt_of_eq k.isLt geom_trips_eq; omega) (k0_off2 k) (k0_off2_inb k h3) hoj _ _ rfl (by decide)) $$ [cGA bA tLA tTA]
  · isplitl [cGA]; · iexact cGA
    isplitl [bA]; · iexact bA
    isplitl [tLA]; · iexact tLA
    iexact tTA
  ihave FB := (fold_gB2 (F := F) m d L hin (4 * k.val + 0 + 2) (by have h : k.val < 32 := Nat.lt_of_lt_of_eq k.isLt geom_trips_eq; omega) (k0_off2 k) (k0_off2_inb k h3) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA0
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB0
  icases HD with ⟨nr, nl, nt⟩
  sl_exec
  ihave FWA := (foldc_wA0 (F := F) m d L hin k (m (oLoc d)) _ _ (read_whole_same (F := F) cc0_scratch3 _) (by decide)) $$ [cWA mr]
  · isplitl [cWA]; · iexact cWA
    iexact mr
  ihave FWB := (foldc_wB0 (F := F) m d L hin k (m (oLoc d)) _ _ (read_whole_same (F := F) cc0_scratch7 _) (by decide)) $$ [cWB nr]
  · isplitl [cWB]; · iexact cWB
    iexact nr
  first | rw [show row0_mid.sl.arg32 k = (Scf.iv 0#32 1#32 k) from rfl] | skip
  rw [wp_ret]; imodintro
  iapply HΦ
  isplitl [HO]
  · iexists _
    isplitr
    rotate_left
    · iexact HO
    ipureintro
    exact (waits_ins rfl (waits_ins rfl (waits_ins rfl (waits_ins rfl (fun p hp => Or.inl hp)))))
  isplitl [xAh]; · iexact xAh
  isplitl [xBh]; · iexact xBh
  isplitl [c8]; · iexact c8
  isplitl [c12]; · iexact c12
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row0_mid_bind (hin : HIN m d L) (O : CellTallies nD τ sig (HIx 1)) (hO : ∀ g, O g none = 0) (k : Fin k0_t1_loop.trips) (hk1 : 1 ≤ k.val) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨10, by decide⟩ : DmaSem sig)) (default : HIx 1) 409600 (wDelA2 m d L ⟨k.val - 1, by have := k.isLt; omega⟩)
      ∗ Transfers.Flight countersEmb (V d (cV L) (jV L)) (SemLoc.dma (⟨14, by decide⟩ : DmaSem sig)) (default : HIx 1) 409600 (wDelB2 m d L ⟨k.val - 1, by have := k.isLt; omega⟩)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 2).view.loc (V d (cV L) (jV L)) ↦[(oHalfA L ⟨k.val - 1, by have := k.isLt; omega⟩ 2).view.set]{fullShare} outF m d)
          ∗ ((oHalfB L ⟨k.val - 1, by have := k.isLt; omega⟩ 2).view.loc (V d (cV L) (jV L)) ↦[(oHalfB L ⟨k.val - 1, by have := k.isLt; omega⟩ 2).view.set]{fullShare} outF m d)
          ∗ semVal (((V d (cV L) (jV L)), (SemLoc.dma (⟨10, by decide⟩ : DmaSem sig))) : GSem nD τ sig) 0
          ∗ semVal (((V d (cV L) (jV L)), (SemLoc.dma (⟨14, by decide⟩ : DmaSem sig))) : GSem nD τ sig) 0
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ wp frame (wpE (defs₀ (F := F)) 𝒱₀ (V d (cV L) (jV L)) none) Set.univ (f (⟨(Scf.iv 0#32 1#32 k), 4#32⟩ : Σ' (_ : BitVec 32), BitVec 32)) Q))
      ⊢ wp frame (wpE (defs₀ (F := F)) 𝒱₀ (V d (cV L) (jV L)) none) Set.univ ((k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) >>= f) Q := by
  rw [wp_bind]
  exact row0_mid (F := F) m d L hin O hO k hk1 v2 W (Φ := fun r => wp frame (wpE (defs₀ (F := F)) 𝒱₀ (V d (cV L) (jV L)) none) Set.univ (f r) Q)

set_option maxHeartbeats 8000000 in
/-- Row 1 of a trip (mid): the writes of the other slot's previous row land; the gathers of row 4k + 3 are issued; the gathers of row 4k + 1 land and its writes are issued. -/
theorem row1_mid (hin : HIN m d L) (O : CellTallies nD τ sig (HIx 1)) (hO : ∀ g, O g none = 0) (k : Fin k0_t1_loop.trips) (hk1 : 1 ≤ k.val) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨11, by decide⟩ : DmaSem sig)) (default : HIx 1) 409600 (wDelA3 m d L ⟨k.val - 1, by have := k.isLt; omega⟩)
      ∗ Transfers.Flight countersEmb (V d (cV L) (jV L)) (SemLoc.dma (⟨15, by decide⟩ : DmaSem sig)) (default : HIx 1) 409600 (wDelB3 m d L ⟨k.val - 1, by have := k.isLt; omega⟩)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 3).view.loc (V d (cV L) (jV L)) ↦[(oHalfA L ⟨k.val - 1, by have := k.isLt; omega⟩ 3).view.set]{fullShare} outF m d)
          ∗ ((oHalfB L ⟨k.val - 1, by have := k.isLt; omega⟩ 3).view.loc (V d (cV L) (jV L)) ↦[(oHalfB L ⟨k.val - 1, by have := k.isLt; omega⟩ 3).view.set]{fullShare} outF m d)
          ∗ semVal (((V d (cV L) (jV L)), (SemLoc.dma (⟨11, by decide⟩ : DmaSem sig))) : GSem nD τ sig) 0
          ∗ semVal (((V d (cV L) (jV L)), (SemLoc.dma (⟨15, by decide⟩ : DmaSem sig))) : GSem nD τ sig) 0
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ Φ (⟨Scalar.muli 4#32 (Scf.iv 0#32 1#32 k), 2#32⟩ : Σ' (_ : BitVec 32), BitVec 32)))
      ⊢ wp frame (wpE (defs₀ (F := F)) 𝒱₀ (V d (cV L) (jV L)) none) Set.univ (k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) Φ := by
  rw [k0_part2_eq_skeleton]; unfold k0_part2_skel
  iintro ⟨#Hlv, HO, FwA, FwB, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h5 := cond5_true k
  have hi1 := in1_true k hk1
  sl_exec
  iapply (Transfers.wp_waitLocalO countersEmb 𝒱₀ (V d (cV L) (jV L)) none (default : HIx 1) (N := 409600) rfl) $$ [FwA HO]
  · isplitl [FwA]; · iexact FwA
    isplitl [HO]; · iexact HO
    iapply (Transfers.MayWaits.elim (SemLoc.dma _)); iexact Hmw
  iintro ⟨HD, c8, HO⟩
  unfold wDelA3
  icases HD with ⟨xAh, %gA', bA⟩
  first | sl_exec | skip
  iapply (Transfers.wp_waitLocalO countersEmb 𝒱₀ (V d (cV L) (jV L)) none (default : HIx 1) (N := 409600) rfl) $$ [FwB HO]
  · isplitl [FwB]; · iexact FwB
    isplitl [HO]; · iexact HO
    iapply (Transfers.MayWaits.elim (SemLoc.dma _)); iexact Hmw
  iintro ⟨HD, c12, HO⟩
  unfold wDelB3
  icases HD with ⟨xBh, %gB', bB⟩
  sl_exec
  have hoj : k0_off5 k = offR (4 * k.val + 1 + 2) := by rw [k0_off5_eq]; try rfl
  ihave FA := (fold_gA3 (F := F) m d L hin (4 * k.val + 1 + 2) (by have h : k.val < 32 := Nat.lt_of_lt_of_eq k.isLt geom_trips_eq; omega) (k0_off5 k) (k0_off5_inb k h5) hoj _ _ rfl (by decide)) $$ [cGA bA tLA tTA]
  · isplitl [cGA]; · iexact cGA
    isplitl [bA]; · iexact bA
    isplitl [tLA]; · iexact tLA
    iexact tTA
  ihave FB := (fold_gB3 (F := F) m d L hin (4 * k.val + 1 + 2) (by have h : k.val < 32 := Nat.lt_of_lt_of_eq k.isLt geom_trips_eq; omega) (k0_off5 k) (k0_off5_inb k h5) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA1
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB1
  icases HD with ⟨nr, nl, nt⟩
  sl_exec
  ihave FWA := (foldc_wA1 (F := F) m d L hin k (m (oLoc d)) _ _ (read_whole_same (F := F) cc0_scratch4 _) (by decide)) $$ [cWA mr]
  · isplitl [cWA]; · iexact cWA
    iexact mr
  ihave FWB := (foldc_wB1 (F := F) m d L hin k (m (oLoc d)) _ _ (read_whole_same (F := F) cc0_scratch8 _) (by decide)) $$ [cWB nr]
  · isplitl [cWB]; · iexact cWB
    iexact nr
  first | rw [show row1_mid.sl.v122 k = Scalar.muli 4#32 (Scf.iv 0#32 1#32 k) from rfl] | skip
  rw [wp_ret]; imodintro
  iapply HΦ
  isplitl [HO]
  · iexists _
    isplitr
    rotate_left
    · iexact HO
    ipureintro
    exact (waits_ins rfl (waits_ins rfl (waits_ins rfl (waits_ins rfl (fun p hp => Or.inl hp)))))
  isplitl [xAh]; · iexact xAh
  isplitl [xBh]; · iexact xBh
  isplitl [c8]; · iexact c8
  isplitl [c12]; · iexact c12
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row1_mid_bind (hin : HIN m d L) (O : CellTallies nD τ sig (HIx 1)) (hO : ∀ g, O g none = 0) (k : Fin k0_t1_loop.trips) (hk1 : 1 ≤ k.val) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨11, by decide⟩ : DmaSem sig)) (default : HIx 1) 409600 (wDelA3 m d L ⟨k.val - 1, by have := k.isLt; omega⟩)
      ∗ Transfers.Flight countersEmb (V d (cV L) (jV L)) (SemLoc.dma (⟨15, by decide⟩ : DmaSem sig)) (default : HIx 1) 409600 (wDelB3 m d L ⟨k.val - 1, by have := k.isLt; omega⟩)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 3).view.loc (V d (cV L) (jV L)) ↦[(oHalfA L ⟨k.val - 1, by have := k.isLt; omega⟩ 3).view.set]{fullShare} outF m d)
          ∗ ((oHalfB L ⟨k.val - 1, by have := k.isLt; omega⟩ 3).view.loc (V d (cV L) (jV L)) ↦[(oHalfB L ⟨k.val - 1, by have := k.isLt; omega⟩ 3).view.set]{fullShare} outF m d)
          ∗ semVal (((V d (cV L) (jV L)), (SemLoc.dma (⟨11, by decide⟩ : DmaSem sig))) : GSem nD τ sig) 0
          ∗ semVal (((V d (cV L) (jV L)), (SemLoc.dma (⟨15, by decide⟩ : DmaSem sig))) : GSem nD τ sig) 0
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ wp frame (wpE (defs₀ (F := F)) 𝒱₀ (V d (cV L) (jV L)) none) Set.univ (f (⟨Scalar.muli 4#32 (Scf.iv 0#32 1#32 k), 2#32⟩ : Σ' (_ : BitVec 32), BitVec 32)) Q))
      ⊢ wp frame (wpE (defs₀ (F := F)) 𝒱₀ (V d (cV L) (jV L)) none) Set.univ ((k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) >>= f) Q := by
  rw [wp_bind]
  exact row1_mid (F := F) m d L hin O hO k hk1 v2 W (Φ := fun r => wp frame (wpE (defs₀ (F := F)) 𝒱₀ (V d (cV L) (jV L)) none) Set.univ (f r) Q)

set_option maxHeartbeats 8000000 in
/-- Row 2 of a trip (mid): the writes of the other slot's previous row land; the gathers of row 4k + 4 are issued; the gathers of row 4k + 2 land and its writes are issued. -/
theorem row2_mid (hin : HIN m d L) (O : CellTallies nD τ sig (HIx 1)) (hO : ∀ g, O g none = 0) (k : Fin k0_t1_loop.trips) (hk30 : k.val ≤ 30) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨8, by decide⟩ : DmaSem sig)) (default : HIx 1) 409600 (wDelA0 m d L k)
      ∗ Transfers.Flight countersEmb (V d (cV L) (jV L)) (SemLoc.dma (⟨12, by decide⟩ : DmaSem sig)) (default : HIx 1) 409600 (wDelB0 m d L k)
      ∗ semVal (((V d (cV L) (jV L)), (SemLoc.dma (⟨0, by decide⟩ : DmaSem sig))) : GSem nD τ sig) 0
      ∗ semVal (((V d (cV L) (jV L)), (SemLoc.dma (⟨4, by decide⟩ : DmaSem sig))) : GSem nD τ sig) 0
      ∗ ((sV).view.loc (V d (cV L) (jV L)) ↦{tokL 0} lst m d L)
      ∗ ((sV).view.loc (V d (cV L) (jV L)) ↦{tokL 4} lst m d L)
      ∗ ((aV).view.loc (V d (cV L) (jV L)) ↦{tokT L 0} tblA m d (cV L))
      ∗ ((bV).view.loc (V d (cV L) (jV L)) ↦{tokT L 4} tblB m d (cV L))
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ ((oHalfA L k 0).view.loc (V d (cV L) (jV L)) ↦[(oHalfA L k 0).view.set]{fullShare} outF m d)
          ∗ ((oHalfB L k 0).view.loc (V d (cV L) (jV L)) ↦[(oHalfB L k 0).view.set]{fullShare} outF m d)
          ∗ semVal (((V d (cV L) (jV L)), (SemLoc.dma (⟨8, by decide⟩ : DmaSem sig))) : GSem nD τ sig) 0
          ∗ semVal (((V d (cV L) (jV L)), (SemLoc.dma (⟨12, by decide⟩ : DmaSem sig))) : GSem nD τ sig) 0
          ∗ Transfers.Flight countersEmb (V d (cV L) (jV L)) (SemLoc.dma (⟨0, by decide⟩ : DmaSem sig)) (default : HIx 1) 409600 (gDelA0 m d L (4 * k.val + 2 + 2) (by have h : k.val < 32 := Nat.lt_of_lt_of_eq k.isLt geom_trips_eq; omega) hin)
          ∗ Transfers.Flight countersEmb (V d (cV L) (jV L)) (SemLoc.dma (⟨4, by decide⟩ : DmaSem sig)) (default : HIx 1) 409600 (gDelB0 m d L (4 * k.val + 2 + 2) (by have h : k.val < 32 := Nat.lt_of_lt_of_eq k.isLt geom_trips_eq; omega) hin)
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ Φ (⟨Scalar.addi (Scalar.muli 4#32 (Scf.iv 0#32 1#32 k)) 3#32, 2#32⟩ : Σ' (_ : BitVec 32), BitVec 32)))
      ⊢ wp frame (wpE (defs₀ (F := F)) 𝒱₀ (V d (cV L) (jV L)) none) Set.univ (k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) Φ := by
  rw [k0_part3_eq_skeleton]; unfold k0_part3_skel
  iintro ⟨#Hlv, HO, FwA, FwB, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h7 := cond7_true k hk30
  have hi2 := in2_true k
  sl_exec
  iapply (Transfers.wp_waitLocalO countersEmb 𝒱₀ (V d (cV L) (jV L)) none (default : HIx 1) (N := 409600) rfl) $$ [FwA HO]
  · isplitl [FwA]; · iexact FwA
    isplitl [HO]; · iexact HO
    iapply (Transfers.MayWaits.elim (SemLoc.dma _)); iexact Hmw
  iintro ⟨HD, c8, HO⟩
  unfold wDelA0
  icases HD with ⟨xAh, %gA', bA⟩
  first | sl_exec | skip
  iapply (Transfers.wp_waitLocalO countersEmb 𝒱₀ (V d (cV L) (jV L)) none (default : HIx 1) (N := 409600) rfl) $$ [FwB HO]
  · isplitl [FwB]; · iexact FwB
    isplitl [HO]; · iexact HO
    iapply (Transfers.MayWaits.elim (SemLoc.dma _)); iexact Hmw
  iintro ⟨HD, c12, HO⟩
  unfold wDelB0
  icases HD with ⟨xBh, %gB', bB⟩
  sl_exec
  have hoj : k0_off6 k = offR (4 * k.val + 2 + 2) := by rw [k0_off6_eq]; try rfl
  ihave FA := (fold_gA0 (F := F) m d L hin (4 * k.val + 2 + 2) (by have h : k.val < 32 := Nat.lt_of_lt_of_eq k.isLt geom_trips_eq; omega) (k0_off6 k) (k0_off6_inb k h7) hoj _ _ rfl (by decide)) $$ [cGA bA tLA tTA]
  · isplitl [cGA]; · iexact cGA
    isplitl [bA]; · iexact bA
    isplitl [tLA]; · iexact tLA
    iexact tTA
  ihave FB := (fold_gB0 (F := F) m d L hin (4 * k.val + 2 + 2) (by have h : k.val < 32 := Nat.lt_of_lt_of_eq k.isLt geom_trips_eq; omega) (k0_off6 k) (k0_off6_inb k h7) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA2
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB2
  icases HD with ⟨nr, nl, nt⟩
  sl_exec
  ihave FWA := (foldc_wA2 (F := F) m d L hin k (m (oLoc d)) _ _ (read_whole_same (F := F) cc0_scratch5 _) (by decide)) $$ [cWA mr]
  · isplitl [cWA]; · iexact cWA
    iexact mr
  ihave FWB := (foldc_wB2 (F := F) m d L hin k (m (oLoc d)) _ _ (read_whole_same (F := F) cc0_scratch9 _) (by decide)) $$ [cWB nr]
  · isplitl [cWB]; · iexact cWB
    iexact nr
  first | rw [show row2_mid.sl.v149 k = Scalar.addi (Scalar.muli 4#32 (Scf.iv 0#32 1#32 k)) 3#32 from rfl] | skip
  rw [wp_ret]; imodintro
  iapply HΦ
  isplitl [HO]
  · iexists _
    isplitr
    rotate_left
    · iexact HO
    ipureintro
    exact (waits_ins rfl (waits_ins rfl (waits_ins rfl (waits_ins rfl (fun p hp => Or.inl hp)))))
  isplitl [xAh]; · iexact xAh
  isplitl [xBh]; · iexact xBh
  isplitl [c8]; · iexact c8
  isplitl [c12]; · iexact c12
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row2_mid_bind (hin : HIN m d L) (O : CellTallies nD τ sig (HIx 1)) (hO : ∀ g, O g none = 0) (k : Fin k0_t1_loop.trips) (hk30 : k.val ≤ 30) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨8, by decide⟩ : DmaSem sig)) (default : HIx 1) 409600 (wDelA0 m d L k)
      ∗ Transfers.Flight countersEmb (V d (cV L) (jV L)) (SemLoc.dma (⟨12, by decide⟩ : DmaSem sig)) (default : HIx 1) 409600 (wDelB0 m d L k)
      ∗ semVal (((V d (cV L) (jV L)), (SemLoc.dma (⟨0, by decide⟩ : DmaSem sig))) : GSem nD τ sig) 0
      ∗ semVal (((V d (cV L) (jV L)), (SemLoc.dma (⟨4, by decide⟩ : DmaSem sig))) : GSem nD τ sig) 0
      ∗ ((sV).view.loc (V d (cV L) (jV L)) ↦{tokL 0} lst m d L)
      ∗ ((sV).view.loc (V d (cV L) (jV L)) ↦{tokL 4} lst m d L)
      ∗ ((aV).view.loc (V d (cV L) (jV L)) ↦{tokT L 0} tblA m d (cV L))
      ∗ ((bV).view.loc (V d (cV L) (jV L)) ↦{tokT L 4} tblB m d (cV L))
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ ((oHalfA L k 0).view.loc (V d (cV L) (jV L)) ↦[(oHalfA L k 0).view.set]{fullShare} outF m d)
          ∗ ((oHalfB L k 0).view.loc (V d (cV L) (jV L)) ↦[(oHalfB L k 0).view.set]{fullShare} outF m d)
          ∗ semVal (((V d (cV L) (jV L)), (SemLoc.dma (⟨8, by decide⟩ : DmaSem sig))) : GSem nD τ sig) 0
          ∗ semVal (((V d (cV L) (jV L)), (SemLoc.dma (⟨12, by decide⟩ : DmaSem sig))) : GSem nD τ sig) 0
          ∗ Transfers.Flight countersEmb (V d (cV L) (jV L)) (SemLoc.dma (⟨0, by decide⟩ : DmaSem sig)) (default : HIx 1) 409600 (gDelA0 m d L (4 * k.val + 2 + 2) (by have h : k.val < 32 := Nat.lt_of_lt_of_eq k.isLt geom_trips_eq; omega) hin)
          ∗ Transfers.Flight countersEmb (V d (cV L) (jV L)) (SemLoc.dma (⟨4, by decide⟩ : DmaSem sig)) (default : HIx 1) 409600 (gDelB0 m d L (4 * k.val + 2 + 2) (by have h : k.val < 32 := Nat.lt_of_lt_of_eq k.isLt geom_trips_eq; omega) hin)
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ wp frame (wpE (defs₀ (F := F)) 𝒱₀ (V d (cV L) (jV L)) none) Set.univ (f (⟨Scalar.addi (Scalar.muli 4#32 (Scf.iv 0#32 1#32 k)) 3#32, 2#32⟩ : Σ' (_ : BitVec 32), BitVec 32)) Q))
      ⊢ wp frame (wpE (defs₀ (F := F)) 𝒱₀ (V d (cV L) (jV L)) none) Set.univ ((k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) >>= f) Q := by
  rw [wp_bind]
  exact row2_mid (F := F) m d L hin O hO k hk30 v2 W (Φ := fun r => wp frame (wpE (defs₀ (F := F)) 𝒱₀ (V d (cV L) (jV L)) none) Set.univ (f r) Q)

end Cert.Proof.KI

end
-- ==== Proof.KI.RowsLast.lean ====
/-
  Row 2 of the loop's last trip (k = 31).

  Rows 126 and 127 have no row two places on to fetch for, so the trip's third row waits for no earlier write and
  issues no gather. It waits for the two gathers of list row 4k + 2 on slot 2: each hands back its row buffer whole at
  the gathered rows, and the list's and the table's read tokens. It then issues the writes of the two row buffers to
  the two halves of row 4k + 2 of the worker's block. A row buffer read whole gives back what it holds, the gathered
  rows of list row 4k + 2, so each half-row written holds what the kernel leaves there: the two writes in flight
  deliver the two half-rows at the result's final contents, and the row buffers back.
-/
import proofs.«203043_g45337674776592_cont_8to1_c_201_37_alg».proof.Proof.KI.BodyDefs
import proofs.«203043_g45337674776592_cont_8to1_c_201_37_alg».proof.Proof.KI.RowsBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The rows -/

set_option maxHeartbeats 8000000 in
/-- Row 2 of a trip (last): the gathers of row 4k + 2 land and its writes are issued. -/
theorem row2_last (hin : HIN m d L) (O : CellTallies nD τ sig (HIx 1)) (hO : ∀ g, O g none = 0) (k : Fin k0_t1_loop.trips) (hk31 : k.val = 31) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ Φ (⟨Scalar.addi (Scalar.muli 4#32 (Scf.iv 0#32 1#32 k)) 3#32, 2#32⟩ : Σ' (_ : BitVec 32), BitVec 32)))
      ⊢ wp frame (wpE (defs₀ (F := F)) 𝒱₀ (V d (cV L) (jV L)) none) Set.univ (k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) Φ := by
  rw [k0_part3_eq_skeleton]; unfold k0_part3_skel
  iintro ⟨#Hlv, HO, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h7 := cond7_false k hk31
  sl_exec
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA2
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB2
  icases HD with ⟨nr, nl, nt⟩
  sl_exec
  ihave FWA := (foldc_wA2 (F := F) m d L hin k (m (oLoc d)) _ (row2_last.sl.dma0 m d L hin k hk31) (read_whole_same (F := F) cc0_scratch5 _) (by decide)) $$ [cWA mr]
  · iframe
  ihave FWB := (foldc_wB2 (F := F) m d L hin k (m (oLoc d)) _ (row2_last.sl.dma0_1 m d L hin k hk31) (read_whole_same (F := F) cc0_scratch9 _) (by decide)) $$ [cWB nr]
  · iframe
  rw [wp_ret]; imodintro
  rw [show row2_last.sl.v149 k = Scalar.addi (Scalar.muli 4#32 (Scf.iv 0#32 1#32 k)) 3#32 from rfl]
  iapply HΦ
  isplitl [HO]
  · iexists (insert ((SemLoc.dma (SemArray.sem cc0_scratch17) : SemLoc sig), (default : HIx 1)) (insert ((SemLoc.dma (SemArray.sem cc0_scratch13) : SemLoc sig), (default : HIx 1)) W))
    isplitr
    · ipureintro; exact waits_ins rfl (waits_ins rfl (fun p hp => Or.inl hp))
    · iexact HO
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row2_last_bind (hin : HIN m d L) (O : CellTallies nD τ sig (HIx 1)) (hO : ∀ g, O g none = 0) (k : Fin k0_t1_loop.trips) (hk31 : k.val = 31) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ wp frame (wpE (defs₀ (F := F)) 𝒱₀ (V d (cV L) (jV L)) none) Set.univ (f (⟨Scalar.addi (Scalar.muli 4#32 (Scf.iv 0#32 1#32 k)) 3#32, 2#32⟩ : Σ' (_ : BitVec 32), BitVec 32)) Q))
      ⊢ wp frame (wpE (defs₀ (F := F)) 𝒱₀ (V d (cV L) (jV L)) none) Set.univ ((k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) >>= f) Q := by
  rw [wp_bind]
  exact row2_last (F := F) m d L hin O hO k hk31 v2 W (Φ := fun r => wp frame (wpE (defs₀ (F := F)) 𝒱₀ (V d (cV L) (jV L)) none) Set.univ (f r) Q)

end Cert.Proof.KI

end
-- ==== Proof.KI.TripLast.lean ====
/-
  The last trip of the task's loop (k = 31): rows 124 … 127 of the worker's block.

  Rows 124 and 125 go as in every trip after the first: each waits for the write that still holds its slot's partner
  two rows back (rows 122, 123, of trip 30), issues the gathers of the row two places on (rows 126, 127), waits for its
  own gathers and issues its own writes. Rows 126 and 127 have no row two places on: each only waits for its gathers and
  issues its writes, and no write is waited for. So after the trip all eight write cells carry a write in flight, of rows
  124 … 127, every gather cell is back at zero and every read token is whole; the half-rows of trips below 31 are all
  done, trip 30's rows 2 and 3 having landed during rows 0 and 1.
-/
import proofs.«203043_g45337674776592_cont_8to1_c_201_37_alg».proof.Proof.KI.BodyDefs
import proofs.«203043_g45337674776592_cont_8to1_c_201_37_alg».proof.Proof.KI.RowsMid
import proofs.«203043_g45337674776592_cont_8to1_c_201_37_alg».proof.Proof.KI.RowsLast

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The definitions, opened -/

theorem last_P01_def (t : Fin k0_t1_loop.trips) (f : Buf (Elt F) (oLoc d)) : (P01 d L t f : sProp 𝕄)
    = iprop(((oHalfA L t 0).view.loc (V d (cV L) (jV L)) ↦[(oHalfA L t 0).view.set]{fullShare} f) ∗ ((oHalfB L t 0).view.loc (V d (cV L) (jV L)) ↦[(oHalfB L t 0).view.set]{fullShare} f)
      ∗ ((oHalfA L t 1).view.loc (V d (cV L) (jV L)) ↦[(oHalfA L t 1).view.set]{fullShare} f) ∗ ((oHalfB L t 1).view.loc (V d (cV L) (jV L)) ↦[(oHalfB L t 1).view.set]{fullShare} f)) := rfl
theorem last_P23_def (t : Fin k0_t1_loop.trips) (f : Buf (Elt F) (oLoc d)) : (P23 d L t f : sProp 𝕄)
    = iprop(((oHalfA L t 2).view.loc (V d (cV L) (jV L)) ↦[(oHalfA L t 2).view.set]{fullShare} f) ∗ ((oHalfB L t 2).view.loc (V d (cV L) (jV L)) ↦[(oHalfB L t 2).view.set]{fullShare} f)
      ∗ ((oHalfA L t 3).view.loc (V d (cV L) (jV L)) ↦[(oHalfA L t 3).view.set]{fullShare} f) ∗ ((oHalfB L t 3).view.loc (V d (cV L) (jV L)) ↦[(oHalfB L t 3).view.set]{fullShare} f)) := rfl

omit [FloatOps F] in
/-- The trips from `k` on are trip `k` and the trips after it. -/
theorem last_todo_take (k : Fin k0_t1_loop.trips) (Φ : Fin k0_t1_loop.trips → sProp 𝕄) :
    (bigSep (Finset.univ.filter fun t : Fin k0_t1_loop.trips => k.val ≤ t.val) Φ : sProp 𝕄)
      = iprop(Φ k ∗ bigSep (Finset.univ.filter fun t : Fin k0_t1_loop.trips => k.val + 1 ≤ t.val) Φ) := by
  rw [SparseCore.bigSep_erase' (s := Finset.univ.filter fun t : Fin k0_t1_loop.trips => k.val ≤ t.val) (i := k) (Finset.mem_filter.mpr ⟨Finset.mem_univ _, le_rfl⟩)]
  congr 2
  ext t
  simp only [Finset.mem_erase, Finset.mem_filter, Finset.mem_univ, true_and, ne_eq, Fin.ext_iff]
  omega

omit [FloatOps F] in
/-- The trips below 31 are trip 30 and the trips whose successor is below 31. -/
theorem last_done23_put (h30 : 30 < k0_t1_loop.trips) (Φ : Fin k0_t1_loop.trips → sProp 𝕄) :
    (bigSep (Finset.univ.filter fun t : Fin k0_t1_loop.trips => t.val < 31) Φ : sProp 𝕄)
      = iprop(Φ ⟨30, h30⟩ ∗ bigSep (Finset.univ.filter fun t : Fin k0_t1_loop.trips => t.val + 1 < 31) Φ) := by
  rw [SparseCore.bigSep_erase' (s := Finset.univ.filter fun t : Fin k0_t1_loop.trips => t.val < 31) (i := (⟨30, h30⟩ : Fin k0_t1_loop.trips))
    (Finset.mem_filter.mpr ⟨Finset.mem_univ _, by show 30 < 31; decide⟩)]
  congr 2
  try (ext t; simp only [Finset.mem_erase, Finset.mem_filter, Finset.mem_univ, true_and, ne_eq, Fin.ext_iff]; omega)

set_option maxHeartbeats 16000000 in
/-- The last trip of the task's loop. -/
theorem trip_last (hin : HIN m d L) (O : CellTallies nD τ sig (HIx 1)) (W₀ : Waits sig (HIx 1)) (hO : ∀ g, O g none = 0) (v2 : BitVec 32)
    (k : Fin k0_t1_loop.trips) (h31 : k.val = 31) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have h31' : 31 < k0_t1_loop.trips := Nat.lt_of_lt_of_eq (show 31 < 32 by decide) geom_trips_eq.symm
  have h30' : 30 < k0_t1_loop.trips := Nat.lt_of_lt_of_eq (show 30 < 32 by decide) geom_trips_eq.symm
  obtain rfl : k = ⟨31, h31'⟩ := Fin.ext h31
  have hk1 : 1 ≤ (⟨31, h31'⟩ : Fin k0_t1_loop.trips).val := show 1 ≤ 31 by decide
  have hk31 : (⟨31, h31'⟩ : Fin k0_t1_loop.trips).val = 31 := rfl
  have hk : (⟨31, h31'⟩ : Fin k0_t1_loop.trips).val < 32 := show 31 < 32 by decide
  unfold k0_t1_body
  unfold Inv
  rw [dif_pos hk]
  unfold invMid slots23
  rw [dif_neg (show ¬ (⟨31, h31'⟩ : Fin k0_t1_loop.trips).val = 0 from show ¬ (31 : ℕ) = 0 by decide)]
  iintro ⟨%hle, #Hlv, ⟨%W', %hW', HO⟩, Hg0, Hg4, Hg1, Hg5, ⟨Hw10, Hw14, Hw11, Hw15⟩, Hs2, Hs3, Hs6, Hs7, Hs8, Hs9, Hs12, Hs13, HtL2, HtL3, HtL6, HtL7, HtA2, HtA3, HtB6, HtB7, Hd01, Hd23, Htodo⟩
  ihave Htodo' := (Entails.of_eq (last_todo_take (F := F) (⟨31, h31'⟩ : Fin k0_t1_loop.trips) _)) $$ Htodo
  icases Htodo' with ⟨⟨Hp01, Hp23⟩, -⟩
  ihave Hp01' := (Entails.of_eq (last_P01_def (F := F) d L (⟨31, h31'⟩ : Fin k0_t1_loop.trips) _)) $$ Hp01
  icases Hp01' with ⟨HoA0, HoB0, HoA1, HoB1⟩
  ihave Hp23' := (Entails.of_eq (last_P23_def (F := F) d L (⟨31, h31'⟩ : Fin k0_t1_loop.trips) _)) $$ Hp23
  icases Hp23' with ⟨HoA2, HoB2, HoA3, HoB3⟩
  -- rows 0, 1, 2
  iapply (row0_mid_bind (F := F) m d L hin O hO (⟨31, h31'⟩ : Fin k0_t1_loop.trips) hk1 v2 W' _ _)
  isplitr; · iexact Hlv
  isplitl [HO]; · iexact HO
  isplitl [Hw10]; · iexact Hw10
  isplitl [Hw14]; · iexact Hw14
  isplitl [Hs2]; · iexact Hs2
  isplitl [Hs6]; · iexact Hs6
  isplitl [HtL2]; · iexact HtL2
  isplitl [HtL6]; · iexact HtL6
  isplitl [HtA2]; · iexact HtA2
  isplitl [HtB6]; · iexact HtB6
  isplitl [Hg0]; · iexact Hg0
  isplitl [Hg4]; · iexact Hg4
  isplitl [Hs8]; · iexact Hs8
  isplitl [Hs12]; · iexact Hs12
  isplitl [HoA0]; · iexact HoA0
  isplitl [HoB0]; · iexact HoB0
  iintro ⟨⟨%W1, %hW1, HO⟩, xA2, xB2, Hs10, Hs14, Fg2, Fg6, Hs0, Hs4, HtL0, HtL4, HtA0, HtB4, Fw8, Fw12⟩
  iapply (row1_mid_bind (F := F) m d L hin O hO (⟨31, h31'⟩ : Fin k0_t1_loop.trips) hk1 v2 W1 _ _)
  isplitr; · iexact Hlv
  isplitl [HO]; · iexact HO
  isplitl [Hw11]; · iexact Hw11
  isplitl [Hw15]; · iexact Hw15
  isplitl [Hs3]; · iexact Hs3
  isplitl [Hs7]; · iexact Hs7
  isplitl [HtL3]; · iexact HtL3
  isplitl [HtL7]; · iexact HtL7
  isplitl [HtA3]; · iexact HtA3
  isplitl [HtB7]; · iexact HtB7
  isplitl [Hg1]; · iexact Hg1
  isplitl [Hg5]; · iexact Hg5
  isplitl [Hs9]; · iexact Hs9
  isplitl [Hs13]; · iexact Hs13
  isplitl [HoA1]; · iexact HoA1
  isplitl [HoB1]; · iexact HoB1
  iintro ⟨⟨%W2, %hW2, HO⟩, xA3, xB3, Hs11, Hs15, Fg3, Fg7, Hs1, Hs5, HtL1, HtL5, HtA1, HtB5, Fw9, Fw13⟩
  iapply (row2_last_bind (F := F) m d L hin O hO (⟨31, h31'⟩ : Fin k0_t1_loop.trips) hk31 v2 W2 _ _)
  isplitr; · iexact Hlv
  isplitl [HO]; · iexact HO
  isplitl [Fg2]; · iexact Fg2
  isplitl [Fg6]; · iexact Fg6
  isplitl [Hs10]; · iexact Hs10
  isplitl [Hs14]; · iexact Hs14
  isplitl [HoA2]; · iexact HoA2
  isplitl [HoB2]; · iexact HoB2
  iintro ⟨⟨%W3, %hW3, HO⟩, Hs2, Hs6, HtL2, HtL6, HtA2, HtB6, Fw10, Fw14⟩
  -- row 3
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h9 := cond9_false (⟨31, h31'⟩ : Fin k0_t1_loop.trips) hk31
  sl_exec
  iapply (Transfers.wp_waitLocalO countersEmb 𝒱₀ (V d (cV L) (jV L)) none (default : HIx 1) (N := 409600) rfl) $$ [Fg3 HO]
  · isplitl [Fg3]; · iexact Fg3
    isplitl [HO]; · iexact HO
    iapply (Transfers.MayWaits.elim (SemLoc.dma _)); iexact Hmw
  iintro ⟨HD, Hs3, HO⟩
  unfold gDelA3
  icases HD with ⟨mr3, HtL3, HtA3⟩
  first | sl_exec | skip
  iapply (Transfers.wp_waitLocalO countersEmb 𝒱₀ (V d (cV L) (jV L)) none (default : HIx 1) (N := 409600) rfl) $$ [Fg7 HO]
  · isplitl [Fg7]; · iexact Fg7
    isplitl [HO]; · iexact HO
    iapply (Transfers.MayWaits.elim (SemLoc.dma _)); iexact Hmw
  iintro ⟨HD, Hs7, HO⟩
  unfold gDelB3
  icases HD with ⟨nr3, HtL7, HtB7⟩
  sl_exec
  ihave Fw11 := (foldc_wA3 (F := F) m d L hin (⟨31, h31'⟩ : Fin k0_t1_loop.trips) (m (oLoc d)) _ _ (read_whole_same (F := F) cc0_scratch6 _) (by decide)) $$ [Hs11 mr3]
  · isplitl [Hs11]; · iexact Hs11
    iexact mr3
  ihave Fw15 := (foldc_wB3 (F := F) m d L hin (⟨31, h31'⟩ : Fin k0_t1_loop.trips) (m (oLoc d)) _ _ (read_whole_same (F := F) cc0_scratch10 _) (by decide)) $$ [Hs15 nr3]
  · isplitl [Hs15]; · iexact Hs15
    iexact nr3
  rw [wp_ret]; imodintro
  rw [dif_neg (show ¬ (⟨31, h31'⟩ : Fin k0_t1_loop.trips).val + 1 < 32 from show ¬ (31 + 1 < 32) by decide)]
  unfold invEnd
  isplitr; · ipureintro; exact (show 31 + 1 ≤ 32 by decide)
  isplitr; · iexact Hlv
  isplitl [HO]
  · iexists _
    isplitr
    rotate_left
    · iexact HO
    ipureintro
    exact waits_chain (waits_ins rfl (waits_ins rfl (fun p hp => Or.inl hp))) (waits_chain hW3 (waits_chain hW2 (waits_chain hW1 hW')))
  isplitl [Fw8]; · iexact Fw8
  isplitl [Fw12]; · iexact Fw12
  isplitl [Fw9]; · iexact Fw9
  isplitl [Fw13]; · iexact Fw13
  isplitl [Fw10]; · iexact Fw10
  isplitl [Fw14]; · iexact Fw14
  isplitl [Fw11]; · iexact Fw11
  isplitl [Fw15]; · iexact Fw15
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HtL0]; · iexact HtL0
  isplitl [HtL1]; · iexact HtL1
  isplitl [HtL2]; · iexact HtL2
  isplitl [HtL3]; · iexact HtL3
  isplitl [HtL4]; · iexact HtL4
  isplitl [HtL5]; · iexact HtL5
  isplitl [HtL6]; · iexact HtL6
  isplitl [HtL7]; · iexact HtL7
  isplitl [HtA0]; · iexact HtA0
  isplitl [HtA1]; · iexact HtA1
  isplitl [HtA2]; · iexact HtA2
  isplitl [HtA3]; · iexact HtA3
  isplitl [HtB4]; · iexact HtB4
  isplitl [HtB5]; · iexact HtB5
  isplitl [HtB6]; · iexact HtB6
  isplitl [HtB7]; · iexact HtB7
  rw [bigSep_sep']
  isplitl [Hd01]; · iexact Hd01
  rw [last_done23_put (F := F) h30', last_P23_def]
  isplitr [Hd23]
  · isplitl [xA2]; · iexact xA2
    isplitl [xB2]; · iexact xB2
    isplitl [xA3]; · iexact xA3
    iexact xB3
  · iexact Hd23

end Cert.Proof.KI

end
-- ==== Proof.KI.RowsFirst.lean ====
/-
  The first trip's rows 0 and 1 of a tile's loop. Before the first trip nothing has been written yet, so the two row
  buffers of the slot two rows ahead are idle (held at any contents) and there is no earlier write to wait for: row 0
  issues the gathers of list row 2 into slot 2, waits for the gathers of list row 0 — which hand back slot 0's row buffers
  holding the gathered table rows, and the read tokens of the list and of the table halves — and issues the writes of
  those two buffers to the two halves of row 0 of the worker's block of the result; row 1 does the same one row further
  (gathers of list row 3 into slot 3, the gathers of list row 1 land, the writes of row 1). Each write in flight delivers
  its half-row holding what the kernel leaves there, because the buffer written held the gather of that row's list row.
  The waits recorded are the tile's own, at no level.
-/
import proofs.«203043_g45337674776592_cont_8to1_c_201_37_alg».proof.Proof.KI.BodyDefs
import proofs.«203043_g45337674776592_cont_8to1_c_201_37_alg».proof.Proof.KI.RowsBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The rows -/

set_option maxHeartbeats 8000000 in
/-- Row 0 of a trip (first): the gathers of row 4k + 2 are issued; the gathers of row 4k + 0 land and its writes are issued. -/
theorem row0_first (hin : HIN m d L) (O : CellTallies nD τ sig (HIx 1)) (hO : ∀ g, O g none = 0) (k : Fin k0_t1_loop.trips) (hk0 : k.val = 0) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ (∃ g, (rA2).view.loc (V d (cV L) (jV L)) ↦{fullShare} g)
      ∗ (∃ g, (rB2).view.loc (V d (cV L) (jV L)) ↦{fullShare} g)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ Φ (⟨(Scf.iv 0#32 1#32 k), 4#32⟩ : Σ' (_ : BitVec 32), BitVec 32)))
      ⊢ wp frame (wpE (defs₀ (F := F)) 𝒱₀ (V d (cV L) (jV L)) none) Set.univ (k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) Φ := by
  rw [k0_part1_eq_skeleton]; unfold k0_part1_skel
  iintro ⟨#Hlv, HO, ⟨%gA', bA⟩, ⟨%gB', bB⟩, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h3 := cond3_true k
  have hi0 := in0_false k hk0
  sl_exec
  have hoj : k0_off2 k = offR (4 * k.val + 0 + 2) := by rw [k0_off2_eq] <;> rfl
  ihave FA := (fold_gA2 (F := F) m d L hin (4 * k.val + 0 + 2) (by have h : k.val < 32 := Nat.lt_of_lt_of_eq k.isLt geom_trips_eq; omega) (k0_off2 k) (k0_off2_inb k h3) hoj _ _ rfl (by decide)) $$ [cGA bA tLA tTA]
  · isplitl [cGA]; · iexact cGA
    isplitl [bA]; · iexact bA
    isplitl [tLA]; · iexact tLA
    iexact tTA
  ihave FB := (fold_gB2 (F := F) m d L hin (4 * k.val + 0 + 2) (by have h : k.val < 32 := Nat.lt_of_lt_of_eq k.isLt geom_trips_eq; omega) (k0_off2 k) (k0_off2_inb k h3) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA0
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB0
  icases HD with ⟨nr, nl, nt⟩
  sl_exec
  ihave FWA := (foldc_wA0 (F := F) m d L hin k (m (oLoc d)) _ _ (read_whole_same (F := F) cc0_scratch3 _) (by decide)) $$ [cWA mr]
  · isplitl [cWA]; · iexact cWA
    iexact mr
  ihave FWB := (foldc_wB0 (F := F) m d L hin k (m (oLoc d)) _ _ (read_whole_same (F := F) cc0_scratch7 _) (by decide)) $$ [cWB nr]
  · isplitl [cWB]; · iexact cWB
    iexact nr
  first | rw [show row0_first.sl.arg32 k = (Scf.iv 0#32 1#32 k) from rfl] | skip
  rw [wp_ret]; imodintro
  iapply HΦ
  isplitl [HO]
  · iexists _; isplitr
    pick_goal 2
    · iexact HO
    · ipureintro; exact waits_ins rfl (waits_ins rfl (fun p hp => Or.inl hp))
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row0_first_bind (hin : HIN m d L) (O : CellTallies nD τ sig (HIx 1)) (hO : ∀ g, O g none = 0) (k : Fin k0_t1_loop.trips) (hk0 : k.val = 0) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ (∃ g, (rA2).view.loc (V d (cV L) (jV L)) ↦{fullShare} g)
      ∗ (∃ g, (rB2).view.loc (V d (cV L) (jV L)) ↦{fullShare} g)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ wp frame (wpE (defs₀ (F := F)) 𝒱₀ (V d (cV L) (jV L)) none) Set.univ (f (⟨(Scf.iv 0#32 1#32 k), 4#32⟩ : Σ' (_ : BitVec 32), BitVec 32)) Q))
      ⊢ wp frame (wpE (defs₀ (F := F)) 𝒱₀ (V d (cV L) (jV L)) none) Set.univ ((k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) >>= f) Q := by
  rw [wp_bind]
  exact row0_first (F := F) m d L hin O hO k hk0 v2 W (Φ := fun r => wp frame (wpE (defs₀ (F := F)) 𝒱₀ (V d (cV L) (jV L)) none) Set.univ (f r) Q)

set_option maxHeartbeats 8000000 in
/-- Row 1 of a trip (first): the gathers of row 4k + 3 are issued; the gathers of row 4k + 1 land and its writes are issued. -/
theorem row1_first (hin : HIN m d L) (O : CellTallies nD τ sig (HIx 1)) (hO : ∀ g, O g none = 0) (k : Fin k0_t1_loop.trips) (hk0 : k.val = 0) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ (∃ g, (rA3).view.loc (V d (cV L) (jV L)) ↦{fullShare} g)
      ∗ (∃ g, (rB3).view.loc (V d (cV L) (jV L)) ↦{fullShare} g)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ Φ (⟨Scalar.muli 4#32 (Scf.iv 0#32 1#32 k), 2#32⟩ : Σ' (_ : BitVec 32), BitVec 32)))
      ⊢ wp frame (wpE (defs₀ (F := F)) 𝒱₀ (V d (cV L) (jV L)) none) Set.univ (k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) Φ := by
  rw [k0_part2_eq_skeleton]; unfold k0_part2_skel
  iintro ⟨#Hlv, HO, ⟨%gA', bA⟩, ⟨%gB', bB⟩, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h5 := cond5_true k
  have hi1 := in1_false k hk0
  sl_exec
  have hoj : k0_off5 k = offR (4 * k.val + 1 + 2) := by rw [k0_off5_eq] <;> rfl
  ihave FA := (fold_gA3 (F := F) m d L hin (4 * k.val + 1 + 2) (by have h : k.val < 32 := Nat.lt_of_lt_of_eq k.isLt geom_trips_eq; omega) (k0_off5 k) (k0_off5_inb k h5) hoj _ _ rfl (by decide)) $$ [cGA bA tLA tTA]
  · isplitl [cGA]; · iexact cGA
    isplitl [bA]; · iexact bA
    isplitl [tLA]; · iexact tLA
    iexact tTA
  ihave FB := (fold_gB3 (F := F) m d L hin (4 * k.val + 1 + 2) (by have h : k.val < 32 := Nat.lt_of_lt_of_eq k.isLt geom_trips_eq; omega) (k0_off5 k) (k0_off5_inb k h5) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA1
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB1
  icases HD with ⟨nr, nl, nt⟩
  sl_exec
  ihave FWA := (foldc_wA1 (F := F) m d L hin k (m (oLoc d)) _ _ (read_whole_same (F := F) cc0_scratch4 _) (by decide)) $$ [cWA mr]
  · isplitl [cWA]; · iexact cWA
    iexact mr
  ihave FWB := (foldc_wB1 (F := F) m d L hin k (m (oLoc d)) _ _ (read_whole_same (F := F) cc0_scratch8 _) (by decide)) $$ [cWB nr]
  · isplitl [cWB]; · iexact cWB
    iexact nr
  first | rw [show row1_first.sl.v122 k = Scalar.muli 4#32 (Scf.iv 0#32 1#32 k) from rfl] | skip
  rw [wp_ret]; imodintro
  iapply HΦ
  isplitl [HO]
  · iexists _; isplitr
    pick_goal 2
    · iexact HO
    · ipureintro; exact waits_ins rfl (waits_ins rfl (fun p hp => Or.inl hp))
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row1_first_bind (hin : HIN m d L) (O : CellTallies nD τ sig (HIx 1)) (hO : ∀ g, O g none = 0) (k : Fin k0_t1_loop.trips) (hk0 : k.val = 0) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ (∃ g, (rA3).view.loc (V d (cV L) (jV L)) ↦{fullShare} g)
      ∗ (∃ g, (rB3).view.loc (V d (cV L) (jV L)) ↦{fullShare} g)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ wp frame (wpE (defs₀ (F := F)) 𝒱₀ (V d (cV L) (jV L)) none) Set.univ (f (⟨Scalar.muli 4#32 (Scf.iv 0#32 1#32 k), 2#32⟩ : Σ' (_ : BitVec 32), BitVec 32)) Q))
      ⊢ wp frame (wpE (defs₀ (F := F)) 𝒱₀ (V d (cV L) (jV L)) none) Set.univ ((k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) >>= f) Q := by
  rw [wp_bind]
  exact row1_first (F := F) m d L hin O hO k hk0 v2 W (Φ := fun r => wp frame (wpE (defs₀ (F := F)) 𝒱₀ (V d (cV L) (jV L)) none) Set.univ (f r) Q)

end Cert.Proof.KI

end
-- ==== Proof.KI.TripFirst.lean ====
/-
  The first trip of a tile's loop. Before it the gathers of list rows 0 and 1 are in flight on slots 0 and 1, slots 2 and
  3 are idle, and no half-row of the result is written. Row 0 issues the gathers of row 2 and, once the gathers of row 0
  have landed, the writes of row 0; row 1 likewise issues the gathers of row 3 and the writes of row 1; row 2 waits for
  the writes of row 0, issues the gathers of row 4 into slot 0 and, the gathers of row 2 landed, the writes of row 2;
  row 3 waits for the writes of row 1, issues the gathers of row 5 into slot 1 and, the gathers of row 3 landed, the
  writes of row 3. So after it the gathers of rows 4 and 5 are in flight on slots 0 and 1, the writes of rows 2 and 3 on
  slots 2 and 3, rows 0 and 1 of the worker's block hold what the kernel leaves there, and no trip yet has its rows 2 and
  3 done: the state before the second trip.
-/
import proofs.«203043_g45337674776592_cont_8to1_c_201_37_alg».proof.Proof.KI.BodyDefs
import proofs.«203043_g45337674776592_cont_8to1_c_201_37_alg».proof.Proof.KI.RowsMid
import proofs.«203043_g45337674776592_cont_8to1_c_201_37_alg».proof.Proof.KI.RowsFirst

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The definitions, opened -/

theorem first_P01_def (t : Fin k0_t1_loop.trips) (f : Buf (Elt F) (oLoc d)) : (P01 d L t f : sProp 𝕄)
    = iprop(((oHalfA L t 0).view.loc (V d (cV L) (jV L)) ↦[(oHalfA L t 0).view.set]{fullShare} f) ∗ ((oHalfB L t 0).view.loc (V d (cV L) (jV L)) ↦[(oHalfB L t 0).view.set]{fullShare} f)
      ∗ ((oHalfA L t 1).view.loc (V d (cV L) (jV L)) ↦[(oHalfA L t 1).view.set]{fullShare} f) ∗ ((oHalfB L t 1).view.loc (V d (cV L) (jV L)) ↦[(oHalfB L t 1).view.set]{fullShare} f)) := rfl
theorem first_P23_def (t : Fin k0_t1_loop.trips) (f : Buf (Elt F) (oLoc d)) : (P23 d L t f : sProp 𝕄)
    = iprop(((oHalfA L t 2).view.loc (V d (cV L) (jV L)) ↦[(oHalfA L t 2).view.set]{fullShare} f) ∗ ((oHalfB L t 2).view.loc (V d (cV L) (jV L)) ↦[(oHalfB L t 2).view.set]{fullShare} f)
      ∗ ((oHalfA L t 3).view.loc (V d (cV L) (jV L)) ↦[(oHalfA L t 3).view.set]{fullShare} f) ∗ ((oHalfB L t 3).view.loc (V d (cV L) (jV L)) ↦[(oHalfB L t 3).view.set]{fullShare} f)) := rfl

omit [FloatOps F] in
/-- The trips from `k` on are trip `k` and the trips after it. -/
theorem first_todo_take (k : Fin k0_t1_loop.trips) (Φ : Fin k0_t1_loop.trips → sProp 𝕄) :
    (bigSep (Finset.univ.filter fun t : Fin k0_t1_loop.trips => k.val ≤ t.val) Φ : sProp 𝕄)
      = iprop(Φ k ∗ bigSep (Finset.univ.filter fun t : Fin k0_t1_loop.trips => k.val + 1 ≤ t.val) Φ) := by
  rw [SparseCore.bigSep_erase' (s := Finset.univ.filter fun t : Fin k0_t1_loop.trips => k.val ≤ t.val) (i := k) (Finset.mem_filter.mpr ⟨Finset.mem_univ _, le_rfl⟩)]
  congr 2
  ext t
  simp only [Finset.mem_erase, Finset.mem_filter, Finset.mem_univ, true_and, ne_eq, Fin.ext_iff]
  omega

omit [FloatOps F] in
/-- The trips below `k + 1` are trip `k` and the trips below `k`. -/
theorem first_done01_put (k : Fin k0_t1_loop.trips) (Φ : Fin k0_t1_loop.trips → sProp 𝕄) :
    (bigSep (Finset.univ.filter fun t : Fin k0_t1_loop.trips => t.val < k.val + 1) Φ : sProp 𝕄)
      = iprop(Φ k ∗ bigSep (Finset.univ.filter fun t : Fin k0_t1_loop.trips => t.val < k.val) Φ) := by
  rw [SparseCore.bigSep_erase' (s := Finset.univ.filter fun t : Fin k0_t1_loop.trips => t.val < k.val + 1) (i := k) (Finset.mem_filter.mpr ⟨Finset.mem_univ _, Nat.lt_succ_self _⟩)]
  congr 2
  ext t
  simp only [Finset.mem_erase, Finset.mem_filter, Finset.mem_univ, true_and, ne_eq, Fin.ext_iff]
  omega
omit [FloatOps F] in
/-- Before the first trip no trip has its rows 2 and 3 done, and after it still none has. -/
theorem first_done23_same (k : Fin k0_t1_loop.trips) (h0 : k.val = 0) (Φ : Fin k0_t1_loop.trips → sProp 𝕄) :
    (bigSep (Finset.univ.filter fun t : Fin k0_t1_loop.trips => t.val + 1 < k.val + 1) Φ : sProp 𝕄)
      = bigSep (Finset.univ.filter fun t : Fin k0_t1_loop.trips => t.val + 1 < k.val) Φ := by
  congr 1
  ext t
  simp only [Finset.mem_filter, Finset.mem_univ, true_and]
  omega

set_option maxHeartbeats 16000000 in
/-- The first trip of the task's loop. -/
theorem trip_first (hin : HIN m d L) (O : CellTallies nD τ sig (HIx 1)) (W₀ : Waits sig (HIx 1)) (hO : ∀ g, O g none = 0) (v2 : BitVec 32)
    (k : Fin k0_t1_loop.trips) (h0 : k.val = 0) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have hk : k.val < 32 := by omega
  have hk30 : k.val ≤ 30 := by omega
  unfold k0_t1_body
  unfold Inv
  rw [dif_pos hk]
  unfold invMid slots23
  rw [dif_pos h0]
  iintro ⟨%hle, #Hlv, ⟨%W', %hW', HO⟩, Hg0, Hg4, Hg1, Hg5, ⟨⟨%g2, bA2⟩, ⟨%g2', bB2⟩, ⟨%g3, bA3⟩, ⟨%g3', bB3⟩, Hs10, Hs14, Hs11, Hs15⟩, Hs2, Hs3, Hs6, Hs7, Hs8, Hs9, Hs12, Hs13, HtL2, HtL3, HtL6, HtL7, HtA2, HtA3, HtB6, HtB7, Hd01, Hd23, Htodo⟩
  ihave Htodo' := (Entails.of_eq (first_todo_take (F := F) k _)) $$ Htodo
  icases Htodo' with ⟨⟨Hp01, Hp23⟩, Htodo⟩
  ihave Hp01' := (Entails.of_eq (first_P01_def (F := F) d L k _)) $$ Hp01
  icases Hp01' with ⟨HoA0, HoB0, HoA1, HoB1⟩
  ihave Hp23' := (Entails.of_eq (first_P23_def (F := F) d L k _)) $$ Hp23
  icases Hp23' with ⟨HoA2, HoB2, HoA3, HoB3⟩
  -- rows 0, 1, 2
  iapply (row0_first_bind (F := F) m d L hin O hO k h0 v2 W' _ _)
  isplitr; · iexact Hlv
  isplitl [HO]; · iexact HO
  isplitl [bA2]; · iexists _; iexact bA2
  isplitl [bB2]; · iexists _; iexact bB2
  isplitl [Hs2]; · iexact Hs2
  isplitl [Hs6]; · iexact Hs6
  isplitl [HtL2]; · iexact HtL2
  isplitl [HtL6]; · iexact HtL6
  isplitl [HtA2]; · iexact HtA2
  isplitl [HtB6]; · iexact HtB6
  isplitl [Hg0]; · iexact Hg0
  isplitl [Hg4]; · iexact Hg4
  isplitl [Hs8]; · iexact Hs8
  isplitl [Hs12]; · iexact Hs12
  isplitl [HoA0]; · iexact HoA0
  isplitl [HoB0]; · iexact HoB0
  iintro ⟨⟨%W1, %hW1, HO⟩, Fg2, Fg6, Hs0, Hs4, HtL0, HtL4, HtA0, HtB4, Fw8, Fw12⟩
  iapply (row1_first_bind (F := F) m d L hin O hO k h0 v2 W1 _ _)
  isplitr; · iexact Hlv
  isplitl [HO]; · iexact HO
  isplitl [bA3]; · iexists _; iexact bA3
  isplitl [bB3]; · iexists _; iexact bB3
  isplitl [Hs3]; · iexact Hs3
  isplitl [Hs7]; · iexact Hs7
  isplitl [HtL3]; · iexact HtL3
  isplitl [HtL7]; · iexact HtL7
  isplitl [HtA3]; · iexact HtA3
  isplitl [HtB7]; · iexact HtB7
  isplitl [Hg1]; · iexact Hg1
  isplitl [Hg5]; · iexact Hg5
  isplitl [Hs9]; · iexact Hs9
  isplitl [Hs13]; · iexact Hs13
  isplitl [HoA1]; · iexact HoA1
  isplitl [HoB1]; · iexact HoB1
  iintro ⟨⟨%W2, %hW2, HO⟩, Fg3, Fg7, Hs1, Hs5, HtL1, HtL5, HtA1, HtB5, Fw9, Fw13⟩
  iapply (row2_mid_bind (F := F) m d L hin O hO k hk30 v2 W2 _ _)
  isplitr; · iexact Hlv
  isplitl [HO]; · iexact HO
  isplitl [Fw8]; · iexact Fw8
  isplitl [Fw12]; · iexact Fw12
  isplitl [Hs0]; · iexact Hs0
  isplitl [Hs4]; · iexact Hs4
  isplitl [HtL0]; · iexact HtL0
  isplitl [HtL4]; · iexact HtL4
  isplitl [HtA0]; · iexact HtA0
  isplitl [HtB4]; · iexact HtB4
  isplitl [Fg2]; · iexact Fg2
  isplitl [Fg6]; · iexact Fg6
  isplitl [Hs10]; · iexact Hs10
  isplitl [Hs14]; · iexact Hs14
  isplitl [HoA2]; · iexact HoA2
  isplitl [HoB2]; · iexact HoB2
  iintro ⟨⟨%W3, %hW3, HO⟩, yA0, yB0, Hs8, Hs12, Fg0n, Fg4n, Hs2, Hs6, HtL2, HtL6, HtA2, HtB6, Fw10, Fw14⟩
  -- row 3
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h9 := cond9_true k hk30
  have hi3 := in3_true k
  sl_exec
  iapply (Transfers.wp_waitLocalO countersEmb 𝒱₀ (V d (cV L) (jV L)) none (default : HIx 1) (N := 409600) rfl) $$ [Fw9 HO]
  · isplitl [Fw9]; · iexact Fw9
    isplitl [HO]; · iexact HO
    iapply (Transfers.MayWaits.elim (SemLoc.dma _)); iexact Hmw
  iintro ⟨HD, Hs9, HO⟩
  unfold wDelA1
  icases HD with ⟨yA1, %gA', bA1⟩
  first | sl_exec | skip
  iapply (Transfers.wp_waitLocalO countersEmb 𝒱₀ (V d (cV L) (jV L)) none (default : HIx 1) (N := 409600) rfl) $$ [Fw13 HO]
  · isplitl [Fw13]; · iexact Fw13
    isplitl [HO]; · iexact HO
    iapply (Transfers.MayWaits.elim (SemLoc.dma _)); iexact Hmw
  iintro ⟨HD, Hs13, HO⟩
  unfold wDelB1
  icases HD with ⟨yB1, %gB', bB1⟩
  sl_exec
  have hoj : k0_off7 k = offR (4 * k.val + 3 + 2) := by rw [k0_off7_eq] <;> rfl
  ihave Fg1n := (fold_gA1 (F := F) m d L hin (4 * k.val + 3 + 2) (by have h : k.val < 32 := Nat.lt_of_lt_of_eq k.isLt geom_trips_eq; omega) (k0_off7 k) (k0_off7_inb k h9) hoj _ _ rfl (by decide)) $$ [Hs1 bA1 HtL1 HtA1]
  · isplitl [Hs1]; · iexact Hs1
    isplitl [bA1]; · iexact bA1
    isplitl [HtL1]; · iexact HtL1
    iexact HtA1
  ihave Fg5n := (fold_gB1 (F := F) m d L hin (4 * k.val + 3 + 2) (by have h : k.val < 32 := Nat.lt_of_lt_of_eq k.isLt geom_trips_eq; omega) (k0_off7 k) (k0_off7_inb k h9) hoj _ _ rfl (by decide)) $$ [Hs5 bB1 HtL5 HtB5]
  · isplitl [Hs5]; · iexact Hs5
    isplitl [bB1]; · iexact bB1
    isplitl [HtL5]; · iexact HtL5
    iexact HtB5
  iapply (Transfers.wp_waitLocalO countersEmb 𝒱₀ (V d (cV L) (jV L)) none (default : HIx 1) (N := 409600) rfl) $$ [Fg3 HO]
  · isplitl [Fg3]; · iexact Fg3
    isplitl [HO]; · iexact HO
    iapply (Transfers.MayWaits.elim (SemLoc.dma _)); iexact Hmw
  iintro ⟨HD, Hs3, HO⟩
  unfold gDelA3
  icases HD with ⟨mr3, HtL3, HtA3⟩
  first | sl_exec | skip
  iapply (Transfers.wp_waitLocalO countersEmb 𝒱₀ (V d (cV L) (jV L)) none (default : HIx 1) (N := 409600) rfl) $$ [Fg7 HO]
  · isplitl [Fg7]; · iexact Fg7
    isplitl [HO]; · iexact HO
    iapply (Transfers.MayWaits.elim (SemLoc.dma _)); iexact Hmw
  iintro ⟨HD, Hs7, HO⟩
  unfold gDelB3
  icases HD with ⟨nr3, HtL7, HtB7⟩
  sl_exec
  ihave Fw11 := (foldc_wA3 (F := F) m d L hin k (m (oLoc d)) _ _ (read_whole_same (F := F) cc0_scratch6 _) (by decide)) $$ [Hs11 mr3]
  · isplitl [Hs11]; · iexact Hs11
    iexact mr3
  ihave Fw15 := (foldc_wB3 (F := F) m d L hin k (m (oLoc d)) _ _ (read_whole_same (F := F) cc0_scratch10 _) (by decide)) $$ [Hs15 nr3]
  · isplitl [Hs15]; · iexact Hs15
    iexact nr3
  rw [wp_ret]; imodintro
  have hk' : k.val + 1 < 32 := by omega
  rw [dif_pos hk', dif_neg (show ¬ k.val + 1 = 0 by omega)]
  isplitr; · ipureintro; omega
  isplitr; · iexact Hlv
  isplitl [HO]
  · iexists _
    isplitr
    rotate_left
    · iexact HO
    ipureintro
    exact waits_chain (waits_ins rfl (waits_ins rfl (waits_ins rfl (waits_ins rfl (fun p hp => Or.inl hp))))) (waits_chain hW3 (waits_chain hW2 (waits_chain hW1 hW')))
  isplitl [Fg0n]; · iexact Fg0n
  isplitl [Fg4n]; · iexact Fg4n
  isplitl [Fg1n]; · iexact Fg1n
  isplitl [Fg5n]; · iexact Fg5n
  isplitl [Fw10 Fw14 Fw11 Fw15]
  · isplitl [Fw10]; · iexact Fw10
    isplitl [Fw14]; · iexact Fw14
    isplitl [Fw11]; · iexact Fw11
    iexact Fw15
  isplitl [Hs2]; · iexact Hs2
  isplitl [Hs3]; · iexact Hs3
  isplitl [Hs6]; · iexact Hs6
  isplitl [Hs7]; · iexact Hs7
  isplitl [Hs8]; · iexact Hs8
  isplitl [Hs9]; · iexact Hs9
  isplitl [Hs12]; · iexact Hs12
  isplitl [Hs13]; · iexact Hs13
  isplitl [HtL2]; · iexact HtL2
  isplitl [HtL3]; · iexact HtL3
  isplitl [HtL6]; · iexact HtL6
  isplitl [HtL7]; · iexact HtL7
  isplitl [HtA2]; · iexact HtA2
  isplitl [HtA3]; · iexact HtA3
  isplitl [HtB6]; · iexact HtB6
  isplitl [HtB7]; · iexact HtB7
  isplitl [Hd01 yA0 yB0 yA1 yB1]
  · rw [first_done01_put, first_P01_def]
    isplitr [Hd01]
    · isplitl [yA0]; · iexact yA0
      isplitl [yB0]; · iexact yB0
      isplitl [yA1]; · iexact yA1
      iexact yB1
    · iexact Hd01
  isplitl [Hd23]
  · rw [first_done23_same (F := F) k h0]
    iexact Hd23
  iexact Htodo

end Cert.Proof.KI

end
-- ==== Proof.KI.Trip.lean ====
/-
  One trip of the task's loop.

  The mathematics. Before trip k (k < 32) the gathers of rows 4k and 4k + 1 are in flight on slots 0 and 1 and — for k ≥ 1 — the
  writes of rows 4k − 2 and 4k − 1 on slots 2 and 3; the half-rows below trip k are done (but those two rows', in flight), the
  others untouched. The trip runs its four rows in turn; row r waits for the other slot's previous writes, issues the gathers
  two rows ahead, waits for its own gathers and issues its own writes. After it the same holds of k + 1: rows 0, 1 of trip k
  have landed (waited for in rows 2, 3), rows 2, 3 of trip k are in flight, and the gathers of rows 4k + 4, 4k + 5 are in flight
  on slots 0, 1. After the last trip nothing is gathered any more and the four rows' writes are all that is in flight.
-/
import proofs.«203043_g45337674776592_cont_8to1_c_201_37_alg».proof.Proof.KI.BodyDefs
import proofs.«203043_g45337674776592_cont_8to1_c_201_37_alg».proof.Proof.KI.RowsMid
import proofs.«203043_g45337674776592_cont_8to1_c_201_37_alg».proof.Proof.KI.TripLast
import proofs.«203043_g45337674776592_cont_8to1_c_201_37_alg».proof.Proof.KI.TripFirst

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-! ## The definitions, opened -/

theorem P01_def (t : Fin k0_t1_loop.trips) (f : Buf (Elt F) (oLoc d)) : (P01 d L t f : sProp 𝕄)
    = iprop(((oHalfA L t 0).view.loc (V d (cV L) (jV L)) ↦[(oHalfA L t 0).view.set]{fullShare} f) ∗ ((oHalfB L t 0).view.loc (V d (cV L) (jV L)) ↦[(oHalfB L t 0).view.set]{fullShare} f)
      ∗ ((oHalfA L t 1).view.loc (V d (cV L) (jV L)) ↦[(oHalfA L t 1).view.set]{fullShare} f) ∗ ((oHalfB L t 1).view.loc (V d (cV L) (jV L)) ↦[(oHalfB L t 1).view.set]{fullShare} f)) := rfl
theorem P23_def (t : Fin k0_t1_loop.trips) (f : Buf (Elt F) (oLoc d)) : (P23 d L t f : sProp 𝕄)
    = iprop(((oHalfA L t 2).view.loc (V d (cV L) (jV L)) ↦[(oHalfA L t 2).view.set]{fullShare} f) ∗ ((oHalfB L t 2).view.loc (V d (cV L) (jV L)) ↦[(oHalfB L t 2).view.set]{fullShare} f)
      ∗ ((oHalfA L t 3).view.loc (V d (cV L) (jV L)) ↦[(oHalfA L t 3).view.set]{fullShare} f) ∗ ((oHalfB L t 3).view.loc (V d (cV L) (jV L)) ↦[(oHalfB L t 3).view.set]{fullShare} f)) := rfl

omit [FloatOps F] in
/-- The trips from `k` on are trip `k` and the trips after it. -/
theorem todo_take (k : Fin k0_t1_loop.trips) (Φ : Fin k0_t1_loop.trips → sProp 𝕄) :
    (bigSep (Finset.univ.filter fun t : Fin k0_t1_loop.trips => k.val ≤ t.val) Φ : sProp 𝕄)
      = iprop(Φ k ∗ bigSep (Finset.univ.filter fun t : Fin k0_t1_loop.trips => k.val + 1 ≤ t.val) Φ) := by
  rw [SparseCore.bigSep_erase' (s := Finset.univ.filter fun t : Fin k0_t1_loop.trips => k.val ≤ t.val) (i := k) (Finset.mem_filter.mpr ⟨Finset.mem_univ _, le_rfl⟩)]
  congr 2
  ext t
  simp only [Finset.mem_erase, Finset.mem_filter, Finset.mem_univ, true_and, ne_eq, Fin.ext_iff]
  omega

omit [FloatOps F] in
/-- The trips below `k + 1` are trip `k` and the trips below `k`. -/
theorem done01_put (k : Fin k0_t1_loop.trips) (Φ : Fin k0_t1_loop.trips → sProp 𝕄) :
    (bigSep (Finset.univ.filter fun t : Fin k0_t1_loop.trips => t.val < k.val + 1) Φ : sProp 𝕄)
      = iprop(Φ k ∗ bigSep (Finset.univ.filter fun t : Fin k0_t1_loop.trips => t.val < k.val) Φ) := by
  rw [SparseCore.bigSep_erase' (s := Finset.univ.filter fun t : Fin k0_t1_loop.trips => t.val < k.val + 1) (i := k) (Finset.mem_filter.mpr ⟨Finset.mem_univ _, Nat.lt_succ_self _⟩)]
  congr 2
  ext t
  simp only [Finset.mem_erase, Finset.mem_filter, Finset.mem_univ, true_and, ne_eq, Fin.ext_iff]
  omega
omit [FloatOps F] in
/-- The trips whose successor is below `k + 1` are trip `k − 1` and those whose successor is below `k`. -/
theorem done23_put (k : Fin k0_t1_loop.trips) (hk1 : 1 ≤ k.val) (hp : k.val - 1 < k0_t1_loop.trips) (Φ : Fin k0_t1_loop.trips → sProp 𝕄) :
    (bigSep (Finset.univ.filter fun t : Fin k0_t1_loop.trips => t.val + 1 < k.val + 1) Φ : sProp 𝕄)
      = iprop(Φ ⟨k.val - 1, hp⟩ ∗ bigSep (Finset.univ.filter fun t : Fin k0_t1_loop.trips => t.val + 1 < k.val) Φ) := by
  rw [SparseCore.bigSep_erase' (s := Finset.univ.filter fun t : Fin k0_t1_loop.trips => t.val + 1 < k.val + 1) (i := (⟨k.val - 1, hp⟩ : Fin k0_t1_loop.trips))
    (Finset.mem_filter.mpr ⟨Finset.mem_univ _, by show k.val - 1 + 1 < k.val + 1; omega⟩)]
  congr 2
  ext t
  simp only [Finset.mem_erase, Finset.mem_filter, Finset.mem_univ, true_and, ne_eq, Fin.ext_iff]
  omega

set_option maxHeartbeats 16000000 in
/-- One trip of the task's loop, 1 ≤ k ≤ 30. -/
theorem trip_mid (hin : HIN m d L) (O : CellTallies nD τ sig (HIx 1)) (W₀ : Waits sig (HIx 1)) (hO : ∀ g, O g none = 0) (v2 : BitVec 32)
    (k : Fin k0_t1_loop.trips) (hk1 : 1 ≤ k.val) (hk30 : k.val ≤ 30) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have hk : k.val < 32 := by omega
  unfold k0_t1_body
  unfold Inv
  rw [dif_pos hk]
  unfold invMid slots23
  rw [dif_neg (show ¬ k.val = 0 by omega)]
  iintro ⟨%hle, #Hlv, ⟨%W', %hW', HO⟩, Hg0, Hg4, Hg1, Hg5, ⟨Hw10, Hw14, Hw11, Hw15⟩, Hs2, Hs3, Hs6, Hs7, Hs8, Hs9, Hs12, Hs13, HtL2, HtL3, HtL6, HtL7, HtA2, HtA3, HtB6, HtB7, Hd01, Hd23, Htodo⟩
  ihave Htodo' := (Entails.of_eq (todo_take (F := F) k _)) $$ Htodo
  icases Htodo' with ⟨⟨Hp01, Hp23⟩, Htodo⟩
  ihave Hp01' := (Entails.of_eq (P01_def (F := F) d L k _)) $$ Hp01
  icases Hp01' with ⟨HoA0, HoB0, HoA1, HoB1⟩
  ihave Hp23' := (Entails.of_eq (P23_def (F := F) d L k _)) $$ Hp23
  icases Hp23' with ⟨HoA2, HoB2, HoA3, HoB3⟩
  -- rows 0, 1, 2
  iapply (row0_mid_bind (F := F) m d L hin O hO k hk1 v2 W' _ _)
  isplitr; · iexact Hlv
  isplitl [HO]; · iexact HO
  isplitl [Hw10]; · iexact Hw10
  isplitl [Hw14]; · iexact Hw14
  isplitl [Hs2]; · iexact Hs2
  isplitl [Hs6]; · iexact Hs6
  isplitl [HtL2]; · iexact HtL2
  isplitl [HtL6]; · iexact HtL6
  isplitl [HtA2]; · iexact HtA2
  isplitl [HtB6]; · iexact HtB6
  isplitl [Hg0]; · iexact Hg0
  isplitl [Hg4]; · iexact Hg4
  isplitl [Hs8]; · iexact Hs8
  isplitl [Hs12]; · iexact Hs12
  isplitl [HoA0]; · iexact HoA0
  isplitl [HoB0]; · iexact HoB0
  iintro ⟨⟨%W1, %hW1, HO⟩, xA2, xB2, Hs10, Hs14, Fg2, Fg6, Hs0, Hs4, HtL0, HtL4, HtA0, HtB4, Fw8, Fw12⟩
  iapply (row1_mid_bind (F := F) m d L hin O hO k hk1 v2 W1 _ _)
  isplitr; · iexact Hlv
  isplitl [HO]; · iexact HO
  isplitl [Hw11]; · iexact Hw11
  isplitl [Hw15]; · iexact Hw15
  isplitl [Hs3]; · iexact Hs3
  isplitl [Hs7]; · iexact Hs7
  isplitl [HtL3]; · iexact HtL3
  isplitl [HtL7]; · iexact HtL7
  isplitl [HtA3]; · iexact HtA3
  isplitl [HtB7]; · iexact HtB7
  isplitl [Hg1]; · iexact Hg1
  isplitl [Hg5]; · iexact Hg5
  isplitl [Hs9]; · iexact Hs9
  isplitl [Hs13]; · iexact Hs13
  isplitl [HoA1]; · iexact HoA1
  isplitl [HoB1]; · iexact HoB1
  iintro ⟨⟨%W2, %hW2, HO⟩, xA3, xB3, Hs11, Hs15, Fg3, Fg7, Hs1, Hs5, HtL1, HtL5, HtA1, HtB5, Fw9, Fw13⟩
  iapply (row2_mid_bind (F := F) m d L hin O hO k hk30 v2 W2 _ _)
  isplitr; · iexact Hlv
  isplitl [HO]; · iexact HO
  isplitl [Fw8]; · iexact Fw8
  isplitl [Fw12]; · iexact Fw12
  isplitl [Hs0]; · iexact Hs0
  isplitl [Hs4]; · iexact Hs4
  isplitl [HtL0]; · iexact HtL0
  isplitl [HtL4]; · iexact HtL4
  isplitl [HtA0]; · iexact HtA0
  isplitl [HtB4]; · iexact HtB4
  isplitl [Fg2]; · iexact Fg2
  isplitl [Fg6]; · iexact Fg6
  isplitl [Hs10]; · iexact Hs10
  isplitl [Hs14]; · iexact Hs14
  isplitl [HoA2]; · iexact HoA2
  isplitl [HoB2]; · iexact HoB2
  iintro ⟨⟨%W3, %hW3, HO⟩, yA0, yB0, Hs8, Hs12, Fg0n, Fg4n, Hs2, Hs6, HtL2, HtL6, HtA2, HtB6, Fw10, Fw14⟩
  -- row 3
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h9 := cond9_true k hk30
  have hi3 := in3_true k
  sl_exec
  iapply (Transfers.wp_waitLocalO countersEmb 𝒱₀ (V d (cV L) (jV L)) none (default : HIx 1) (N := 409600) rfl) $$ [Fw9 HO]
  · isplitl [Fw9]; · iexact Fw9
    isplitl [HO]; · iexact HO
    iapply (Transfers.MayWaits.elim (SemLoc.dma _)); iexact Hmw
  iintro ⟨HD, Hs9, HO⟩
  unfold wDelA1
  icases HD with ⟨yA1, %gA', bA1⟩
  first | sl_exec | skip
  iapply (Transfers.wp_waitLocalO countersEmb 𝒱₀ (V d (cV L) (jV L)) none (default : HIx 1) (N := 409600) rfl) $$ [Fw13 HO]
  · isplitl [Fw13]; · iexact Fw13
    isplitl [HO]; · iexact HO
    iapply (Transfers.MayWaits.elim (SemLoc.dma _)); iexact Hmw
  iintro ⟨HD, Hs13, HO⟩
  unfold wDelB1
  icases HD with ⟨yB1, %gB', bB1⟩
  sl_exec
  have hoj : k0_off7 k = offR (4 * k.val + 3 + 2) := by rw [k0_off7_eq]; try rfl
  ihave Fg1n := (fold_gA1 (F := F) m d L hin (4 * k.val + 3 + 2) (by have h : k.val < 32 := Nat.lt_of_lt_of_eq k.isLt geom_trips_eq; omega) (k0_off7 k) (k0_off7_inb k h9) hoj _ _ rfl (by decide)) $$ [Hs1 bA1 HtL1 HtA1]
  · isplitl [Hs1]; · iexact Hs1
    isplitl [bA1]; · iexact bA1
    isplitl [HtL1]; · iexact HtL1
    iexact HtA1
  ihave Fg5n := (fold_gB1 (F := F) m d L hin (4 * k.val + 3 + 2) (by have h : k.val < 32 := Nat.lt_of_lt_of_eq k.isLt geom_trips_eq; omega) (k0_off7 k) (k0_off7_inb k h9) hoj _ _ rfl (by decide)) $$ [Hs5 bB1 HtL5 HtB5]
  · isplitl [Hs5]; · iexact Hs5
    isplitl [bB1]; · iexact bB1
    isplitl [HtL5]; · iexact HtL5
    iexact HtB5
  iapply (Transfers.wp_waitLocalO countersEmb 𝒱₀ (V d (cV L) (jV L)) none (default : HIx 1) (N := 409600) rfl) $$ [Fg3 HO]
  · isplitl [Fg3]; · iexact Fg3
    isplitl [HO]; · iexact HO
    iapply (Transfers.MayWaits.elim (SemLoc.dma _)); iexact Hmw
  iintro ⟨HD, Hs3, HO⟩
  unfold gDelA3
  icases HD with ⟨mr3, HtL3, HtA3⟩
  first | sl_exec | skip
  iapply (Transfers.wp_waitLocalO countersEmb 𝒱₀ (V d (cV L) (jV L)) none (default : HIx 1) (N := 409600) rfl) $$ [Fg7 HO]
  · isplitl [Fg7]; · iexact Fg7
    isplitl [HO]; · iexact HO
    iapply (Transfers.MayWaits.elim (SemLoc.dma _)); iexact Hmw
  iintro ⟨HD, Hs7, HO⟩
  unfold gDelB3
  icases HD with ⟨nr3, HtL7, HtB7⟩
  sl_exec
  ihave Fw11 := (foldc_wA3 (F := F) m d L hin k (m (oLoc d)) _ _ (read_whole_same (F := F) cc0_scratch6 _) (by decide)) $$ [Hs11 mr3]
  · isplitl [Hs11]; · iexact Hs11
    iexact mr3
  ihave Fw15 := (foldc_wB3 (F := F) m d L hin k (m (oLoc d)) _ _ (read_whole_same (F := F) cc0_scratch10 _) (by decide)) $$ [Hs15 nr3]
  · isplitl [Hs15]; · iexact Hs15
    iexact nr3
  rw [wp_ret]; imodintro
  have hk' : k.val + 1 < 32 := by omega
  rw [dif_pos hk', dif_neg (show ¬ k.val + 1 = 0 by omega)]
  isplitr; · ipureintro; omega
  isplitr; · iexact Hlv
  isplitl [HO]
  · iexists _
    isplitr
    rotate_left
    · iexact HO
    ipureintro
    exact waits_chain (waits_ins rfl (waits_ins rfl (waits_ins rfl (waits_ins rfl (fun p hp => Or.inl hp))))) (waits_chain hW3 (waits_chain hW2 (waits_chain hW1 hW')))
  isplitl [Fg0n]; · iexact Fg0n
  isplitl [Fg4n]; · iexact Fg4n
  isplitl [Fg1n]; · iexact Fg1n
  isplitl [Fg5n]; · iexact Fg5n
  isplitl [Fw10 Fw14 Fw11 Fw15]
  · isplitl [Fw10]; · iexact Fw10
    isplitl [Fw14]; · iexact Fw14
    isplitl [Fw11]; · iexact Fw11
    iexact Fw15
  isplitl [Hs2]; · iexact Hs2
  isplitl [Hs3]; · iexact Hs3
  isplitl [Hs6]; · iexact Hs6
  isplitl [Hs7]; · iexact Hs7
  isplitl [Hs8]; · iexact Hs8
  isplitl [Hs9]; · iexact Hs9
  isplitl [Hs12]; · iexact Hs12
  isplitl [Hs13]; · iexact Hs13
  isplitl [HtL2]; · iexact HtL2
  isplitl [HtL3]; · iexact HtL3
  isplitl [HtL6]; · iexact HtL6
  isplitl [HtL7]; · iexact HtL7
  isplitl [HtA2]; · iexact HtA2
  isplitl [HtA3]; · iexact HtA3
  isplitl [HtB6]; · iexact HtB6
  isplitl [HtB7]; · iexact HtB7
  isplitl [Hd01 yA0 yB0 yA1 yB1]
  · rw [done01_put, P01_def]
    isplitr [Hd01]
    · isplitl [yA0]; · iexact yA0
      isplitl [yB0]; · iexact yB0
      isplitl [yA1]; · iexact yA1
      iexact yB1
    · iexact Hd01
  isplitl [Hd23 xA2 xB2 xA3 xB3]
  · rw [done23_put k hk1 (by have := k.isLt; omega), P23_def]
    isplitr [Hd23]
    · isplitl [xA2]; · iexact xA2
      isplitl [xB2]; · iexact xB2
      isplitl [xA3]; · iexact xA3
      iexact xB3
    · iexact Hd23
  iexact Htodo

/-- One trip of the task's loop: the loop's region carries the invariant from `k` to `k + 1`. -/
theorem trip_step (hin : HIN m d L) (O : CellTallies nD τ sig (HIx 1)) (W₀ : Waits sig (HIx 1)) (hO : ∀ g, O g none = 0) (v2 : BitVec 32)
    (k : Fin k0_t1_loop.trips) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have hk : k.val < 32 := Nat.lt_of_lt_of_eq k.isLt geom_trips_eq
  by_cases h0 : k.val = 0
  · exact trip_first m d L hin O W₀ hO v2 k h0 acc
  by_cases h31 : k.val = 31
  · exact trip_last m d L hin O W₀ hO v2 k h31 acc
  exact trip_mid m d L hin O W₀ hO v2 k (by omega) (by omega) acc

end Cert.Proof.KI

end
-- ==== Proof.KI.TileLemmas.lean ====
/-
  What the three cases of a tile's task share: what crosses the barrier for a tile that fills nothing and what every
  tile collects there, the list buffer in the tile's own naming (to set a read token aside from the symbolic run), and
  the four gathers of rows 0 and 1 folded, each with what it left beside it, into what it delivers.
-/
import proofs.«203043_g45337674776592_cont_8to1_c_201_37_alg».proof.Proof.KI.BodyDefs
import proofs.«203043_g45337674776592_cont_8to1_c_201_37_alg».proof.Proof.KI.Tokens
import proofs.«203043_g45337674776592_cont_8to1_c_201_37_alg».proof.Proof.KI.FlightFrame
import proofs.«203043_g45337674776592_cont_8to1_c_201_37_alg».proof.Proof.KI.BodyValue
import proofs.«203043_g45337674776592_cont_8to1_c_201_37_alg».proof.Proof.KI.Epilogue
import proofs.«203043_g45337674776592_cont_8to1_c_201_37_alg».proof.Proof.KI.Fill
import proofs.«203043_g45337674776592_cont_8to1_c_201_37_alg».proof.Proof.KI.Trip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

/-- A tile other than 0 and 1 hands nothing over at the barrier. -/
theorem pays_none (hs0 : (L 1).val ≠ 0) (hs1 : (L 1).val ≠ 1) :
    (iprop(emp) : sProp 𝕄) ⊢ (bigSep Finset.univ fun j : Fin (grid0.bound 1) => (bRd (F := F) m).payload (bcell d (cV L) (j.castLE hsub0)) 0 (jV L).val : sProp 𝕄) := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from
      bigSep_congr fun j _ => by
        show bPay m (bcell d (cV L) (j.castLE hsub0)) (jV L).val = _
        unfold bPay; dsimp only
        rw [if_neg (show ¬ (jV L).val = 0 from hs0), if_neg (show ¬ (jV L).val = 1 from hs1)], bigSep_emp']

/-- After the barrier, what a tile's own round collected holds its shares of the two shared buffers. -/
theorem pays_elim : (bigSep ((bRd (F := F) m).duties (bcell d (cV L) (jV L)) 0 \ ∅) fun n => (bRd (F := F) m).payload (bcell d (cV L) (jV L)) 0 n)
    ⊢ (iprop((shALoc d (cV L) ↦{sq (jL L)} tblA m d (cV L)) ∗ (shBLoc d (cV L) ↦{sq (jL L)} tblB m d (cV L))) : sProp 𝕄) := by
  rw [Finset.sdiff_empty, bRd_duties₀]
  have h0 : (0 : ℕ) ∈ (Finset.univ : Finset (Fin τ.nSub)).image Fin.val := Finset.mem_image.mpr ⟨⟨0, by decide⟩, Finset.mem_univ _, rfl⟩
  have h1 : (1 : ℕ) ∈ ((Finset.univ : Finset (Fin τ.nSub)).image Fin.val).erase 0 :=
    Finset.mem_erase.mpr ⟨by decide, Finset.mem_image.mpr ⟨⟨1, by decide⟩, Finset.mem_univ _, rfl⟩⟩
  rw [SparseCore.bigSep_erase' h0, SparseCore.bigSep_erase' h1]
  iintro ⟨HA, HB, -⟩
  isplitl [HA]
  · iapply (show ((bRd (F := F) m).payload (bcell d (cV L) (jV L)) 0 0 : sProp 𝕄) ⊢ (shALoc d (cV L) ↦{sq (jL L)} tblA m d (cV L) : sProp 𝕄) from by
      show bPay m (bcell d (cV L) (jV L)) 0 ⊢ _
      unfold bPay; dsimp only; rw [if_pos rfl]; exact BI.Entails.refl _)
    iexact HA
  · iapply (show ((bRd (F := F) m).payload (bcell d (cV L) (jV L)) 0 1 : sProp 𝕄) ⊢ (shBLoc d (cV L) ↦{sq (jL L)} tblB m d (cV L) : sProp 𝕄) from by
      show bPay m (bcell d (cV L) (jV L)) 1 ⊢ _
      unfold bPay; dsimp only; rw [if_neg (by decide), if_pos rfl]; exact BI.Entails.refl _)
    iexact HB

/-- Binding a returned value is applying the continuation. -/
theorem prog_ret_bind {E : Type → Type} {α β : Type} (a : α) (k : α → Prog E β) : (Prog.ret a).bind k = k a := rfl

omit [FloatOps F] in
/-- The list buffer at any elements and share, in the tile's own naming of it (which the symbolic run does not read). -/
theorem sV_loc (S : Finset (Idx ((V d (cV L) (jV L)).loc cc0_scratch0))) (q : PosShare TreeShare) (f : Buf (Elt F) ((V d (cV L) (jV L)).loc cc0_scratch0)) :
    ((sV).view.loc (V d (cV L) (jV L)) ↦[S]{q} f : sProp 𝕄) = (V d (cV L) (jV L)).loc cc0_scratch0 ↦[S]{q} f := rfl

/-- The gather of a list row into row buffer A0, as the run leaves it (the flight's delivery and the three rests beside it), is the clean delivery. -/
theorem fold_A0 (hin : HIN m d L) (f : Buf (Elt F) ((V d (cV L) (jV L)).loc cc0_scratch3)) (j : ℕ) (hj : j < 128) (off : Fin 2 → ℕ)
    (hoff : ∀ a, off a + S1x100.size a ≤ S128x100.size a) (ho : off = offR j) :
    iprop(iprop((((rA0).view.loc (V d (cV L) (jV L)) ↦[(rA0).view.set]{fullShare} (rA0).view.writes (Elt F) f [⟨Rect.whole cc0_scratch3.ty.shape, gPayA m d L hin off hoff⟩])
          ∗ ((sV).view.loc (V d (cV L) (jV L)) ↦[(lRowK off hoff).view.set]{tokL 0} lst m d L))
        ∗ ((aV).view.loc (V d (cV L) (jV L)) ↦[(aSl).view.set]{tokT L 0} tblA m d (cV L)))
      ∗ iprop(((rA0).view.loc (V d (cV L) (jV L)) ↦[Finset.univ \ (rA0).view.set]{fullShare} (rA0).view.writes (Elt F) f [⟨Rect.whole cc0_scratch3.ty.shape, gPayA m d L hin off hoff⟩])
        ∗ ((sV).view.loc (V d (cV L) (jV L)) ↦[Finset.univ \ (lRowK off hoff).view.set]{tokL 0} lst m d L)
        ∗ ((aV).view.loc (V d (cV L) (jV L)) ↦[Finset.univ \ (aSl).view.set]{tokT L 0} tblA m d (cV L))))
      ⊢ gDelA0 m d L j hj hin := by
  subst ho
  unfold gDelA0
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch3 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption
/-- The gather of a list row into row buffer B0, as the run leaves it (the flight's delivery and the three rests beside it), is the clean delivery. -/
theorem fold_B0 (hin : HIN m d L) (f : Buf (Elt F) ((V d (cV L) (jV L)).loc cc0_scratch7)) (j : ℕ) (hj : j < 128) (off : Fin 2 → ℕ)
    (hoff : ∀ a, off a + S1x100.size a ≤ S128x100.size a) (ho : off = offR j) :
    iprop(iprop((((rB0).view.loc (V d (cV L) (jV L)) ↦[(rB0).view.set]{fullShare} (rB0).view.writes (Elt F) f [⟨Rect.whole cc0_scratch7.ty.shape, gPayB m d L hin off hoff⟩])
          ∗ ((sV).view.loc (V d (cV L) (jV L)) ↦[(lRowK off hoff).view.set]{tokL 4} lst m d L))
        ∗ ((bV).view.loc (V d (cV L) (jV L)) ↦[(bSl).view.set]{tokT L 4} tblB m d (cV L)))
      ∗ iprop(((rB0).view.loc (V d (cV L) (jV L)) ↦[Finset.univ \ (rB0).view.set]{fullShare} (rB0).view.writes (Elt F) f [⟨Rect.whole cc0_scratch7.ty.shape, gPayB m d L hin off hoff⟩])
        ∗ ((sV).view.loc (V d (cV L) (jV L)) ↦[Finset.univ \ (lRowK off hoff).view.set]{tokL 4} lst m d L)
        ∗ ((bV).view.loc (V d (cV L) (jV L)) ↦[Finset.univ \ (bSl).view.set]{tokT L 4} tblB m d (cV L))))
      ⊢ gDelB0 m d L j hj hin := by
  subst ho
  unfold gDelB0
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch7 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption
/-- The gather of a list row into row buffer A1, as the run leaves it (the flight's delivery and the three rests beside it), is the clean delivery. -/
theorem fold_A1 (hin : HIN m d L) (f : Buf (Elt F) ((V d (cV L) (jV L)).loc cc0_scratch4)) (j : ℕ) (hj : j < 128) (off : Fin 2 → ℕ)
    (hoff : ∀ a, off a + S1x100.size a ≤ S128x100.size a) (ho : off = offR j) :
    iprop(iprop((((rA1).view.loc (V d (cV L) (jV L)) ↦[(rA1).view.set]{fullShare} (rA1).view.writes (Elt F) f [⟨Rect.whole cc0_scratch4.ty.shape, gPayA m d L hin off hoff⟩])
          ∗ ((sV).view.loc (V d (cV L) (jV L)) ↦[(lRowK off hoff).view.set]{tokL 1} lst m d L))
        ∗ ((aV).view.loc (V d (cV L) (jV L)) ↦[(aSl).view.set]{tokT L 1} tblA m d (cV L)))
      ∗ iprop(((rA1).view.loc (V d (cV L) (jV L)) ↦[Finset.univ \ (rA1).view.set]{fullShare} (rA1).view.writes (Elt F) f [⟨Rect.whole cc0_scratch4.ty.shape, gPayA m d L hin off hoff⟩])
        ∗ ((sV).view.loc (V d (cV L) (jV L)) ↦[Finset.univ \ (lRowK off hoff).view.set]{tokL 1} lst m d L)
        ∗ ((aV).view.loc (V d (cV L) (jV L)) ↦[Finset.univ \ (aSl).view.set]{tokT L 1} tblA m d (cV L))))
      ⊢ gDelA1 m d L j hj hin := by
  subst ho
  unfold gDelA1
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch4 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption
/-- The gather of a list row into row buffer B1, as the run leaves it (the flight's delivery and the three rests beside it), is the clean delivery. -/
theorem fold_B1 (hin : HIN m d L) (f : Buf (Elt F) ((V d (cV L) (jV L)).loc cc0_scratch8)) (j : ℕ) (hj : j < 128) (off : Fin 2 → ℕ)
    (hoff : ∀ a, off a + S1x100.size a ≤ S128x100.size a) (ho : off = offR j) :
    iprop(iprop((((rB1).view.loc (V d (cV L) (jV L)) ↦[(rB1).view.set]{fullShare} (rB1).view.writes (Elt F) f [⟨Rect.whole cc0_scratch8.ty.shape, gPayB m d L hin off hoff⟩])
          ∗ ((sV).view.loc (V d (cV L) (jV L)) ↦[(lRowK off hoff).view.set]{tokL 5} lst m d L))
        ∗ ((bV).view.loc (V d (cV L) (jV L)) ↦[(bSl).view.set]{tokT L 5} tblB m d (cV L)))
      ∗ iprop(((rB1).view.loc (V d (cV L) (jV L)) ↦[Finset.univ \ (rB1).view.set]{fullShare} (rB1).view.writes (Elt F) f [⟨Rect.whole cc0_scratch8.ty.shape, gPayB m d L hin off hoff⟩])
        ∗ ((sV).view.loc (V d (cV L) (jV L)) ↦[Finset.univ \ (lRowK off hoff).view.set]{tokL 5} lst m d L)
        ∗ ((bV).view.loc (V d (cV L) (jV L)) ↦[Finset.univ \ (bSl).view.set]{tokT L 5} tblB m d (cV L))))
      ⊢ gDelB1 m d L j hj hin := by
  subst ho
  unfold gDelB1
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch8 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption

end Cert.Proof.KI

end
-- ==== Proof.KI.TileOther.lean ====
/-
  The task of a subcore that fills nothing (subcore ≥ 2): the fetch of its block of row numbers; the barrier, where it
  collects its shares of the two shared buffers; the read tokens; the gathers of rows 0 and 1; the loop by its
  invariant; the eight final waits; and everything handed back — the half-rows at `outF`, the shares rejoined, the
  tile's own buffers and cells as it found them.
-/
import proofs.«203043_g45337674776592_cont_8to1_c_201_37_alg».proof.Proof.KI.TileLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

set_option maxHeartbeats 16000000 in
/-- The task of a subcore that fills nothing (s ≥ 2). -/
theorem tile_other (hF : (K (F := F)).Facts) (hpre : PreOK m) (hs0 : (L 1).val ≠ 0) (hs1 : (L 1).val ≠ 1)
    (O : CellTallies nD τ sig (HIx 1)) (W : Waits sig (HIx 1)) (hO : ∀ g, O g none = 0)
    (hOlev : ∀ g ι, 0 < O g ι → 8 * (0 : Fin 1).val + 6 ≤ (K (F := F)).lev g ι) (w : Fin 32) :
    iprop(levAts (K (F := F)).L (K (F := F)).lev ∗ bkit m d (cV L) (jV L)
        ∗ ((iLoc d ↦{wq w} idx3 m d) ∗ oPieces d L (m (oLoc d)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          fun _ => iprop(((iLoc d ↦{wq w} idx3 m d) ∗ oPieces d L (outF m d)
              ∗ (shALoc d (cV L) ↦{sq (jL L)} tblA m d (cV L)) ∗ (shBLoc d (cV L) ↦{sq (jL L)} tblB m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hin : HIN m d L := hin_of_pre m d L hpre
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Hop⟩, ⟨⟨%fsV, Hs⟩, ⟨%frA0, Hra0⟩, ⟨%frA1, Hra1⟩, ⟨%frA2, Hra2⟩, ⟨%frA3, Hra3⟩, ⟨%frB0, Hrb0⟩, ⟨%frB1, Hrb1⟩, ⟨%frB2, Hrb2⟩, ⟨%frB3, Hrb3⟩, Hbufs⟩, ⟨Hc0, Hc1, Hc2, Hc3, Hc4, Hc5, Hc6, Hc7, Hc8, Hc9, Hc10, Hc11, Hc12, Hc13, Hc14, Hc15, Hc16, Hc17, Hc18, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hs' := (Entails.of_eq (pts_sV (F := F) d L _ _).symm) $$ Hs
  ihave Hra0' := (Entails.of_eq (pts_rA0 (F := F) d L _ _).symm) $$ Hra0
  ihave Hra1' := (Entails.of_eq (pts_rA1 (F := F) d L _ _).symm) $$ Hra1
  ihave Hra2' := (Entails.of_eq (pts_rA2 (F := F) d L _ _).symm) $$ Hra2
  ihave Hra3' := (Entails.of_eq (pts_rA3 (F := F) d L _ _).symm) $$ Hra3
  ihave Hrb0' := (Entails.of_eq (pts_rB0 (F := F) d L _ _).symm) $$ Hrb0
  ihave Hrb1' := (Entails.of_eq (pts_rB1 (F := F) d L _ _).symm) $$ Hrb1
  ihave Hrb2' := (Entails.of_eq (pts_rB2 (F := F) d L _ _).symm) $$ Hrb2
  ihave Hrb3' := (Entails.of_eq (pts_rB3 (F := F) d L _ _).symm) $$ Hrb3
  have hc0 := cond0_false (L 1) hs0
  have hc1 := cond1_false (L 1) hs1
  sl_exec
  ihave Hpays := (pays_none (F := F) m d L hs0 hs1) $$ []
  · iempintro
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hab := (pays_elim (F := F) m d L) $$ Hgot
  icases Hab with ⟨HtA, HtB⟩
  ihave HtA' := (Entails.of_eq (pts_aV (F := F) d L _ _).symm) $$ HtA
  ihave HtB' := (Entails.of_eq (pts_bV (F := F) d L _ _).symm) $$ HtB
  -- the list buffer at the fetched block, whatever it held
  ihave Hl := (Entails.of_eq (show ((sV).view.loc (V d (cV L) (jV L)) ↦{fullShare} View.write (Elt F) (sV).view fsV (tile_other.sl.dma0 m d L) Finset.univ : sProp 𝕄)
      = ((sV).view.loc (V d (cV L) (jV L)) ↦{fullShare} lst m d L) from by rw [View.write_whole_univ]; rfl)) $$ Hs'
  -- read tokens: eight of the list buffer, eight of each shared buffer (cells 0 … 3 read tbl_a, 4 … 7 tbl_b)
  ihave Hl8 := (toks8_split (F := F) (ℓ := (sV).view.loc (V d (cV L) (jV L))) fullShare (lst m d L)) $$ Hl
  icases Hl8 with ⟨HLr, HL0, HL1, HL2, HL3, HL4, HL5, HL6, HL7⟩
  ihave HA8 := (toks8_split (F := F) (ℓ := (aV).view.loc (V d (cV L) (jV L))) (sq (jL L)) (tblA m d (cV L))) $$ HtA'
  icases HA8 with ⟨HAr, HA0, HA1, HA2, HA3, HA4, HA5, HA6, HA7⟩
  ihave HB8 := (toks8_split (F := F) (ℓ := (bV).view.loc (V d (cV L) (jV L))) (sq (jL L)) (tblB m d (cV L))) $$ HtB'
  icases HB8 with ⟨HBr, HB0, HB1, HB2, HB3, HB4, HB5, HB6, HB7⟩
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  -- rows 0 and 1: each row's two gathers read the list through the two tokens of their cells; the others are set aside
  ihave HLrh := (Entails.of_eq (sV_loc (F := F) d L _ _ _)) $$ HLr
  ihave HL1h := (Entails.of_eq (sV_loc (F := F) d L _ _ _)) $$ HL1
  ihave HL2h := (Entails.of_eq (sV_loc (F := F) d L _ _ _)) $$ HL2
  ihave HL3h := (Entails.of_eq (sV_loc (F := F) d L _ _ _)) $$ HL3
  ihave HL5h := (Entails.of_eq (sV_loc (F := F) d L _ _ _)) $$ HL5
  ihave HL6h := (Entails.of_eq (sV_loc (F := F) d L _ _ _)) $$ HL6
  ihave HL7h := (Entails.of_eq (sV_loc (F := F) d L _ _ _)) $$ HL7
  set_option sl_exec.maxSteps 2 in sl_exec
  -- row 1: tokens 1 and 5; what is left of tokens 0 and 4 is set aside
  ihave HL0h := (Entails.of_eq (sV_loc (F := F) d L _ _ _)) $$ HL0
  ihave HL4h := (Entails.of_eq (sV_loc (F := F) d L _ _ _)) $$ HL4
  ihave HL1 := (Entails.of_eq (sV_loc (F := F) d L _ _ _).symm) $$ HL1h
  ihave HL5 := (Entails.of_eq (sV_loc (F := F) d L _ _ _).symm) $$ HL5h
  sl_exec
  -- everything back in sight
  ihave HL0 := (Entails.of_eq (sV_loc (F := F) d L _ _ _).symm) $$ HL0h
  ihave HL4 := (Entails.of_eq (sV_loc (F := F) d L _ _ _).symm) $$ HL4h
  ihave HL2 := (Entails.of_eq (sV_loc (F := F) d L _ _ _).symm) $$ HL2h
  ihave HL3 := (Entails.of_eq (sV_loc (F := F) d L _ _ _).symm) $$ HL3h
  ihave HL6 := (Entails.of_eq (sV_loc (F := F) d L _ _ _).symm) $$ HL6h
  ihave HL7 := (Entails.of_eq (sV_loc (F := F) d L _ _ _).symm) $$ HL7h
  ihave HLr := (Entails.of_eq (sV_loc (F := F) d L _ _ _).symm) $$ HLrh
  -- the four gathers in flight, each folded with what it left beside it
  ihave Hf0 := (Flight_frame (F := F) (fold_A0 m d L hin frA0 (4 * 0) (by omega) ![0, 0] inb_S128x100_S1x100_0_0 rfl)) $$ [Hc0 Hra0' HL0 HA0]
  · isplitl [Hc0]; · iexact Hc0
    isplitl [Hra0']; · iexact Hra0'
    isplitl [HL0] <;> iassumption
  ihave Hf4 := (Flight_frame (F := F) (fold_B0 m d L hin frB0 (4 * 0) (by omega) ![0, 0] inb_S128x100_S1x100_0_0 rfl)) $$ [Hc4 Hrb0' HL4 HB4]
  · isplitl [Hc4]; · iexact Hc4
    isplitl [Hrb0']; · iexact Hrb0'
    isplitl [HL4] <;> iassumption
  ihave Hf1 := (Flight_frame (F := F) (fold_A1 m d L hin frA1 (4 * 0 + 1) (by omega) ![1, 0] inb_S128x100_S1x100_1_0 rfl)) $$ [Hc1 Hra1' HL1 HA1]
  · isplitl [Hc1]; · iexact Hc1
    isplitl [Hra1']; · iexact Hra1'
    isplitl [HL1] <;> iassumption
  ihave Hf5 := (Flight_frame (F := F) (fold_B1 m d L hin frB1 (4 * 0 + 1) (by omega) ![1, 0] inb_S128x100_S1x100_1_0 rfl)) $$ [Hc5 Hrb1' HL5 HB5]
  · isplitl [Hc5]; · iexact Hc5
    isplitl [Hrb1']; · iexact Hrb1'
    isplitl [HL5] <;> iassumption
  sl_for (Inv m d L hin O W) $$ [HO Hf0 Hf4 Hf1 Hf5 Hra2' Hrb2' Hra3' Hrb3' Hc10 Hc14 Hc11 Hc15 Hc2 Hc3 Hc6 Hc7 Hc8 Hc9 Hc12 Hc13 HL2 HL3 HL6 HL7 HA2 HA3 HB6 HB7 Hop]
  · intro k acc
    exact trip_step m d L hin O W hO _ k acc
  · -- before the first trip
    unfold Inv
    isplitr; · ipureintro; omega
    isplitr; · iexact Hlv
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      exact .inl hp
    rw [dif_pos (by decide : (0 : ℕ) < 32)]
    unfold invMid slots23
    rw [dif_pos rfl]
    rw [show (Finset.univ.filter fun t : Fin k0_t1_loop.trips => t.val < 0) = ∅ from Finset.filter_false_of_mem (fun t _ => Nat.not_lt_zero _),
      show (Finset.univ.filter fun t : Fin k0_t1_loop.trips => t.val + 1 < 0) = ∅ from Finset.filter_false_of_mem (fun t _ => Nat.not_lt_zero _),
      bigSep_empty, bigSep_empty]
    isplitl [Hf0]; · iexact Hf0
    isplitl [Hf4]; · iexact Hf4
    isplitl [Hf1]; · iexact Hf1
    isplitl [Hf5]; · iexact Hf5
    isplitl [Hra2' Hrb2' Hra3' Hrb3' Hc10 Hc14 Hc11 Hc15]
    · isplitl [Hra2']; · iexists _; iexact Hra2'
      isplitl [Hrb2']; · iexists _; iexact Hrb2'
      isplitl [Hra3']; · iexists _; iexact Hra3'
      isplitl [Hrb3']; · iexists _; iexact Hrb3'
      isplitl [Hc10]; · iexact Hc10
      isplitl [Hc14]; · iexact Hc14
      isplitl [Hc11]; · iexact Hc11
      iexact Hc15
    isplitl [Hc2]; · iexact Hc2
    isplitl [Hc3]; · iexact Hc3
    isplitl [Hc6]; · iexact Hc6
    isplitl [Hc7]; · iexact Hc7
    isplitl [Hc8]; · iexact Hc8
    isplitl [Hc9]; · iexact Hc9
    isplitl [Hc12]; · iexact Hc12
    isplitl [Hc13]; · iexact Hc13
    isplitl [HL2]; · iexact HL2
    isplitl [HL3]; · iexact HL3
    isplitl [HL6]; · iexact HL6
    isplitl [HL7]; · iexact HL7
    isplitl [HA2]; · iexact HA2
    isplitl [HA3]; · iexact HA3
    isplitl [HB6]; · iexact HB6
    isplitl [HB7]; · iexact HB7
    isplitr; · iempintro
    isplitr; · iempintro
    iapply (trips_of_pieces (F := F) d L (m (oLoc d)))
    iexact Hop
  -- after the last trip: the eight writes of rows 124 … 127 are waited for
  iintro %acc HI
  ihave HE := (show Inv m d L hin O W (Scf.trips k0_t1_loop.lb k0_t1_loop.ub k0_t1_loop.st) acc ⊢
      iprop((∃ W', ⌜∀ p ∈ W', p ∈ W ∨ p.2 = none ∨ p.2 = some (0 : Fin 1)⌝ ∗ owes (V d (cV L) (jV L)) O W') ∗ invEnd m d L (by rw [geom_trips_eq]; decide)) from by
    rw [show Scf.trips k0_t1_loop.lb k0_t1_loop.ub k0_t1_loop.st = 32 from geom_trips_eq]
    unfold Inv
    rw [dif_neg (by decide : ¬ (32 : ℕ) < 32)]
    iintro ⟨-, -, HO, HE⟩
    isplitl [HO] <;> iassumption) $$ HI
  unfold invEnd
  icases HE with ⟨⟨%W', %hW', HO⟩, HF8, HF12, HF9, HF13, HF10, HF14, HF11, HF15, Hg0, Hg1, Hg2, Hg3, Hg4, Hg5, Hg6, Hg7, HT0, HT1, HT2, HT3, HT4, HT5, HT6, HT7, HTA0, HTA1, HTA2, HTA3, HTB4, HTB5, HTB6, HTB7, Hdone⟩
  ihave Hmw8 := (Transfers.MayWaits.elim (SemLoc.dma (⟨8, by decide⟩ : DmaSem sig))) $$ Hmw2
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  try rw [prog_ret_bind]
  first | sl_exec | skip
  ihave Hmw12 := (Transfers.MayWaits.elim (SemLoc.dma (⟨12, by decide⟩ : DmaSem sig))) $$ Hmw2
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  try rw [prog_ret_bind]
  first | sl_exec | skip
  ihave Hmw9 := (Transfers.MayWaits.elim (SemLoc.dma (⟨9, by decide⟩ : DmaSem sig))) $$ Hmw2
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  try rw [prog_ret_bind]
  first | sl_exec | skip
  ihave Hmw13 := (Transfers.MayWaits.elim (SemLoc.dma (⟨13, by decide⟩ : DmaSem sig))) $$ Hmw2
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  try rw [prog_ret_bind]
  first | sl_exec | skip
  ihave Hmw10 := (Transfers.MayWaits.elim (SemLoc.dma (⟨10, by decide⟩ : DmaSem sig))) $$ Hmw2
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  try rw [prog_ret_bind]
  first | sl_exec | skip
  ihave Hmw14 := (Transfers.MayWaits.elim (SemLoc.dma (⟨14, by decide⟩ : DmaSem sig))) $$ Hmw2
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  try rw [prog_ret_bind]
  first | sl_exec | skip
  ihave Hmw11 := (Transfers.MayWaits.elim (SemLoc.dma (⟨11, by decide⟩ : DmaSem sig))) $$ Hmw2
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  try rw [prog_ret_bind]
  first | sl_exec | skip
  ihave Hmw15 := (Transfers.MayWaits.elim (SemLoc.dma (⟨15, by decide⟩ : DmaSem sig))) $$ Hmw2
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  try rw [prog_ret_bind]
  first | sl_exec | skip
  rw [wp_ret]; imodintro
  -- every half-row done; the row buffers back
  ihave Hp := (pieces_of_dels (F := F) m d L (by rw [geom_trips_eq]; decide)) $$ [HD8 HD12 HD9 HD13 HD10 HD14 HD11 HD15 Hdone]
  · isplitl [HD8]; · iexact HD8
    isplitl [HD12]; · iexact HD12
    isplitl [HD9]; · iexact HD9
    isplitl [HD13]; · iexact HD13
    isplitl [HD10]; · iexact HD10
    isplitl [HD14]; · iexact HD14
    isplitl [HD11]; · iexact HD11
    isplitl [HD15]; · iexact HD15
    iexact Hdone
  icases Hp with ⟨Hpieces, HbA0, HbB0, HbA1, HbB1, HbA2, HbB2, HbA3, HbB3⟩
  -- the read tokens rejoined
  ihave HsV := (lst_toks_join (F := F) m d L) $$ [HLr HT0 HT1 HT2 HT3 HT4 HT5 HT6 HT7]
  · isplitl [HLr]; · iexact HLr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HaV := (tblA_toks_join (F := F) m d L) $$ [HAr HTA0 HTA1 HTA2 HTA3 HA4 HA5 HA6 HA7]
  · isplitl [HAr]; · iexact HAr
    isplitl [HTA0]; · iexact HTA0
    isplitl [HTA1]; · iexact HTA1
    isplitl [HTA2]; · iexact HTA2
    isplitl [HTA3]; · iexact HTA3
    isplitl [HA4]; · iexact HA4
    isplitl [HA5]; · iexact HA5
    isplitl [HA6]; · iexact HA6
    iexact HA7
  ihave HbV := (tblB_toks_join (F := F) m d L) $$ [HBr HB0 HB1 HB2 HB3 HTB4 HTB5 HTB6 HTB7]
  · isplitl [HBr]; · iexact HBr
    isplitl [HB0]; · iexact HB0
    isplitl [HB1]; · iexact HB1
    isplitl [HB2]; · iexact HB2
    isplitl [HB3]; · iexact HB3
    isplitl [HTB4]; · iexact HTB4
    isplitl [HTB5]; · iexact HTB5
    isplitl [HTB6]; · iexact HTB6
    iexact HTB7
  isplitl [Hi' Hpieces HaV HbV]
  · isplitl [Hi']; · iapply (Entails.of_eq (pts_iV (F := F) d L _ _)); iexact Hi'
    isplitl [Hpieces]; · iexact Hpieces
    isplitl [HaV]; · iapply (Entails.of_eq (pts_aV (F := F) d L _ _)); iexact HaV
    iapply (Entails.of_eq (pts_bV (F := F) d L _ _)); iexact HbV
  isplitl [HsV HbA0 HbA1 HbA2 HbA3 HbB0 HbB1 HbB2 HbB3 Hbufs]
  · isplitl [HsV]; · iexists _; iapply (Entails.of_eq (pts_sV (F := F) d L _ _)); iexact HsV
    isplitl [HbA0]; · iexact HbA0
    isplitl [HbA1]; · iexact HbA1
    isplitl [HbA2]; · iexact HbA2
    isplitl [HbA3]; · iexact HbA3
    isplitl [HbB0]; · iexact HbB0
    isplitl [HbB1]; · iexact HbB1
    isplitl [HbB2]; · iexact HbB2
    isplitl [HbB3]; · iexact HbB3
    iexact Hbufs
  isplitl [Hg0 Hg1 Hg2 Hg3 Hg4 Hg5 Hg6 Hg7 Hv8 Hv9 Hv10 Hv11 Hv12 Hv13 Hv14 Hv15 Hc16 Hc17 Hc18 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hc16]; · iexact Hc16
    isplitl [Hc17]; · iexact Hc17
    isplitl [Hc18]; · iexact Hc18
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

end Cert.Proof.KI

end
-- ==== Proof.KI.TileZero.lean ====
/-
  The task of subcore 0, which fills the shared buffer of the padded table's left half: its copy of that half over the
  shared buffer, through a read share of the table; the fetch of its block of row numbers; the barrier, where it hands
  the shared buffer over in sixteen shares and collects its own shares of the two shared buffers; the read tokens; the
  gathers of rows 0 and 1; the loop by its invariant; the eight final waits; and everything handed back — the half-rows
  at `outF`, the table's share, the shares rejoined, the tile's own buffers and cells as it found them.
-/
import proofs.«203043_g45337674776592_cont_8to1_c_201_37_alg».proof.Proof.KI.TileLemmas
import proofs.«203043_g45337674776592_cont_8to1_c_201_37_alg».proof.Proof.KI.Fill

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

set_option maxHeartbeats 16000000 in
/-- The task of subcore 0, which fills the left half's shared buffer. -/
theorem tile_zero (hF : (K (F := F)).Facts) (hpre : PreOK m) (hs : (L 1).val = 0)
    (O : CellTallies nD τ sig (HIx 1)) (W : Waits sig (HIx 1)) (hO : ∀ g, O g none = 0)
    (hOlev : ∀ g ι, 0 < O g ι → 8 * (0 : Fin 1).val + 6 ≤ (K (F := F)).lev g ι) (w : Fin 32) :
    iprop(levAts (K (F := F)).L (K (F := F)).lev ∗ bkit m d (cV L) (jV L)
        ∗ ((iLoc d ↦{wq w} idx3 m d) ∗ oPieces d L (m (oLoc d)) ∗ ((tLoc d ↦{wq w} tblW m d) ∗ ∃ f, shALoc d (cV L) ↦{fullShare} f))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          fun _ => iprop(((iLoc d ↦{wq w} idx3 m d) ∗ oPieces d L (outF m d) ∗ (tLoc d ↦{wq w} tblW m d)
              ∗ (shALoc d (cV L) ↦{sq (jL L)} tblA m d (cV L)) ∗ (shBLoc d (cV L) ↦{sq (jL L)} tblB m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hin : HIN m d L := hin_of_pre m d L hpre
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Hop, Ht, ⟨%fa, Ha⟩⟩, ⟨⟨%fsV, Hs⟩, ⟨%frA0, Hra0⟩, ⟨%frA1, Hra1⟩, ⟨%frA2, Hra2⟩, ⟨%frA3, Hra3⟩, ⟨%frB0, Hrb0⟩, ⟨%frB1, Hrb1⟩, ⟨%frB2, Hrb2⟩, ⟨%frB3, Hrb3⟩, Hbufs⟩, ⟨Hc0, Hc1, Hc2, Hc3, Hc4, Hc5, Hc6, Hc7, Hc8, Hc9, Hc10, Hc11, Hc12, Hc13, Hc14, Hc15, Hc16, Hc17, Hc18, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Ha' := (Entails.of_eq (pts_aV (F := F) d L _ _).symm) $$ Ha
  ihave Hs' := (Entails.of_eq (pts_sV (F := F) d L _ _).symm) $$ Hs
  ihave Hra0' := (Entails.of_eq (pts_rA0 (F := F) d L _ _).symm) $$ Hra0
  ihave Hra1' := (Entails.of_eq (pts_rA1 (F := F) d L _ _).symm) $$ Hra1
  ihave Hra2' := (Entails.of_eq (pts_rA2 (F := F) d L _ _).symm) $$ Hra2
  ihave Hra3' := (Entails.of_eq (pts_rA3 (F := F) d L _ _).symm) $$ Hra3
  ihave Hrb0' := (Entails.of_eq (pts_rB0 (F := F) d L _ _).symm) $$ Hrb0
  ihave Hrb1' := (Entails.of_eq (pts_rB1 (F := F) d L _ _).symm) $$ Hrb1
  ihave Hrb2' := (Entails.of_eq (pts_rB2 (F := F) d L _ _).symm) $$ Hrb2
  ihave Hrb3' := (Entails.of_eq (pts_rB3 (F := F) d L _ _).symm) $$ Hrb3
  have hc0 := cond0_true (L 1) hs
  have hc1 := cond1_false (L 1) (by omega)
  sl_exec
  ihave Hpays := (pays_fillA_run (F := F) m d L hs fa (tile_zero.sl.dma0 m d) rfl) $$ Ha'
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hab := (pays_elim (F := F) m d L) $$ Hgot
  icases Hab with ⟨HtA, HtB⟩
  ihave HtA' := (Entails.of_eq (pts_aV (F := F) d L _ _).symm) $$ HtA
  ihave HtB' := (Entails.of_eq (pts_bV (F := F) d L _ _).symm) $$ HtB
  -- the list buffer at the fetched block, whatever it held
  ihave Hl := (Entails.of_eq (show ((sV).view.loc (V d (cV L) (jV L)) ↦{fullShare} View.write (Elt F) (sV).view fsV (tile_zero.sl.dma0_1 m d L) Finset.univ : sProp 𝕄)
      = ((sV).view.loc (V d (cV L) (jV L)) ↦{fullShare} lst m d L) from by rw [View.write_whole_univ]; rfl)) $$ Hs'
  -- read tokens: eight of the list buffer, eight of each shared buffer (cells 0 … 3 read tbl_a, 4 … 7 tbl_b)
  ihave Hl8 := (toks8_split (F := F) (ℓ := (sV).view.loc (V d (cV L) (jV L))) fullShare (lst m d L)) $$ Hl
  icases Hl8 with ⟨HLr, HL0, HL1, HL2, HL3, HL4, HL5, HL6, HL7⟩
  ihave HA8 := (toks8_split (F := F) (ℓ := (aV).view.loc (V d (cV L) (jV L))) (sq (jL L)) (tblA m d (cV L))) $$ HtA'
  icases HA8 with ⟨HAr, HA0, HA1, HA2, HA3, HA4, HA5, HA6, HA7⟩
  ihave HB8 := (toks8_split (F := F) (ℓ := (bV).view.loc (V d (cV L) (jV L))) (sq (jL L)) (tblB m d (cV L))) $$ HtB'
  icases HB8 with ⟨HBr, HB0, HB1, HB2, HB3, HB4, HB5, HB6, HB7⟩
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  -- rows 0 and 1: each row's two gathers read the list through the two tokens of their cells; the others are set aside
  ihave HLrh := (Entails.of_eq (sV_loc (F := F) d L _ _ _)) $$ HLr
  ihave HL1h := (Entails.of_eq (sV_loc (F := F) d L _ _ _)) $$ HL1
  ihave HL2h := (Entails.of_eq (sV_loc (F := F) d L _ _ _)) $$ HL2
  ihave HL3h := (Entails.of_eq (sV_loc (F := F) d L _ _ _)) $$ HL3
  ihave HL5h := (Entails.of_eq (sV_loc (F := F) d L _ _ _)) $$ HL5
  ihave HL6h := (Entails.of_eq (sV_loc (F := F) d L _ _ _)) $$ HL6
  ihave HL7h := (Entails.of_eq (sV_loc (F := F) d L _ _ _)) $$ HL7
  set_option sl_exec.maxSteps 2 in sl_exec
  -- row 1: tokens 1 and 5; what is left of tokens 0 and 4 is set aside
  ihave HL0h := (Entails.of_eq (sV_loc (F := F) d L _ _ _)) $$ HL0
  ihave HL4h := (Entails.of_eq (sV_loc (F := F) d L _ _ _)) $$ HL4
  ihave HL1 := (Entails.of_eq (sV_loc (F := F) d L _ _ _).symm) $$ HL1h
  ihave HL5 := (Entails.of_eq (sV_loc (F := F) d L _ _ _).symm) $$ HL5h
  sl_exec
  -- everything back in sight
  ihave HL0 := (Entails.of_eq (sV_loc (F := F) d L _ _ _).symm) $$ HL0h
  ihave HL4 := (Entails.of_eq (sV_loc (F := F) d L _ _ _).symm) $$ HL4h
  ihave HL2 := (Entails.of_eq (sV_loc (F := F) d L _ _ _).symm) $$ HL2h
  ihave HL3 := (Entails.of_eq (sV_loc (F := F) d L _ _ _).symm) $$ HL3h
  ihave HL6 := (Entails.of_eq (sV_loc (F := F) d L _ _ _).symm) $$ HL6h
  ihave HL7 := (Entails.of_eq (sV_loc (F := F) d L _ _ _).symm) $$ HL7h
  ihave HLr := (Entails.of_eq (sV_loc (F := F) d L _ _ _).symm) $$ HLrh
  -- the four gathers in flight, each folded with what it left beside it
  ihave Hf0 := (Flight_frame (F := F) (fold_A0 m d L hin frA0 (4 * 0) (by omega) ![0, 0] inb_S128x100_S1x100_0_0 rfl)) $$ [Hc0 Hra0' HL0 HA0]
  · isplitl [Hc0]; · iexact Hc0
    isplitl [Hra0']; · iexact Hra0'
    isplitl [HL0] <;> iassumption
  ihave Hf4 := (Flight_frame (F := F) (fold_B0 m d L hin frB0 (4 * 0) (by omega) ![0, 0] inb_S128x100_S1x100_0_0 rfl)) $$ [Hc4 Hrb0' HL4 HB4]
  · isplitl [Hc4]; · iexact Hc4
    isplitl [Hrb0']; · iexact Hrb0'
    isplitl [HL4] <;> iassumption
  ihave Hf1 := (Flight_frame (F := F) (fold_A1 m d L hin frA1 (4 * 0 + 1) (by omega) ![1, 0] inb_S128x100_S1x100_1_0 rfl)) $$ [Hc1 Hra1' HL1 HA1]
  · isplitl [Hc1]; · iexact Hc1
    isplitl [Hra1']; · iexact Hra1'
    isplitl [HL1] <;> iassumption
  ihave Hf5 := (Flight_frame (F := F) (fold_B1 m d L hin frB1 (4 * 0 + 1) (by omega) ![1, 0] inb_S128x100_S1x100_1_0 rfl)) $$ [Hc5 Hrb1' HL5 HB5]
  · isplitl [Hc5]; · iexact Hc5
    isplitl [Hrb1']; · iexact Hrb1'
    isplitl [HL5] <;> iassumption
  sl_for (Inv m d L hin O W) $$ [HO Hf0 Hf4 Hf1 Hf5 Hra2' Hrb2' Hra3' Hrb3' Hc10 Hc14 Hc11 Hc15 Hc2 Hc3 Hc6 Hc7 Hc8 Hc9 Hc12 Hc13 HL2 HL3 HL6 HL7 HA2 HA3 HB6 HB7 Hop]
  · intro k acc
    exact trip_step m d L hin O W hO _ k acc
  · -- before the first trip
    unfold Inv
    isplitr; · ipureintro; omega
    isplitr; · iexact Hlv
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      exact .inl hp
    rw [dif_pos (by decide : (0 : ℕ) < 32)]
    unfold invMid slots23
    rw [dif_pos rfl]
    rw [show (Finset.univ.filter fun t : Fin k0_t1_loop.trips => t.val < 0) = ∅ from Finset.filter_false_of_mem (fun t _ => Nat.not_lt_zero _),
      show (Finset.univ.filter fun t : Fin k0_t1_loop.trips => t.val + 1 < 0) = ∅ from Finset.filter_false_of_mem (fun t _ => Nat.not_lt_zero _),
      bigSep_empty, bigSep_empty]
    isplitl [Hf0]; · iexact Hf0
    isplitl [Hf4]; · iexact Hf4
    isplitl [Hf1]; · iexact Hf1
    isplitl [Hf5]; · iexact Hf5
    isplitl [Hra2' Hrb2' Hra3' Hrb3' Hc10 Hc14 Hc11 Hc15]
    · isplitl [Hra2']; · iexists _; iexact Hra2'
      isplitl [Hrb2']; · iexists _; iexact Hrb2'
      isplitl [Hra3']; · iexists _; iexact Hra3'
      isplitl [Hrb3']; · iexists _; iexact Hrb3'
      isplitl [Hc10]; · iexact Hc10
      isplitl [Hc14]; · iexact Hc14
      isplitl [Hc11]; · iexact Hc11
      iexact Hc15
    isplitl [Hc2]; · iexact Hc2
    isplitl [Hc3]; · iexact Hc3
    isplitl [Hc6]; · iexact Hc6
    isplitl [Hc7]; · iexact Hc7
    isplitl [Hc8]; · iexact Hc8
    isplitl [Hc9]; · iexact Hc9
    isplitl [Hc12]; · iexact Hc12
    isplitl [Hc13]; · iexact Hc13
    isplitl [HL2]; · iexact HL2
    isplitl [HL3]; · iexact HL3
    isplitl [HL6]; · iexact HL6
    isplitl [HL7]; · iexact HL7
    isplitl [HA2]; · iexact HA2
    isplitl [HA3]; · iexact HA3
    isplitl [HB6]; · iexact HB6
    isplitl [HB7]; · iexact HB7
    isplitr; · iempintro
    isplitr; · iempintro
    iapply (trips_of_pieces (F := F) d L (m (oLoc d)))
    iexact Hop
  -- after the last trip: the eight writes of rows 124 … 127 are waited for
  iintro %acc HI
  ihave HE := (show Inv m d L hin O W (Scf.trips k0_t1_loop.lb k0_t1_loop.ub k0_t1_loop.st) acc ⊢
      iprop((∃ W', ⌜∀ p ∈ W', p ∈ W ∨ p.2 = none ∨ p.2 = some (0 : Fin 1)⌝ ∗ owes (V d (cV L) (jV L)) O W') ∗ invEnd m d L (by rw [geom_trips_eq]; decide)) from by
    rw [show Scf.trips k0_t1_loop.lb k0_t1_loop.ub k0_t1_loop.st = 32 from geom_trips_eq]
    unfold Inv
    rw [dif_neg (by decide : ¬ (32 : ℕ) < 32)]
    iintro ⟨-, -, HO, HE⟩
    isplitl [HO] <;> iassumption) $$ HI
  unfold invEnd
  icases HE with ⟨⟨%W', %hW', HO⟩, HF8, HF12, HF9, HF13, HF10, HF14, HF11, HF15, Hg0, Hg1, Hg2, Hg3, Hg4, Hg5, Hg6, Hg7, HT0, HT1, HT2, HT3, HT4, HT5, HT6, HT7, HTA0, HTA1, HTA2, HTA3, HTB4, HTB5, HTB6, HTB7, Hdone⟩
  ihave Hmw8 := (Transfers.MayWaits.elim (SemLoc.dma (⟨8, by decide⟩ : DmaSem sig))) $$ Hmw2
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  try rw [prog_ret_bind]
  first | sl_exec | skip
  ihave Hmw12 := (Transfers.MayWaits.elim (SemLoc.dma (⟨12, by decide⟩ : DmaSem sig))) $$ Hmw2
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  try rw [prog_ret_bind]
  first | sl_exec | skip
  ihave Hmw9 := (Transfers.MayWaits.elim (SemLoc.dma (⟨9, by decide⟩ : DmaSem sig))) $$ Hmw2
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  try rw [prog_ret_bind]
  first | sl_exec | skip
  ihave Hmw13 := (Transfers.MayWaits.elim (SemLoc.dma (⟨13, by decide⟩ : DmaSem sig))) $$ Hmw2
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  try rw [prog_ret_bind]
  first | sl_exec | skip
  ihave Hmw10 := (Transfers.MayWaits.elim (SemLoc.dma (⟨10, by decide⟩ : DmaSem sig))) $$ Hmw2
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  try rw [prog_ret_bind]
  first | sl_exec | skip
  ihave Hmw14 := (Transfers.MayWaits.elim (SemLoc.dma (⟨14, by decide⟩ : DmaSem sig))) $$ Hmw2
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  try rw [prog_ret_bind]
  first | sl_exec | skip
  ihave Hmw11 := (Transfers.MayWaits.elim (SemLoc.dma (⟨11, by decide⟩ : DmaSem sig))) $$ Hmw2
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  try rw [prog_ret_bind]
  first | sl_exec | skip
  ihave Hmw15 := (Transfers.MayWaits.elim (SemLoc.dma (⟨15, by decide⟩ : DmaSem sig))) $$ Hmw2
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  try rw [prog_ret_bind]
  first | sl_exec | skip
  rw [wp_ret]; imodintro
  -- every half-row done; the row buffers back
  ihave Hp := (pieces_of_dels (F := F) m d L (by rw [geom_trips_eq]; decide)) $$ [HD8 HD12 HD9 HD13 HD10 HD14 HD11 HD15 Hdone]
  · isplitl [HD8]; · iexact HD8
    isplitl [HD12]; · iexact HD12
    isplitl [HD9]; · iexact HD9
    isplitl [HD13]; · iexact HD13
    isplitl [HD10]; · iexact HD10
    isplitl [HD14]; · iexact HD14
    isplitl [HD11]; · iexact HD11
    isplitl [HD15]; · iexact HD15
    iexact Hdone
  icases Hp with ⟨Hpieces, HbA0, HbB0, HbA1, HbB1, HbA2, HbB2, HbA3, HbB3⟩
  -- the read tokens rejoined
  ihave HsV := (lst_toks_join (F := F) m d L) $$ [HLr HT0 HT1 HT2 HT3 HT4 HT5 HT6 HT7]
  · isplitl [HLr]; · iexact HLr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HaV := (tblA_toks_join (F := F) m d L) $$ [HAr HTA0 HTA1 HTA2 HTA3 HA4 HA5 HA6 HA7]
  · isplitl [HAr]; · iexact HAr
    isplitl [HTA0]; · iexact HTA0
    isplitl [HTA1]; · iexact HTA1
    isplitl [HTA2]; · iexact HTA2
    isplitl [HTA3]; · iexact HTA3
    isplitl [HA4]; · iexact HA4
    isplitl [HA5]; · iexact HA5
    isplitl [HA6]; · iexact HA6
    iexact HA7
  ihave HbV := (tblB_toks_join (F := F) m d L) $$ [HBr HB0 HB1 HB2 HB3 HTB4 HTB5 HTB6 HTB7]
  · isplitl [HBr]; · iexact HBr
    isplitl [HB0]; · iexact HB0
    isplitl [HB1]; · iexact HB1
    isplitl [HB2]; · iexact HB2
    isplitl [HB3]; · iexact HB3
    isplitl [HTB4]; · iexact HTB4
    isplitl [HTB5]; · iexact HTB5
    isplitl [HTB6]; · iexact HTB6
    iexact HTB7
  isplitl [Hi' Hpieces Ht' HaV HbV]
  · isplitl [Hi']; · iapply (Entails.of_eq (pts_iV (F := F) d L _ _)); iexact Hi'
    isplitl [Hpieces]; · iexact Hpieces
    isplitl [Ht']; · iapply (Entails.of_eq (pts_tV (F := F) d L _ _)); iexact Ht'
    isplitl [HaV]; · iapply (Entails.of_eq (pts_aV (F := F) d L _ _)); iexact HaV
    iapply (Entails.of_eq (pts_bV (F := F) d L _ _)); iexact HbV
  isplitl [HsV HbA0 HbA1 HbA2 HbA3 HbB0 HbB1 HbB2 HbB3 Hbufs]
  · isplitl [HsV]; · iexists _; iapply (Entails.of_eq (pts_sV (F := F) d L _ _)); iexact HsV
    isplitl [HbA0]; · iexact HbA0
    isplitl [HbA1]; · iexact HbA1
    isplitl [HbA2]; · iexact HbA2
    isplitl [HbA3]; · iexact HbA3
    isplitl [HbB0]; · iexact HbB0
    isplitl [HbB1]; · iexact HbB1
    isplitl [HbB2]; · iexact HbB2
    isplitl [HbB3]; · iexact HbB3
    iexact Hbufs
  isplitl [Hg0 Hg1 Hg2 Hg3 Hg4 Hg5 Hg6 Hg7 Hv8 Hv9 Hv10 Hv11 Hv12 Hv13 Hv14 Hv15 Hc16 Hc17 Hc18 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hc16]; · iexact Hc16
    isplitl [Hc17]; · iexact Hc17
    isplitl [Hc18]; · iexact Hc18
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

end Cert.Proof.KI

end
-- ==== Proof.KI.TileOne.lean ====
/-
  The task of subcore 1, which fills the shared buffer of the padded table's right half: its copy of that half over the
  shared buffer, through a read share of the table; the fetch of its block of row numbers; the barrier, where it hands
  the shared buffer over in sixteen shares and collects its own shares of the two shared buffers; the read tokens; the
  gathers of rows 0 and 1; the loop by its invariant; the eight final waits; and everything handed back — the half-rows
  at `outF`, the table's share, the shares rejoined, the tile's own buffers and cells as it found them.
-/
import proofs.«203043_g45337674776592_cont_8to1_c_201_37_alg».proof.Proof.KI.TileLemmas
import proofs.«203043_g45337674776592_cont_8to1_c_201_37_alg».proof.Proof.KI.Fill

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]
variable (d : Dev nD) (L : grid0.Coords)

set_option maxHeartbeats 16000000 in
/-- The task of subcore 1, which fills the right half's shared buffer. -/
theorem tile_one (hF : (K (F := F)).Facts) (hpre : PreOK m) (hs : (L 1).val = 1)
    (O : CellTallies nD τ sig (HIx 1)) (W : Waits sig (HIx 1)) (hO : ∀ g, O g none = 0)
    (hOlev : ∀ g ι, 0 < O g ι → 8 * (0 : Fin 1).val + 6 ≤ (K (F := F)).lev g ι) (w : Fin 32) :
    iprop(levAts (K (F := F)).L (K (F := F)).lev ∗ bkit m d (cV L) (jV L)
        ∗ ((iLoc d ↦{wq w} idx3 m d) ∗ oPieces d L (m (oLoc d)) ∗ ((tLoc d ↦{wq w} tblW m d) ∗ ∃ f, shBLoc d (cV L) ↦{fullShare} f))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          fun _ => iprop(((iLoc d ↦{wq w} idx3 m d) ∗ oPieces d L (outF m d) ∗ (tLoc d ↦{wq w} tblW m d)
              ∗ (shALoc d (cV L) ↦{sq (jL L)} tblA m d (cV L)) ∗ (shBLoc d (cV L) ↦{sq (jL L)} tblB m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hin : HIN m d L := hin_of_pre m d L hpre
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Hop, Ht, ⟨%fb, Hb⟩⟩, ⟨⟨%fsV, Hs⟩, ⟨%frA0, Hra0⟩, ⟨%frA1, Hra1⟩, ⟨%frA2, Hra2⟩, ⟨%frA3, Hra3⟩, ⟨%frB0, Hrb0⟩, ⟨%frB1, Hrb1⟩, ⟨%frB2, Hrb2⟩, ⟨%frB3, Hrb3⟩, Hbufs⟩, ⟨Hc0, Hc1, Hc2, Hc3, Hc4, Hc5, Hc6, Hc7, Hc8, Hc9, Hc10, Hc11, Hc12, Hc13, Hc14, Hc15, Hc16, Hc17, Hc18, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Hs' := (Entails.of_eq (pts_sV (F := F) d L _ _).symm) $$ Hs
  ihave Hra0' := (Entails.of_eq (pts_rA0 (F := F) d L _ _).symm) $$ Hra0
  ihave Hra1' := (Entails.of_eq (pts_rA1 (F := F) d L _ _).symm) $$ Hra1
  ihave Hra2' := (Entails.of_eq (pts_rA2 (F := F) d L _ _).symm) $$ Hra2
  ihave Hra3' := (Entails.of_eq (pts_rA3 (F := F) d L _ _).symm) $$ Hra3
  ihave Hrb0' := (Entails.of_eq (pts_rB0 (F := F) d L _ _).symm) $$ Hrb0
  ihave Hrb1' := (Entails.of_eq (pts_rB1 (F := F) d L _ _).symm) $$ Hrb1
  ihave Hrb2' := (Entails.of_eq (pts_rB2 (F := F) d L _ _).symm) $$ Hrb2
  ihave Hrb3' := (Entails.of_eq (pts_rB3 (F := F) d L _ _).symm) $$ Hrb3
  have hc0 := cond0_false (L 1) (by omega)
  have hc1 := cond1_true (L 1) hs
  sl_exec
  ihave Hpays := (pays_fillB_run (F := F) m d L hs fb (tile_one.sl.dma0 m d) rfl) $$ Hb'
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hab := (pays_elim (F := F) m d L) $$ Hgot
  icases Hab with ⟨HtA, HtB⟩
  ihave HtA' := (Entails.of_eq (pts_aV (F := F) d L _ _).symm) $$ HtA
  ihave HtB' := (Entails.of_eq (pts_bV (F := F) d L _ _).symm) $$ HtB
  -- the list buffer at the fetched block, whatever it held
  ihave Hl := (Entails.of_eq (show ((sV).view.loc (V d (cV L) (jV L)) ↦{fullShare} View.write (Elt F) (sV).view fsV (tile_one.sl.dma0_1 m d L) Finset.univ : sProp 𝕄)
      = ((sV).view.loc (V d (cV L) (jV L)) ↦{fullShare} lst m d L) from by rw [View.write_whole_univ]; rfl)) $$ Hs'
  -- read tokens: eight of the list buffer, eight of each shared buffer (cells 0 … 3 read tbl_a, 4 … 7 tbl_b)
  ihave Hl8 := (toks8_split (F := F) (ℓ := (sV).view.loc (V d (cV L) (jV L))) fullShare (lst m d L)) $$ Hl
  icases Hl8 with ⟨HLr, HL0, HL1, HL2, HL3, HL4, HL5, HL6, HL7⟩
  ihave HA8 := (toks8_split (F := F) (ℓ := (aV).view.loc (V d (cV L) (jV L))) (sq (jL L)) (tblA m d (cV L))) $$ HtA'
  icases HA8 with ⟨HAr, HA0, HA1, HA2, HA3, HA4, HA5, HA6, HA7⟩
  ihave HB8 := (toks8_split (F := F) (ℓ := (bV).view.loc (V d (cV L) (jV L))) (sq (jL L)) (tblB m d (cV L))) $$ HtB'
  icases HB8 with ⟨HBr, HB0, HB1, HB2, HB3, HB4, HB5, HB6, HB7⟩
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  -- rows 0 and 1: each row's two gathers read the list through the two tokens of their cells; the others are set aside
  ihave HLrh := (Entails.of_eq (sV_loc (F := F) d L _ _ _)) $$ HLr
  ihave HL1h := (Entails.of_eq (sV_loc (F := F) d L _ _ _)) $$ HL1
  ihave HL2h := (Entails.of_eq (sV_loc (F := F) d L _ _ _)) $$ HL2
  ihave HL3h := (Entails.of_eq (sV_loc (F := F) d L _ _ _)) $$ HL3
  ihave HL5h := (Entails.of_eq (sV_loc (F := F) d L _ _ _)) $$ HL5
  ihave HL6h := (Entails.of_eq (sV_loc (F := F) d L _ _ _)) $$ HL6
  ihave HL7h := (Entails.of_eq (sV_loc (F := F) d L _ _ _)) $$ HL7
  set_option sl_exec.maxSteps 2 in sl_exec
  -- row 1: tokens 1 and 5; what is left of tokens 0 and 4 is set aside
  ihave HL0h := (Entails.of_eq (sV_loc (F := F) d L _ _ _)) $$ HL0
  ihave HL4h := (Entails.of_eq (sV_loc (F := F) d L _ _ _)) $$ HL4
  ihave HL1 := (Entails.of_eq (sV_loc (F := F) d L _ _ _).symm) $$ HL1h
  ihave HL5 := (Entails.of_eq (sV_loc (F := F) d L _ _ _).symm) $$ HL5h
  sl_exec
  -- everything back in sight
  ihave HL0 := (Entails.of_eq (sV_loc (F := F) d L _ _ _).symm) $$ HL0h
  ihave HL4 := (Entails.of_eq (sV_loc (F := F) d L _ _ _).symm) $$ HL4h
  ihave HL2 := (Entails.of_eq (sV_loc (F := F) d L _ _ _).symm) $$ HL2h
  ihave HL3 := (Entails.of_eq (sV_loc (F := F) d L _ _ _).symm) $$ HL3h
  ihave HL6 := (Entails.of_eq (sV_loc (F := F) d L _ _ _).symm) $$ HL6h
  ihave HL7 := (Entails.of_eq (sV_loc (F := F) d L _ _ _).symm) $$ HL7h
  ihave HLr := (Entails.of_eq (sV_loc (F := F) d L _ _ _).symm) $$ HLrh
  -- the four gathers in flight, each folded with what it left beside it
  ihave Hf0 := (Flight_frame (F := F) (fold_A0 m d L hin frA0 (4 * 0) (by omega) ![0, 0] inb_S128x100_S1x100_0_0 rfl)) $$ [Hc0 Hra0' HL0 HA0]
  · isplitl [Hc0]; · iexact Hc0
    isplitl [Hra0']; · iexact Hra0'
    isplitl [HL0] <;> iassumption
  ihave Hf4 := (Flight_frame (F := F) (fold_B0 m d L hin frB0 (4 * 0) (by omega) ![0, 0] inb_S128x100_S1x100_0_0 rfl)) $$ [Hc4 Hrb0' HL4 HB4]
  · isplitl [Hc4]; · iexact Hc4
    isplitl [Hrb0']; · iexact Hrb0'
    isplitl [HL4] <;> iassumption
  ihave Hf1 := (Flight_frame (F := F) (fold_A1 m d L hin frA1 (4 * 0 + 1) (by omega) ![1, 0] inb_S128x100_S1x100_1_0 rfl)) $$ [Hc1 Hra1' HL1 HA1]
  · isplitl [Hc1]; · iexact Hc1
    isplitl [Hra1']; · iexact Hra1'
    isplitl [HL1] <;> iassumption
  ihave Hf5 := (Flight_frame (F := F) (fold_B1 m d L hin frB1 (4 * 0 + 1) (by omega) ![1, 0] inb_S128x100_S1x100_1_0 rfl)) $$ [Hc5 Hrb1' HL5 HB5]
  · isplitl [Hc5]; · iexact Hc5
    isplitl [Hrb1']; · iexact Hrb1'
    isplitl [HL5] <;> iassumption
  sl_for (Inv m d L hin O W) $$ [HO Hf0 Hf4 Hf1 Hf5 Hra2' Hrb2' Hra3' Hrb3' Hc10 Hc14 Hc11 Hc15 Hc2 Hc3 Hc6 Hc7 Hc8 Hc9 Hc12 Hc13 HL2 HL3 HL6 HL7 HA2 HA3 HB6 HB7 Hop]
  · intro k acc
    exact trip_step m d L hin O W hO _ k acc
  · -- before the first trip
    unfold Inv
    isplitr; · ipureintro; omega
    isplitr; · iexact Hlv
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      exact .inl hp
    rw [dif_pos (by decide : (0 : ℕ) < 32)]
    unfold invMid slots23
    rw [dif_pos rfl]
    rw [show (Finset.univ.filter fun t : Fin k0_t1_loop.trips => t.val < 0) = ∅ from Finset.filter_false_of_mem (fun t _ => Nat.not_lt_zero _),
      show (Finset.univ.filter fun t : Fin k0_t1_loop.trips => t.val + 1 < 0) = ∅ from Finset.filter_false_of_mem (fun t _ => Nat.not_lt_zero _),
      bigSep_empty, bigSep_empty]
    isplitl [Hf0]; · iexact Hf0
    isplitl [Hf4]; · iexact Hf4
    isplitl [Hf1]; · iexact Hf1
    isplitl [Hf5]; · iexact Hf5
    isplitl [Hra2' Hrb2' Hra3' Hrb3' Hc10 Hc14 Hc11 Hc15]
    · isplitl [Hra2']; · iexists _; iexact Hra2'
      isplitl [Hrb2']; · iexists _; iexact Hrb2'
      isplitl [Hra3']; · iexists _; iexact Hra3'
      isplitl [Hrb3']; · iexists _; iexact Hrb3'
      isplitl [Hc10]; · iexact Hc10
      isplitl [Hc14]; · iexact Hc14
      isplitl [Hc11]; · iexact Hc11
      iexact Hc15
    isplitl [Hc2]; · iexact Hc2
    isplitl [Hc3]; · iexact Hc3
    isplitl [Hc6]; · iexact Hc6
    isplitl [Hc7]; · iexact Hc7
    isplitl [Hc8]; · iexact Hc8
    isplitl [Hc9]; · iexact Hc9
    isplitl [Hc12]; · iexact Hc12
    isplitl [Hc13]; · iexact Hc13
    isplitl [HL2]; · iexact HL2
    isplitl [HL3]; · iexact HL3
    isplitl [HL6]; · iexact HL6
    isplitl [HL7]; · iexact HL7
    isplitl [HA2]; · iexact HA2
    isplitl [HA3]; · iexact HA3
    isplitl [HB6]; · iexact HB6
    isplitl [HB7]; · iexact HB7
    isplitr; · iempintro
    isplitr; · iempintro
    iapply (trips_of_pieces (F := F) d L (m (oLoc d)))
    iexact Hop
  -- after the last trip: the eight writes of rows 124 … 127 are waited for
  iintro %acc HI
  ihave HE := (show Inv m d L hin O W (Scf.trips k0_t1_loop.lb k0_t1_loop.ub k0_t1_loop.st) acc ⊢
      iprop((∃ W', ⌜∀ p ∈ W', p ∈ W ∨ p.2 = none ∨ p.2 = some (0 : Fin 1)⌝ ∗ owes (V d (cV L) (jV L)) O W') ∗ invEnd m d L (by rw [geom_trips_eq]; decide)) from by
    rw [show Scf.trips k0_t1_loop.lb k0_t1_loop.ub k0_t1_loop.st = 32 from geom_trips_eq]
    unfold Inv
    rw [dif_neg (by decide : ¬ (32 : ℕ) < 32)]
    iintro ⟨-, -, HO, HE⟩
    isplitl [HO] <;> iassumption) $$ HI
  unfold invEnd
  icases HE with ⟨⟨%W', %hW', HO⟩, HF8, HF12, HF9, HF13, HF10, HF14, HF11, HF15, Hg0, Hg1, Hg2, Hg3, Hg4, Hg5, Hg6, Hg7, HT0, HT1, HT2, HT3, HT4, HT5, HT6, HT7, HTA0, HTA1, HTA2, HTA3, HTB4, HTB5, HTB6, HTB7, Hdone⟩
  ihave Hmw8 := (Transfers.MayWaits.elim (SemLoc.dma (⟨8, by decide⟩ : DmaSem sig))) $$ Hmw2
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  try rw [prog_ret_bind]
  first | sl_exec | skip
  ihave Hmw12 := (Transfers.MayWaits.elim (SemLoc.dma (⟨12, by decide⟩ : DmaSem sig))) $$ Hmw2
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  try rw [prog_ret_bind]
  first | sl_exec | skip
  ihave Hmw9 := (Transfers.MayWaits.elim (SemLoc.dma (⟨9, by decide⟩ : DmaSem sig))) $$ Hmw2
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  try rw [prog_ret_bind]
  first | sl_exec | skip
  ihave Hmw13 := (Transfers.MayWaits.elim (SemLoc.dma (⟨13, by decide⟩ : DmaSem sig))) $$ Hmw2
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  try rw [prog_ret_bind]
  first | sl_exec | skip
  ihave Hmw10 := (Transfers.MayWaits.elim (SemLoc.dma (⟨10, by decide⟩ : DmaSem sig))) $$ Hmw2
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  try rw [prog_ret_bind]
  first | sl_exec | skip
  ihave Hmw14 := (Transfers.MayWaits.elim (SemLoc.dma (⟨14, by decide⟩ : DmaSem sig))) $$ Hmw2
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  try rw [prog_ret_bind]
  first | sl_exec | skip
  ihave Hmw11 := (Transfers.MayWaits.elim (SemLoc.dma (⟨11, by decide⟩ : DmaSem sig))) $$ Hmw2
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  try rw [prog_ret_bind]
  first | sl_exec | skip
  ihave Hmw15 := (Transfers.MayWaits.elim (SemLoc.dma (⟨15, by decide⟩ : DmaSem sig))) $$ Hmw2
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  try rw [prog_ret_bind]
  first | sl_exec | skip
  rw [wp_ret]; imodintro
  -- every half-row done; the row buffers back
  ihave Hp := (pieces_of_dels (F := F) m d L (by rw [geom_trips_eq]; decide)) $$ [HD8 HD12 HD9 HD13 HD10 HD14 HD11 HD15 Hdone]
  · isplitl [HD8]; · iexact HD8
    isplitl [HD12]; · iexact HD12
    isplitl [HD9]; · iexact HD9
    isplitl [HD13]; · iexact HD13
    isplitl [HD10]; · iexact HD10
    isplitl [HD14]; · iexact HD14
    isplitl [HD11]; · iexact HD11
    isplitl [HD15]; · iexact HD15
    iexact Hdone
  icases Hp with ⟨Hpieces, HbA0, HbB0, HbA1, HbB1, HbA2, HbB2, HbA3, HbB3⟩
  -- the read tokens rejoined
  ihave HsV := (lst_toks_join (F := F) m d L) $$ [HLr HT0 HT1 HT2 HT3 HT4 HT5 HT6 HT7]
  · isplitl [HLr]; · iexact HLr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HaV := (tblA_toks_join (F := F) m d L) $$ [HAr HTA0 HTA1 HTA2 HTA3 HA4 HA5 HA6 HA7]
  · isplitl [HAr]; · iexact HAr
    isplitl [HTA0]; · iexact HTA0
    isplitl [HTA1]; · iexact HTA1
    isplitl [HTA2]; · iexact HTA2
    isplitl [HTA3]; · iexact HTA3
    isplitl [HA4]; · iexact HA4
    isplitl [HA5]; · iexact HA5
    isplitl [HA6]; · iexact HA6
    iexact HA7
  ihave HbV := (tblB_toks_join (F := F) m d L) $$ [HBr HB0 HB1 HB2 HB3 HTB4 HTB5 HTB6 HTB7]
  · isplitl [HBr]; · iexact HBr
    isplitl [HB0]; · iexact HB0
    isplitl [HB1]; · iexact HB1
    isplitl [HB2]; · iexact HB2
    isplitl [HB3]; · iexact HB3
    isplitl [HTB4]; · iexact HTB4
    isplitl [HTB5]; · iexact HTB5
    isplitl [HTB6]; · iexact HTB6
    iexact HTB7
  isplitl [Hi' Hpieces Ht' HaV HbV]
  · isplitl [Hi']; · iapply (Entails.of_eq (pts_iV (F := F) d L _ _)); iexact Hi'
    isplitl [Hpieces]; · iexact Hpieces
    isplitl [Ht']; · iapply (Entails.of_eq (pts_tV (F := F) d L _ _)); iexact Ht'
    isplitl [HaV]; · iapply (Entails.of_eq (pts_aV (F := F) d L _ _)); iexact HaV
    iapply (Entails.of_eq (pts_bV (F := F) d L _ _)); iexact HbV
  isplitl [HsV HbA0 HbA1 HbA2 HbA3 HbB0 HbB1 HbB2 HbB3 Hbufs]
  · isplitl [HsV]; · iexists _; iapply (Entails.of_eq (pts_sV (F := F) d L _ _)); iexact HsV
    isplitl [HbA0]; · iexact HbA0
    isplitl [HbA1]; · iexact HbA1
    isplitl [HbA2]; · iexact HbA2
    isplitl [HbA3]; · iexact HbA3
    isplitl [HbB0]; · iexact HbB0
    isplitl [HbB1]; · iexact HbB1
    isplitl [HbB2]; · iexact HbB2
    isplitl [HbB3]; · iexact HbB3
    iexact Hbufs
  isplitl [Hg0 Hg1 Hg2 Hg3 Hg4 Hg5 Hg6 Hg7 Hv8 Hv9 Hv10 Hv11 Hv12 Hv13 Hv14 Hv15 Hc16 Hc17 Hc18 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hc16]; · iexact Hc16
    isplitl [Hc17]; · iexact Hc17
    isplitl [Hc18]; · iexact Hc18
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

end Cert.Proof.KI

end
-- ==== Proof.KI.Body.lean ====
/-
  One tile's task, as the launch theorem asks for it: from the task's operands (its read share of the regrouped row
  numbers, the 256 half-rows of the result it writes, and — subcores 0 and 1 — a read share of the padded table and the
  shared buffer to fill) to its results (the same, the half-rows at `outF`, and its shares of the two shared buffers).
  The three cases — subcore 0, subcore 1, the others — differ only in the fill before the barrier.
-/
import proofs.«203043_g45337674776592_cont_8to1_c_201_37_alg».proof.Proof.KI.TileOther
import proofs.«203043_g45337674776592_cont_8to1_c_201_37_alg».proof.Proof.KI.TileZero
import proofs.«203043_g45337674776592_cont_8to1_c_201_37_alg».proof.Proof.KI.TileOne

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x128x100 EltTy.i32)
local notation "tV" => (Memref.whole Cert.KernelIdeal.main_v2_scv : Memref Cert.KernelIdeal.sig Kind.scVector Space.hbm Cert.KernelIdeal.S120x256 EltTy.f32)
local notation "oV" => (Memref.whole Cert.KernelIdeal.main_v3_scv : Memref Cert.KernelIdeal.sig Kind.scVector Space.hbm Cert.KernelIdeal.S4096x100x256 EltTy.f32)
local notation "sV" => (Memref.whole Cert.KernelIdeal.cc0_scratch0 : Memref Cert.KernelIdeal.sig Kind.scVector Space.vmem Cert.KernelIdeal.S128x100 EltTy.i32)
local notation "aV" => (Memref.whole Cert.KernelIdeal.cc0_scratch1 : Memref Cert.KernelIdeal.sig Kind.scVector Space.shared Cert.KernelIdeal.S120x128 EltTy.f32)
local notation "bV" => (Memref.whole Cert.KernelIdeal.cc0_scratch2 : Memref Cert.KernelIdeal.sig Kind.scVector Space.shared Cert.KernelIdeal.S120x128 EltTy.f32)
local notation "rA0" => (Memref.whole Cert.KernelIdeal.cc0_scratch3 : Memref Cert.KernelIdeal.sig Kind.scVector Space.vmem Cert.KernelIdeal.S100x128 EltTy.f32)
local notation "rA1" => (Memref.whole Cert.KernelIdeal.cc0_scratch4 : Memref Cert.KernelIdeal.sig Kind.scVector Space.vmem Cert.KernelIdeal.S100x128 EltTy.f32)
local notation "rA2" => (Memref.whole Cert.KernelIdeal.cc0_scratch5 : Memref Cert.KernelIdeal.sig Kind.scVector Space.vmem Cert.KernelIdeal.S100x128 EltTy.f32)
local notation "rA3" => (Memref.whole Cert.KernelIdeal.cc0_scratch6 : Memref Cert.KernelIdeal.sig Kind.scVector Space.vmem Cert.KernelIdeal.S100x128 EltTy.f32)
local notation "rB0" => (Memref.whole Cert.KernelIdeal.cc0_scratch7 : Memref Cert.KernelIdeal.sig Kind.scVector Space.vmem Cert.KernelIdeal.S100x128 EltTy.f32)
local notation "rB1" => (Memref.whole Cert.KernelIdeal.cc0_scratch8 : Memref Cert.KernelIdeal.sig Kind.scVector Space.vmem Cert.KernelIdeal.S100x128 EltTy.f32)
local notation "rB2" => (Memref.whole Cert.KernelIdeal.cc0_scratch9 : Memref Cert.KernelIdeal.sig Kind.scVector Space.vmem Cert.KernelIdeal.S100x128 EltTy.f32)
local notation "rB3" => (Memref.whole Cert.KernelIdeal.cc0_scratch10 : Memref Cert.KernelIdeal.sig Kind.scVector Space.vmem Cert.KernelIdeal.S100x128 EltTy.f32)

variable (m : (ℓ : Loc nD τ sig) → Buf (Elt F) ℓ) (ρ : Dev nD → PrngReg)
variable [FloatOps F]

theorem defs₀_vector (c : Fin τ.nSC) (s : Fin τ.nSub) :
    defs₀ (F := F) (.scVector c s) 0 ()
      = SparseCore.onTile hcore0 hsub0 (fun c s => cc0_k (coordsV c s) iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2) ⟨⟩ c s := rfl

variable (d : Dev nD) (c : Fin ((K (F := F)).nCore 0)) (i : Fin ((K (F := F)).nSub 0))

/-- A task's operands and results, case by case. -/
theorem goV_other (h0 : i.val ≠ 0) (h1 : i.val ≠ 1) :
    goV m d c i ⊢ iprop((iLoc d ↦{wq (widOf c i)} idx3 m d) ∗ oPieces d (coordsOf c i) (m (oLoc d))) := by
  unfold goV fillA fillB; rw [if_neg h0, if_neg h1]
  iintro ⟨Hi, Hop, -, -⟩
  isplitl [Hi] <;> iassumption
theorem tdV_other (h0 : i.val ≠ 0) (h1 : i.val ≠ 1) :
    iprop((iLoc d ↦{wq (widOf c i)} idx3 m d) ∗ oPieces d (coordsOf c i) (outF m d)
      ∗ (shALoc d (coreOf c) ↦{sq (Fin.cast nSub_zero i)} tblA m d (coreOf c)) ∗ (shBLoc d (coreOf c) ↦{sq (Fin.cast nSub_zero i)} tblB m d (coreOf c))) ⊢ tdV m d c i := by
  unfold tdV fillA' fillB'; rw [if_neg h0, if_neg h1]
  iintro ⟨Hi, Hop, Ha, Hb⟩
  isplitl [Hi]; · iexact Hi
  isplitl [Hop]; · iexact Hop
  isplitr; · iempintro
  isplitr; · iempintro
  isplitl [Ha] <;> iassumption
theorem goV_zero (h0 : i.val = 0) :
    goV m d c i ⊢ iprop((iLoc d ↦{wq (widOf c i)} idx3 m d) ∗ oPieces d (coordsOf c i) (m (oLoc d))
      ∗ ((tLoc d ↦{wq (widOf c i)} tblW m d) ∗ ∃ f, shALoc d (coreOf c) ↦{fullShare} f)) := by
  unfold goV fillA fillB; rw [if_pos h0, if_neg (by omega)]
  iintro ⟨Hi, Hop, Hf, -⟩
  isplitl [Hi]; · iexact Hi
  isplitl [Hop] <;> iassumption
theorem tdV_zero (h0 : i.val = 0) :
    iprop((iLoc d ↦{wq (widOf c i)} idx3 m d) ∗ oPieces d (coordsOf c i) (outF m d) ∗ (tLoc d ↦{wq (widOf c i)} tblW m d)
      ∗ (shALoc d (coreOf c) ↦{sq (Fin.cast nSub_zero i)} tblA m d (coreOf c)) ∗ (shBLoc d (coreOf c) ↦{sq (Fin.cast nSub_zero i)} tblB m d (coreOf c))) ⊢ tdV m d c i := by
  unfold tdV fillA' fillB'; rw [if_pos h0, if_neg (by omega)]
  iintro ⟨Hi, Hop, Ht, Ha, Hb⟩
  isplitl [Hi]; · iexact Hi
  isplitl [Hop]; · iexact Hop
  isplitl [Ht]; · iexact Ht
  isplitr; · iempintro
  isplitl [Ha] <;> iassumption
theorem goV_one (h1 : i.val = 1) :
    goV m d c i ⊢ iprop((iLoc d ↦{wq (widOf c i)} idx3 m d) ∗ oPieces d (coordsOf c i) (m (oLoc d))
      ∗ ((tLoc d ↦{wq (widOf c i)} tblW m d) ∗ ∃ f, shBLoc d (coreOf c) ↦{fullShare} f)) := by
  unfold goV fillA fillB; rw [if_neg (by omega), if_pos h1]
  iintro ⟨Hi, Hop, -, Hf⟩
  isplitl [Hi]; · iexact Hi
  isplitl [Hop] <;> iassumption
theorem tdV_one (h1 : i.val = 1) :
    iprop((iLoc d ↦{wq (widOf c i)} idx3 m d) ∗ oPieces d (coordsOf c i) (outF m d) ∗ (tLoc d ↦{wq (widOf c i)} tblW m d)
      ∗ (shALoc d (coreOf c) ↦{sq (Fin.cast nSub_zero i)} tblA m d (coreOf c)) ∗ (shBLoc d (coreOf c) ↦{sq (Fin.cast nSub_zero i)} tblB m d (coreOf c))) ⊢ tdV m d c i := by
  unfold tdV fillA' fillB'; rw [if_neg (by omega), if_pos h1]
  iintro ⟨Hi, Hop, Ht, Ha, Hb⟩
  isplitl [Hi]; · iexact Hi
  isplitl [Hop]; · iexact Hop
  isplitr; · iempintro
  isplitl [Ht]; · iexact Ht
  isplitl [Ha] <;> iassumption

omit [FloatOps F] in
/-- Six conjuncts, the third and nothing else changed. -/
theorem sep6_mono3 {A B C C' D E G : sProp 𝕄} (h : C ⊢ C') : iprop(A ∗ B ∗ C ∗ D ∗ E ∗ G) ⊢ iprop(A ∗ B ∗ C' ∗ D ∗ E ∗ G) := by
  iintro ⟨HA, HB, HC, HD, HE, HG⟩
  isplitl [HA]; · iexact HA
  isplitl [HB]; · iexact HB
  isplitl [HC]; · iapply h; iexact HC
  isplitl [HD]; · iexact HD
  isplitl [HE] <;> iassumption
omit [FloatOps F] in
/-- Four conjuncts, the first and nothing else changed. -/
theorem sep4_mono1 {A A' B C D : sProp 𝕄} (h : A ⊢ A') : iprop(A ∗ B ∗ C ∗ D) ⊢ iprop(A' ∗ B ∗ C ∗ D) := by
  iintro ⟨HA, HB, HC, HD⟩
  isplitl [HA]; · iapply h; iexact HA
  isplitl [HB]; · iexact HB
  isplitl [HC] <;> iassumption

set_option maxRecDepth 16384 in
theorem tileObl (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h0 : i.val = 0
  · exact (sep6_mono3 (goV_zero m d c i h0)).trans
      ((tile_zero m d (coordsV ⟨_, hci.1⟩ ⟨_, hci.2⟩) facts hpre h0 O W hO hOlev (widOf c i)).trans
        (wp_mono frame _ _ fun _ => sep4_mono1 (tdV_zero m d c i h0)))
  by_cases h1 : i.val = 1
  · exact (sep6_mono3 (goV_one m d c i h1)).trans
      ((tile_one m d (coordsV ⟨_, hci.1⟩ ⟨_, hci.2⟩) facts hpre h1 O W hO hOlev (widOf c i)).trans
        (wp_mono frame _ _ fun _ => sep4_mono1 (tdV_one m d c i h1)))
  · exact (sep6_mono3 (goV_other m d c i h0 h1)).trans
      ((tile_other m d (coordsV ⟨_, hci.1⟩ ⟨_, hci.2⟩) facts hpre h0 h1 O W hO hOlev (widOf c i)).trans
        (wp_mono frame _ _ fun _ => sep4_mono1 (tdV_other m d c i h0 h1)))

end Cert.Proof.KI

end
-- ==== Proof.KI.Split.lean ====
/-
  How a SparseCore's operands split among its sixteen tasks, and how the tasks' results gather.

  Going. Each task keeps its own read share of the row numbers and its own half-rows of the result. Of the sequencer's
  own buffers the two shared ones leave it whole, at whatever they hold: buffer A for task 0, buffer B for task 1, each
  beside that task's read share of the padded table; the other tasks get nothing more.

  Coming back. Every task returns a sixteenth share of each shared buffer, now holding the left and the right half of
  the padded table; sixteen sixteenths are the buffer whole, which returns to the sequencer's own buffers. Tasks 0 and
  1 return their read shares of the padded table.
-/
import proofs.«203043_g45337674776592_cont_8to1_c_201_37_alg».proof.Proof.KI.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## The sequencer's own buffers: the two shared ones, and the rest -/

theorem shBRef_ne_shARef (c : Fin τ.nSC) : shBRef c ≠ shARef c :=
  fun e => absurd (congrArg (fun b : DevRef τ sig => b.idx.val) e) (show ¬ (1 : ℕ) = 0 by decide)

/-- The two shared buffers are among the sequencer's own: they, each at some contents, and the rest. -/
theorem ownBufs_S (d : Dev nD) (c : Fin τ.nSC) :
    (ownBufs (S d c) : sProp 𝕄)
      = iprop((∃ f, shALoc d c ↦{fullShare} f) ∗ (∃ f, shBLoc d c ↦{fullShare} f)
          ∗ bigSep (((ownRefs (τ := τ) (.scScalar c)).erase (shARef c)).erase (shBRef c)) fun b => iprop(∃ f, ((d, b) : Loc nD τ sig) ↦{fullShare} f)) := by
  unfold SparseCore.Cfg.ownBufs
  have hA : shARef c ∈ ownRefs (τ := τ) (sig := sig) (.scScalar c) := (mem_ownRefs (p := Proc.scScalar c) (b := shARef c)).mpr rfl
  have hB : shBRef c ∈ (ownRefs (τ := τ) (sig := sig) (.scScalar c)).erase (shARef c) :=
    Finset.mem_erase.mpr ⟨shBRef_ne_shARef c, (mem_ownRefs (p := Proc.scScalar c) (b := shBRef c)).mpr rfl⟩
  rw [SparseCore.bigSep_erase' hA, SparseCore.bigSep_erase' hB]

/-! ## One thing for one task, as a family over the tasks -/

/-- `X` for the task numbered `n`, nothing for the others. -/
def onlyTask (n : ℕ) (X : sProp 𝕄) (i : Fin ((K (F := F)).nSub 0)) : sProp 𝕄 := if i.val = n then X else iprop(emp)

theorem filter_val_eq (n : ℕ) (hn : n < (K (F := F)).nSub 0) :
    (Finset.univ.filter fun i : Fin ((K (F := F)).nSub 0) => i.val = n) = {⟨n, hn⟩} :=
  Finset.ext fun i => by rw [Finset.mem_filter, Finset.mem_singleton]; exact ⟨fun h => Fin.ext h.2, fun h => ⟨Finset.mem_univ _, congrArg Fin.val h⟩⟩

theorem bigSep_onlyTask (n : ℕ) (hn : n < (K (F := F)).nSub 0) (X : sProp 𝕄) : (bigSep Finset.univ fun i => onlyTask n X i) = X := by
  unfold onlyTask
  have h := bigSep_filter Finset.univ (fun i : Fin ((K (F := F)).nSub 0) => i.val = n) (fun _ => X)
  rw [filter_val_eq n hn, bigSep_singleton] at h
  exact h.symm

theorem zero_lt_nSub : 0 < (K (F := F)).nSub 0 := show 0 < 16 by decide
theorem one_lt_nSub : 1 < (K (F := F)).nSub 0 := show 1 < 16 by decide

variable [FloatOps F]

/-! ## Per task -/

variable (d : Dev nD) (c : Fin ((K (F := F)).nCore 0)) (i : Fin ((K (F := F)).nSub 0))

/-- A shared buffer whole, at some contents. -/
abbrev anyA : sProp 𝕄 := iprop(∃ f, shALoc d (coreOf c) ↦{fullShare} f)
abbrev anyB : sProp 𝕄 := iprop(∃ f, shBLoc d (coreOf c) ↦{fullShare} f)

/-- Going: the table's share with the shared buffer is what the filling subcores are handed. -/
theorem fill_of_share :
    iprop(tblShare m d c i ∗ onlyTask 0 (anyA d c) i ∗ onlyTask 1 (anyB d c) i) ⊢ (iprop(fillA m d c i ∗ fillB m d c i) : sProp 𝕄) := by
  unfold tblShare onlyTask fillA fillB anyA anyB
  by_cases h0 : i.val = 0
  · have h1 : ¬ i.val = 1 := by omega
    rw [if_pos (Or.inl h0), if_pos h0, if_pos h0, if_neg h1, if_neg h1]
    iintro ⟨Ht, HA, HB⟩
    isplitl [Ht HA]
    · isplitl [Ht]; · iexact Ht
      iexact HA
    iexact HB
  · by_cases h1 : i.val = 1
    · rw [if_pos (Or.inr h1), if_neg h0, if_neg h0, if_pos h1, if_pos h1]
      iintro ⟨Ht, HA, HB⟩
      isplitl [HA]; · iexact HA
      isplitl [Ht]; · iexact Ht
      iexact HB
    · rw [if_neg (not_or.mpr ⟨h0, h1⟩), if_neg h0, if_neg h0, if_neg h1, if_neg h1]
      iintro ⟨-, HA, HB⟩
      isplitl [HA]; · iexact HA
      iexact HB

/-- Coming back: what the filling subcores return is the table's share. -/
theorem share_of_fill' : iprop(fillA' m d c i ∗ fillB' m d c i) ⊢ (tblShare m d c i : sProp 𝕄) := by
  unfold tblShare fillA' fillB'
  by_cases h0 : i.val = 0
  · have h1 : ¬ i.val = 1 := by omega
    rw [if_pos (Or.inl h0), if_pos h0, if_neg h1]
    iintro ⟨Ht, -⟩; iexact Ht
  · by_cases h1 : i.val = 1
    · rw [if_pos (Or.inr h1), if_neg h0, if_pos h1]
      iintro ⟨-, Ht⟩; iexact Ht
    · rw [if_neg (not_or.mpr ⟨h0, h1⟩), if_neg h0, if_neg h1]
      iintro ⟨H, -⟩; iexact H

/-- A task's operands out of its part of the SparseCore's and its part of the shared buffers. -/
theorem go_i :
    iprop(iprop((iLoc d ↦{wq (widOf c i)} idx3 m d) ∗ oPieces d (coordsOf c i) (m (oLoc d)) ∗ tblShare m d c i)
      ∗ iprop(onlyTask 0 (anyA d c) i ∗ onlyTask 1 (anyB d c) i)) ⊢ (goV m d c i : sProp 𝕄) := by
  unfold goV
  iintro ⟨⟨HI, HO, HT⟩, HA, HB⟩
  isplitl [HI]; · iexact HI
  isplitl [HO]; · iexact HO
  iapply (fill_of_share m d c i)
  isplitl [HT]; · iexact HT
  isplitl [HA]; · iexact HA
  iexact HB

/-- A task's results are its part of the SparseCore's and its shares of the shared buffers. -/
theorem td_i :
    (tdV m d c i : sProp 𝕄) ⊢ iprop(iprop((iLoc d ↦{wq (widOf c i)} idx3 m d) ∗ oPieces d (coordsOf c i) (outF m d) ∗ tblShare m d c i)
      ∗ iprop((shALoc d (coreOf c) ↦{sq (Fin.cast nSub_zero i)} tblA m d (coreOf c)) ∗ (shBLoc d (coreOf c) ↦{sq (Fin.cast nSub_zero i)} tblB m d (coreOf c)))) := by
  unfold tdV
  iintro ⟨HI, HO, HFA, HFB, HA, HB⟩
  isplitl [HI HO HFA HFB]
  · isplitl [HI]; · iexact HI
    isplitl [HO]; · iexact HO
    iapply (share_of_fill' m d c i)
    isplitl [HFA]; · iexact HFA
    iexact HFB
  isplitl [HA]; · iexact HA
  iexact HB

/-! ## The split -/

omit i in
theorem split_go : iprop(stV m d c ∗ anyA d c ∗ anyB d c) ⊢ (bigSep Finset.univ fun i : Fin ((K (F := F)).nSub 0) => goV m d c i : sProp 𝕄) := by
  have e : (bigSep Finset.univ fun i : Fin ((K (F := F)).nSub 0) =>
          iprop(iprop((iLoc d ↦{wq (widOf c i)} idx3 m d) ∗ oPieces d (coordsOf c i) (m (oLoc d)) ∗ tblShare m d c i)
            ∗ iprop(onlyTask 0 (anyA d c) i ∗ onlyTask 1 (anyB d c) i)) : sProp 𝕄) = iprop(stV m d c ∗ anyA d c ∗ anyB d c) := by
    rw [bigSep_sep' Finset.univ (fun i : Fin ((K (F := F)).nSub 0) => iprop((iLoc d ↦{wq (widOf c i)} idx3 m d) ∗ oPieces d (coordsOf c i) (m (oLoc d)) ∗ tblShare m d c i))
        (fun i => iprop(onlyTask 0 (anyA d c) i ∗ onlyTask 1 (anyB d c) i)),
      bigSep_sep' Finset.univ (onlyTask 0 (anyA d c)) (onlyTask 1 (anyB d c)), bigSep_onlyTask 0 zero_lt_nSub, bigSep_onlyTask 1 one_lt_nSub]
    rfl
  rw [← e]
  exact bigSep_mono fun i _ => go_i m d c i

omit i in
theorem join_td :
    (bigSep Finset.univ fun i : Fin ((K (F := F)).nSub 0) => tdV m d c i : sProp 𝕄)
      ⊢ iprop(dnV m d c ∗ (shALoc d (coreOf c) ↦{fullShare} tblA m d (coreOf c)) ∗ (shBLoc d (coreOf c) ↦{fullShare} tblB m d (coreOf c))) := by
  have e : (bigSep Finset.univ fun i : Fin ((K (F := F)).nSub 0) =>
          iprop(iprop((iLoc d ↦{wq (widOf c i)} idx3 m d) ∗ oPieces d (coordsOf c i) (outF m d) ∗ tblShare m d c i)
            ∗ iprop((shALoc d (coreOf c) ↦{sq (Fin.cast nSub_zero i)} tblA m d (coreOf c)) ∗ (shBLoc d (coreOf c) ↦{sq (Fin.cast nSub_zero i)} tblB m d (coreOf c)))) : sProp 𝕄)
        = iprop(dnV m d c ∗ (shALoc d (coreOf c) ↦{fullShare} tblA m d (coreOf c)) ∗ (shBLoc d (coreOf c) ↦{fullShare} tblB m d (coreOf c))) := by
    rw [bigSep_sep' Finset.univ (fun i : Fin ((K (F := F)).nSub 0) => iprop((iLoc d ↦{wq (widOf c i)} idx3 m d) ∗ oPieces d (coordsOf c i) (outF m d) ∗ tblShare m d c i))
        (fun i => iprop((shALoc d (coreOf c) ↦{sq (Fin.cast nSub_zero i)} tblA m d (coreOf c)) ∗ (shBLoc d (coreOf c) ↦{sq (Fin.cast nSub_zero i)} tblB m d (coreOf c)))),
      bigSep_sep' Finset.univ (fun i : Fin ((K (F := F)).nSub 0) => (shALoc d (coreOf c) ↦{sq (Fin.cast nSub_zero i)} tblA m d (coreOf c) : sProp 𝕄))
        (fun i => (shBLoc d (coreOf c) ↦{sq (Fin.cast nSub_zero i)} tblB m d (coreOf c) : sProp 𝕄)),
      ← pts_sq (tblA m d (coreOf c)), ← pts_sq (tblB m d (coreOf c))]
    rfl
  rw [← e]
  exact bigSep_mono fun i _ => td_i m d c i

omit d c i in
/-- A SparseCore's operands and its sequencer's own buffers are its sixteen tasks' operands; the tasks' results are the
    SparseCore's results and its sequencer's own buffers again. -/
theorem vecSplit : (K (F := F)).VecSplit (P m) 0 := by
  intro d c
  show iprop(stV m d c ∗ ownBufs (S d (coreOf c))) ⊢ |={Set.univ}=> iprop(
      (bigSep Finset.univ fun i : Fin ((K (F := F)).nSub 0) => goV m d c i)
      ∗ ((bigSep Finset.univ fun i : Fin ((K (F := F)).nSub 0) => tdV m d c i) -∗ iprop(dnV m d c ∗ ownBufs (S d (coreOf c)))))
  rw [ownBufs_S]
  iintro ⟨Hst, HA, HB, Hrest⟩; imodintro
  isplitl [Hst HA HB]
  · iapply (split_go m d c)
    isplitl [Hst]; · iexact Hst
    isplitl [HA]; · iexact HA
    iexact HB
  iintro Htd
  ihave Htd' := (join_td m d c) $$ Htd
  icases Htd' with ⟨Hdn, HA, HB⟩
  isplitl [Hdn]; · iexact Hdn
  isplitl [HA]
  · iexists tblA m d (coreOf c); iexact HA
  isplitl [HB]
  · iexists tblB m d (coreOf c); iexact HB
  iexact Hrest

end Cert.Proof.KI

end
-- ==== Proof.KI.Elem.lean ====
/-
  The launch element of the ghost state, and how it pays for every tile's barrier kit.

  The mathematics. The ghost state is a product: the launch handshakes' rounds, the barrier cells' rounds, the
  transfers' counters. Its launch element holds the handshakes' cells at their launch state, the barrier cell of EVERY
  tile (d, c, i) of the device (2 SparseCores × 16 vector subcores) at its launch state, with one duty token per pair
  (tile i, cell of tile j of the same SparseCore), and the unit of the counters. The product splits into its factors.
  The barrier factor funds, for every cell, its round state at counter zero, the fact that round 0 is reached, the
  owner's position at the origin of round 0, and the duty tokens. The barrier semaphores, all at zero, are among the
  free semaphores the launch hands over; a cell's round state beside its semaphore at zero is the body of its
  invariant, and all the invariants are allocated at once. The credit for what the tiles owe at the barrier (each tile
  a unit on each of the sixteen cells of its SparseCore) regroups by cell: sixteen units on every cell, which go to
  the cell's owner. Invariants and "reached" are persistent, so every tile may keep those of the sixteen cells of its
  SparseCore; positions, tokens and credit are dealt by tile. Both SparseCores run the call, so every tile has a kit;
  the TensorCore and the sequencers get nothing. What the duties hand over plays no part here: a duty's payload is
  handed over when the duty is done, in the body, not at the launch.
-/
import proofs.«203043_g45337674776592_cont_8to1_c_201_37_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F]

/-! ## The launch element -/

/-- A tile of the device: its device, its SparseCore, its number. -/
abbrev DCI : Type := Dev nD × Fin τ.nSC × Fin τ.nSub
abbrev bcell₃ (x : DCI) : GSem nD τ sig := bcell x.1 x.2.1 x.2.2

/-- The barrier cell of every tile of the device. -/
def bCells : Finset (GSem nD τ sig) := Finset.univ.image bcell₃
/-- Tile i's token in tile j's cell, for every pair of tiles of one SparseCore. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' cells, the barrier cells with their tokens, the counters' unit. -/
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element splits into the handshakes' factor and the barrier cells' factor. -/
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

namespace Elem

omit [FloatOps F] in
/-- n units on one cell at one index, one at a time. -/
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

end Elem

open Elem

/-- The credit for the tiles' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- The tokens, grouped by the tile that holds them. -/
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- **The launch element pays for the launch**: the handshakes' factor is kept whole, no device asks anything more,
    and every thread gets what its proof consumes — each tile its barrier kit, the others nothing. -/
theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KI

end
-- ==== Proof.KI.Main.lean ====
/-
  @main on the TensorCore, and how the final memory reads the claim.

  The mathematics. Before the call the host regroups the row numbers `x` [4096, 100] row-major as [32, 128, 100]
  (`idx3`) and pads the table `a` [120, 200] with zero columns to [120, 256]: a zero scalar is broadcast to [120, 256]
  and updated by `a` at the origin, the two start indices being the constant 0 (`tblW`). None of these six operations
  writes `x`, `a` or the kernel's result array, so those three are still at their launch contents when the call starts.
  The call takes the regrouped row numbers and the padded table as 32 equal read shares, one per worker (of the table's
  only the two filling subcores' of each SparseCore are used), and the result array [4096, 100, 256] as the workers'
  half-rows, which are disjoint and cover it; it brings the row numbers back and the result at `outF`. After the call
  the host keeps the first 200 columns of the result: `resF`, by definition the slice of `outF`. So the run ends with
  the program's result at `resF` and the two arguments unchanged.
-/
import proofs.«203043_g45337674776592_cont_8to1_c_201_37_alg».proof.Proof.KI.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

namespace HostSide

/-! ## The TensorCore's ten arrays and the seven host operations -/

abbrev x' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev cst' : DevRef τ sig := Proc.devRef .tc (main_cst : Ref sig .tc)
abbrev v1' : DevRef τ sig := Proc.devRef .tc (main_v1 : Ref sig .tc)
abbrev c' : DevRef τ sig := Proc.devRef .tc (main_c : Ref sig .tc)
abbrev c0' : DevRef τ sig := Proc.devRef .tc (main_c_0 : Ref sig .tc)
abbrev t' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev opRs : HloOp τ sig (Elt F) := StableHlo.reshape main_arg0 main_v0 rfl shapeCasts_S4096x100_S32x128x100
abbrev opCst : HloOp τ sig (Elt F) := StableHlo.nullary main_cst (constant S_ .f32 0x00000000#32)
abbrev opBc : HloOp τ sig (Elt F) :=
  StableHlo.unary main_cst main_v1 (broadcastInDim S120x256 ![] bcast_S_S120x256 : (⟨S_, .f32⟩ : BufTy).Contents (Elt F) → (⟨S120x256, .f32⟩ : BufTy).Contents (Elt F))
abbrev opC : HloOp τ sig (Elt F) := StableHlo.nullary main_c (constantI S_ 32 0#32)
abbrev opC0 : HloOp τ sig (Elt F) := StableHlo.nullary main_c_0 (constantI S_ 32 0#32)
abbrev opDus : HloOp τ sig (Elt F) :=
  StableHlo.binaryIndexed main_v1 main_arg1 ![main_c, main_c_0] ⟨S_, .i32⟩ main_v2
    ((fun x u i => Host.dynamicUpdateSlice x u (fun k => (i k (Shape.Idx.first h_S_)).toInt) updateFits_S120x256_S120x200) :
      (⟨S120x256, .f32⟩ : BufTy).Contents (Elt F) → (⟨S120x200, .f32⟩ : BufTy).Contents (Elt F) → (Fin 2 → (⟨S_, .i32⟩ : BufTy).Contents (Elt F)) → (⟨S120x256, .f32⟩ : BufTy).Contents (Elt F))
abbrev opSl : HloOp τ sig (Elt F) :=
  StableHlo.unary main_v3 main_v4 ((extractStridedSlice S4096x100x200 ![0, 0, 0] · slices_S4096x100x256_S4096x100x200_0_0_0) :
    (⟨S4096x100x256, .f32⟩ : BufTy).Contents (Elt F) → (⟨S4096x100x200, .f32⟩ : BufTy).Contents (Elt F))

/-- The TensorCore's arrays, all unscoped. -/
abbrev S10 : Finset (DevRef τ sig) := {x', a', i', cst', v1', c', c0', t', o', r'}
/-- The kernel's result and the program's. -/
abbrev S2 : Finset (DevRef τ sig) := {o', r'}

/-- The launch valuation and the valuations after each of the six operations before the call. -/
def V0 (d : Dev nD) : Valuation τ sig (Elt F) := fun b => m (d, b)
def V1 (d : Dev nD) : Valuation τ sig (Elt F) := (opRs (F := F)).result (V0 m d)
def V2 (d : Dev nD) : Valuation τ sig (Elt F) := (opCst (F := F)).result (V1 m d)
def V3 (d : Dev nD) : Valuation τ sig (Elt F) := (opBc (F := F)).result (V2 m d)
def V4 (d : Dev nD) : Valuation τ sig (Elt F) := (opC (F := F)).result (V3 m d)
def V5 (d : Dev nD) : Valuation τ sig (Elt F) := (opC0 (F := F)).result (V4 m d)
def V6 (d : Dev nD) : Valuation τ sig (Elt F) := (opDus (F := F)).result (V5 m d)

theorem V1_ne (d : Dev nD) {b : DevRef τ sig} (h : b ≠ i') : V1 m d b = V0 m d b :=
  (opRs (F := F)).result_of_not_mem _ (show b ∉ ({i'} : Finset (DevRef τ sig)) from fun e => h (Finset.mem_singleton.mp e))
theorem V2_ne (d : Dev nD) {b : DevRef τ sig} (h : b ≠ cst') : V2 m d b = V1 m d b :=
  (opCst (F := F)).result_of_not_mem _ (show b ∉ ({cst'} : Finset (DevRef τ sig)) from fun e => h (Finset.mem_singleton.mp e))
theorem V3_ne (d : Dev nD) {b : DevRef τ sig} (h : b ≠ v1') : V3 m d b = V2 m d b :=
  (opBc (F := F)).result_of_not_mem _ (show b ∉ ({v1'} : Finset (DevRef τ sig)) from fun e => h (Finset.mem_singleton.mp e))
theorem V4_ne (d : Dev nD) {b : DevRef τ sig} (h : b ≠ c') : V4 m d b = V3 m d b :=
  (opC (F := F)).result_of_not_mem _ (show b ∉ ({c'} : Finset (DevRef τ sig)) from fun e => h (Finset.mem_singleton.mp e))
theorem V5_ne (d : Dev nD) {b : DevRef τ sig} (h : b ≠ c0') : V5 m d b = V4 m d b :=
  (opC0 (F := F)).result_of_not_mem _ (show b ∉ ({c0'} : Finset (DevRef τ sig)) from fun e => h (Finset.mem_singleton.mp e))
theorem V6_ne (d : Dev nD) {b : DevRef τ sig} (h : b ≠ t') : V6 m d b = V5 m d b :=
  (opDus (F := F)).result_of_not_mem _ (show b ∉ ({t'} : Finset (DevRef τ sig)) from fun e => h (Finset.mem_singleton.mp e))

/-- An array none of the six operations writes is at its launch contents before the call. -/
theorem V6_launch (d : Dev nD) {b : DevRef τ sig} (h1 : b ≠ i') (h2 : b ≠ cst') (h3 : b ≠ v1') (h4 : b ≠ c') (h5 : b ≠ c0') (h6 : b ≠ t') :
    V6 m d b = m (d, b) := by
  rw [V6_ne m d h6, V5_ne m d h5, V4_ne m d h4, V3_ne m d h3, V2_ne m d h2, V1_ne m d h1]; rfl

theorem V6_x (d : Dev nD) : V6 m d x' = m (xLoc d) := V6_launch m d (by decide) (by decide) (by decide) (by decide) (by decide) (by decide)
theorem V6_a (d : Dev nD) : V6 m d a' = m (aLoc d) := V6_launch m d (by decide) (by decide) (by decide) (by decide) (by decide) (by decide)
theorem V6_o (d : Dev nD) : V6 m d o' = m (oLoc d) := V6_launch m d (by decide) (by decide) (by decide) (by decide) (by decide) (by decide)

/-- The regrouped row numbers: the reshape's result, untouched by the five operations after it. -/
theorem V6_i (d : Dev nD) : V6 m d i' = idx3 m d := by
  rw [V6_ne m d (by decide), V5_ne m d (by decide), V4_ne m d (by decide), V3_ne m d (by decide), V2_ne m d (by decide)]
  exact (StableHlo.reshape_result main_arg0 main_v0 rfl shapeCasts_S4096x100_S32x128x100 _ _ (V0 m d)).trans rfl

theorem V5_v1 (d : Dev nD) : V5 m d v1' = broadcastInDim S120x256 ![] bcast_S_S120x256 (constant (F := F) S_ .f32 0x00000000#32) := by
  rw [V5_ne m d (by decide), V4_ne m d (by decide)]
  refine (StableHlo.unary_result main_cst main_v1 _ _ _ (V2 m d)).trans ?_
  exact congrArg _ (StableHlo.nullary_result main_cst _ _ (V1 m d))
theorem V5_a (d : Dev nD) : V5 m d a' = m (aLoc d) := by
  rw [V5_ne m d (by decide), V4_ne m d (by decide), V3_ne m d (by decide), V2_ne m d (by decide), V1_ne m d (by decide)]; rfl
theorem V5_c (d : Dev nD) : V5 m d c' = (constantI S_ 32 0#32 : IVec S_ 32) := by
  rw [V5_ne m d (by decide)]
  exact StableHlo.nullary_result main_c _ _ (V3 m d)
theorem V5_c0 (d : Dev nD) : V5 m d c0' = (constantI S_ 32 0#32 : IVec S_ 32) :=
  StableHlo.nullary_result main_c_0 _ _ (V4 m d)

/-- The padded table: the update of the broadcast zero by the table at the origin. -/
theorem V6_t (d : Dev nD) : V6 m d t' = tblW m d := by
  refine (StableHlo.binaryIndexed_result main_v1 main_arg1 ![main_c, main_c_0] ⟨S_, .i32⟩ main_v2 _ _ _ _ _ _ (V5 m d)).trans ?_
  unfold tblW
  have key : ∀ (hT : ∀ k : Fin 2, ((![main_c, main_c_0] k : Ref sig .tc)).ty = (⟨S_, .i32⟩ : BufTy)) (k : Fin 2),
      ((cast (congrArg (fun U : BufTy => U.Contents (Elt F)) (hT k)) (V5 m d (Proc.devRef .tc (![main_c, main_c_0] k : Ref sig .tc)))) (Shape.Idx.first h_S_)).toInt
        = ((constantI S_ 32 0#32 : IVec S_ 32) (Shape.Idx.first h_S_)).toInt := by
    intro hT k
    fin_cases k
    · show ((V5 m d c') (Shape.Idx.first h_S_)).toInt = _
      rw [V5_c]
    · show ((V5 m d c0') (Shape.Idx.first h_S_)).toInt = _
      rw [V5_c0]
  show Host.dynamicUpdateSlice (V5 m d v1') (V5 m d a') _ updateFits_S120x256_S120x200 = _
  rw [V5_v1, V5_a]
  refine congrArg (fun g => Host.dynamicUpdateSlice _ _ g updateFits_S120x256_S120x200) ?_
  funext k
  exact key (by decide) k

/-! ## The arrays held, one by one -/

theorem held_S10 (d : Dev nD) (W : Valuation τ sig (Elt F)) :
    (held (T d) S10 W : sProp 𝕄)
      = iprop((xLoc d ↦{fullShare} W x') ∗ (aLoc d ↦{fullShare} W a') ∗ (iLoc d ↦{fullShare} W i')
          ∗ ((SparseCore.T d).loc main_cst ↦{fullShare} W cst') ∗ ((SparseCore.T d).loc main_v1 ↦{fullShare} W v1')
          ∗ ((SparseCore.T d).loc main_c ↦{fullShare} W c') ∗ ((SparseCore.T d).loc main_c_0 ↦{fullShare} W c0')
          ∗ (tLoc d ↦{fullShare} W t') ∗ (oLoc d ↦{fullShare} W o') ∗ rLoc d ↦{fullShare} W r') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (iLoc d ↦{fullShare} W main_v0)
          ∗ ((SparseCore.T d).loc main_cst ↦{fullShare} W main_cst) ∗ ((SparseCore.T d).loc main_v1 ↦{fullShare} W main_v1)
          ∗ ((SparseCore.T d).loc main_c ↦{fullShare} W main_c) ∗ ((SparseCore.T d).loc main_c_0 ↦{fullShare} W main_c_0)
          ∗ (tLoc d ↦{fullShare} W main_v2) ∗ (oLoc d ↦{fullShare} W main_v3) ∗ rLoc d ↦{fullShare} W main_v4) := by
  unfold unscopedBufs
  rw [show (Finset.univ.filter fun b : Ref sig .tc => ¬ b.isScoped)
      = {main_arg0, main_arg1, main_v0, main_cst, main_v1, main_c, main_c_0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S10 (V0 m d) := by
  rw [unscopedBufs_eq, held_S10]; rfl

theorem hRs : (opRs (F := F)).bufs ⊆ S10 := show ({x', i'} : Finset (DevRef τ sig)) ⊆ S10 by decide
theorem hCst : (opCst (F := F)).bufs ⊆ S10 := show ({cst'} : Finset (DevRef τ sig)) ⊆ S10 by decide
theorem hBc : (opBc (F := F)).bufs ⊆ S10 := show ({cst', v1'} : Finset (DevRef τ sig)) ⊆ S10 by decide
theorem hC : (opC (F := F)).bufs ⊆ S10 := show ({c'} : Finset (DevRef τ sig)) ⊆ S10 by decide
theorem hC0 : (opC0 (F := F)).bufs ⊆ S10 := show ({c0'} : Finset (DevRef τ sig)) ⊆ S10 by decide
theorem hDus : (opDus (F := F)).bufs ⊆ S10 :=
  show (insert v1' (insert a' (insert t' (Finset.univ.image fun k : Fin 2 => (Proc.devRef .tc (![main_c, main_c_0] k : Ref sig .tc) : DevRef τ sig)))) : Finset (DevRef τ sig)) ⊆ S10 by decide
theorem hSl : (opSl (F := F)).bufs ⊆ S2 := show ({o', r'} : Finset (DevRef τ sig)) ⊆ S2 by decide

/-! ## The call's operands and results, regrouped -/

theorem P_st (d : Dev nD) (c : Fin ((K (F := F)).nCore 0)) : (P m).st 0 d c = stV m d c := rfl
theorem P_dn (d : Dev nD) (c : Fin ((K (F := F)).nCore 0)) : (P m).dn 0 d c = dnV m d c := rfl

theorem st_split (d : Dev nD) (f : Buf (Elt F) (oLoc d)) :
    (bigSep Finset.univ fun c : Fin ((K (F := F)).nCore 0) => bigSep Finset.univ fun i : Fin ((K (F := F)).nSub 0) =>
        iprop((iLoc d ↦{wq (widOf c i)} idx3 m d) ∗ oPieces d (coordsOf c i) f ∗ tblShare m d c i) : sProp 𝕄)
      = iprop((iLoc d ↦{fullShare} idx3 m d) ∗ (oLoc d ↦{fullShare} f)
          ∗ bigSep Finset.univ fun c : Fin ((K (F := F)).nCore 0) => bigSep Finset.univ fun i : Fin ((K (F := F)).nSub 0) => tblShare m d c i) := by
  rw [pts_wq (idx3 m d), oPts_pieces d f]
  simp only [bigSep_sep']

/-- A read share of the padded table per worker gives the two filling subcores theirs; the others' are let go. -/
theorem tbl_shares (d : Dev nD) :
    (tLoc d ↦{fullShare} tblW m d : sProp 𝕄)
      ⊢ bigSep Finset.univ fun c : Fin ((K (F := F)).nCore 0) => bigSep Finset.univ fun i : Fin ((K (F := F)).nSub 0) => tblShare m d c i := by
  rw [pts_wq (tblW m d)]
  refine bigSep_mono fun c _ => bigSep_mono fun i _ => ?_
  unfold tblShare
  split
  · exact BI.Entails.refl _
  · exact Idealize.SL.BI.Laws.affine (PROP := sProp 𝕄)

theorem st_intro (d : Dev nD) :
    iprop((iLoc d ↦{fullShare} idx3 m d) ∗ (oLoc d ↦{fullShare} m (oLoc d)) ∗ (tLoc d ↦{fullShare} tblW m d))
      ⊢ (bigSep Finset.univ fun c : Fin ((K (F := F)).nCore 0) => (P m).st 0 d c : sProp 𝕄) := by
  simp only [P_st]
  unfold stV
  rw [st_split]
  iintro ⟨Hi, Ho, Ht⟩
  isplitl [Hi]; · iexact Hi
  isplitl [Ho]; · iexact Ho
  iapply (tbl_shares m d); iexact Ht

theorem dn_elim (d : Dev nD) :
    (bigSep Finset.univ fun c : Fin ((K (F := F)).nCore 0) => (P m).dn 0 d c : sProp 𝕄)
      ⊢ iprop((iLoc d ↦{fullShare} idx3 m d) ∗ (oLoc d ↦{fullShare} outF m d)) := by
  simp only [P_dn]
  unfold dnV
  rw [st_split]
  iintro ⟨Hi, Ho, -⟩
  isplitl [Hi]; · iexact Hi
  iexact Ho

/-! ## Before the call and after the slice -/

theorem held_V6 (d : Dev nD) :
    (held (T d) S10 ((opDus (F := F)).result ((opC0 (F := F)).result ((opC (F := F)).result ((opBc (F := F)).result
        ((opCst (F := F)).result ((opRs (F := F)).result (V0 m d))))))) : sProp 𝕄)
      = iprop((xLoc d ↦{fullShare} m (xLoc d)) ∗ (aLoc d ↦{fullShare} m (aLoc d)) ∗ (iLoc d ↦{fullShare} idx3 m d)
          ∗ ((SparseCore.T d).loc main_cst ↦{fullShare} V6 m d cst') ∗ ((SparseCore.T d).loc main_v1 ↦{fullShare} V6 m d v1')
          ∗ ((SparseCore.T d).loc main_c ↦{fullShare} V6 m d c') ∗ ((SparseCore.T d).loc main_c_0 ↦{fullShare} V6 m d c0')
          ∗ (tLoc d ↦{fullShare} tblW m d) ∗ (oLoc d ↦{fullShare} m (oLoc d)) ∗ rLoc d ↦{fullShare} V6 m d r') := by
  show held (SparseCore.T d) S10 (V6 m d) = _
  rw [held_S10, V6_x, V6_a, V6_i, V6_t, V6_o]

/-- After the call: the kernel's result at `outF`, the program's result whatever it held. -/
def V7 (d : Dev nD) : Valuation τ sig (Elt F) := Function.update (V6 m d) o' (outF m d)
theorem V7_o (d : Dev nD) : V7 m d o' = outF m d := Function.update_self _ _ _
theorem V7_r (d : Dev nD) : V7 m d r' = V6 m d r' := Function.update_of_ne (show r' ≠ o' by decide) _ _

theorem V8_r (d : Dev nD) : (opSl (F := F)).result (V7 m d) r' = resF m d := by
  refine (StableHlo.unary_result main_v3 main_v4 _ _ _ (V7 m d)).trans ?_
  show extractStridedSlice S4096x100x200 ![0, 0, 0] (V7 m d o') slices_S4096x100x256_S4096x100x200_0_0_0 = _
  rw [V7_o]; rfl

theorem held_V8 (d : Dev nD) :
    (held (T d) S2 ((opSl (F := F)).result (V7 m d)) : sProp 𝕄)
      = iprop((oLoc d ↦{fullShare} (opSl (F := F)).result (V7 m d) o') ∗ rLoc d ↦{fullShare} resF m d) := by
  rw [held_S2, V8_r]

end HostSide

open HostSide

/-! ## @main on the TensorCore -/

/-- What the TensorCore ends with: the program's result, and the two arguments at their launch contents. -/
abbrev FIN (d : Dev nD) : sProp 𝕄 :=
  iprop((rLoc d ↦{fullShare} resF m d) ∗ (xLoc d ↦{fullShare} m (xLoc d)) ∗ (aLoc d ↦{fullShare} m (aLoc d)))

/-- @main on device `d`'s TensorCore: the reshape, the zero array and the update of it by the table (six operations over
    the ten arrays held whole), the call — the regrouped row numbers and the padded table out as read shares, the
    result out as the workers' half-rows, and back —, the slice of the first 200 columns. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S10) hRs (V := V0 m d)) $$ [Hb Hheld]
  · isplitl [Hb] <;> iassumption
  iintro ⟨Hb, Hheld⟩
  rw [wp_ret]; imodintro
  iapply (wp_hlo_within 𝒱 (SparseCore.T d) none Set.univ (op := opCst) (S := S10) hCst (V := (opRs (F := F)).result (V0 m d))) $$ [Hb Hheld]
  · isplitl [Hb] <;> iassumption
  iintro ⟨Hb, Hheld⟩
  rw [wp_ret]; imodintro
  iapply (wp_hlo_within 𝒱 (SparseCore.T d) none Set.univ (op := opBc) (S := S10) hBc
      (V := (opCst (F := F)).result ((opRs (F := F)).result (V0 m d)))) $$ [Hb Hheld]
  · isplitl [Hb] <;> iassumption
  iintro ⟨Hb, Hheld⟩
  rw [wp_ret]; imodintro
  iapply (wp_hlo_within 𝒱 (SparseCore.T d) none Set.univ (op := opC) (S := S10) hC
      (V := (opBc (F := F)).result ((opCst (F := F)).result ((opRs (F := F)).result (V0 m d))))) $$ [Hb Hheld]
  · isplitl [Hb] <;> iassumption
  iintro ⟨Hb, Hheld⟩
  rw [wp_ret]; imodintro
  iapply (wp_hlo_within 𝒱 (SparseCore.T d) none Set.univ (op := opC0) (S := S10) hC0
      (V := (opC (F := F)).result ((opBc (F := F)).result ((opCst (F := F)).result ((opRs (F := F)).result (V0 m d)))))) $$ [Hb Hheld]
  · isplitl [Hb] <;> iassumption
  iintro ⟨Hb, Hheld⟩
  rw [wp_ret]; imodintro
  iapply (wp_hlo_within 𝒱 (SparseCore.T d) none Set.univ (op := opDus) (S := S10) hDus
      (V := (opC0 (F := F)).result ((opC (F := F)).result ((opBc (F := F)).result ((opCst (F := F)).result ((opRs (F := F)).result (V0 m d))))))) $$ [Hb Hheld]
  · isplitl [Hb] <;> iassumption
  iintro ⟨Hb, Hheld⟩
  rw [wp_ret]; imodintro
  -- the call
  ihave Hh := (Entails.of_eq (held_V6 (F := F) m d)) $$ Hheld
  icases Hh with ⟨Hx, Ha, Hi, -, -, -, -, Ht, Ho, Hr⟩
  iapply ((K (F := F)).wp_run (D (F := F)) 𝒱 (EH := EH) (P := P m) κ d 0) $$ [Hst Hi Ht Ho Hx Ha Hr Hb]
  isplitr; · iexact Hctx
  isplitl [Hst]; · iexact Hst
  isplitl [Hi Ht Ho]
  · iapply (st_intro m d)
    isplitl [Hi]; · iexact Hi
    isplitl [Ho]; · iexact Ho
    iexact Ht
  iintro ⟨Hst, Hdn⟩
  ihave Hdn' := (dn_elim m d) $$ Hdn
  icases Hdn' with ⟨-, Ho⟩
  -- the slice
  iapply (wp_hlo_within 𝒱 (SparseCore.T d) none Set.univ (op := opSl) (S := S2) hSl (V := V7 m d)) $$ [Hb Ho Hr]
  · isplitl [Hb]; · iexact Hb
    rw [held_S2, V7_o, V7_r]
    isplitl [Ho]; · iexact Ho
    iexact Hr
  iintro ⟨Hb, Hheld⟩
  ihave Hh := (Entails.of_eq (held_V8 (F := F) m d)) $$ Hheld
  icases Hh with ⟨-, Hr⟩
  rw [wp_ret]; imodintro; imodintro
  isplitl [Hst]; · iexact Hst
  isplitl [Hr]; · iexact Hr
  isplitl [Hx]; · iexact Hx
  iexact Ha

/-! ## How the final memory reads the claim -/

def fq (d : Dev nD) (s' : Phys nD τ sig (Elt F)) : Prop :=
  s'.mem.mem (rLoc d) = resF m d ∧ s'.mem.mem (xLoc d) = m (xLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hr, Hx, Ha⟩, HSI⟩
  ihave H := (persistent_entails_right (SI_pointsTo_agree (st := s') (ℓ := rLoc d) (I := Finset.univ) (q := fullShare) (f := resF m d))) $$ [HSI Hr]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := aLoc d) (I := Finset.univ) (q := fullShare) (f := m (aLoc d))) $$ [HSI Ha]
  · isplitl [HSI] <;> iassumption
  icases H with %h3
  ipureintro
  exact ⟨funext fun i => h1 i (Finset.mem_univ i), funext fun i => h2 i (Finset.mem_univ i), funext fun i => h3 i (Finset.mem_univ i)⟩

theorem hQ : ∀ s' : Phys nD τ sig (Elt F), (∀ d, fq m d s') → QC m (⟨⟩, s'.mem) := fun _ h => h

end Cert.Proof.KI

end
-- ==== Proof.PreRange.lean ====
/-
  The integer half of the precondition. The claim's precondition ends in two `jnp.all`s joined by "and": every entry of
  the table is finite, and every entry v of the index array satisfies 0 ≤ v ≤ 119 as a signed 32-bit integer. Only the
  second half is decoded here. A word that is between 0 and 119 signed has its sign bit clear, so the natural number it
  denotes is the same integer, and is below 120. Nothing here depends on how floats are read.
-/
import proofs.«203043_g45337674776592_cont_8to1_c_201_37_alg».proof.Pre_input_domain
import proofs.«203043_g45337674776592_cont_8to1_c_201_37_alg».proof.Proof.Spec
import Idealize.ShloMosaic.Lib.ReduceAll

noncomputable section

namespace Cert.Proof.PreRange

open Idealize.ShloMosaic Idealize.ShloMosaic.ValueIdx

/-- The scalar shape has one index. -/
instance : Subsingleton Cert.Pre_input_domain.S_.Idx := ⟨fun _ _ => funext fun d => d.elim0⟩

/-- A 32-bit word between 0 and 119 as a signed integer denotes a natural number below 120. -/
theorem toNat_lt_of_signed_range (v : BitVec 32) (h0 : (0#32).toInt ≤ v.toInt) (h1 : v.toInt ≤ (119#32).toInt) :
    v.toNat < 120 := by
  have e0 : (0#32 : BitVec 32).toInt = 0 := by decide
  have e1 : (119#32 : BitVec 32).toInt = 119 := by decide
  rw [e0] at h0
  rw [e1] at h1
  rw [BitVec.toInt_eq_toNat_cond] at h0 h1
  have := v.isLt
  split at h1 <;> omega

/-- Under the precondition every entry of the index array is one of 0 … 119. -/
theorem range {F : FTy → Type} [FloatOps F] [Cert.Pre_input_domain.Facts] (x : IVec Cert.Proof.Spec.SX 32)
    (a : FVec F Cert.Proof.Spec.SA .f32)
    (h : Cert.Pre_input_domain.fn (F := F) x a = fun _ => 1#1) : ∀ i, (x i).toNat < 120 := by
  intro i
  have e := congrFun h ix0
  unfold Cert.Pre_input_domain.fn at e
  dsimp only at e
  obtain ⟨-, e2⟩ := IntOp.andi_eq_one.1 e
  have e3 := Host.reduce_andi_all _ _ _ _ _ e2 i
  obtain ⟨h0, h1⟩ := IntOp.andi_eq_one.1 e3
  exact toNat_lt_of_signed_range _ (IntOp.cmpi_sge.1 h0) (IntOp.cmpi_sle.1 h1)

end Cert.Proof.PreRange

end
-- ==== Proof.KI.Run.lean ====
/-
  The program's run: every weakly fair execution of @main on the TensorCore and of the one call's tasks on the 32 vector
  subcores terminates with the result at `resF` and the two arguments unchanged — the launch theorem applied to the
  task's obligation, the split of a SparseCore's operands, the launch element, @main's proof and the reading of the
  final memory. The claim's precondition gives what the proof asks of the launch memory (every row number in 0 … 119).
-/
import proofs.«203043_g45337674776592_cont_8to1_c_201_37_alg».proof.Proof.KI.Body
import proofs.«203043_g45337674776592_cont_8to1_c_201_37_alg».proof.Proof.KI.Split
import proofs.«203043_g45337674776592_cont_8to1_c_201_37_alg».proof.Proof.KI.Elem
import proofs.«203043_g45337674776592_cont_8to1_c_201_37_alg».proof.Proof.KI.Main
import proofs.«203043_g45337674776592_cont_8to1_c_201_37_alg».proof.Proof.KI.Value
import proofs.«203043_g45337674776592_cont_8to1_c_201_37_alg».proof.Proof.PreRange

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F]

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => vecSplit m)
    m ρ main (fun _ => iprop(emp)) (FIN m) (u₀ (F := F)) (hu₀ m) (hmain m ρ) (fq m) (hfin m) (QC m) (hQ m)

/-- The claim's precondition — every table entry finite and every row number in 0 … 119, as jax computes it, all ones —
    gives what the proof asks of the launch memory. -/
theorem ok_of_pre [Cert.Pre_input_domain.Facts] (h : ∀ c : Dev nD, Cert.Pre_input_domain.fn (F := F) (m (xLoc c)) (m (aLoc c)) = fun _ => 1#1) : PreOK m :=
  fun d j => Cert.Proof.PreRange.range (m (xLoc d)) (m (aLoc d)) (h d) j

end Cert.Proof.KI

end
-- ==== Proof.KB.Common.lean ====
/-
  The embedding lookup on the SparseCores, as the launch theorem sees it: the program's configuration, the ghost state
  (the launch handshakes' rounds, the subcore barrier's rounds, the transfers' counters), the arrays the one call moves
  and what each holds, and what the handshakes carry.

  The mathematics. The host pads the table `a` [120, 200] with zeros to `tblW` [120, 256] and regroups the row numbers
  `x` [4096, 100] as `idx3` [32, 128, 100]: worker w = 2·s + c (vector subcore s of SparseCore c) owns rows
  128·w … 128·w + 127 of `x` and of the result. On each SparseCore, subcore 0 copies columns 0 … 127 of `tblW` into
  the shared buffer `tbl_a`, subcore 1 columns 128 … 255 into `tbl_b`; all sixteen subcores meet at the barrier, after
  which each reads both shared buffers. For each of its 128 rows j a worker gathers the 100 table rows named by
  idx3(w, j, ·) from `tbl_a` and from `tbl_b` and writes them to columns 0 … 127 and 128 … 255 of row 128·w + j of the
  result [4096, 100, 256]. So the result at (R, r, k) is tblW(x(R, r), k): `outF`.
-/
import proofs.«203043_g45337674776592_cont_8to1_c_201_37_alg».proof.Defs
import proofs.«203043_g45337674776592_cont_8to1_c_201_37_alg».proof.Proof.Spec
import proofs.«203043_g45337674776592_cont_8to1_c_201_37_alg».proof.Proof.Gen.Kernel
import proofs.«203043_g45337674776592_cont_8to1_c_201_37_alg».proof.Proof.Gen.Kernel.Skeleton
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and what they hold -/

variable (m : (ℓ : Loc nD τ sig) → Buf (Elt F) ℓ) (ρ : Dev nD → PrngReg)

/-- The row numbers `x` and the table `a` (the program's arguments); the regrouped row numbers, the padded table, the
    kernel's result [4096, 100, 256] and the program's result [4096, 100, 200]. -/
abbrev xLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev tLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-- SparseCore `c`'s two shared buffers, as every tile of it addresses them. -/
abbrev shARef (c : Fin τ.nSC) : DevRef τ sig := ⟨.shared, ⟨0, by decide⟩, c⟩
abbrev shBRef (c : Fin τ.nSC) : DevRef τ sig := ⟨.shared, ⟨1, by decide⟩, c⟩
abbrev shALoc (d : Dev nD) (c : Fin τ.nSC) : Loc nD τ sig := (d, shARef c)
abbrev shBLoc (d : Dev nD) (c : Fin τ.nSC) : Loc nD τ sig := (d, shBRef c)

variable [FloatOps F]

/-- The row numbers regrouped [32, 128, 100]: the host's reshape, row-major. -/
def idx3 (d : Dev nD) : Buf (Elt F) (iLoc d) :=
  shapeCast S32x128x100 (m (xLoc d)) shapeCasts_S4096x100_S32x128x100
/-- The table padded with zero columns to [120, 256]: the host's update of a zero array at the origin. -/
def tblW (d : Dev nD) : Buf (Elt F) (tLoc d) :=
  Host.dynamicUpdateSlice (broadcastInDim S120x256 ![] bcast_S_S120x256 (constant (F := F) S_ .f32 0x00000000#32)) (m (aLoc d))
    (fun _ => ((constantI S_ 32 0#32 : IVec S_ 32) (Shape.Idx.first h_S_)).toInt) updateFits_S120x256_S120x200

/-- The left and the right half of the padded table, as the shared buffers hold them. -/
def tblA (d : Dev nD) (c : Fin τ.nSC) : Buf (Elt F) (shALoc d c) :=
  fun i => tblW m d (ix2 (i 0) ⟨(i 1).val, by have h : (i 1).val < 128 := (i 1).isLt; omega⟩)
def tblB (d : Dev nD) (c : Fin τ.nSC) : Buf (Elt F) (shBLoc d c) :=
  fun i => tblW m d (ix2 (i 0) ⟨(i 1).val + 128, by have h : (i 1).val < 128 := (i 1).isLt; omega⟩)

/-- What the kernel leaves in its result [4096, 100, 256]: at (R, r, k) entry k of the padded table's row x(R, r),
    the row number read off the regrouped array at (R / 128, R % 128, r). -/
def outF (d : Dev nD) : Buf (Elt F) (oLoc d) :=
  fun i => tblW m d (ix2 (Cert.Proof.Spec.rowOf (idx3 m d (ix3 ⟨(i 0).val / 128, by have h : (i 0).val < 4096 := (i 0).isLt; omega⟩
      ⟨(i 0).val % 128, Nat.mod_lt _ (by decide)⟩ (i 1)))) (i 2))

/-- What the proof asks of the launch memory: every row number is one of 0 … 119. -/
def PreOK : Prop := ∀ (d : Dev nD) (j : S4096x100.Idx), (m (xLoc d) j).toNat < 120

/-! ## Shares -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker w's share (of 32) of a read-only array; subcore s's share (of 16) of a shared buffer. -/
abbrev wq (w : Fin 32) : PosShare TreeShare := leaf 5 fullShare w
abbrev sq (s : Fin 16) : PosShare TreeShare := leaf 4 fullShare s

/-- The worker number of subcore `s` of SparseCore `c`. -/
def wid (c : Fin 2) (s : Fin 16) : Fin 32 := ⟨2 * s.val + c.val, by omega⟩

end Cert.Proof.KB

end
-- ==== Proof.KB.Pay.lean ====
/-
  The subcore barrier's cells and what crosses the barrier, and what the launch handshakes carry for the one call.

  The barrier. Each tile (c, j) has a barrier cell; its one round has a unit duty per tile of its SparseCore. Tile 0's
  duty in tile j's round hands over share j (of 16) of the shared buffer `tbl_a`, holding the left half of the padded
  table, which tile 0 has just written and waited for; tile 1's duty hands over share j of `tbl_b`, the right half.
  So after the barrier every tile holds a read share of both halves.

  The call. Worker w = 2·s + c is handed a read share of the regrouped row numbers, the 256 half-rows of the result it
  writes (32 trips × 4 rows × 2 halves, each spelt as the kernel addresses it), and — subcores 0 and 1 only — a read
  share of the padded table and the shared buffer it fills. It hands back the same, the half-rows at `outF`, and its
  shares of the two shared buffers.
-/
import proofs.«203043_g45337674776592_cont_8to1_c_201_37_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "oV" => (Memref.whole Cert.Kernel.main_v3_scv : Memref Cert.Kernel.sig Kind.scVector Space.hbm Cert.Kernel.S4096x100x256 EltTy.f32)

variable (m : (ℓ : Loc nD τ sig) → Buf (Elt F) ℓ) (ρ : Dev nD → PrngReg)

theorem nSub_eq : τ.nSub = 16 := rfl
theorem nSC_eq : τ.nSC = 2 := rfl

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What duty `n` in tile `j`'s round hands over: tile 0's, share `j` of `tbl_a` at the table's left half; tile 1's,
    share `j` of `tbl_b` at the right half; the others', nothing. -/
def bPay (g : GSem nD τ sig) (n : ℕ) : sProp 𝕄 :=
  match g with
  | ((d, .scVector c j), _) =>
      if n = 0 then (shALoc d c ↦{sq (Fin.cast nSub_eq j)} tblA m d c)
      else if n = 1 then (shBLoc d c ↦{sq (Fin.cast nSub_eq j)} tblB m d c)
      else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing),
    its duty token in every tile's round 0, that each cell has reached round 0, its own position at the origin of
    round 0, and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## The half-rows of the result, as the kernel addresses them -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- Row `4·t + r` of worker `L`'s block of the result, [100, 256], and its two halves [100, 128]. -/
abbrev oRowK (L : grid0.Coords) (t : Fin k0_t1_loop.trips) (r : Fin 4) : Memref sig .scVector .hbm S100x256 .f32 :=
  ((oV).slice (Rect.unit (s := S4096x100x256) (k0_off4 L t (BitVec.ofNat 32 r.val)) S1x100x256.size (k0_off4_inb L t r)) (fun _ => rfl)).squeeze S100x256 squeezes_S1x100x256_S100x256
abbrev oHalfA (L : grid0.Coords) (t : Fin k0_t1_loop.trips) (r : Fin 4) : Memref sig .scVector .hbm S100x128 .f32 :=
  (oRowK L t r).slice (Rect.unit (s := S100x256) ![0, 0] S100x128.size inb_S100x256_S100x128_0_0) (fun _ => rfl)
abbrev oHalfB (L : grid0.Coords) (t : Fin k0_t1_loop.trips) (r : Fin 4) : Memref sig .scVector .hbm S100x128 .f32 :=
  (oRowK L t r).slice (Rect.unit (s := S100x256) ![0, 128] S100x128.size inb_S100x256_S100x128_0_128) (fun _ => rfl)

/-- Worker `L`'s 256 half-rows of the result at contents `f`. -/
def oPieces (d : Dev nD) (L : grid0.Coords) (f : Buf (Elt F) (oLoc d)) : sProp 𝕄 :=
  bigSep Finset.univ fun t : Fin k0_t1_loop.trips => bigSep Finset.univ fun r : Fin 4 =>
    iprop((oLoc d ↦[(oHalfA L t r).view.set]{fullShare} f) ∗ (oLoc d ↦[(oHalfB L t r).view.set]{fullShare} f))

/-! ## What the handshakes carry -/

abbrev coreOf (c : Fin ((K (F := F)).nCore 0)) : Fin τ.nSC := (K (F := F)).core 0 c
abbrev subOf (i : Fin ((K (F := F)).nSub 0)) : Fin τ.nSub := (K (F := F)).sub 0 i
/-- The grid coordinates of task `i` of the call's SparseCore `c`. -/
abbrev coordsOf (c : Fin ((K (F := F)).nCore 0)) (i : Fin ((K (F := F)).nSub 0)) : grid0.Coords := coordsV (Fin.cast nCore_zero c) (Fin.cast nSub_zero i)
abbrev widOf (c : Fin ((K (F := F)).nCore 0)) (i : Fin ((K (F := F)).nSub 0)) : Fin 32 := wid (Fin.cast nCore_zero c) (Fin.cast nSub_zero i)

/-- What subcore 0 (the left half) and subcore 1 (the right half) are handed besides: a read share of the padded
    table, and the shared buffer to fill. -/
def fillA (d : Dev nD) (c : Fin ((K (F := F)).nCore 0)) (i : Fin ((K (F := F)).nSub 0)) : sProp 𝕄 :=
  if i.val = 0 then iprop((tLoc d ↦{wq (widOf c i)} tblW m d) ∗ ∃ f, shALoc d (coreOf c) ↦{fullShare} f) else iprop(emp)
def fillB (d : Dev nD) (c : Fin ((K (F := F)).nCore 0)) (i : Fin ((K (F := F)).nSub 0)) : sProp 𝕄 :=
  if i.val = 1 then iprop((tLoc d ↦{wq (widOf c i)} tblW m d) ∗ ∃ f, shBLoc d (coreOf c) ↦{fullShare} f) else iprop(emp)
/-- and what they hand back of it: the table's share. -/
def fillA' (d : Dev nD) (c : Fin ((K (F := F)).nCore 0)) (i : Fin ((K (F := F)).nSub 0)) : sProp 𝕄 :=
  if i.val = 0 then (tLoc d ↦{wq (widOf c i)} tblW m d) else iprop(emp)
def fillB' (d : Dev nD) (c : Fin ((K (F := F)).nCore 0)) (i : Fin ((K (F := F)).nSub 0)) : sProp 𝕄 :=
  if i.val = 1 then (tLoc d ↦{wq (widOf c i)} tblW m d) else iprop(emp)

/-- A task's operands and its results. -/
def goV (d : Dev nD) (c : Fin ((K (F := F)).nCore 0)) (i : Fin ((K (F := F)).nSub 0)) : sProp 𝕄 :=
  iprop((iLoc d ↦{wq (widOf c i)} idx3 m d) ∗ oPieces d (coordsOf c i) (m (oLoc d)) ∗ fillA m d c i ∗ fillB m d c i)
def tdV (d : Dev nD) (c : Fin ((K (F := F)).nCore 0)) (i : Fin ((K (F := F)).nSub 0)) : sProp 𝕄 :=
  iprop((iLoc d ↦{wq (widOf c i)} idx3 m d) ∗ oPieces d (coordsOf c i) (outF m d) ∗ fillA' m d c i ∗ fillB' m d c i
    ∗ (shALoc d (coreOf c) ↦{sq (Fin.cast nSub_zero i)} tblA m d (coreOf c)) ∗ (shBLoc d (coreOf c) ↦{sq (Fin.cast nSub_zero i)} tblB m d (coreOf c)))

/-- The read share of the padded table that the two filling subcores carry. -/
def tblShare (d : Dev nD) (c : Fin ((K (F := F)).nCore 0)) (i : Fin ((K (F := F)).nSub 0)) : sProp 𝕄 :=
  if i.val = 0 ∨ i.val = 1 then (tLoc d ↦{wq (widOf c i)} tblW m d) else iprop(emp)

/-- A SparseCore's operands: its sixteen tasks' but the shared buffers (its sequencer's own); its results: its tasks'
    but their shares of the shared buffers. -/
def stV (d : Dev nD) (c : Fin ((K (F := F)).nCore 0)) : sProp 𝕄 :=
  bigSep Finset.univ fun i : Fin ((K (F := F)).nSub 0) =>
    iprop((iLoc d ↦{wq (widOf c i)} idx3 m d) ∗ oPieces d (coordsOf c i) (m (oLoc d))
      ∗ tblShare m d c i)
def dnV (d : Dev nD) (c : Fin ((K (F := F)).nCore 0)) : sProp 𝕄 :=
  bigSep Finset.univ fun i : Fin ((K (F := F)).nSub 0) =>
    iprop((iLoc d ↦{wq (widOf c i)} idx3 m d) ∗ oPieces d (coordsOf c i) (outF m d)
      ∗ tblShare m d c i)

instance fillA_storable (d : Dev nD) (c : Fin ((K (F := F)).nCore 0)) (i : Fin ((K (F := F)).nSub 0)) : BI.Storable (upEmb : UEmb _ 𝕄) (fillA m d c i) := by
  unfold fillA; split <;> infer_instance
instance fillB_storable (d : Dev nD) (c : Fin ((K (F := F)).nCore 0)) (i : Fin ((K (F := F)).nSub 0)) : BI.Storable (upEmb : UEmb _ 𝕄) (fillB m d c i) := by
  unfold fillB; split <;> infer_instance
instance fillA'_storable (d : Dev nD) (c : Fin ((K (F := F)).nCore 0)) (i : Fin ((K (F := F)).nSub 0)) : BI.Storable (upEmb : UEmb _ 𝕄) (fillA' m d c i) := by
  unfold fillA'; split <;> infer_instance
instance fillB'_storable (d : Dev nD) (c : Fin ((K (F := F)).nCore 0)) (i : Fin ((K (F := F)).nSub 0)) : BI.Storable (upEmb : UEmb _ 𝕄) (fillB' m d c i) := by
  unfold fillB'; split <;> infer_instance
instance tblShare_storable (d : Dev nD) (c : Fin ((K (F := F)).nCore 0)) (i : Fin ((K (F := F)).nSub 0)) : BI.Storable (upEmb : UEmb _ 𝕄) (tblShare m d c i) := by
  unfold tblShare; split <;> infer_instance
omit [FloatOps F] in
instance oPieces_storable (d : Dev nD) (L : grid0.Coords) (f : Buf (Elt F) (oLoc d)) : BI.Storable (upEmb : UEmb _ 𝕄) (oPieces d L f) := by
  unfold oPieces; infer_instance
instance goV_storable (d : Dev nD) (c : Fin ((K (F := F)).nCore 0)) (i : Fin ((K (F := F)).nSub 0)) : BI.Storable (upEmb : UEmb _ 𝕄) (goV m d c i) := by
  unfold goV; infer_instance
instance tdV_storable (d : Dev nD) (c : Fin ((K (F := F)).nCore 0)) (i : Fin ((K (F := F)).nSub 0)) : BI.Storable (upEmb : UEmb _ 𝕄) (tdV m d c i) := by
  unfold tdV; infer_instance
instance stV_storable (d : Dev nD) (c : Fin ((K (F := F)).nCore 0)) : BI.Storable (upEmb : UEmb _ 𝕄) (stV m d c) := by
  unfold stV; infer_instance
instance dnV_storable (d : Dev nD) (c : Fin ((K (F := F)).nCore 0)) : BI.Storable (upEmb : UEmb _ 𝕄) (dnV m d c) := by
  unfold dnV; infer_instance

/-- The one call: each task its operands and results; each task's proof consumes its barrier kit; each tile owes its
    arrivals at the barrier. -/
def P : (K (F := F)).Pay (nD := nD) (Val := Elt F) (Name := ℕ) (U := UU) where
  st := fun q d c => match q with | 0 => stV m d c
  dn := fun q d c => match q with | 0 => dnV m d c
  go := fun q d c i => match q with | 0 => goV m d c i
  td := fun q d c i => match q with | 0 => tdV m d c i
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

/-! ## The program's result and what the run ends with -/

/-- The program's result [4096, 100, 200]: the first 200 columns of what the kernel leaves. -/
def resF (d : Dev nD) : Buf (Elt F) (rLoc d) :=
  extractStridedSlice S4096x100x200 ![0, 0, 0] (outF m d) slices_S4096x100x256_S4096x100x200_0_0_0

/-- What the run ends with: the result at `resF`, the two arguments unchanged. -/
def QC : PUnit × MemSt nD τ sig (Elt F) → Prop := fun r =>
  ∀ c : Dev nD, r.2.mem (rLoc c) = resF m c ∧ r.2.mem (xLoc c) = m (xLoc c) ∧ r.2.mem (aLoc c) = m (aLoc c)

instance P_storable : (P (F := F) m).IsStorable where
  st q d c := match q with | 0 => stV_storable m d c
  dn q d c := match q with | 0 => dnV_storable m d c
  go q d c i := match q with | 0 => goV_storable m d c i
  td q d c i := match q with | 0 => tdV_storable m d c i

end Cert.Proof.KB

end
-- ==== Proof.KB.Own.lean ====
/-
  A vector subcore's own scoped storage, split into the pieces the kernel names.

  The mathematics. A tile's own scoped semaphore cells are a finite set; so are its own buffers. The kernel names
  nineteen of the cells (its DMA semaphores, all scoped) and nine of the buffers (its private scratch; the two shared
  buffers are the SparseCore's, not the tile's). A big separating conjunction over a finite set s, and a duplicate-free
  list l of members of s, is the conjunct at each entry of l in turn beside the big conjunction over s \ l: peel the
  entries off one at a time, each absent from what is left because the list has no duplicates. The nineteen semaphores
  are pairwise distinct because their numbers are, and the map from a semaphore's number to the tile's cell is
  injective; likewise the nine buffers under the map from a tile's reference to the device's buffer.
-/
import proofs.«203043_g45337674776592_cont_8to1_c_201_37_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## Peeling a list off a big separating conjunction -/

namespace Own

/-- The conjuncts at a duplicate-free list, one after the other, beside the big conjunction over a set the list
    avoids: together the big conjunction over both. -/
theorem bigSep_peel {M : Type} [URA M] {I : Type} [DecidableEq I] (Φ : I → sProp M) (t : Finset I) (l : List I)
    (hn : l.Nodup) (hd : ∀ a ∈ l, a ∉ t) :
    bigSep (l.toFinset ∪ t) Φ = l.foldr (fun a acc => iprop(Φ a ∗ acc)) (bigSep t Φ) := by
  induction l with
  | nil =>
    show bigSep (([] : List I).toFinset ∪ t) Φ = bigSep t Φ
    rw [List.toFinset_nil, Finset.empty_union]
  | cons a l ih =>
    have hn' := List.nodup_cons.mp hn
    have hnot : a ∉ l.toFinset ∪ t := fun h => by
      rcases Finset.mem_union.mp h with h | h
      · exact hn'.1 (List.mem_toFinset.mp h)
      · exact hd a (List.mem_cons.mpr (Or.inl rfl)) h
    show bigSep ((a :: l).toFinset ∪ t) Φ = iprop(Φ a ∗ l.foldr (fun a acc => iprop(Φ a ∗ acc)) (bigSep t Φ))
    rw [List.toFinset_cons, Finset.insert_union, SparseCore.bigSep_insert' hnot, ih hn'.2 fun b hb => hd b (List.mem_cons_of_mem _ hb)]

/-- A duplicate-free list of members of a finite set, peeled off the big conjunction over the set; what is left is
    named, so that a use may name it as it pleases. -/
theorem bigSep_peel_sub {M : Type} [URA M] {I : Type} [DecidableEq I] (Φ : I → sProp M) (s : Finset I) (l : List I)
    (R : Finset I) (hR : R = s \ l.toFinset) (hn : l.Nodup) (hs : ∀ a ∈ l, a ∈ s) :
    bigSep s Φ = l.foldr (fun a acc => iprop(Φ a ∗ acc)) (bigSep R Φ) := by
  subst hR
  have h : l.toFinset ∪ s \ l.toFinset = s := Finset.union_sdiff_of_subset fun a ha => hs a (List.mem_toFinset.mp ha)
  calc bigSep s Φ = bigSep (l.toFinset ∪ s \ l.toFinset) Φ := by rw [h]
    _ = _ := bigSep_peel Φ (s \ l.toFinset) l hn fun a ha h' => (Finset.mem_sdiff.mp h').2 (List.mem_toFinset.mpr ha)

/-- The tile's nineteen DMA semaphores, in the order the kernel names them. -/
def dsems : List (DmaSem sig) :=
  [cc0_scratch11.sem, cc0_scratch12.sem, cc0_scratch13.sem, cc0_scratch14.sem, cc0_scratch15.sem, cc0_scratch16.sem, cc0_scratch17.sem, cc0_scratch18.sem, cc0_scratch19.sem, cc0_scratch20.sem, cc0_scratch21.sem, cc0_scratch22.sem, cc0_scratch23.sem, cc0_scratch24.sem, cc0_scratch25.sem, cc0_scratch26.sem, cc0_scoped0.sem, cc0_scoped1.sem, cc0_scoped2.sem]

/-- The tile's nine private scratch buffers, in the order the kernel names them. -/
def drefs : List (Ref sig .scVector) := [cc0_scratch0, cc0_scratch3, cc0_scratch4, cc0_scratch5, cc0_scratch6, cc0_scratch7, cc0_scratch8, cc0_scratch9, cc0_scratch10]

theorem dsems_nodup : dsems.Nodup := by decide
theorem dsems_scoped : ∀ k ∈ dsems, (SemLoc.dma k : SemLoc sig).isScoped .scVector = true := by decide
theorem drefs_nodup : drefs.Nodup := by decide
/-- Each of the nine is the tile's own, not its SparseCore's. -/
theorem drefs_owner (c : Fin τ.nSC) (j : Fin τ.nSub) :
    ∀ r ∈ drefs, ((Proc.scVector c j).devRef r : DevRef τ sig).owner = .proc (.scVector c j) := by
  intro r hr
  simp only [drefs, List.mem_cons, List.mem_nil_iff, or_false] at hr
  rcases hr with rfl | rfl | rfl | rfl | rfl | rfl | rfl | rfl | rfl <;> rfl

end Own

/-! ## The tile at grid coordinates L -/

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)
/-- The tile's cell of DMA semaphore k. -/
abbrev dcell (d : Dev nD) (L : grid0.Coords) (k : DmaSem sig) : GSem nD τ sig := (V d (cV L) (jV L), .dma k)

theorem dcell_injective : Function.Injective (dcell d L) := fun _ _ e => SemLoc.dma.inj (Prod.mk.inj e).2

/-- The tile's own scoped cells other than the nineteen the kernel names. -/
def restCells (d : Dev nD) (L : grid0.Coords) : Finset (GSem nD τ sig) :=
  ownCells (V d (cV L) (jV L)) \ (Own.dsems.map (dcell d L)).toFinset
/-- The tile's own buffers other than the nine the kernel names. -/
def restRefs (L : grid0.Coords) : Finset (DevRef τ sig) :=
  ownRefs (τ := τ) (.scVector (cV L) (jV L)) \ (Own.drefs.map (Proc.scVector (cV L) (jV L)).devRef).toFinset

/-- The nineteen DMA semaphores are among the tile's own scoped cells: they, each at zero, and the rest. -/
theorem ownSems0_V :
    (ownSems0 (V d (cV L) (jV L)) : sProp 𝕄)
      = iprop(semVal (dcell d L cc0_scratch11.sem) 0 ∗ semVal (dcell d L cc0_scratch12.sem) 0 ∗ semVal (dcell d L cc0_scratch13.sem) 0
          ∗ semVal (dcell d L cc0_scratch14.sem) 0 ∗ semVal (dcell d L cc0_scratch15.sem) 0 ∗ semVal (dcell d L cc0_scratch16.sem) 0
          ∗ semVal (dcell d L cc0_scratch17.sem) 0 ∗ semVal (dcell d L cc0_scratch18.sem) 0 ∗ semVal (dcell d L cc0_scratch19.sem) 0
          ∗ semVal (dcell d L cc0_scratch20.sem) 0 ∗ semVal (dcell d L cc0_scratch21.sem) 0 ∗ semVal (dcell d L cc0_scratch22.sem) 0
          ∗ semVal (dcell d L cc0_scratch23.sem) 0 ∗ semVal (dcell d L cc0_scratch24.sem) 0 ∗ semVal (dcell d L cc0_scratch25.sem) 0
          ∗ semVal (dcell d L cc0_scratch26.sem) 0 ∗ semVal (dcell d L cc0_scoped0.sem) 0 ∗ semVal (dcell d L cc0_scoped1.sem) 0
          ∗ semVal (dcell d L cc0_scoped2.sem) 0
          ∗ bigSep (restCells d L) fun g => semVal g 0) := by
  unfold SparseCore.Cfg.ownSems0
  have h := Own.bigSep_peel_sub (fun g => (semVal g 0 : sProp 𝕄)) (ownCells (V d (cV L) (jV L))) (Own.dsems.map (dcell d L))
    (restCells d L) rfl (List.Nodup.map (dcell_injective d L) Own.dsems_nodup)
    (fun a ha => by
      obtain ⟨k, hk, rfl⟩ := List.mem_map.mp ha
      exact mem_ownCells.mpr ⟨rfl, Own.dsems_scoped k hk⟩)
  simp only [Own.dsems, List.map_cons, List.map_nil, List.foldr_cons, List.foldr_nil] at h
  exact h

/-- The nine scratch buffers are among the tile's own: they, each whole at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch3 ↦{fullShare} f) ∗ (∃ f, (V d (cV L) (jV L)).loc cc0_scratch4 ↦{fullShare} f)
          ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
          ∗ (∃ f, (V d (cV L) (jV L)).loc cc0_scratch8 ↦{fullShare} f) ∗ (∃ f, (V d (cV L) (jV L)).loc cc0_scratch9 ↦{fullShare} f) ∗ (∃ f, (V d (cV L) (jV L)).loc cc0_scratch10 ↦{fullShare} f)
          ∗ bigSep (restRefs L) fun b => iprop(∃ f, ((d, b) : Loc nD τ sig) ↦{fullShare} f)) := by
  unfold SparseCore.Cfg.ownBufs
  have h := Own.bigSep_peel_sub (fun b : DevRef τ sig => (iprop(∃ f, ((d, b) : Loc nD τ sig) ↦{fullShare} f) : sProp 𝕄))
    (ownRefs (τ := τ) (.scVector (cV L) (jV L))) (Own.drefs.map (Proc.scVector (cV L) (jV L)).devRef)
    (restRefs L) rfl (List.Nodup.map (Proc.devRef_injective _) Own.drefs_nodup)
    (fun b hb => by
      obtain ⟨r, hr, rfl⟩ := List.mem_map.mp hb
      exact SparseCore.Cfg.mem_ownRefs_of_owner (Own.drefs_owner (cV L) (jV L) r hr))
  simp only [Own.drefs, List.map_cons, List.map_nil, List.foldr_cons, List.foldr_nil] at h
  exact h

end Cert.Proof.KB

end
-- ==== Proof.KB.Geom.lean ====
/-
  How the arrays divide among the 32 workers: a read-only array into 32 equal shares, a shared buffer into 16, and the
  kernel's result [4096, 100, 256] into the 32 × 32 × 4 × 2 half-rows [100, 128] the workers write (worker w = 2·s + c,
  trip t, row r of the trip: row 128·w + 4·t + r of the result, columns 0 … 127 or 128 … 255), which are pairwise
  disjoint and cover it.
-/
import proofs.«203043_g45337674776592_cont_8to1_c_201_37_alg».proof.Proof.KB.Pay
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "oV" => (Memref.whole Cert.Kernel.main_v3_scv : Memref Cert.Kernel.sig Kind.scVector Space.hbm Cert.Kernel.S4096x100x256 EltTy.f32)

/-! ## Shares: a points-to at a share is its leaves' -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once: halve the share, and each half is its own leaves'. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker numbers: (c, s) ↦ 2·s + c is a bijection of 2 × 16 onto 32. -/
def pairEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, s⟩
    have hc := c.isLt
    have hs := s.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- The same over the call's own index types. -/
def wEquiv : Fin ((K (F := F)).nCore 0) × Fin ((K (F := F)).nSub 0) ≃ Fin (2 ^ 5) :=
  ((finCongr nCore_zero).prodCongr (finCongr nSub_zero)).trans pairEquiv

theorem wEquiv_apply (c : Fin ((K (F := F)).nCore 0)) (i : Fin ((K (F := F)).nSub 0)) : wEquiv (c, i) = widOf c i := rfl

/-- A full points-to is the 32 workers' shares of it. -/
theorem pts_wq {ℓ : Loc nD τ sig} (f : Buf (Elt F) ℓ) :
    (ℓ ↦{fullShare} f : sProp 𝕄) = bigSep Finset.univ fun c : Fin ((K (F := F)).nCore 0) =>
      bigSep Finset.univ fun i : Fin ((K (F := F)).nSub 0) => ℓ ↦{wq (widOf c i)} f :=
  (pointsTo_leaves Finset.univ f 5 fullShare).trans <|
    (bigSep_univ_equiv (wEquiv (F := F)) (fun w : Fin (2 ^ 5) => (ℓ ↦{leaf 5 fullShare w} f : sProp 𝕄))).trans <|
      bigSep_univ_prod (fun p : Fin ((K (F := F)).nCore 0) × Fin ((K (F := F)).nSub 0) => (ℓ ↦{leaf 5 fullShare (wEquiv p)} f : sProp 𝕄))

/-- A full points-to is the 16 subcores' shares of it. -/
theorem pts_sq {ℓ : Loc nD τ sig} (f : Buf (Elt F) ℓ) :
    (ℓ ↦{fullShare} f : sProp 𝕄) = bigSep Finset.univ fun i : Fin ((K (F := F)).nSub 0) => ℓ ↦{sq (Fin.cast nSub_zero i)} f :=
  (pointsTo_leaves Finset.univ f 4 fullShare).trans <|
    bigSep_univ_equiv (finCongr (nSub_zero (F := F))) (fun s : Fin (2 ^ 4) => (ℓ ↦{leaf 4 fullShare s} f : sProp 𝕄))

/-! ## The elements of a half-row -/

theorem geom_trips_eq : k0_t1_loop.trips = 32 := by decide

theorem geom_lt4096 {R : ℕ} (inb : ∀ a, (![R, 0, 0] : Fin 3 → ℕ) a + S1x100x256.size a ≤ S4096x100x256.size a) : R < 4096 := by
  have h := inb 0
  have e : (![R, 0, 0] : Fin 3 → ℕ) 0 + S1x100x256.size 0 = R + 1 := rfl
  have e' : S4096x100x256.size 0 = 4096 := rfl
  omega
theorem geom_lt256 {c0 : ℕ} (inb2 : ∀ a, (![0, c0] : Fin 2 → ℕ) a + S100x128.size a ≤ S100x256.size a) (b : Fin 128) : c0 + b.val < 256 := by
  have h := inb2 1
  have e : (![0, c0] : Fin 2 → ℕ) 1 + S100x128.size 1 = c0 + 128 := rfl
  have e' : S100x256.size 1 = 256 := rfl
  have := b.isLt
  omega

/-- Where an index (a, b) of a half-row sits in the result: at the row, at a, and at b moved by the half's first column. -/
theorem half_emb {R c0 : ℕ} (inb : ∀ a, (![R, 0, 0] : Fin 3 → ℕ) a + S1x100x256.size a ≤ S4096x100x256.size a)
    (inb2 : ∀ a, (![0, c0] : Fin 2 → ℕ) a + S100x128.size a ≤ S100x256.size a) (a : Fin 100) (b : Fin 128) :
    ((((oV).slice (Rect.unit (s := S4096x100x256) ![R, 0, 0] S1x100x256.size inb) (fun _ => rfl)).squeeze S100x256 squeezes_S1x100x256_S100x256).slice
          (Rect.unit (s := S100x256) ![0, c0] S100x128.size inb2) (fun _ => rfl)).view.emb (ix2 a b)
      = ix3 (⟨R, geom_lt4096 inb⟩ : Fin 4096) a (⟨c0 + b.val, geom_lt256 inb2 b⟩ : Fin 256) := by
  show (Rect.unit (s := S4096x100x256) ![R, 0, 0] S1x100x256.size inb).emb
      (Shape.reshapeEquiv squeezes_S1x100x256_S100x256.numel_eq ((Rect.unit (s := S100x256) ![0, c0] S100x128.size inb2).emb (ix2 a b))) = _
  have e2 : (Rect.unit (s := S100x256) ![0, c0] S100x128.size inb2).emb (ix2 a b) = ix2 a (⟨c0 + b.val, geom_lt256 inb2 b⟩ : Fin 256) := by
    funext k; refine Fin.ext ?_; rw [Rect.emb_apply]
    match k with
    | 0 => show 0 + 1 * a.val = a.val; omega
    | 1 => show c0 + 1 * b.val = c0 + b.val; omega
  rw [e2, reshapeEquiv_ix2_1ab]
  funext k; refine Fin.ext ?_; rw [Rect.emb_apply]
  match k with
  | 0 => show R + 1 * 0 = R; omega
  | 1 => show 0 + 1 * a.val = a.val; omega
  | 2 => show 0 + 1 * (c0 + b.val) = c0 + b.val; omega

/-- The elements of a half-row: the row, and the half's 128 columns. -/
theorem mem_half {R c0 : ℕ} (inb : ∀ a, (![R, 0, 0] : Fin 3 → ℕ) a + S1x100x256.size a ≤ S4096x100x256.size a)
    (inb2 : ∀ a, (![0, c0] : Fin 2 → ℕ) a + S100x128.size a ≤ S100x256.size a) (j : S4096x100x256.Idx) :
    j ∈ ((((oV).slice (Rect.unit (s := S4096x100x256) ![R, 0, 0] S1x100x256.size inb) (fun _ => rfl)).squeeze S100x256 squeezes_S1x100x256_S100x256).slice
          (Rect.unit (s := S100x256) ![0, c0] S100x128.size inb2) (fun _ => rfl)).view.set
      ↔ (j 0).val = R ∧ c0 ≤ (j 2).val ∧ (j 2).val < c0 + 128 := by
  unfold View.set
  rw [Finset.mem_map]
  constructor
  · rintro ⟨x, -, rfl⟩
    obtain ⟨a, b, rfl⟩ : ∃ (a : Fin 100) (b : Fin 128), x = ix2 a b := ⟨x 0, x 1, eq_ix2 x⟩
    rw [half_emb inb inb2 a b]
    exact ⟨rfl, Nat.le_add_right _ _, Nat.add_lt_add_left b.isLt _⟩
  · rintro ⟨h0, h1, h2⟩
    refine ⟨ix2 (⟨(j 1).val, (j 1).isLt⟩ : Fin 100) (⟨(j 2).val - c0, by omega⟩ : Fin 128), Finset.mem_univ _, (half_emb inb inb2 _ _).trans ?_⟩
    funext k; refine Fin.ext ?_
    match k with
    | 0 => exact h0.symm
    | 1 => rfl
    | 2 => show c0 + ((j 2).val - c0) = (j 2).val; omega

/-- The same with the row's offset given by an equation. -/
theorem mem_half' {R c0 : ℕ} (off : Fin 3 → ℕ) (hoff : off = ![R, 0, 0]) (inb : ∀ a, off a + S1x100x256.size a ≤ S4096x100x256.size a)
    (inb2 : ∀ a, (![0, c0] : Fin 2 → ℕ) a + S100x128.size a ≤ S100x256.size a) (j : S4096x100x256.Idx) :
    j ∈ ((((oV).slice (Rect.unit (s := S4096x100x256) off S1x100x256.size inb) (fun _ => rfl)).squeeze S100x256 squeezes_S1x100x256_S100x256).slice
          (Rect.unit (s := S100x256) ![0, c0] S100x128.size inb2) (fun _ => rfl)).view.set
      ↔ (j 0).val = R ∧ c0 ≤ (j 2).val ∧ (j 2).val < c0 + 128 := by
  subst hoff; exact mem_half inb inb2 j

theorem mem_oHalfA (L : grid0.Coords) (t : Fin k0_t1_loop.trips) (r : Fin 4) (j : S4096x100x256.Idx) :
    j ∈ (oHalfA L t r).view.set ↔ (j 0).val = 256 * (L 1).val + 128 * (L 0).val + 4 * t.val + r.val ∧ 0 ≤ (j 2).val ∧ (j 2).val < 0 + 128 :=
  mem_half' _ (k0_off4_eq L t r) (k0_off4_inb L t r) inb_S100x256_S100x128_0_0 j
theorem mem_oHalfB (L : grid0.Coords) (t : Fin k0_t1_loop.trips) (r : Fin 4) (j : S4096x100x256.Idx) :
    j ∈ (oHalfB L t r).view.set ↔ (j 0).val = 256 * (L 1).val + 128 * (L 0).val + 4 * t.val + r.val ∧ 128 ≤ (j 2).val ∧ (j 2).val < 128 + 128 :=
  mem_half' _ (k0_off4_eq L t r) (k0_off4_inb L t r) inb_S100x256_S100x128_0_128 j

/-! ## The half-rows: pairwise disjoint, and all of the result -/

/-- A half-row's name: SparseCore, subcore, trip, row of the trip, half. -/
abbrev HRow (F : FTy → Type) : Type :=
  Fin ((K (F := F)).nCore 0) × Fin ((K (F := F)).nSub 0) × Fin k0_t1_loop.trips × Fin 4 × Fin 2

/-- Its elements. -/
def hset (x : HRow F) : Finset S4096x100x256.Idx :=
  if x.2.2.2.2 = 0 then (oHalfA (coordsOf x.1 x.2.1) x.2.2.1 x.2.2.2.1).view.set else (oHalfB (coordsOf x.1 x.2.1) x.2.2.1 x.2.2.2.1).view.set

theorem hset_zero (c : Fin ((K (F := F)).nCore 0)) (i : Fin ((K (F := F)).nSub 0)) (t : Fin k0_t1_loop.trips) (r : Fin 4) :
    hset (F := F) (c, i, t, r, 0) = (oHalfA (coordsOf c i) t r).view.set := if_pos rfl
theorem hset_one (c : Fin ((K (F := F)).nCore 0)) (i : Fin ((K (F := F)).nSub 0)) (t : Fin k0_t1_loop.trips) (r : Fin 4) :
    hset (F := F) (c, i, t, r, 1) = (oHalfB (coordsOf c i) t r).view.set := if_neg (show ¬ (1 : Fin 2) = 0 by decide)

/-- Row 256·s + 128·c + 4·t + r, columns 128·h … 128·h + 127. -/
theorem mem_hset (c : Fin ((K (F := F)).nCore 0)) (i : Fin ((K (F := F)).nSub 0)) (t : Fin k0_t1_loop.trips) (r : Fin 4) (h : Fin 2) (j : S4096x100x256.Idx) :
    j ∈ hset (F := F) (c, i, t, r, h) ↔ (j 0).val = 256 * i.val + 128 * c.val + 4 * t.val + r.val ∧ 128 * h.val ≤ (j 2).val ∧ (j 2).val < 128 * h.val + 128 := by
  match h with
  | 0 => rw [hset_zero, mem_oHalfA]; exact Iff.rfl
  | 1 => rw [hset_one, mem_oHalfB]; exact Iff.rfl

theorem hset_disjoint {x x' : HRow F} (hne : x ≠ x') : Disjoint (hset x) (hset x') := by
  obtain ⟨c, i, t, r, h⟩ := x
  obtain ⟨c', i', t', r', h'⟩ := x'
  rw [Finset.disjoint_left]
  intro j hj hj'
  have h1 := (mem_hset c i t r h j).mp hj
  have h2 := (mem_hset c' i' t' r' h' j).mp hj'
  clear hj hj'
  have hc : c.val < 2 := c.isLt
  have hc' : c'.val < 2 := c'.isLt
  have hi : i.val < 16 := i.isLt
  have hi' : i'.val < 16 := i'.isLt
  have ht : t.val < 32 := Nat.lt_of_lt_of_eq t.isLt geom_trips_eq
  have ht' : t'.val < 32 := Nat.lt_of_lt_of_eq t'.isLt geom_trips_eq
  have hr := r.isLt
  have hr' := r'.isLt
  have hh := h.isLt
  have hh' := h'.isLt
  refine hne (Prod.ext (Fin.ext ?_) (Prod.ext (Fin.ext ?_) (Prod.ext (Fin.ext ?_) (Prod.ext (Fin.ext ?_) (Fin.ext ?_)))))
  · show c.val = c'.val; omega
  · show i.val = i'.val; omega
  · show t.val = t'.val; omega
  · show r.val = r'.val; omega
  · show h.val = h'.val; omega

theorem hset_cover : (Finset.univ : Finset (HRow F)).biUnion hset = Finset.univ := by
  ext j
  simp only [Finset.mem_biUnion, Finset.mem_univ, true_and, iff_true]
  have h0 : (j 0).val < 4096 := (j 0).isLt
  have h2 : (j 2).val < 256 := (j 2).isLt
  refine ⟨(⟨(j 0).val / 128 % 2, show _ < 2 by omega⟩, ⟨(j 0).val / 256, show _ < 16 by omega⟩,
      ⟨(j 0).val % 128 / 4, Nat.lt_of_lt_of_eq (show (j 0).val % 128 / 4 < 32 by omega) geom_trips_eq.symm⟩, ⟨(j 0).val % 4, by omega⟩, ⟨(j 2).val / 128, by omega⟩), ?_⟩
  refine (mem_hset _ _ _ _ _ j).mpr ⟨?_, ?_, ?_⟩
  · show (j 0).val = 256 * ((j 0).val / 256) + 128 * ((j 0).val / 128 % 2) + 4 * ((j 0).val % 128 / 4) + (j 0).val % 4; omega
  · show 128 * ((j 2).val / 128) ≤ (j 2).val; omega
  · show (j 2).val < 128 * ((j 2).val / 128) + 128; omega

/-- The kernel's result whole is the 32 workers' half-rows of it. -/
theorem oPts_pieces (d : Dev nD) (f : Buf (Elt F) (oLoc d)) :
    (oLoc d ↦{fullShare} f : sProp 𝕄) = bigSep Finset.univ fun c : Fin ((K (F := F)).nCore 0) =>
      bigSep Finset.univ fun i : Fin ((K (F := F)).nSub 0) => oPieces d (coordsOf c i) f := by
  have h : (oLoc d ↦[(Finset.univ : Finset (HRow F)).biUnion hset]{fullShare} f : sProp 𝕄)
      = bigSep Finset.univ fun x : HRow F => oLoc d ↦[hset x]{fullShare} f :=
    pointsTo_biUnion Finset.univ (ℓ := oLoc d) hset fun x _ x' _ hne => hset_disjoint hne
  rw [hset_cover] at h
  refine h.trans ?_
  rw [bigSep_univ_prod]
  refine bigSep_congr fun c _ => ?_
  rw [bigSep_univ_prod]
  refine bigSep_congr fun i _ => ?_
  unfold oPieces
  rw [bigSep_univ_prod]
  refine bigSep_congr fun t _ => ?_
  rw [bigSep_univ_prod]
  refine bigSep_congr fun r _ => ?_
  rw [bigSep_univ_two, hset_zero, hset_one]

end Cert.Proof.KB

end
-- ==== Proof.KB.Value.lean ====
/-
  What the program on the SparseCores computes, entry by entry: the lookup. Its result is the first 200 columns of the
  kernel's [4096, 100, 256] array, which at (R, r, k) holds entry k of the padded table's row named by the regrouped row
  numbers at (R / 128, R % 128, r). Regrouping [4096, 100] as [32, 128, 100] keeps the row-major order, and
  (R / 128) · 128 + R % 128 = R, so that row number is x(R, r); the padded table is the table with zero columns added on
  the right, so at a column k < 200 it reads the table's own entry. Hence the result at (R, r, k) is entry k of row
  x(R, r) of the table. This is data movement only: it holds however floats are read, and for every index array.
-/
import proofs.«203043_g45337674776592_cont_8to1_c_201_37_alg».proof.Proof.KB.Pay
import proofs.«203043_g45337674776592_cont_8to1_c_201_37_alg».proof.Proof.LibUpdateSliceRead

noncomputable section

namespace Cert.Proof.KB

open Cert.Kernel Cert.Kernel.Gen

open Idealize.ShloMosaic
open Idealize.ShloMosaic.SparseCore (S V T)
open Idealize.SL.Sem
open Idealize.ShloMosaic.ValueIdx

variable {F : FTy → Type}

variable (m : (ℓ : Loc nD τ sig) → Buf (Elt F) ℓ)

variable [FloatOps F]

/-- The regrouped row numbers at (q, p, r) are the row numbers at (128 · q + p, r): both arrays list the same entries in
    row-major order. -/
theorem idx3_apply (d : Dev nD) (q : Fin 32) (p : Fin 128) (r : Fin 100) :
    (idx3 m d : S32x128x100.Idx → BitVec 32) (ix3 q p r)
      = (m (xLoc d) : S4096x100.Idx → BitVec 32) (ix2 (⟨q.val * 128 + p.val, by omega⟩ : Fin 4096) r) := by
  unfold idx3
  refine shapeCast_apply _ _ _ _ ?_
  show (S4096x100.rowMajor (ix2 (⟨q.val * 128 + p.val, by omega⟩ : Fin 4096) r)).val = (S32x128x100.rowMajor (ix3 q p r)).val
  rw [Shape.rowMajor_val_two, Shape.rowMajor_val_three]
  rfl

/-- The padded table at a column of the table is the table's entry. -/
theorem tblW_apply (d : Dev nD) (q : Fin 120) (k : Fin 256) (hk : k.val < 200) :
    (tblW m d : S120x256.Idx → F .f32) (ix2 q k) = (m (aLoc d) : S120x200.Idx → F .f32) (ix2 q (⟨k.val, hk⟩ : Fin 200)) := by
  unfold tblW
  refine Host.dynamicUpdateSlice_zero_apply _ _ _ (fun _ => ?_) _ _ _ (fun a => ?_)
  · show (0#32 : BitVec 32).toInt = 0
    decide
  · match a with
    | ⟨0, _⟩ => rfl
    | ⟨1, _⟩ => rfl

/-- What the kernel leaves, at (R, r, k) with k < 200: entry k of row x(R, r) of the table. -/
theorem outF_apply (d : Dev nD) (R : Fin 4096) (r : Fin 100) (k : Fin 256) (hk : k.val < 200) :
    (outF m d : S4096x100x256.Idx → F .f32) (ix3 R r k)
      = (m (aLoc d) : S120x200.Idx → F .f32)
          (ix2 (Cert.Proof.Spec.rowOf ((m (xLoc d) : S4096x100.Idx → BitVec 32) (ix2 R r))) (⟨k.val, hk⟩ : Fin 200)) := by
  show (tblW m d : S120x256.Idx → F .f32) (ix2 (Cert.Proof.Spec.rowOf ((idx3 m d : S32x128x100.Idx → BitVec 32)
      (ix3 (⟨R.val / 128, by omega⟩ : Fin 32) (⟨R.val % 128, Nat.mod_lt _ (by decide)⟩ : Fin 128) r))) k) = _
  rw [tblW_apply m d _ k hk, idx3_apply]
  have e : (⟨R.val / 128 * 128 + R.val % 128, by omega⟩ : Fin 4096) = R := Fin.ext (Nat.div_add_mod' R.val 128)
  rw [e]

/-- THE VALUE: the program's result is the lookup of the row numbers in the table. -/
theorem resF_eq (hpre : PreOK m) (d : Dev nD) : resF m d = Cert.Proof.Spec.lookup (m (xLoc d)) (m (aLoc d)) := by
  show (resF m d : S4096x100x200.Idx → F .f32) = _
  funext i
  obtain ⟨R, r, k, rfl⟩ : ∃ (R : Fin 4096) (r : Fin 100) (k : Fin 200), i = ix3 R r k := ⟨i 0, i 1, i 2, eq_ix3 i⟩
  rw [Cert.Proof.Spec.lookup_apply]
  unfold resF
  rw [extractStridedSlice_apply _ _ _ _ (ix3 R r (⟨k.val, by omega⟩ : Fin 256)) (fun a => by
    match a with
    | ⟨0, _⟩ => show R.val = 0 + R.val; omega
    | ⟨1, _⟩ => show r.val = 0 + r.val; omega
    | ⟨2, _⟩ => show k.val = 0 + k.val; omega)]
  exact outF_apply m d R r _ k.isLt

end Cert.Proof.KB

end
-- ==== Proof.KB.BodyDefs.lean ====
/-
  The vocabulary of one tile's task: the tile's own buffers as the task addresses them, the read tokens, what the list
  buffer holds after the fetch, what a gather leaves in a row buffer, what each transfer in flight delivers, and the
  state between two trips of the task's loop.

  The task's loop. Rows are numbered j = 0 … 127 within the worker's block; row j uses slot j mod 4 (row buffers A and B
  of that slot, a gather cell and a write cell for each). Trip k handles rows 4k … 4k+3. For each row j in turn it
  (a) if j + 2 < 128: waits for the write of row j − 2 (same slot as j + 2) when j ≥ 2, and issues the gathers of row
  j + 2; (b) waits for the gathers of row j and issues the writes of row j. So before trip k (k < 32) the gathers of
  rows 4k and 4k+1 are in flight and — for k ≥ 1 — so are the writes of rows 4k−2 and 4k−1; after the last trip the
  writes of rows 124 … 127 are in flight and nothing else.
-/
import proofs.«203043_g45337674776592_cont_8to1_c_201_37_alg».proof.Proof.KB.Own
import proofs.«203043_g45337674776592_cont_8to1_c_201_37_alg».proof.Proof.KB.Geom
import proofs.«203043_g45337674776592_cont_8to1_c_201_37_alg».proof.Proof.KB.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The buffers as the task addresses them -/

omit [FloatOps F] in
theorem pts_sV (q : PosShare TreeShare) (f : Buf (Elt F) ((V d (cV L) (jV L)).loc cc0_scratch0)) :
    ((sV).view.loc (V d (cV L) (jV L)) ↦{q} f : sProp 𝕄) = (V d (cV L) (jV L)).loc cc0_scratch0 ↦{q} f := rfl
omit [FloatOps F] in
theorem pts_rA0 (q : PosShare TreeShare) (f : Buf (Elt F) ((V d (cV L) (jV L)).loc cc0_scratch3)) :
    ((rA0).view.loc (V d (cV L) (jV L)) ↦{q} f : sProp 𝕄) = (V d (cV L) (jV L)).loc cc0_scratch3 ↦{q} f := rfl
omit [FloatOps F] in
theorem pts_rA1 (q : PosShare TreeShare) (f : Buf (Elt F) ((V d (cV L) (jV L)).loc cc0_scratch4)) :
    ((rA1).view.loc (V d (cV L) (jV L)) ↦{q} f : sProp 𝕄) = (V d (cV L) (jV L)).loc cc0_scratch4 ↦{q} f := rfl
omit [FloatOps F] in
theorem pts_rA2 (q : PosShare TreeShare) (f : Buf (Elt F) ((V d (cV L) (jV L)).loc cc0_scratch5)) :
    ((rA2).view.loc (V d (cV L) (jV L)) ↦{q} f : sProp 𝕄) = (V d (cV L) (jV L)).loc cc0_scratch5 ↦{q} f := rfl
omit [FloatOps F] in
theorem pts_rA3 (q : PosShare TreeShare) (f : Buf (Elt F) ((V d (cV L) (jV L)).loc cc0_scratch6)) :
    ((rA3).view.loc (V d (cV L) (jV L)) ↦{q} f : sProp 𝕄) = (V d (cV L) (jV L)).loc cc0_scratch6 ↦{q} f := rfl
omit [FloatOps F] in
theorem pts_rB0 (q : PosShare TreeShare) (f : Buf (Elt F) ((V d (cV L) (jV L)).loc cc0_scratch7)) :
    ((rB0).view.loc (V d (cV L) (jV L)) ↦{q} f : sProp 𝕄) = (V d (cV L) (jV L)).loc cc0_scratch7 ↦{q} f := rfl
omit [FloatOps F] in
theorem pts_rB1 (q : PosShare TreeShare) (f : Buf (Elt F) ((V d (cV L) (jV L)).loc cc0_scratch8)) :
    ((rB1).view.loc (V d (cV L) (jV L)) ↦{q} f : sProp 𝕄) = (V d (cV L) (jV L)).loc cc0_scratch8 ↦{q} f := rfl
omit [FloatOps F] in
theorem pts_rB2 (q : PosShare TreeShare) (f : Buf (Elt F) ((V d (cV L) (jV L)).loc cc0_scratch9)) :
    ((rB2).view.loc (V d (cV L) (jV L)) ↦{q} f : sProp 𝕄) = (V d (cV L) (jV L)).loc cc0_scratch9 ↦{q} f := rfl
omit [FloatOps F] in
theorem pts_rB3 (q : PosShare TreeShare) (f : Buf (Elt F) ((V d (cV L) (jV L)).loc cc0_scratch10)) :
    ((rB3).view.loc (V d (cV L) (jV L)) ↦{q} f : sProp 𝕄) = (V d (cV L) (jV L)).loc cc0_scratch10 ↦{q} f := rfl
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_aV (q : PosShare TreeShare) (f : Buf (Elt F) (shALoc d (cV L))) :
    ((aV).view.loc (V d (cV L) (jV L)) ↦{q} f : sProp 𝕄) = shALoc d (cV L) ↦{q} f := rfl
omit [FloatOps F] in
theorem pts_bV (q : PosShare TreeShare) (f : Buf (Elt F) (shBLoc d (cV L))) :
    ((bV).view.loc (V d (cV L) (jV L)) ↦{q} f : sProp 𝕄) = shBLoc d (cV L) ↦{q} f := rfl

omit [FloatOps F] in
/-- One more read token split off a share: what remains after `k` tokens is what remains after `k + 1` and token `k`. -/
theorem tok_step {ℓ : Loc nD τ sig} (S : Finset (Idx ℓ)) (q : PosShare TreeShare) (k : ℕ) (f : Buf (Elt F) ℓ) :
    (ℓ ↦[S]{Transfers.shareDrop q k} f : sProp 𝕄) ⊣⊢ iprop((ℓ ↦[S]{Transfers.shareDrop q (k + 1)} f) ∗ ℓ ↦[S]{Transfers.shareTokN q k} f) :=
  pointsTo_share (PosShare.mem_left_op_right _)

/-- Read token `k` of the list buffer (held whole by the tile) and of the tile's share of a shared buffer. -/
abbrev tokL (k : ℕ) : PosShare TreeShare := Transfers.shareTokN fullShare k
abbrev tokT (L : grid0.Coords) (k : ℕ) : PosShare TreeShare := Transfers.shareTokN (sq (jL L)) k

/-! ## The conditions on the subcore number -/

omit [FloatOps F] in
theorem cond0_false : ∀ s : Fin 16, s.val ≠ 0 → ¬ (Scalar.cmpi CmpIPredicate.ne (Scalar.extui (Scalar.cmpi CmpIPredicate.eq (BitVec.ofNat 32 s.val) 0#32)) 0#32 = 1#1) := by decide +kernel
omit [FloatOps F] in
theorem cond1_false : ∀ s : Fin 16, s.val ≠ 1 → ¬ (Scalar.cmpi CmpIPredicate.ne (Scalar.extui (Scalar.cmpi CmpIPredicate.eq (BitVec.ofNat 32 s.val) 1#32)) 0#32 = 1#1) := by decide +kernel
omit [FloatOps F] in
theorem cond0_true : ∀ s : Fin 16, s.val = 0 → (Scalar.cmpi CmpIPredicate.ne (Scalar.extui (Scalar.cmpi CmpIPredicate.eq (BitVec.ofNat 32 s.val) 0#32)) 0#32 = 1#1) := by decide +kernel
omit [FloatOps F] in
theorem cond1_true : ∀ s : Fin 16, s.val = 1 → (Scalar.cmpi CmpIPredicate.ne (Scalar.extui (Scalar.cmpi CmpIPredicate.eq (BitVec.ofNat 32 s.val) 1#32)) 0#32 = 1#1) := by decide +kernel

/-! ## The list buffer and the gathers -/

abbrev irowK (L : grid0.Coords) : Rect S32x128x100 := Rect.unit (s := S32x128x100) (k0_off1 L) S1x128x100.size (k0_off1_inb L)
/-- Worker `L`'s block of the regrouped row numbers, [128, 100], as the task addresses it. -/
abbrev iRowK (L : grid0.Coords) : Memref sig .scVector .hbm S128x100 .i32 := ((iV).slice (irowK L) (fun _ => rfl)).squeeze S128x100 squeezes_S1x128x100_S128x100
/-- Row `off 0` of the tile's list buffer, [100], as the task addresses it. -/
abbrev lRowK (off : Fin 2 → ℕ) (hoff : ∀ a, off a + S1x100.size a ≤ S128x100.size a) : Memref sig .scVector .vmem S100 .i32 :=
  ((sV).slice (Rect.unit (s := S128x100) off S1x100.size hoff) (fun _ => rfl)).squeeze S100 squeezes_S1x100_S100
/-- The two shared buffers whole, as the gathers address them. -/
abbrev aSl : Memref sig .scVector .shared S120x128 .f32 := (aV).slice (Rect.unit (s := S120x128) ![0, 0] S120x128.size inb_S120x128_S120x128_0_0) (fun _ => rfl)
abbrev bSl : Memref sig .scVector .shared S120x128 .f32 := (bV).slice (Rect.unit (s := S120x128) ![0, 0] S120x128.size inb_S120x128_S120x128_0_0) (fun _ => rfl)

/-- What the tile's list buffer holds after the fetch: the worker's block of the regrouped row numbers. -/
def lst : Buf (Elt F) ((V d (cV L) (jV L)).loc cc0_scratch0) := ReadAs.same.apply ((iRowK L).view.read (Elt F) (idx3 m d))

/-- Every row number in the list buffer is one of 0 … 119: what a gather asks of its list. -/
abbrev HIN : Prop := ∀ (off : Fin 2 → ℕ) (hoff : ∀ a, off a + S1x100.size a ≤ S128x100.size a) (x : S100.Idx),
  ((lRowK off hoff).view.read (Elt F) (lst m d L) x).toNat < S120x128.size gathers_S120x128_S100x128.axis

/-- Row `j` of the list buffer by its number. -/
abbrev offR (j : ℕ) : Fin 2 → ℕ := ![j, 0]
omit [FloatOps F] in
theorem offR_inb (j : ℕ) (hj : j < 128) : ∀ a, (offR j) a + S1x100.size a ≤ S128x100.size a := by
  intro a; match a with
  | ⟨0, _⟩ => show j + 1 ≤ 128; omega
  | ⟨1, _⟩ => show 0 + 100 ≤ 100; omega

/-- What the gather of list row `off` leaves in a row buffer: at (r, c) the table half's row named by entry r of the list row, column c. -/
def gPayA (hin : HIN m d L) (off : Fin 2 → ℕ) (hoff : ∀ a, off a + S1x100.size a ≤ S128x100.size a) : S100x128.Idx → Elt F .f32 :=
  SparseCore.gatherPayload gathers_S120x128_S100x128 ((aSl).view.read (Elt F) (tblA m d (cV L)))
    (SparseCore.rows ((lRowK off hoff).view.read (Elt F) (lst m d L)) rfl (hin off hoff))
def gPayB (hin : HIN m d L) (off : Fin 2 → ℕ) (hoff : ∀ a, off a + S1x100.size a ≤ S128x100.size a) : S100x128.Idx → Elt F .f32 :=
  SparseCore.gatherPayload gathers_S120x128_S100x128 ((bSl).view.read (Elt F) (tblB m d (cV L)))
    (SparseCore.rows ((lRowK off hoff).view.read (Elt F) (lst m d L)) rfl (hin off hoff))
/-- The same by the row's number. -/
def gA (j : ℕ) (hj : j < 128) (hin : HIN m d L) : S100x128.Idx → Elt F .f32 := gPayA m d L hin (offR j) (offR_inb j hj)
def gB (j : ℕ) (hj : j < 128) (hin : HIN m d L) : S100x128.Idx → Elt F .f32 := gPayB m d L hin (offR j) (offR_inb j hj)

/-! ## What a transfer in flight delivers -/

/-- The gather of list row `j` from `tbl_a` into row buffer A0 on cell 0: it delivers the buffer at the gathered rows, and the list's and the table's read tokens back. -/
def gDelA0 (j : ℕ) (hj : j < 128) (hin : HIN m d L) : sProp 𝕄 :=
  iprop(((rA0).view.loc (V d (cV L) (jV L)) ↦{fullShare} gA m d L j hj hin) ∗ ((sV).view.loc (V d (cV L) (jV L)) ↦{tokL 0} lst m d L)
    ∗ ((aV).view.loc (V d (cV L) (jV L)) ↦{tokT L 0} tblA m d (cV L)))
/-- The same from `tbl_b` into row buffer B0 on cell 4. -/
def gDelB0 (j : ℕ) (hj : j < 128) (hin : HIN m d L) : sProp 𝕄 :=
  iprop(((rB0).view.loc (V d (cV L) (jV L)) ↦{fullShare} gB m d L j hj hin) ∗ ((sV).view.loc (V d (cV L) (jV L)) ↦{tokL 4} lst m d L)
    ∗ ((bV).view.loc (V d (cV L) (jV L)) ↦{tokT L 4} tblB m d (cV L)))
/-- The write of row buffer A0 to the left half of row `4·t + 0` of the worker's block on cell 8: it delivers the half-row at `outF` and the buffer back. -/
def wDelA0 (t : Fin k0_t1_loop.trips) : sProp 𝕄 :=
  iprop(((oHalfA L t 0).view.loc (V d (cV L) (jV L)) ↦[(oHalfA L t 0).view.set]{fullShare} outF m d) ∗ ∃ g, (rA0).view.loc (V d (cV L) (jV L)) ↦{fullShare} g)
/-- The same for row buffer B0 and the right half on cell 12. -/
def wDelB0 (t : Fin k0_t1_loop.trips) : sProp 𝕄 :=
  iprop(((oHalfB L t 0).view.loc (V d (cV L) (jV L)) ↦[(oHalfB L t 0).view.set]{fullShare} outF m d) ∗ ∃ g, (rB0).view.loc (V d (cV L) (jV L)) ↦{fullShare} g)
/-- The gather of list row `j` from `tbl_a` into row buffer A1 on cell 1: it delivers the buffer at the gathered rows, and the list's and the table's read tokens back. -/
def gDelA1 (j : ℕ) (hj : j < 128) (hin : HIN m d L) : sProp 𝕄 :=
  iprop(((rA1).view.loc (V d (cV L) (jV L)) ↦{fullShare} gA m d L j hj hin) ∗ ((sV).view.loc (V d (cV L) (jV L)) ↦{tokL 1} lst m d L)
    ∗ ((aV).view.loc (V d (cV L) (jV L)) ↦{tokT L 1} tblA m d (cV L)))
/-- The same from `tbl_b` into row buffer B1 on cell 5. -/
def gDelB1 (j : ℕ) (hj : j < 128) (hin : HIN m d L) : sProp 𝕄 :=
  iprop(((rB1).view.loc (V d (cV L) (jV L)) ↦{fullShare} gB m d L j hj hin) ∗ ((sV).view.loc (V d (cV L) (jV L)) ↦{tokL 5} lst m d L)
    ∗ ((bV).view.loc (V d (cV L) (jV L)) ↦{tokT L 5} tblB m d (cV L)))
/-- The write of row buffer A1 to the left half of row `4·t + 1` of the worker's block on cell 9: it delivers the half-row at `outF` and the buffer back. -/
def wDelA1 (t : Fin k0_t1_loop.trips) : sProp 𝕄 :=
  iprop(((oHalfA L t 1).view.loc (V d (cV L) (jV L)) ↦[(oHalfA L t 1).view.set]{fullShare} outF m d) ∗ ∃ g, (rA1).view.loc (V d (cV L) (jV L)) ↦{fullShare} g)
/-- The same for row buffer B1 and the right half on cell 13. -/
def wDelB1 (t : Fin k0_t1_loop.trips) : sProp 𝕄 :=
  iprop(((oHalfB L t 1).view.loc (V d (cV L) (jV L)) ↦[(oHalfB L t 1).view.set]{fullShare} outF m d) ∗ ∃ g, (rB1).view.loc (V d (cV L) (jV L)) ↦{fullShare} g)
/-- The gather of list row `j` from `tbl_a` into row buffer A2 on cell 2: it delivers the buffer at the gathered rows, and the list's and the table's read tokens back. -/
def gDelA2 (j : ℕ) (hj : j < 128) (hin : HIN m d L) : sProp 𝕄 :=
  iprop(((rA2).view.loc (V d (cV L) (jV L)) ↦{fullShare} gA m d L j hj hin) ∗ ((sV).view.loc (V d (cV L) (jV L)) ↦{tokL 2} lst m d L)
    ∗ ((aV).view.loc (V d (cV L) (jV L)) ↦{tokT L 2} tblA m d (cV L)))
/-- The same from `tbl_b` into row buffer B2 on cell 6. -/
def gDelB2 (j : ℕ) (hj : j < 128) (hin : HIN m d L) : sProp 𝕄 :=
  iprop(((rB2).view.loc (V d (cV L) (jV L)) ↦{fullShare} gB m d L j hj hin) ∗ ((sV).view.loc (V d (cV L) (jV L)) ↦{tokL 6} lst m d L)
    ∗ ((bV).view.loc (V d (cV L) (jV L)) ↦{tokT L 6} tblB m d (cV L)))
/-- The write of row buffer A2 to the left half of row `4·t + 2` of the worker's block on cell 10: it delivers the half-row at `outF` and the buffer back. -/
def wDelA2 (t : Fin k0_t1_loop.trips) : sProp 𝕄 :=
  iprop(((oHalfA L t 2).view.loc (V d (cV L) (jV L)) ↦[(oHalfA L t 2).view.set]{fullShare} outF m d) ∗ ∃ g, (rA2).view.loc (V d (cV L) (jV L)) ↦{fullShare} g)
/-- The same for row buffer B2 and the right half on cell 14. -/
def wDelB2 (t : Fin k0_t1_loop.trips) : sProp 𝕄 :=
  iprop(((oHalfB L t 2).view.loc (V d (cV L) (jV L)) ↦[(oHalfB L t 2).view.set]{fullShare} outF m d) ∗ ∃ g, (rB2).view.loc (V d (cV L) (jV L)) ↦{fullShare} g)
/-- The gather of list row `j` from `tbl_a` into row buffer A3 on cell 3: it delivers the buffer at the gathered rows, and the list's and the table's read tokens back. -/
def gDelA3 (j : ℕ) (hj : j < 128) (hin : HIN m d L) : sProp 𝕄 :=
  iprop(((rA3).view.loc (V d (cV L) (jV L)) ↦{fullShare} gA m d L j hj hin) ∗ ((sV).view.loc (V d (cV L) (jV L)) ↦{tokL 3} lst m d L)
    ∗ ((aV).view.loc (V d (cV L) (jV L)) ↦{tokT L 3} tblA m d (cV L)))
/-- The same from `tbl_b` into row buffer B3 on cell 7. -/
def gDelB3 (j : ℕ) (hj : j < 128) (hin : HIN m d L) : sProp 𝕄 :=
  iprop(((rB3).view.loc (V d (cV L) (jV L)) ↦{fullShare} gB m d L j hj hin) ∗ ((sV).view.loc (V d (cV L) (jV L)) ↦{tokL 7} lst m d L)
    ∗ ((bV).view.loc (V d (cV L) (jV L)) ↦{tokT L 7} tblB m d (cV L)))
/-- The write of row buffer A3 to the left half of row `4·t + 3` of the worker's block on cell 11: it delivers the half-row at `outF` and the buffer back. -/
def wDelA3 (t : Fin k0_t1_loop.trips) : sProp 𝕄 :=
  iprop(((oHalfA L t 3).view.loc (V d (cV L) (jV L)) ↦[(oHalfA L t 3).view.set]{fullShare} outF m d) ∗ ∃ g, (rA3).view.loc (V d (cV L) (jV L)) ↦{fullShare} g)
/-- The same for row buffer B3 and the right half on cell 15. -/
def wDelB3 (t : Fin k0_t1_loop.trips) : sProp 𝕄 :=
  iprop(((oHalfB L t 3).view.loc (V d (cV L) (jV L)) ↦[(oHalfB L t 3).view.set]{fullShare} outF m d) ∗ ∃ g, (rB3).view.loc (V d (cV L) (jV L)) ↦{fullShare} g)

/-! ## The half-rows of a trip -/

/-- Trip `t`'s half-rows of rows 0, 1 and of rows 2, 3 at contents `f`, as the task addresses them. -/
def P01 (t : Fin k0_t1_loop.trips) (f : Buf (Elt F) (oLoc d)) : sProp 𝕄 :=
  iprop(((oHalfA L t 0).view.loc (V d (cV L) (jV L)) ↦[(oHalfA L t 0).view.set]{fullShare} f) ∗ ((oHalfB L t 0).view.loc (V d (cV L) (jV L)) ↦[(oHalfB L t 0).view.set]{fullShare} f)
    ∗ ((oHalfA L t 1).view.loc (V d (cV L) (jV L)) ↦[(oHalfA L t 1).view.set]{fullShare} f) ∗ ((oHalfB L t 1).view.loc (V d (cV L) (jV L)) ↦[(oHalfB L t 1).view.set]{fullShare} f))
def P23 (t : Fin k0_t1_loop.trips) (f : Buf (Elt F) (oLoc d)) : sProp 𝕄 :=
  iprop(((oHalfA L t 2).view.loc (V d (cV L) (jV L)) ↦[(oHalfA L t 2).view.set]{fullShare} f) ∗ ((oHalfB L t 2).view.loc (V d (cV L) (jV L)) ↦[(oHalfB L t 2).view.set]{fullShare} f)
    ∗ ((oHalfA L t 3).view.loc (V d (cV L) (jV L)) ↦[(oHalfA L t 3).view.set]{fullShare} f) ∗ ((oHalfB L t 3).view.loc (V d (cV L) (jV L)) ↦[(oHalfB L t 3).view.set]{fullShare} f))

/-! ## Between two trips -/

/-- Slots 2 and 3 before trip `k`: idle before the first trip, their writes of the previous trip's rows 2, 3 in flight otherwise. -/
def slots23 (k : ℕ) (hk : k < 32) : sProp 𝕄 :=
  if h0 : k = 0 then
    iprop((∃ g, (rA2).view.loc (V d (cV L) (jV L)) ↦{fullShare} g) ∗ (∃ g, (rB2).view.loc (V d (cV L) (jV L)) ↦{fullShare} g)
      ∗ (∃ g, (rA3).view.loc (V d (cV L) (jV L)) ↦{fullShare} g) ∗ (∃ g, (rB3).view.loc (V d (cV L) (jV L)) ↦{fullShare} g)
      ∗ semVal ((V d (cV L) (jV L), SemLoc.dma (⟨10, by decide⟩ : DmaSem sig)) : GSem nD τ sig) 0 ∗ semVal ((V d (cV L) (jV L), SemLoc.dma (⟨14, by decide⟩ : DmaSem sig)) : GSem nD τ sig) 0 ∗ semVal ((V d (cV L) (jV L), SemLoc.dma (⟨11, by decide⟩ : DmaSem sig)) : GSem nD τ sig) 0 ∗ semVal ((V d (cV L) (jV L), SemLoc.dma (⟨15, by decide⟩ : DmaSem sig)) : GSem nD τ sig) 0)
  else
    iprop(Transfers.Flight countersEmb (V d (cV L) (jV L)) (SemLoc.dma (⟨10, by decide⟩ : DmaSem sig)) (default : HIx 1) 409600 (wDelA2 m d L ⟨k - 1, by rw [geom_trips_eq]; omega⟩) ∗ Transfers.Flight countersEmb (V d (cV L) (jV L)) (SemLoc.dma (⟨14, by decide⟩ : DmaSem sig)) (default : HIx 1) 409600 (wDelB2 m d L ⟨k - 1, by rw [geom_trips_eq]; omega⟩)
      ∗ Transfers.Flight countersEmb (V d (cV L) (jV L)) (SemLoc.dma (⟨11, by decide⟩ : DmaSem sig)) (default : HIx 1) 409600 (wDelA3 m d L ⟨k - 1, by rw [geom_trips_eq]; omega⟩) ∗ Transfers.Flight countersEmb (V d (cV L) (jV L)) (SemLoc.dma (⟨15, by decide⟩ : DmaSem sig)) (default : HIx 1) 409600 (wDelB3 m d L ⟨k - 1, by rw [geom_trips_eq]; omega⟩))

/-- Before trip `k` (k < 32): the gathers of rows 4k and 4k+1 in flight on slots 0 and 1, slots 2 and 3 as above, the
    other cells at zero, the other tokens whole, and the half-rows: done below trip k (but rows 2, 3 of trip k − 1,
    which are in flight), untouched from trip k on. -/
def invMid (hin : HIN m d L) (k : ℕ) (hk : k < 32) : sProp 𝕄 :=
  iprop(Transfers.Flight countersEmb (V d (cV L) (jV L)) (SemLoc.dma (⟨0, by decide⟩ : DmaSem sig)) (default : HIx 1) 409600 (gDelA0 m d L (4 * k) (by omega) hin) ∗ Transfers.Flight countersEmb (V d (cV L) (jV L)) (SemLoc.dma (⟨4, by decide⟩ : DmaSem sig)) (default : HIx 1) 409600 (gDelB0 m d L (4 * k) (by omega) hin)
    ∗ Transfers.Flight countersEmb (V d (cV L) (jV L)) (SemLoc.dma (⟨1, by decide⟩ : DmaSem sig)) (default : HIx 1) 409600 (gDelA1 m d L (4 * k + 1) (by omega) hin) ∗ Transfers.Flight countersEmb (V d (cV L) (jV L)) (SemLoc.dma (⟨5, by decide⟩ : DmaSem sig)) (default : HIx 1) 409600 (gDelB1 m d L (4 * k + 1) (by omega) hin)
    ∗ slots23 m d L k hk
    ∗ semVal ((V d (cV L) (jV L), SemLoc.dma (⟨2, by decide⟩ : DmaSem sig)) : GSem nD τ sig) 0 ∗ semVal ((V d (cV L) (jV L), SemLoc.dma (⟨3, by decide⟩ : DmaSem sig)) : GSem nD τ sig) 0 ∗ semVal ((V d (cV L) (jV L), SemLoc.dma (⟨6, by decide⟩ : DmaSem sig)) : GSem nD τ sig) 0 ∗ semVal ((V d (cV L) (jV L), SemLoc.dma (⟨7, by decide⟩ : DmaSem sig)) : GSem nD τ sig) 0 ∗ semVal ((V d (cV L) (jV L), SemLoc.dma (⟨8, by decide⟩ : DmaSem sig)) : GSem nD τ sig) 0 ∗ semVal ((V d (cV L) (jV L), SemLoc.dma (⟨9, by decide⟩ : DmaSem sig)) : GSem nD τ sig) 0 ∗ semVal ((V d (cV L) (jV L), SemLoc.dma (⟨12, by decide⟩ : DmaSem sig)) : GSem nD τ sig) 0 ∗ semVal ((V d (cV L) (jV L), SemLoc.dma (⟨13, by decide⟩ : DmaSem sig)) : GSem nD τ sig) 0
    ∗ ((sV).view.loc (V d (cV L) (jV L)) ↦{tokL 2} lst m d L) ∗ ((sV).view.loc (V d (cV L) (jV L)) ↦{tokL 3} lst m d L) ∗ ((sV).view.loc (V d (cV L) (jV L)) ↦{tokL 6} lst m d L) ∗ ((sV).view.loc (V d (cV L) (jV L)) ↦{tokL 7} lst m d L) ∗ ((aV).view.loc (V d (cV L) (jV L)) ↦{tokT L 2} tblA m d (cV L)) ∗ ((aV).view.loc (V d (cV L) (jV L)) ↦{tokT L 3} tblA m d (cV L)) ∗ ((bV).view.loc (V d (cV L) (jV L)) ↦{tokT L 6} tblB m d (cV L)) ∗ ((bV).view.loc (V d (cV L) (jV L)) ↦{tokT L 7} tblB m d (cV L))
    ∗ (bigSep (Finset.univ.filter fun t : Fin k0_t1_loop.trips => t.val < k) fun t => P01 d L t (outF m d))
    ∗ (bigSep (Finset.univ.filter fun t : Fin k0_t1_loop.trips => t.val + 1 < k) fun t => P23 d L t (outF m d))
    ∗ (bigSep (Finset.univ.filter fun t : Fin k0_t1_loop.trips => k ≤ t.val) fun t => iprop(P01 d L t (m (oLoc d)) ∗ P23 d L t (m (oLoc d)))))

/-- After the last trip: the writes of rows 124 … 127 in flight on every slot, the gather cells at zero, every token
    whole, and every half-row below trip 31 done. -/
def invEnd (h31 : 31 < k0_t1_loop.trips) : sProp 𝕄 :=
  iprop(Transfers.Flight countersEmb (V d (cV L) (jV L)) (SemLoc.dma (⟨8, by decide⟩ : DmaSem sig)) (default : HIx 1) 409600 (wDelA0 m d L ⟨31, h31⟩) ∗ Transfers.Flight countersEmb (V d (cV L) (jV L)) (SemLoc.dma (⟨12, by decide⟩ : DmaSem sig)) (default : HIx 1) 409600 (wDelB0 m d L ⟨31, h31⟩) ∗ Transfers.Flight countersEmb (V d (cV L) (jV L)) (SemLoc.dma (⟨9, by decide⟩ : DmaSem sig)) (default : HIx 1) 409600 (wDelA1 m d L ⟨31, h31⟩) ∗ Transfers.Flight countersEmb (V d (cV L) (jV L)) (SemLoc.dma (⟨13, by decide⟩ : DmaSem sig)) (default : HIx 1) 409600 (wDelB1 m d L ⟨31, h31⟩)
    ∗ Transfers.Flight countersEmb (V d (cV L) (jV L)) (SemLoc.dma (⟨10, by decide⟩ : DmaSem sig)) (default : HIx 1) 409600 (wDelA2 m d L ⟨31, h31⟩) ∗ Transfers.Flight countersEmb (V d (cV L) (jV L)) (SemLoc.dma (⟨14, by decide⟩ : DmaSem sig)) (default : HIx 1) 409600 (wDelB2 m d L ⟨31, h31⟩) ∗ Transfers.Flight countersEmb (V d (cV L) (jV L)) (SemLoc.dma (⟨11, by decide⟩ : DmaSem sig)) (default : HIx 1) 409600 (wDelA3 m d L ⟨31, h31⟩) ∗ Transfers.Flight countersEmb (V d (cV L) (jV L)) (SemLoc.dma (⟨15, by decide⟩ : DmaSem sig)) (default : HIx 1) 409600 (wDelB3 m d L ⟨31, h31⟩)
    ∗ semVal ((V d (cV L) (jV L), SemLoc.dma (⟨0, by decide⟩ : DmaSem sig)) : GSem nD τ sig) 0 ∗ semVal ((V d (cV L) (jV L), SemLoc.dma (⟨1, by decide⟩ : DmaSem sig)) : GSem nD τ sig) 0 ∗ semVal ((V d (cV L) (jV L), SemLoc.dma (⟨2, by decide⟩ : DmaSem sig)) : GSem nD τ sig) 0 ∗ semVal ((V d (cV L) (jV L), SemLoc.dma (⟨3, by decide⟩ : DmaSem sig)) : GSem nD τ sig) 0 ∗ semVal ((V d (cV L) (jV L), SemLoc.dma (⟨4, by decide⟩ : DmaSem sig)) : GSem nD τ sig) 0 ∗ semVal ((V d (cV L) (jV L), SemLoc.dma (⟨5, by decide⟩ : DmaSem sig)) : GSem nD τ sig) 0 ∗ semVal ((V d (cV L) (jV L), SemLoc.dma (⟨6, by decide⟩ : DmaSem sig)) : GSem nD τ sig) 0 ∗ semVal ((V d (cV L) (jV L), SemLoc.dma (⟨7, by decide⟩ : DmaSem sig)) : GSem nD τ sig) 0
    ∗ ((sV).view.loc (V d (cV L) (jV L)) ↦{tokL 0} lst m d L) ∗ ((sV).view.loc (V d (cV L) (jV L)) ↦{tokL 1} lst m d L) ∗ ((sV).view.loc (V d (cV L) (jV L)) ↦{tokL 2} lst m d L) ∗ ((sV).view.loc (V d (cV L) (jV L)) ↦{tokL 3} lst m d L) ∗ ((sV).view.loc (V d (cV L) (jV L)) ↦{tokL 4} lst m d L) ∗ ((sV).view.loc (V d (cV L) (jV L)) ↦{tokL 5} lst m d L) ∗ ((sV).view.loc (V d (cV L) (jV L)) ↦{tokL 6} lst m d L) ∗ ((sV).view.loc (V d (cV L) (jV L)) ↦{tokL 7} lst m d L)
    ∗ ((aV).view.loc (V d (cV L) (jV L)) ↦{tokT L 0} tblA m d (cV L)) ∗ ((aV).view.loc (V d (cV L) (jV L)) ↦{tokT L 1} tblA m d (cV L)) ∗ ((aV).view.loc (V d (cV L) (jV L)) ↦{tokT L 2} tblA m d (cV L)) ∗ ((aV).view.loc (V d (cV L) (jV L)) ↦{tokT L 3} tblA m d (cV L)) ∗ ((bV).view.loc (V d (cV L) (jV L)) ↦{tokT L 4} tblB m d (cV L)) ∗ ((bV).view.loc (V d (cV L) (jV L)) ↦{tokT L 5} tblB m d (cV L)) ∗ ((bV).view.loc (V d (cV L) (jV L)) ↦{tokT L 6} tblB m d (cV L)) ∗ ((bV).view.loc (V d (cV L) (jV L)) ↦{tokT L 7} tblB m d (cV L))
    ∗ (bigSep (Finset.univ.filter fun t : Fin k0_t1_loop.trips => t.val < 31) fun t => iprop(P01 d L t (outF m d) ∗ P23 d L t (outF m d))))

/-- The loop's invariant: before trip `k` the levels are known (a persistent fact, carried so that each trip can show
    its waits admissible), the waits recorded so far are the tile's own, and the state is as above. -/
def Inv (hin : HIN m d L) (O : CellTallies nD τ sig (HIx 1)) (W₀ : Waits sig (HIx 1)) (k : ℕ) (_ : Unit) : sProp 𝕄 :=
  iprop(⌜k ≤ 32⌝ ∗ levAts (K (F := F)).L (K (F := F)).lev ∗ (∃ W', ⌜∀ p ∈ W', p ∈ W₀ ∨ p.2 = none ∨ p.2 = some (0 : Fin 1)⌝ ∗ owes (V d (cV L) (jV L)) O W')
    ∗ (if hk : k < 32 then invMid m d L hin k hk else invEnd m d L (by rw [geom_trips_eq]; decide)))

end Cert.Proof.KB

end
-- ==== Proof.KB.Tokens.lean ====
/-
  Eight read tokens of a share: a points-to at a share is what remains after eight halvings and the eight right halves
  split off on the way, and back.
-/
import proofs.«203043_g45337674776592_cont_8to1_c_201_37_alg».proof.Proof.KB.BodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

theorem toks8_split {ℓ : Loc nD τ sig} (q : PosShare TreeShare) (f : Buf (Elt F) ℓ) :
    (ℓ ↦{q} f : sProp 𝕄) ⊢ iprop((ℓ ↦{Transfers.shareDrop q 8} f) ∗ (ℓ ↦{Transfers.shareTokN q 0} f) ∗ (ℓ ↦{Transfers.shareTokN q 1} f) ∗ (ℓ ↦{Transfers.shareTokN q 2} f) ∗ (ℓ ↦{Transfers.shareTokN q 3} f) ∗ (ℓ ↦{Transfers.shareTokN q 4} f) ∗ (ℓ ↦{Transfers.shareTokN q 5} f) ∗ (ℓ ↦{Transfers.shareTokN q 6} f) ∗ (ℓ ↦{Transfers.shareTokN q 7} f)) := by
  iintro H0
  ihave H := (show (ℓ ↦{q} f : sProp 𝕄) ⊢ (ℓ ↦{Transfers.shareDrop q 0} f) from BI.Entails.refl _) $$ H0
  ihave Hx := (tok_step (F := F) (ℓ := ℓ) Finset.univ q 0 f).1 $$ H
  icases Hx with ⟨H, T0⟩
  ihave Hx := (tok_step (F := F) (ℓ := ℓ) Finset.univ q 1 f).1 $$ H
  icases Hx with ⟨H, T1⟩
  ihave Hx := (tok_step (F := F) (ℓ := ℓ) Finset.univ q 2 f).1 $$ H
  icases Hx with ⟨H, T2⟩
  ihave Hx := (tok_step (F := F) (ℓ := ℓ) Finset.univ q 3 f).1 $$ H
  icases Hx with ⟨H, T3⟩
  ihave Hx := (tok_step (F := F) (ℓ := ℓ) Finset.univ q 4 f).1 $$ H
  icases Hx with ⟨H, T4⟩
  ihave Hx := (tok_step (F := F) (ℓ := ℓ) Finset.univ q 5 f).1 $$ H
  icases Hx with ⟨H, T5⟩
  ihave Hx := (tok_step (F := F) (ℓ := ℓ) Finset.univ q 6 f).1 $$ H
  icases Hx with ⟨H, T6⟩
  ihave Hx := (tok_step (F := F) (ℓ := ℓ) Finset.univ q 7 f).1 $$ H
  icases Hx with ⟨H, T7⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  iexact T7

theorem toks8_join {ℓ : Loc nD τ sig} (q : PosShare TreeShare) (f : Buf (Elt F) ℓ) :
    iprop((ℓ ↦{Transfers.shareDrop q 8} f) ∗ (ℓ ↦{Transfers.shareTokN q 0} f) ∗ (ℓ ↦{Transfers.shareTokN q 1} f) ∗ (ℓ ↦{Transfers.shareTokN q 2} f) ∗ (ℓ ↦{Transfers.shareTokN q 3} f) ∗ (ℓ ↦{Transfers.shareTokN q 4} f) ∗ (ℓ ↦{Transfers.shareTokN q 5} f) ∗ (ℓ ↦{Transfers.shareTokN q 6} f) ∗ (ℓ ↦{Transfers.shareTokN q 7} f)) ⊢ (ℓ ↦{q} f : sProp 𝕄) := by
  iintro ⟨H, T0, T1, T2, T3, T4, T5, T6, T7⟩
  ihave H := (tok_step (F := F) (ℓ := ℓ) Finset.univ q 7 f).2 $$ [H T7]
  · isplitl [H] <;> iassumption
  ihave H := (tok_step (F := F) (ℓ := ℓ) Finset.univ q 6 f).2 $$ [H T6]
  · isplitl [H] <;> iassumption
  ihave H := (tok_step (F := F) (ℓ := ℓ) Finset.univ q 5 f).2 $$ [H T5]
  · isplitl [H] <;> iassumption
  ihave H := (tok_step (F := F) (ℓ := ℓ) Finset.univ q 4 f).2 $$ [H T4]
  · isplitl [H] <;> iassumption
  ihave H := (tok_step (F := F) (ℓ := ℓ) Finset.univ q 3 f).2 $$ [H T3]
  · isplitl [H] <;> iassumption
  ihave H := (tok_step (F := F) (ℓ := ℓ) Finset.univ q 2 f).2 $$ [H T2]
  · isplitl [H] <;> iassumption
  ihave H := (tok_step (F := F) (ℓ := ℓ) Finset.univ q 1 f).2 $$ [H T1]
  · isplitl [H] <;> iassumption
  ihave H := (tok_step (F := F) (ℓ := ℓ) Finset.univ q 0 f).2 $$ [H T0]
  · isplitl [H] <;> iassumption
  iexact H

end Cert.Proof.KB

end
-- ==== Proof.KB.FlightFrame.lean ====
/-
  The frame rule for a transfer in flight.

  The mathematics. What a thread holds of a transfer it has issued is a capability: a resource R which, for any
  continuation told what to do with the cell's counter back at zero and the delivery D, affords the atomic lowering
  of the counter by the transfer's units, and which a lowering by zero hands back whole. A resource Lf held beside
  it may be folded in: take R ∗ Lf for the resource. A continuation for the delivery D' with D ∗ Lf ⊢ D' is one for
  D once Lf is at hand, so the first clause is R's; a lowering by zero hands R back, and Lf was never touched, so
  the second clause is R's too. The flight then delivers D'.
-/
import proofs.«203043_g45337674776592_cont_8to1_c_201_37_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- A flight delivering D, beside a resource Lf, is a flight delivering anything D and Lf together yield. -/
theorem Flight_frame {thr : Thread nD τ} {sm : SemLoc sig} {ι : HIx 1} {N : ℕ} {D D' Lf : sProp 𝕄} (h : iprop(D ∗ Lf) ⊢ D') :
    iprop(Transfers.Flight countersEmb thr sm ι N D ∗ Lf) ⊢ Transfers.Flight countersEmb thr sm ι N D' := by
  unfold Transfers.Flight
  iintro ⟨⟨⟨%R, HR, %hcap, %hpeek⟩, Hcred⟩, HL⟩
  isplitl [HR HL]
  · iexists iprop(R ∗ Lf)
    isplitl [HR HL]; · isplitl [HR] <;> iassumption
    isplit
    · ipureintro
      intro K
      refine BIBase.Entails.trans ?_ (hcap K)
      iintro ⟨⟨HR, HL⟩, HK⟩
      isplitl [HR]; · iexact HR
      iintro ⟨Hv, HD⟩
      iapply HK
      isplitl [Hv]; · iexact Hv
      iapply h
      isplitl [HD] <;> iassumption
    · ipureintro
      intro K
      refine BIBase.Entails.trans ?_ (hpeek K)
      iintro ⟨⟨HR, HL⟩, HK⟩
      isplitl [HR]; · iexact HR
      iintro HR
      iapply HK
      isplitl [HR] <;> iassumption
  · iexact Hcred

end Cert.Proof.KB

end
-- ==== Proof.KB.BodyValue.lean ====
/-
  One tile's task, by values. What the list buffer holds are row numbers of the table (each below 120, under the
  precondition); what a gather leaves in a row buffer is, at (r, c), column c of the table half's row named by entry r of
  the list row; the list row j of worker w is the regrouped row numbers at (w, j, ·); and index (a, b) of the left or
  right half of row 4t + r of worker w's block of the result sits at row 128·w + 4t + r, column b or b + 128. Hence the
  half-row of the result, where it holds what the kernel leaves, is exactly what the gather of list row 4t + r left in the
  row buffer written to it.
-/
import proofs.«203043_g45337674776592_cont_8to1_c_201_37_alg».proof.Proof.KB.BodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)

variable (m : (ℓ : Loc nD τ sig) → Buf (Elt F) ℓ)
variable [FloatOps F]
variable (d : Dev nD) (L : grid0.Coords)

/-! ## The list buffer holds row numbers of the table -/

/-- Every entry of the regrouped row numbers is an entry of the row numbers: below 120 under the precondition. -/
theorem idx3_lt (hpre : PreOK m) (i : S32x128x100.Idx) : ((idx3 m d : S32x128x100.Idx → BitVec 32) i).toNat < 120 := by
  obtain ⟨q, p, r, rfl⟩ : ∃ (q : Fin 32) (p : Fin 128) (r : Fin 100), i = ix3 q p r := ⟨i 0, i 1, i 2, eq_ix3 i⟩
  rw [idx3_apply m d q p r]
  exact hpre d _

/-- Every entry of the list buffer is below 120: the buffer holds the worker's block of the regrouped row numbers, and a
    row of it read at an index is that block at an index. -/
theorem hin_of_pre (hpre : PreOK m) : HIN m d L := by
  intro off hoff x
  rw [show ∀ j, (lRowK off hoff).view.read (Elt F) (lst m d L) j = lst m d L ((lRowK off hoff).view.emb j) from
    fun j => (View.read_apply _ _).trans (cast_eq _ _)]
  show ((iRowK L).view.read (Elt F) (idx3 m d) ((lRowK off hoff).view.emb x)).toNat < 120
  rw [show ∀ j, (iRowK L).view.read (Elt F) (idx3 m d) j = idx3 m d ((iRowK L).view.emb j) from
    fun j => (View.read_apply _ _).trans (cast_eq _ _)]
  exact idx3_lt m d hpre _

/-! ## Where the task's views sit in their buffers -/

omit [FloatOps F] in
/-- The worker's number: 2 · subcore + SparseCore. -/
theorem wOf_lt : 2 * (L 1).val + (L 0).val < 32 := by
  have h0 : (L 0).val < 2 := (L 0).isLt
  have h1 : (L 1).val < 16 := (L 1).isLt
  omega

/-- The worker's number as a block of the regrouped row numbers. -/
abbrev wOf : Fin 32 := ⟨2 * (L 1).val + (L 0).val, wOf_lt L⟩

omit [FloatOps F] in
/-- A one-axis index regrouped with a leading unit axis. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)

omit [FloatOps F] in
/-- Entry y of row j of the list buffer sits at (j, y). -/
theorem lRow_emb (j : ℕ) (hj : j < 128) (y : Fin 100) :
    (lRowK (offR j) (offR_inb j hj)).view.emb (ix1 y) = ix2 (⟨j, hj⟩ : Fin 128) y := by
  show (Rect.unit (s := S128x100) (offR j) S1x100.size (offR_inb j hj)).emb
      (Shape.reshapeEquiv squeezes_S1x100_S100.numel_eq (ix1 y)) = _
  rw [reshapeEquiv_ix1_1a]
  funext k; refine Fin.ext ?_; rw [Rect.emb_apply]
  match k with
  | 0 => show j + 1 * 0 = j; omega
  | 1 => show 0 + 1 * y.val = y.val; omega

omit [FloatOps F] in
/-- Entry (p, r) of the worker's block of the regrouped row numbers sits at (w, p, r). -/
theorem iRow_emb (p : Fin 128) (r : Fin 100) : (iRowK L).view.emb (ix2 p r) = ix3 (wOf L) p r := by
  show (Rect.unit (s := S32x128x100) (k0_off1 L) S1x128x100.size (k0_off1_inb L)).emb
      (Shape.reshapeEquiv squeezes_S1x128x100_S128x100.numel_eq (ix2 p r)) = _
  rw [reshapeEquiv_ix2_1ab]
  funext k; refine Fin.ext ?_; rw [Rect.emb_apply]
  have e := k0_off1_eq L
  match k with
  | 0 => show k0_off1 L 0 + 1 * 0 = 2 * (L 1).val + (L 0).val; rw [e]; show 2 * (L 1).val + (L 0).val + 1 * 0 = _; omega
  | 1 => show k0_off1 L 1 + 1 * p.val = p.val; rw [e]; show 0 + 1 * p.val = p.val; omega
  | 2 => show k0_off1 L 2 + 1 * r.val = r.val; rw [e]; show 0 + 1 * r.val = r.val; omega

omit [FloatOps F] in
/-- A shared buffer addressed whole through the rectangle at the origin: every index sits at itself. -/
theorem aSl_emb (z : S120x128.Idx) : (aSl).view.emb z = z := by
  show (Rect.unit (s := S120x128) ![0, 0] S120x128.size inb_S120x128_S120x128_0_0).emb z = z
  funext k; refine Fin.ext ?_; rw [Rect.emb_apply]
  match k with
  | 0 => show 0 + 1 * (z 0).val = (z 0).val; omega
  | 1 => show 0 + 1 * (z 1).val = (z 1).val; omega
omit [FloatOps F] in
theorem bSl_emb (z : S120x128.Idx) : (bSl).view.emb z = z := by
  show (Rect.unit (s := S120x128) ![0, 0] S120x128.size inb_S120x128_S120x128_0_0).emb z = z
  funext k; refine Fin.ext ?_; rw [Rect.emb_apply]
  match k with
  | 0 => show 0 + 1 * (z 0).val = (z 0).val; omega
  | 1 => show 0 + 1 * (z 1).val = (z 1).val; omega

/-! ## What the list buffer holds, and what a gather leaves -/

/-- Entry y of row j of the list buffer is the regrouped row numbers at (w, j, y). -/
theorem lRow_read (j : ℕ) (hj : j < 128) (y : Fin 100) :
    (lRowK (offR j) (offR_inb j hj)).view.read (Elt F) (lst m d L) (ix1 y)
      = (idx3 m d : S32x128x100.Idx → BitVec 32) (ix3 (wOf L) (⟨j, hj⟩ : Fin 128) y) := by
  refine ((View.read_apply _ _).trans (cast_eq _ _)).trans ?_
  refine (congrArg (lst m d L : S128x100.Idx → BitVec 32) (lRow_emb j hj y)).trans ?_
  show (iRowK L).view.read (Elt F) (idx3 m d) (ix2 (⟨j, hj⟩ : Fin 128) y) = _
  refine ((View.read_apply _ _).trans (cast_eq _ _)).trans ?_
  exact congrArg (idx3 m d : S32x128x100.Idx → BitVec 32) (iRow_emb L (⟨j, hj⟩ : Fin 128) y)

omit [FloatOps F] in
/-- Entry k of a one-axis array in row-major order is the entry at k. -/
theorem rowMajor_symm_S100 (k : Fin S100.numel) : S100.rowMajor.symm k = ix1 (⟨k.val, k.isLt⟩ : Fin 100) :=
  (Equiv.symm_apply_eq _).2 (Fin.ext (by rw [Shape.rowMajor_val_one]))

/-- The row of the table that entry r of list row j names: the row numbered by the regrouped row numbers at (w, j, r). -/
theorem rows_eq (j : ℕ) (hj : j < 128) (hin : HIN m d L) (r : Fin 100) :
    (SparseCore.rows ((lRowK (offR j) (offR_inb j hj)).view.read (Elt F) (lst m d L)) rfl (hin (offR j) (offR_inb j hj)) r : Fin 120)
      = Cert.Proof.Spec.rowOf ((idx3 m d : S32x128x100.Idx → BitVec 32) (ix3 (wOf L) (⟨j, hj⟩ : Fin 128) r)) := by
  refine Fin.ext ?_
  have hw := hin (offR j) (offR_inb j hj) (ix1 r)
  rw [lRow_read m d L j hj r] at hw
  rw [Cert.Proof.Spec.rowOf_val hw]
  show ((lRowK (offR j) (offR_inb j hj)).view.read (Elt F) (lst m d L) (S100.rowMajor.symm (r.cast rfl))).toNat = _
  rw [rowMajor_symm_S100]
  exact congrArg BitVec.toNat (lRow_read m d L j hj r)

/-- WHAT A GATHER FROM THE LEFT HALF LEAVES, at (r, c): column c of the padded table's row named by the regrouped row
    numbers at (w, j, r). -/
theorem gA_apply (j : ℕ) (hj : j < 128) (hin : HIN m d L) (r : Fin 100) (c : Fin 128) :
    gA m d L j hj hin (ix2 r c)
      = (tblW m d : S120x256.Idx → F .f32) (ix2 (Cert.Proof.Spec.rowOf ((idx3 m d : S32x128x100.Idx → BitVec 32)
          (ix3 (wOf L) (⟨j, hj⟩ : Fin 128) r))) (⟨c.val, by omega⟩ : Fin 256)) := by
  unfold gA gPayA SparseCore.gatherPayload
  rw [show ∀ z, (aSl).view.read (Elt F) (tblA m d (cV L)) z = tblA m d (cV L) ((aSl).view.emb z) from
    fun z => (View.read_apply _ _).trans (cast_eq _ _)]
  rw [aSl_emb]
  have e : gathers_S120x128_S100x128.idx (SparseCore.rows ((lRowK (offR j) (offR_inb j hj)).view.read (Elt F) (lst m d L)) rfl
        (hin (offR j) (offR_inb j hj))) (ix2 r c)
      = ix2 (SparseCore.rows ((lRowK (offR j) (offR_inb j hj)).view.read (Elt F) (lst m d L)) rfl (hin (offR j) (offR_inb j hj)) r : Fin 120) c := by
    funext b; refine Fin.ext ?_
    match b with
    | ⟨0, _⟩ => rfl
    | ⟨1, _⟩ => rfl
  rw [e, rows_eq]
  rfl

/-- The same from the right half: column c + 128. -/
theorem gB_apply (j : ℕ) (hj : j < 128) (hin : HIN m d L) (r : Fin 100) (c : Fin 128) :
    gB m d L j hj hin (ix2 r c)
      = (tblW m d : S120x256.Idx → F .f32) (ix2 (Cert.Proof.Spec.rowOf ((idx3 m d : S32x128x100.Idx → BitVec 32)
          (ix3 (wOf L) (⟨j, hj⟩ : Fin 128) r))) (⟨c.val + 128, by omega⟩ : Fin 256)) := by
  unfold gB gPayB SparseCore.gatherPayload
  rw [show ∀ z, (bSl).view.read (Elt F) (tblB m d (cV L)) z = tblB m d (cV L) ((bSl).view.emb z) from
    fun z => (View.read_apply _ _).trans (cast_eq _ _)]
  rw [bSl_emb]
  have e : gathers_S120x128_S100x128.idx (SparseCore.rows ((lRowK (offR j) (offR_inb j hj)).view.read (Elt F) (lst m d L)) rfl
        (hin (offR j) (offR_inb j hj))) (ix2 r c)
      = ix2 (SparseCore.rows ((lRowK (offR j) (offR_inb j hj)).view.read (Elt F) (lst m d L)) rfl (hin (offR j) (offR_inb j hj)) r : Fin 120) c := by
    funext b; refine Fin.ext ?_
    match b with
    | ⟨0, _⟩ => rfl
    | ⟨1, _⟩ => rfl
  rw [e, rows_eq]
  rfl

/-! ## The half-rows of the result -/

omit [FloatOps F] in
/-- Row r of trip t is row 4t + r of the worker's block. -/
theorem row_lt (t : Fin k0_t1_loop.trips) (r : Fin 4) : 4 * t.val + r.val < 128 := by
  have ht : t.val < 32 := Nat.lt_of_lt_of_eq t.isLt geom_trips_eq
  have hr := r.isLt
  omega

omit [FloatOps F] in
/-- … and row 128·w + 4t + r of the result. -/
theorem rowR_lt (t : Fin k0_t1_loop.trips) (r : Fin 4) : 256 * (L 1).val + 128 * (L 0).val + 4 * t.val + r.val < 4096 := by
  have h0 : (L 0).val < 2 := (L 0).isLt
  have h1 : (L 1).val < 16 := (L 1).isLt
  have ht : t.val < 32 := Nat.lt_of_lt_of_eq t.isLt geom_trips_eq
  have hr := r.isLt
  omega

omit [FloatOps F] in
/-- Where an index (a, b) of a half-row sits, the row's offset given by an equation. -/
theorem half_emb' {R c0 : ℕ} (off : Fin 3 → ℕ) (hoff : off = ![R, 0, 0]) (inb : ∀ a, off a + S1x100x256.size a ≤ S4096x100x256.size a)
    (inb2 : ∀ a, (![0, c0] : Fin 2 → ℕ) a + S100x128.size a ≤ S100x256.size a) (hR : R < 4096) (a : Fin 100) (b : Fin 128)
    (hc : c0 + b.val < 256) :
    ((((oV).slice (Rect.unit (s := S4096x100x256) off S1x100x256.size inb) (fun _ => rfl)).squeeze S100x256 squeezes_S1x100x256_S100x256).slice
          (Rect.unit (s := S100x256) ![0, c0] S100x128.size inb2) (fun _ => rfl)).view.emb (ix2 a b)
      = ix3 (⟨R, hR⟩ : Fin 4096) a (⟨c0 + b.val, hc⟩ : Fin 256) := by
  subst hoff; exact half_emb inb inb2 a b

omit [FloatOps F] in
/-- Index (a, b) of the left half of row 4t + r sits at (128·w + 4t + r, a, b). -/
theorem oHalfA_emb (t : Fin k0_t1_loop.trips) (r : Fin 4) (a : Fin 100) (b : Fin 128) :
    (oHalfA L t r).view.emb (ix2 a b)
      = ix3 (⟨256 * (L 1).val + 128 * (L 0).val + 4 * t.val + r.val, rowR_lt L t r⟩ : Fin 4096) a (⟨b.val, by omega⟩ : Fin 256) := by
  refine (half_emb' _ (k0_off4_eq L t r) (k0_off4_inb L t r) inb_S100x256_S100x128_0_0 (rowR_lt L t r) a b (by omega)).trans ?_
  exact congrArg (fun q : Fin 256 => ix3 (⟨256 * (L 1).val + 128 * (L 0).val + 4 * t.val + r.val, rowR_lt L t r⟩ : Fin 4096) a q)
    (Fin.ext (Nat.zero_add _))

omit [FloatOps F] in
/-- Index (a, b) of the right half sits at (128·w + 4t + r, a, b + 128). -/
theorem oHalfB_emb (t : Fin k0_t1_loop.trips) (r : Fin 4) (a : Fin 100) (b : Fin 128) :
    (oHalfB L t r).view.emb (ix2 a b)
      = ix3 (⟨256 * (L 1).val + 128 * (L 0).val + 4 * t.val + r.val, rowR_lt L t r⟩ : Fin 4096) a (⟨b.val + 128, by omega⟩ : Fin 256) := by
  refine (half_emb' _ (k0_off4_eq L t r) (k0_off4_inb L t r) inb_S100x256_S100x128_0_128 (rowR_lt L t r) a b (by omega)).trans ?_
  exact congrArg (fun q : Fin 256 => ix3 (⟨256 * (L 1).val + 128 * (L 0).val + 4 * t.val + r.val, rowR_lt L t r⟩ : Fin 4096) a q)
    (Fin.ext (Nat.add_comm _ _))

/-- What the kernel leaves at (R, a, k), with R's block and row within the block named. -/
theorem outF_at (R : Fin 4096) (a : Fin 100) (k : Fin 256) (w : Fin 32) (p : Fin 128) (hw : R.val / 128 = w.val) (hp : R.val % 128 = p.val) :
    (outF m d : S4096x100x256.Idx → F .f32) (ix3 R a k)
      = (tblW m d : S120x256.Idx → F .f32) (ix2 (Cert.Proof.Spec.rowOf ((idx3 m d : S32x128x100.Idx → BitVec 32) (ix3 w p a))) k) := by
  have e1 : (⟨R.val / 128, by omega⟩ : Fin 32) = w := Fin.ext hw
  have e2 : (⟨R.val % 128, Nat.mod_lt _ (by decide)⟩ : Fin 128) = p := Fin.ext hp
  show (tblW m d : S120x256.Idx → F .f32) (ix2 (Cert.Proof.Spec.rowOf ((idx3 m d : S32x128x100.Idx → BitVec 32)
      (ix3 (⟨R.val / 128, by omega⟩ : Fin 32) (⟨R.val % 128, Nat.mod_lt _ (by decide)⟩ : Fin 128) a))) k) = _
  rw [e1, e2]

/-- THE LEFT HALF-ROW: where the result holds what the kernel leaves, the left half of row 4t + r of the worker's block is
    what the gather of list row 4t + r from the left half of the table left. -/
theorem outF_halfA (t : Fin k0_t1_loop.trips) (r : Fin 4) (hin : HIN m d L) (x : S100x128.Idx) :
    (outF m d : S4096x100x256.Idx → F .f32) ((oHalfA L t r).view.emb x) = gA m d L (4 * t.val + r.val) (row_lt t r) hin x := by
  obtain ⟨a, b, rfl⟩ : ∃ (a : Fin 100) (b : Fin 128), x = ix2 a b := ⟨x 0, x 1, eq_ix2 x⟩
  have h0 : (L 0).val < 2 := (L 0).isLt
  have h1 : (L 1).val < 16 := (L 1).isLt
  have hrow := row_lt t r
  rw [oHalfA_emb, gA_apply]
  exact outF_at m d _ a _ (wOf L) (⟨4 * t.val + r.val, row_lt t r⟩ : Fin 128)
    (by show (256 * (L 1).val + 128 * (L 0).val + 4 * t.val + r.val) / 128 = 2 * (L 1).val + (L 0).val; omega)
    (by show (256 * (L 1).val + 128 * (L 0).val + 4 * t.val + r.val) % 128 = 4 * t.val + r.val; omega)

/-- THE RIGHT HALF-ROW, likewise. -/
theorem outF_halfB (t : Fin k0_t1_loop.trips) (r : Fin 4) (hin : HIN m d L) (x : S100x128.Idx) :
    (outF m d : S4096x100x256.Idx → F .f32) ((oHalfB L t r).view.emb x) = gB m d L (4 * t.val + r.val) (row_lt t r) hin x := by
  obtain ⟨a, b, rfl⟩ : ∃ (a : Fin 100) (b : Fin 128), x = ix2 a b := ⟨x 0, x 1, eq_ix2 x⟩
  have h0 : (L 0).val < 2 := (L 0).isLt
  have h1 : (L 1).val < 16 := (L 1).isLt
  have hrow := row_lt t r
  rw [oHalfB_emb, gB_apply]
  exact outF_at m d _ a _ (wOf L) (⟨4 * t.val + r.val, row_lt t r⟩ : Fin 128)
    (by show (256 * (L 1).val + 128 * (L 0).val + 4 * t.val + r.val) / 128 = 2 * (L 1).val + (L 0).val; omega)
    (by show (256 * (L 1).val + 128 * (L 0).val + 4 * t.val + r.val) % 128 = 4 * t.val + r.val; omega)

/-! ## Two rewritings of what a buffer holds after a transfer -/

omit [FloatOps F] in
/-- One write through the whole of a buffer held whole leaves the payload, whatever it held. -/
theorem writes_whole_single {κ : Kind} (b : Ref sig κ) (f : b.ty.Contents (Elt F))
    (p : (Rect.whole b.ty.shape).shape.Idx → Elt F b.ty.elt) :
    (View.whole b).writes (Elt F) f [⟨Rect.whole b.ty.shape, p⟩] = p := by
  funext i
  show ((View.whole b).slice (Rect.whole b.ty.shape)).write (Elt F) f p Finset.univ i = p i
  have e : ((View.whole b).slice (Rect.whole b.ty.shape)).emb i = i := by
    show (Rect.whole b.ty.shape).emb i = i
    exact Rect.emb_whole_apply _ i
  have h := View.write_emb_of_mem (v := (View.whole b).slice (Rect.whole b.ty.shape)) f p (Finset.mem_univ i)
  rw [e] at h
  exact h.trans (cast_eq _ _)

omit [FloatOps F] in
/-- (a) A row buffer after its gather: held whole, written whole, it holds the payload. -/
theorem pts_writes_whole (b : Ref sig .scVector) (c : Fin τ.nSC) (j : Fin τ.nSub) (q : PosShare TreeShare) (f : b.ty.Contents (Elt F))
    (p : (Rect.whole b.ty.shape).shape.Idx → Elt F b.ty.elt) :
    (((Memref.whole b).view.loc (V d c j) ↦{q} (Memref.whole b).view.writes (Elt F) f [⟨Rect.whole b.ty.shape, p⟩] : sProp 𝕄))
      = ((Memref.whole b).view.loc (V d c j) ↦{q} p) :=
  congrArg (fun g : b.ty.Contents (Elt F) => (((Memref.whole b).view.loc (V d c j) ↦{q} g : sProp 𝕄))) (writes_whole_single b f p)

/-- (b) A half-row of the result after the write of a row buffer holding what the gather of list row 4t + r left: on the
    half-row's elements the written contents are what the kernel leaves. -/
theorem halfA_write_apply (t : Fin k0_t1_loop.trips) (r : Fin 4) (hin : HIN m d L) (f₀ : Buf (Elt F) (oLoc d))
    (pay : S100x128.Idx → Elt F .f32) (hpay : pay = gA m d L (4 * t.val + r.val) (row_lt t r) hin) :
    ∀ i ∈ (oHalfA L t r).view.set, View.write (Elt F) (oHalfA L t r).view f₀ pay Finset.univ i = outF m d i := by
  intro i hi
  obtain ⟨x, -, rfl⟩ := Finset.mem_map.mp hi
  subst hpay
  exact ((View.write_emb_of_mem _ _ (Finset.mem_univ x)).trans (cast_eq _ _)).trans (outF_halfA m d L t r hin x).symm
theorem halfB_write_apply (t : Fin k0_t1_loop.trips) (r : Fin 4) (hin : HIN m d L) (f₀ : Buf (Elt F) (oLoc d))
    (pay : S100x128.Idx → Elt F .f32) (hpay : pay = gB m d L (4 * t.val + r.val) (row_lt t r) hin) :
    ∀ i ∈ (oHalfB L t r).view.set, View.write (Elt F) (oHalfB L t r).view f₀ pay Finset.univ i = outF m d i := by
  intro i hi
  obtain ⟨x, -, rfl⟩ := Finset.mem_map.mp hi
  subst hpay
  exact ((View.write_emb_of_mem _ _ (Finset.mem_univ x)).trans (cast_eq _ _)).trans (outF_halfB m d L t r hin x).symm

/-- A points-to on a half-row's elements at contents that agree there with what the kernel leaves is the points-to at
    what the kernel leaves. -/
theorem pts_halfA_congr (t : Fin k0_t1_loop.trips) (r : Fin 4) (c : Fin τ.nSC) (j : Fin τ.nSub) (q : PosShare TreeShare) (W : Buf (Elt F) (oLoc d))
    (h : ∀ i ∈ (oHalfA L t r).view.set, W i = outF m d i) :
    (((oHalfA L t r).view.loc (V d c j) ↦[(oHalfA L t r).view.set]{q} W : sProp 𝕄))
      = ((oHalfA L t r).view.loc (V d c j) ↦[(oHalfA L t r).view.set]{q} outF m d) :=
  pointsTo_congr h
theorem pts_halfB_congr (t : Fin k0_t1_loop.trips) (r : Fin 4) (c : Fin τ.nSC) (j : Fin τ.nSub) (q : PosShare TreeShare) (W : Buf (Elt F) (oLoc d))
    (h : ∀ i ∈ (oHalfB L t r).view.set, W i = outF m d i) :
    (((oHalfB L t r).view.loc (V d c j) ↦[(oHalfB L t r).view.set]{q} W : sProp 𝕄))
      = ((oHalfB L t r).view.loc (V d c j) ↦[(oHalfB L t r).view.set]{q} outF m d) :=
  pointsTo_congr h

/-- The two together: the half-row after the write holds what the kernel leaves. -/
theorem pts_halfA_written (t : Fin k0_t1_loop.trips) (r : Fin 4) (hin : HIN m d L) (c : Fin τ.nSC) (j : Fin τ.nSub) (f₀ : Buf (Elt F) (oLoc d))
    (pay : S100x128.Idx → Elt F .f32) (hpay : pay = gA m d L (4 * t.val + r.val) (row_lt t r) hin) :
    (((oHalfA L t r).view.loc (V d c j) ↦[(oHalfA L t r).view.set]{fullShare} View.write (Elt F) (oHalfA L t r).view f₀ pay Finset.univ : sProp 𝕄))
      = ((oHalfA L t r).view.loc (V d c j) ↦[(oHalfA L t r).view.set]{fullShare} outF m d) :=
  pts_halfA_congr m d L t r c j fullShare _ (halfA_write_apply m d L t r hin f₀ pay hpay)
theorem pts_halfB_written (t : Fin k0_t1_loop.trips) (r : Fin 4) (hin : HIN m d L) (c : Fin τ.nSC) (j : Fin τ.nSub) (f₀ : Buf (Elt F) (oLoc d))
    (pay : S100x128.Idx → Elt F .f32) (hpay : pay = gB m d L (4 * t.val + r.val) (row_lt t r) hin) :
    (((oHalfB L t r).view.loc (V d c j) ↦[(oHalfB L t r).view.set]{fullShare} View.write (Elt F) (oHalfB L t r).view f₀ pay Finset.univ : sProp 𝕄))
      = ((oHalfB L t r).view.loc (V d c j) ↦[(oHalfB L t r).view.set]{fullShare} outF m d) :=
  pts_halfB_congr m d L t r c j fullShare _ (halfB_write_apply m d L t r hin f₀ pay hpay)

/-! ## The same after a transfer, in the spelling a run of the task leaves -/

/-- On a half-row's elements, one write of the gathered rows through the whole of the half-row leaves what the kernel
    leaves. -/
theorem halfA_writes_apply (hin : HIN m d L) (t : Fin k0_t1_loop.trips) (r : Fin 4) (f₀ : Buf (Elt F) (oLoc d)) (wpay : S100x128.Idx → Elt F .f32)
    (hw : wpay = gA m d L (4 * t.val + r.val) (row_lt t r) hin) :
    ∀ i ∈ (oHalfA L t r).view.set, (oHalfA L t r).view.writes (Elt F) f₀ [⟨Rect.whole S100x128, wpay⟩] i = outF m d i := by
  intro i hi
  obtain ⟨x, -, rfl⟩ := Finset.mem_map.mp hi
  subst hw
  have e : ((oHalfA L t r).view.slice (Rect.whole S100x128)).emb x = (oHalfA L t r).view.emb x := by
    show (oHalfA L t r).view.emb ((Rect.whole S100x128).emb x) = _
    rw [Rect.emb_whole_apply]
  have h := View.write_emb_of_mem (v := (oHalfA L t r).view.slice (Rect.whole S100x128)) f₀
    (gA m d L (4 * t.val + r.val) (row_lt t r) hin) (Finset.mem_univ x)
  rw [e] at h
  exact (h.trans (cast_eq _ _)).trans (outF_halfA m d L t r hin x).symm
theorem halfB_writes_apply (hin : HIN m d L) (t : Fin k0_t1_loop.trips) (r : Fin 4) (f₀ : Buf (Elt F) (oLoc d)) (wpay : S100x128.Idx → Elt F .f32)
    (hw : wpay = gB m d L (4 * t.val + r.val) (row_lt t r) hin) :
    ∀ i ∈ (oHalfB L t r).view.set, (oHalfB L t r).view.writes (Elt F) f₀ [⟨Rect.whole S100x128, wpay⟩] i = outF m d i := by
  intro i hi
  obtain ⟨x, -, rfl⟩ := Finset.mem_map.mp hi
  subst hw
  have e : ((oHalfB L t r).view.slice (Rect.whole S100x128)).emb x = (oHalfB L t r).view.emb x := by
    show (oHalfB L t r).view.emb ((Rect.whole S100x128).emb x) = _
    rw [Rect.emb_whole_apply]
  have h := View.write_emb_of_mem (v := (oHalfB L t r).view.slice (Rect.whole S100x128)) f₀
    (gB m d L (4 * t.val + r.val) (row_lt t r) hin) (Finset.mem_univ x)
  rw [e] at h
  exact (h.trans (cast_eq _ _)).trans (outF_halfB m d L t r hin x).symm

/-- A half-row after the write of a row buffer that held the gathered rows of its list row: it holds what the kernel leaves. -/
theorem halfA_writes_done (hin : HIN m d L) (t : Fin k0_t1_loop.trips) (r : Fin 4) (f₀ : Buf (Elt F) (oLoc d)) (wpay : S100x128.Idx → Elt F .f32)
    (hw : wpay = gA m d L (4 * t.val + r.val) (row_lt t r) hin) :
    (((oHalfA L t r).view.loc (V d (cV L) (jV L)) ↦[(oHalfA L t r).view.set]{fullShare} (oHalfA L t r).view.writes (Elt F) f₀ [⟨Rect.whole S100x128, wpay⟩] : sProp 𝕄))
      = ((oHalfA L t r).view.loc (V d (cV L) (jV L)) ↦[(oHalfA L t r).view.set]{fullShare} outF m d) :=
  pointsTo_congr (halfA_writes_apply m d L hin t r f₀ wpay hw)
theorem halfB_writes_done (hin : HIN m d L) (t : Fin k0_t1_loop.trips) (r : Fin 4) (f₀ : Buf (Elt F) (oLoc d)) (wpay : S100x128.Idx → Elt F .f32)
    (hw : wpay = gB m d L (4 * t.val + r.val) (row_lt t r) hin) :
    (((oHalfB L t r).view.loc (V d (cV L) (jV L)) ↦[(oHalfB L t r).view.set]{fullShare} (oHalfB L t r).view.writes (Elt F) f₀ [⟨Rect.whole S100x128, wpay⟩] : sProp 𝕄))
      = ((oHalfB L t r).view.loc (V d (cV L) (jV L)) ↦[(oHalfB L t r).view.set]{fullShare} outF m d) :=
  pointsTo_congr (halfB_writes_apply m d L hin t r f₀ wpay hw)

omit [FloatOps F] in
/-- Reading a buffer held whole gives back what it holds. -/
theorem read_whole_same (b : Ref sig .scVector) (f : b.ty.Contents (Elt F)) :
    (ReadAs.same : ReadAs (Elt F) b.ty.shape b.ty.elt b.ty.shape b.ty.elt).apply ((Memref.whole b).view.read (Elt F) f) = f := rfl
omit [FloatOps F] in
/-- After one write through the whole of it, reading it gives the payload. -/
theorem read_writes_whole (b : Ref sig .scVector) (g : b.ty.Contents (Elt F)) (p : (Rect.whole b.ty.shape).shape.Idx → Elt F b.ty.elt) :
    (ReadAs.same : ReadAs (Elt F) b.ty.shape b.ty.elt b.ty.shape b.ty.elt).apply
      ((Memref.whole b).view.read (Elt F) ((Memref.whole b).view.writes (Elt F) g [⟨Rect.whole b.ty.shape, p⟩])) = p :=
  writes_whole_single b g p

end Cert.Proof.KB

end
-- ==== Proof.KB.Epilogue.lean ====
/-
  The end of a tile's task, and how its half-rows of the result are counted by trips.

  After the loop's last trip the writes of the worker's rows 124 … 127 are in flight, one on each of the eight write
  cells. The task then waits for each in turn: two waits end the part that holds the loop, four make the next part,
  two end the task. Each wait names the first half-row of the result for its amount alone (a half-row's units, the
  same for every write); it lowers its cell to zero and hands over what the write delivers: the half-row at the
  result's final contents, and the row buffer back. Together with the half-rows of the trips below 31 these are all
  of the worker's half-rows; its four rows a trip, each in two halves, are the trip's two pairs of rows. The read
  tokens lent to the gathers, with what was left of the buffer they were split off, are the buffer again.
-/
import proofs.«203043_g45337674776592_cont_8to1_c_201_37_alg».proof.Proof.KB.Tokens

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ)
variable [FloatOps F]
variable (d : Dev nD) (L : grid0.Coords)

/-! ## The final waits -/

/-- The two halves of row 0 of the result, [100, 128]: what each final wait names, for its amount alone. -/
abbrev oDummyA : Memref sig .scVector .hbm S100x128 .f32 :=
  (((oV).slice (Rect.unit (s := S4096x100x256) ![0, 0, 0] S1x100x256.size inb_S4096x100x256_S1x100x256_0_0_0) (fun _ => rfl)).squeeze S100x256 squeezes_S1x100x256_S100x256).slice
    (Rect.unit (s := S100x256) ![0, 0] S100x128.size inb_S100x256_S100x128_0_0) (fun _ => rfl)
abbrev oDummyB : Memref sig .scVector .hbm S100x128 .f32 :=
  (((oV).slice (Rect.unit (s := S4096x100x256) ![0, 0, 0] S1x100x256.size inb_S4096x100x256_S1x100x256_0_0_0) (fun _ => rfl)).squeeze S100x256 squeezes_S1x100x256_S100x256).slice
    (Rect.unit (s := S100x256) ![0, 128] S100x128.size inb_S100x256_S100x128_0_128) (fun _ => rfl)

omit [FloatOps F] in
/-- A wait naming a half-row lowers its cell by a half-row's units, which is what a write of a row buffer raised it by. -/
theorem creditA : (oDummyA).view.dmaCredit = 409600 := by decide
omit [FloatOps F] in
theorem creditB : (oDummyB).view.dmaCredit = 409600 := by decide

/-- What the task does after its loop, to the end of that part: it waits for the writes of trip 31's row 0. -/
abbrev part5_tail (i : grid0.Coords) (arg4 : Memref sig .scVector .hbm S4096x100x256 .f32) (arg8 : Memref sig .scVector .vmem S100x128 .f32) (harg8 : arg8.IsWhole)
    (arg12 : Memref sig .scVector .vmem S100x128 .f32) (harg12 : arg12.IsWhole) (arg24 arg28 : DmaSems sig S_) :
    Prog (TpuEff nD τ sig (Elt F) Λ₀ (.scVector ((i 0).castLE hcore0) ((i 1).castLE hsub0))) PUnit := do
  let v25 : Memref sig .scVector .hbm S1x100x256 .f32 := arg4.slice (Rect.unit (s := S4096x100x256) ![0, 0, 0] S1x100x256.size inb_S4096x100x256_S1x100x256_0_0_0) (fun _ => rfl)
  let v26 : Memref sig .scVector .hbm S100x256 .f32 := v25.squeeze S100x256 squeezes_S1x100x256_S100x256
  let v27 : Memref sig .scVector .hbm S100x128 .f32 := v26.slice (Rect.unit (s := S100x256) ![0, 0] S100x128.size inb_S100x256_S100x128_0_0) (fun _ => rfl)
  Prog.lift (.waitDma2 arg24.sem arg8 v27 harg8.wordExact (View.wordExact_bits rfl))
  let v31 : Memref sig .scVector .hbm S1x100x256 .f32 := arg4.slice (Rect.unit (s := S4096x100x256) ![0, 0, 0] S1x100x256.size inb_S4096x100x256_S1x100x256_0_0_0) (fun _ => rfl)
  let v32 : Memref sig .scVector .hbm S100x256 .f32 := v31.squeeze S100x256 squeezes_S1x100x256_S100x256
  let v33 : Memref sig .scVector .hbm S100x128 .f32 := v32.slice (Rect.unit (s := S100x256) ![0, 128] S100x128.size inb_S100x256_S100x128_0_128) (fun _ => rfl)
  Prog.lift (.waitDma2 arg28.sem arg12 v33 harg12.wordExact (View.wordExact_bits rfl))
  pure ⟨⟩

/-- The printed part is its two first gathers, the loop, and that. -/
theorem part5_split (i : grid0.Coords) (arg2 : Memref sig .scVector .hbm S32x128x100 .i32) (harg2 : arg2.IsWhole) (arg3 : Memref sig .scVector .hbm S120x256 .f32) (harg3 : arg3.IsWhole) (arg4 : Memref sig .scVector .hbm S4096x100x256 .f32) (harg4 : arg4.IsWhole) (arg5 : Memref sig .scVector .vmem S128x100 .i32) (harg5 : arg5.IsWhole) (arg6 : Memref sig .scVector .shared S120x128 .f32) (harg6 : arg6.IsWhole) (arg7 : Memref sig .scVector .shared S120x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S100x128 .f32) (harg11 : arg11.IsWhole) (arg12 : Memref sig .scVector .vmem S100x128 .f32) (harg12 : arg12.IsWhole) (arg13 : Memref sig .scVector .vmem S100x128 .f32) (harg13 : arg13.IsWhole) (arg14 : Memref sig .scVector .vmem S100x128 .f32) (harg14 : arg14.IsWhole) (arg15 : Memref sig .scVector .vmem S100x128 .f32) (harg15 : arg15.IsWhole) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (arg31 : DmaSems sig S_) (v70_r0 : DmaSems sig S_) (v70_r1 : DmaSems sig S_) (v70_r2 : DmaSems sig S_) (v2 : BitVec 32) :
    k0_part5_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 v2 = (do
    let v17 : Memref sig .scVector .shared S120x128 .f32 := arg6.slice (Rect.unit (s := S120x128) ![0, 0] S120x128.size inb_S120x128_S120x128_0_0) (fun _ => rfl)
    let v15 : Memref sig .scVector .vmem S1x100 .i32 := arg5.slice (Rect.unit (s := S128x100) ![1, 0] S1x100.size inb_S128x100_S1x100_1_0) (fun _ => rfl)
    let v16 : Memref sig .scVector .vmem S100 .i32 := v15.squeeze S100 squeezes_S1x100_S100
    SparseCore.enqueueIndirectGather rfl v17 arg9 gathers_S120x128_S100x128 v16 rfl arg17.sem (View.wordExact_bits rfl) rfl (Or.inr rfl)
    let v18 : Memref sig .scVector .vmem S1x100 .i32 := arg5.slice (Rect.unit (s := S128x100) ![1, 0] S1x100.size inb_S128x100_S1x100_1_0) (fun _ => rfl)
    let v19 : Memref sig .scVector .vmem S100 .i32 := v18.squeeze S100 squeezes_S1x100_S100
    let v20 : Memref sig .scVector .shared S120x128 .f32 := arg7.slice (Rect.unit (s := S120x128) ![0, 0] S120x128.size inb_S120x128_S120x128_0_0) (fun _ => rfl)
    SparseCore.enqueueIndirectGather rfl v20 arg13 gathers_S120x128_S100x128 v19 rfl arg21.sem (View.wordExact_bits rfl) rfl (Or.inr rfl)
    Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 v2)
    part5_tail (F := F) i arg4 arg8 harg8 arg12 harg12 arg24 arg28) := rfl

/-- What the task does after its last part: it waits for the writes of trip 31's row 3. -/
abbrev cc0_tail (i : grid0.Coords) (arg4 : Memref sig .scVector .hbm S4096x100x256 .f32) (arg11 : Memref sig .scVector .vmem S100x128 .f32) (harg11 : arg11.IsWhole)
    (arg15 : Memref sig .scVector .vmem S100x128 .f32) (harg15 : arg15.IsWhole) (arg27 arg31 : DmaSems sig S_) :
    Prog (TpuEff nD τ sig (Elt F) Λ₀ (.scVector ((i 0).castLE hcore0) ((i 1).castLE hsub0))) PUnit := do
  let v61 : Memref sig .scVector .hbm S1x100x256 .f32 := arg4.slice (Rect.unit (s := S4096x100x256) ![0, 0, 0] S1x100x256.size inb_S4096x100x256_S1x100x256_0_0_0) (fun _ => rfl)
  let v62 : Memref sig .scVector .hbm S100x256 .f32 := v61.squeeze S100x256 squeezes_S1x100x256_S100x256
  let v63 : Memref sig .scVector .hbm S100x128 .f32 := v62.slice (Rect.unit (s := S100x256) ![0, 0] S100x128.size inb_S100x256_S100x128_0_0) (fun _ => rfl)
  Prog.lift (.waitDma2 arg27.sem arg11 v63 harg11.wordExact (View.wordExact_bits rfl))
  let v67 : Memref sig .scVector .hbm S1x100x256 .f32 := arg4.slice (Rect.unit (s := S4096x100x256) ![0, 0, 0] S1x100x256.size inb_S4096x100x256_S1x100x256_0_0_0) (fun _ => rfl)
  let v68 : Memref sig .scVector .hbm S100x256 .f32 := v67.squeeze S100x256 squeezes_S1x100x256_S100x256
  let v69 : Memref sig .scVector .hbm S100x128 .f32 := v68.slice (Rect.unit (s := S100x256) ![0, 128] S100x128.size inb_S100x256_S100x128_0_128) (fun _ => rfl)
  Prog.lift (.waitDma2 arg31.sem arg15 v69 harg15.wordExact (View.wordExact_bits rfl))
  pure ⟨⟩

/-- The printed task is its three parts and that. -/
theorem cc0_split (i : grid0.Coords) (arg2 : Memref sig .scVector .hbm S32x128x100 .i32) (harg2 : arg2.IsWhole) (arg3 : Memref sig .scVector .hbm S120x256 .f32) (harg3 : arg3.IsWhole) (arg4 : Memref sig .scVector .hbm S4096x100x256 .f32) (harg4 : arg4.IsWhole) (arg5 : Memref sig .scVector .vmem S128x100 .i32) (harg5 : arg5.IsWhole) (arg6 : Memref sig .scVector .shared S120x128 .f32) (harg6 : arg6.IsWhole) (arg7 : Memref sig .scVector .shared S120x128 .f32) (harg7 : arg7.IsWhole) (arg8 : Memref sig .scVector .vmem S100x128 .f32) (harg8 : arg8.IsWhole) (arg9 : Memref sig .scVector .vmem S100x128 .f32) (harg9 : arg9.IsWhole) (arg10 : Memref sig .scVector .vmem S100x128 .f32) (harg10 : arg10.IsWhole) (arg11 : Memref sig .scVector .vmem S100x128 .f32) (harg11 : arg11.IsWhole) (arg12 : Memref sig .scVector .vmem S100x128 .f32) (harg12 : arg12.IsWhole) (arg13 : Memref sig .scVector .vmem S100x128 .f32) (harg13 : arg13.IsWhole) (arg14 : Memref sig .scVector .vmem S100x128 .f32) (harg14 : arg14.IsWhole) (arg15 : Memref sig .scVector .vmem S100x128 .f32) (harg15 : arg15.IsWhole) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (arg30 : DmaSems sig S_) (arg31 : DmaSems sig S_) (v70_r0 : DmaSems sig S_) (v70_r1 : DmaSems sig S_) (v70_r2 : DmaSems sig S_) :
    cc0_k_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 = (do
    let v2 : BitVec 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2
    k0_part5 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2 v2
    k0_part6 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 arg20 arg21 arg22 arg23 arg24 arg25 arg26 arg27 arg28 arg29 arg30 arg31 v70_r0 v70_r1 v70_r2
    cc0_tail (F := F) i arg4 arg11 harg11 arg15 harg15 arg27 arg31) := rfl

set_option maxHeartbeats 4000000 in
/-- The two waits after the loop: the writes of trip 31's row 0 land. -/
theorem part5_tail_waits (h31 : 31 < k0_t1_loop.trips) (O : CellTallies nD τ sig (HIx 1)) (W : Waits sig (HIx 1)) (hO : ∀ g, O g none = 0) :
    iprop(levAts (K (F := F)).L (K (F := F)).lev
        ∗ Transfers.Flight countersEmb (V d (cV L) (jV L)) (SemLoc.dma (⟨8, by decide⟩ : DmaSem sig)) (default : HIx 1) 409600 (wDelA0 m d L ⟨31, h31⟩) ∗ Transfers.Flight countersEmb (V d (cV L) (jV L)) (SemLoc.dma (⟨12, by decide⟩ : DmaSem sig)) (default : HIx 1) 409600 (wDelB0 m d L ⟨31, h31⟩)
        ∗ owes (V d (cV L) (jV L)) O W)
      ⊢ wp frame (wpE (defs₀ (F := F)) 𝒱₀ (V d (cV L) (jV L)) none) Set.univ
          (part5_tail (F := F) L oV rA0 (Memref.isWhole_whole _) rB0 (Memref.isWhole_whole _) cc0_scratch19 cc0_scratch23)
          (fun _ => iprop(wDelA0 m d L ⟨31, h31⟩ ∗ wDelB0 m d L ⟨31, h31⟩ ∗ semVal ((V d (cV L) (jV L), SemLoc.dma (⟨8, by decide⟩ : DmaSem sig)) : GSem nD τ sig) 0 ∗ semVal ((V d (cV L) (jV L), SemLoc.dma (⟨12, by decide⟩ : DmaSem sig)) : GSem nD τ sig) 0
            ∗ owes (V d (cV L) (jV L)) O (insert (SemLoc.dma (⟨12, by decide⟩ : DmaSem sig), (default : HIx 1)) (insert (SemLoc.dma (⟨8, by decide⟩ : DmaSem sig), (default : HIx 1)) W)))) := by
  unfold part5_tail
  iintro ⟨#Hlv, HF8, HF12, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hmw8 := (Transfers.MayWaits.elim (SemLoc.dma (⟨8, by decide⟩ : DmaSem sig))) $$ Hmw
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  sl_exec
  ihave Hmw12 := (Transfers.MayWaits.elim (SemLoc.dma (⟨12, by decide⟩ : DmaSem sig))) $$ Hmw
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  sl_exec
  rw [wp_ret]; imodintro
  isplitl [HD8]; · iexact HD8
  isplitl [HD12]; · iexact HD12
  isplitl [Hv8]; · iexact Hv8
  isplitl [Hv12]; · iexact Hv12
  iexact HO

set_option maxHeartbeats 4000000 in
/-- The two waits that end the task: the writes of trip 31's row 3 land. -/
theorem cc0_tail_waits (h31 : 31 < k0_t1_loop.trips) (O : CellTallies nD τ sig (HIx 1)) (W : Waits sig (HIx 1)) (hO : ∀ g, O g none = 0) :
    iprop(levAts (K (F := F)).L (K (F := F)).lev
        ∗ Transfers.Flight countersEmb (V d (cV L) (jV L)) (SemLoc.dma (⟨11, by decide⟩ : DmaSem sig)) (default : HIx 1) 409600 (wDelA3 m d L ⟨31, h31⟩) ∗ Transfers.Flight countersEmb (V d (cV L) (jV L)) (SemLoc.dma (⟨15, by decide⟩ : DmaSem sig)) (default : HIx 1) 409600 (wDelB3 m d L ⟨31, h31⟩)
        ∗ owes (V d (cV L) (jV L)) O W)
      ⊢ wp frame (wpE (defs₀ (F := F)) 𝒱₀ (V d (cV L) (jV L)) none) Set.univ
          (cc0_tail (F := F) L oV rA3 (Memref.isWhole_whole _) rB3 (Memref.isWhole_whole _) cc0_scratch22 cc0_scratch26)
          (fun _ => iprop(wDelA3 m d L ⟨31, h31⟩ ∗ wDelB3 m d L ⟨31, h31⟩ ∗ semVal ((V d (cV L) (jV L), SemLoc.dma (⟨11, by decide⟩ : DmaSem sig)) : GSem nD τ sig) 0 ∗ semVal ((V d (cV L) (jV L), SemLoc.dma (⟨15, by decide⟩ : DmaSem sig)) : GSem nD τ sig) 0
            ∗ owes (V d (cV L) (jV L)) O (insert (SemLoc.dma (⟨15, by decide⟩ : DmaSem sig), (default : HIx 1)) (insert (SemLoc.dma (⟨11, by decide⟩ : DmaSem sig), (default : HIx 1)) W)))) := by
  unfold cc0_tail
  iintro ⟨#Hlv, HF11, HF15, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hmw11 := (Transfers.MayWaits.elim (SemLoc.dma (⟨11, by decide⟩ : DmaSem sig))) $$ Hmw
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  sl_exec
  ihave Hmw15 := (Transfers.MayWaits.elim (SemLoc.dma (⟨15, by decide⟩ : DmaSem sig))) $$ Hmw
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  sl_exec
  rw [wp_ret]; imodintro
  isplitl [HD11]; · iexact HD11
  isplitl [HD15]; · iexact HD15
  isplitl [Hv11]; · iexact Hv11
  isplitl [Hv15]; · iexact Hv15
  iexact HO

set_option maxHeartbeats 4000000 in
/-- The four waits of the task's last part but one: the writes of trip 31's rows 1 and 2 land. -/
theorem part6_waits (h31 : 31 < k0_t1_loop.trips) (O : CellTallies nD τ sig (HIx 1)) (W : Waits sig (HIx 1)) (hO : ∀ g, O g none = 0) :
    iprop(levAts (K (F := F)).L (K (F := F)).lev
        ∗ Transfers.Flight countersEmb (V d (cV L) (jV L)) (SemLoc.dma (⟨9, by decide⟩ : DmaSem sig)) (default : HIx 1) 409600 (wDelA1 m d L ⟨31, h31⟩) ∗ Transfers.Flight countersEmb (V d (cV L) (jV L)) (SemLoc.dma (⟨13, by decide⟩ : DmaSem sig)) (default : HIx 1) 409600 (wDelB1 m d L ⟨31, h31⟩)
        ∗ Transfers.Flight countersEmb (V d (cV L) (jV L)) (SemLoc.dma (⟨10, by decide⟩ : DmaSem sig)) (default : HIx 1) 409600 (wDelA2 m d L ⟨31, h31⟩) ∗ Transfers.Flight countersEmb (V d (cV L) (jV L)) (SemLoc.dma (⟨14, by decide⟩ : DmaSem sig)) (default : HIx 1) 409600 (wDelB2 m d L ⟨31, h31⟩)
        ∗ owes (V d (cV L) (jV L)) O W)
      ⊢ wp frame (wpE (defs₀ (F := F)) 𝒱₀ (V d (cV L) (jV L)) none) Set.univ
          (k0_part6 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          (fun _ => iprop(wDelA1 m d L ⟨31, h31⟩ ∗ wDelB1 m d L ⟨31, h31⟩ ∗ wDelA2 m d L ⟨31, h31⟩ ∗ wDelB2 m d L ⟨31, h31⟩
            ∗ semVal ((V d (cV L) (jV L), SemLoc.dma (⟨9, by decide⟩ : DmaSem sig)) : GSem nD τ sig) 0 ∗ semVal ((V d (cV L) (jV L), SemLoc.dma (⟨13, by decide⟩ : DmaSem sig)) : GSem nD τ sig) 0 ∗ semVal ((V d (cV L) (jV L), SemLoc.dma (⟨10, by decide⟩ : DmaSem sig)) : GSem nD τ sig) 0 ∗ semVal ((V d (cV L) (jV L), SemLoc.dma (⟨14, by decide⟩ : DmaSem sig)) : GSem nD τ sig) 0
            ∗ owes (V d (cV L) (jV L)) O (insert (SemLoc.dma (⟨14, by decide⟩ : DmaSem sig), (default : HIx 1)) (insert (SemLoc.dma (⟨10, by decide⟩ : DmaSem sig), (default : HIx 1)) (insert (SemLoc.dma (⟨13, by decide⟩ : DmaSem sig), (default : HIx 1)) (insert (SemLoc.dma (⟨9, by decide⟩ : DmaSem sig), (default : HIx 1)) W)))))) := by
  simp only [k0_part6_eq_skeleton]; unfold k0_part6_skel
  iintro ⟨#Hlv, HF9, HF13, HF10, HF14, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  ihave Hmw9 := (Transfers.MayWaits.elim (SemLoc.dma (⟨9, by decide⟩ : DmaSem sig))) $$ Hmw
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  sl_exec
  ihave Hmw13 := (Transfers.MayWaits.elim (SemLoc.dma (⟨13, by decide⟩ : DmaSem sig))) $$ Hmw
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  sl_exec
  ihave Hmw10 := (Transfers.MayWaits.elim (SemLoc.dma (⟨10, by decide⟩ : DmaSem sig))) $$ Hmw
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  sl_exec
  ihave Hmw14 := (Transfers.MayWaits.elim (SemLoc.dma (⟨14, by decide⟩ : DmaSem sig))) $$ Hmw
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  sl_exec
  rw [wp_ret]; imodintro
  isplitl [HD9]; · iexact HD9
  isplitl [HD13]; · iexact HD13
  isplitl [HD10]; · iexact HD10
  isplitl [HD14]; · iexact HD14
  isplitl [Hv9]; · iexact Hv9
  isplitl [Hv13]; · iexact Hv13
  isplitl [Hv10]; · iexact Hv10
  isplitl [Hv14]; · iexact Hv14
  iexact HO

/-! ## A worker's half-rows, by trips -/

omit [FloatOps F] in
/-- A half-row as the task addresses it is the same elements of the result. -/
theorem pts_oHalfA (t : Fin k0_t1_loop.trips) (r : Fin 4) (f : Buf (Elt F) (oLoc d)) :
    ((oHalfA L t r).view.loc (V d (cV L) (jV L)) ↦[(oHalfA L t r).view.set]{fullShare} f : sProp 𝕄) = oLoc d ↦[(oHalfA L t r).view.set]{fullShare} f := rfl
omit [FloatOps F] in
theorem pts_oHalfB (t : Fin k0_t1_loop.trips) (r : Fin 4) (f : Buf (Elt F) (oLoc d)) :
    ((oHalfB L t r).view.loc (V d (cV L) (jV L)) ↦[(oHalfB L t r).view.set]{fullShare} f : sProp 𝕄) = oLoc d ↦[(oHalfB L t r).view.set]{fullShare} f := rfl

omit [FloatOps F] in
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- A trip's four rows, each its two halves. -/
abbrev tripRows (t : Fin k0_t1_loop.trips) (f : Buf (Elt F) (oLoc d)) : sProp 𝕄 :=
  bigSep Finset.univ fun r : Fin 4 => iprop((oLoc d ↦[(oHalfA L t r).view.set]{fullShare} f) ∗ (oLoc d ↦[(oHalfB L t r).view.set]{fullShare} f))

omit [FloatOps F] in
theorem tripRows_P (t : Fin k0_t1_loop.trips) (f : Buf (Elt F) (oLoc d)) : tripRows d L t f ⊢ (iprop(P01 d L t f ∗ P23 d L t f) : sProp 𝕄) := by
  unfold tripRows P01 P23
  rw [bigSep_fin_four, pts_oHalfA, pts_oHalfA, pts_oHalfA, pts_oHalfA, pts_oHalfB, pts_oHalfB, pts_oHalfB, pts_oHalfB]
  iintro ⟨⟨HA0, HB0⟩, ⟨HA1, HB1⟩, ⟨HA2, HB2⟩, HA3, HB3⟩
  isplitl [HA0 HB0 HA1 HB1]
  · isplitl [HA0]; · iexact HA0
    isplitl [HB0]; · iexact HB0
    isplitl [HA1]; · iexact HA1
    iexact HB1
  isplitl [HA2]; · iexact HA2
  isplitl [HB2]; · iexact HB2
  isplitl [HA3]; · iexact HA3
  iexact HB3

omit [FloatOps F] in
theorem P_tripRows (t : Fin k0_t1_loop.trips) (f : Buf (Elt F) (oLoc d)) : (iprop(P01 d L t f ∗ P23 d L t f) : sProp 𝕄) ⊢ tripRows d L t f := by
  unfold tripRows P01 P23
  rw [bigSep_fin_four, pts_oHalfA, pts_oHalfA, pts_oHalfA, pts_oHalfA, pts_oHalfB, pts_oHalfB, pts_oHalfB, pts_oHalfB]
  iintro ⟨⟨HA0, HB0, HA1, HB1⟩, HA2, HB2, HA3, HB3⟩
  isplitl [HA0 HB0]
  · isplitl [HA0]; · iexact HA0
    iexact HB0
  isplitl [HA1 HB1]
  · isplitl [HA1]; · iexact HA1
    iexact HB1
  isplitl [HA2 HB2]
  · isplitl [HA2]; · iexact HA2
    iexact HB2
  isplitl [HA3]; · iexact HA3
  iexact HB3

omit [FloatOps F] in
theorem univ_trips (h31 : 31 < k0_t1_loop.trips) :
    (Finset.univ : Finset (Fin k0_t1_loop.trips)) = insert ⟨31, h31⟩ (Finset.univ.filter fun t : Fin k0_t1_loop.trips => t.val < 31) := by
  ext t
  have ht : t.val < 32 := Nat.lt_of_lt_of_eq t.isLt geom_trips_eq
  simp only [Finset.mem_univ, Finset.mem_insert, Finset.mem_filter, true_and, true_iff]
  by_cases h : t.val < 31
  · exact Or.inr h
  · exact Or.inl (Fin.ext (by show t.val = 31; omega))

omit [FloatOps F] in
/-- After the last wait: the half-rows below trip 31 and trip 31's are the worker's half-rows. -/
theorem pieces_of_trips (h31 : 31 < k0_t1_loop.trips) (f : Buf (Elt F) (oLoc d)) :
    iprop((bigSep (Finset.univ.filter fun t : Fin k0_t1_loop.trips => t.val < 31) fun t => iprop(P01 d L t f ∗ P23 d L t f))
      ∗ P01 d L ⟨31, h31⟩ f ∗ P23 d L ⟨31, h31⟩ f) ⊢ (oPieces d L f : sProp 𝕄) := by
  have e : (bigSep Finset.univ fun t : Fin k0_t1_loop.trips => iprop(P01 d L t f ∗ P23 d L t f) : sProp 𝕄)
      = iprop(iprop(P01 d L ⟨31, h31⟩ f ∗ P23 d L ⟨31, h31⟩ f) ∗ bigSep (Finset.univ.filter fun t : Fin k0_t1_loop.trips => t.val < 31) fun t => iprop(P01 d L t f ∗ P23 d L t f)) := by
    have hnot : (⟨31, h31⟩ : Fin k0_t1_loop.trips) ∉ Finset.univ.filter fun t : Fin k0_t1_loop.trips => t.val < 31 :=
      fun h => absurd (Finset.mem_filter.mp h).2 (lt_irrefl 31)
    exact (congrArg (fun s => bigSep s fun t : Fin k0_t1_loop.trips => iprop(P01 d L t f ∗ P23 d L t f)) (univ_trips h31)).trans (bigSep_insert hnot)
  refine BIBase.Entails.trans ?_ (show (bigSep Finset.univ fun t : Fin k0_t1_loop.trips => iprop(P01 d L t f ∗ P23 d L t f) : sProp 𝕄) ⊢ oPieces d L f from
    bigSep_mono fun t _ => P_tripRows d L t f)
  rw [e]
  iintro ⟨Hlo, H01, H23⟩
  isplitl [H01 H23]
  · isplitl [H01]; · iexact H01
    iexact H23
  iexact Hlo

omit [FloatOps F] in
/-- Before the first trip: the worker's half-rows are every trip's. -/
theorem trips_of_pieces (f : Buf (Elt F) (oLoc d)) :
    (oPieces d L f : sProp 𝕄) ⊢ bigSep (Finset.univ.filter fun t : Fin k0_t1_loop.trips => 0 ≤ t.val) fun t => iprop(P01 d L t f ∗ P23 d L t f) := by
  rw [Finset.filter_true_of_mem fun t _ => Nat.zero_le t.val]
  exact bigSep_mono fun t _ => tripRows_P d L t f

/-! ## After the eight waits -/

/-- What the eight last writes deliver, with the half-rows below trip 31: the worker's half-rows at `outF`, and the
    eight row buffers back at some contents. -/
theorem pieces_of_dels (h31 : 31 < k0_t1_loop.trips) :
    iprop(wDelA0 m d L ⟨31, h31⟩ ∗ wDelB0 m d L ⟨31, h31⟩ ∗ wDelA1 m d L ⟨31, h31⟩ ∗ wDelB1 m d L ⟨31, h31⟩
        ∗ wDelA2 m d L ⟨31, h31⟩ ∗ wDelB2 m d L ⟨31, h31⟩ ∗ wDelA3 m d L ⟨31, h31⟩ ∗ wDelB3 m d L ⟨31, h31⟩
        ∗ (bigSep (Finset.univ.filter fun t : Fin k0_t1_loop.trips => t.val < 31) fun t => iprop(P01 d L t (outF m d) ∗ P23 d L t (outF m d))))
      ⊢ (iprop(oPieces d L (outF m d) ∗ (∃ g, (rA0).view.loc (V d (cV L) (jV L)) ↦{fullShare} g) ∗ (∃ g, (rB0).view.loc (V d (cV L) (jV L)) ↦{fullShare} g) ∗ (∃ g, (rA1).view.loc (V d (cV L) (jV L)) ↦{fullShare} g) ∗ (∃ g, (rB1).view.loc (V d (cV L) (jV L)) ↦{fullShare} g)
          ∗ (∃ g, (rA2).view.loc (V d (cV L) (jV L)) ↦{fullShare} g) ∗ (∃ g, (rB2).view.loc (V d (cV L) (jV L)) ↦{fullShare} g) ∗ (∃ g, (rA3).view.loc (V d (cV L) (jV L)) ↦{fullShare} g) ∗ (∃ g, (rB3).view.loc (V d (cV L) (jV L)) ↦{fullShare} g)) : sProp 𝕄) := by
  unfold wDelA0 wDelB0 wDelA1 wDelB1 wDelA2 wDelB2 wDelA3 wDelB3
  iintro ⟨⟨HA0, Ha0⟩, ⟨HB0, Hb0⟩, ⟨HA1, Ha1⟩, ⟨HB1, Hb1⟩, ⟨HA2, Ha2⟩, ⟨HB2, Hb2⟩, ⟨HA3, Ha3⟩, ⟨HB3, Hb3⟩, Hlo⟩
  isplitl [HA0 HB0 HA1 HB1 HA2 HB2 HA3 HB3 Hlo]
  · iapply (pieces_of_trips (F := F) d L h31 (outF m d))
    isplitl [Hlo]; · iexact Hlo
    unfold P01 P23
    isplitl [HA0 HB0 HA1 HB1]
    · isplitl [HA0]; · iexact HA0
      isplitl [HB0]; · iexact HB0
      isplitl [HA1]; · iexact HA1
      iexact HB1
    isplitl [HA2]; · iexact HA2
    isplitl [HB2]; · iexact HB2
    isplitl [HA3]; · iexact HA3
    iexact HB3
  isplitl [Ha0]; · iexact Ha0
  isplitl [Hb0]; · iexact Hb0
  isplitl [Ha1]; · iexact Ha1
  isplitl [Hb1]; · iexact Hb1
  isplitl [Ha2]; · iexact Ha2
  isplitl [Hb2]; · iexact Hb2
  isplitl [Ha3]; · iexact Ha3
  iexact Hb3

/-! ## The read tokens rejoined -/

/-- The list buffer's eight read tokens and what was left of it are the list buffer whole. -/
theorem lst_toks_join :
    iprop(((sV).view.loc (V d (cV L) (jV L)) ↦{Transfers.shareDrop fullShare 8} lst m d L) ∗ ((sV).view.loc (V d (cV L) (jV L)) ↦{tokL 0} lst m d L) ∗ ((sV).view.loc (V d (cV L) (jV L)) ↦{tokL 1} lst m d L)
        ∗ ((sV).view.loc (V d (cV L) (jV L)) ↦{tokL 2} lst m d L) ∗ ((sV).view.loc (V d (cV L) (jV L)) ↦{tokL 3} lst m d L) ∗ ((sV).view.loc (V d (cV L) (jV L)) ↦{tokL 4} lst m d L)
        ∗ ((sV).view.loc (V d (cV L) (jV L)) ↦{tokL 5} lst m d L) ∗ ((sV).view.loc (V d (cV L) (jV L)) ↦{tokL 6} lst m d L) ∗ ((sV).view.loc (V d (cV L) (jV L)) ↦{tokL 7} lst m d L))
      ⊢ ((sV).view.loc (V d (cV L) (jV L)) ↦{fullShare} lst m d L : sProp 𝕄) :=
  toks8_join (F := F) (ℓ := (sV).view.loc (V d (cV L) (jV L))) fullShare (lst m d L)

/-- The same for the tile's share of the left half of the table, -/
theorem tblA_toks_join :
    iprop(((aV).view.loc (V d (cV L) (jV L)) ↦{Transfers.shareDrop (sq (jL L)) 8} tblA m d (cV L)) ∗ ((aV).view.loc (V d (cV L) (jV L)) ↦{tokT L 0} tblA m d (cV L)) ∗ ((aV).view.loc (V d (cV L) (jV L)) ↦{tokT L 1} tblA m d (cV L))
        ∗ ((aV).view.loc (V d (cV L) (jV L)) ↦{tokT L 2} tblA m d (cV L)) ∗ ((aV).view.loc (V d (cV L) (jV L)) ↦{tokT L 3} tblA m d (cV L)) ∗ ((aV).view.loc (V d (cV L) (jV L)) ↦{tokT L 4} tblA m d (cV L))
        ∗ ((aV).view.loc (V d (cV L) (jV L)) ↦{tokT L 5} tblA m d (cV L)) ∗ ((aV).view.loc (V d (cV L) (jV L)) ↦{tokT L 6} tblA m d (cV L)) ∗ ((aV).view.loc (V d (cV L) (jV L)) ↦{tokT L 7} tblA m d (cV L)))
      ⊢ ((aV).view.loc (V d (cV L) (jV L)) ↦{sq (jL L)} tblA m d (cV L) : sProp 𝕄) :=
  toks8_join (F := F) (ℓ := (aV).view.loc (V d (cV L) (jV L))) (sq (jL L)) (tblA m d (cV L))

/-- and of the right half. -/
theorem tblB_toks_join :
    iprop(((bV).view.loc (V d (cV L) (jV L)) ↦{Transfers.shareDrop (sq (jL L)) 8} tblB m d (cV L)) ∗ ((bV).view.loc (V d (cV L) (jV L)) ↦{tokT L 0} tblB m d (cV L)) ∗ ((bV).view.loc (V d (cV L) (jV L)) ↦{tokT L 1} tblB m d (cV L))
        ∗ ((bV).view.loc (V d (cV L) (jV L)) ↦{tokT L 2} tblB m d (cV L)) ∗ ((bV).view.loc (V d (cV L) (jV L)) ↦{tokT L 3} tblB m d (cV L)) ∗ ((bV).view.loc (V d (cV L) (jV L)) ↦{tokT L 4} tblB m d (cV L))
        ∗ ((bV).view.loc (V d (cV L) (jV L)) ↦{tokT L 5} tblB m d (cV L)) ∗ ((bV).view.loc (V d (cV L) (jV L)) ↦{tokT L 6} tblB m d (cV L)) ∗ ((bV).view.loc (V d (cV L) (jV L)) ↦{tokT L 7} tblB m d (cV L)))
      ⊢ ((bV).view.loc (V d (cV L) (jV L)) ↦{sq (jL L)} tblB m d (cV L) : sProp 𝕄) :=
  toks8_join (F := F) (ℓ := (bV).view.loc (V d (cV L) (jV L))) (sq (jL L)) (tblB m d (cV L))

end Cert.Proof.KB

end
-- ==== Proof.KB.Fill.lean ====
/-
  The two filling subcores: what each copies into its SparseCore's shared buffer, and what it hands over at the barrier.

  The mathematics. The padded table is [120, 256]. Subcore 0 copies its columns 0 … 127 over the shared buffer tbl_a
  [120, 128], subcore 1 its columns 128 … 255 over tbl_b. A slice at offset (0, c0) of unit strides reads at (a, b)
  the table at (a, c0 + b); a copy that lands whole over a buffer replaces its contents; so after its copy tbl_a holds
  the table's left half and tbl_b its right half, whatever they held before. At the barrier subcore 0's duty in tile
  j's round hands over share j (of 16) of tbl_a, and a buffer held whole is its sixteen shares; likewise subcore 1 and
  tbl_b.
-/
import proofs.«203043_g45337674776592_cont_8to1_c_201_37_alg».proof.Proof.KB.BodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The two halves of the padded table, as the filling subcores address them -/

/-- Columns 0 … 127 and columns 128 … 255 of the padded table [120, 256]. -/
abbrev tSlA : Memref sig .scVector .hbm S120x128 .f32 := (tV).slice (Rect.unit (s := S120x256) ![0, 0] S120x128.size inb_S120x256_S120x128_0_0) (fun _ => rfl)
abbrev tSlB : Memref sig .scVector .hbm S120x128 .f32 := (tV).slice (Rect.unit (s := S120x256) ![0, 128] S120x128.size inb_S120x256_S120x128_0_128) (fun _ => rfl)

/-- What the left slice reads off the padded table: at (a, b) the table at (a, b). -/
theorem read_tSlA (c : Fin τ.nSC) : (tSlA).view.read (Elt F) (tblW m d) = tblA m d c := by
  funext i
  obtain ⟨a, b, rfl⟩ : ∃ (a : Fin 120) (b : Fin 128), i = ix2 a b := ⟨i 0, i 1, eq_ix2 i⟩
  show tblW m d ((Rect.unit (s := S120x256) ![0, 0] S120x128.size inb_S120x256_S120x128_0_0).emb (ix2 a b)) = tblW m d (ix2 a ⟨b.val, _⟩)
  refine congrArg (tblW m d) ?_
  funext k; refine Fin.ext ?_; rw [Rect.emb_apply]
  match k with
  | 0 => show 0 + 1 * a.val = a.val; omega
  | 1 => show 0 + 1 * b.val = b.val; omega

/-- What the right slice reads: at (a, b) the table at (a, b + 128). -/
theorem read_tSlB (c : Fin τ.nSC) : (tSlB).view.read (Elt F) (tblW m d) = tblB m d c := by
  funext i
  obtain ⟨a, b, rfl⟩ : ∃ (a : Fin 120) (b : Fin 128), i = ix2 a b := ⟨i 0, i 1, eq_ix2 i⟩
  show tblW m d ((Rect.unit (s := S120x256) ![0, 128] S120x128.size inb_S120x256_S120x128_0_128).emb (ix2 a b)) = tblW m d (ix2 a ⟨b.val + 128, _⟩)
  refine congrArg (tblW m d) ?_
  funext k; refine Fin.ext ?_; rw [Rect.emb_apply]
  match k with
  | 0 => show 0 + 1 * a.val = a.val; omega
  | 1 => show 128 + 1 * b.val = b.val + 128; omega

/-! ## The fill as a value -/

/-- Subcore 0's copy lands the left slice whole over the shared buffer: the buffer then holds the table's left half,
    whatever it held before. -/
theorem fillA_val (f : Buf (Elt F) ((V d (cV L) (jV L)).loc cc0_scratch1)) (pay : S120x128.Idx → Elt F .f32)
    (hpay : pay = ReadAs.same.apply ((tSlA).view.read (Elt F) (tblW m d))) :
    View.write (Elt F) (aV).view f pay Finset.univ = tblA m d (cV L) := by
  subst hpay
  exact (View.write_whole_univ _ _ _).trans (read_tSlA m d (cV L))

/-- Subcore 1's copy: the right half. -/
theorem fillB_val (f : Buf (Elt F) ((V d (cV L) (jV L)).loc cc0_scratch2)) (pay : S120x128.Idx → Elt F .f32)
    (hpay : pay = ReadAs.same.apply ((tSlB).view.read (Elt F) (tblW m d))) :
    View.write (Elt F) (bV).view f pay Finset.univ = tblB m d (cV L) := by
  subst hpay
  exact (View.write_whole_univ _ _ _).trans (read_tSlB m d (cV L))

/-! ## What the filling subcores hand over at the barrier -/

/-- Subcore 0's duty in tile j's round hands over share j (of 16) of the left half: the sixteen duties together, the
    shared buffer whole. -/
theorem pays_fillA (hs : (L 1).val = 0) :
    ((aV).view.loc (V d (cV L) (jV L)) ↦{fullShare} tblA m d (cV L) : sProp 𝕄)
      ⊢ (bigSep Finset.univ fun j : Fin (grid0.bound 1) => (bRd (F := F) m).payload (bcell d (cV L) (j.castLE hsub0)) 0 (jV L).val : sProp 𝕄) := by
  have e : (bigSep Finset.univ fun j : Fin (grid0.bound 1) => (bRd (F := F) m).payload (bcell d (cV L) (j.castLE hsub0)) 0 (jV L).val)
      = bigSep Finset.univ fun j : Fin ((K (F := F)).nSub 0) => (shALoc d (cV L) ↦{sq (Fin.cast nSub_zero j)} tblA m d (cV L) : sProp 𝕄) :=
    bigSep_congr fun j _ => by
      show bPay m (bcell d (cV L) (j.castLE hsub0)) (jV L).val = _
      unfold bPay; dsimp only
      rw [if_pos (show (jV L).val = 0 from hs)]
      rfl
  rw [e, pts_aV, pts_sq (F := F)]

/-- Subcore 1's duty hands over share j of the right half. -/
theorem pays_fillB (hs : (L 1).val = 1) :
    ((bV).view.loc (V d (cV L) (jV L)) ↦{fullShare} tblB m d (cV L) : sProp 𝕄)
      ⊢ (bigSep Finset.univ fun j : Fin (grid0.bound 1) => (bRd (F := F) m).payload (bcell d (cV L) (j.castLE hsub0)) 0 (jV L).val : sProp 𝕄) := by
  have h1 : (jV L).val = 1 := hs
  have h0 : ¬ (jV L).val = 0 := fun h => absurd (h.symm.trans h1) (by decide)
  have e : (bigSep Finset.univ fun j : Fin (grid0.bound 1) => (bRd (F := F) m).payload (bcell d (cV L) (j.castLE hsub0)) 0 (jV L).val)
      = bigSep Finset.univ fun j : Fin ((K (F := F)).nSub 0) => (shBLoc d (cV L) ↦{sq (Fin.cast nSub_zero j)} tblB m d (cV L) : sProp 𝕄) :=
    bigSep_congr fun j _ => by
      show bPay m (bcell d (cV L) (j.castLE hsub0)) (jV L).val = _
      unfold bPay; dsimp only
      rw [if_neg h0, if_pos h1]
      rfl
  rw [e, pts_bV, pts_sq (F := F)]

/-! ## The same, from the shared buffer as the copy's wait leaves it -/

/-- From the shared buffer overwritten whole by what the left slice reads, to what subcore 0 hands over at the barrier. -/
theorem pays_fillA_run (hs : (L 1).val = 0) (f : Buf (Elt F) ((V d (cV L) (jV L)).loc cc0_scratch1)) (pay : S120x128.Idx → Elt F .f32)
    (hpay : pay = ReadAs.same.apply ((tSlA).view.read (Elt F) (tblW m d))) :
    ((aV).view.loc (V d (cV L) (jV L)) ↦{fullShare} View.write (Elt F) (aV).view f pay Finset.univ : sProp 𝕄)
      ⊢ (bigSep Finset.univ fun j : Fin (grid0.bound 1) => (bRd (F := F) m).payload (bcell d (cV L) (j.castLE hsub0)) 0 (jV L).val : sProp 𝕄) := by
  rw [fillA_val m d L f pay hpay]; exact pays_fillA m d L hs
/-- Subcore 1's, from the right slice. -/
theorem pays_fillB_run (hs : (L 1).val = 1) (f : Buf (Elt F) ((V d (cV L) (jV L)).loc cc0_scratch2)) (pay : S120x128.Idx → Elt F .f32)
    (hpay : pay = ReadAs.same.apply ((tSlB).view.read (Elt F) (tblW m d))) :
    ((bV).view.loc (V d (cV L) (jV L)) ↦{fullShare} View.write (Elt F) (bV).view f pay Finset.univ : sProp 𝕄)
      ⊢ (bigSep Finset.univ fun j : Fin (grid0.bound 1) => (bRd (F := F) m).payload (bcell d (cV L) (j.castLE hsub0)) 0 (jV L).val : sProp 𝕄) := by
  rw [fillB_val m d L f pay hpay]; exact pays_fillB m d L hs

end Cert.Proof.KB

end
-- ==== Proof.KB.Fold.lean ====
/-
  A gather in flight, as issued, is a gather in flight that delivers its row buffer and its two read tokens whole.

  When a gather is issued the row buffer, the list's read token and the table's read token are each cut in two: the
  elements the transfer touches go into the flight, to come back at the wait, and the rest stays beside it. The row
  buffer is written whole, the list row and the table are read through views smaller than, or as large as, their
  buffers; in each case the elements touched and the rest are all of the buffer, so what the flight delivers with the
  three rests is the row buffer whole — at what the gather leaves, a write through the whole of a buffer leaving its
  payload whatever was there — and the two tokens whole. A resource beside a flight may be folded into what it delivers.

  Likewise a write of a row buffer to a half-row of the result, as issued, holds the half-row at the written contents and
  the row buffer's elements, the rest of the row buffer beside it. The row buffer held the gathered rows of the half-row's
  list row, so the half-row written holds what the kernel leaves there, and the row buffer comes back whole.
-/
import proofs.«203043_g45337674776592_cont_8to1_c_201_37_alg».proof.Proof.KB.BodyDefs
import proofs.«203043_g45337674776592_cont_8to1_c_201_37_alg».proof.Proof.KB.BodyValue
import proofs.«203043_g45337674776592_cont_8to1_c_201_37_alg».proof.Proof.KB.FlightFrame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ)
variable [FloatOps F]
variable (d : Dev nD) (L : grid0.Coords)

/-! ## The gather's payload by the row's number -/

/-- The gather's payload at a list row given by its offsets is the gathered rows of that row by its number. -/
theorem gPayA_off (hin : HIN m d L) (j : ℕ) (hj : j < 128) (off : Fin 2 → ℕ) (hoff : ∀ a, off a + S1x100.size a ≤ S128x100.size a) (hoj : off = offR j) :
    gPayA m d L hin off hoff = gA m d L j hj hin := by subst hoj; rfl
theorem gPayB_off (hin : HIN m d L) (j : ℕ) (hj : j < 128) (off : Fin 2 → ℕ) (hoff : ∀ a, off a + S1x100.size a ≤ S128x100.size a) (hoj : off = offR j) :
    gPayB m d L hin off hoff = gB m d L j hj hin := by subst hoj; rfl

/-- The gather of list row `j` from the left half of the table into row buffer A0, as issued: beside what it delivers, the
    rests of the row buffer, of the list's read token and of the table's. Together they are the row buffer whole at what
    the gather leaves, and the two tokens whole. -/
theorem fold_gA0 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch3)) (pay : S100x128.Idx → Elt F .f32) (hpay : pay = gPayA m d L hin off hoff) (hc : 0 < 19) :
    iprop(Transfers.Flight countersEmb (V d (cV L) (jV L)) (SemLoc.dma (⟨0, hc⟩ : DmaSem sig)) (default : HIx 1) 409600
        iprop((((rA0).view.loc (V d (cV L) (jV L)) ↦[(rA0).view.set]{fullShare} (rA0).view.writes (Elt F) g [⟨Rect.whole cc0_scratch3.ty.shape, pay⟩]) ∗ ((sV).view.loc (V d (cV L) (jV L)) ↦[(lRowK off hoff).view.set]{tokL 0} lst m d L))
          ∗ ((aV).view.loc (V d (cV L) (jV L)) ↦[(aSl).view.set]{tokT L 0} tblA m d (cV L)))
      ∗ ((rA0).view.loc (V d (cV L) (jV L)) ↦[Finset.univ \ (rA0).view.set]{fullShare} (rA0).view.writes (Elt F) g [⟨Rect.whole cc0_scratch3.ty.shape, pay⟩])
      ∗ ((sV).view.loc (V d (cV L) (jV L)) ↦[Finset.univ \ (lRowK off hoff).view.set]{tokL 0} lst m d L)
      ∗ ((aV).view.loc (V d (cV L) (jV L)) ↦[Finset.univ \ (aSl).view.set]{tokT L 0} tblA m d (cV L)))
    ⊢ (Transfers.Flight countersEmb (V d (cV L) (jV L)) (SemLoc.dma (⟨0, hc⟩ : DmaSem sig)) (default : HIx 1) 409600 (gDelA0 m d L j hj hin) : sProp 𝕄) := by
  subst hoj; subst hpay
  refine Flight_frame ?_
  unfold gDelA0
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch3 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B0, as issued: beside what it delivers, the
    rests of the row buffer, of the list's read token and of the table's. Together they are the row buffer whole at what
    the gather leaves, and the two tokens whole. -/
theorem fold_gB0 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch7)) (pay : S100x128.Idx → Elt F .f32) (hpay : pay = gPayB m d L hin off hoff) (hc : 4 < 19) :
    iprop(Transfers.Flight countersEmb (V d (cV L) (jV L)) (SemLoc.dma (⟨4, hc⟩ : DmaSem sig)) (default : HIx 1) 409600
        iprop((((rB0).view.loc (V d (cV L) (jV L)) ↦[(rB0).view.set]{fullShare} (rB0).view.writes (Elt F) g [⟨Rect.whole cc0_scratch7.ty.shape, pay⟩]) ∗ ((sV).view.loc (V d (cV L) (jV L)) ↦[(lRowK off hoff).view.set]{tokL 4} lst m d L))
          ∗ ((bV).view.loc (V d (cV L) (jV L)) ↦[(bSl).view.set]{tokT L 4} tblB m d (cV L)))
      ∗ ((rB0).view.loc (V d (cV L) (jV L)) ↦[Finset.univ \ (rB0).view.set]{fullShare} (rB0).view.writes (Elt F) g [⟨Rect.whole cc0_scratch7.ty.shape, pay⟩])
      ∗ ((sV).view.loc (V d (cV L) (jV L)) ↦[Finset.univ \ (lRowK off hoff).view.set]{tokL 4} lst m d L)
      ∗ ((bV).view.loc (V d (cV L) (jV L)) ↦[Finset.univ \ (bSl).view.set]{tokT L 4} tblB m d (cV L)))
    ⊢ (Transfers.Flight countersEmb (V d (cV L) (jV L)) (SemLoc.dma (⟨4, hc⟩ : DmaSem sig)) (default : HIx 1) 409600 (gDelB0 m d L j hj hin) : sProp 𝕄) := by
  subst hoj; subst hpay
  refine Flight_frame ?_
  unfold gDelB0
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch7 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the left half of the table into row buffer A1, as issued: beside what it delivers, the
    rests of the row buffer, of the list's read token and of the table's. Together they are the row buffer whole at what
    the gather leaves, and the two tokens whole. -/
theorem fold_gA1 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch4)) (pay : S100x128.Idx → Elt F .f32) (hpay : pay = gPayA m d L hin off hoff) (hc : 1 < 19) :
    iprop(Transfers.Flight countersEmb (V d (cV L) (jV L)) (SemLoc.dma (⟨1, hc⟩ : DmaSem sig)) (default : HIx 1) 409600
        iprop((((rA1).view.loc (V d (cV L) (jV L)) ↦[(rA1).view.set]{fullShare} (rA1).view.writes (Elt F) g [⟨Rect.whole cc0_scratch4.ty.shape, pay⟩]) ∗ ((sV).view.loc (V d (cV L) (jV L)) ↦[(lRowK off hoff).view.set]{tokL 1} lst m d L))
          ∗ ((aV).view.loc (V d (cV L) (jV L)) ↦[(aSl).view.set]{tokT L 1} tblA m d (cV L)))
      ∗ ((rA1).view.loc (V d (cV L) (jV L)) ↦[Finset.univ \ (rA1).view.set]{fullShare} (rA1).view.writes (Elt F) g [⟨Rect.whole cc0_scratch4.ty.shape, pay⟩])
      ∗ ((sV).view.loc (V d (cV L) (jV L)) ↦[Finset.univ \ (lRowK off hoff).view.set]{tokL 1} lst m d L)
      ∗ ((aV).view.loc (V d (cV L) (jV L)) ↦[Finset.univ \ (aSl).view.set]{tokT L 1} tblA m d (cV L)))
    ⊢ (Transfers.Flight countersEmb (V d (cV L) (jV L)) (SemLoc.dma (⟨1, hc⟩ : DmaSem sig)) (default : HIx 1) 409600 (gDelA1 m d L j hj hin) : sProp 𝕄) := by
  subst hoj; subst hpay
  refine Flight_frame ?_
  unfold gDelA1
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch4 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B1, as issued: beside what it delivers, the
    rests of the row buffer, of the list's read token and of the table's. Together they are the row buffer whole at what
    the gather leaves, and the two tokens whole. -/
theorem fold_gB1 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch8)) (pay : S100x128.Idx → Elt F .f32) (hpay : pay = gPayB m d L hin off hoff) (hc : 5 < 19) :
    iprop(Transfers.Flight countersEmb (V d (cV L) (jV L)) (SemLoc.dma (⟨5, hc⟩ : DmaSem sig)) (default : HIx 1) 409600
        iprop((((rB1).view.loc (V d (cV L) (jV L)) ↦[(rB1).view.set]{fullShare} (rB1).view.writes (Elt F) g [⟨Rect.whole cc0_scratch8.ty.shape, pay⟩]) ∗ ((sV).view.loc (V d (cV L) (jV L)) ↦[(lRowK off hoff).view.set]{tokL 5} lst m d L))
          ∗ ((bV).view.loc (V d (cV L) (jV L)) ↦[(bSl).view.set]{tokT L 5} tblB m d (cV L)))
      ∗ ((rB1).view.loc (V d (cV L) (jV L)) ↦[Finset.univ \ (rB1).view.set]{fullShare} (rB1).view.writes (Elt F) g [⟨Rect.whole cc0_scratch8.ty.shape, pay⟩])
      ∗ ((sV).view.loc (V d (cV L) (jV L)) ↦[Finset.univ \ (lRowK off hoff).view.set]{tokL 5} lst m d L)
      ∗ ((bV).view.loc (V d (cV L) (jV L)) ↦[Finset.univ \ (bSl).view.set]{tokT L 5} tblB m d (cV L)))
    ⊢ (Transfers.Flight countersEmb (V d (cV L) (jV L)) (SemLoc.dma (⟨5, hc⟩ : DmaSem sig)) (default : HIx 1) 409600 (gDelB1 m d L j hj hin) : sProp 𝕄) := by
  subst hoj; subst hpay
  refine Flight_frame ?_
  unfold gDelB1
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch8 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the left half of the table into row buffer A2, as issued: beside what it delivers, the
    rests of the row buffer, of the list's read token and of the table's. Together they are the row buffer whole at what
    the gather leaves, and the two tokens whole. -/
theorem fold_gA2 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch5)) (pay : S100x128.Idx → Elt F .f32) (hpay : pay = gPayA m d L hin off hoff) (hc : 2 < 19) :
    iprop(Transfers.Flight countersEmb (V d (cV L) (jV L)) (SemLoc.dma (⟨2, hc⟩ : DmaSem sig)) (default : HIx 1) 409600
        iprop((((rA2).view.loc (V d (cV L) (jV L)) ↦[(rA2).view.set]{fullShare} (rA2).view.writes (Elt F) g [⟨Rect.whole cc0_scratch5.ty.shape, pay⟩]) ∗ ((sV).view.loc (V d (cV L) (jV L)) ↦[(lRowK off hoff).view.set]{tokL 2} lst m d L))
          ∗ ((aV).view.loc (V d (cV L) (jV L)) ↦[(aSl).view.set]{tokT L 2} tblA m d (cV L)))
      ∗ ((rA2).view.loc (V d (cV L) (jV L)) ↦[Finset.univ \ (rA2).view.set]{fullShare} (rA2).view.writes (Elt F) g [⟨Rect.whole cc0_scratch5.ty.shape, pay⟩])
      ∗ ((sV).view.loc (V d (cV L) (jV L)) ↦[Finset.univ \ (lRowK off hoff).view.set]{tokL 2} lst m d L)
      ∗ ((aV).view.loc (V d (cV L) (jV L)) ↦[Finset.univ \ (aSl).view.set]{tokT L 2} tblA m d (cV L)))
    ⊢ (Transfers.Flight countersEmb (V d (cV L) (jV L)) (SemLoc.dma (⟨2, hc⟩ : DmaSem sig)) (default : HIx 1) 409600 (gDelA2 m d L j hj hin) : sProp 𝕄) := by
  subst hoj; subst hpay
  refine Flight_frame ?_
  unfold gDelA2
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch5 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B2, as issued: beside what it delivers, the
    rests of the row buffer, of the list's read token and of the table's. Together they are the row buffer whole at what
    the gather leaves, and the two tokens whole. -/
theorem fold_gB2 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch9)) (pay : S100x128.Idx → Elt F .f32) (hpay : pay = gPayB m d L hin off hoff) (hc : 6 < 19) :
    iprop(Transfers.Flight countersEmb (V d (cV L) (jV L)) (SemLoc.dma (⟨6, hc⟩ : DmaSem sig)) (default : HIx 1) 409600
        iprop((((rB2).view.loc (V d (cV L) (jV L)) ↦[(rB2).view.set]{fullShare} (rB2).view.writes (Elt F) g [⟨Rect.whole cc0_scratch9.ty.shape, pay⟩]) ∗ ((sV).view.loc (V d (cV L) (jV L)) ↦[(lRowK off hoff).view.set]{tokL 6} lst m d L))
          ∗ ((bV).view.loc (V d (cV L) (jV L)) ↦[(bSl).view.set]{tokT L 6} tblB m d (cV L)))
      ∗ ((rB2).view.loc (V d (cV L) (jV L)) ↦[Finset.univ \ (rB2).view.set]{fullShare} (rB2).view.writes (Elt F) g [⟨Rect.whole cc0_scratch9.ty.shape, pay⟩])
      ∗ ((sV).view.loc (V d (cV L) (jV L)) ↦[Finset.univ \ (lRowK off hoff).view.set]{tokL 6} lst m d L)
      ∗ ((bV).view.loc (V d (cV L) (jV L)) ↦[Finset.univ \ (bSl).view.set]{tokT L 6} tblB m d (cV L)))
    ⊢ (Transfers.Flight countersEmb (V d (cV L) (jV L)) (SemLoc.dma (⟨6, hc⟩ : DmaSem sig)) (default : HIx 1) 409600 (gDelB2 m d L j hj hin) : sProp 𝕄) := by
  subst hoj; subst hpay
  refine Flight_frame ?_
  unfold gDelB2
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch9 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the left half of the table into row buffer A3, as issued: beside what it delivers, the
    rests of the row buffer, of the list's read token and of the table's. Together they are the row buffer whole at what
    the gather leaves, and the two tokens whole. -/
theorem fold_gA3 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch6)) (pay : S100x128.Idx → Elt F .f32) (hpay : pay = gPayA m d L hin off hoff) (hc : 3 < 19) :
    iprop(Transfers.Flight countersEmb (V d (cV L) (jV L)) (SemLoc.dma (⟨3, hc⟩ : DmaSem sig)) (default : HIx 1) 409600
        iprop((((rA3).view.loc (V d (cV L) (jV L)) ↦[(rA3).view.set]{fullShare} (rA3).view.writes (Elt F) g [⟨Rect.whole cc0_scratch6.ty.shape, pay⟩]) ∗ ((sV).view.loc (V d (cV L) (jV L)) ↦[(lRowK off hoff).view.set]{tokL 3} lst m d L))
          ∗ ((aV).view.loc (V d (cV L) (jV L)) ↦[(aSl).view.set]{tokT L 3} tblA m d (cV L)))
      ∗ ((rA3).view.loc (V d (cV L) (jV L)) ↦[Finset.univ \ (rA3).view.set]{fullShare} (rA3).view.writes (Elt F) g [⟨Rect.whole cc0_scratch6.ty.shape, pay⟩])
      ∗ ((sV).view.loc (V d (cV L) (jV L)) ↦[Finset.univ \ (lRowK off hoff).view.set]{tokL 3} lst m d L)
      ∗ ((aV).view.loc (V d (cV L) (jV L)) ↦[Finset.univ \ (aSl).view.set]{tokT L 3} tblA m d (cV L)))
    ⊢ (Transfers.Flight countersEmb (V d (cV L) (jV L)) (SemLoc.dma (⟨3, hc⟩ : DmaSem sig)) (default : HIx 1) 409600 (gDelA3 m d L j hj hin) : sProp 𝕄) := by
  subst hoj; subst hpay
  refine Flight_frame ?_
  unfold gDelA3
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch6 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The gather of list row `j` from the right half of the table into row buffer B3, as issued: beside what it delivers, the
    rests of the row buffer, of the list's read token and of the table's. Together they are the row buffer whole at what
    the gather leaves, and the two tokens whole. -/
theorem fold_gB3 (hin : HIN m d L) (j : ℕ) (hj : j < 128) (off : Fin 2 → ℕ) (hoff : ∀ a, off a + S1x100.size a ≤ S128x100.size a) (hoj : off = offR j)
    (g : Buf (Elt F) ((V d (cV L) (jV L)).loc cc0_scratch10)) (pay : S100x128.Idx → Elt F .f32) (hpay : pay = gPayB m d L hin off hoff) (hc : 7 < 19) :
    iprop(Transfers.Flight countersEmb (V d (cV L) (jV L)) (SemLoc.dma (⟨7, hc⟩ : DmaSem sig)) (default : HIx 1) 409600
        iprop((((rB3).view.loc (V d (cV L) (jV L)) ↦[(rB3).view.set]{fullShare} (rB3).view.writes (Elt F) g [⟨Rect.whole cc0_scratch10.ty.shape, pay⟩]) ∗ ((sV).view.loc (V d (cV L) (jV L)) ↦[(lRowK off hoff).view.set]{tokL 7} lst m d L))
          ∗ ((bV).view.loc (V d (cV L) (jV L)) ↦[(bSl).view.set]{tokT L 7} tblB m d (cV L)))
      ∗ ((rB3).view.loc (V d (cV L) (jV L)) ↦[Finset.univ \ (rB3).view.set]{fullShare} (rB3).view.writes (Elt F) g [⟨Rect.whole cc0_scratch10.ty.shape, pay⟩])
      ∗ ((sV).view.loc (V d (cV L) (jV L)) ↦[Finset.univ \ (lRowK off hoff).view.set]{tokL 7} lst m d L)
      ∗ ((bV).view.loc (V d (cV L) (jV L)) ↦[Finset.univ \ (bSl).view.set]{tokT L 7} tblB m d (cV L)))
    ⊢ (Transfers.Flight countersEmb (V d (cV L) (jV L)) (SemLoc.dma (⟨7, hc⟩ : DmaSem sig)) (default : HIx 1) 409600 (gDelB3 m d L j hj hin) : sProp 𝕄) := by
  subst hoj; subst hpay
  refine Flight_frame ?_
  unfold gDelB3
  iintro ⟨⟨⟨Hd, Hl⟩, Hs⟩, Hdr, Hlr, Hsr⟩
  isplitl [Hd Hdr]
  · ihave H := (pointsTo_split_subset (Finset.subset_univ _)).2 $$ [Hd Hdr]
    · isplitl [Hd] <;> iassumption
    ihave H' := (Entails.of_eq (pts_writes_whole (F := F) d cc0_scratch10 (cV L) (jV L) fullShare g _)) $$ H
    iexact H'
  isplitl [Hl Hlr]
  · iapply (pointsTo_split_subset (Finset.subset_univ _)).2
    isplitl [Hl] <;> iassumption
  · iapply (pointsTo_split_subset (Finset.subset_univ _)).2
    isplitl [Hs] <;> iassumption

/-- The write of row buffer A0 to the left half of row `4·t + 0` of the worker's block, as issued: beside what it delivers, the
    rest of the row buffer. The buffer held the gathered rows of list row `4·t + 0`, so the half-row written holds what the
    kernel leaves there; the buffer comes back whole at what it holds. -/
theorem fold_wA0 (hin : HIN m d L) (t : Fin k0_t1_loop.trips) (f₀ : Buf (Elt F) (oLoc d)) (g : Buf (Elt F) ((V d (cV L) (jV L)).loc cc0_scratch3))
    (pay wpay : S100x128.Idx → Elt F .f32) (hw : wpay = gA m d L (4 * t.val + 0) (row_lt t 0) hin) (hc : 8 < 19) :
    iprop(Transfers.Flight countersEmb (V d (cV L) (jV L)) (SemLoc.dma (⟨8, hc⟩ : DmaSem sig)) (default : HIx 1) 409600
        iprop(((oHalfA L t 0).view.loc (V d (cV L) (jV L)) ↦[(oHalfA L t 0).view.set]{fullShare} (oHalfA L t 0).view.writes (Elt F) f₀ [⟨Rect.whole S100x128, wpay⟩])
          ∗ ((rA0).view.loc (V d (cV L) (jV L)) ↦[(rA0).view.set]{fullShare} (rA0).view.writes (Elt F) g [⟨Rect.whole cc0_scratch3.ty.shape, pay⟩]))
      ∗ ((rA0).view.loc (V d (cV L) (jV L)) ↦[Finset.univ \ (rA0).view.set]{fullShare} (rA0).view.writes (Elt F) g [⟨Rect.whole cc0_scratch3.ty.shape, pay⟩]))
      ⊢ (Transfers.Flight countersEmb (V d (cV L) (jV L)) (SemLoc.dma (⟨8, hc⟩ : DmaSem sig)) (default : HIx 1) 409600 (wDelA0 m d L t) : sProp 𝕄) := by
  refine Flight_frame ?_
  unfold wDelA0
  iintro ⟨⟨Hh, Hr⟩, Hrr⟩
  isplitl [Hh]
  · ihave H := (Entails.of_eq (halfA_writes_done m d L hin t 0 f₀ wpay hw)) $$ Hh
    iexact H
  iexists (rA0).view.writes (Elt F) g [⟨Rect.whole cc0_scratch3.ty.shape, pay⟩]
  iapply (pointsTo_split_subset (Finset.subset_univ _)).2
  isplitl [Hr] <;> iassumption

/-- The write of row buffer B0 to the right half of row `4·t + 0` of the worker's block, as issued: beside what it delivers, the
    rest of the row buffer. The buffer held the gathered rows of list row `4·t + 0`, so the half-row written holds what the
    kernel leaves there; the buffer comes back whole at what it holds. -/
theorem fold_wB0 (hin : HIN m d L) (t : Fin k0_t1_loop.trips) (f₀ : Buf (Elt F) (oLoc d)) (g : Buf (Elt F) ((V d (cV L) (jV L)).loc cc0_scratch7))
    (pay wpay : S100x128.Idx → Elt F .f32) (hw : wpay = gB m d L (4 * t.val + 0) (row_lt t 0) hin) (hc : 12 < 19) :
    iprop(Transfers.Flight countersEmb (V d (cV L) (jV L)) (SemLoc.dma (⟨12, hc⟩ : DmaSem sig)) (default : HIx 1) 409600
        iprop(((oHalfB L t 0).view.loc (V d (cV L) (jV L)) ↦[(oHalfB L t 0).view.set]{fullShare} (oHalfB L t 0).view.writes (Elt F) f₀ [⟨Rect.whole S100x128, wpay⟩])
          ∗ ((rB0).view.loc (V d (cV L) (jV L)) ↦[(rB0).view.set]{fullShare} (rB0).view.writes (Elt F) g [⟨Rect.whole cc0_scratch7.ty.shape, pay⟩]))
      ∗ ((rB0).view.loc (V d (cV L) (jV L)) ↦[Finset.univ \ (rB0).view.set]{fullShare} (rB0).view.writes (Elt F) g [⟨Rect.whole cc0_scratch7.ty.shape, pay⟩]))
      ⊢ (Transfers.Flight countersEmb (V d (cV L) (jV L)) (SemLoc.dma (⟨12, hc⟩ : DmaSem sig)) (default : HIx 1) 409600 (wDelB0 m d L t) : sProp 𝕄) := by
  refine Flight_frame ?_
  unfold wDelB0
  iintro ⟨⟨Hh, Hr⟩, Hrr⟩
  isplitl [Hh]
  · ihave H := (Entails.of_eq (halfB_writes_done m d L hin t 0 f₀ wpay hw)) $$ Hh
    iexact H
  iexists (rB0).view.writes (Elt F) g [⟨Rect.whole cc0_scratch7.ty.shape, pay⟩]
  iapply (pointsTo_split_subset (Finset.subset_univ _)).2
  isplitl [Hr] <;> iassumption

/-- The write of row buffer A1 to the left half of row `4·t + 1` of the worker's block, as issued: beside what it delivers, the
    rest of the row buffer. The buffer held the gathered rows of list row `4·t + 1`, so the half-row written holds what the
    kernel leaves there; the buffer comes back whole at what it holds. -/
theorem fold_wA1 (hin : HIN m d L) (t : Fin k0_t1_loop.trips) (f₀ : Buf (Elt F) (oLoc d)) (g : Buf (Elt F) ((V d (cV L) (jV L)).loc cc0_scratch4))
    (pay wpay : S100x128.Idx → Elt F .f32) (hw : wpay = gA m d L (4 * t.val + 1) (row_lt t 1) hin) (hc : 9 < 19) :
    iprop(Transfers.Flight countersEmb (V d (cV L) (jV L)) (SemLoc.dma (⟨9, hc⟩ : DmaSem sig)) (default : HIx 1) 409600
        iprop(((oHalfA L t 1).view.loc (V d (cV L) (jV L)) ↦[(oHalfA L t 1).view.set]{fullShare} (oHalfA L t 1).view.writes (Elt F) f₀ [⟨Rect.whole S100x128, wpay⟩])
          ∗ ((rA1).view.loc (V d (cV L) (jV L)) ↦[(rA1).view.set]{fullShare} (rA1).view.writes (Elt F) g [⟨Rect.whole cc0_scratch4.ty.shape, pay⟩]))
      ∗ ((rA1).view.loc (V d (cV L) (jV L)) ↦[Finset.univ \ (rA1).view.set]{fullShare} (rA1).view.writes (Elt F) g [⟨Rect.whole cc0_scratch4.ty.shape, pay⟩]))
      ⊢ (Transfers.Flight countersEmb (V d (cV L) (jV L)) (SemLoc.dma (⟨9, hc⟩ : DmaSem sig)) (default : HIx 1) 409600 (wDelA1 m d L t) : sProp 𝕄) := by
  refine Flight_frame ?_
  unfold wDelA1
  iintro ⟨⟨Hh, Hr⟩, Hrr⟩
  isplitl [Hh]
  · ihave H := (Entails.of_eq (halfA_writes_done m d L hin t 1 f₀ wpay hw)) $$ Hh
    iexact H
  iexists (rA1).view.writes (Elt F) g [⟨Rect.whole cc0_scratch4.ty.shape, pay⟩]
  iapply (pointsTo_split_subset (Finset.subset_univ _)).2
  isplitl [Hr] <;> iassumption

/-- The write of row buffer B1 to the right half of row `4·t + 1` of the worker's block, as issued: beside what it delivers, the
    rest of the row buffer. The buffer held the gathered rows of list row `4·t + 1`, so the half-row written holds what the
    kernel leaves there; the buffer comes back whole at what it holds. -/
theorem fold_wB1 (hin : HIN m d L) (t : Fin k0_t1_loop.trips) (f₀ : Buf (Elt F) (oLoc d)) (g : Buf (Elt F) ((V d (cV L) (jV L)).loc cc0_scratch8))
    (pay wpay : S100x128.Idx → Elt F .f32) (hw : wpay = gB m d L (4 * t.val + 1) (row_lt t 1) hin) (hc : 13 < 19) :
    iprop(Transfers.Flight countersEmb (V d (cV L) (jV L)) (SemLoc.dma (⟨13, hc⟩ : DmaSem sig)) (default : HIx 1) 409600
        iprop(((oHalfB L t 1).view.loc (V d (cV L) (jV L)) ↦[(oHalfB L t 1).view.set]{fullShare} (oHalfB L t 1).view.writes (Elt F) f₀ [⟨Rect.whole S100x128, wpay⟩])
          ∗ ((rB1).view.loc (V d (cV L) (jV L)) ↦[(rB1).view.set]{fullShare} (rB1).view.writes (Elt F) g [⟨Rect.whole cc0_scratch8.ty.shape, pay⟩]))
      ∗ ((rB1).view.loc (V d (cV L) (jV L)) ↦[Finset.univ \ (rB1).view.set]{fullShare} (rB1).view.writes (Elt F) g [⟨Rect.whole cc0_scratch8.ty.shape, pay⟩]))
      ⊢ (Transfers.Flight countersEmb (V d (cV L) (jV L)) (SemLoc.dma (⟨13, hc⟩ : DmaSem sig)) (default : HIx 1) 409600 (wDelB1 m d L t) : sProp 𝕄) := by
  refine Flight_frame ?_
  unfold wDelB1
  iintro ⟨⟨Hh, Hr⟩, Hrr⟩
  isplitl [Hh]
  · ihave H := (Entails.of_eq (halfB_writes_done m d L hin t 1 f₀ wpay hw)) $$ Hh
    iexact H
  iexists (rB1).view.writes (Elt F) g [⟨Rect.whole cc0_scratch8.ty.shape, pay⟩]
  iapply (pointsTo_split_subset (Finset.subset_univ _)).2
  isplitl [Hr] <;> iassumption

/-- The write of row buffer A2 to the left half of row `4·t + 2` of the worker's block, as issued: beside what it delivers, the
    rest of the row buffer. The buffer held the gathered rows of list row `4·t + 2`, so the half-row written holds what the
    kernel leaves there; the buffer comes back whole at what it holds. -/
theorem fold_wA2 (hin : HIN m d L) (t : Fin k0_t1_loop.trips) (f₀ : Buf (Elt F) (oLoc d)) (g : Buf (Elt F) ((V d (cV L) (jV L)).loc cc0_scratch5))
    (pay wpay : S100x128.Idx → Elt F .f32) (hw : wpay = gA m d L (4 * t.val + 2) (row_lt t 2) hin) (hc : 10 < 19) :
    iprop(Transfers.Flight countersEmb (V d (cV L) (jV L)) (SemLoc.dma (⟨10, hc⟩ : DmaSem sig)) (default : HIx 1) 409600
        iprop(((oHalfA L t 2).view.loc (V d (cV L) (jV L)) ↦[(oHalfA L t 2).view.set]{fullShare} (oHalfA L t 2).view.writes (Elt F) f₀ [⟨Rect.whole S100x128, wpay⟩])
          ∗ ((rA2).view.loc (V d (cV L) (jV L)) ↦[(rA2).view.set]{fullShare} (rA2).view.writes (Elt F) g [⟨Rect.whole cc0_scratch5.ty.shape, pay⟩]))
      ∗ ((rA2).view.loc (V d (cV L) (jV L)) ↦[Finset.univ \ (rA2).view.set]{fullShare} (rA2).view.writes (Elt F) g [⟨Rect.whole cc0_scratch5.ty.shape, pay⟩]))
      ⊢ (Transfers.Flight countersEmb (V d (cV L) (jV L)) (SemLoc.dma (⟨10, hc⟩ : DmaSem sig)) (default : HIx 1) 409600 (wDelA2 m d L t) : sProp 𝕄) := by
  refine Flight_frame ?_
  unfold wDelA2
  iintro ⟨⟨Hh, Hr⟩, Hrr⟩
  isplitl [Hh]
  · ihave H := (Entails.of_eq (halfA_writes_done m d L hin t 2 f₀ wpay hw)) $$ Hh
    iexact H
  iexists (rA2).view.writes (Elt F) g [⟨Rect.whole cc0_scratch5.ty.shape, pay⟩]
  iapply (pointsTo_split_subset (Finset.subset_univ _)).2
  isplitl [Hr] <;> iassumption

/-- The write of row buffer B2 to the right half of row `4·t + 2` of the worker's block, as issued: beside what it delivers, the
    rest of the row buffer. The buffer held the gathered rows of list row `4·t + 2`, so the half-row written holds what the
    kernel leaves there; the buffer comes back whole at what it holds. -/
theorem fold_wB2 (hin : HIN m d L) (t : Fin k0_t1_loop.trips) (f₀ : Buf (Elt F) (oLoc d)) (g : Buf (Elt F) ((V d (cV L) (jV L)).loc cc0_scratch9))
    (pay wpay : S100x128.Idx → Elt F .f32) (hw : wpay = gB m d L (4 * t.val + 2) (row_lt t 2) hin) (hc : 14 < 19) :
    iprop(Transfers.Flight countersEmb (V d (cV L) (jV L)) (SemLoc.dma (⟨14, hc⟩ : DmaSem sig)) (default : HIx 1) 409600
        iprop(((oHalfB L t 2).view.loc (V d (cV L) (jV L)) ↦[(oHalfB L t 2).view.set]{fullShare} (oHalfB L t 2).view.writes (Elt F) f₀ [⟨Rect.whole S100x128, wpay⟩])
          ∗ ((rB2).view.loc (V d (cV L) (jV L)) ↦[(rB2).view.set]{fullShare} (rB2).view.writes (Elt F) g [⟨Rect.whole cc0_scratch9.ty.shape, pay⟩]))
      ∗ ((rB2).view.loc (V d (cV L) (jV L)) ↦[Finset.univ \ (rB2).view.set]{fullShare} (rB2).view.writes (Elt F) g [⟨Rect.whole cc0_scratch9.ty.shape, pay⟩]))
      ⊢ (Transfers.Flight countersEmb (V d (cV L) (jV L)) (SemLoc.dma (⟨14, hc⟩ : DmaSem sig)) (default : HIx 1) 409600 (wDelB2 m d L t) : sProp 𝕄) := by
  refine Flight_frame ?_
  unfold wDelB2
  iintro ⟨⟨Hh, Hr⟩, Hrr⟩
  isplitl [Hh]
  · ihave H := (Entails.of_eq (halfB_writes_done m d L hin t 2 f₀ wpay hw)) $$ Hh
    iexact H
  iexists (rB2).view.writes (Elt F) g [⟨Rect.whole cc0_scratch9.ty.shape, pay⟩]
  iapply (pointsTo_split_subset (Finset.subset_univ _)).2
  isplitl [Hr] <;> iassumption

/-- The write of row buffer A3 to the left half of row `4·t + 3` of the worker's block, as issued: beside what it delivers, the
    rest of the row buffer. The buffer held the gathered rows of list row `4·t + 3`, so the half-row written holds what the
    kernel leaves there; the buffer comes back whole at what it holds. -/
theorem fold_wA3 (hin : HIN m d L) (t : Fin k0_t1_loop.trips) (f₀ : Buf (Elt F) (oLoc d)) (g : Buf (Elt F) ((V d (cV L) (jV L)).loc cc0_scratch6))
    (pay wpay : S100x128.Idx → Elt F .f32) (hw : wpay = gA m d L (4 * t.val + 3) (row_lt t 3) hin) (hc : 11 < 19) :
    iprop(Transfers.Flight countersEmb (V d (cV L) (jV L)) (SemLoc.dma (⟨11, hc⟩ : DmaSem sig)) (default : HIx 1) 409600
        iprop(((oHalfA L t 3).view.loc (V d (cV L) (jV L)) ↦[(oHalfA L t 3).view.set]{fullShare} (oHalfA L t 3).view.writes (Elt F) f₀ [⟨Rect.whole S100x128, wpay⟩])
          ∗ ((rA3).view.loc (V d (cV L) (jV L)) ↦[(rA3).view.set]{fullShare} (rA3).view.writes (Elt F) g [⟨Rect.whole cc0_scratch6.ty.shape, pay⟩]))
      ∗ ((rA3).view.loc (V d (cV L) (jV L)) ↦[Finset.univ \ (rA3).view.set]{fullShare} (rA3).view.writes (Elt F) g [⟨Rect.whole cc0_scratch6.ty.shape, pay⟩]))
      ⊢ (Transfers.Flight countersEmb (V d (cV L) (jV L)) (SemLoc.dma (⟨11, hc⟩ : DmaSem sig)) (default : HIx 1) 409600 (wDelA3 m d L t) : sProp 𝕄) := by
  refine Flight_frame ?_
  unfold wDelA3
  iintro ⟨⟨Hh, Hr⟩, Hrr⟩
  isplitl [Hh]
  · ihave H := (Entails.of_eq (halfA_writes_done m d L hin t 3 f₀ wpay hw)) $$ Hh
    iexact H
  iexists (rA3).view.writes (Elt F) g [⟨Rect.whole cc0_scratch6.ty.shape, pay⟩]
  iapply (pointsTo_split_subset (Finset.subset_univ _)).2
  isplitl [Hr] <;> iassumption

/-- The write of row buffer B3 to the right half of row `4·t + 3` of the worker's block, as issued: beside what it delivers, the
    rest of the row buffer. The buffer held the gathered rows of list row `4·t + 3`, so the half-row written holds what the
    kernel leaves there; the buffer comes back whole at what it holds. -/
theorem fold_wB3 (hin : HIN m d L) (t : Fin k0_t1_loop.trips) (f₀ : Buf (Elt F) (oLoc d)) (g : Buf (Elt F) ((V d (cV L) (jV L)).loc cc0_scratch10))
    (pay wpay : S100x128.Idx → Elt F .f32) (hw : wpay = gB m d L (4 * t.val + 3) (row_lt t 3) hin) (hc : 15 < 19) :
    iprop(Transfers.Flight countersEmb (V d (cV L) (jV L)) (SemLoc.dma (⟨15, hc⟩ : DmaSem sig)) (default : HIx 1) 409600
        iprop(((oHalfB L t 3).view.loc (V d (cV L) (jV L)) ↦[(oHalfB L t 3).view.set]{fullShare} (oHalfB L t 3).view.writes (Elt F) f₀ [⟨Rect.whole S100x128, wpay⟩])
          ∗ ((rB3).view.loc (V d (cV L) (jV L)) ↦[(rB3).view.set]{fullShare} (rB3).view.writes (Elt F) g [⟨Rect.whole cc0_scratch10.ty.shape, pay⟩]))
      ∗ ((rB3).view.loc (V d (cV L) (jV L)) ↦[Finset.univ \ (rB3).view.set]{fullShare} (rB3).view.writes (Elt F) g [⟨Rect.whole cc0_scratch10.ty.shape, pay⟩]))
      ⊢ (Transfers.Flight countersEmb (V d (cV L) (jV L)) (SemLoc.dma (⟨15, hc⟩ : DmaSem sig)) (default : HIx 1) 409600 (wDelB3 m d L t) : sProp 𝕄) := by
  refine Flight_frame ?_
  unfold wDelB3
  iintro ⟨⟨Hh, Hr⟩, Hrr⟩
  isplitl [Hh]
  · ihave H := (Entails.of_eq (halfB_writes_done m d L hin t 3 f₀ wpay hw)) $$ Hh
    iexact H
  iexists (rB3).view.writes (Elt F) g [⟨Rect.whole cc0_scratch10.ty.shape, pay⟩]
  iapply (pointsTo_split_subset (Finset.subset_univ _)).2
  isplitl [Hr] <;> iassumption

end Cert.Proof.KB

end
-- ==== Proof.KB.RowsBase.lean ====
/-
  What every row of a trip uses: the trip's conditions decided, the bookkeeping of the recorded waits, and the fold of a write
  issued from a row buffer held whole.

  The mathematics. Row j = 4k + r of a worker's block (k the trip, r = 0 … 3) uses slot r. The conditions the kernel computes are
  facts about k alone: j + 2 < 128 holds for r = 0, 1 always and for r = 2, 3 exactly when k ≤ 30; j ≥ 2 holds for r = 2, 3 always
  and for r = 0, 1 exactly when k ≥ 1. A write issued from a row buffer that holds the gathered rows of its list row delivers its
  half-row at what the kernel leaves there, and the buffer back.
-/
import proofs.«203043_g45337674776592_cont_8to1_c_201_37_alg».proof.Proof.KB.BodyDefs
import proofs.«203043_g45337674776592_cont_8to1_c_201_37_alg».proof.Proof.KB.Fold

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The trip's conditions -/

omit [FloatOps F] in
theorem cond3_true : ∀ k : Fin k0_t1_loop.trips, k0_cond3 k = 1#1 := by decide +kernel
omit [FloatOps F] in
theorem cond5_true : ∀ k : Fin k0_t1_loop.trips, k0_cond5 k = 1#1 := by decide +kernel
omit [FloatOps F] in
theorem cond7_true : ∀ k : Fin k0_t1_loop.trips, k.val ≤ 30 → k0_cond7 k = 1#1 := by decide +kernel
omit [FloatOps F] in
theorem cond9_true : ∀ k : Fin k0_t1_loop.trips, k.val ≤ 30 → k0_cond9 k = 1#1 := by decide +kernel
omit [FloatOps F] in
theorem cond7_false : ∀ k : Fin k0_t1_loop.trips, k.val = 31 → ¬ k0_cond7 k = 1#1 := by decide +kernel
omit [FloatOps F] in
theorem cond9_false : ∀ k : Fin k0_t1_loop.trips, k.val = 31 → ¬ k0_cond9 k = 1#1 := by decide +kernel
omit [FloatOps F] in
theorem in0_true : ∀ k : Fin k0_t1_loop.trips, 1 ≤ k.val →
    Scalar.cmpi CmpIPredicate.ne (Scalar.extui (Scalar.cmpi CmpIPredicate.sge (Scalar.addi (Scalar.muli 4#32 (Scf.iv 0#32 1#32 k)) 0#32) 2#32)) 0#32 = 1#1 := by decide +kernel
omit [FloatOps F] in
theorem in1_true : ∀ k : Fin k0_t1_loop.trips, 1 ≤ k.val →
    Scalar.cmpi CmpIPredicate.ne (Scalar.extui (Scalar.cmpi CmpIPredicate.sge (Scalar.addi (Scalar.muli 4#32 (Scf.iv 0#32 1#32 k)) 1#32) 2#32)) 0#32 = 1#1 := by decide +kernel
omit [FloatOps F] in
theorem in0_false : ∀ k : Fin k0_t1_loop.trips, k.val = 0 →
    ¬ Scalar.cmpi CmpIPredicate.ne (Scalar.extui (Scalar.cmpi CmpIPredicate.sge (Scalar.addi (Scalar.muli 4#32 (Scf.iv 0#32 1#32 k)) 0#32) 2#32)) 0#32 = 1#1 := by decide +kernel
omit [FloatOps F] in
theorem in1_false : ∀ k : Fin k0_t1_loop.trips, k.val = 0 →
    ¬ Scalar.cmpi CmpIPredicate.ne (Scalar.extui (Scalar.cmpi CmpIPredicate.sge (Scalar.addi (Scalar.muli 4#32 (Scf.iv 0#32 1#32 k)) 1#32) 2#32)) 0#32 = 1#1 := by decide +kernel
omit [FloatOps F] in
theorem in2_true : ∀ k : Fin k0_t1_loop.trips,
    Scalar.cmpi CmpIPredicate.ne (Scalar.extui (Scalar.cmpi CmpIPredicate.sge (Scalar.addi (Scalar.muli 4#32 (Scf.iv 0#32 1#32 k)) 2#32) 2#32)) 0#32 = 1#1 := by decide +kernel
omit [FloatOps F] in
theorem in3_true : ∀ k : Fin k0_t1_loop.trips,
    Scalar.cmpi CmpIPredicate.ne (Scalar.extui (Scalar.cmpi CmpIPredicate.sge (Scalar.addi (Scalar.muli 4#32 (Scf.iv 0#32 1#32 k)) 3#32) 2#32)) 0#32 = 1#1 := by decide +kernel

omit [FloatOps F] in
theorem waits_ins {W W₁ : Waits sig (HIx 1)} {a : SemLoc sig × HIx 1} (h : a.2 = none) (h₁ : ∀ p ∈ W₁, p ∈ W ∨ p.2 = none) :
    ∀ p ∈ insert a W₁, p ∈ W ∨ p.2 = none := by
  intro p hp
  rcases Finset.mem_insert.mp hp with rfl | hp
  · exact Or.inr h
  · exact h₁ p hp

omit [FloatOps F] in
theorem waits_chain {W W₁ W₀ : Waits sig (HIx 1)} (h : ∀ p ∈ W₁, p ∈ W ∨ p.2 = none) (h0 : ∀ p ∈ W, p ∈ W₀ ∨ p.2 = none ∨ p.2 = some 0) :
    ∀ p ∈ W₁, p ∈ W₀ ∨ p.2 = none ∨ p.2 = some 0 :=
  fun p hp => (h p hp).elim (h0 p) fun e => Or.inr (Or.inl e)

/-! ## The writes from a buffer held whole -/

/-- The write of row buffer A0, held whole at `f`, to its half-row of trip `t`, as issued, with the rest of the buffer beside it: the clean flight. -/
theorem foldc_wA0 (hin : HIN m d L) (t : Fin k0_t1_loop.trips) (f₀ : Buf (Elt F) (oLoc d)) (f : Buf (Elt F) ((V d (cV L) (jV L)).loc cc0_scratch3))
    (wpay : S100x128.Idx → Elt F .f32) (hw : wpay = gA m d L (4 * t.val + 0) (row_lt t 0) hin) (hc : 8 < 19) :
    iprop(Transfers.Flight countersEmb (V d (cV L) (jV L)) (SemLoc.dma (⟨8, hc⟩ : DmaSem sig)) (default : HIx 1) 409600
        iprop(((oHalfA L t 0).view.loc (V d (cV L) (jV L)) ↦[(oHalfA L t 0).view.set]{fullShare} (oHalfA L t 0).view.writes (Elt F) f₀ [⟨Rect.whole S100x128, wpay⟩])
          ∗ ((rA0).view.loc (V d (cV L) (jV L)) ↦[(rA0).view.set]{fullShare} f))
      ∗ ((rA0).view.loc (V d (cV L) (jV L)) ↦[Finset.univ \ (rA0).view.set]{fullShare} f))
      ⊢ (Transfers.Flight countersEmb (V d (cV L) (jV L)) (SemLoc.dma (⟨8, hc⟩ : DmaSem sig)) (default : HIx 1) 409600 (wDelA0 m d L t) : sProp 𝕄) := by
  refine Flight_frame ?_
  unfold wDelA0
  iintro ⟨⟨Hh, Hr⟩, Hrr⟩
  isplitl [Hh]
  · ihave H := (Entails.of_eq (halfA_writes_done m d L hin t 0 f₀ wpay hw)) $$ Hh
    iexact H
  iexists f
  iapply (pointsTo_split_subset (Finset.subset_univ _)).2
  isplitl [Hr] <;> iassumption
/-- The write of row buffer B0, held whole at `f`, to its half-row of trip `t`, as issued, with the rest of the buffer beside it: the clean flight. -/
theorem foldc_wB0 (hin : HIN m d L) (t : Fin k0_t1_loop.trips) (f₀ : Buf (Elt F) (oLoc d)) (f : Buf (Elt F) ((V d (cV L) (jV L)).loc cc0_scratch7))
    (wpay : S100x128.Idx → Elt F .f32) (hw : wpay = gB m d L (4 * t.val + 0) (row_lt t 0) hin) (hc : 12 < 19) :
    iprop(Transfers.Flight countersEmb (V d (cV L) (jV L)) (SemLoc.dma (⟨12, hc⟩ : DmaSem sig)) (default : HIx 1) 409600
        iprop(((oHalfB L t 0).view.loc (V d (cV L) (jV L)) ↦[(oHalfB L t 0).view.set]{fullShare} (oHalfB L t 0).view.writes (Elt F) f₀ [⟨Rect.whole S100x128, wpay⟩])
          ∗ ((rB0).view.loc (V d (cV L) (jV L)) ↦[(rB0).view.set]{fullShare} f))
      ∗ ((rB0).view.loc (V d (cV L) (jV L)) ↦[Finset.univ \ (rB0).view.set]{fullShare} f))
      ⊢ (Transfers.Flight countersEmb (V d (cV L) (jV L)) (SemLoc.dma (⟨12, hc⟩ : DmaSem sig)) (default : HIx 1) 409600 (wDelB0 m d L t) : sProp 𝕄) := by
  refine Flight_frame ?_
  unfold wDelB0
  iintro ⟨⟨Hh, Hr⟩, Hrr⟩
  isplitl [Hh]
  · ihave H := (Entails.of_eq (halfB_writes_done m d L hin t 0 f₀ wpay hw)) $$ Hh
    iexact H
  iexists f
  iapply (pointsTo_split_subset (Finset.subset_univ _)).2
  isplitl [Hr] <;> iassumption

/-- The write of row buffer A1, held whole at `f`, to its half-row of trip `t`, as issued, with the rest of the buffer beside it: the clean flight. -/
theorem foldc_wA1 (hin : HIN m d L) (t : Fin k0_t1_loop.trips) (f₀ : Buf (Elt F) (oLoc d)) (f : Buf (Elt F) ((V d (cV L) (jV L)).loc cc0_scratch4))
    (wpay : S100x128.Idx → Elt F .f32) (hw : wpay = gA m d L (4 * t.val + 1) (row_lt t 1) hin) (hc : 9 < 19) :
    iprop(Transfers.Flight countersEmb (V d (cV L) (jV L)) (SemLoc.dma (⟨9, hc⟩ : DmaSem sig)) (default : HIx 1) 409600
        iprop(((oHalfA L t 1).view.loc (V d (cV L) (jV L)) ↦[(oHalfA L t 1).view.set]{fullShare} (oHalfA L t 1).view.writes (Elt F) f₀ [⟨Rect.whole S100x128, wpay⟩])
          ∗ ((rA1).view.loc (V d (cV L) (jV L)) ↦[(rA1).view.set]{fullShare} f))
      ∗ ((rA1).view.loc (V d (cV L) (jV L)) ↦[Finset.univ \ (rA1).view.set]{fullShare} f))
      ⊢ (Transfers.Flight countersEmb (V d (cV L) (jV L)) (SemLoc.dma (⟨9, hc⟩ : DmaSem sig)) (default : HIx 1) 409600 (wDelA1 m d L t) : sProp 𝕄) := by
  refine Flight_frame ?_
  unfold wDelA1
  iintro ⟨⟨Hh, Hr⟩, Hrr⟩
  isplitl [Hh]
  · ihave H := (Entails.of_eq (halfA_writes_done m d L hin t 1 f₀ wpay hw)) $$ Hh
    iexact H
  iexists f
  iapply (pointsTo_split_subset (Finset.subset_univ _)).2
  isplitl [Hr] <;> iassumption
/-- The write of row buffer B1, held whole at `f`, to its half-row of trip `t`, as issued, with the rest of the buffer beside it: the clean flight. -/
theorem foldc_wB1 (hin : HIN m d L) (t : Fin k0_t1_loop.trips) (f₀ : Buf (Elt F) (oLoc d)) (f : Buf (Elt F) ((V d (cV L) (jV L)).loc cc0_scratch8))
    (wpay : S100x128.Idx → Elt F .f32) (hw : wpay = gB m d L (4 * t.val + 1) (row_lt t 1) hin) (hc : 13 < 19) :
    iprop(Transfers.Flight countersEmb (V d (cV L) (jV L)) (SemLoc.dma (⟨13, hc⟩ : DmaSem sig)) (default : HIx 1) 409600
        iprop(((oHalfB L t 1).view.loc (V d (cV L) (jV L)) ↦[(oHalfB L t 1).view.set]{fullShare} (oHalfB L t 1).view.writes (Elt F) f₀ [⟨Rect.whole S100x128, wpay⟩])
          ∗ ((rB1).view.loc (V d (cV L) (jV L)) ↦[(rB1).view.set]{fullShare} f))
      ∗ ((rB1).view.loc (V d (cV L) (jV L)) ↦[Finset.univ \ (rB1).view.set]{fullShare} f))
      ⊢ (Transfers.Flight countersEmb (V d (cV L) (jV L)) (SemLoc.dma (⟨13, hc⟩ : DmaSem sig)) (default : HIx 1) 409600 (wDelB1 m d L t) : sProp 𝕄) := by
  refine Flight_frame ?_
  unfold wDelB1
  iintro ⟨⟨Hh, Hr⟩, Hrr⟩
  isplitl [Hh]
  · ihave H := (Entails.of_eq (halfB_writes_done m d L hin t 1 f₀ wpay hw)) $$ Hh
    iexact H
  iexists f
  iapply (pointsTo_split_subset (Finset.subset_univ _)).2
  isplitl [Hr] <;> iassumption

/-- The write of row buffer A2, held whole at `f`, to its half-row of trip `t`, as issued, with the rest of the buffer beside it: the clean flight. -/
theorem foldc_wA2 (hin : HIN m d L) (t : Fin k0_t1_loop.trips) (f₀ : Buf (Elt F) (oLoc d)) (f : Buf (Elt F) ((V d (cV L) (jV L)).loc cc0_scratch5))
    (wpay : S100x128.Idx → Elt F .f32) (hw : wpay = gA m d L (4 * t.val + 2) (row_lt t 2) hin) (hc : 10 < 19) :
    iprop(Transfers.Flight countersEmb (V d (cV L) (jV L)) (SemLoc.dma (⟨10, hc⟩ : DmaSem sig)) (default : HIx 1) 409600
        iprop(((oHalfA L t 2).view.loc (V d (cV L) (jV L)) ↦[(oHalfA L t 2).view.set]{fullShare} (oHalfA L t 2).view.writes (Elt F) f₀ [⟨Rect.whole S100x128, wpay⟩])
          ∗ ((rA2).view.loc (V d (cV L) (jV L)) ↦[(rA2).view.set]{fullShare} f))
      ∗ ((rA2).view.loc (V d (cV L) (jV L)) ↦[Finset.univ \ (rA2).view.set]{fullShare} f))
      ⊢ (Transfers.Flight countersEmb (V d (cV L) (jV L)) (SemLoc.dma (⟨10, hc⟩ : DmaSem sig)) (default : HIx 1) 409600 (wDelA2 m d L t) : sProp 𝕄) := by
  refine Flight_frame ?_
  unfold wDelA2
  iintro ⟨⟨Hh, Hr⟩, Hrr⟩
  isplitl [Hh]
  · ihave H := (Entails.of_eq (halfA_writes_done m d L hin t 2 f₀ wpay hw)) $$ Hh
    iexact H
  iexists f
  iapply (pointsTo_split_subset (Finset.subset_univ _)).2
  isplitl [Hr] <;> iassumption
/-- The write of row buffer B2, held whole at `f`, to its half-row of trip `t`, as issued, with the rest of the buffer beside it: the clean flight. -/
theorem foldc_wB2 (hin : HIN m d L) (t : Fin k0_t1_loop.trips) (f₀ : Buf (Elt F) (oLoc d)) (f : Buf (Elt F) ((V d (cV L) (jV L)).loc cc0_scratch9))
    (wpay : S100x128.Idx → Elt F .f32) (hw : wpay = gB m d L (4 * t.val + 2) (row_lt t 2) hin) (hc : 14 < 19) :
    iprop(Transfers.Flight countersEmb (V d (cV L) (jV L)) (SemLoc.dma (⟨14, hc⟩ : DmaSem sig)) (default : HIx 1) 409600
        iprop(((oHalfB L t 2).view.loc (V d (cV L) (jV L)) ↦[(oHalfB L t 2).view.set]{fullShare} (oHalfB L t 2).view.writes (Elt F) f₀ [⟨Rect.whole S100x128, wpay⟩])
          ∗ ((rB2).view.loc (V d (cV L) (jV L)) ↦[(rB2).view.set]{fullShare} f))
      ∗ ((rB2).view.loc (V d (cV L) (jV L)) ↦[Finset.univ \ (rB2).view.set]{fullShare} f))
      ⊢ (Transfers.Flight countersEmb (V d (cV L) (jV L)) (SemLoc.dma (⟨14, hc⟩ : DmaSem sig)) (default : HIx 1) 409600 (wDelB2 m d L t) : sProp 𝕄) := by
  refine Flight_frame ?_
  unfold wDelB2
  iintro ⟨⟨Hh, Hr⟩, Hrr⟩
  isplitl [Hh]
  · ihave H := (Entails.of_eq (halfB_writes_done m d L hin t 2 f₀ wpay hw)) $$ Hh
    iexact H
  iexists f
  iapply (pointsTo_split_subset (Finset.subset_univ _)).2
  isplitl [Hr] <;> iassumption

/-- The write of row buffer A3, held whole at `f`, to its half-row of trip `t`, as issued, with the rest of the buffer beside it: the clean flight. -/
theorem foldc_wA3 (hin : HIN m d L) (t : Fin k0_t1_loop.trips) (f₀ : Buf (Elt F) (oLoc d)) (f : Buf (Elt F) ((V d (cV L) (jV L)).loc cc0_scratch6))
    (wpay : S100x128.Idx → Elt F .f32) (hw : wpay = gA m d L (4 * t.val + 3) (row_lt t 3) hin) (hc : 11 < 19) :
    iprop(Transfers.Flight countersEmb (V d (cV L) (jV L)) (SemLoc.dma (⟨11, hc⟩ : DmaSem sig)) (default : HIx 1) 409600
        iprop(((oHalfA L t 3).view.loc (V d (cV L) (jV L)) ↦[(oHalfA L t 3).view.set]{fullShare} (oHalfA L t 3).view.writes (Elt F) f₀ [⟨Rect.whole S100x128, wpay⟩])
          ∗ ((rA3).view.loc (V d (cV L) (jV L)) ↦[(rA3).view.set]{fullShare} f))
      ∗ ((rA3).view.loc (V d (cV L) (jV L)) ↦[Finset.univ \ (rA3).view.set]{fullShare} f))
      ⊢ (Transfers.Flight countersEmb (V d (cV L) (jV L)) (SemLoc.dma (⟨11, hc⟩ : DmaSem sig)) (default : HIx 1) 409600 (wDelA3 m d L t) : sProp 𝕄) := by
  refine Flight_frame ?_
  unfold wDelA3
  iintro ⟨⟨Hh, Hr⟩, Hrr⟩
  isplitl [Hh]
  · ihave H := (Entails.of_eq (halfA_writes_done m d L hin t 3 f₀ wpay hw)) $$ Hh
    iexact H
  iexists f
  iapply (pointsTo_split_subset (Finset.subset_univ _)).2
  isplitl [Hr] <;> iassumption
/-- The write of row buffer B3, held whole at `f`, to its half-row of trip `t`, as issued, with the rest of the buffer beside it: the clean flight. -/
theorem foldc_wB3 (hin : HIN m d L) (t : Fin k0_t1_loop.trips) (f₀ : Buf (Elt F) (oLoc d)) (f : Buf (Elt F) ((V d (cV L) (jV L)).loc cc0_scratch10))
    (wpay : S100x128.Idx → Elt F .f32) (hw : wpay = gB m d L (4 * t.val + 3) (row_lt t 3) hin) (hc : 15 < 19) :
    iprop(Transfers.Flight countersEmb (V d (cV L) (jV L)) (SemLoc.dma (⟨15, hc⟩ : DmaSem sig)) (default : HIx 1) 409600
        iprop(((oHalfB L t 3).view.loc (V d (cV L) (jV L)) ↦[(oHalfB L t 3).view.set]{fullShare} (oHalfB L t 3).view.writes (Elt F) f₀ [⟨Rect.whole S100x128, wpay⟩])
          ∗ ((rB3).view.loc (V d (cV L) (jV L)) ↦[(rB3).view.set]{fullShare} f))
      ∗ ((rB3).view.loc (V d (cV L) (jV L)) ↦[Finset.univ \ (rB3).view.set]{fullShare} f))
      ⊢ (Transfers.Flight countersEmb (V d (cV L) (jV L)) (SemLoc.dma (⟨15, hc⟩ : DmaSem sig)) (default : HIx 1) 409600 (wDelB3 m d L t) : sProp 𝕄) := by
  refine Flight_frame ?_
  unfold wDelB3
  iintro ⟨⟨Hh, Hr⟩, Hrr⟩
  isplitl [Hh]
  · ihave H := (Entails.of_eq (halfB_writes_done m d L hin t 3 f₀ wpay hw)) $$ Hh
    iexact H
  iexists f
  iapply (pointsTo_split_subset (Finset.subset_univ _)).2
  isplitl [Hr] <;> iassumption

end Cert.Proof.KB

end
-- ==== Proof.KB.RowsMid.lean ====
/-
  The first three rows of a trip of the task's loop, for a trip 1 ≤ k ≤ 30.

  The mathematics. Row r of trip k (slot r; the other slot is r + 2 mod 4): the writes of the other slot's previous row land,
  giving that row's two half-rows at what the kernel leaves and the slot's row buffers back; the gathers of list row 4k + r + 2
  into that slot are issued; the gathers of list row 4k + r land, giving the row buffers at the gathered rows and the read tokens
  back; the writes of row 4k + r go out. Each lemma is stated for any continuation: from the row's resources, and from what the
  continuation needs of the row's results, the program's row followed by the continuation runs.
-/
import proofs.«203043_g45337674776592_cont_8to1_c_201_37_alg».proof.Proof.KB.BodyDefs
import proofs.«203043_g45337674776592_cont_8to1_c_201_37_alg».proof.Proof.KB.RowsBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)
set_option maxHeartbeats 8000000 in
/-- Row 0 of a trip (mid): the writes of the other slot's previous row land; the gathers of row 4k + 2 are issued; the gathers of row 4k + 0 land and its writes are issued. -/
theorem row0_mid (hin : HIN m d L) (O : CellTallies nD τ sig (HIx 1)) (hO : ∀ g, O g none = 0) (k : Fin k0_t1_loop.trips) (hk1 : 1 ≤ k.val) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨10, by decide⟩ : DmaSem sig)) (default : HIx 1) 409600 (wDelA2 m d L ⟨k.val - 1, by have := k.isLt; omega⟩)
      ∗ Transfers.Flight countersEmb (V d (cV L) (jV L)) (SemLoc.dma (⟨14, by decide⟩ : DmaSem sig)) (default : HIx 1) 409600 (wDelB2 m d L ⟨k.val - 1, by have := k.isLt; omega⟩)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 2).view.loc (V d (cV L) (jV L)) ↦[(oHalfA L ⟨k.val - 1, by have := k.isLt; omega⟩ 2).view.set]{fullShare} outF m d)
          ∗ ((oHalfB L ⟨k.val - 1, by have := k.isLt; omega⟩ 2).view.loc (V d (cV L) (jV L)) ↦[(oHalfB L ⟨k.val - 1, by have := k.isLt; omega⟩ 2).view.set]{fullShare} outF m d)
          ∗ semVal (((V d (cV L) (jV L)), (SemLoc.dma (⟨10, by decide⟩ : DmaSem sig))) : GSem nD τ sig) 0
          ∗ semVal (((V d (cV L) (jV L)), (SemLoc.dma (⟨14, by decide⟩ : DmaSem sig))) : GSem nD τ sig) 0
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ Φ (⟨(Scf.iv 0#32 1#32 k), 4#32⟩ : Σ' (_ : BitVec 32), BitVec 32)))
      ⊢ wp frame (wpE (defs₀ (F := F)) 𝒱₀ (V d (cV L) (jV L)) none) Set.univ (k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) Φ := by
  rw [k0_part1_eq_skeleton]; unfold k0_part1_skel
  iintro ⟨#Hlv, HO, FwA, FwB, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h3 := cond3_true k
  have hi0 := in0_true k hk1
  sl_exec
  iapply (Transfers.wp_waitLocalO countersEmb 𝒱₀ (V d (cV L) (jV L)) none (default : HIx 1) (N := 409600) rfl) $$ [FwA HO]
  · isplitl [FwA]; · iexact FwA
    isplitl [HO]; · iexact HO
    iapply (Transfers.MayWaits.elim (SemLoc.dma _)); iexact Hmw
  iintro ⟨HD, c8, HO⟩
  unfold wDelA2
  icases HD with ⟨xAh, %gA', bA⟩
  first | sl_exec | skip
  iapply (Transfers.wp_waitLocalO countersEmb 𝒱₀ (V d (cV L) (jV L)) none (default : HIx 1) (N := 409600) rfl) $$ [FwB HO]
  · isplitl [FwB]; · iexact FwB
    isplitl [HO]; · iexact HO
    iapply (Transfers.MayWaits.elim (SemLoc.dma _)); iexact Hmw
  iintro ⟨HD, c12, HO⟩
  unfold wDelB2
  icases HD with ⟨xBh, %gB', bB⟩
  sl_exec
  have hoj : k0_off2 k = offR (4 * k.val + 0 + 2) := by rw [k0_off2_eq]; try rfl
  ihave FA := (fold_gA2 (F := F) m d L hin (4 * k.val + 0 + 2) (by have h : k.val < 32 := Nat.lt_of_lt_of_eq k.isLt geom_trips_eq; omega) (k0_off2 k) (k0_off2_inb k h3) hoj _ _ rfl (by decide)) $$ [cGA bA tLA tTA]
  · isplitl [cGA]; · iexact cGA
    isplitl [bA]; · iexact bA
    isplitl [tLA]; · iexact tLA
    iexact tTA
  ihave FB := (fold_gB2 (F := F) m d L hin (4 * k.val + 0 + 2) (by have h : k.val < 32 := Nat.lt_of_lt_of_eq k.isLt geom_trips_eq; omega) (k0_off2 k) (k0_off2_inb k h3) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA0
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB0
  icases HD with ⟨nr, nl, nt⟩
  sl_exec
  ihave FWA := (foldc_wA0 (F := F) m d L hin k (m (oLoc d)) _ _ (read_whole_same (F := F) cc0_scratch3 _) (by decide)) $$ [cWA mr]
  · isplitl [cWA]; · iexact cWA
    iexact mr
  ihave FWB := (foldc_wB0 (F := F) m d L hin k (m (oLoc d)) _ _ (read_whole_same (F := F) cc0_scratch7 _) (by decide)) $$ [cWB nr]
  · isplitl [cWB]; · iexact cWB
    iexact nr
  first | rw [show row0_mid.sl.arg32 k = (Scf.iv 0#32 1#32 k) from rfl] | skip
  rw [wp_ret]; imodintro
  iapply HΦ
  isplitl [HO]
  · iexists _
    isplitr
    rotate_left
    · iexact HO
    ipureintro
    exact (waits_ins rfl (waits_ins rfl (waits_ins rfl (waits_ins rfl (fun p hp => Or.inl hp)))))
  isplitl [xAh]; · iexact xAh
  isplitl [xBh]; · iexact xBh
  isplitl [c8]; · iexact c8
  isplitl [c12]; · iexact c12
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row0_mid_bind (hin : HIN m d L) (O : CellTallies nD τ sig (HIx 1)) (hO : ∀ g, O g none = 0) (k : Fin k0_t1_loop.trips) (hk1 : 1 ≤ k.val) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨10, by decide⟩ : DmaSem sig)) (default : HIx 1) 409600 (wDelA2 m d L ⟨k.val - 1, by have := k.isLt; omega⟩)
      ∗ Transfers.Flight countersEmb (V d (cV L) (jV L)) (SemLoc.dma (⟨14, by decide⟩ : DmaSem sig)) (default : HIx 1) 409600 (wDelB2 m d L ⟨k.val - 1, by have := k.isLt; omega⟩)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 2).view.loc (V d (cV L) (jV L)) ↦[(oHalfA L ⟨k.val - 1, by have := k.isLt; omega⟩ 2).view.set]{fullShare} outF m d)
          ∗ ((oHalfB L ⟨k.val - 1, by have := k.isLt; omega⟩ 2).view.loc (V d (cV L) (jV L)) ↦[(oHalfB L ⟨k.val - 1, by have := k.isLt; omega⟩ 2).view.set]{fullShare} outF m d)
          ∗ semVal (((V d (cV L) (jV L)), (SemLoc.dma (⟨10, by decide⟩ : DmaSem sig))) : GSem nD τ sig) 0
          ∗ semVal (((V d (cV L) (jV L)), (SemLoc.dma (⟨14, by decide⟩ : DmaSem sig))) : GSem nD τ sig) 0
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ wp frame (wpE (defs₀ (F := F)) 𝒱₀ (V d (cV L) (jV L)) none) Set.univ (f (⟨(Scf.iv 0#32 1#32 k), 4#32⟩ : Σ' (_ : BitVec 32), BitVec 32)) Q))
      ⊢ wp frame (wpE (defs₀ (F := F)) 𝒱₀ (V d (cV L) (jV L)) none) Set.univ ((k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) >>= f) Q := by
  rw [wp_bind]
  exact row0_mid (F := F) m d L hin O hO k hk1 v2 W (Φ := fun r => wp frame (wpE (defs₀ (F := F)) 𝒱₀ (V d (cV L) (jV L)) none) Set.univ (f r) Q)

set_option maxHeartbeats 8000000 in
/-- Row 1 of a trip (mid): the writes of the other slot's previous row land; the gathers of row 4k + 3 are issued; the gathers of row 4k + 1 land and its writes are issued. -/
theorem row1_mid (hin : HIN m d L) (O : CellTallies nD τ sig (HIx 1)) (hO : ∀ g, O g none = 0) (k : Fin k0_t1_loop.trips) (hk1 : 1 ≤ k.val) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨11, by decide⟩ : DmaSem sig)) (default : HIx 1) 409600 (wDelA3 m d L ⟨k.val - 1, by have := k.isLt; omega⟩)
      ∗ Transfers.Flight countersEmb (V d (cV L) (jV L)) (SemLoc.dma (⟨15, by decide⟩ : DmaSem sig)) (default : HIx 1) 409600 (wDelB3 m d L ⟨k.val - 1, by have := k.isLt; omega⟩)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 3).view.loc (V d (cV L) (jV L)) ↦[(oHalfA L ⟨k.val - 1, by have := k.isLt; omega⟩ 3).view.set]{fullShare} outF m d)
          ∗ ((oHalfB L ⟨k.val - 1, by have := k.isLt; omega⟩ 3).view.loc (V d (cV L) (jV L)) ↦[(oHalfB L ⟨k.val - 1, by have := k.isLt; omega⟩ 3).view.set]{fullShare} outF m d)
          ∗ semVal (((V d (cV L) (jV L)), (SemLoc.dma (⟨11, by decide⟩ : DmaSem sig))) : GSem nD τ sig) 0
          ∗ semVal (((V d (cV L) (jV L)), (SemLoc.dma (⟨15, by decide⟩ : DmaSem sig))) : GSem nD τ sig) 0
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ Φ (⟨Scalar.muli 4#32 (Scf.iv 0#32 1#32 k), 2#32⟩ : Σ' (_ : BitVec 32), BitVec 32)))
      ⊢ wp frame (wpE (defs₀ (F := F)) 𝒱₀ (V d (cV L) (jV L)) none) Set.univ (k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) Φ := by
  rw [k0_part2_eq_skeleton]; unfold k0_part2_skel
  iintro ⟨#Hlv, HO, FwA, FwB, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h5 := cond5_true k
  have hi1 := in1_true k hk1
  sl_exec
  iapply (Transfers.wp_waitLocalO countersEmb 𝒱₀ (V d (cV L) (jV L)) none (default : HIx 1) (N := 409600) rfl) $$ [FwA HO]
  · isplitl [FwA]; · iexact FwA
    isplitl [HO]; · iexact HO
    iapply (Transfers.MayWaits.elim (SemLoc.dma _)); iexact Hmw
  iintro ⟨HD, c8, HO⟩
  unfold wDelA3
  icases HD with ⟨xAh, %gA', bA⟩
  first | sl_exec | skip
  iapply (Transfers.wp_waitLocalO countersEmb 𝒱₀ (V d (cV L) (jV L)) none (default : HIx 1) (N := 409600) rfl) $$ [FwB HO]
  · isplitl [FwB]; · iexact FwB
    isplitl [HO]; · iexact HO
    iapply (Transfers.MayWaits.elim (SemLoc.dma _)); iexact Hmw
  iintro ⟨HD, c12, HO⟩
  unfold wDelB3
  icases HD with ⟨xBh, %gB', bB⟩
  sl_exec
  have hoj : k0_off5 k = offR (4 * k.val + 1 + 2) := by rw [k0_off5_eq]; try rfl
  ihave FA := (fold_gA3 (F := F) m d L hin (4 * k.val + 1 + 2) (by have h : k.val < 32 := Nat.lt_of_lt_of_eq k.isLt geom_trips_eq; omega) (k0_off5 k) (k0_off5_inb k h5) hoj _ _ rfl (by decide)) $$ [cGA bA tLA tTA]
  · isplitl [cGA]; · iexact cGA
    isplitl [bA]; · iexact bA
    isplitl [tLA]; · iexact tLA
    iexact tTA
  ihave FB := (fold_gB3 (F := F) m d L hin (4 * k.val + 1 + 2) (by have h : k.val < 32 := Nat.lt_of_lt_of_eq k.isLt geom_trips_eq; omega) (k0_off5 k) (k0_off5_inb k h5) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA1
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB1
  icases HD with ⟨nr, nl, nt⟩
  sl_exec
  ihave FWA := (foldc_wA1 (F := F) m d L hin k (m (oLoc d)) _ _ (read_whole_same (F := F) cc0_scratch4 _) (by decide)) $$ [cWA mr]
  · isplitl [cWA]; · iexact cWA
    iexact mr
  ihave FWB := (foldc_wB1 (F := F) m d L hin k (m (oLoc d)) _ _ (read_whole_same (F := F) cc0_scratch8 _) (by decide)) $$ [cWB nr]
  · isplitl [cWB]; · iexact cWB
    iexact nr
  first | rw [show row1_mid.sl.v122 k = Scalar.muli 4#32 (Scf.iv 0#32 1#32 k) from rfl] | skip
  rw [wp_ret]; imodintro
  iapply HΦ
  isplitl [HO]
  · iexists _
    isplitr
    rotate_left
    · iexact HO
    ipureintro
    exact (waits_ins rfl (waits_ins rfl (waits_ins rfl (waits_ins rfl (fun p hp => Or.inl hp)))))
  isplitl [xAh]; · iexact xAh
  isplitl [xBh]; · iexact xBh
  isplitl [c8]; · iexact c8
  isplitl [c12]; · iexact c12
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row1_mid_bind (hin : HIN m d L) (O : CellTallies nD τ sig (HIx 1)) (hO : ∀ g, O g none = 0) (k : Fin k0_t1_loop.trips) (hk1 : 1 ≤ k.val) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨11, by decide⟩ : DmaSem sig)) (default : HIx 1) 409600 (wDelA3 m d L ⟨k.val - 1, by have := k.isLt; omega⟩)
      ∗ Transfers.Flight countersEmb (V d (cV L) (jV L)) (SemLoc.dma (⟨15, by decide⟩ : DmaSem sig)) (default : HIx 1) 409600 (wDelB3 m d L ⟨k.val - 1, by have := k.isLt; omega⟩)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ ((oHalfA L ⟨k.val - 1, by have := k.isLt; omega⟩ 3).view.loc (V d (cV L) (jV L)) ↦[(oHalfA L ⟨k.val - 1, by have := k.isLt; omega⟩ 3).view.set]{fullShare} outF m d)
          ∗ ((oHalfB L ⟨k.val - 1, by have := k.isLt; omega⟩ 3).view.loc (V d (cV L) (jV L)) ↦[(oHalfB L ⟨k.val - 1, by have := k.isLt; omega⟩ 3).view.set]{fullShare} outF m d)
          ∗ semVal (((V d (cV L) (jV L)), (SemLoc.dma (⟨11, by decide⟩ : DmaSem sig))) : GSem nD τ sig) 0
          ∗ semVal (((V d (cV L) (jV L)), (SemLoc.dma (⟨15, by decide⟩ : DmaSem sig))) : GSem nD τ sig) 0
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ wp frame (wpE (defs₀ (F := F)) 𝒱₀ (V d (cV L) (jV L)) none) Set.univ (f (⟨Scalar.muli 4#32 (Scf.iv 0#32 1#32 k), 2#32⟩ : Σ' (_ : BitVec 32), BitVec 32)) Q))
      ⊢ wp frame (wpE (defs₀ (F := F)) 𝒱₀ (V d (cV L) (jV L)) none) Set.univ ((k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) >>= f) Q := by
  rw [wp_bind]
  exact row1_mid (F := F) m d L hin O hO k hk1 v2 W (Φ := fun r => wp frame (wpE (defs₀ (F := F)) 𝒱₀ (V d (cV L) (jV L)) none) Set.univ (f r) Q)

set_option maxHeartbeats 8000000 in
/-- Row 2 of a trip (mid): the writes of the other slot's previous row land; the gathers of row 4k + 4 are issued; the gathers of row 4k + 2 land and its writes are issued. -/
theorem row2_mid (hin : HIN m d L) (O : CellTallies nD τ sig (HIx 1)) (hO : ∀ g, O g none = 0) (k : Fin k0_t1_loop.trips) (hk30 : k.val ≤ 30) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨8, by decide⟩ : DmaSem sig)) (default : HIx 1) 409600 (wDelA0 m d L k)
      ∗ Transfers.Flight countersEmb (V d (cV L) (jV L)) (SemLoc.dma (⟨12, by decide⟩ : DmaSem sig)) (default : HIx 1) 409600 (wDelB0 m d L k)
      ∗ semVal (((V d (cV L) (jV L)), (SemLoc.dma (⟨0, by decide⟩ : DmaSem sig))) : GSem nD τ sig) 0
      ∗ semVal (((V d (cV L) (jV L)), (SemLoc.dma (⟨4, by decide⟩ : DmaSem sig))) : GSem nD τ sig) 0
      ∗ ((sV).view.loc (V d (cV L) (jV L)) ↦{tokL 0} lst m d L)
      ∗ ((sV).view.loc (V d (cV L) (jV L)) ↦{tokL 4} lst m d L)
      ∗ ((aV).view.loc (V d (cV L) (jV L)) ↦{tokT L 0} tblA m d (cV L))
      ∗ ((bV).view.loc (V d (cV L) (jV L)) ↦{tokT L 4} tblB m d (cV L))
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ ((oHalfA L k 0).view.loc (V d (cV L) (jV L)) ↦[(oHalfA L k 0).view.set]{fullShare} outF m d)
          ∗ ((oHalfB L k 0).view.loc (V d (cV L) (jV L)) ↦[(oHalfB L k 0).view.set]{fullShare} outF m d)
          ∗ semVal (((V d (cV L) (jV L)), (SemLoc.dma (⟨8, by decide⟩ : DmaSem sig))) : GSem nD τ sig) 0
          ∗ semVal (((V d (cV L) (jV L)), (SemLoc.dma (⟨12, by decide⟩ : DmaSem sig))) : GSem nD τ sig) 0
          ∗ Transfers.Flight countersEmb (V d (cV L) (jV L)) (SemLoc.dma (⟨0, by decide⟩ : DmaSem sig)) (default : HIx 1) 409600 (gDelA0 m d L (4 * k.val + 2 + 2) (by have h : k.val < 32 := Nat.lt_of_lt_of_eq k.isLt geom_trips_eq; omega) hin)
          ∗ Transfers.Flight countersEmb (V d (cV L) (jV L)) (SemLoc.dma (⟨4, by decide⟩ : DmaSem sig)) (default : HIx 1) 409600 (gDelB0 m d L (4 * k.val + 2 + 2) (by have h : k.val < 32 := Nat.lt_of_lt_of_eq k.isLt geom_trips_eq; omega) hin)
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ Φ (⟨Scalar.addi (Scalar.muli 4#32 (Scf.iv 0#32 1#32 k)) 3#32, 2#32⟩ : Σ' (_ : BitVec 32), BitVec 32)))
      ⊢ wp frame (wpE (defs₀ (F := F)) 𝒱₀ (V d (cV L) (jV L)) none) Set.univ (k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) Φ := by
  rw [k0_part3_eq_skeleton]; unfold k0_part3_skel
  iintro ⟨#Hlv, HO, FwA, FwB, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h7 := cond7_true k hk30
  have hi2 := in2_true k
  sl_exec
  iapply (Transfers.wp_waitLocalO countersEmb 𝒱₀ (V d (cV L) (jV L)) none (default : HIx 1) (N := 409600) rfl) $$ [FwA HO]
  · isplitl [FwA]; · iexact FwA
    isplitl [HO]; · iexact HO
    iapply (Transfers.MayWaits.elim (SemLoc.dma _)); iexact Hmw
  iintro ⟨HD, c8, HO⟩
  unfold wDelA0
  icases HD with ⟨xAh, %gA', bA⟩
  first | sl_exec | skip
  iapply (Transfers.wp_waitLocalO countersEmb 𝒱₀ (V d (cV L) (jV L)) none (default : HIx 1) (N := 409600) rfl) $$ [FwB HO]
  · isplitl [FwB]; · iexact FwB
    isplitl [HO]; · iexact HO
    iapply (Transfers.MayWaits.elim (SemLoc.dma _)); iexact Hmw
  iintro ⟨HD, c12, HO⟩
  unfold wDelB0
  icases HD with ⟨xBh, %gB', bB⟩
  sl_exec
  have hoj : k0_off6 k = offR (4 * k.val + 2 + 2) := by rw [k0_off6_eq]; try rfl
  ihave FA := (fold_gA0 (F := F) m d L hin (4 * k.val + 2 + 2) (by have h : k.val < 32 := Nat.lt_of_lt_of_eq k.isLt geom_trips_eq; omega) (k0_off6 k) (k0_off6_inb k h7) hoj _ _ rfl (by decide)) $$ [cGA bA tLA tTA]
  · isplitl [cGA]; · iexact cGA
    isplitl [bA]; · iexact bA
    isplitl [tLA]; · iexact tLA
    iexact tTA
  ihave FB := (fold_gB0 (F := F) m d L hin (4 * k.val + 2 + 2) (by have h : k.val < 32 := Nat.lt_of_lt_of_eq k.isLt geom_trips_eq; omega) (k0_off6 k) (k0_off6_inb k h7) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA2
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB2
  icases HD with ⟨nr, nl, nt⟩
  sl_exec
  ihave FWA := (foldc_wA2 (F := F) m d L hin k (m (oLoc d)) _ _ (read_whole_same (F := F) cc0_scratch5 _) (by decide)) $$ [cWA mr]
  · isplitl [cWA]; · iexact cWA
    iexact mr
  ihave FWB := (foldc_wB2 (F := F) m d L hin k (m (oLoc d)) _ _ (read_whole_same (F := F) cc0_scratch9 _) (by decide)) $$ [cWB nr]
  · isplitl [cWB]; · iexact cWB
    iexact nr
  first | rw [show row2_mid.sl.v149 k = Scalar.addi (Scalar.muli 4#32 (Scf.iv 0#32 1#32 k)) 3#32 from rfl] | skip
  rw [wp_ret]; imodintro
  iapply HΦ
  isplitl [HO]
  · iexists _
    isplitr
    rotate_left
    · iexact HO
    ipureintro
    exact (waits_ins rfl (waits_ins rfl (waits_ins rfl (waits_ins rfl (fun p hp => Or.inl hp)))))
  isplitl [xAh]; · iexact xAh
  isplitl [xBh]; · iexact xBh
  isplitl [c8]; · iexact c8
  isplitl [c12]; · iexact c12
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row2_mid_bind (hin : HIN m d L) (O : CellTallies nD τ sig (HIx 1)) (hO : ∀ g, O g none = 0) (k : Fin k0_t1_loop.trips) (hk30 : k.val ≤ 30) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨8, by decide⟩ : DmaSem sig)) (default : HIx 1) 409600 (wDelA0 m d L k)
      ∗ Transfers.Flight countersEmb (V d (cV L) (jV L)) (SemLoc.dma (⟨12, by decide⟩ : DmaSem sig)) (default : HIx 1) 409600 (wDelB0 m d L k)
      ∗ semVal (((V d (cV L) (jV L)), (SemLoc.dma (⟨0, by decide⟩ : DmaSem sig))) : GSem nD τ sig) 0
      ∗ semVal (((V d (cV L) (jV L)), (SemLoc.dma (⟨4, by decide⟩ : DmaSem sig))) : GSem nD τ sig) 0
      ∗ ((sV).view.loc (V d (cV L) (jV L)) ↦{tokL 0} lst m d L)
      ∗ ((sV).view.loc (V d (cV L) (jV L)) ↦{tokL 4} lst m d L)
      ∗ ((aV).view.loc (V d (cV L) (jV L)) ↦{tokT L 0} tblA m d (cV L))
      ∗ ((bV).view.loc (V d (cV L) (jV L)) ↦{tokT L 4} tblB m d (cV L))
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ ((oHalfA L k 0).view.loc (V d (cV L) (jV L)) ↦[(oHalfA L k 0).view.set]{fullShare} outF m d)
          ∗ ((oHalfB L k 0).view.loc (V d (cV L) (jV L)) ↦[(oHalfB L k 0).view.set]{fullShare} outF m d)
          ∗ semVal (((V d (cV L) (jV L)), (SemLoc.dma (⟨8, by decide⟩ : DmaSem sig))) : GSem nD τ sig) 0
          ∗ semVal (((V d (cV L) (jV L)), (SemLoc.dma (⟨12, by decide⟩ : DmaSem sig))) : GSem nD τ sig) 0
          ∗ Transfers.Flight countersEmb (V d (cV L) (jV L)) (SemLoc.dma (⟨0, by decide⟩ : DmaSem sig)) (default : HIx 1) 409600 (gDelA0 m d L (4 * k.val + 2 + 2) (by have h : k.val < 32 := Nat.lt_of_lt_of_eq k.isLt geom_trips_eq; omega) hin)
          ∗ Transfers.Flight countersEmb (V d (cV L) (jV L)) (SemLoc.dma (⟨4, by decide⟩ : DmaSem sig)) (default : HIx 1) 409600 (gDelB0 m d L (4 * k.val + 2 + 2) (by have h : k.val < 32 := Nat.lt_of_lt_of_eq k.isLt geom_trips_eq; omega) hin)
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ wp frame (wpE (defs₀ (F := F)) 𝒱₀ (V d (cV L) (jV L)) none) Set.univ (f (⟨Scalar.addi (Scalar.muli 4#32 (Scf.iv 0#32 1#32 k)) 3#32, 2#32⟩ : Σ' (_ : BitVec 32), BitVec 32)) Q))
      ⊢ wp frame (wpE (defs₀ (F := F)) 𝒱₀ (V d (cV L) (jV L)) none) Set.univ ((k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) >>= f) Q := by
  rw [wp_bind]
  exact row2_mid (F := F) m d L hin O hO k hk30 v2 W (Φ := fun r => wp frame (wpE (defs₀ (F := F)) 𝒱₀ (V d (cV L) (jV L)) none) Set.univ (f r) Q)

end Cert.Proof.KB

end
-- ==== Proof.KB.RowsLast.lean ====
/-
  Row 2 of the loop's last trip (k = 31).

  Rows 126 and 127 have no row two places on to fetch for, so the trip's third row waits for no earlier write and
  issues no gather. It waits for the two gathers of list row 4k + 2 on slot 2: each hands back its row buffer whole at
  the gathered rows, and the list's and the table's read tokens. It then issues the writes of the two row buffers to
  the two halves of row 4k + 2 of the worker's block. A row buffer read whole gives back what it holds, the gathered
  rows of list row 4k + 2, so each half-row written holds what the kernel leaves there: the two writes in flight
  deliver the two half-rows at the result's final contents, and the row buffers back.
-/
import proofs.«203043_g45337674776592_cont_8to1_c_201_37_alg».proof.Proof.KB.BodyDefs
import proofs.«203043_g45337674776592_cont_8to1_c_201_37_alg».proof.Proof.KB.RowsBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The rows -/

set_option maxHeartbeats 8000000 in
/-- Row 2 of a trip (last): the gathers of row 4k + 2 land and its writes are issued. -/
theorem row2_last (hin : HIN m d L) (O : CellTallies nD τ sig (HIx 1)) (hO : ∀ g, O g none = 0) (k : Fin k0_t1_loop.trips) (hk31 : k.val = 31) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ Φ (⟨Scalar.addi (Scalar.muli 4#32 (Scf.iv 0#32 1#32 k)) 3#32, 2#32⟩ : Σ' (_ : BitVec 32), BitVec 32)))
      ⊢ wp frame (wpE (defs₀ (F := F)) 𝒱₀ (V d (cV L) (jV L)) none) Set.univ (k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) Φ := by
  rw [k0_part3_eq_skeleton]; unfold k0_part3_skel
  iintro ⟨#Hlv, HO, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h7 := cond7_false k hk31
  sl_exec
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA2
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB2
  icases HD with ⟨nr, nl, nt⟩
  sl_exec
  ihave FWA := (foldc_wA2 (F := F) m d L hin k (m (oLoc d)) _ (row2_last.sl.dma0 m d L hin k hk31) (read_whole_same (F := F) cc0_scratch5 _) (by decide)) $$ [cWA mr]
  · iframe
  ihave FWB := (foldc_wB2 (F := F) m d L hin k (m (oLoc d)) _ (row2_last.sl.dma0_1 m d L hin k hk31) (read_whole_same (F := F) cc0_scratch9 _) (by decide)) $$ [cWB nr]
  · iframe
  rw [wp_ret]; imodintro
  rw [show row2_last.sl.v149 k = Scalar.addi (Scalar.muli 4#32 (Scf.iv 0#32 1#32 k)) 3#32 from rfl]
  iapply HΦ
  isplitl [HO]
  · iexists (insert ((SemLoc.dma (SemArray.sem cc0_scratch17) : SemLoc sig), (default : HIx 1)) (insert ((SemLoc.dma (SemArray.sem cc0_scratch13) : SemLoc sig), (default : HIx 1)) W))
    isplitr
    · ipureintro; exact waits_ins rfl (waits_ins rfl (fun p hp => Or.inl hp))
    · iexact HO
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row2_last_bind (hin : HIN m d L) (O : CellTallies nD τ sig (HIx 1)) (hO : ∀ g, O g none = 0) (k : Fin k0_t1_loop.trips) (hk31 : k.val = 31) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ Transfers.Flight countersEmb (V d (cV L) (jV L)) (SemLoc.dma (⟨2, by decide⟩ : DmaSem sig)) (default : HIx 1) 409600 (gDelA2 m d L (4 * k.val + 2) (by have h : k.val < 32 := Nat.lt_of_lt_of_eq k.isLt geom_trips_eq; omega) hin)
      ∗ Transfers.Flight countersEmb (V d (cV L) (jV L)) (SemLoc.dma (⟨6, by decide⟩ : DmaSem sig)) (default : HIx 1) 409600 (gDelB2 m d L (4 * k.val + 2) (by have h : k.val < 32 := Nat.lt_of_lt_of_eq k.isLt geom_trips_eq; omega) hin)
      ∗ semVal (((V d (cV L) (jV L)), (SemLoc.dma (⟨10, by decide⟩ : DmaSem sig))) : GSem nD τ sig) 0
      ∗ semVal (((V d (cV L) (jV L)), (SemLoc.dma (⟨14, by decide⟩ : DmaSem sig))) : GSem nD τ sig) 0
      ∗ ((oHalfA L k 2).view.loc (V d (cV L) (jV L)) ↦[(oHalfA L k 2).view.set]{fullShare} m (oLoc d))
      ∗ ((oHalfB L k 2).view.loc (V d (cV L) (jV L)) ↦[(oHalfB L k 2).view.set]{fullShare} m (oLoc d))
      ∗ (((∃ W'', ⌜∀ p ∈ W'', p ∈ W ∨ p.2 = none⌝ ∗ owes (V d (cV L) (jV L)) O W'')
          ∗ semVal (((V d (cV L) (jV L)), (SemLoc.dma (⟨2, by decide⟩ : DmaSem sig))) : GSem nD τ sig) 0
          ∗ semVal (((V d (cV L) (jV L)), (SemLoc.dma (⟨6, by decide⟩ : DmaSem sig))) : GSem nD τ sig) 0
          ∗ ((sV).view.loc (V d (cV L) (jV L)) ↦{tokL 2} lst m d L)
          ∗ ((sV).view.loc (V d (cV L) (jV L)) ↦{tokL 6} lst m d L)
          ∗ ((aV).view.loc (V d (cV L) (jV L)) ↦{tokT L 2} tblA m d (cV L))
          ∗ ((bV).view.loc (V d (cV L) (jV L)) ↦{tokT L 6} tblB m d (cV L))
          ∗ Transfers.Flight countersEmb (V d (cV L) (jV L)) (SemLoc.dma (⟨10, by decide⟩ : DmaSem sig)) (default : HIx 1) 409600 (wDelA2 m d L k)
          ∗ Transfers.Flight countersEmb (V d (cV L) (jV L)) (SemLoc.dma (⟨14, by decide⟩ : DmaSem sig)) (default : HIx 1) 409600 (wDelB2 m d L k))
        -∗ wp frame (wpE (defs₀ (F := F)) 𝒱₀ (V d (cV L) (jV L)) none) Set.univ (f (⟨Scalar.addi (Scalar.muli 4#32 (Scf.iv 0#32 1#32 k)) 3#32, 2#32⟩ : Σ' (_ : BitVec 32), BitVec 32)) Q))
      ⊢ wp frame (wpE (defs₀ (F := F)) 𝒱₀ (V d (cV L) (jV L)) none) Set.univ ((k0_part3 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) (Scalar.muli 4#32 (Scf.iv 0#32 1#32 k)) 2#32) >>= f) Q := by
  rw [wp_bind]
  exact row2_last (F := F) m d L hin O hO k hk31 v2 W (Φ := fun r => wp frame (wpE (defs₀ (F := F)) 𝒱₀ (V d (cV L) (jV L)) none) Set.univ (f r) Q)

end Cert.Proof.KB

end
-- ==== Proof.KB.TripLast.lean ====
/-
  The last trip of the task's loop (k = 31): rows 124 … 127 of the worker's block.

  Rows 124 and 125 go as in every trip after the first: each waits for the write that still holds its slot's partner
  two rows back (rows 122, 123, of trip 30), issues the gathers of the row two places on (rows 126, 127), waits for its
  own gathers and issues its own writes. Rows 126 and 127 have no row two places on: each only waits for its gathers and
  issues its writes, and no write is waited for. So after the trip all eight write cells carry a write in flight, of rows
  124 … 127, every gather cell is back at zero and every read token is whole; the half-rows of trips below 31 are all
  done, trip 30's rows 2 and 3 having landed during rows 0 and 1.
-/
import proofs.«203043_g45337674776592_cont_8to1_c_201_37_alg».proof.Proof.KB.BodyDefs
import proofs.«203043_g45337674776592_cont_8to1_c_201_37_alg».proof.Proof.KB.RowsMid
import proofs.«203043_g45337674776592_cont_8to1_c_201_37_alg».proof.Proof.KB.RowsLast

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The definitions, opened -/

theorem last_P01_def (t : Fin k0_t1_loop.trips) (f : Buf (Elt F) (oLoc d)) : (P01 d L t f : sProp 𝕄)
    = iprop(((oHalfA L t 0).view.loc (V d (cV L) (jV L)) ↦[(oHalfA L t 0).view.set]{fullShare} f) ∗ ((oHalfB L t 0).view.loc (V d (cV L) (jV L)) ↦[(oHalfB L t 0).view.set]{fullShare} f)
      ∗ ((oHalfA L t 1).view.loc (V d (cV L) (jV L)) ↦[(oHalfA L t 1).view.set]{fullShare} f) ∗ ((oHalfB L t 1).view.loc (V d (cV L) (jV L)) ↦[(oHalfB L t 1).view.set]{fullShare} f)) := rfl
theorem last_P23_def (t : Fin k0_t1_loop.trips) (f : Buf (Elt F) (oLoc d)) : (P23 d L t f : sProp 𝕄)
    = iprop(((oHalfA L t 2).view.loc (V d (cV L) (jV L)) ↦[(oHalfA L t 2).view.set]{fullShare} f) ∗ ((oHalfB L t 2).view.loc (V d (cV L) (jV L)) ↦[(oHalfB L t 2).view.set]{fullShare} f)
      ∗ ((oHalfA L t 3).view.loc (V d (cV L) (jV L)) ↦[(oHalfA L t 3).view.set]{fullShare} f) ∗ ((oHalfB L t 3).view.loc (V d (cV L) (jV L)) ↦[(oHalfB L t 3).view.set]{fullShare} f)) := rfl

omit [FloatOps F] in
/-- The trips from `k` on are trip `k` and the trips after it. -/
theorem last_todo_take (k : Fin k0_t1_loop.trips) (Φ : Fin k0_t1_loop.trips → sProp 𝕄) :
    (bigSep (Finset.univ.filter fun t : Fin k0_t1_loop.trips => k.val ≤ t.val) Φ : sProp 𝕄)
      = iprop(Φ k ∗ bigSep (Finset.univ.filter fun t : Fin k0_t1_loop.trips => k.val + 1 ≤ t.val) Φ) := by
  rw [SparseCore.bigSep_erase' (s := Finset.univ.filter fun t : Fin k0_t1_loop.trips => k.val ≤ t.val) (i := k) (Finset.mem_filter.mpr ⟨Finset.mem_univ _, le_rfl⟩)]
  congr 2
  ext t
  simp only [Finset.mem_erase, Finset.mem_filter, Finset.mem_univ, true_and, ne_eq, Fin.ext_iff]
  omega

omit [FloatOps F] in
/-- The trips below 31 are trip 30 and the trips whose successor is below 31. -/
theorem last_done23_put (h30 : 30 < k0_t1_loop.trips) (Φ : Fin k0_t1_loop.trips → sProp 𝕄) :
    (bigSep (Finset.univ.filter fun t : Fin k0_t1_loop.trips => t.val < 31) Φ : sProp 𝕄)
      = iprop(Φ ⟨30, h30⟩ ∗ bigSep (Finset.univ.filter fun t : Fin k0_t1_loop.trips => t.val + 1 < 31) Φ) := by
  rw [SparseCore.bigSep_erase' (s := Finset.univ.filter fun t : Fin k0_t1_loop.trips => t.val < 31) (i := (⟨30, h30⟩ : Fin k0_t1_loop.trips))
    (Finset.mem_filter.mpr ⟨Finset.mem_univ _, by show 30 < 31; decide⟩)]
  congr 2
  try (ext t; simp only [Finset.mem_erase, Finset.mem_filter, Finset.mem_univ, true_and, ne_eq, Fin.ext_iff]; omega)

set_option maxHeartbeats 16000000 in
/-- The last trip of the task's loop. -/
theorem trip_last (hin : HIN m d L) (O : CellTallies nD τ sig (HIx 1)) (W₀ : Waits sig (HIx 1)) (hO : ∀ g, O g none = 0) (v2 : BitVec 32)
    (k : Fin k0_t1_loop.trips) (h31 : k.val = 31) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have h31' : 31 < k0_t1_loop.trips := Nat.lt_of_lt_of_eq (show 31 < 32 by decide) geom_trips_eq.symm
  have h30' : 30 < k0_t1_loop.trips := Nat.lt_of_lt_of_eq (show 30 < 32 by decide) geom_trips_eq.symm
  obtain rfl : k = ⟨31, h31'⟩ := Fin.ext h31
  have hk1 : 1 ≤ (⟨31, h31'⟩ : Fin k0_t1_loop.trips).val := show 1 ≤ 31 by decide
  have hk31 : (⟨31, h31'⟩ : Fin k0_t1_loop.trips).val = 31 := rfl
  have hk : (⟨31, h31'⟩ : Fin k0_t1_loop.trips).val < 32 := show 31 < 32 by decide
  unfold k0_t1_body
  unfold Inv
  rw [dif_pos hk]
  unfold invMid slots23
  rw [dif_neg (show ¬ (⟨31, h31'⟩ : Fin k0_t1_loop.trips).val = 0 from show ¬ (31 : ℕ) = 0 by decide)]
  iintro ⟨%hle, #Hlv, ⟨%W', %hW', HO⟩, Hg0, Hg4, Hg1, Hg5, ⟨Hw10, Hw14, Hw11, Hw15⟩, Hs2, Hs3, Hs6, Hs7, Hs8, Hs9, Hs12, Hs13, HtL2, HtL3, HtL6, HtL7, HtA2, HtA3, HtB6, HtB7, Hd01, Hd23, Htodo⟩
  ihave Htodo' := (Entails.of_eq (last_todo_take (F := F) (⟨31, h31'⟩ : Fin k0_t1_loop.trips) _)) $$ Htodo
  icases Htodo' with ⟨⟨Hp01, Hp23⟩, -⟩
  ihave Hp01' := (Entails.of_eq (last_P01_def (F := F) d L (⟨31, h31'⟩ : Fin k0_t1_loop.trips) _)) $$ Hp01
  icases Hp01' with ⟨HoA0, HoB0, HoA1, HoB1⟩
  ihave Hp23' := (Entails.of_eq (last_P23_def (F := F) d L (⟨31, h31'⟩ : Fin k0_t1_loop.trips) _)) $$ Hp23
  icases Hp23' with ⟨HoA2, HoB2, HoA3, HoB3⟩
  -- rows 0, 1, 2
  iapply (row0_mid_bind (F := F) m d L hin O hO (⟨31, h31'⟩ : Fin k0_t1_loop.trips) hk1 v2 W' _ _)
  isplitr; · iexact Hlv
  isplitl [HO]; · iexact HO
  isplitl [Hw10]; · iexact Hw10
  isplitl [Hw14]; · iexact Hw14
  isplitl [Hs2]; · iexact Hs2
  isplitl [Hs6]; · iexact Hs6
  isplitl [HtL2]; · iexact HtL2
  isplitl [HtL6]; · iexact HtL6
  isplitl [HtA2]; · iexact HtA2
  isplitl [HtB6]; · iexact HtB6
  isplitl [Hg0]; · iexact Hg0
  isplitl [Hg4]; · iexact Hg4
  isplitl [Hs8]; · iexact Hs8
  isplitl [Hs12]; · iexact Hs12
  isplitl [HoA0]; · iexact HoA0
  isplitl [HoB0]; · iexact HoB0
  iintro ⟨⟨%W1, %hW1, HO⟩, xA2, xB2, Hs10, Hs14, Fg2, Fg6, Hs0, Hs4, HtL0, HtL4, HtA0, HtB4, Fw8, Fw12⟩
  iapply (row1_mid_bind (F := F) m d L hin O hO (⟨31, h31'⟩ : Fin k0_t1_loop.trips) hk1 v2 W1 _ _)
  isplitr; · iexact Hlv
  isplitl [HO]; · iexact HO
  isplitl [Hw11]; · iexact Hw11
  isplitl [Hw15]; · iexact Hw15
  isplitl [Hs3]; · iexact Hs3
  isplitl [Hs7]; · iexact Hs7
  isplitl [HtL3]; · iexact HtL3
  isplitl [HtL7]; · iexact HtL7
  isplitl [HtA3]; · iexact HtA3
  isplitl [HtB7]; · iexact HtB7
  isplitl [Hg1]; · iexact Hg1
  isplitl [Hg5]; · iexact Hg5
  isplitl [Hs9]; · iexact Hs9
  isplitl [Hs13]; · iexact Hs13
  isplitl [HoA1]; · iexact HoA1
  isplitl [HoB1]; · iexact HoB1
  iintro ⟨⟨%W2, %hW2, HO⟩, xA3, xB3, Hs11, Hs15, Fg3, Fg7, Hs1, Hs5, HtL1, HtL5, HtA1, HtB5, Fw9, Fw13⟩
  iapply (row2_last_bind (F := F) m d L hin O hO (⟨31, h31'⟩ : Fin k0_t1_loop.trips) hk31 v2 W2 _ _)
  isplitr; · iexact Hlv
  isplitl [HO]; · iexact HO
  isplitl [Fg2]; · iexact Fg2
  isplitl [Fg6]; · iexact Fg6
  isplitl [Hs10]; · iexact Hs10
  isplitl [Hs14]; · iexact Hs14
  isplitl [HoA2]; · iexact HoA2
  isplitl [HoB2]; · iexact HoB2
  iintro ⟨⟨%W3, %hW3, HO⟩, Hs2, Hs6, HtL2, HtL6, HtA2, HtB6, Fw10, Fw14⟩
  -- row 3
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h9 := cond9_false (⟨31, h31'⟩ : Fin k0_t1_loop.trips) hk31
  sl_exec
  iapply (Transfers.wp_waitLocalO countersEmb 𝒱₀ (V d (cV L) (jV L)) none (default : HIx 1) (N := 409600) rfl) $$ [Fg3 HO]
  · isplitl [Fg3]; · iexact Fg3
    isplitl [HO]; · iexact HO
    iapply (Transfers.MayWaits.elim (SemLoc.dma _)); iexact Hmw
  iintro ⟨HD, Hs3, HO⟩
  unfold gDelA3
  icases HD with ⟨mr3, HtL3, HtA3⟩
  first | sl_exec | skip
  iapply (Transfers.wp_waitLocalO countersEmb 𝒱₀ (V d (cV L) (jV L)) none (default : HIx 1) (N := 409600) rfl) $$ [Fg7 HO]
  · isplitl [Fg7]; · iexact Fg7
    isplitl [HO]; · iexact HO
    iapply (Transfers.MayWaits.elim (SemLoc.dma _)); iexact Hmw
  iintro ⟨HD, Hs7, HO⟩
  unfold gDelB3
  icases HD with ⟨nr3, HtL7, HtB7⟩
  sl_exec
  ihave Fw11 := (foldc_wA3 (F := F) m d L hin (⟨31, h31'⟩ : Fin k0_t1_loop.trips) (m (oLoc d)) _ _ (read_whole_same (F := F) cc0_scratch6 _) (by decide)) $$ [Hs11 mr3]
  · isplitl [Hs11]; · iexact Hs11
    iexact mr3
  ihave Fw15 := (foldc_wB3 (F := F) m d L hin (⟨31, h31'⟩ : Fin k0_t1_loop.trips) (m (oLoc d)) _ _ (read_whole_same (F := F) cc0_scratch10 _) (by decide)) $$ [Hs15 nr3]
  · isplitl [Hs15]; · iexact Hs15
    iexact nr3
  rw [wp_ret]; imodintro
  rw [dif_neg (show ¬ (⟨31, h31'⟩ : Fin k0_t1_loop.trips).val + 1 < 32 from show ¬ (31 + 1 < 32) by decide)]
  unfold invEnd
  isplitr; · ipureintro; exact (show 31 + 1 ≤ 32 by decide)
  isplitr; · iexact Hlv
  isplitl [HO]
  · iexists _
    isplitr
    rotate_left
    · iexact HO
    ipureintro
    exact waits_chain (waits_ins rfl (waits_ins rfl (fun p hp => Or.inl hp))) (waits_chain hW3 (waits_chain hW2 (waits_chain hW1 hW')))
  isplitl [Fw8]; · iexact Fw8
  isplitl [Fw12]; · iexact Fw12
  isplitl [Fw9]; · iexact Fw9
  isplitl [Fw13]; · iexact Fw13
  isplitl [Fw10]; · iexact Fw10
  isplitl [Fw14]; · iexact Fw14
  isplitl [Fw11]; · iexact Fw11
  isplitl [Fw15]; · iexact Fw15
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [HtL0]; · iexact HtL0
  isplitl [HtL1]; · iexact HtL1
  isplitl [HtL2]; · iexact HtL2
  isplitl [HtL3]; · iexact HtL3
  isplitl [HtL4]; · iexact HtL4
  isplitl [HtL5]; · iexact HtL5
  isplitl [HtL6]; · iexact HtL6
  isplitl [HtL7]; · iexact HtL7
  isplitl [HtA0]; · iexact HtA0
  isplitl [HtA1]; · iexact HtA1
  isplitl [HtA2]; · iexact HtA2
  isplitl [HtA3]; · iexact HtA3
  isplitl [HtB4]; · iexact HtB4
  isplitl [HtB5]; · iexact HtB5
  isplitl [HtB6]; · iexact HtB6
  isplitl [HtB7]; · iexact HtB7
  rw [bigSep_sep']
  isplitl [Hd01]; · iexact Hd01
  rw [last_done23_put (F := F) h30', last_P23_def]
  isplitr [Hd23]
  · isplitl [xA2]; · iexact xA2
    isplitl [xB2]; · iexact xB2
    isplitl [xA3]; · iexact xA3
    iexact xB3
  · iexact Hd23

end Cert.Proof.KB

end
-- ==== Proof.KB.RowsFirst.lean ====
/-
  The first trip's rows 0 and 1 of a tile's loop. Before the first trip nothing has been written yet, so the two row
  buffers of the slot two rows ahead are idle (held at any contents) and there is no earlier write to wait for: row 0
  issues the gathers of list row 2 into slot 2, waits for the gathers of list row 0 — which hand back slot 0's row buffers
  holding the gathered table rows, and the read tokens of the list and of the table halves — and issues the writes of
  those two buffers to the two halves of row 0 of the worker's block of the result; row 1 does the same one row further
  (gathers of list row 3 into slot 3, the gathers of list row 1 land, the writes of row 1). Each write in flight delivers
  its half-row holding what the kernel leaves there, because the buffer written held the gather of that row's list row.
  The waits recorded are the tile's own, at no level.
-/
import proofs.«203043_g45337674776592_cont_8to1_c_201_37_alg».proof.Proof.KB.BodyDefs
import proofs.«203043_g45337674776592_cont_8to1_c_201_37_alg».proof.Proof.KB.RowsBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The rows -/

set_option maxHeartbeats 8000000 in
/-- Row 0 of a trip (first): the gathers of row 4k + 2 are issued; the gathers of row 4k + 0 land and its writes are issued. -/
theorem row0_first (hin : HIN m d L) (O : CellTallies nD τ sig (HIx 1)) (hO : ∀ g, O g none = 0) (k : Fin k0_t1_loop.trips) (hk0 : k.val = 0) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ (∃ g, (rA2).view.loc (V d (cV L) (jV L)) ↦{fullShare} g)
      ∗ (∃ g, (rB2).view.loc (V d (cV L) (jV L)) ↦{fullShare} g)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ Φ (⟨(Scf.iv 0#32 1#32 k), 4#32⟩ : Σ' (_ : BitVec 32), BitVec 32)))
      ⊢ wp frame (wpE (defs₀ (F := F)) 𝒱₀ (V d (cV L) (jV L)) none) Set.univ (k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) Φ := by
  rw [k0_part1_eq_skeleton]; unfold k0_part1_skel
  iintro ⟨#Hlv, HO, ⟨%gA', bA⟩, ⟨%gB', bB⟩, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h3 := cond3_true k
  have hi0 := in0_false k hk0
  sl_exec
  have hoj : k0_off2 k = offR (4 * k.val + 0 + 2) := by rw [k0_off2_eq] <;> rfl
  ihave FA := (fold_gA2 (F := F) m d L hin (4 * k.val + 0 + 2) (by have h : k.val < 32 := Nat.lt_of_lt_of_eq k.isLt geom_trips_eq; omega) (k0_off2 k) (k0_off2_inb k h3) hoj _ _ rfl (by decide)) $$ [cGA bA tLA tTA]
  · isplitl [cGA]; · iexact cGA
    isplitl [bA]; · iexact bA
    isplitl [tLA]; · iexact tLA
    iexact tTA
  ihave FB := (fold_gB2 (F := F) m d L hin (4 * k.val + 0 + 2) (by have h : k.val < 32 := Nat.lt_of_lt_of_eq k.isLt geom_trips_eq; omega) (k0_off2 k) (k0_off2_inb k h3) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA0
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB0
  icases HD with ⟨nr, nl, nt⟩
  sl_exec
  ihave FWA := (foldc_wA0 (F := F) m d L hin k (m (oLoc d)) _ _ (read_whole_same (F := F) cc0_scratch3 _) (by decide)) $$ [cWA mr]
  · isplitl [cWA]; · iexact cWA
    iexact mr
  ihave FWB := (foldc_wB0 (F := F) m d L hin k (m (oLoc d)) _ _ (read_whole_same (F := F) cc0_scratch7 _) (by decide)) $$ [cWB nr]
  · isplitl [cWB]; · iexact cWB
    iexact nr
  first | rw [show row0_first.sl.arg32 k = (Scf.iv 0#32 1#32 k) from rfl] | skip
  rw [wp_ret]; imodintro
  iapply HΦ
  isplitl [HO]
  · iexists _; isplitr
    pick_goal 2
    · iexact HO
    · ipureintro; exact waits_ins rfl (waits_ins rfl (fun p hp => Or.inl hp))
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row0_first_bind (hin : HIN m d L) (O : CellTallies nD τ sig (HIx 1)) (hO : ∀ g, O g none = 0) (k : Fin k0_t1_loop.trips) (hk0 : k.val = 0) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ (∃ g, (rA2).view.loc (V d (cV L) (jV L)) ↦{fullShare} g)
      ∗ (∃ g, (rB2).view.loc (V d (cV L) (jV L)) ↦{fullShare} g)
      ∗ semVal (((V d (cV L) (jV L)), (SemLoc.dma (⟨2, by decide⟩ : DmaSem sig))) : GSem nD τ sig) 0
      ∗ semVal (((V d (cV L) (jV L)), (SemLoc.dma (⟨6, by decide⟩ : DmaSem sig))) : GSem nD τ sig) 0
      ∗ ((sV).view.loc (V d (cV L) (jV L)) ↦{tokL 2} lst m d L)
      ∗ ((sV).view.loc (V d (cV L) (jV L)) ↦{tokL 6} lst m d L)
      ∗ ((aV).view.loc (V d (cV L) (jV L)) ↦{tokT L 2} tblA m d (cV L))
      ∗ ((bV).view.loc (V d (cV L) (jV L)) ↦{tokT L 6} tblB m d (cV L))
      ∗ Transfers.Flight countersEmb (V d (cV L) (jV L)) (SemLoc.dma (⟨0, by decide⟩ : DmaSem sig)) (default : HIx 1) 409600 (gDelA0 m d L (4 * k.val + 0) (by have h : k.val < 32 := Nat.lt_of_lt_of_eq k.isLt geom_trips_eq; omega) hin)
      ∗ Transfers.Flight countersEmb (V d (cV L) (jV L)) (SemLoc.dma (⟨4, by decide⟩ : DmaSem sig)) (default : HIx 1) 409600 (gDelB0 m d L (4 * k.val + 0) (by have h : k.val < 32 := Nat.lt_of_lt_of_eq k.isLt geom_trips_eq; omega) hin)
      ∗ semVal (((V d (cV L) (jV L)), (SemLoc.dma (⟨8, by decide⟩ : DmaSem sig))) : GSem nD τ sig) 0
      ∗ semVal (((V d (cV L) (jV L)), (SemLoc.dma (⟨12, by decide⟩ : DmaSem sig))) : GSem nD τ sig) 0
      ∗ ((oHalfA L k 0).view.loc (V d (cV L) (jV L)) ↦[(oHalfA L k 0).view.set]{fullShare} m (oLoc d))
      ∗ ((oHalfB L k 0).view.loc (V d (cV L) (jV L)) ↦[(oHalfB L k 0).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨2, by decide⟩ : DmaSem sig)) (default : HIx 1) 409600 (gDelA2 m d L (4 * k.val + 0 + 2) (by have h : k.val < 32 := Nat.lt_of_lt_of_eq k.isLt geom_trips_eq; omega) hin)
          ∗ Transfers.Flight countersEmb (V d (cV L) (jV L)) (SemLoc.dma (⟨6, by decide⟩ : DmaSem sig)) (default : HIx 1) 409600 (gDelB2 m d L (4 * k.val + 0 + 2) (by have h : k.val < 32 := Nat.lt_of_lt_of_eq k.isLt geom_trips_eq; omega) hin)
          ∗ semVal (((V d (cV L) (jV L)), (SemLoc.dma (⟨0, by decide⟩ : DmaSem sig))) : GSem nD τ sig) 0
          ∗ semVal (((V d (cV L) (jV L)), (SemLoc.dma (⟨4, by decide⟩ : DmaSem sig))) : GSem nD τ sig) 0
          ∗ ((sV).view.loc (V d (cV L) (jV L)) ↦{tokL 0} lst m d L)
          ∗ ((sV).view.loc (V d (cV L) (jV L)) ↦{tokL 4} lst m d L)
          ∗ ((aV).view.loc (V d (cV L) (jV L)) ↦{tokT L 0} tblA m d (cV L))
          ∗ ((bV).view.loc (V d (cV L) (jV L)) ↦{tokT L 4} tblB m d (cV L))
          ∗ Transfers.Flight countersEmb (V d (cV L) (jV L)) (SemLoc.dma (⟨8, by decide⟩ : DmaSem sig)) (default : HIx 1) 409600 (wDelA0 m d L k)
          ∗ Transfers.Flight countersEmb (V d (cV L) (jV L)) (SemLoc.dma (⟨12, by decide⟩ : DmaSem sig)) (default : HIx 1) 409600 (wDelB0 m d L k))
        -∗ wp frame (wpE (defs₀ (F := F)) 𝒱₀ (V d (cV L) (jV L)) none) Set.univ (f (⟨(Scf.iv 0#32 1#32 k), 4#32⟩ : Σ' (_ : BitVec 32), BitVec 32)) Q))
      ⊢ wp frame (wpE (defs₀ (F := F)) 𝒱₀ (V d (cV L) (jV L)) none) Set.univ ((k0_part1 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 0#32 1#32 k) >>= f) Q := by
  rw [wp_bind]
  exact row0_first (F := F) m d L hin O hO k hk0 v2 W (Φ := fun r => wp frame (wpE (defs₀ (F := F)) 𝒱₀ (V d (cV L) (jV L)) none) Set.univ (f r) Q)

set_option maxHeartbeats 8000000 in
/-- Row 1 of a trip (first): the gathers of row 4k + 3 are issued; the gathers of row 4k + 1 land and its writes are issued. -/
theorem row1_first (hin : HIN m d L) (O : CellTallies nD τ sig (HIx 1)) (hO : ∀ g, O g none = 0) (k : Fin k0_t1_loop.trips) (hk0 : k.val = 0) (v2 : BitVec 32)
    (W : Waits sig (HIx 1)) {Φ : (Σ' (_ : BitVec 32), BitVec 32) → sProp 𝕄} :
    iprop(levAts (K (F := F)).L (K (F := F)).lev ∗ owes (V d (cV L) (jV L)) O W
      ∗ (∃ g, (rA3).view.loc (V d (cV L) (jV L)) ↦{fullShare} g)
      ∗ (∃ g, (rB3).view.loc (V d (cV L) (jV L)) ↦{fullShare} g)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ Φ (⟨Scalar.muli 4#32 (Scf.iv 0#32 1#32 k), 2#32⟩ : Σ' (_ : BitVec 32), BitVec 32)))
      ⊢ wp frame (wpE (defs₀ (F := F)) 𝒱₀ (V d (cV L) (jV L)) none) Set.univ (k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) Φ := by
  rw [k0_part2_eq_skeleton]; unfold k0_part2_skel
  iintro ⟨#Hlv, HO, ⟨%gA', bA⟩, ⟨%gB', bB⟩, cGA, cGB, tLA, tLB, tTA, tTB, FgA, FgB, cWA, cWB, hA, hB, HΦ⟩
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h5 := cond5_true k
  have hi1 := in1_false k hk0
  sl_exec
  have hoj : k0_off5 k = offR (4 * k.val + 1 + 2) := by rw [k0_off5_eq] <;> rfl
  ihave FA := (fold_gA3 (F := F) m d L hin (4 * k.val + 1 + 2) (by have h : k.val < 32 := Nat.lt_of_lt_of_eq k.isLt geom_trips_eq; omega) (k0_off5 k) (k0_off5_inb k h5) hoj _ _ rfl (by decide)) $$ [cGA bA tLA tTA]
  · isplitl [cGA]; · iexact cGA
    isplitl [bA]; · iexact bA
    isplitl [tLA]; · iexact tLA
    iexact tTA
  ihave FB := (fold_gB3 (F := F) m d L hin (4 * k.val + 1 + 2) (by have h : k.val < 32 := Nat.lt_of_lt_of_eq k.isLt geom_trips_eq; omega) (k0_off5 k) (k0_off5_inb k h5) hoj _ _ rfl (by decide)) $$ [cGB bB tLB tTB]
  · isplitl [cGB]; · iexact cGB
    isplitl [bB]; · iexact bB
    isplitl [tLB]; · iexact tLB
    iexact tTB
  iapply (Transfers.wp_waitLocalO countersEmb 𝒱₀ (V d (cV L) (jV L)) none (default : HIx 1) (N := 409600) rfl) $$ [FgA HO]
  · isplitl [FgA]; · iexact FgA
    isplitl [HO]; · iexact HO
    iapply (Transfers.MayWaits.elim (SemLoc.dma _)); iexact Hmw
  iintro ⟨HD, cs, HO⟩
  unfold gDelA1
  icases HD with ⟨mr, ml, mt⟩
  first | sl_exec | skip
  iapply (Transfers.wp_waitLocalO countersEmb 𝒱₀ (V d (cV L) (jV L)) none (default : HIx 1) (N := 409600) rfl) $$ [FgB HO]
  · isplitl [FgB]; · iexact FgB
    isplitl [HO]; · iexact HO
    iapply (Transfers.MayWaits.elim (SemLoc.dma _)); iexact Hmw
  iintro ⟨HD, c4s, HO⟩
  unfold gDelB1
  icases HD with ⟨nr, nl, nt⟩
  sl_exec
  ihave FWA := (foldc_wA1 (F := F) m d L hin k (m (oLoc d)) _ _ (read_whole_same (F := F) cc0_scratch4 _) (by decide)) $$ [cWA mr]
  · isplitl [cWA]; · iexact cWA
    iexact mr
  ihave FWB := (foldc_wB1 (F := F) m d L hin k (m (oLoc d)) _ _ (read_whole_same (F := F) cc0_scratch8 _) (by decide)) $$ [cWB nr]
  · isplitl [cWB]; · iexact cWB
    iexact nr
  first | rw [show row1_first.sl.v122 k = Scalar.muli 4#32 (Scf.iv 0#32 1#32 k) from rfl] | skip
  rw [wp_ret]; imodintro
  iapply HΦ
  isplitl [HO]
  · iexists _; isplitr
    pick_goal 2
    · iexact HO
    · ipureintro; exact waits_ins rfl (waits_ins rfl (fun p hp => Or.inl hp))
  isplitl [FA]; · iexact FA
  isplitl [FB]; · iexact FB
  isplitl [cs]; · iexact cs
  isplitl [c4s]; · iexact c4s
  isplitl [ml]; · iexact ml
  isplitl [nl]; · iexact nl
  isplitl [mt]; · iexact mt
  isplitl [nt]; · iexact nt
  isplitl [FWA]; · iexact FWA
  iexact FWB

set_option maxHeartbeats 4000000 in
/-- The same with the rest of the trip bound after it. -/
theorem row1_first_bind (hin : HIN m d L) (O : CellTallies nD τ sig (HIx 1)) (hO : ∀ g, O g none = 0) (k : Fin k0_t1_loop.trips) (hk0 : k.val = 0) (v2 : BitVec 32)
    (W : Waits sig (HIx 1)) {β : Type} (f : (Σ' (_ : BitVec 32), BitVec 32) → Prog (TpuEff nD τ sig (Elt F) Λ₀ (.scVector (cV L) (jV L))) β) (Q : β → sProp 𝕄) :
    iprop(levAts (K (F := F)).L (K (F := F)).lev ∗ owes (V d (cV L) (jV L)) O W
      ∗ (∃ g, (rA3).view.loc (V d (cV L) (jV L)) ↦{fullShare} g)
      ∗ (∃ g, (rB3).view.loc (V d (cV L) (jV L)) ↦{fullShare} g)
      ∗ semVal (((V d (cV L) (jV L)), (SemLoc.dma (⟨3, by decide⟩ : DmaSem sig))) : GSem nD τ sig) 0
      ∗ semVal (((V d (cV L) (jV L)), (SemLoc.dma (⟨7, by decide⟩ : DmaSem sig))) : GSem nD τ sig) 0
      ∗ ((sV).view.loc (V d (cV L) (jV L)) ↦{tokL 3} lst m d L)
      ∗ ((sV).view.loc (V d (cV L) (jV L)) ↦{tokL 7} lst m d L)
      ∗ ((aV).view.loc (V d (cV L) (jV L)) ↦{tokT L 3} tblA m d (cV L))
      ∗ ((bV).view.loc (V d (cV L) (jV L)) ↦{tokT L 7} tblB m d (cV L))
      ∗ Transfers.Flight countersEmb (V d (cV L) (jV L)) (SemLoc.dma (⟨1, by decide⟩ : DmaSem sig)) (default : HIx 1) 409600 (gDelA1 m d L (4 * k.val + 1) (by have h : k.val < 32 := Nat.lt_of_lt_of_eq k.isLt geom_trips_eq; omega) hin)
      ∗ Transfers.Flight countersEmb (V d (cV L) (jV L)) (SemLoc.dma (⟨5, by decide⟩ : DmaSem sig)) (default : HIx 1) 409600 (gDelB1 m d L (4 * k.val + 1) (by have h : k.val < 32 := Nat.lt_of_lt_of_eq k.isLt geom_trips_eq; omega) hin)
      ∗ semVal (((V d (cV L) (jV L)), (SemLoc.dma (⟨9, by decide⟩ : DmaSem sig))) : GSem nD τ sig) 0
      ∗ semVal (((V d (cV L) (jV L)), (SemLoc.dma (⟨13, by decide⟩ : DmaSem sig))) : GSem nD τ sig) 0
      ∗ ((oHalfA L k 1).view.loc (V d (cV L) (jV L)) ↦[(oHalfA L k 1).view.set]{fullShare} m (oLoc d))
      ∗ ((oHalfB L k 1).view.loc (V d (cV L) (jV L)) ↦[(oHalfB L k 1).view.set]{fullShare} m (oLoc d))
      ∗ (((∃ W'', ⌜∀ p ∈ W'', p ∈ W ∨ p.2 = none⌝ ∗ owes (V d (cV L) (jV L)) O W'')
          ∗ Transfers.Flight countersEmb (V d (cV L) (jV L)) (SemLoc.dma (⟨3, by decide⟩ : DmaSem sig)) (default : HIx 1) 409600 (gDelA3 m d L (4 * k.val + 1 + 2) (by have h : k.val < 32 := Nat.lt_of_lt_of_eq k.isLt geom_trips_eq; omega) hin)
          ∗ Transfers.Flight countersEmb (V d (cV L) (jV L)) (SemLoc.dma (⟨7, by decide⟩ : DmaSem sig)) (default : HIx 1) 409600 (gDelB3 m d L (4 * k.val + 1 + 2) (by have h : k.val < 32 := Nat.lt_of_lt_of_eq k.isLt geom_trips_eq; omega) hin)
          ∗ semVal (((V d (cV L) (jV L)), (SemLoc.dma (⟨1, by decide⟩ : DmaSem sig))) : GSem nD τ sig) 0
          ∗ semVal (((V d (cV L) (jV L)), (SemLoc.dma (⟨5, by decide⟩ : DmaSem sig))) : GSem nD τ sig) 0
          ∗ ((sV).view.loc (V d (cV L) (jV L)) ↦{tokL 1} lst m d L)
          ∗ ((sV).view.loc (V d (cV L) (jV L)) ↦{tokL 5} lst m d L)
          ∗ ((aV).view.loc (V d (cV L) (jV L)) ↦{tokT L 1} tblA m d (cV L))
          ∗ ((bV).view.loc (V d (cV L) (jV L)) ↦{tokT L 5} tblB m d (cV L))
          ∗ Transfers.Flight countersEmb (V d (cV L) (jV L)) (SemLoc.dma (⟨9, by decide⟩ : DmaSem sig)) (default : HIx 1) 409600 (wDelA1 m d L k)
          ∗ Transfers.Flight countersEmb (V d (cV L) (jV L)) (SemLoc.dma (⟨13, by decide⟩ : DmaSem sig)) (default : HIx 1) 409600 (wDelB1 m d L k))
        -∗ wp frame (wpE (defs₀ (F := F)) 𝒱₀ (V d (cV L) (jV L)) none) Set.univ (f (⟨Scalar.muli 4#32 (Scf.iv 0#32 1#32 k), 2#32⟩ : Σ' (_ : BitVec 32), BitVec 32)) Q))
      ⊢ wp frame (wpE (defs₀ (F := F)) 𝒱₀ (V d (cV L) (jV L)) none) Set.univ ((k0_part2 L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k (Scf.iv 0#32 1#32 k) 4#32) >>= f) Q := by
  rw [wp_bind]
  exact row1_first (F := F) m d L hin O hO k hk0 v2 W (Φ := fun r => wp frame (wpE (defs₀ (F := F)) 𝒱₀ (V d (cV L) (jV L)) none) Set.univ (f r) Q)

end Cert.Proof.KB

end
-- ==== Proof.KB.TripFirst.lean ====
/-
  The first trip of a tile's loop. Before it the gathers of list rows 0 and 1 are in flight on slots 0 and 1, slots 2 and
  3 are idle, and no half-row of the result is written. Row 0 issues the gathers of row 2 and, once the gathers of row 0
  have landed, the writes of row 0; row 1 likewise issues the gathers of row 3 and the writes of row 1; row 2 waits for
  the writes of row 0, issues the gathers of row 4 into slot 0 and, the gathers of row 2 landed, the writes of row 2;
  row 3 waits for the writes of row 1, issues the gathers of row 5 into slot 1 and, the gathers of row 3 landed, the
  writes of row 3. So after it the gathers of rows 4 and 5 are in flight on slots 0 and 1, the writes of rows 2 and 3 on
  slots 2 and 3, rows 0 and 1 of the worker's block hold what the kernel leaves there, and no trip yet has its rows 2 and
  3 done: the state before the second trip.
-/
import proofs.«203043_g45337674776592_cont_8to1_c_201_37_alg».proof.Proof.KB.BodyDefs
import proofs.«203043_g45337674776592_cont_8to1_c_201_37_alg».proof.Proof.KB.RowsMid
import proofs.«203043_g45337674776592_cont_8to1_c_201_37_alg».proof.Proof.KB.RowsFirst

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The definitions, opened -/

theorem first_P01_def (t : Fin k0_t1_loop.trips) (f : Buf (Elt F) (oLoc d)) : (P01 d L t f : sProp 𝕄)
    = iprop(((oHalfA L t 0).view.loc (V d (cV L) (jV L)) ↦[(oHalfA L t 0).view.set]{fullShare} f) ∗ ((oHalfB L t 0).view.loc (V d (cV L) (jV L)) ↦[(oHalfB L t 0).view.set]{fullShare} f)
      ∗ ((oHalfA L t 1).view.loc (V d (cV L) (jV L)) ↦[(oHalfA L t 1).view.set]{fullShare} f) ∗ ((oHalfB L t 1).view.loc (V d (cV L) (jV L)) ↦[(oHalfB L t 1).view.set]{fullShare} f)) := rfl
theorem first_P23_def (t : Fin k0_t1_loop.trips) (f : Buf (Elt F) (oLoc d)) : (P23 d L t f : sProp 𝕄)
    = iprop(((oHalfA L t 2).view.loc (V d (cV L) (jV L)) ↦[(oHalfA L t 2).view.set]{fullShare} f) ∗ ((oHalfB L t 2).view.loc (V d (cV L) (jV L)) ↦[(oHalfB L t 2).view.set]{fullShare} f)
      ∗ ((oHalfA L t 3).view.loc (V d (cV L) (jV L)) ↦[(oHalfA L t 3).view.set]{fullShare} f) ∗ ((oHalfB L t 3).view.loc (V d (cV L) (jV L)) ↦[(oHalfB L t 3).view.set]{fullShare} f)) := rfl

omit [FloatOps F] in
/-- The trips from `k` on are trip `k` and the trips after it. -/
theorem first_todo_take (k : Fin k0_t1_loop.trips) (Φ : Fin k0_t1_loop.trips → sProp 𝕄) :
    (bigSep (Finset.univ.filter fun t : Fin k0_t1_loop.trips => k.val ≤ t.val) Φ : sProp 𝕄)
      = iprop(Φ k ∗ bigSep (Finset.univ.filter fun t : Fin k0_t1_loop.trips => k.val + 1 ≤ t.val) Φ) := by
  rw [SparseCore.bigSep_erase' (s := Finset.univ.filter fun t : Fin k0_t1_loop.trips => k.val ≤ t.val) (i := k) (Finset.mem_filter.mpr ⟨Finset.mem_univ _, le_rfl⟩)]
  congr 2
  ext t
  simp only [Finset.mem_erase, Finset.mem_filter, Finset.mem_univ, true_and, ne_eq, Fin.ext_iff]
  omega

omit [FloatOps F] in
/-- The trips below `k + 1` are trip `k` and the trips below `k`. -/
theorem first_done01_put (k : Fin k0_t1_loop.trips) (Φ : Fin k0_t1_loop.trips → sProp 𝕄) :
    (bigSep (Finset.univ.filter fun t : Fin k0_t1_loop.trips => t.val < k.val + 1) Φ : sProp 𝕄)
      = iprop(Φ k ∗ bigSep (Finset.univ.filter fun t : Fin k0_t1_loop.trips => t.val < k.val) Φ) := by
  rw [SparseCore.bigSep_erase' (s := Finset.univ.filter fun t : Fin k0_t1_loop.trips => t.val < k.val + 1) (i := k) (Finset.mem_filter.mpr ⟨Finset.mem_univ _, Nat.lt_succ_self _⟩)]
  congr 2
  ext t
  simp only [Finset.mem_erase, Finset.mem_filter, Finset.mem_univ, true_and, ne_eq, Fin.ext_iff]
  omega
omit [FloatOps F] in
/-- Before the first trip no trip has its rows 2 and 3 done, and after it still none has. -/
theorem first_done23_same (k : Fin k0_t1_loop.trips) (h0 : k.val = 0) (Φ : Fin k0_t1_loop.trips → sProp 𝕄) :
    (bigSep (Finset.univ.filter fun t : Fin k0_t1_loop.trips => t.val + 1 < k.val + 1) Φ : sProp 𝕄)
      = bigSep (Finset.univ.filter fun t : Fin k0_t1_loop.trips => t.val + 1 < k.val) Φ := by
  congr 1
  ext t
  simp only [Finset.mem_filter, Finset.mem_univ, true_and]
  omega

set_option maxHeartbeats 16000000 in
/-- The first trip of the task's loop. -/
theorem trip_first (hin : HIN m d L) (O : CellTallies nD τ sig (HIx 1)) (W₀ : Waits sig (HIx 1)) (hO : ∀ g, O g none = 0) (v2 : BitVec 32)
    (k : Fin k0_t1_loop.trips) (h0 : k.val = 0) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have hk : k.val < 32 := by omega
  have hk30 : k.val ≤ 30 := by omega
  unfold k0_t1_body
  unfold Inv
  rw [dif_pos hk]
  unfold invMid slots23
  rw [dif_pos h0]
  iintro ⟨%hle, #Hlv, ⟨%W', %hW', HO⟩, Hg0, Hg4, Hg1, Hg5, ⟨⟨%g2, bA2⟩, ⟨%g2', bB2⟩, ⟨%g3, bA3⟩, ⟨%g3', bB3⟩, Hs10, Hs14, Hs11, Hs15⟩, Hs2, Hs3, Hs6, Hs7, Hs8, Hs9, Hs12, Hs13, HtL2, HtL3, HtL6, HtL7, HtA2, HtA3, HtB6, HtB7, Hd01, Hd23, Htodo⟩
  ihave Htodo' := (Entails.of_eq (first_todo_take (F := F) k _)) $$ Htodo
  icases Htodo' with ⟨⟨Hp01, Hp23⟩, Htodo⟩
  ihave Hp01' := (Entails.of_eq (first_P01_def (F := F) d L k _)) $$ Hp01
  icases Hp01' with ⟨HoA0, HoB0, HoA1, HoB1⟩
  ihave Hp23' := (Entails.of_eq (first_P23_def (F := F) d L k _)) $$ Hp23
  icases Hp23' with ⟨HoA2, HoB2, HoA3, HoB3⟩
  -- rows 0, 1, 2
  iapply (row0_first_bind (F := F) m d L hin O hO k h0 v2 W' _ _)
  isplitr; · iexact Hlv
  isplitl [HO]; · iexact HO
  isplitl [bA2]; · iexists _; iexact bA2
  isplitl [bB2]; · iexists _; iexact bB2
  isplitl [Hs2]; · iexact Hs2
  isplitl [Hs6]; · iexact Hs6
  isplitl [HtL2]; · iexact HtL2
  isplitl [HtL6]; · iexact HtL6
  isplitl [HtA2]; · iexact HtA2
  isplitl [HtB6]; · iexact HtB6
  isplitl [Hg0]; · iexact Hg0
  isplitl [Hg4]; · iexact Hg4
  isplitl [Hs8]; · iexact Hs8
  isplitl [Hs12]; · iexact Hs12
  isplitl [HoA0]; · iexact HoA0
  isplitl [HoB0]; · iexact HoB0
  iintro ⟨⟨%W1, %hW1, HO⟩, Fg2, Fg6, Hs0, Hs4, HtL0, HtL4, HtA0, HtB4, Fw8, Fw12⟩
  iapply (row1_first_bind (F := F) m d L hin O hO k h0 v2 W1 _ _)
  isplitr; · iexact Hlv
  isplitl [HO]; · iexact HO
  isplitl [bA3]; · iexists _; iexact bA3
  isplitl [bB3]; · iexists _; iexact bB3
  isplitl [Hs3]; · iexact Hs3
  isplitl [Hs7]; · iexact Hs7
  isplitl [HtL3]; · iexact HtL3
  isplitl [HtL7]; · iexact HtL7
  isplitl [HtA3]; · iexact HtA3
  isplitl [HtB7]; · iexact HtB7
  isplitl [Hg1]; · iexact Hg1
  isplitl [Hg5]; · iexact Hg5
  isplitl [Hs9]; · iexact Hs9
  isplitl [Hs13]; · iexact Hs13
  isplitl [HoA1]; · iexact HoA1
  isplitl [HoB1]; · iexact HoB1
  iintro ⟨⟨%W2, %hW2, HO⟩, Fg3, Fg7, Hs1, Hs5, HtL1, HtL5, HtA1, HtB5, Fw9, Fw13⟩
  iapply (row2_mid_bind (F := F) m d L hin O hO k hk30 v2 W2 _ _)
  isplitr; · iexact Hlv
  isplitl [HO]; · iexact HO
  isplitl [Fw8]; · iexact Fw8
  isplitl [Fw12]; · iexact Fw12
  isplitl [Hs0]; · iexact Hs0
  isplitl [Hs4]; · iexact Hs4
  isplitl [HtL0]; · iexact HtL0
  isplitl [HtL4]; · iexact HtL4
  isplitl [HtA0]; · iexact HtA0
  isplitl [HtB4]; · iexact HtB4
  isplitl [Fg2]; · iexact Fg2
  isplitl [Fg6]; · iexact Fg6
  isplitl [Hs10]; · iexact Hs10
  isplitl [Hs14]; · iexact Hs14
  isplitl [HoA2]; · iexact HoA2
  isplitl [HoB2]; · iexact HoB2
  iintro ⟨⟨%W3, %hW3, HO⟩, yA0, yB0, Hs8, Hs12, Fg0n, Fg4n, Hs2, Hs6, HtL2, HtL6, HtA2, HtB6, Fw10, Fw14⟩
  -- row 3
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h9 := cond9_true k hk30
  have hi3 := in3_true k
  sl_exec
  iapply (Transfers.wp_waitLocalO countersEmb 𝒱₀ (V d (cV L) (jV L)) none (default : HIx 1) (N := 409600) rfl) $$ [Fw9 HO]
  · isplitl [Fw9]; · iexact Fw9
    isplitl [HO]; · iexact HO
    iapply (Transfers.MayWaits.elim (SemLoc.dma _)); iexact Hmw
  iintro ⟨HD, Hs9, HO⟩
  unfold wDelA1
  icases HD with ⟨yA1, %gA', bA1⟩
  first | sl_exec | skip
  iapply (Transfers.wp_waitLocalO countersEmb 𝒱₀ (V d (cV L) (jV L)) none (default : HIx 1) (N := 409600) rfl) $$ [Fw13 HO]
  · isplitl [Fw13]; · iexact Fw13
    isplitl [HO]; · iexact HO
    iapply (Transfers.MayWaits.elim (SemLoc.dma _)); iexact Hmw
  iintro ⟨HD, Hs13, HO⟩
  unfold wDelB1
  icases HD with ⟨yB1, %gB', bB1⟩
  sl_exec
  have hoj : k0_off7 k = offR (4 * k.val + 3 + 2) := by rw [k0_off7_eq] <;> rfl
  ihave Fg1n := (fold_gA1 (F := F) m d L hin (4 * k.val + 3 + 2) (by have h : k.val < 32 := Nat.lt_of_lt_of_eq k.isLt geom_trips_eq; omega) (k0_off7 k) (k0_off7_inb k h9) hoj _ _ rfl (by decide)) $$ [Hs1 bA1 HtL1 HtA1]
  · isplitl [Hs1]; · iexact Hs1
    isplitl [bA1]; · iexact bA1
    isplitl [HtL1]; · iexact HtL1
    iexact HtA1
  ihave Fg5n := (fold_gB1 (F := F) m d L hin (4 * k.val + 3 + 2) (by have h : k.val < 32 := Nat.lt_of_lt_of_eq k.isLt geom_trips_eq; omega) (k0_off7 k) (k0_off7_inb k h9) hoj _ _ rfl (by decide)) $$ [Hs5 bB1 HtL5 HtB5]
  · isplitl [Hs5]; · iexact Hs5
    isplitl [bB1]; · iexact bB1
    isplitl [HtL5]; · iexact HtL5
    iexact HtB5
  iapply (Transfers.wp_waitLocalO countersEmb 𝒱₀ (V d (cV L) (jV L)) none (default : HIx 1) (N := 409600) rfl) $$ [Fg3 HO]
  · isplitl [Fg3]; · iexact Fg3
    isplitl [HO]; · iexact HO
    iapply (Transfers.MayWaits.elim (SemLoc.dma _)); iexact Hmw
  iintro ⟨HD, Hs3, HO⟩
  unfold gDelA3
  icases HD with ⟨mr3, HtL3, HtA3⟩
  first | sl_exec | skip
  iapply (Transfers.wp_waitLocalO countersEmb 𝒱₀ (V d (cV L) (jV L)) none (default : HIx 1) (N := 409600) rfl) $$ [Fg7 HO]
  · isplitl [Fg7]; · iexact Fg7
    isplitl [HO]; · iexact HO
    iapply (Transfers.MayWaits.elim (SemLoc.dma _)); iexact Hmw
  iintro ⟨HD, Hs7, HO⟩
  unfold gDelB3
  icases HD with ⟨nr3, HtL7, HtB7⟩
  sl_exec
  ihave Fw11 := (foldc_wA3 (F := F) m d L hin k (m (oLoc d)) _ _ (read_whole_same (F := F) cc0_scratch6 _) (by decide)) $$ [Hs11 mr3]
  · isplitl [Hs11]; · iexact Hs11
    iexact mr3
  ihave Fw15 := (foldc_wB3 (F := F) m d L hin k (m (oLoc d)) _ _ (read_whole_same (F := F) cc0_scratch10 _) (by decide)) $$ [Hs15 nr3]
  · isplitl [Hs15]; · iexact Hs15
    iexact nr3
  rw [wp_ret]; imodintro
  have hk' : k.val + 1 < 32 := by omega
  rw [dif_pos hk', dif_neg (show ¬ k.val + 1 = 0 by omega)]
  isplitr; · ipureintro; omega
  isplitr; · iexact Hlv
  isplitl [HO]
  · iexists _
    isplitr
    rotate_left
    · iexact HO
    ipureintro
    exact waits_chain (waits_ins rfl (waits_ins rfl (waits_ins rfl (waits_ins rfl (fun p hp => Or.inl hp))))) (waits_chain hW3 (waits_chain hW2 (waits_chain hW1 hW')))
  isplitl [Fg0n]; · iexact Fg0n
  isplitl [Fg4n]; · iexact Fg4n
  isplitl [Fg1n]; · iexact Fg1n
  isplitl [Fg5n]; · iexact Fg5n
  isplitl [Fw10 Fw14 Fw11 Fw15]
  · isplitl [Fw10]; · iexact Fw10
    isplitl [Fw14]; · iexact Fw14
    isplitl [Fw11]; · iexact Fw11
    iexact Fw15
  isplitl [Hs2]; · iexact Hs2
  isplitl [Hs3]; · iexact Hs3
  isplitl [Hs6]; · iexact Hs6
  isplitl [Hs7]; · iexact Hs7
  isplitl [Hs8]; · iexact Hs8
  isplitl [Hs9]; · iexact Hs9
  isplitl [Hs12]; · iexact Hs12
  isplitl [Hs13]; · iexact Hs13
  isplitl [HtL2]; · iexact HtL2
  isplitl [HtL3]; · iexact HtL3
  isplitl [HtL6]; · iexact HtL6
  isplitl [HtL7]; · iexact HtL7
  isplitl [HtA2]; · iexact HtA2
  isplitl [HtA3]; · iexact HtA3
  isplitl [HtB6]; · iexact HtB6
  isplitl [HtB7]; · iexact HtB7
  isplitl [Hd01 yA0 yB0 yA1 yB1]
  · rw [first_done01_put, first_P01_def]
    isplitr [Hd01]
    · isplitl [yA0]; · iexact yA0
      isplitl [yB0]; · iexact yB0
      isplitl [yA1]; · iexact yA1
      iexact yB1
    · iexact Hd01
  isplitl [Hd23]
  · rw [first_done23_same (F := F) k h0]
    iexact Hd23
  iexact Htodo

end Cert.Proof.KB

end
-- ==== Proof.KB.Trip.lean ====
/-
  One trip of the task's loop.

  The mathematics. Before trip k (k < 32) the gathers of rows 4k and 4k + 1 are in flight on slots 0 and 1 and — for k ≥ 1 — the
  writes of rows 4k − 2 and 4k − 1 on slots 2 and 3; the half-rows below trip k are done (but those two rows', in flight), the
  others untouched. The trip runs its four rows in turn; row r waits for the other slot's previous writes, issues the gathers
  two rows ahead, waits for its own gathers and issues its own writes. After it the same holds of k + 1: rows 0, 1 of trip k
  have landed (waited for in rows 2, 3), rows 2, 3 of trip k are in flight, and the gathers of rows 4k + 4, 4k + 5 are in flight
  on slots 0, 1. After the last trip nothing is gathered any more and the four rows' writes are all that is in flight.
-/
import proofs.«203043_g45337674776592_cont_8to1_c_201_37_alg».proof.Proof.KB.BodyDefs
import proofs.«203043_g45337674776592_cont_8to1_c_201_37_alg».proof.Proof.KB.RowsMid
import proofs.«203043_g45337674776592_cont_8to1_c_201_37_alg».proof.Proof.KB.TripLast
import proofs.«203043_g45337674776592_cont_8to1_c_201_37_alg».proof.Proof.KB.TripFirst

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-! ## The definitions, opened -/

theorem P01_def (t : Fin k0_t1_loop.trips) (f : Buf (Elt F) (oLoc d)) : (P01 d L t f : sProp 𝕄)
    = iprop(((oHalfA L t 0).view.loc (V d (cV L) (jV L)) ↦[(oHalfA L t 0).view.set]{fullShare} f) ∗ ((oHalfB L t 0).view.loc (V d (cV L) (jV L)) ↦[(oHalfB L t 0).view.set]{fullShare} f)
      ∗ ((oHalfA L t 1).view.loc (V d (cV L) (jV L)) ↦[(oHalfA L t 1).view.set]{fullShare} f) ∗ ((oHalfB L t 1).view.loc (V d (cV L) (jV L)) ↦[(oHalfB L t 1).view.set]{fullShare} f)) := rfl
theorem P23_def (t : Fin k0_t1_loop.trips) (f : Buf (Elt F) (oLoc d)) : (P23 d L t f : sProp 𝕄)
    = iprop(((oHalfA L t 2).view.loc (V d (cV L) (jV L)) ↦[(oHalfA L t 2).view.set]{fullShare} f) ∗ ((oHalfB L t 2).view.loc (V d (cV L) (jV L)) ↦[(oHalfB L t 2).view.set]{fullShare} f)
      ∗ ((oHalfA L t 3).view.loc (V d (cV L) (jV L)) ↦[(oHalfA L t 3).view.set]{fullShare} f) ∗ ((oHalfB L t 3).view.loc (V d (cV L) (jV L)) ↦[(oHalfB L t 3).view.set]{fullShare} f)) := rfl

omit [FloatOps F] in
/-- The trips from `k` on are trip `k` and the trips after it. -/
theorem todo_take (k : Fin k0_t1_loop.trips) (Φ : Fin k0_t1_loop.trips → sProp 𝕄) :
    (bigSep (Finset.univ.filter fun t : Fin k0_t1_loop.trips => k.val ≤ t.val) Φ : sProp 𝕄)
      = iprop(Φ k ∗ bigSep (Finset.univ.filter fun t : Fin k0_t1_loop.trips => k.val + 1 ≤ t.val) Φ) := by
  rw [SparseCore.bigSep_erase' (s := Finset.univ.filter fun t : Fin k0_t1_loop.trips => k.val ≤ t.val) (i := k) (Finset.mem_filter.mpr ⟨Finset.mem_univ _, le_rfl⟩)]
  congr 2
  ext t
  simp only [Finset.mem_erase, Finset.mem_filter, Finset.mem_univ, true_and, ne_eq, Fin.ext_iff]
  omega

omit [FloatOps F] in
/-- The trips below `k + 1` are trip `k` and the trips below `k`. -/
theorem done01_put (k : Fin k0_t1_loop.trips) (Φ : Fin k0_t1_loop.trips → sProp 𝕄) :
    (bigSep (Finset.univ.filter fun t : Fin k0_t1_loop.trips => t.val < k.val + 1) Φ : sProp 𝕄)
      = iprop(Φ k ∗ bigSep (Finset.univ.filter fun t : Fin k0_t1_loop.trips => t.val < k.val) Φ) := by
  rw [SparseCore.bigSep_erase' (s := Finset.univ.filter fun t : Fin k0_t1_loop.trips => t.val < k.val + 1) (i := k) (Finset.mem_filter.mpr ⟨Finset.mem_univ _, Nat.lt_succ_self _⟩)]
  congr 2
  ext t
  simp only [Finset.mem_erase, Finset.mem_filter, Finset.mem_univ, true_and, ne_eq, Fin.ext_iff]
  omega
omit [FloatOps F] in
/-- The trips whose successor is below `k + 1` are trip `k − 1` and those whose successor is below `k`. -/
theorem done23_put (k : Fin k0_t1_loop.trips) (hk1 : 1 ≤ k.val) (hp : k.val - 1 < k0_t1_loop.trips) (Φ : Fin k0_t1_loop.trips → sProp 𝕄) :
    (bigSep (Finset.univ.filter fun t : Fin k0_t1_loop.trips => t.val + 1 < k.val + 1) Φ : sProp 𝕄)
      = iprop(Φ ⟨k.val - 1, hp⟩ ∗ bigSep (Finset.univ.filter fun t : Fin k0_t1_loop.trips => t.val + 1 < k.val) Φ) := by
  rw [SparseCore.bigSep_erase' (s := Finset.univ.filter fun t : Fin k0_t1_loop.trips => t.val + 1 < k.val + 1) (i := (⟨k.val - 1, hp⟩ : Fin k0_t1_loop.trips))
    (Finset.mem_filter.mpr ⟨Finset.mem_univ _, by show k.val - 1 + 1 < k.val + 1; omega⟩)]
  congr 2
  ext t
  simp only [Finset.mem_erase, Finset.mem_filter, Finset.mem_univ, true_and, ne_eq, Fin.ext_iff]
  omega

set_option maxHeartbeats 16000000 in
/-- One trip of the task's loop, 1 ≤ k ≤ 30. -/
theorem trip_mid (hin : HIN m d L) (O : CellTallies nD τ sig (HIx 1)) (W₀ : Waits sig (HIx 1)) (hO : ∀ g, O g none = 0) (v2 : BitVec 32)
    (k : Fin k0_t1_loop.trips) (hk1 : 1 ≤ k.val) (hk30 : k.val ≤ 30) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have hk : k.val < 32 := by omega
  unfold k0_t1_body
  unfold Inv
  rw [dif_pos hk]
  unfold invMid slots23
  rw [dif_neg (show ¬ k.val = 0 by omega)]
  iintro ⟨%hle, #Hlv, ⟨%W', %hW', HO⟩, Hg0, Hg4, Hg1, Hg5, ⟨Hw10, Hw14, Hw11, Hw15⟩, Hs2, Hs3, Hs6, Hs7, Hs8, Hs9, Hs12, Hs13, HtL2, HtL3, HtL6, HtL7, HtA2, HtA3, HtB6, HtB7, Hd01, Hd23, Htodo⟩
  ihave Htodo' := (Entails.of_eq (todo_take (F := F) k _)) $$ Htodo
  icases Htodo' with ⟨⟨Hp01, Hp23⟩, Htodo⟩
  ihave Hp01' := (Entails.of_eq (P01_def (F := F) d L k _)) $$ Hp01
  icases Hp01' with ⟨HoA0, HoB0, HoA1, HoB1⟩
  ihave Hp23' := (Entails.of_eq (P23_def (F := F) d L k _)) $$ Hp23
  icases Hp23' with ⟨HoA2, HoB2, HoA3, HoB3⟩
  -- rows 0, 1, 2
  iapply (row0_mid_bind (F := F) m d L hin O hO k hk1 v2 W' _ _)
  isplitr; · iexact Hlv
  isplitl [HO]; · iexact HO
  isplitl [Hw10]; · iexact Hw10
  isplitl [Hw14]; · iexact Hw14
  isplitl [Hs2]; · iexact Hs2
  isplitl [Hs6]; · iexact Hs6
  isplitl [HtL2]; · iexact HtL2
  isplitl [HtL6]; · iexact HtL6
  isplitl [HtA2]; · iexact HtA2
  isplitl [HtB6]; · iexact HtB6
  isplitl [Hg0]; · iexact Hg0
  isplitl [Hg4]; · iexact Hg4
  isplitl [Hs8]; · iexact Hs8
  isplitl [Hs12]; · iexact Hs12
  isplitl [HoA0]; · iexact HoA0
  isplitl [HoB0]; · iexact HoB0
  iintro ⟨⟨%W1, %hW1, HO⟩, xA2, xB2, Hs10, Hs14, Fg2, Fg6, Hs0, Hs4, HtL0, HtL4, HtA0, HtB4, Fw8, Fw12⟩
  iapply (row1_mid_bind (F := F) m d L hin O hO k hk1 v2 W1 _ _)
  isplitr; · iexact Hlv
  isplitl [HO]; · iexact HO
  isplitl [Hw11]; · iexact Hw11
  isplitl [Hw15]; · iexact Hw15
  isplitl [Hs3]; · iexact Hs3
  isplitl [Hs7]; · iexact Hs7
  isplitl [HtL3]; · iexact HtL3
  isplitl [HtL7]; · iexact HtL7
  isplitl [HtA3]; · iexact HtA3
  isplitl [HtB7]; · iexact HtB7
  isplitl [Hg1]; · iexact Hg1
  isplitl [Hg5]; · iexact Hg5
  isplitl [Hs9]; · iexact Hs9
  isplitl [Hs13]; · iexact Hs13
  isplitl [HoA1]; · iexact HoA1
  isplitl [HoB1]; · iexact HoB1
  iintro ⟨⟨%W2, %hW2, HO⟩, xA3, xB3, Hs11, Hs15, Fg3, Fg7, Hs1, Hs5, HtL1, HtL5, HtA1, HtB5, Fw9, Fw13⟩
  iapply (row2_mid_bind (F := F) m d L hin O hO k hk30 v2 W2 _ _)
  isplitr; · iexact Hlv
  isplitl [HO]; · iexact HO
  isplitl [Fw8]; · iexact Fw8
  isplitl [Fw12]; · iexact Fw12
  isplitl [Hs0]; · iexact Hs0
  isplitl [Hs4]; · iexact Hs4
  isplitl [HtL0]; · iexact HtL0
  isplitl [HtL4]; · iexact HtL4
  isplitl [HtA0]; · iexact HtA0
  isplitl [HtB4]; · iexact HtB4
  isplitl [Fg2]; · iexact Fg2
  isplitl [Fg6]; · iexact Fg6
  isplitl [Hs10]; · iexact Hs10
  isplitl [Hs14]; · iexact Hs14
  isplitl [HoA2]; · iexact HoA2
  isplitl [HoB2]; · iexact HoB2
  iintro ⟨⟨%W3, %hW3, HO⟩, yA0, yB0, Hs8, Hs12, Fg0n, Fg4n, Hs2, Hs6, HtL2, HtL6, HtA2, HtB6, Fw10, Fw14⟩
  -- row 3
  ihave Hmw := (show levAts (K (F := F)).L (K (F := F)).lev ⊢ Transfers.MayWaits (V d (cV L) (jV L)) (default : HIx 1) O from
    (K (F := F)).mayWaits_none (thr := (V d (cV L) (jV L))) hO) $$ Hlv
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  have h9 := cond9_true k hk30
  have hi3 := in3_true k
  sl_exec
  iapply (Transfers.wp_waitLocalO countersEmb 𝒱₀ (V d (cV L) (jV L)) none (default : HIx 1) (N := 409600) rfl) $$ [Fw9 HO]
  · isplitl [Fw9]; · iexact Fw9
    isplitl [HO]; · iexact HO
    iapply (Transfers.MayWaits.elim (SemLoc.dma _)); iexact Hmw
  iintro ⟨HD, Hs9, HO⟩
  unfold wDelA1
  icases HD with ⟨yA1, %gA', bA1⟩
  first | sl_exec | skip
  iapply (Transfers.wp_waitLocalO countersEmb 𝒱₀ (V d (cV L) (jV L)) none (default : HIx 1) (N := 409600) rfl) $$ [Fw13 HO]
  · isplitl [Fw13]; · iexact Fw13
    isplitl [HO]; · iexact HO
    iapply (Transfers.MayWaits.elim (SemLoc.dma _)); iexact Hmw
  iintro ⟨HD, Hs13, HO⟩
  unfold wDelB1
  icases HD with ⟨yB1, %gB', bB1⟩
  sl_exec
  have hoj : k0_off7 k = offR (4 * k.val + 3 + 2) := by rw [k0_off7_eq]; try rfl
  ihave Fg1n := (fold_gA1 (F := F) m d L hin (4 * k.val + 3 + 2) (by have h : k.val < 32 := Nat.lt_of_lt_of_eq k.isLt geom_trips_eq; omega) (k0_off7 k) (k0_off7_inb k h9) hoj _ _ rfl (by decide)) $$ [Hs1 bA1 HtL1 HtA1]
  · isplitl [Hs1]; · iexact Hs1
    isplitl [bA1]; · iexact bA1
    isplitl [HtL1]; · iexact HtL1
    iexact HtA1
  ihave Fg5n := (fold_gB1 (F := F) m d L hin (4 * k.val + 3 + 2) (by have h : k.val < 32 := Nat.lt_of_lt_of_eq k.isLt geom_trips_eq; omega) (k0_off7 k) (k0_off7_inb k h9) hoj _ _ rfl (by decide)) $$ [Hs5 bB1 HtL5 HtB5]
  · isplitl [Hs5]; · iexact Hs5
    isplitl [bB1]; · iexact bB1
    isplitl [HtL5]; · iexact HtL5
    iexact HtB5
  iapply (Transfers.wp_waitLocalO countersEmb 𝒱₀ (V d (cV L) (jV L)) none (default : HIx 1) (N := 409600) rfl) $$ [Fg3 HO]
  · isplitl [Fg3]; · iexact Fg3
    isplitl [HO]; · iexact HO
    iapply (Transfers.MayWaits.elim (SemLoc.dma _)); iexact Hmw
  iintro ⟨HD, Hs3, HO⟩
  unfold gDelA3
  icases HD with ⟨mr3, HtL3, HtA3⟩
  first | sl_exec | skip
  iapply (Transfers.wp_waitLocalO countersEmb 𝒱₀ (V d (cV L) (jV L)) none (default : HIx 1) (N := 409600) rfl) $$ [Fg7 HO]
  · isplitl [Fg7]; · iexact Fg7
    isplitl [HO]; · iexact HO
    iapply (Transfers.MayWaits.elim (SemLoc.dma _)); iexact Hmw
  iintro ⟨HD, Hs7, HO⟩
  unfold gDelB3
  icases HD with ⟨nr3, HtL7, HtB7⟩
  sl_exec
  ihave Fw11 := (foldc_wA3 (F := F) m d L hin k (m (oLoc d)) _ _ (read_whole_same (F := F) cc0_scratch6 _) (by decide)) $$ [Hs11 mr3]
  · isplitl [Hs11]; · iexact Hs11
    iexact mr3
  ihave Fw15 := (foldc_wB3 (F := F) m d L hin k (m (oLoc d)) _ _ (read_whole_same (F := F) cc0_scratch10 _) (by decide)) $$ [Hs15 nr3]
  · isplitl [Hs15]; · iexact Hs15
    iexact nr3
  rw [wp_ret]; imodintro
  have hk' : k.val + 1 < 32 := by omega
  rw [dif_pos hk', dif_neg (show ¬ k.val + 1 = 0 by omega)]
  isplitr; · ipureintro; omega
  isplitr; · iexact Hlv
  isplitl [HO]
  · iexists _
    isplitr
    rotate_left
    · iexact HO
    ipureintro
    exact waits_chain (waits_ins rfl (waits_ins rfl (waits_ins rfl (waits_ins rfl (fun p hp => Or.inl hp))))) (waits_chain hW3 (waits_chain hW2 (waits_chain hW1 hW')))
  isplitl [Fg0n]; · iexact Fg0n
  isplitl [Fg4n]; · iexact Fg4n
  isplitl [Fg1n]; · iexact Fg1n
  isplitl [Fg5n]; · iexact Fg5n
  isplitl [Fw10 Fw14 Fw11 Fw15]
  · isplitl [Fw10]; · iexact Fw10
    isplitl [Fw14]; · iexact Fw14
    isplitl [Fw11]; · iexact Fw11
    iexact Fw15
  isplitl [Hs2]; · iexact Hs2
  isplitl [Hs3]; · iexact Hs3
  isplitl [Hs6]; · iexact Hs6
  isplitl [Hs7]; · iexact Hs7
  isplitl [Hs8]; · iexact Hs8
  isplitl [Hs9]; · iexact Hs9
  isplitl [Hs12]; · iexact Hs12
  isplitl [Hs13]; · iexact Hs13
  isplitl [HtL2]; · iexact HtL2
  isplitl [HtL3]; · iexact HtL3
  isplitl [HtL6]; · iexact HtL6
  isplitl [HtL7]; · iexact HtL7
  isplitl [HtA2]; · iexact HtA2
  isplitl [HtA3]; · iexact HtA3
  isplitl [HtB6]; · iexact HtB6
  isplitl [HtB7]; · iexact HtB7
  isplitl [Hd01 yA0 yB0 yA1 yB1]
  · rw [done01_put, P01_def]
    isplitr [Hd01]
    · isplitl [yA0]; · iexact yA0
      isplitl [yB0]; · iexact yB0
      isplitl [yA1]; · iexact yA1
      iexact yB1
    · iexact Hd01
  isplitl [Hd23 xA2 xB2 xA3 xB3]
  · rw [done23_put k hk1 (by have := k.isLt; omega), P23_def]
    isplitr [Hd23]
    · isplitl [xA2]; · iexact xA2
      isplitl [xB2]; · iexact xB2
      isplitl [xA3]; · iexact xA3
      iexact xB3
    · iexact Hd23
  iexact Htodo

/-- One trip of the task's loop: the loop's region carries the invariant from `k` to `k + 1`. -/
theorem trip_step (hin : HIN m d L) (O : CellTallies nD τ sig (HIx 1)) (W₀ : Waits sig (HIx 1)) (hO : ∀ g, O g none = 0) (v2 : BitVec 32)
    (k : Fin k0_t1_loop.trips) (acc : Unit) :
    Inv m d L hin O W₀ k.val acc ⊢ wp frame (wpE (defs₀ (F := F)) 𝒱₀ (V d (cV L) (jV L)) none) Set.univ
      (k0_t1_body L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2 v2 k acc)
      (Inv m d L hin O W₀ (k.val + 1)) := by
  have hk : k.val < 32 := Nat.lt_of_lt_of_eq k.isLt geom_trips_eq
  by_cases h0 : k.val = 0
  · exact trip_first m d L hin O W₀ hO v2 k h0 acc
  by_cases h31 : k.val = 31
  · exact trip_last m d L hin O W₀ hO v2 k h31 acc
  exact trip_mid m d L hin O W₀ hO v2 k (by omega) (by omega) acc

end Cert.Proof.KB

end
-- ==== Proof.KB.TileLemmas.lean ====
/-
  What the three cases of a tile's task share: what crosses the barrier for a tile that fills nothing and what every
  tile collects there, the list buffer in the tile's own naming (to set a read token aside from the symbolic run), and
  the four gathers of rows 0 and 1 folded, each with what it left beside it, into what it delivers.
-/
import proofs.«203043_g45337674776592_cont_8to1_c_201_37_alg».proof.Proof.KB.BodyDefs
import proofs.«203043_g45337674776592_cont_8to1_c_201_37_alg».proof.Proof.KB.Tokens
import proofs.«203043_g45337674776592_cont_8to1_c_201_37_alg».proof.Proof.KB.FlightFrame
import proofs.«203043_g45337674776592_cont_8to1_c_201_37_alg».proof.Proof.KB.BodyValue
import proofs.«203043_g45337674776592_cont_8to1_c_201_37_alg».proof.Proof.KB.Epilogue
import proofs.«203043_g45337674776592_cont_8to1_c_201_37_alg».proof.Proof.KB.Fill
import proofs.«203043_g45337674776592_cont_8to1_c_201_37_alg».proof.Proof.KB.Trip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

/-- A tile other than 0 and 1 hands nothing over at the barrier. -/
theorem pays_none (hs0 : (L 1).val ≠ 0) (hs1 : (L 1).val ≠ 1) :
    (iprop(emp) : sProp 𝕄) ⊢ (bigSep Finset.univ fun j : Fin (grid0.bound 1) => (bRd (F := F) m).payload (bcell d (cV L) (j.castLE hsub0)) 0 (jV L).val : sProp 𝕄) := by
  rw [show (bigSep Finset.univ fun j : Fin (grid0.bound 1) => (bRd (F := F) m).payload (bcell d (cV L) (j.castLE hsub0)) 0 (jV L).val)
      = bigSep Finset.univ fun _ : Fin (grid0.bound 1) => (iprop(emp) : sProp 𝕄) from
      bigSep_congr fun j _ => by
        show bPay m (bcell d (cV L) (j.castLE hsub0)) (jV L).val = _
        unfold bPay; dsimp only
        rw [if_neg (show ¬ (jV L).val = 0 from hs0), if_neg (show ¬ (jV L).val = 1 from hs1)], bigSep_emp']

/-- After the barrier, what a tile's own round collected holds its shares of the two shared buffers. -/
theorem pays_elim : (bigSep ((bRd (F := F) m).duties (bcell d (cV L) (jV L)) 0 \ ∅) fun n => (bRd (F := F) m).payload (bcell d (cV L) (jV L)) 0 n)
    ⊢ (iprop((shALoc d (cV L) ↦{sq (jL L)} tblA m d (cV L)) ∗ (shBLoc d (cV L) ↦{sq (jL L)} tblB m d (cV L))) : sProp 𝕄) := by
  rw [Finset.sdiff_empty, bRd_duties₀]
  have h0 : (0 : ℕ) ∈ (Finset.univ : Finset (Fin τ.nSub)).image Fin.val := Finset.mem_image.mpr ⟨⟨0, by decide⟩, Finset.mem_univ _, rfl⟩
  have h1 : (1 : ℕ) ∈ ((Finset.univ : Finset (Fin τ.nSub)).image Fin.val).erase 0 :=
    Finset.mem_erase.mpr ⟨by decide, Finset.mem_image.mpr ⟨⟨1, by decide⟩, Finset.mem_univ _, rfl⟩⟩
  rw [SparseCore.bigSep_erase' h0, SparseCore.bigSep_erase' h1]
  iintro ⟨HA, HB, -⟩
  isplitl [HA]
  · iapply (show ((bRd (F := F) m).payload (bcell d (cV L) (jV L)) 0 0 : sProp 𝕄) ⊢ (shALoc d (cV L) ↦{sq (jL L)} tblA m d (cV L) : sProp 𝕄) from by
      show bPay m (bcell d (cV L) (jV L)) 0 ⊢ _
      unfold bPay; dsimp only; rw [if_pos rfl]; exact BI.Entails.refl _)
    iexact HA
  · iapply (show ((bRd (F := F) m).payload (bcell d (cV L) (jV L)) 0 1 : sProp 𝕄) ⊢ (shBLoc d (cV L) ↦{sq (jL L)} tblB m d (cV L) : sProp 𝕄) from by
      show bPay m (bcell d (cV L) (jV L)) 1 ⊢ _
      unfold bPay; dsimp only; rw [if_neg (by decide), if_pos rfl]; exact BI.Entails.refl _)
    iexact HB

/-- Binding a returned value is applying the continuation. -/
theorem prog_ret_bind {E : Type → Type} {α β : Type} (a : α) (k : α → Prog E β) : (Prog.ret a).bind k = k a := rfl

omit [FloatOps F] in
/-- The list buffer at any elements and share, in the tile's own naming of it (which the symbolic run does not read). -/
theorem sV_loc (S : Finset (Idx ((V d (cV L) (jV L)).loc cc0_scratch0))) (q : PosShare TreeShare) (f : Buf (Elt F) ((V d (cV L) (jV L)).loc cc0_scratch0)) :
    ((sV).view.loc (V d (cV L) (jV L)) ↦[S]{q} f : sProp 𝕄) = (V d (cV L) (jV L)).loc cc0_scratch0 ↦[S]{q} f := rfl

/-- The gather of a list row into row buffer A0, as the run leaves it (the flight's delivery and the three rests beside it), is the clean delivery. -/
theorem fold_A0 (hin : HIN m d L) (f : Buf (Elt F) ((V d (cV L) (jV L)).loc cc0_scratch3)) (j : ℕ) (hj : j < 128) (off : Fin 2 → ℕ)
    (hoff : ∀ a, off a + S1x100.size a ≤ S128x100.size a) (ho : off = offR j) :
    iprop(iprop((((rA0).view.loc (V d (cV L) (jV L)) ↦[(rA0).view.set]{fullShare} (rA0).view.writes (Elt F) f [⟨Rect.whole cc0_scratch3.ty.shape, gPayA m d L hin off hoff⟩])
          ∗ ((sV).view.loc (V d (cV L) (jV L)) ↦[(lRowK off hoff).view.set]{tokL 0} lst m d L))
        ∗ ((aV).view.loc (V d (cV L) (jV L)) ↦[(aSl).view.set]{tokT L 0} tblA m d (cV L)))
      ∗ iprop(((rA0).view.loc (V d (cV L) (jV L)) ↦[Finset.univ \ (rA0).view.set]{fullShare} (rA0).view.writes (Elt F) f [⟨Rect.whole cc0_scratch3.ty.shape, gPayA m d L hin off hoff⟩])
        ∗ ((sV).view.loc (V d (cV L) (jV L)) ↦[Finset.univ \ (lRowK off hoff).view.set]{tokL 0} lst m d L)
        ∗ ((aV).view.loc (V d (cV L) (jV L)) ↦[Finset.univ \ (aSl).view.set]{tokT L 0} tblA m d (cV L))))
      ⊢ gDelA0 m d L j hj hin := by
  subst ho
  unfold gDelA0
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch3 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption
/-- The gather of a list row into row buffer B0, as the run leaves it (the flight's delivery and the three rests beside it), is the clean delivery. -/
theorem fold_B0 (hin : HIN m d L) (f : Buf (Elt F) ((V d (cV L) (jV L)).loc cc0_scratch7)) (j : ℕ) (hj : j < 128) (off : Fin 2 → ℕ)
    (hoff : ∀ a, off a + S1x100.size a ≤ S128x100.size a) (ho : off = offR j) :
    iprop(iprop((((rB0).view.loc (V d (cV L) (jV L)) ↦[(rB0).view.set]{fullShare} (rB0).view.writes (Elt F) f [⟨Rect.whole cc0_scratch7.ty.shape, gPayB m d L hin off hoff⟩])
          ∗ ((sV).view.loc (V d (cV L) (jV L)) ↦[(lRowK off hoff).view.set]{tokL 4} lst m d L))
        ∗ ((bV).view.loc (V d (cV L) (jV L)) ↦[(bSl).view.set]{tokT L 4} tblB m d (cV L)))
      ∗ iprop(((rB0).view.loc (V d (cV L) (jV L)) ↦[Finset.univ \ (rB0).view.set]{fullShare} (rB0).view.writes (Elt F) f [⟨Rect.whole cc0_scratch7.ty.shape, gPayB m d L hin off hoff⟩])
        ∗ ((sV).view.loc (V d (cV L) (jV L)) ↦[Finset.univ \ (lRowK off hoff).view.set]{tokL 4} lst m d L)
        ∗ ((bV).view.loc (V d (cV L) (jV L)) ↦[Finset.univ \ (bSl).view.set]{tokT L 4} tblB m d (cV L))))
      ⊢ gDelB0 m d L j hj hin := by
  subst ho
  unfold gDelB0
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch7 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption
/-- The gather of a list row into row buffer A1, as the run leaves it (the flight's delivery and the three rests beside it), is the clean delivery. -/
theorem fold_A1 (hin : HIN m d L) (f : Buf (Elt F) ((V d (cV L) (jV L)).loc cc0_scratch4)) (j : ℕ) (hj : j < 128) (off : Fin 2 → ℕ)
    (hoff : ∀ a, off a + S1x100.size a ≤ S128x100.size a) (ho : off = offR j) :
    iprop(iprop((((rA1).view.loc (V d (cV L) (jV L)) ↦[(rA1).view.set]{fullShare} (rA1).view.writes (Elt F) f [⟨Rect.whole cc0_scratch4.ty.shape, gPayA m d L hin off hoff⟩])
          ∗ ((sV).view.loc (V d (cV L) (jV L)) ↦[(lRowK off hoff).view.set]{tokL 1} lst m d L))
        ∗ ((aV).view.loc (V d (cV L) (jV L)) ↦[(aSl).view.set]{tokT L 1} tblA m d (cV L)))
      ∗ iprop(((rA1).view.loc (V d (cV L) (jV L)) ↦[Finset.univ \ (rA1).view.set]{fullShare} (rA1).view.writes (Elt F) f [⟨Rect.whole cc0_scratch4.ty.shape, gPayA m d L hin off hoff⟩])
        ∗ ((sV).view.loc (V d (cV L) (jV L)) ↦[Finset.univ \ (lRowK off hoff).view.set]{tokL 1} lst m d L)
        ∗ ((aV).view.loc (V d (cV L) (jV L)) ↦[Finset.univ \ (aSl).view.set]{tokT L 1} tblA m d (cV L))))
      ⊢ gDelA1 m d L j hj hin := by
  subst ho
  unfold gDelA1
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch4 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption
/-- The gather of a list row into row buffer B1, as the run leaves it (the flight's delivery and the three rests beside it), is the clean delivery. -/
theorem fold_B1 (hin : HIN m d L) (f : Buf (Elt F) ((V d (cV L) (jV L)).loc cc0_scratch8)) (j : ℕ) (hj : j < 128) (off : Fin 2 → ℕ)
    (hoff : ∀ a, off a + S1x100.size a ≤ S128x100.size a) (ho : off = offR j) :
    iprop(iprop((((rB1).view.loc (V d (cV L) (jV L)) ↦[(rB1).view.set]{fullShare} (rB1).view.writes (Elt F) f [⟨Rect.whole cc0_scratch8.ty.shape, gPayB m d L hin off hoff⟩])
          ∗ ((sV).view.loc (V d (cV L) (jV L)) ↦[(lRowK off hoff).view.set]{tokL 5} lst m d L))
        ∗ ((bV).view.loc (V d (cV L) (jV L)) ↦[(bSl).view.set]{tokT L 5} tblB m d (cV L)))
      ∗ iprop(((rB1).view.loc (V d (cV L) (jV L)) ↦[Finset.univ \ (rB1).view.set]{fullShare} (rB1).view.writes (Elt F) f [⟨Rect.whole cc0_scratch8.ty.shape, gPayB m d L hin off hoff⟩])
        ∗ ((sV).view.loc (V d (cV L) (jV L)) ↦[Finset.univ \ (lRowK off hoff).view.set]{tokL 5} lst m d L)
        ∗ ((bV).view.loc (V d (cV L) (jV L)) ↦[Finset.univ \ (bSl).view.set]{tokT L 5} tblB m d (cV L))))
      ⊢ gDelB1 m d L j hj hin := by
  subst ho
  unfold gDelB1
  iintro ⟨⟨⟨Hd, Hl⟩, Hs⟩, Hdr, Hlr, Hsr⟩
  isplitl [Hd Hdr]
  · ihave Hj := (pointsTo_split_subset (Finset.subset_univ _)).2 $$ [Hd Hdr]
    · isplitl [Hd] <;> iassumption
    iapply (Entails.of_eq (pts_writes_whole (F := F) d cc0_scratch8 (cV L) (jV L) fullShare f _))
    iexact Hj
  isplitl [Hl Hlr]
  · iapply (pointsTo_split_subset (Finset.subset_univ _)).2
    isplitl [Hl] <;> iassumption
  · iapply (pointsTo_split_subset (Finset.subset_univ _)).2
    isplitl [Hs] <;> iassumption

end Cert.Proof.KB

end
-- ==== Proof.KB.TileOther.lean ====
/-
  The task of a subcore that fills nothing (subcore ≥ 2): the fetch of its block of row numbers; the barrier, where it
  collects its shares of the two shared buffers; the read tokens; the gathers of rows 0 and 1; the loop by its
  invariant; the eight final waits; and everything handed back — the half-rows at `outF`, the shares rejoined, the
  tile's own buffers and cells as it found them.
-/
import proofs.«203043_g45337674776592_cont_8to1_c_201_37_alg».proof.Proof.KB.TileLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

set_option maxHeartbeats 16000000 in
/-- The task of a subcore that fills nothing (s ≥ 2). -/
theorem tile_other (hF : (K (F := F)).Facts) (hpre : PreOK m) (hs0 : (L 1).val ≠ 0) (hs1 : (L 1).val ≠ 1)
    (O : CellTallies nD τ sig (HIx 1)) (W : Waits sig (HIx 1)) (hO : ∀ g, O g none = 0)
    (hOlev : ∀ g ι, 0 < O g ι → 8 * (0 : Fin 1).val + 6 ≤ (K (F := F)).lev g ι) (w : Fin 32) :
    iprop(levAts (K (F := F)).L (K (F := F)).lev ∗ bkit m d (cV L) (jV L)
        ∗ ((iLoc d ↦{wq w} idx3 m d) ∗ oPieces d L (m (oLoc d)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          fun _ => iprop(((iLoc d ↦{wq w} idx3 m d) ∗ oPieces d L (outF m d)
              ∗ (shALoc d (cV L) ↦{sq (jL L)} tblA m d (cV L)) ∗ (shBLoc d (cV L) ↦{sq (jL L)} tblB m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hin : HIN m d L := hin_of_pre m d L hpre
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Hop⟩, ⟨⟨%fsV, Hs⟩, ⟨%frA0, Hra0⟩, ⟨%frA1, Hra1⟩, ⟨%frA2, Hra2⟩, ⟨%frA3, Hra3⟩, ⟨%frB0, Hrb0⟩, ⟨%frB1, Hrb1⟩, ⟨%frB2, Hrb2⟩, ⟨%frB3, Hrb3⟩, Hbufs⟩, ⟨Hc0, Hc1, Hc2, Hc3, Hc4, Hc5, Hc6, Hc7, Hc8, Hc9, Hc10, Hc11, Hc12, Hc13, Hc14, Hc15, Hc16, Hc17, Hc18, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hs' := (Entails.of_eq (pts_sV (F := F) d L _ _).symm) $$ Hs
  ihave Hra0' := (Entails.of_eq (pts_rA0 (F := F) d L _ _).symm) $$ Hra0
  ihave Hra1' := (Entails.of_eq (pts_rA1 (F := F) d L _ _).symm) $$ Hra1
  ihave Hra2' := (Entails.of_eq (pts_rA2 (F := F) d L _ _).symm) $$ Hra2
  ihave Hra3' := (Entails.of_eq (pts_rA3 (F := F) d L _ _).symm) $$ Hra3
  ihave Hrb0' := (Entails.of_eq (pts_rB0 (F := F) d L _ _).symm) $$ Hrb0
  ihave Hrb1' := (Entails.of_eq (pts_rB1 (F := F) d L _ _).symm) $$ Hrb1
  ihave Hrb2' := (Entails.of_eq (pts_rB2 (F := F) d L _ _).symm) $$ Hrb2
  ihave Hrb3' := (Entails.of_eq (pts_rB3 (F := F) d L _ _).symm) $$ Hrb3
  have hc0 := cond0_false (L 1) hs0
  have hc1 := cond1_false (L 1) hs1
  sl_exec
  ihave Hpays := (pays_none (F := F) m d L hs0 hs1) $$ []
  · iempintro
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hab := (pays_elim (F := F) m d L) $$ Hgot
  icases Hab with ⟨HtA, HtB⟩
  ihave HtA' := (Entails.of_eq (pts_aV (F := F) d L _ _).symm) $$ HtA
  ihave HtB' := (Entails.of_eq (pts_bV (F := F) d L _ _).symm) $$ HtB
  -- the list buffer at the fetched block, whatever it held
  ihave Hl := (Entails.of_eq (show ((sV).view.loc (V d (cV L) (jV L)) ↦{fullShare} View.write (Elt F) (sV).view fsV (tile_other.sl.dma0 m d L) Finset.univ : sProp 𝕄)
      = ((sV).view.loc (V d (cV L) (jV L)) ↦{fullShare} lst m d L) from by rw [View.write_whole_univ]; rfl)) $$ Hs'
  -- read tokens: eight of the list buffer, eight of each shared buffer (cells 0 … 3 read tbl_a, 4 … 7 tbl_b)
  ihave Hl8 := (toks8_split (F := F) (ℓ := (sV).view.loc (V d (cV L) (jV L))) fullShare (lst m d L)) $$ Hl
  icases Hl8 with ⟨HLr, HL0, HL1, HL2, HL3, HL4, HL5, HL6, HL7⟩
  ihave HA8 := (toks8_split (F := F) (ℓ := (aV).view.loc (V d (cV L) (jV L))) (sq (jL L)) (tblA m d (cV L))) $$ HtA'
  icases HA8 with ⟨HAr, HA0, HA1, HA2, HA3, HA4, HA5, HA6, HA7⟩
  ihave HB8 := (toks8_split (F := F) (ℓ := (bV).view.loc (V d (cV L) (jV L))) (sq (jL L)) (tblB m d (cV L))) $$ HtB'
  icases HB8 with ⟨HBr, HB0, HB1, HB2, HB3, HB4, HB5, HB6, HB7⟩
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  -- rows 0 and 1: each row's two gathers read the list through the two tokens of their cells; the others are set aside
  ihave HLrh := (Entails.of_eq (sV_loc (F := F) d L _ _ _)) $$ HLr
  ihave HL1h := (Entails.of_eq (sV_loc (F := F) d L _ _ _)) $$ HL1
  ihave HL2h := (Entails.of_eq (sV_loc (F := F) d L _ _ _)) $$ HL2
  ihave HL3h := (Entails.of_eq (sV_loc (F := F) d L _ _ _)) $$ HL3
  ihave HL5h := (Entails.of_eq (sV_loc (F := F) d L _ _ _)) $$ HL5
  ihave HL6h := (Entails.of_eq (sV_loc (F := F) d L _ _ _)) $$ HL6
  ihave HL7h := (Entails.of_eq (sV_loc (F := F) d L _ _ _)) $$ HL7
  set_option sl_exec.maxSteps 2 in sl_exec
  -- row 1: tokens 1 and 5; what is left of tokens 0 and 4 is set aside
  ihave HL0h := (Entails.of_eq (sV_loc (F := F) d L _ _ _)) $$ HL0
  ihave HL4h := (Entails.of_eq (sV_loc (F := F) d L _ _ _)) $$ HL4
  ihave HL1 := (Entails.of_eq (sV_loc (F := F) d L _ _ _).symm) $$ HL1h
  ihave HL5 := (Entails.of_eq (sV_loc (F := F) d L _ _ _).symm) $$ HL5h
  sl_exec
  -- everything back in sight
  ihave HL0 := (Entails.of_eq (sV_loc (F := F) d L _ _ _).symm) $$ HL0h
  ihave HL4 := (Entails.of_eq (sV_loc (F := F) d L _ _ _).symm) $$ HL4h
  ihave HL2 := (Entails.of_eq (sV_loc (F := F) d L _ _ _).symm) $$ HL2h
  ihave HL3 := (Entails.of_eq (sV_loc (F := F) d L _ _ _).symm) $$ HL3h
  ihave HL6 := (Entails.of_eq (sV_loc (F := F) d L _ _ _).symm) $$ HL6h
  ihave HL7 := (Entails.of_eq (sV_loc (F := F) d L _ _ _).symm) $$ HL7h
  ihave HLr := (Entails.of_eq (sV_loc (F := F) d L _ _ _).symm) $$ HLrh
  -- the four gathers in flight, each folded with what it left beside it
  ihave Hf0 := (Flight_frame (F := F) (fold_A0 m d L hin frA0 (4 * 0) (by omega) ![0, 0] inb_S128x100_S1x100_0_0 rfl)) $$ [Hc0 Hra0' HL0 HA0]
  · isplitl [Hc0]; · iexact Hc0
    isplitl [Hra0']; · iexact Hra0'
    isplitl [HL0] <;> iassumption
  ihave Hf4 := (Flight_frame (F := F) (fold_B0 m d L hin frB0 (4 * 0) (by omega) ![0, 0] inb_S128x100_S1x100_0_0 rfl)) $$ [Hc4 Hrb0' HL4 HB4]
  · isplitl [Hc4]; · iexact Hc4
    isplitl [Hrb0']; · iexact Hrb0'
    isplitl [HL4] <;> iassumption
  ihave Hf1 := (Flight_frame (F := F) (fold_A1 m d L hin frA1 (4 * 0 + 1) (by omega) ![1, 0] inb_S128x100_S1x100_1_0 rfl)) $$ [Hc1 Hra1' HL1 HA1]
  · isplitl [Hc1]; · iexact Hc1
    isplitl [Hra1']; · iexact Hra1'
    isplitl [HL1] <;> iassumption
  ihave Hf5 := (Flight_frame (F := F) (fold_B1 m d L hin frB1 (4 * 0 + 1) (by omega) ![1, 0] inb_S128x100_S1x100_1_0 rfl)) $$ [Hc5 Hrb1' HL5 HB5]
  · isplitl [Hc5]; · iexact Hc5
    isplitl [Hrb1']; · iexact Hrb1'
    isplitl [HL5] <;> iassumption
  sl_for (Inv m d L hin O W) $$ [HO Hf0 Hf4 Hf1 Hf5 Hra2' Hrb2' Hra3' Hrb3' Hc10 Hc14 Hc11 Hc15 Hc2 Hc3 Hc6 Hc7 Hc8 Hc9 Hc12 Hc13 HL2 HL3 HL6 HL7 HA2 HA3 HB6 HB7 Hop]
  · intro k acc
    exact trip_step m d L hin O W hO _ k acc
  · -- before the first trip
    unfold Inv
    isplitr; · ipureintro; omega
    isplitr; · iexact Hlv
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      exact .inl hp
    rw [dif_pos (by decide : (0 : ℕ) < 32)]
    unfold invMid slots23
    rw [dif_pos rfl]
    rw [show (Finset.univ.filter fun t : Fin k0_t1_loop.trips => t.val < 0) = ∅ from Finset.filter_false_of_mem (fun t _ => Nat.not_lt_zero _),
      show (Finset.univ.filter fun t : Fin k0_t1_loop.trips => t.val + 1 < 0) = ∅ from Finset.filter_false_of_mem (fun t _ => Nat.not_lt_zero _),
      bigSep_empty, bigSep_empty]
    isplitl [Hf0]; · iexact Hf0
    isplitl [Hf4]; · iexact Hf4
    isplitl [Hf1]; · iexact Hf1
    isplitl [Hf5]; · iexact Hf5
    isplitl [Hra2' Hrb2' Hra3' Hrb3' Hc10 Hc14 Hc11 Hc15]
    · isplitl [Hra2']; · iexists _; iexact Hra2'
      isplitl [Hrb2']; · iexists _; iexact Hrb2'
      isplitl [Hra3']; · iexists _; iexact Hra3'
      isplitl [Hrb3']; · iexists _; iexact Hrb3'
      isplitl [Hc10]; · iexact Hc10
      isplitl [Hc14]; · iexact Hc14
      isplitl [Hc11]; · iexact Hc11
      iexact Hc15
    isplitl [Hc2]; · iexact Hc2
    isplitl [Hc3]; · iexact Hc3
    isplitl [Hc6]; · iexact Hc6
    isplitl [Hc7]; · iexact Hc7
    isplitl [Hc8]; · iexact Hc8
    isplitl [Hc9]; · iexact Hc9
    isplitl [Hc12]; · iexact Hc12
    isplitl [Hc13]; · iexact Hc13
    isplitl [HL2]; · iexact HL2
    isplitl [HL3]; · iexact HL3
    isplitl [HL6]; · iexact HL6
    isplitl [HL7]; · iexact HL7
    isplitl [HA2]; · iexact HA2
    isplitl [HA3]; · iexact HA3
    isplitl [HB6]; · iexact HB6
    isplitl [HB7]; · iexact HB7
    isplitr; · iempintro
    isplitr; · iempintro
    iapply (trips_of_pieces (F := F) d L (m (oLoc d)))
    iexact Hop
  -- after the last trip: the eight writes of rows 124 … 127 are waited for
  iintro %acc HI
  ihave HE := (show Inv m d L hin O W (Scf.trips k0_t1_loop.lb k0_t1_loop.ub k0_t1_loop.st) acc ⊢
      iprop((∃ W', ⌜∀ p ∈ W', p ∈ W ∨ p.2 = none ∨ p.2 = some (0 : Fin 1)⌝ ∗ owes (V d (cV L) (jV L)) O W') ∗ invEnd m d L (by rw [geom_trips_eq]; decide)) from by
    rw [show Scf.trips k0_t1_loop.lb k0_t1_loop.ub k0_t1_loop.st = 32 from geom_trips_eq]
    unfold Inv
    rw [dif_neg (by decide : ¬ (32 : ℕ) < 32)]
    iintro ⟨-, -, HO, HE⟩
    isplitl [HO] <;> iassumption) $$ HI
  unfold invEnd
  icases HE with ⟨⟨%W', %hW', HO⟩, HF8, HF12, HF9, HF13, HF10, HF14, HF11, HF15, Hg0, Hg1, Hg2, Hg3, Hg4, Hg5, Hg6, Hg7, HT0, HT1, HT2, HT3, HT4, HT5, HT6, HT7, HTA0, HTA1, HTA2, HTA3, HTB4, HTB5, HTB6, HTB7, Hdone⟩
  ihave Hmw8 := (Transfers.MayWaits.elim (SemLoc.dma (⟨8, by decide⟩ : DmaSem sig))) $$ Hmw2
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  try rw [prog_ret_bind]
  first | sl_exec | skip
  ihave Hmw12 := (Transfers.MayWaits.elim (SemLoc.dma (⟨12, by decide⟩ : DmaSem sig))) $$ Hmw2
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  try rw [prog_ret_bind]
  first | sl_exec | skip
  ihave Hmw9 := (Transfers.MayWaits.elim (SemLoc.dma (⟨9, by decide⟩ : DmaSem sig))) $$ Hmw2
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  try rw [prog_ret_bind]
  first | sl_exec | skip
  ihave Hmw13 := (Transfers.MayWaits.elim (SemLoc.dma (⟨13, by decide⟩ : DmaSem sig))) $$ Hmw2
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  try rw [prog_ret_bind]
  first | sl_exec | skip
  ihave Hmw10 := (Transfers.MayWaits.elim (SemLoc.dma (⟨10, by decide⟩ : DmaSem sig))) $$ Hmw2
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  try rw [prog_ret_bind]
  first | sl_exec | skip
  ihave Hmw14 := (Transfers.MayWaits.elim (SemLoc.dma (⟨14, by decide⟩ : DmaSem sig))) $$ Hmw2
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  try rw [prog_ret_bind]
  first | sl_exec | skip
  ihave Hmw11 := (Transfers.MayWaits.elim (SemLoc.dma (⟨11, by decide⟩ : DmaSem sig))) $$ Hmw2
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  try rw [prog_ret_bind]
  first | sl_exec | skip
  ihave Hmw15 := (Transfers.MayWaits.elim (SemLoc.dma (⟨15, by decide⟩ : DmaSem sig))) $$ Hmw2
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  try rw [prog_ret_bind]
  first | sl_exec | skip
  rw [wp_ret]; imodintro
  -- every half-row done; the row buffers back
  ihave Hp := (pieces_of_dels (F := F) m d L (by rw [geom_trips_eq]; decide)) $$ [HD8 HD12 HD9 HD13 HD10 HD14 HD11 HD15 Hdone]
  · isplitl [HD8]; · iexact HD8
    isplitl [HD12]; · iexact HD12
    isplitl [HD9]; · iexact HD9
    isplitl [HD13]; · iexact HD13
    isplitl [HD10]; · iexact HD10
    isplitl [HD14]; · iexact HD14
    isplitl [HD11]; · iexact HD11
    isplitl [HD15]; · iexact HD15
    iexact Hdone
  icases Hp with ⟨Hpieces, HbA0, HbB0, HbA1, HbB1, HbA2, HbB2, HbA3, HbB3⟩
  -- the read tokens rejoined
  ihave HsV := (lst_toks_join (F := F) m d L) $$ [HLr HT0 HT1 HT2 HT3 HT4 HT5 HT6 HT7]
  · isplitl [HLr]; · iexact HLr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HaV := (tblA_toks_join (F := F) m d L) $$ [HAr HTA0 HTA1 HTA2 HTA3 HA4 HA5 HA6 HA7]
  · isplitl [HAr]; · iexact HAr
    isplitl [HTA0]; · iexact HTA0
    isplitl [HTA1]; · iexact HTA1
    isplitl [HTA2]; · iexact HTA2
    isplitl [HTA3]; · iexact HTA3
    isplitl [HA4]; · iexact HA4
    isplitl [HA5]; · iexact HA5
    isplitl [HA6]; · iexact HA6
    iexact HA7
  ihave HbV := (tblB_toks_join (F := F) m d L) $$ [HBr HB0 HB1 HB2 HB3 HTB4 HTB5 HTB6 HTB7]
  · isplitl [HBr]; · iexact HBr
    isplitl [HB0]; · iexact HB0
    isplitl [HB1]; · iexact HB1
    isplitl [HB2]; · iexact HB2
    isplitl [HB3]; · iexact HB3
    isplitl [HTB4]; · iexact HTB4
    isplitl [HTB5]; · iexact HTB5
    isplitl [HTB6]; · iexact HTB6
    iexact HTB7
  isplitl [Hi' Hpieces HaV HbV]
  · isplitl [Hi']; · iapply (Entails.of_eq (pts_iV (F := F) d L _ _)); iexact Hi'
    isplitl [Hpieces]; · iexact Hpieces
    isplitl [HaV]; · iapply (Entails.of_eq (pts_aV (F := F) d L _ _)); iexact HaV
    iapply (Entails.of_eq (pts_bV (F := F) d L _ _)); iexact HbV
  isplitl [HsV HbA0 HbA1 HbA2 HbA3 HbB0 HbB1 HbB2 HbB3 Hbufs]
  · isplitl [HsV]; · iexists _; iapply (Entails.of_eq (pts_sV (F := F) d L _ _)); iexact HsV
    isplitl [HbA0]; · iexact HbA0
    isplitl [HbA1]; · iexact HbA1
    isplitl [HbA2]; · iexact HbA2
    isplitl [HbA3]; · iexact HbA3
    isplitl [HbB0]; · iexact HbB0
    isplitl [HbB1]; · iexact HbB1
    isplitl [HbB2]; · iexact HbB2
    isplitl [HbB3]; · iexact HbB3
    iexact Hbufs
  isplitl [Hg0 Hg1 Hg2 Hg3 Hg4 Hg5 Hg6 Hg7 Hv8 Hv9 Hv10 Hv11 Hv12 Hv13 Hv14 Hv15 Hc16 Hc17 Hc18 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hc16]; · iexact Hc16
    isplitl [Hc17]; · iexact Hc17
    isplitl [Hc18]; · iexact Hc18
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

end Cert.Proof.KB

end
-- ==== Proof.KB.TileZero.lean ====
/-
  The task of subcore 0, which fills the shared buffer of the padded table's left half: its copy of that half over the
  shared buffer, through a read share of the table; the fetch of its block of row numbers; the barrier, where it hands
  the shared buffer over in sixteen shares and collects its own shares of the two shared buffers; the read tokens; the
  gathers of rows 0 and 1; the loop by its invariant; the eight final waits; and everything handed back — the half-rows
  at `outF`, the table's share, the shares rejoined, the tile's own buffers and cells as it found them.
-/
import proofs.«203043_g45337674776592_cont_8to1_c_201_37_alg».proof.Proof.KB.TileLemmas
import proofs.«203043_g45337674776592_cont_8to1_c_201_37_alg».proof.Proof.KB.Fill

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

set_option maxHeartbeats 16000000 in
/-- The task of subcore 0, which fills the left half's shared buffer. -/
theorem tile_zero (hF : (K (F := F)).Facts) (hpre : PreOK m) (hs : (L 1).val = 0)
    (O : CellTallies nD τ sig (HIx 1)) (W : Waits sig (HIx 1)) (hO : ∀ g, O g none = 0)
    (hOlev : ∀ g ι, 0 < O g ι → 8 * (0 : Fin 1).val + 6 ≤ (K (F := F)).lev g ι) (w : Fin 32) :
    iprop(levAts (K (F := F)).L (K (F := F)).lev ∗ bkit m d (cV L) (jV L)
        ∗ ((iLoc d ↦{wq w} idx3 m d) ∗ oPieces d L (m (oLoc d)) ∗ ((tLoc d ↦{wq w} tblW m d) ∗ ∃ f, shALoc d (cV L) ↦{fullShare} f))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          fun _ => iprop(((iLoc d ↦{wq w} idx3 m d) ∗ oPieces d L (outF m d) ∗ (tLoc d ↦{wq w} tblW m d)
              ∗ (shALoc d (cV L) ↦{sq (jL L)} tblA m d (cV L)) ∗ (shBLoc d (cV L) ↦{sq (jL L)} tblB m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hin : HIN m d L := hin_of_pre m d L hpre
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Hop, Ht, ⟨%fa, Ha⟩⟩, ⟨⟨%fsV, Hs⟩, ⟨%frA0, Hra0⟩, ⟨%frA1, Hra1⟩, ⟨%frA2, Hra2⟩, ⟨%frA3, Hra3⟩, ⟨%frB0, Hrb0⟩, ⟨%frB1, Hrb1⟩, ⟨%frB2, Hrb2⟩, ⟨%frB3, Hrb3⟩, Hbufs⟩, ⟨Hc0, Hc1, Hc2, Hc3, Hc4, Hc5, Hc6, Hc7, Hc8, Hc9, Hc10, Hc11, Hc12, Hc13, Hc14, Hc15, Hc16, Hc17, Hc18, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Ha' := (Entails.of_eq (pts_aV (F := F) d L _ _).symm) $$ Ha
  ihave Hs' := (Entails.of_eq (pts_sV (F := F) d L _ _).symm) $$ Hs
  ihave Hra0' := (Entails.of_eq (pts_rA0 (F := F) d L _ _).symm) $$ Hra0
  ihave Hra1' := (Entails.of_eq (pts_rA1 (F := F) d L _ _).symm) $$ Hra1
  ihave Hra2' := (Entails.of_eq (pts_rA2 (F := F) d L _ _).symm) $$ Hra2
  ihave Hra3' := (Entails.of_eq (pts_rA3 (F := F) d L _ _).symm) $$ Hra3
  ihave Hrb0' := (Entails.of_eq (pts_rB0 (F := F) d L _ _).symm) $$ Hrb0
  ihave Hrb1' := (Entails.of_eq (pts_rB1 (F := F) d L _ _).symm) $$ Hrb1
  ihave Hrb2' := (Entails.of_eq (pts_rB2 (F := F) d L _ _).symm) $$ Hrb2
  ihave Hrb3' := (Entails.of_eq (pts_rB3 (F := F) d L _ _).symm) $$ Hrb3
  have hc0 := cond0_true (L 1) hs
  have hc1 := cond1_false (L 1) (by omega)
  sl_exec
  ihave Hpays := (pays_fillA_run (F := F) m d L hs fa (tile_zero.sl.dma0 m d) rfl) $$ Ha'
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hab := (pays_elim (F := F) m d L) $$ Hgot
  icases Hab with ⟨HtA, HtB⟩
  ihave HtA' := (Entails.of_eq (pts_aV (F := F) d L _ _).symm) $$ HtA
  ihave HtB' := (Entails.of_eq (pts_bV (F := F) d L _ _).symm) $$ HtB
  -- the list buffer at the fetched block, whatever it held
  ihave Hl := (Entails.of_eq (show ((sV).view.loc (V d (cV L) (jV L)) ↦{fullShare} View.write (Elt F) (sV).view fsV (tile_zero.sl.dma0_1 m d L) Finset.univ : sProp 𝕄)
      = ((sV).view.loc (V d (cV L) (jV L)) ↦{fullShare} lst m d L) from by rw [View.write_whole_univ]; rfl)) $$ Hs'
  -- read tokens: eight of the list buffer, eight of each shared buffer (cells 0 … 3 read tbl_a, 4 … 7 tbl_b)
  ihave Hl8 := (toks8_split (F := F) (ℓ := (sV).view.loc (V d (cV L) (jV L))) fullShare (lst m d L)) $$ Hl
  icases Hl8 with ⟨HLr, HL0, HL1, HL2, HL3, HL4, HL5, HL6, HL7⟩
  ihave HA8 := (toks8_split (F := F) (ℓ := (aV).view.loc (V d (cV L) (jV L))) (sq (jL L)) (tblA m d (cV L))) $$ HtA'
  icases HA8 with ⟨HAr, HA0, HA1, HA2, HA3, HA4, HA5, HA6, HA7⟩
  ihave HB8 := (toks8_split (F := F) (ℓ := (bV).view.loc (V d (cV L) (jV L))) (sq (jL L)) (tblB m d (cV L))) $$ HtB'
  icases HB8 with ⟨HBr, HB0, HB1, HB2, HB3, HB4, HB5, HB6, HB7⟩
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  -- rows 0 and 1: each row's two gathers read the list through the two tokens of their cells; the others are set aside
  ihave HLrh := (Entails.of_eq (sV_loc (F := F) d L _ _ _)) $$ HLr
  ihave HL1h := (Entails.of_eq (sV_loc (F := F) d L _ _ _)) $$ HL1
  ihave HL2h := (Entails.of_eq (sV_loc (F := F) d L _ _ _)) $$ HL2
  ihave HL3h := (Entails.of_eq (sV_loc (F := F) d L _ _ _)) $$ HL3
  ihave HL5h := (Entails.of_eq (sV_loc (F := F) d L _ _ _)) $$ HL5
  ihave HL6h := (Entails.of_eq (sV_loc (F := F) d L _ _ _)) $$ HL6
  ihave HL7h := (Entails.of_eq (sV_loc (F := F) d L _ _ _)) $$ HL7
  set_option sl_exec.maxSteps 2 in sl_exec
  -- row 1: tokens 1 and 5; what is left of tokens 0 and 4 is set aside
  ihave HL0h := (Entails.of_eq (sV_loc (F := F) d L _ _ _)) $$ HL0
  ihave HL4h := (Entails.of_eq (sV_loc (F := F) d L _ _ _)) $$ HL4
  ihave HL1 := (Entails.of_eq (sV_loc (F := F) d L _ _ _).symm) $$ HL1h
  ihave HL5 := (Entails.of_eq (sV_loc (F := F) d L _ _ _).symm) $$ HL5h
  sl_exec
  -- everything back in sight
  ihave HL0 := (Entails.of_eq (sV_loc (F := F) d L _ _ _).symm) $$ HL0h
  ihave HL4 := (Entails.of_eq (sV_loc (F := F) d L _ _ _).symm) $$ HL4h
  ihave HL2 := (Entails.of_eq (sV_loc (F := F) d L _ _ _).symm) $$ HL2h
  ihave HL3 := (Entails.of_eq (sV_loc (F := F) d L _ _ _).symm) $$ HL3h
  ihave HL6 := (Entails.of_eq (sV_loc (F := F) d L _ _ _).symm) $$ HL6h
  ihave HL7 := (Entails.of_eq (sV_loc (F := F) d L _ _ _).symm) $$ HL7h
  ihave HLr := (Entails.of_eq (sV_loc (F := F) d L _ _ _).symm) $$ HLrh
  -- the four gathers in flight, each folded with what it left beside it
  ihave Hf0 := (Flight_frame (F := F) (fold_A0 m d L hin frA0 (4 * 0) (by omega) ![0, 0] inb_S128x100_S1x100_0_0 rfl)) $$ [Hc0 Hra0' HL0 HA0]
  · isplitl [Hc0]; · iexact Hc0
    isplitl [Hra0']; · iexact Hra0'
    isplitl [HL0] <;> iassumption
  ihave Hf4 := (Flight_frame (F := F) (fold_B0 m d L hin frB0 (4 * 0) (by omega) ![0, 0] inb_S128x100_S1x100_0_0 rfl)) $$ [Hc4 Hrb0' HL4 HB4]
  · isplitl [Hc4]; · iexact Hc4
    isplitl [Hrb0']; · iexact Hrb0'
    isplitl [HL4] <;> iassumption
  ihave Hf1 := (Flight_frame (F := F) (fold_A1 m d L hin frA1 (4 * 0 + 1) (by omega) ![1, 0] inb_S128x100_S1x100_1_0 rfl)) $$ [Hc1 Hra1' HL1 HA1]
  · isplitl [Hc1]; · iexact Hc1
    isplitl [Hra1']; · iexact Hra1'
    isplitl [HL1] <;> iassumption
  ihave Hf5 := (Flight_frame (F := F) (fold_B1 m d L hin frB1 (4 * 0 + 1) (by omega) ![1, 0] inb_S128x100_S1x100_1_0 rfl)) $$ [Hc5 Hrb1' HL5 HB5]
  · isplitl [Hc5]; · iexact Hc5
    isplitl [Hrb1']; · iexact Hrb1'
    isplitl [HL5] <;> iassumption
  sl_for (Inv m d L hin O W) $$ [HO Hf0 Hf4 Hf1 Hf5 Hra2' Hrb2' Hra3' Hrb3' Hc10 Hc14 Hc11 Hc15 Hc2 Hc3 Hc6 Hc7 Hc8 Hc9 Hc12 Hc13 HL2 HL3 HL6 HL7 HA2 HA3 HB6 HB7 Hop]
  · intro k acc
    exact trip_step m d L hin O W hO _ k acc
  · -- before the first trip
    unfold Inv
    isplitr; · ipureintro; omega
    isplitr; · iexact Hlv
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      exact .inl hp
    rw [dif_pos (by decide : (0 : ℕ) < 32)]
    unfold invMid slots23
    rw [dif_pos rfl]
    rw [show (Finset.univ.filter fun t : Fin k0_t1_loop.trips => t.val < 0) = ∅ from Finset.filter_false_of_mem (fun t _ => Nat.not_lt_zero _),
      show (Finset.univ.filter fun t : Fin k0_t1_loop.trips => t.val + 1 < 0) = ∅ from Finset.filter_false_of_mem (fun t _ => Nat.not_lt_zero _),
      bigSep_empty, bigSep_empty]
    isplitl [Hf0]; · iexact Hf0
    isplitl [Hf4]; · iexact Hf4
    isplitl [Hf1]; · iexact Hf1
    isplitl [Hf5]; · iexact Hf5
    isplitl [Hra2' Hrb2' Hra3' Hrb3' Hc10 Hc14 Hc11 Hc15]
    · isplitl [Hra2']; · iexists _; iexact Hra2'
      isplitl [Hrb2']; · iexists _; iexact Hrb2'
      isplitl [Hra3']; · iexists _; iexact Hra3'
      isplitl [Hrb3']; · iexists _; iexact Hrb3'
      isplitl [Hc10]; · iexact Hc10
      isplitl [Hc14]; · iexact Hc14
      isplitl [Hc11]; · iexact Hc11
      iexact Hc15
    isplitl [Hc2]; · iexact Hc2
    isplitl [Hc3]; · iexact Hc3
    isplitl [Hc6]; · iexact Hc6
    isplitl [Hc7]; · iexact Hc7
    isplitl [Hc8]; · iexact Hc8
    isplitl [Hc9]; · iexact Hc9
    isplitl [Hc12]; · iexact Hc12
    isplitl [Hc13]; · iexact Hc13
    isplitl [HL2]; · iexact HL2
    isplitl [HL3]; · iexact HL3
    isplitl [HL6]; · iexact HL6
    isplitl [HL7]; · iexact HL7
    isplitl [HA2]; · iexact HA2
    isplitl [HA3]; · iexact HA3
    isplitl [HB6]; · iexact HB6
    isplitl [HB7]; · iexact HB7
    isplitr; · iempintro
    isplitr; · iempintro
    iapply (trips_of_pieces (F := F) d L (m (oLoc d)))
    iexact Hop
  -- after the last trip: the eight writes of rows 124 … 127 are waited for
  iintro %acc HI
  ihave HE := (show Inv m d L hin O W (Scf.trips k0_t1_loop.lb k0_t1_loop.ub k0_t1_loop.st) acc ⊢
      iprop((∃ W', ⌜∀ p ∈ W', p ∈ W ∨ p.2 = none ∨ p.2 = some (0 : Fin 1)⌝ ∗ owes (V d (cV L) (jV L)) O W') ∗ invEnd m d L (by rw [geom_trips_eq]; decide)) from by
    rw [show Scf.trips k0_t1_loop.lb k0_t1_loop.ub k0_t1_loop.st = 32 from geom_trips_eq]
    unfold Inv
    rw [dif_neg (by decide : ¬ (32 : ℕ) < 32)]
    iintro ⟨-, -, HO, HE⟩
    isplitl [HO] <;> iassumption) $$ HI
  unfold invEnd
  icases HE with ⟨⟨%W', %hW', HO⟩, HF8, HF12, HF9, HF13, HF10, HF14, HF11, HF15, Hg0, Hg1, Hg2, Hg3, Hg4, Hg5, Hg6, Hg7, HT0, HT1, HT2, HT3, HT4, HT5, HT6, HT7, HTA0, HTA1, HTA2, HTA3, HTB4, HTB5, HTB6, HTB7, Hdone⟩
  ihave Hmw8 := (Transfers.MayWaits.elim (SemLoc.dma (⟨8, by decide⟩ : DmaSem sig))) $$ Hmw2
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  try rw [prog_ret_bind]
  first | sl_exec | skip
  ihave Hmw12 := (Transfers.MayWaits.elim (SemLoc.dma (⟨12, by decide⟩ : DmaSem sig))) $$ Hmw2
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  try rw [prog_ret_bind]
  first | sl_exec | skip
  ihave Hmw9 := (Transfers.MayWaits.elim (SemLoc.dma (⟨9, by decide⟩ : DmaSem sig))) $$ Hmw2
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  try rw [prog_ret_bind]
  first | sl_exec | skip
  ihave Hmw13 := (Transfers.MayWaits.elim (SemLoc.dma (⟨13, by decide⟩ : DmaSem sig))) $$ Hmw2
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  try rw [prog_ret_bind]
  first | sl_exec | skip
  ihave Hmw10 := (Transfers.MayWaits.elim (SemLoc.dma (⟨10, by decide⟩ : DmaSem sig))) $$ Hmw2
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  try rw [prog_ret_bind]
  first | sl_exec | skip
  ihave Hmw14 := (Transfers.MayWaits.elim (SemLoc.dma (⟨14, by decide⟩ : DmaSem sig))) $$ Hmw2
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  try rw [prog_ret_bind]
  first | sl_exec | skip
  ihave Hmw11 := (Transfers.MayWaits.elim (SemLoc.dma (⟨11, by decide⟩ : DmaSem sig))) $$ Hmw2
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  try rw [prog_ret_bind]
  first | sl_exec | skip
  ihave Hmw15 := (Transfers.MayWaits.elim (SemLoc.dma (⟨15, by decide⟩ : DmaSem sig))) $$ Hmw2
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  try rw [prog_ret_bind]
  first | sl_exec | skip
  rw [wp_ret]; imodintro
  -- every half-row done; the row buffers back
  ihave Hp := (pieces_of_dels (F := F) m d L (by rw [geom_trips_eq]; decide)) $$ [HD8 HD12 HD9 HD13 HD10 HD14 HD11 HD15 Hdone]
  · isplitl [HD8]; · iexact HD8
    isplitl [HD12]; · iexact HD12
    isplitl [HD9]; · iexact HD9
    isplitl [HD13]; · iexact HD13
    isplitl [HD10]; · iexact HD10
    isplitl [HD14]; · iexact HD14
    isplitl [HD11]; · iexact HD11
    isplitl [HD15]; · iexact HD15
    iexact Hdone
  icases Hp with ⟨Hpieces, HbA0, HbB0, HbA1, HbB1, HbA2, HbB2, HbA3, HbB3⟩
  -- the read tokens rejoined
  ihave HsV := (lst_toks_join (F := F) m d L) $$ [HLr HT0 HT1 HT2 HT3 HT4 HT5 HT6 HT7]
  · isplitl [HLr]; · iexact HLr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HaV := (tblA_toks_join (F := F) m d L) $$ [HAr HTA0 HTA1 HTA2 HTA3 HA4 HA5 HA6 HA7]
  · isplitl [HAr]; · iexact HAr
    isplitl [HTA0]; · iexact HTA0
    isplitl [HTA1]; · iexact HTA1
    isplitl [HTA2]; · iexact HTA2
    isplitl [HTA3]; · iexact HTA3
    isplitl [HA4]; · iexact HA4
    isplitl [HA5]; · iexact HA5
    isplitl [HA6]; · iexact HA6
    iexact HA7
  ihave HbV := (tblB_toks_join (F := F) m d L) $$ [HBr HB0 HB1 HB2 HB3 HTB4 HTB5 HTB6 HTB7]
  · isplitl [HBr]; · iexact HBr
    isplitl [HB0]; · iexact HB0
    isplitl [HB1]; · iexact HB1
    isplitl [HB2]; · iexact HB2
    isplitl [HB3]; · iexact HB3
    isplitl [HTB4]; · iexact HTB4
    isplitl [HTB5]; · iexact HTB5
    isplitl [HTB6]; · iexact HTB6
    iexact HTB7
  isplitl [Hi' Hpieces Ht' HaV HbV]
  · isplitl [Hi']; · iapply (Entails.of_eq (pts_iV (F := F) d L _ _)); iexact Hi'
    isplitl [Hpieces]; · iexact Hpieces
    isplitl [Ht']; · iapply (Entails.of_eq (pts_tV (F := F) d L _ _)); iexact Ht'
    isplitl [HaV]; · iapply (Entails.of_eq (pts_aV (F := F) d L _ _)); iexact HaV
    iapply (Entails.of_eq (pts_bV (F := F) d L _ _)); iexact HbV
  isplitl [HsV HbA0 HbA1 HbA2 HbA3 HbB0 HbB1 HbB2 HbB3 Hbufs]
  · isplitl [HsV]; · iexists _; iapply (Entails.of_eq (pts_sV (F := F) d L _ _)); iexact HsV
    isplitl [HbA0]; · iexact HbA0
    isplitl [HbA1]; · iexact HbA1
    isplitl [HbA2]; · iexact HbA2
    isplitl [HbA3]; · iexact HbA3
    isplitl [HbB0]; · iexact HbB0
    isplitl [HbB1]; · iexact HbB1
    isplitl [HbB2]; · iexact HbB2
    isplitl [HbB3]; · iexact HbB3
    iexact Hbufs
  isplitl [Hg0 Hg1 Hg2 Hg3 Hg4 Hg5 Hg6 Hg7 Hv8 Hv9 Hv10 Hv11 Hv12 Hv13 Hv14 Hv15 Hc16 Hc17 Hc18 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hc16]; · iexact Hc16
    isplitl [Hc17]; · iexact Hc17
    isplitl [Hc18]; · iexact Hc18
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

end Cert.Proof.KB

end
-- ==== Proof.KB.TileOne.lean ====
/-
  The task of subcore 1, which fills the shared buffer of the padded table's right half: its copy of that half over the
  shared buffer, through a read share of the table; the fetch of its block of row numbers; the barrier, where it hands
  the shared buffer over in sixteen shares and collects its own shares of the two shared buffers; the read tokens; the
  gathers of rows 0 and 1; the loop by its invariant; the eight final waits; and everything handed back — the half-rows
  at `outF`, the table's share, the shares rejoined, the tile's own buffers and cells as it found them.
-/
import proofs.«203043_g45337674776592_cont_8to1_c_201_37_alg».proof.Proof.KB.TileLemmas
import proofs.«203043_g45337674776592_cont_8to1_c_201_37_alg».proof.Proof.KB.Fill

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]
variable (d : Dev nD) (L : grid0.Coords)

set_option maxHeartbeats 16000000 in
/-- The task of subcore 1, which fills the right half's shared buffer. -/
theorem tile_one (hF : (K (F := F)).Facts) (hpre : PreOK m) (hs : (L 1).val = 1)
    (O : CellTallies nD τ sig (HIx 1)) (W : Waits sig (HIx 1)) (hO : ∀ g, O g none = 0)
    (hOlev : ∀ g ι, 0 < O g ι → 8 * (0 : Fin 1).val + 6 ≤ (K (F := F)).lev g ι) (w : Fin 32) :
    iprop(levAts (K (F := F)).L (K (F := F)).lev ∗ bkit m d (cV L) (jV L)
        ∗ ((iLoc d ↦{wq w} idx3 m d) ∗ oPieces d L (m (oLoc d)) ∗ ((tLoc d ↦{wq w} tblW m d) ∗ ∃ f, shBLoc d (cV L) ↦{fullShare} f))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_k L iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2)
          fun _ => iprop(((iLoc d ↦{wq w} idx3 m d) ∗ oPieces d L (outF m d) ∗ (tLoc d ↦{wq w} tblW m d)
              ∗ (shALoc d (cV L) ↦{sq (jL L)} tblA m d (cV L)) ∗ (shBLoc d (cV L) ↦{sq (jL L)} tblB m d (cV L)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hin : HIN m d L := hin_of_pre m d L hpre
  simp only [cc0_k_eq_skeleton]; unfold cc0_k_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, Hop, Ht, ⟨%fb, Hb⟩⟩, ⟨⟨%fsV, Hs⟩, ⟨%frA0, Hra0⟩, ⟨%frA1, Hra1⟩, ⟨%frA2, Hra2⟩, ⟨%frA3, Hra3⟩, ⟨%frB0, Hrb0⟩, ⟨%frB1, Hrb1⟩, ⟨%frB2, Hrb2⟩, ⟨%frB3, Hrb3⟩, Hbufs⟩, ⟨Hc0, Hc1, Hc2, Hc3, Hc4, Hc5, Hc6, Hc7, Hc8, Hc9, Hc10, Hc11, Hc12, Hc13, Hc14, Hc15, Hc16, Hc17, Hc18, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ht' := (Entails.of_eq (pts_tV (F := F) d L _ _).symm) $$ Ht
  ihave Hb' := (Entails.of_eq (pts_bV (F := F) d L _ _).symm) $$ Hb
  ihave Hs' := (Entails.of_eq (pts_sV (F := F) d L _ _).symm) $$ Hs
  ihave Hra0' := (Entails.of_eq (pts_rA0 (F := F) d L _ _).symm) $$ Hra0
  ihave Hra1' := (Entails.of_eq (pts_rA1 (F := F) d L _ _).symm) $$ Hra1
  ihave Hra2' := (Entails.of_eq (pts_rA2 (F := F) d L _ _).symm) $$ Hra2
  ihave Hra3' := (Entails.of_eq (pts_rA3 (F := F) d L _ _).symm) $$ Hra3
  ihave Hrb0' := (Entails.of_eq (pts_rB0 (F := F) d L _ _).symm) $$ Hrb0
  ihave Hrb1' := (Entails.of_eq (pts_rB1 (F := F) d L _ _).symm) $$ Hrb1
  ihave Hrb2' := (Entails.of_eq (pts_rB2 (F := F) d L _ _).symm) $$ Hrb2
  ihave Hrb3' := (Entails.of_eq (pts_rB3 (F := F) d L _ _).symm) $$ Hrb3
  have hc0 := cond0_false (L 1) (by omega)
  have hc1 := cond1_true (L 1) hs
  sl_exec
  ihave Hpays := (pays_fillB_run (F := F) m d L hs fb (tile_one.sl.dma0 m d) rfl) $$ Hb'
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hab := (pays_elim (F := F) m d L) $$ Hgot
  icases Hab with ⟨HtA, HtB⟩
  ihave HtA' := (Entails.of_eq (pts_aV (F := F) d L _ _).symm) $$ HtA
  ihave HtB' := (Entails.of_eq (pts_bV (F := F) d L _ _).symm) $$ HtB
  -- the list buffer at the fetched block, whatever it held
  ihave Hl := (Entails.of_eq (show ((sV).view.loc (V d (cV L) (jV L)) ↦{fullShare} View.write (Elt F) (sV).view fsV (tile_one.sl.dma0_1 m d L) Finset.univ : sProp 𝕄)
      = ((sV).view.loc (V d (cV L) (jV L)) ↦{fullShare} lst m d L) from by rw [View.write_whole_univ]; rfl)) $$ Hs'
  -- read tokens: eight of the list buffer, eight of each shared buffer (cells 0 … 3 read tbl_a, 4 … 7 tbl_b)
  ihave Hl8 := (toks8_split (F := F) (ℓ := (sV).view.loc (V d (cV L) (jV L))) fullShare (lst m d L)) $$ Hl
  icases Hl8 with ⟨HLr, HL0, HL1, HL2, HL3, HL4, HL5, HL6, HL7⟩
  ihave HA8 := (toks8_split (F := F) (ℓ := (aV).view.loc (V d (cV L) (jV L))) (sq (jL L)) (tblA m d (cV L))) $$ HtA'
  icases HA8 with ⟨HAr, HA0, HA1, HA2, HA3, HA4, HA5, HA6, HA7⟩
  ihave HB8 := (toks8_split (F := F) (ℓ := (bV).view.loc (V d (cV L) (jV L))) (sq (jL L)) (tblB m d (cV L))) $$ HtB'
  icases HB8 with ⟨HBr, HB0, HB1, HB2, HB3, HB4, HB5, HB6, HB7⟩
  have hin' : ∀ (off : Fin 2 → ℕ) (hoff : ∀ a, off a + S1x100.size a ≤ S128x100.size a) (x : S100.Idx),
      ((lRowK off hoff).view.read (Elt F) (lst m d L) x).toNat < S120x128.size gathers_S120x128_S100x128.axis := hin
  -- rows 0 and 1: each row's two gathers read the list through the two tokens of their cells; the others are set aside
  ihave HLrh := (Entails.of_eq (sV_loc (F := F) d L _ _ _)) $$ HLr
  ihave HL1h := (Entails.of_eq (sV_loc (F := F) d L _ _ _)) $$ HL1
  ihave HL2h := (Entails.of_eq (sV_loc (F := F) d L _ _ _)) $$ HL2
  ihave HL3h := (Entails.of_eq (sV_loc (F := F) d L _ _ _)) $$ HL3
  ihave HL5h := (Entails.of_eq (sV_loc (F := F) d L _ _ _)) $$ HL5
  ihave HL6h := (Entails.of_eq (sV_loc (F := F) d L _ _ _)) $$ HL6
  ihave HL7h := (Entails.of_eq (sV_loc (F := F) d L _ _ _)) $$ HL7
  set_option sl_exec.maxSteps 2 in sl_exec
  -- row 1: tokens 1 and 5; what is left of tokens 0 and 4 is set aside
  ihave HL0h := (Entails.of_eq (sV_loc (F := F) d L _ _ _)) $$ HL0
  ihave HL4h := (Entails.of_eq (sV_loc (F := F) d L _ _ _)) $$ HL4
  ihave HL1 := (Entails.of_eq (sV_loc (F := F) d L _ _ _).symm) $$ HL1h
  ihave HL5 := (Entails.of_eq (sV_loc (F := F) d L _ _ _).symm) $$ HL5h
  sl_exec
  -- everything back in sight
  ihave HL0 := (Entails.of_eq (sV_loc (F := F) d L _ _ _).symm) $$ HL0h
  ihave HL4 := (Entails.of_eq (sV_loc (F := F) d L _ _ _).symm) $$ HL4h
  ihave HL2 := (Entails.of_eq (sV_loc (F := F) d L _ _ _).symm) $$ HL2h
  ihave HL3 := (Entails.of_eq (sV_loc (F := F) d L _ _ _).symm) $$ HL3h
  ihave HL6 := (Entails.of_eq (sV_loc (F := F) d L _ _ _).symm) $$ HL6h
  ihave HL7 := (Entails.of_eq (sV_loc (F := F) d L _ _ _).symm) $$ HL7h
  ihave HLr := (Entails.of_eq (sV_loc (F := F) d L _ _ _).symm) $$ HLrh
  -- the four gathers in flight, each folded with what it left beside it
  ihave Hf0 := (Flight_frame (F := F) (fold_A0 m d L hin frA0 (4 * 0) (by omega) ![0, 0] inb_S128x100_S1x100_0_0 rfl)) $$ [Hc0 Hra0' HL0 HA0]
  · isplitl [Hc0]; · iexact Hc0
    isplitl [Hra0']; · iexact Hra0'
    isplitl [HL0] <;> iassumption
  ihave Hf4 := (Flight_frame (F := F) (fold_B0 m d L hin frB0 (4 * 0) (by omega) ![0, 0] inb_S128x100_S1x100_0_0 rfl)) $$ [Hc4 Hrb0' HL4 HB4]
  · isplitl [Hc4]; · iexact Hc4
    isplitl [Hrb0']; · iexact Hrb0'
    isplitl [HL4] <;> iassumption
  ihave Hf1 := (Flight_frame (F := F) (fold_A1 m d L hin frA1 (4 * 0 + 1) (by omega) ![1, 0] inb_S128x100_S1x100_1_0 rfl)) $$ [Hc1 Hra1' HL1 HA1]
  · isplitl [Hc1]; · iexact Hc1
    isplitl [Hra1']; · iexact Hra1'
    isplitl [HL1] <;> iassumption
  ihave Hf5 := (Flight_frame (F := F) (fold_B1 m d L hin frB1 (4 * 0 + 1) (by omega) ![1, 0] inb_S128x100_S1x100_1_0 rfl)) $$ [Hc5 Hrb1' HL5 HB5]
  · isplitl [Hc5]; · iexact Hc5
    isplitl [Hrb1']; · iexact Hrb1'
    isplitl [HL5] <;> iassumption
  sl_for (Inv m d L hin O W) $$ [HO Hf0 Hf4 Hf1 Hf5 Hra2' Hrb2' Hra3' Hrb3' Hc10 Hc14 Hc11 Hc15 Hc2 Hc3 Hc6 Hc7 Hc8 Hc9 Hc12 Hc13 HL2 HL3 HL6 HL7 HA2 HA3 HB6 HB7 Hop]
  · intro k acc
    exact trip_step m d L hin O W hO _ k acc
  · -- before the first trip
    unfold Inv
    isplitr; · ipureintro; omega
    isplitr; · iexact Hlv
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      exact .inl hp
    rw [dif_pos (by decide : (0 : ℕ) < 32)]
    unfold invMid slots23
    rw [dif_pos rfl]
    rw [show (Finset.univ.filter fun t : Fin k0_t1_loop.trips => t.val < 0) = ∅ from Finset.filter_false_of_mem (fun t _ => Nat.not_lt_zero _),
      show (Finset.univ.filter fun t : Fin k0_t1_loop.trips => t.val + 1 < 0) = ∅ from Finset.filter_false_of_mem (fun t _ => Nat.not_lt_zero _),
      bigSep_empty, bigSep_empty]
    isplitl [Hf0]; · iexact Hf0
    isplitl [Hf4]; · iexact Hf4
    isplitl [Hf1]; · iexact Hf1
    isplitl [Hf5]; · iexact Hf5
    isplitl [Hra2' Hrb2' Hra3' Hrb3' Hc10 Hc14 Hc11 Hc15]
    · isplitl [Hra2']; · iexists _; iexact Hra2'
      isplitl [Hrb2']; · iexists _; iexact Hrb2'
      isplitl [Hra3']; · iexists _; iexact Hra3'
      isplitl [Hrb3']; · iexists _; iexact Hrb3'
      isplitl [Hc10]; · iexact Hc10
      isplitl [Hc14]; · iexact Hc14
      isplitl [Hc11]; · iexact Hc11
      iexact Hc15
    isplitl [Hc2]; · iexact Hc2
    isplitl [Hc3]; · iexact Hc3
    isplitl [Hc6]; · iexact Hc6
    isplitl [Hc7]; · iexact Hc7
    isplitl [Hc8]; · iexact Hc8
    isplitl [Hc9]; · iexact Hc9
    isplitl [Hc12]; · iexact Hc12
    isplitl [Hc13]; · iexact Hc13
    isplitl [HL2]; · iexact HL2
    isplitl [HL3]; · iexact HL3
    isplitl [HL6]; · iexact HL6
    isplitl [HL7]; · iexact HL7
    isplitl [HA2]; · iexact HA2
    isplitl [HA3]; · iexact HA3
    isplitl [HB6]; · iexact HB6
    isplitl [HB7]; · iexact HB7
    isplitr; · iempintro
    isplitr; · iempintro
    iapply (trips_of_pieces (F := F) d L (m (oLoc d)))
    iexact Hop
  -- after the last trip: the eight writes of rows 124 … 127 are waited for
  iintro %acc HI
  ihave HE := (show Inv m d L hin O W (Scf.trips k0_t1_loop.lb k0_t1_loop.ub k0_t1_loop.st) acc ⊢
      iprop((∃ W', ⌜∀ p ∈ W', p ∈ W ∨ p.2 = none ∨ p.2 = some (0 : Fin 1)⌝ ∗ owes (V d (cV L) (jV L)) O W') ∗ invEnd m d L (by rw [geom_trips_eq]; decide)) from by
    rw [show Scf.trips k0_t1_loop.lb k0_t1_loop.ub k0_t1_loop.st = 32 from geom_trips_eq]
    unfold Inv
    rw [dif_neg (by decide : ¬ (32 : ℕ) < 32)]
    iintro ⟨-, -, HO, HE⟩
    isplitl [HO] <;> iassumption) $$ HI
  unfold invEnd
  icases HE with ⟨⟨%W', %hW', HO⟩, HF8, HF12, HF9, HF13, HF10, HF14, HF11, HF15, Hg0, Hg1, Hg2, Hg3, Hg4, Hg5, Hg6, Hg7, HT0, HT1, HT2, HT3, HT4, HT5, HT6, HT7, HTA0, HTA1, HTA2, HTA3, HTB4, HTB5, HTB6, HTB7, Hdone⟩
  ihave Hmw8 := (Transfers.MayWaits.elim (SemLoc.dma (⟨8, by decide⟩ : DmaSem sig))) $$ Hmw2
  iapply (Transfers.wp_waitLocalO countersEmb 𝒱₀ (V d (cV L) (jV L)) none (default : HIx 1) (N := 409600) creditA) $$ [HF8 HO Hmw8]
  · isplitl [HF8]; · iexact HF8
    isplitl [HO]; · iexact HO
    iexact Hmw8
  iintro ⟨HD8, Hv8, HO⟩
  try rw [prog_ret_bind]
  first | sl_exec | skip
  ihave Hmw12 := (Transfers.MayWaits.elim (SemLoc.dma (⟨12, by decide⟩ : DmaSem sig))) $$ Hmw2
  iapply (Transfers.wp_waitLocalO countersEmb 𝒱₀ (V d (cV L) (jV L)) none (default : HIx 1) (N := 409600) creditB) $$ [HF12 HO Hmw12]
  · isplitl [HF12]; · iexact HF12
    isplitl [HO]; · iexact HO
    iexact Hmw12
  iintro ⟨HD12, Hv12, HO⟩
  try rw [prog_ret_bind]
  first | sl_exec | skip
  ihave Hmw9 := (Transfers.MayWaits.elim (SemLoc.dma (⟨9, by decide⟩ : DmaSem sig))) $$ Hmw2
  iapply (Transfers.wp_waitLocalO countersEmb 𝒱₀ (V d (cV L) (jV L)) none (default : HIx 1) (N := 409600) creditA) $$ [HF9 HO Hmw9]
  · isplitl [HF9]; · iexact HF9
    isplitl [HO]; · iexact HO
    iexact Hmw9
  iintro ⟨HD9, Hv9, HO⟩
  try rw [prog_ret_bind]
  first | sl_exec | skip
  ihave Hmw13 := (Transfers.MayWaits.elim (SemLoc.dma (⟨13, by decide⟩ : DmaSem sig))) $$ Hmw2
  iapply (Transfers.wp_waitLocalO countersEmb 𝒱₀ (V d (cV L) (jV L)) none (default : HIx 1) (N := 409600) creditB) $$ [HF13 HO Hmw13]
  · isplitl [HF13]; · iexact HF13
    isplitl [HO]; · iexact HO
    iexact Hmw13
  iintro ⟨HD13, Hv13, HO⟩
  try rw [prog_ret_bind]
  first | sl_exec | skip
  ihave Hmw10 := (Transfers.MayWaits.elim (SemLoc.dma (⟨10, by decide⟩ : DmaSem sig))) $$ Hmw2
  iapply (Transfers.wp_waitLocalO countersEmb 𝒱₀ (V d (cV L) (jV L)) none (default : HIx 1) (N := 409600) creditA) $$ [HF10 HO Hmw10]
  · isplitl [HF10]; · iexact HF10
    isplitl [HO]; · iexact HO
    iexact Hmw10
  iintro ⟨HD10, Hv10, HO⟩
  try rw [prog_ret_bind]
  first | sl_exec | skip
  ihave Hmw14 := (Transfers.MayWaits.elim (SemLoc.dma (⟨14, by decide⟩ : DmaSem sig))) $$ Hmw2
  iapply (Transfers.wp_waitLocalO countersEmb 𝒱₀ (V d (cV L) (jV L)) none (default : HIx 1) (N := 409600) creditB) $$ [HF14 HO Hmw14]
  · isplitl [HF14]; · iexact HF14
    isplitl [HO]; · iexact HO
    iexact Hmw14
  iintro ⟨HD14, Hv14, HO⟩
  try rw [prog_ret_bind]
  first | sl_exec | skip
  ihave Hmw11 := (Transfers.MayWaits.elim (SemLoc.dma (⟨11, by decide⟩ : DmaSem sig))) $$ Hmw2
  iapply (Transfers.wp_waitLocalO countersEmb 𝒱₀ (V d (cV L) (jV L)) none (default : HIx 1) (N := 409600) creditA) $$ [HF11 HO Hmw11]
  · isplitl [HF11]; · iexact HF11
    isplitl [HO]; · iexact HO
    iexact Hmw11
  iintro ⟨HD11, Hv11, HO⟩
  try rw [prog_ret_bind]
  first | sl_exec | skip
  ihave Hmw15 := (Transfers.MayWaits.elim (SemLoc.dma (⟨15, by decide⟩ : DmaSem sig))) $$ Hmw2
  iapply (Transfers.wp_waitLocalO countersEmb 𝒱₀ (V d (cV L) (jV L)) none (default : HIx 1) (N := 409600) creditB) $$ [HF15 HO Hmw15]
  · isplitl [HF15]; · iexact HF15
    isplitl [HO]; · iexact HO
    iexact Hmw15
  iintro ⟨HD15, Hv15, HO⟩
  try rw [prog_ret_bind]
  first | sl_exec | skip
  rw [wp_ret]; imodintro
  -- every half-row done; the row buffers back
  ihave Hp := (pieces_of_dels (F := F) m d L (by rw [geom_trips_eq]; decide)) $$ [HD8 HD12 HD9 HD13 HD10 HD14 HD11 HD15 Hdone]
  · isplitl [HD8]; · iexact HD8
    isplitl [HD12]; · iexact HD12
    isplitl [HD9]; · iexact HD9
    isplitl [HD13]; · iexact HD13
    isplitl [HD10]; · iexact HD10
    isplitl [HD14]; · iexact HD14
    isplitl [HD11]; · iexact HD11
    isplitl [HD15]; · iexact HD15
    iexact Hdone
  icases Hp with ⟨Hpieces, HbA0, HbB0, HbA1, HbB1, HbA2, HbB2, HbA3, HbB3⟩
  -- the read tokens rejoined
  ihave HsV := (lst_toks_join (F := F) m d L) $$ [HLr HT0 HT1 HT2 HT3 HT4 HT5 HT6 HT7]
  · isplitl [HLr]; · iexact HLr
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    iexact HT7
  ihave HaV := (tblA_toks_join (F := F) m d L) $$ [HAr HTA0 HTA1 HTA2 HTA3 HA4 HA5 HA6 HA7]
  · isplitl [HAr]; · iexact HAr
    isplitl [HTA0]; · iexact HTA0
    isplitl [HTA1]; · iexact HTA1
    isplitl [HTA2]; · iexact HTA2
    isplitl [HTA3]; · iexact HTA3
    isplitl [HA4]; · iexact HA4
    isplitl [HA5]; · iexact HA5
    isplitl [HA6]; · iexact HA6
    iexact HA7
  ihave HbV := (tblB_toks_join (F := F) m d L) $$ [HBr HB0 HB1 HB2 HB3 HTB4 HTB5 HTB6 HTB7]
  · isplitl [HBr]; · iexact HBr
    isplitl [HB0]; · iexact HB0
    isplitl [HB1]; · iexact HB1
    isplitl [HB2]; · iexact HB2
    isplitl [HB3]; · iexact HB3
    isplitl [HTB4]; · iexact HTB4
    isplitl [HTB5]; · iexact HTB5
    isplitl [HTB6]; · iexact HTB6
    iexact HTB7
  isplitl [Hi' Hpieces Ht' HaV HbV]
  · isplitl [Hi']; · iapply (Entails.of_eq (pts_iV (F := F) d L _ _)); iexact Hi'
    isplitl [Hpieces]; · iexact Hpieces
    isplitl [Ht']; · iapply (Entails.of_eq (pts_tV (F := F) d L _ _)); iexact Ht'
    isplitl [HaV]; · iapply (Entails.of_eq (pts_aV (F := F) d L _ _)); iexact HaV
    iapply (Entails.of_eq (pts_bV (F := F) d L _ _)); iexact HbV
  isplitl [HsV HbA0 HbA1 HbA2 HbA3 HbB0 HbB1 HbB2 HbB3 Hbufs]
  · isplitl [HsV]; · iexists _; iapply (Entails.of_eq (pts_sV (F := F) d L _ _)); iexact HsV
    isplitl [HbA0]; · iexact HbA0
    isplitl [HbA1]; · iexact HbA1
    isplitl [HbA2]; · iexact HbA2
    isplitl [HbA3]; · iexact HbA3
    isplitl [HbB0]; · iexact HbB0
    isplitl [HbB1]; · iexact HbB1
    isplitl [HbB2]; · iexact HbB2
    isplitl [HbB3]; · iexact HbB3
    iexact Hbufs
  isplitl [Hg0 Hg1 Hg2 Hg3 Hg4 Hg5 Hg6 Hg7 Hv8 Hv9 Hv10 Hv11 Hv12 Hv13 Hv14 Hv15 Hc16 Hc17 Hc18 Hsems]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    isplitl [Hv14]; · iexact Hv14
    isplitl [Hv15]; · iexact Hv15
    isplitl [Hc16]; · iexact Hc16
    isplitl [Hc17]; · iexact Hc17
    isplitl [Hc18]; · iexact Hc18
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  exact hW' p hp

end Cert.Proof.KB

end
-- ==== Proof.KB.Body.lean ====
/-
  One tile's task, as the launch theorem asks for it: from the task's operands (its read share of the regrouped row
  numbers, the 256 half-rows of the result it writes, and — subcores 0 and 1 — a read share of the padded table and the
  shared buffer to fill) to its results (the same, the half-rows at `outF`, and its shares of the two shared buffers).
  The three cases — subcore 0, subcore 1, the others — differ only in the fill before the barrier.
-/
import proofs.«203043_g45337674776592_cont_8to1_c_201_37_alg».proof.Proof.KB.TileOther
import proofs.«203043_g45337674776592_cont_8to1_c_201_37_alg».proof.Proof.KB.TileZero
import proofs.«203043_g45337674776592_cont_8to1_c_201_37_alg».proof.Proof.KB.TileOne

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x128x100 EltTy.i32)
local notation "tV" => (Memref.whole Cert.Kernel.main_v2_scv : Memref Cert.Kernel.sig Kind.scVector Space.hbm Cert.Kernel.S120x256 EltTy.f32)
local notation "oV" => (Memref.whole Cert.Kernel.main_v3_scv : Memref Cert.Kernel.sig Kind.scVector Space.hbm Cert.Kernel.S4096x100x256 EltTy.f32)
local notation "sV" => (Memref.whole Cert.Kernel.cc0_scratch0 : Memref Cert.Kernel.sig Kind.scVector Space.vmem Cert.Kernel.S128x100 EltTy.i32)
local notation "aV" => (Memref.whole Cert.Kernel.cc0_scratch1 : Memref Cert.Kernel.sig Kind.scVector Space.shared Cert.Kernel.S120x128 EltTy.f32)
local notation "bV" => (Memref.whole Cert.Kernel.cc0_scratch2 : Memref Cert.Kernel.sig Kind.scVector Space.shared Cert.Kernel.S120x128 EltTy.f32)
local notation "rA0" => (Memref.whole Cert.Kernel.cc0_scratch3 : Memref Cert.Kernel.sig Kind.scVector Space.vmem Cert.Kernel.S100x128 EltTy.f32)
local notation "rA1" => (Memref.whole Cert.Kernel.cc0_scratch4 : Memref Cert.Kernel.sig Kind.scVector Space.vmem Cert.Kernel.S100x128 EltTy.f32)
local notation "rA2" => (Memref.whole Cert.Kernel.cc0_scratch5 : Memref Cert.Kernel.sig Kind.scVector Space.vmem Cert.Kernel.S100x128 EltTy.f32)
local notation "rA3" => (Memref.whole Cert.Kernel.cc0_scratch6 : Memref Cert.Kernel.sig Kind.scVector Space.vmem Cert.Kernel.S100x128 EltTy.f32)
local notation "rB0" => (Memref.whole Cert.Kernel.cc0_scratch7 : Memref Cert.Kernel.sig Kind.scVector Space.vmem Cert.Kernel.S100x128 EltTy.f32)
local notation "rB1" => (Memref.whole Cert.Kernel.cc0_scratch8 : Memref Cert.Kernel.sig Kind.scVector Space.vmem Cert.Kernel.S100x128 EltTy.f32)
local notation "rB2" => (Memref.whole Cert.Kernel.cc0_scratch9 : Memref Cert.Kernel.sig Kind.scVector Space.vmem Cert.Kernel.S100x128 EltTy.f32)
local notation "rB3" => (Memref.whole Cert.Kernel.cc0_scratch10 : Memref Cert.Kernel.sig Kind.scVector Space.vmem Cert.Kernel.S100x128 EltTy.f32)

variable (m : (ℓ : Loc nD τ sig) → Buf (Elt F) ℓ) (ρ : Dev nD → PrngReg)
variable [FloatOps F]

theorem defs₀_vector (c : Fin τ.nSC) (s : Fin τ.nSub) :
    defs₀ (F := F) (.scVector c s) 0 ()
      = SparseCore.onTile hcore0 hsub0 (fun c s => cc0_k (coordsV c s) iV (Memref.isWhole_whole _) tV (Memref.isWhole_whole _) oV (Memref.isWhole_whole _) sV (Memref.isWhole_whole _) aV (Memref.isWhole_whole _) bV (Memref.isWhole_whole _) rA0 (Memref.isWhole_whole _) rA1 (Memref.isWhole_whole _) rA2 (Memref.isWhole_whole _) rA3 (Memref.isWhole_whole _) rB0 (Memref.isWhole_whole _) rB1 (Memref.isWhole_whole _) rB2 (Memref.isWhole_whole _) rB3 (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scoped0 cc0_scoped1 cc0_scoped2) ⟨⟩ c s := rfl

variable (d : Dev nD) (c : Fin ((K (F := F)).nCore 0)) (i : Fin ((K (F := F)).nSub 0))

/-- A task's operands and results, case by case. -/
theorem goV_other (h0 : i.val ≠ 0) (h1 : i.val ≠ 1) :
    goV m d c i ⊢ iprop((iLoc d ↦{wq (widOf c i)} idx3 m d) ∗ oPieces d (coordsOf c i) (m (oLoc d))) := by
  unfold goV fillA fillB; rw [if_neg h0, if_neg h1]
  iintro ⟨Hi, Hop, -, -⟩
  isplitl [Hi] <;> iassumption
theorem tdV_other (h0 : i.val ≠ 0) (h1 : i.val ≠ 1) :
    iprop((iLoc d ↦{wq (widOf c i)} idx3 m d) ∗ oPieces d (coordsOf c i) (outF m d)
      ∗ (shALoc d (coreOf c) ↦{sq (Fin.cast nSub_zero i)} tblA m d (coreOf c)) ∗ (shBLoc d (coreOf c) ↦{sq (Fin.cast nSub_zero i)} tblB m d (coreOf c))) ⊢ tdV m d c i := by
  unfold tdV fillA' fillB'; rw [if_neg h0, if_neg h1]
  iintro ⟨Hi, Hop, Ha, Hb⟩
  isplitl [Hi]; · iexact Hi
  isplitl [Hop]; · iexact Hop
  isplitr; · iempintro
  isplitr; · iempintro
  isplitl [Ha] <;> iassumption
theorem goV_zero (h0 : i.val = 0) :
    goV m d c i ⊢ iprop((iLoc d ↦{wq (widOf c i)} idx3 m d) ∗ oPieces d (coordsOf c i) (m (oLoc d))
      ∗ ((tLoc d ↦{wq (widOf c i)} tblW m d) ∗ ∃ f, shALoc d (coreOf c) ↦{fullShare} f)) := by
  unfold goV fillA fillB; rw [if_pos h0, if_neg (by omega)]
  iintro ⟨Hi, Hop, Hf, -⟩
  isplitl [Hi]; · iexact Hi
  isplitl [Hop] <;> iassumption
theorem tdV_zero (h0 : i.val = 0) :
    iprop((iLoc d ↦{wq (widOf c i)} idx3 m d) ∗ oPieces d (coordsOf c i) (outF m d) ∗ (tLoc d ↦{wq (widOf c i)} tblW m d)
      ∗ (shALoc d (coreOf c) ↦{sq (Fin.cast nSub_zero i)} tblA m d (coreOf c)) ∗ (shBLoc d (coreOf c) ↦{sq (Fin.cast nSub_zero i)} tblB m d (coreOf c))) ⊢ tdV m d c i := by
  unfold tdV fillA' fillB'; rw [if_pos h0, if_neg (by omega)]
  iintro ⟨Hi, Hop, Ht, Ha, Hb⟩
  isplitl [Hi]; · iexact Hi
  isplitl [Hop]; · iexact Hop
  isplitl [Ht]; · iexact Ht
  isplitr; · iempintro
  isplitl [Ha] <;> iassumption
theorem goV_one (h1 : i.val = 1) :
    goV m d c i ⊢ iprop((iLoc d ↦{wq (widOf c i)} idx3 m d) ∗ oPieces d (coordsOf c i) (m (oLoc d))
      ∗ ((tLoc d ↦{wq (widOf c i)} tblW m d) ∗ ∃ f, shBLoc d (coreOf c) ↦{fullShare} f)) := by
  unfold goV fillA fillB; rw [if_neg (by omega), if_pos h1]
  iintro ⟨Hi, Hop, -, Hf⟩
  isplitl [Hi]; · iexact Hi
  isplitl [Hop] <;> iassumption
theorem tdV_one (h1 : i.val = 1) :
    iprop((iLoc d ↦{wq (widOf c i)} idx3 m d) ∗ oPieces d (coordsOf c i) (outF m d) ∗ (tLoc d ↦{wq (widOf c i)} tblW m d)
      ∗ (shALoc d (coreOf c) ↦{sq (Fin.cast nSub_zero i)} tblA m d (coreOf c)) ∗ (shBLoc d (coreOf c) ↦{sq (Fin.cast nSub_zero i)} tblB m d (coreOf c))) ⊢ tdV m d c i := by
  unfold tdV fillA' fillB'; rw [if_neg (by omega), if_pos h1]
  iintro ⟨Hi, Hop, Ht, Ha, Hb⟩
  isplitl [Hi]; · iexact Hi
  isplitl [Hop]; · iexact Hop
  isplitr; · iempintro
  isplitl [Ht]; · iexact Ht
  isplitl [Ha] <;> iassumption

omit [FloatOps F] in
/-- Six conjuncts, the third and nothing else changed. -/
theorem sep6_mono3 {A B C C' D E G : sProp 𝕄} (h : C ⊢ C') : iprop(A ∗ B ∗ C ∗ D ∗ E ∗ G) ⊢ iprop(A ∗ B ∗ C' ∗ D ∗ E ∗ G) := by
  iintro ⟨HA, HB, HC, HD, HE, HG⟩
  isplitl [HA]; · iexact HA
  isplitl [HB]; · iexact HB
  isplitl [HC]; · iapply h; iexact HC
  isplitl [HD]; · iexact HD
  isplitl [HE] <;> iassumption
omit [FloatOps F] in
/-- Four conjuncts, the first and nothing else changed. -/
theorem sep4_mono1 {A A' B C D : sProp 𝕄} (h : A ⊢ A') : iprop(A ∗ B ∗ C ∗ D) ⊢ iprop(A' ∗ B ∗ C ∗ D) := by
  iintro ⟨HA, HB, HC, HD⟩
  isplitl [HA]; · iapply h; iexact HA
  isplitl [HB]; · iexact HB
  isplitl [HC] <;> iassumption

set_option maxRecDepth 16384 in
theorem tileObl (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h0 : i.val = 0
  · exact (sep6_mono3 (goV_zero m d c i h0)).trans
      ((tile_zero m d (coordsV ⟨_, hci.1⟩ ⟨_, hci.2⟩) facts hpre h0 O W hO hOlev (widOf c i)).trans
        (wp_mono frame _ _ fun _ => sep4_mono1 (tdV_zero m d c i h0)))
  by_cases h1 : i.val = 1
  · exact (sep6_mono3 (goV_one m d c i h1)).trans
      ((tile_one m d (coordsV ⟨_, hci.1⟩ ⟨_, hci.2⟩) facts hpre h1 O W hO hOlev (widOf c i)).trans
        (wp_mono frame _ _ fun _ => sep4_mono1 (tdV_one m d c i h1)))
  · exact (sep6_mono3 (goV_other m d c i h0 h1)).trans
      ((tile_other m d (coordsV ⟨_, hci.1⟩ ⟨_, hci.2⟩) facts hpre h0 h1 O W hO hOlev (widOf c i)).trans
        (wp_mono frame _ _ fun _ => sep4_mono1 (tdV_other m d c i h0 h1)))

end Cert.Proof.KB

end
-- ==== Proof.KB.Split.lean ====
/-
  How a SparseCore's operands split among its sixteen tasks, and how the tasks' results gather.

  Going. Each task keeps its own read share of the row numbers and its own half-rows of the result. Of the sequencer's
  own buffers the two shared ones leave it whole, at whatever they hold: buffer A for task 0, buffer B for task 1, each
  beside that task's read share of the padded table; the other tasks get nothing more.

  Coming back. Every task returns a sixteenth share of each shared buffer, now holding the left and the right half of
  the padded table; sixteen sixteenths are the buffer whole, which returns to the sequencer's own buffers. Tasks 0 and
  1 return their read shares of the padded table.
-/
import proofs.«203043_g45337674776592_cont_8to1_c_201_37_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## The sequencer's own buffers: the two shared ones, and the rest -/

theorem shBRef_ne_shARef (c : Fin τ.nSC) : shBRef c ≠ shARef c :=
  fun e => absurd (congrArg (fun b : DevRef τ sig => b.idx.val) e) (show ¬ (1 : ℕ) = 0 by decide)

/-- The two shared buffers are among the sequencer's own: they, each at some contents, and the rest. -/
theorem ownBufs_S (d : Dev nD) (c : Fin τ.nSC) :
    (ownBufs (S d c) : sProp 𝕄)
      = iprop((∃ f, shALoc d c ↦{fullShare} f) ∗ (∃ f, shBLoc d c ↦{fullShare} f)
          ∗ bigSep (((ownRefs (τ := τ) (.scScalar c)).erase (shARef c)).erase (shBRef c)) fun b => iprop(∃ f, ((d, b) : Loc nD τ sig) ↦{fullShare} f)) := by
  unfold SparseCore.Cfg.ownBufs
  have hA : shARef c ∈ ownRefs (τ := τ) (sig := sig) (.scScalar c) := (mem_ownRefs (p := Proc.scScalar c) (b := shARef c)).mpr rfl
  have hB : shBRef c ∈ (ownRefs (τ := τ) (sig := sig) (.scScalar c)).erase (shARef c) :=
    Finset.mem_erase.mpr ⟨shBRef_ne_shARef c, (mem_ownRefs (p := Proc.scScalar c) (b := shBRef c)).mpr rfl⟩
  rw [SparseCore.bigSep_erase' hA, SparseCore.bigSep_erase' hB]

/-! ## One thing for one task, as a family over the tasks -/

/-- `X` for the task numbered `n`, nothing for the others. -/
def onlyTask (n : ℕ) (X : sProp 𝕄) (i : Fin ((K (F := F)).nSub 0)) : sProp 𝕄 := if i.val = n then X else iprop(emp)

theorem filter_val_eq (n : ℕ) (hn : n < (K (F := F)).nSub 0) :
    (Finset.univ.filter fun i : Fin ((K (F := F)).nSub 0) => i.val = n) = {⟨n, hn⟩} :=
  Finset.ext fun i => by rw [Finset.mem_filter, Finset.mem_singleton]; exact ⟨fun h => Fin.ext h.2, fun h => ⟨Finset.mem_univ _, congrArg Fin.val h⟩⟩

theorem bigSep_onlyTask (n : ℕ) (hn : n < (K (F := F)).nSub 0) (X : sProp 𝕄) : (bigSep Finset.univ fun i => onlyTask n X i) = X := by
  unfold onlyTask
  have h := bigSep_filter Finset.univ (fun i : Fin ((K (F := F)).nSub 0) => i.val = n) (fun _ => X)
  rw [filter_val_eq n hn, bigSep_singleton] at h
  exact h.symm

theorem zero_lt_nSub : 0 < (K (F := F)).nSub 0 := show 0 < 16 by decide
theorem one_lt_nSub : 1 < (K (F := F)).nSub 0 := show 1 < 16 by decide

variable [FloatOps F]

/-! ## Per task -/

variable (d : Dev nD) (c : Fin ((K (F := F)).nCore 0)) (i : Fin ((K (F := F)).nSub 0))

/-- A shared buffer whole, at some contents. -/
abbrev anyA : sProp 𝕄 := iprop(∃ f, shALoc d (coreOf c) ↦{fullShare} f)
abbrev anyB : sProp 𝕄 := iprop(∃ f, shBLoc d (coreOf c) ↦{fullShare} f)

/-- Going: the table's share with the shared buffer is what the filling subcores are handed. -/
theorem fill_of_share :
    iprop(tblShare m d c i ∗ onlyTask 0 (anyA d c) i ∗ onlyTask 1 (anyB d c) i) ⊢ (iprop(fillA m d c i ∗ fillB m d c i) : sProp 𝕄) := by
  unfold tblShare onlyTask fillA fillB anyA anyB
  by_cases h0 : i.val = 0
  · have h1 : ¬ i.val = 1 := by omega
    rw [if_pos (Or.inl h0), if_pos h0, if_pos h0, if_neg h1, if_neg h1]
    iintro ⟨Ht, HA, HB⟩
    isplitl [Ht HA]
    · isplitl [Ht]; · iexact Ht
      iexact HA
    iexact HB
  · by_cases h1 : i.val = 1
    · rw [if_pos (Or.inr h1), if_neg h0, if_neg h0, if_pos h1, if_pos h1]
      iintro ⟨Ht, HA, HB⟩
      isplitl [HA]; · iexact HA
      isplitl [Ht]; · iexact Ht
      iexact HB
    · rw [if_neg (not_or.mpr ⟨h0, h1⟩), if_neg h0, if_neg h0, if_neg h1, if_neg h1]
      iintro ⟨-, HA, HB⟩
      isplitl [HA]; · iexact HA
      iexact HB

/-- Coming back: what the filling subcores return is the table's share. -/
theorem share_of_fill' : iprop(fillA' m d c i ∗ fillB' m d c i) ⊢ (tblShare m d c i : sProp 𝕄) := by
  unfold tblShare fillA' fillB'
  by_cases h0 : i.val = 0
  · have h1 : ¬ i.val = 1 := by omega
    rw [if_pos (Or.inl h0), if_pos h0, if_neg h1]
    iintro ⟨Ht, -⟩; iexact Ht
  · by_cases h1 : i.val = 1
    · rw [if_pos (Or.inr h1), if_neg h0, if_pos h1]
      iintro ⟨-, Ht⟩; iexact Ht
    · rw [if_neg (not_or.mpr ⟨h0, h1⟩), if_neg h0, if_neg h1]
      iintro ⟨H, -⟩; iexact H

/-- A task's operands out of its part of the SparseCore's and its part of the shared buffers. -/
theorem go_i :
    iprop(iprop((iLoc d ↦{wq (widOf c i)} idx3 m d) ∗ oPieces d (coordsOf c i) (m (oLoc d)) ∗ tblShare m d c i)
      ∗ iprop(onlyTask 0 (anyA d c) i ∗ onlyTask 1 (anyB d c) i)) ⊢ (goV m d c i : sProp 𝕄) := by
  unfold goV
  iintro ⟨⟨HI, HO, HT⟩, HA, HB⟩
  isplitl [HI]; · iexact HI
  isplitl [HO]; · iexact HO
  iapply (fill_of_share m d c i)
  isplitl [HT]; · iexact HT
  isplitl [HA]; · iexact HA
  iexact HB

/-- A task's results are its part of the SparseCore's and its shares of the shared buffers. -/
theorem td_i :
    (tdV m d c i : sProp 𝕄) ⊢ iprop(iprop((iLoc d ↦{wq (widOf c i)} idx3 m d) ∗ oPieces d (coordsOf c i) (outF m d) ∗ tblShare m d c i)
      ∗ iprop((shALoc d (coreOf c) ↦{sq (Fin.cast nSub_zero i)} tblA m d (coreOf c)) ∗ (shBLoc d (coreOf c) ↦{sq (Fin.cast nSub_zero i)} tblB m d (coreOf c)))) := by
  unfold tdV
  iintro ⟨HI, HO, HFA, HFB, HA, HB⟩
  isplitl [HI HO HFA HFB]
  · isplitl [HI]; · iexact HI
    isplitl [HO]; · iexact HO
    iapply (share_of_fill' m d c i)
    isplitl [HFA]; · iexact HFA
    iexact HFB
  isplitl [HA]; · iexact HA
  iexact HB

/-! ## The split -/

omit i in
theorem split_go : iprop(stV m d c ∗ anyA d c ∗ anyB d c) ⊢ (bigSep Finset.univ fun i : Fin ((K (F := F)).nSub 0) => goV m d c i : sProp 𝕄) := by
  have e : (bigSep Finset.univ fun i : Fin ((K (F := F)).nSub 0) =>
          iprop(iprop((iLoc d ↦{wq (widOf c i)} idx3 m d) ∗ oPieces d (coordsOf c i) (m (oLoc d)) ∗ tblShare m d c i)
            ∗ iprop(onlyTask 0 (anyA d c) i ∗ onlyTask 1 (anyB d c) i)) : sProp 𝕄) = iprop(stV m d c ∗ anyA d c ∗ anyB d c) := by
    rw [bigSep_sep' Finset.univ (fun i : Fin ((K (F := F)).nSub 0) => iprop((iLoc d ↦{wq (widOf c i)} idx3 m d) ∗ oPieces d (coordsOf c i) (m (oLoc d)) ∗ tblShare m d c i))
        (fun i => iprop(onlyTask 0 (anyA d c) i ∗ onlyTask 1 (anyB d c) i)),
      bigSep_sep' Finset.univ (onlyTask 0 (anyA d c)) (onlyTask 1 (anyB d c)), bigSep_onlyTask 0 zero_lt_nSub, bigSep_onlyTask 1 one_lt_nSub]
    rfl
  rw [← e]
  exact bigSep_mono fun i _ => go_i m d c i

omit i in
theorem join_td :
    (bigSep Finset.univ fun i : Fin ((K (F := F)).nSub 0) => tdV m d c i : sProp 𝕄)
      ⊢ iprop(dnV m d c ∗ (shALoc d (coreOf c) ↦{fullShare} tblA m d (coreOf c)) ∗ (shBLoc d (coreOf c) ↦{fullShare} tblB m d (coreOf c))) := by
  have e : (bigSep Finset.univ fun i : Fin ((K (F := F)).nSub 0) =>
          iprop(iprop((iLoc d ↦{wq (widOf c i)} idx3 m d) ∗ oPieces d (coordsOf c i) (outF m d) ∗ tblShare m d c i)
            ∗ iprop((shALoc d (coreOf c) ↦{sq (Fin.cast nSub_zero i)} tblA m d (coreOf c)) ∗ (shBLoc d (coreOf c) ↦{sq (Fin.cast nSub_zero i)} tblB m d (coreOf c)))) : sProp 𝕄)
        = iprop(dnV m d c ∗ (shALoc d (coreOf c) ↦{fullShare} tblA m d (coreOf c)) ∗ (shBLoc d (coreOf c) ↦{fullShare} tblB m d (coreOf c))) := by
    rw [bigSep_sep' Finset.univ (fun i : Fin ((K (F := F)).nSub 0) => iprop((iLoc d ↦{wq (widOf c i)} idx3 m d) ∗ oPieces d (coordsOf c i) (outF m d) ∗ tblShare m d c i))
        (fun i => iprop((shALoc d (coreOf c) ↦{sq (Fin.cast nSub_zero i)} tblA m d (coreOf c)) ∗ (shBLoc d (coreOf c) ↦{sq (Fin.cast nSub_zero i)} tblB m d (coreOf c)))),
      bigSep_sep' Finset.univ (fun i : Fin ((K (F := F)).nSub 0) => (shALoc d (coreOf c) ↦{sq (Fin.cast nSub_zero i)} tblA m d (coreOf c) : sProp 𝕄))
        (fun i => (shBLoc d (coreOf c) ↦{sq (Fin.cast nSub_zero i)} tblB m d (coreOf c) : sProp 𝕄)),
      ← pts_sq (tblA m d (coreOf c)), ← pts_sq (tblB m d (coreOf c))]
    rfl
  rw [← e]
  exact bigSep_mono fun i _ => td_i m d c i

omit d c i in
/-- A SparseCore's operands and its sequencer's own buffers are its sixteen tasks' operands; the tasks' results are the
    SparseCore's results and its sequencer's own buffers again. -/
theorem vecSplit : (K (F := F)).VecSplit (P m) 0 := by
  intro d c
  show iprop(stV m d c ∗ ownBufs (S d (coreOf c))) ⊢ |={Set.univ}=> iprop(
      (bigSep Finset.univ fun i : Fin ((K (F := F)).nSub 0) => goV m d c i)
      ∗ ((bigSep Finset.univ fun i : Fin ((K (F := F)).nSub 0) => tdV m d c i) -∗ iprop(dnV m d c ∗ ownBufs (S d (coreOf c)))))
  rw [ownBufs_S]
  iintro ⟨Hst, HA, HB, Hrest⟩; imodintro
  isplitl [Hst HA HB]
  · iapply (split_go m d c)
    isplitl [Hst]; · iexact Hst
    isplitl [HA]; · iexact HA
    iexact HB
  iintro Htd
  ihave Htd' := (join_td m d c) $$ Htd
  icases Htd' with ⟨Hdn, HA, HB⟩
  isplitl [Hdn]; · iexact Hdn
  isplitl [HA]
  · iexists tblA m d (coreOf c); iexact HA
  isplitl [HB]
  · iexists tblB m d (coreOf c); iexact HB
  iexact Hrest

end Cert.Proof.KB

end
-- ==== Proof.KB.Elem.lean ====
/-
  The launch element of the ghost state, and how it pays for every tile's barrier kit.

  The mathematics. The ghost state is a product: the launch handshakes' rounds, the barrier cells' rounds, the
  transfers' counters. Its launch element holds the handshakes' cells at their launch state, the barrier cell of EVERY
  tile (d, c, i) of the device (2 SparseCores × 16 vector subcores) at its launch state, with one duty token per pair
  (tile i, cell of tile j of the same SparseCore), and the unit of the counters. The product splits into its factors.
  The barrier factor funds, for every cell, its round state at counter zero, the fact that round 0 is reached, the
  owner's position at the origin of round 0, and the duty tokens. The barrier semaphores, all at zero, are among the
  free semaphores the launch hands over; a cell's round state beside its semaphore at zero is the body of its
  invariant, and all the invariants are allocated at once. The credit for what the tiles owe at the barrier (each tile
  a unit on each of the sixteen cells of its SparseCore) regroups by cell: sixteen units on every cell, which go to
  the cell's owner. Invariants and "reached" are persistent, so every tile may keep those of the sixteen cells of its
  SparseCore; positions, tokens and credit are dealt by tile. Both SparseCores run the call, so every tile has a kit;
  the TensorCore and the sequencers get nothing. What the duties hand over plays no part here: a duty's payload is
  handed over when the duty is done, in the body, not at the launch.
-/
import proofs.«203043_g45337674776592_cont_8to1_c_201_37_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

variable [FloatOps F]

/-! ## The launch element -/

/-- A tile of the device: its device, its SparseCore, its number. -/
abbrev DCI : Type := Dev nD × Fin τ.nSC × Fin τ.nSub
abbrev bcell₃ (x : DCI) : GSem nD τ sig := bcell x.1 x.2.1 x.2.2

/-- The barrier cell of every tile of the device. -/
def bCells : Finset (GSem nD τ sig) := Finset.univ.image bcell₃
/-- Tile i's token in tile j's cell, for every pair of tiles of one SparseCore. -/
def bToks : Finset (GSem nD τ sig × ℕ × ℕ) :=
  Finset.univ.image fun x : DCI × Fin (grid0.bound 1) => (bcell x.1.1 x.1.2.1 (x.2.castLE hsub0), 0, x.1.2.2.val)
/-- The launch element: the handshakes' cells, the barrier cells with their tokens, the counters' unit. -/
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The element splits into the handshakes' factor and the barrier cells' factor. -/
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

namespace Elem

omit [FloatOps F] in
/-- n units on one cell at one index, one at a time. -/
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

end Elem

open Elem

/-- The credit for the tiles' own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- The tokens, grouped by the tile that holds them. -/
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

/-- **The launch element pays for the launch**: the handshakes' factor is kept whole, no device asks anything more,
    and every thread gets what its proof consumes — each tile its barrier kit, the others nothing. -/
theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KB

end
-- ==== Proof.KB.Main.lean ====
/-
  @main on the TensorCore, and how the final memory reads the claim.

  The mathematics. Before the call the host regroups the row numbers `x` [4096, 100] row-major as [32, 128, 100]
  (`idx3`) and pads the table `a` [120, 200] with zero columns to [120, 256]: a zero scalar is broadcast to [120, 256]
  and updated by `a` at the origin, the two start indices being the constant 0 (`tblW`). None of these six operations
  writes `x`, `a` or the kernel's result array, so those three are still at their launch contents when the call starts.
  The call takes the regrouped row numbers and the padded table as 32 equal read shares, one per worker (of the table's
  only the two filling subcores' of each SparseCore are used), and the result array [4096, 100, 256] as the workers'
  half-rows, which are disjoint and cover it; it brings the row numbers back and the result at `outF`. After the call
  the host keeps the first 200 columns of the result: `resF`, by definition the slice of `outF`. So the run ends with
  the program's result at `resF` and the two arguments unchanged.
-/
import proofs.«203043_g45337674776592_cont_8to1_c_201_37_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

variable [FloatOps F]

namespace HostSide

/-! ## The TensorCore's ten arrays and the seven host operations -/

abbrev x' : DevRef τ sig := Proc.devRef .tc (main_arg0 : Ref sig .tc)
abbrev a' : DevRef τ sig := Proc.devRef .tc (main_arg1 : Ref sig .tc)
abbrev i' : DevRef τ sig := Proc.devRef .tc (main_v0 : Ref sig .tc)
abbrev cst' : DevRef τ sig := Proc.devRef .tc (main_cst : Ref sig .tc)
abbrev v1' : DevRef τ sig := Proc.devRef .tc (main_v1 : Ref sig .tc)
abbrev c' : DevRef τ sig := Proc.devRef .tc (main_c : Ref sig .tc)
abbrev c0' : DevRef τ sig := Proc.devRef .tc (main_c_0 : Ref sig .tc)
abbrev t' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev opRs : HloOp τ sig (Elt F) := StableHlo.reshape main_arg0 main_v0 rfl shapeCasts_S4096x100_S32x128x100
abbrev opCst : HloOp τ sig (Elt F) := StableHlo.nullary main_cst (constant S_ .f32 0x00000000#32)
abbrev opBc : HloOp τ sig (Elt F) :=
  StableHlo.unary main_cst main_v1 (broadcastInDim S120x256 ![] bcast_S_S120x256 : (⟨S_, .f32⟩ : BufTy).Contents (Elt F) → (⟨S120x256, .f32⟩ : BufTy).Contents (Elt F))
abbrev opC : HloOp τ sig (Elt F) := StableHlo.nullary main_c (constantI S_ 32 0#32)
abbrev opC0 : HloOp τ sig (Elt F) := StableHlo.nullary main_c_0 (constantI S_ 32 0#32)
abbrev opDus : HloOp τ sig (Elt F) :=
  StableHlo.binaryIndexed main_v1 main_arg1 ![main_c, main_c_0] ⟨S_, .i32⟩ main_v2
    ((fun x u i => Host.dynamicUpdateSlice x u (fun k => (i k (Shape.Idx.first h_S_)).toInt) updateFits_S120x256_S120x200) :
      (⟨S120x256, .f32⟩ : BufTy).Contents (Elt F) → (⟨S120x200, .f32⟩ : BufTy).Contents (Elt F) → (Fin 2 → (⟨S_, .i32⟩ : BufTy).Contents (Elt F)) → (⟨S120x256, .f32⟩ : BufTy).Contents (Elt F))
abbrev opSl : HloOp τ sig (Elt F) :=
  StableHlo.unary main_v3 main_v4 ((extractStridedSlice S4096x100x200 ![0, 0, 0] · slices_S4096x100x256_S4096x100x200_0_0_0) :
    (⟨S4096x100x256, .f32⟩ : BufTy).Contents (Elt F) → (⟨S4096x100x200, .f32⟩ : BufTy).Contents (Elt F))

/-- The TensorCore's arrays, all unscoped. -/
abbrev S10 : Finset (DevRef τ sig) := {x', a', i', cst', v1', c', c0', t', o', r'}
/-- The kernel's result and the program's. -/
abbrev S2 : Finset (DevRef τ sig) := {o', r'}

/-- The launch valuation and the valuations after each of the six operations before the call. -/
def V0 (d : Dev nD) : Valuation τ sig (Elt F) := fun b => m (d, b)
def V1 (d : Dev nD) : Valuation τ sig (Elt F) := (opRs (F := F)).result (V0 m d)
def V2 (d : Dev nD) : Valuation τ sig (Elt F) := (opCst (F := F)).result (V1 m d)
def V3 (d : Dev nD) : Valuation τ sig (Elt F) := (opBc (F := F)).result (V2 m d)
def V4 (d : Dev nD) : Valuation τ sig (Elt F) := (opC (F := F)).result (V3 m d)
def V5 (d : Dev nD) : Valuation τ sig (Elt F) := (opC0 (F := F)).result (V4 m d)
def V6 (d : Dev nD) : Valuation τ sig (Elt F) := (opDus (F := F)).result (V5 m d)

theorem V1_ne (d : Dev nD) {b : DevRef τ sig} (h : b ≠ i') : V1 m d b = V0 m d b :=
  (opRs (F := F)).result_of_not_mem _ (show b ∉ ({i'} : Finset (DevRef τ sig)) from fun e => h (Finset.mem_singleton.mp e))
theorem V2_ne (d : Dev nD) {b : DevRef τ sig} (h : b ≠ cst') : V2 m d b = V1 m d b :=
  (opCst (F := F)).result_of_not_mem _ (show b ∉ ({cst'} : Finset (DevRef τ sig)) from fun e => h (Finset.mem_singleton.mp e))
theorem V3_ne (d : Dev nD) {b : DevRef τ sig} (h : b ≠ v1') : V3 m d b = V2 m d b :=
  (opBc (F := F)).result_of_not_mem _ (show b ∉ ({v1'} : Finset (DevRef τ sig)) from fun e => h (Finset.mem_singleton.mp e))
theorem V4_ne (d : Dev nD) {b : DevRef τ sig} (h : b ≠ c') : V4 m d b = V3 m d b :=
  (opC (F := F)).result_of_not_mem _ (show b ∉ ({c'} : Finset (DevRef τ sig)) from fun e => h (Finset.mem_singleton.mp e))
theorem V5_ne (d : Dev nD) {b : DevRef τ sig} (h : b ≠ c0') : V5 m d b = V4 m d b :=
  (opC0 (F := F)).result_of_not_mem _ (show b ∉ ({c0'} : Finset (DevRef τ sig)) from fun e => h (Finset.mem_singleton.mp e))
theorem V6_ne (d : Dev nD) {b : DevRef τ sig} (h : b ≠ t') : V6 m d b = V5 m d b :=
  (opDus (F := F)).result_of_not_mem _ (show b ∉ ({t'} : Finset (DevRef τ sig)) from fun e => h (Finset.mem_singleton.mp e))

/-- An array none of the six operations writes is at its launch contents before the call. -/
theorem V6_launch (d : Dev nD) {b : DevRef τ sig} (h1 : b ≠ i') (h2 : b ≠ cst') (h3 : b ≠ v1') (h4 : b ≠ c') (h5 : b ≠ c0') (h6 : b ≠ t') :
    V6 m d b = m (d, b) := by
  rw [V6_ne m d h6, V5_ne m d h5, V4_ne m d h4, V3_ne m d h3, V2_ne m d h2, V1_ne m d h1]; rfl

theorem V6_x (d : Dev nD) : V6 m d x' = m (xLoc d) := V6_launch m d (by decide) (by decide) (by decide) (by decide) (by decide) (by decide)
theorem V6_a (d : Dev nD) : V6 m d a' = m (aLoc d) := V6_launch m d (by decide) (by decide) (by decide) (by decide) (by decide) (by decide)
theorem V6_o (d : Dev nD) : V6 m d o' = m (oLoc d) := V6_launch m d (by decide) (by decide) (by decide) (by decide) (by decide) (by decide)

/-- The regrouped row numbers: the reshape's result, untouched by the five operations after it. -/
theorem V6_i (d : Dev nD) : V6 m d i' = idx3 m d := by
  rw [V6_ne m d (by decide), V5_ne m d (by decide), V4_ne m d (by decide), V3_ne m d (by decide), V2_ne m d (by decide)]
  exact (StableHlo.reshape_result main_arg0 main_v0 rfl shapeCasts_S4096x100_S32x128x100 _ _ (V0 m d)).trans rfl

theorem V5_v1 (d : Dev nD) : V5 m d v1' = broadcastInDim S120x256 ![] bcast_S_S120x256 (constant (F := F) S_ .f32 0x00000000#32) := by
  rw [V5_ne m d (by decide), V4_ne m d (by decide)]
  refine (StableHlo.unary_result main_cst main_v1 _ _ _ (V2 m d)).trans ?_
  exact congrArg _ (StableHlo.nullary_result main_cst _ _ (V1 m d))
theorem V5_a (d : Dev nD) : V5 m d a' = m (aLoc d) := by
  rw [V5_ne m d (by decide), V4_ne m d (by decide), V3_ne m d (by decide), V2_ne m d (by decide), V1_ne m d (by decide)]; rfl
theorem V5_c (d : Dev nD) : V5 m d c' = (constantI S_ 32 0#32 : IVec S_ 32) := by
  rw [V5_ne m d (by decide)]
  exact StableHlo.nullary_result main_c _ _ (V3 m d)
theorem V5_c0 (d : Dev nD) : V5 m d c0' = (constantI S_ 32 0#32 : IVec S_ 32) :=
  StableHlo.nullary_result main_c_0 _ _ (V4 m d)

/-- The padded table: the update of the broadcast zero by the table at the origin. -/
theorem V6_t (d : Dev nD) : V6 m d t' = tblW m d := by
  refine (StableHlo.binaryIndexed_result main_v1 main_arg1 ![main_c, main_c_0] ⟨S_, .i32⟩ main_v2 _ _ _ _ _ _ (V5 m d)).trans ?_
  unfold tblW
  have key : ∀ (hT : ∀ k : Fin 2, ((![main_c, main_c_0] k : Ref sig .tc)).ty = (⟨S_, .i32⟩ : BufTy)) (k : Fin 2),
      ((cast (congrArg (fun U : BufTy => U.Contents (Elt F)) (hT k)) (V5 m d (Proc.devRef .tc (![main_c, main_c_0] k : Ref sig .tc)))) (Shape.Idx.first h_S_)).toInt
        = ((constantI S_ 32 0#32 : IVec S_ 32) (Shape.Idx.first h_S_)).toInt := by
    intro hT k
    fin_cases k
    · show ((V5 m d c') (Shape.Idx.first h_S_)).toInt = _
      rw [V5_c]
    · show ((V5 m d c0') (Shape.Idx.first h_S_)).toInt = _
      rw [V5_c0]
  show Host.dynamicUpdateSlice (V5 m d v1') (V5 m d a') _ updateFits_S120x256_S120x200 = _
  rw [V5_v1, V5_a]
  refine congrArg (fun g => Host.dynamicUpdateSlice _ _ g updateFits_S120x256_S120x200) ?_
  funext k
  exact key (by decide) k

/-! ## The arrays held, one by one -/

theorem held_S10 (d : Dev nD) (W : Valuation τ sig (Elt F)) :
    (held (T d) S10 W : sProp 𝕄)
      = iprop((xLoc d ↦{fullShare} W x') ∗ (aLoc d ↦{fullShare} W a') ∗ (iLoc d ↦{fullShare} W i')
          ∗ ((SparseCore.T d).loc main_cst ↦{fullShare} W cst') ∗ ((SparseCore.T d).loc main_v1 ↦{fullShare} W v1')
          ∗ ((SparseCore.T d).loc main_c ↦{fullShare} W c') ∗ ((SparseCore.T d).loc main_c_0 ↦{fullShare} W c0')
          ∗ (tLoc d ↦{fullShare} W t') ∗ (oLoc d ↦{fullShare} W o') ∗ rLoc d ↦{fullShare} W r') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (iLoc d ↦{fullShare} W main_v0)
          ∗ ((SparseCore.T d).loc main_cst ↦{fullShare} W main_cst) ∗ ((SparseCore.T d).loc main_v1 ↦{fullShare} W main_v1)
          ∗ ((SparseCore.T d).loc main_c ↦{fullShare} W main_c) ∗ ((SparseCore.T d).loc main_c_0 ↦{fullShare} W main_c_0)
          ∗ (tLoc d ↦{fullShare} W main_v2) ∗ (oLoc d ↦{fullShare} W main_v3) ∗ rLoc d ↦{fullShare} W main_v4) := by
  unfold unscopedBufs
  rw [show (Finset.univ.filter fun b : Ref sig .tc => ¬ b.isScoped)
      = {main_arg0, main_arg1, main_v0, main_cst, main_v1, main_c, main_c_0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S10 (V0 m d) := by
  rw [unscopedBufs_eq, held_S10]; rfl

theorem hRs : (opRs (F := F)).bufs ⊆ S10 := show ({x', i'} : Finset (DevRef τ sig)) ⊆ S10 by decide
theorem hCst : (opCst (F := F)).bufs ⊆ S10 := show ({cst'} : Finset (DevRef τ sig)) ⊆ S10 by decide
theorem hBc : (opBc (F := F)).bufs ⊆ S10 := show ({cst', v1'} : Finset (DevRef τ sig)) ⊆ S10 by decide
theorem hC : (opC (F := F)).bufs ⊆ S10 := show ({c'} : Finset (DevRef τ sig)) ⊆ S10 by decide
theorem hC0 : (opC0 (F := F)).bufs ⊆ S10 := show ({c0'} : Finset (DevRef τ sig)) ⊆ S10 by decide
theorem hDus : (opDus (F := F)).bufs ⊆ S10 :=
  show (insert v1' (insert a' (insert t' (Finset.univ.image fun k : Fin 2 => (Proc.devRef .tc (![main_c, main_c_0] k : Ref sig .tc) : DevRef τ sig)))) : Finset (DevRef τ sig)) ⊆ S10 by decide
theorem hSl : (opSl (F := F)).bufs ⊆ S2 := show ({o', r'} : Finset (DevRef τ sig)) ⊆ S2 by decide

/-! ## The call's operands and results, regrouped -/

theorem P_st (d : Dev nD) (c : Fin ((K (F := F)).nCore 0)) : (P m).st 0 d c = stV m d c := rfl
theorem P_dn (d : Dev nD) (c : Fin ((K (F := F)).nCore 0)) : (P m).dn 0 d c = dnV m d c := rfl

theorem st_split (d : Dev nD) (f : Buf (Elt F) (oLoc d)) :
    (bigSep Finset.univ fun c : Fin ((K (F := F)).nCore 0) => bigSep Finset.univ fun i : Fin ((K (F := F)).nSub 0) =>
        iprop((iLoc d ↦{wq (widOf c i)} idx3 m d) ∗ oPieces d (coordsOf c i) f ∗ tblShare m d c i) : sProp 𝕄)
      = iprop((iLoc d ↦{fullShare} idx3 m d) ∗ (oLoc d ↦{fullShare} f)
          ∗ bigSep Finset.univ fun c : Fin ((K (F := F)).nCore 0) => bigSep Finset.univ fun i : Fin ((K (F := F)).nSub 0) => tblShare m d c i) := by
  rw [pts_wq (idx3 m d), oPts_pieces d f]
  simp only [bigSep_sep']

/-- A read share of the padded table per worker gives the two filling subcores theirs; the others' are let go. -/
theorem tbl_shares (d : Dev nD) :
    (tLoc d ↦{fullShare} tblW m d : sProp 𝕄)
      ⊢ bigSep Finset.univ fun c : Fin ((K (F := F)).nCore 0) => bigSep Finset.univ fun i : Fin ((K (F := F)).nSub 0) => tblShare m d c i := by
  rw [pts_wq (tblW m d)]
  refine bigSep_mono fun c _ => bigSep_mono fun i _ => ?_
  unfold tblShare
  split
  · exact BI.Entails.refl _
  · exact Idealize.SL.BI.Laws.affine (PROP := sProp 𝕄)

theorem st_intro (d : Dev nD) :
    iprop((iLoc d ↦{fullShare} idx3 m d) ∗ (oLoc d ↦{fullShare} m (oLoc d)) ∗ (tLoc d ↦{fullShare} tblW m d))
      ⊢ (bigSep Finset.univ fun c : Fin ((K (F := F)).nCore 0) => (P m).st 0 d c : sProp 𝕄) := by
  simp only [P_st]
  unfold stV
  rw [st_split]
  iintro ⟨Hi, Ho, Ht⟩
  isplitl [Hi]; · iexact Hi
  isplitl [Ho]; · iexact Ho
  iapply (tbl_shares m d); iexact Ht

theorem dn_elim (d : Dev nD) :
    (bigSep Finset.univ fun c : Fin ((K (F := F)).nCore 0) => (P m).dn 0 d c : sProp 𝕄)
      ⊢ iprop((iLoc d ↦{fullShare} idx3 m d) ∗ (oLoc d ↦{fullShare} outF m d)) := by
  simp only [P_dn]
  unfold dnV
  rw [st_split]
  iintro ⟨Hi, Ho, -⟩
  isplitl [Hi]; · iexact Hi
  iexact Ho

/-! ## Before the call and after the slice -/

theorem held_V6 (d : Dev nD) :
    (held (T d) S10 ((opDus (F := F)).result ((opC0 (F := F)).result ((opC (F := F)).result ((opBc (F := F)).result
        ((opCst (F := F)).result ((opRs (F := F)).result (V0 m d))))))) : sProp 𝕄)
      = iprop((xLoc d ↦{fullShare} m (xLoc d)) ∗ (aLoc d ↦{fullShare} m (aLoc d)) ∗ (iLoc d ↦{fullShare} idx3 m d)
          ∗ ((SparseCore.T d).loc main_cst ↦{fullShare} V6 m d cst') ∗ ((SparseCore.T d).loc main_v1 ↦{fullShare} V6 m d v1')
          ∗ ((SparseCore.T d).loc main_c ↦{fullShare} V6 m d c') ∗ ((SparseCore.T d).loc main_c_0 ↦{fullShare} V6 m d c0')
          ∗ (tLoc d ↦{fullShare} tblW m d) ∗ (oLoc d ↦{fullShare} m (oLoc d)) ∗ rLoc d ↦{fullShare} V6 m d r') := by
  show held (SparseCore.T d) S10 (V6 m d) = _
  rw [held_S10, V6_x, V6_a, V6_i, V6_t, V6_o]

/-- After the call: the kernel's result at `outF`, the program's result whatever it held. -/
def V7 (d : Dev nD) : Valuation τ sig (Elt F) := Function.update (V6 m d) o' (outF m d)
theorem V7_o (d : Dev nD) : V7 m d o' = outF m d := Function.update_self _ _ _
theorem V7_r (d : Dev nD) : V7 m d r' = V6 m d r' := Function.update_of_ne (show r' ≠ o' by decide) _ _

theorem V8_r (d : Dev nD) : (opSl (F := F)).result (V7 m d) r' = resF m d := by
  refine (StableHlo.unary_result main_v3 main_v4 _ _ _ (V7 m d)).trans ?_
  show extractStridedSlice S4096x100x200 ![0, 0, 0] (V7 m d o') slices_S4096x100x256_S4096x100x200_0_0_0 = _
  rw [V7_o]; rfl

theorem held_V8 (d : Dev nD) :
    (held (T d) S2 ((opSl (F := F)).result (V7 m d)) : sProp 𝕄)
      = iprop((oLoc d ↦{fullShare} (opSl (F := F)).result (V7 m d) o') ∗ rLoc d ↦{fullShare} resF m d) := by
  rw [held_S2, V8_r]

end HostSide

open HostSide

/-! ## @main on the TensorCore -/

/-- What the TensorCore ends with: the program's result, and the two arguments at their launch contents. -/
abbrev FIN (d : Dev nD) : sProp 𝕄 :=
  iprop((rLoc d ↦{fullShare} resF m d) ∗ (xLoc d ↦{fullShare} m (xLoc d)) ∗ (aLoc d ↦{fullShare} m (aLoc d)))

/-- @main on device `d`'s TensorCore: the reshape, the zero array and the update of it by the table (six operations over
    the ten arrays held whole), the call — the regrouped row numbers and the padded table out as read shares, the
    result out as the workers' half-rows, and back —, the slice of the first 200 columns. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRs) (S := S10) hRs (V := V0 m d)) $$ [Hb Hheld]
  · isplitl [Hb] <;> iassumption
  iintro ⟨Hb, Hheld⟩
  rw [wp_ret]; imodintro
  iapply (wp_hlo_within 𝒱 (SparseCore.T d) none Set.univ (op := opCst) (S := S10) hCst (V := (opRs (F := F)).result (V0 m d))) $$ [Hb Hheld]
  · isplitl [Hb] <;> iassumption
  iintro ⟨Hb, Hheld⟩
  rw [wp_ret]; imodintro
  iapply (wp_hlo_within 𝒱 (SparseCore.T d) none Set.univ (op := opBc) (S := S10) hBc
      (V := (opCst (F := F)).result ((opRs (F := F)).result (V0 m d)))) $$ [Hb Hheld]
  · isplitl [Hb] <;> iassumption
  iintro ⟨Hb, Hheld⟩
  rw [wp_ret]; imodintro
  iapply (wp_hlo_within 𝒱 (SparseCore.T d) none Set.univ (op := opC) (S := S10) hC
      (V := (opBc (F := F)).result ((opCst (F := F)).result ((opRs (F := F)).result (V0 m d))))) $$ [Hb Hheld]
  · isplitl [Hb] <;> iassumption
  iintro ⟨Hb, Hheld⟩
  rw [wp_ret]; imodintro
  iapply (wp_hlo_within 𝒱 (SparseCore.T d) none Set.univ (op := opC0) (S := S10) hC0
      (V := (opC (F := F)).result ((opBc (F := F)).result ((opCst (F := F)).result ((opRs (F := F)).result (V0 m d)))))) $$ [Hb Hheld]
  · isplitl [Hb] <;> iassumption
  iintro ⟨Hb, Hheld⟩
  rw [wp_ret]; imodintro
  iapply (wp_hlo_within 𝒱 (SparseCore.T d) none Set.univ (op := opDus) (S := S10) hDus
      (V := (opC0 (F := F)).result ((opC (F := F)).result ((opBc (F := F)).result ((opCst (F := F)).result ((opRs (F := F)).result (V0 m d))))))) $$ [Hb Hheld]
  · isplitl [Hb] <;> iassumption
  iintro ⟨Hb, Hheld⟩
  rw [wp_ret]; imodintro
  -- the call
  ihave Hh := (Entails.of_eq (held_V6 (F := F) m d)) $$ Hheld
  icases Hh with ⟨Hx, Ha, Hi, -, -, -, -, Ht, Ho, Hr⟩
  iapply ((K (F := F)).wp_run (D (F := F)) 𝒱 (EH := EH) (P := P m) κ d 0) $$ [Hst Hi Ht Ho Hx Ha Hr Hb]
  isplitr; · iexact Hctx
  isplitl [Hst]; · iexact Hst
  isplitl [Hi Ht Ho]
  · iapply (st_intro m d)
    isplitl [Hi]; · iexact Hi
    isplitl [Ho]; · iexact Ho
    iexact Ht
  iintro ⟨Hst, Hdn⟩
  ihave Hdn' := (dn_elim m d) $$ Hdn
  icases Hdn' with ⟨-, Ho⟩
  -- the slice
  iapply (wp_hlo_within 𝒱 (SparseCore.T d) none Set.univ (op := opSl) (S := S2) hSl (V := V7 m d)) $$ [Hb Ho Hr]
  · isplitl [Hb]; · iexact Hb
    rw [held_S2, V7_o, V7_r]
    isplitl [Ho]; · iexact Ho
    iexact Hr
  iintro ⟨Hb, Hheld⟩
  ihave Hh := (Entails.of_eq (held_V8 (F := F) m d)) $$ Hheld
  icases Hh with ⟨-, Hr⟩
  rw [wp_ret]; imodintro; imodintro
  isplitl [Hst]; · iexact Hst
  isplitl [Hr]; · iexact Hr
  isplitl [Hx]; · iexact Hx
  iexact Ha

/-! ## How the final memory reads the claim -/

def fq (d : Dev nD) (s' : Phys nD τ sig (Elt F)) : Prop :=
  s'.mem.mem (rLoc d) = resF m d ∧ s'.mem.mem (xLoc d) = m (xLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hr, Hx, Ha⟩, HSI⟩
  ihave H := (persistent_entails_right (SI_pointsTo_agree (st := s') (ℓ := rLoc d) (I := Finset.univ) (q := fullShare) (f := resF m d))) $$ [HSI Hr]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := aLoc d) (I := Finset.univ) (q := fullShare) (f := m (aLoc d))) $$ [HSI Ha]
  · isplitl [HSI] <;> iassumption
  icases H with %h3
  ipureintro
  exact ⟨funext fun i => h1 i (Finset.mem_univ i), funext fun i => h2 i (Finset.mem_univ i), funext fun i => h3 i (Finset.mem_univ i)⟩

theorem hQ : ∀ s' : Phys nD τ sig (Elt F), (∀ d, fq m d s') → QC m (⟨⟩, s'.mem) := fun _ h => h

end Cert.Proof.KB

end
-- ==== Proof.KB.Run.lean ====
/-
  The program's run: every weakly fair execution of @main on the TensorCore and of the one call's tasks on the 32 vector
  subcores terminates with the result at `resF` and the two arguments unchanged — the launch theorem applied to the
  task's obligation, the split of a SparseCore's operands, the launch element, @main's proof and the reading of the
  final memory. The claim's precondition gives what the proof asks of the launch memory (every row number in 0 … 119).
-/
import proofs.«203043_g45337674776592_cont_8to1_c_201_37_alg».proof.Proof.KB.Body
import proofs.«203043_g45337674776592_cont_8to1_c_201_37_alg».proof.Proof.KB.Split
import proofs.«203043_g45337674776592_cont_8to1_c_201_37_alg».proof.Proof.KB.Elem
import proofs.«203043_g45337674776592_cont_8to1_c_201_37_alg».proof.Proof.KB.Main
import proofs.«203043_g45337674776592_cont_8to1_c_201_37_alg».proof.Proof.KB.Value
import proofs.«203043_g45337674776592_cont_8to1_c_201_37_alg».proof.Proof.PreRange

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)
variable [FloatOps F]

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => vecSplit m)
    m ρ main (fun _ => iprop(emp)) (FIN m) (u₀ (F := F)) (hu₀ m) (hmain m ρ) (fq m) (hfin m) (QC m) (hQ m)

/-- The claim's precondition — every table entry finite and every row number in 0 … 119, as jax computes it, all ones —
    gives what the proof asks of the launch memory. -/
theorem ok_of_pre [Cert.Pre_input_domain.Facts] (h : ∀ c : Dev nD, Cert.Pre_input_domain.fn (F := F) (m (xLoc c)) (m (aLoc c)) = fun _ => 1#1) : PreOK m :=
  fun d j => Cert.Proof.PreRange.range (m (xLoc d)) (m (aLoc d)) (h d) j

end Cert.Proof.KB

end
-- ==== Proof.RefTerm.lean ====
/-
  What the reference program computes, as one function of its two arguments. The program compares the index array with 0
  and, where an entry is negative, adds the number of rows (120) to it; gives the wrapped indices a trailing axis of
  extent 1; tests them for lying in 0 … 119; gathers the table's rows at the wrapped indices (a gather clamps each start
  index into the table); and where the test failed replaces the result by a NaN. Each stage is a definition here, written
  with the program's own operations and shape facts, generic in how floats are read; `refOut` is the whole at the ideal
  reading.
-/
import proofs.«203043_g45337674776592_cont_8to1_c_201_37_alg».proof.ReferenceIdeal
import proofs.«203043_g45337674776592_cont_8to1_c_201_37_alg».proof.Proof.Spec

noncomputable section

namespace Cert.Proof.Ref

open Cert.ReferenceIdeal Cert.ReferenceIdeal.Facts₀ Idealize.ShloMosaic

variable [Cert.ReferenceIdeal.Facts]

/-! ## The pieces of the result, as functions of the arguments -/

section Pieces
variable {F : FTy → Type} [FloatOps F]

/-- The index array with negative entries wrapped: where x < 0 (signed) the entry is x + 120, elsewhere x. -/
def wrapIdx (x : IVec S4096x100 32) : IVec S4096x100 32 :=
  select (cmpi .slt x (broadcastInDim S4096x100 ![] bcast_S_S4096x100 (constantI S_ 32 0#32)))
    (addi x (broadcastInDim S4096x100 ![] bcast_S_S4096x100 (constantI S_ 32 120#32))) x

/-- The same indices with a trailing axis of extent 1: the gather's start indices. -/
def startIdx (x : IVec S4096x100 32) : IVec S4096x100x1 32 :=
  broadcastInDim S4096x100x1 ![0, 1] bcast_S4096x100_S4096x100x1_0_1 (wrapIdx x)

/-- Per entry, whether the wrapped index lies in 0 … 119 (signed): the conjunction over the trailing axis of
    0 ≤ index and index ≤ 119. -/
def inRange (x : IVec S4096x100 32) : IVec S4096x100 1 :=
  Host.reduce IntOp.andi
    (andi (cmpi .sge (startIdx x) (broadcastInDim S4096x100x1 ![] bcast_S_S4096x100x1 (constantI S_ 32 0#32)))
      (cmpi .sle (startIdx x)
        (broadcastInDim S4096x100x1 ![0, 1, 2] bcast_S1x1x1_S4096x100x1_0_1_2
          (broadcastInDim S1x1x1 ![2] bcast_S1_S1x1x1_2 (constantI S1 32 119#32)))))
    (constantI S_ 1 1#1) reducesTo_S4096x100x1_S4096x100_d2 h_S_

/-- The table's rows gathered at the start indices. -/
def gathered (x : IVec S4096x100 32) (a : FVec F S120x200 .f32) : FVec F S4096x100x200 .f32 :=
  Host.gather gather_S120x200_S4096x100x1_S4096x100x200_2_0_n_n_0_2_1200 a (startIdx x)

/-- The whole result: the gathered rows where the index was in range, a NaN elsewhere. -/
def out (x : IVec S4096x100 32) (a : FVec F S120x200 .f32) : FVec F S4096x100x200 .f32 :=
  select (broadcastInDim S4096x100x200 ![0, 1] bcast_S4096x100_S4096x100x200_0_1 (inRange x)) (gathered x a)
    (broadcastInDim S4096x100x200 ![] bcast_S_S4096x100x200 (constant (F := F) S_ .f32 0x7FC00000#32))

end Pieces

/-- The reference's result at the ideal reading of floats, as a function of the index array and the table. -/
def refOut (x : IVec Cert.Proof.Spec.SX 32) (a : FVec Ideal Cert.Proof.Spec.SA .f32) : FVec Ideal Cert.Proof.Spec.SO .f32 :=
  out (F := Ideal) x a

end Cert.Proof.Ref

end
-- ==== Proof.RefRun.lean ====
/-
  The reference program's run, read back. Its entry point is one call of the lookup function, whose body is a straight
  line of twenty-three array operations (one of them, a select, inside a further call). Listed in order over the buffers
  the calls name, the operations are a list; the program is that list run in sequence; and what the result buffer holds at
  the end is the composition of the operations' functions applied to the two argument arrays, which is `refOut`, while the
  argument buffers are written by no operation. No array operation can fault, so this holds from every starting memory and
  needs no precondition.
-/
import proofs.«203043_g45337674776592_cont_8to1_c_201_37_alg».proof.Proof.Gen.ReferenceIdeal
import proofs.«203043_g45337674776592_cont_8to1_c_201_37_alg».proof.Proof.RefTerm
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable [Cert.ReferenceIdeal.Facts]

/-! ## The program as a list of operations -/

variable {F : FTy → Type} [FloatOps F]

/-- The program's twenty-three operations in order, the two calls unfolded over the buffers they name. -/
abbrev ops : List (HloOp τ sig (Elt F)) :=
  [ TRef.nullary main_call0.c (constantI S_ 32 0#32),
    TRef.unary main_call0.c main_call0.v0 (broadcastInDim S4096x100 ![] bcast_S_S4096x100),
    TRef.binary (.of main_arg0 : TRef sig ⟨S4096x100, .i32⟩) main_call0.v0 main_call0.v1 (cmpi .slt),
    TRef.nullary main_call0.c_0 (constantI S_ 32 120#32),
    TRef.unary main_call0.c_0 main_call0.v2 (broadcastInDim S4096x100 ![] bcast_S_S4096x100),
    TRef.binary (.of main_arg0 : TRef sig ⟨S4096x100, .i32⟩) main_call0.v2 main_call0.v3 addi,
    TRef.ternary main_call0.v1 main_call0.v3 (.of main_arg0 : TRef sig ⟨S4096x100, .i32⟩) main_call0.call0.v0 select,
    TRef.unary main_call0.call0.v0 main_call0.v5 (broadcastInDim S4096x100x1 ![0, 1] bcast_S4096x100_S4096x100x1_0_1),
    TRef.nullary main_call0.c_1 (constantI S1 32 119#32),
    TRef.nullary main_call0.c_2 (constantI S_ 32 0#32),
    TRef.unary main_call0.c_2 main_call0.v6 (broadcastInDim S4096x100x1 ![] bcast_S_S4096x100x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x100x1 ![0, 1, 2] bcast_S1x1x1_S4096x100x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x100x1_S4096x100_d2 h_S_),
    TRef.binary (.of main_arg1 : TRef sig ⟨S120x200, .f32⟩) main_call0.v5 main_call0.v13 (fun x i => Host.gather gather_S120x200_S4096x100x1_S4096x100x200_2_0_n_n_0_2_1200 x i),
    TRef.unary main_call0.v12 main_call0.v14 (broadcastInDim S4096x100x200 ![0, 1] bcast_S4096x100_S4096x100x200_0_1),
    TRef.nullary main_call0.cst (constant S_ .f32 0x7FC00000#32),
    TRef.unary main_call0.cst main_call0.v15 (broadcastInDim S4096x100x200 ![] bcast_S_S4096x100x200),
    TRef.ternary main_call0.v14 main_call0.v13 main_call0.v15 main_call0.v16 select ]

set_option maxRecDepth 1024 in
/-- The program is that list run in sequence: the two functions' definitions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the buffers hold after the list -/

section Casts
variable {T : BufTy} {Val : EltTy → Type}

/-- An operation of a called function moves its operands from their buffers' types to the values' types and its result
    back; between one operation's result and the next one's operand the two moves cancel. -/
theorem ofBuf_toBuf (x : TRef sig T) (v : T.Contents Val) : x.ofBuf (x.toBuf v) = v := by
  obtain ⟨r, rfl, _, _⟩ := x
  rfl

end Casts

attribute [local irreducible] Host.reduce Host.gather in
set_option maxRecDepth 8192 in
/-- The result buffer after the list, from any contents `V`: each operation's result is read at the buffer it writes, back
    to the two argument buffers; the moves between buffer types and value types cancel; what is left is `out` at the
    arguments' contents, the same term. -/
theorem out_eq (V : Valuation τ sig (Elt F)) :
    after ops V (main_v0 : DevRef τ sig) = out (V (main_arg0 : DevRef τ sig)) (V (main_arg1 : DevRef τ sig)) := by
  after_results
  simp only [ofBuf_toBuf]
  rfl

/-- No operation writes the index array's buffer. -/
theorem arg0_eq (V : Valuation τ sig (Elt F)) :
    after ops V (main_arg0 : DevRef τ sig) = V (main_arg0 : DevRef τ sig) := by
  after_results

/-- No operation writes the table's buffer. -/
theorem arg1_eq (V : Valuation τ sig (Elt F)) :
    after ops V (main_arg1 : DevRef τ sig) = V (main_arg1 : DevRef τ sig) := by
  after_results

/-! ## The run -/

/-- From any memory with zero counters, for any float values: every weakly fair execution of the program terminates, and
    every final state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- At the ideal reading of floats: every weakly fair execution of the reference terminates with the result buffer at
    `refOut` of the two argument arrays as the launch memory held them, and the argument buffers unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩
      (fun r => ∀ c : Dev Cert.ReferenceIdeal.nD,
        r.2.mem ((c.tc : Thread Cert.ReferenceIdeal.nD Cert.ReferenceIdeal.τ).loc Cert.ReferenceIdeal.main_v0)
            = refOut (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run defs _ _).mono
    (fun _ h c => ⟨(h c main_v0).trans (out_eq (F := Ideal) (launchContents m' c)),
      (h c main_arg0).trans (arg0_eq (F := Ideal) (launchContents m' c)),
      (h c main_arg1).trans (arg1_eq (F := Ideal) (launchContents m' c))⟩)
    (run_main (F := Ideal) m' g')

end Cert.Proof.Ref

end
-- ==== Proof.LibGatherRows.lean ====
/-
  A gather of whole rows, read at an index. Indexing a table `x : [N, K]` by an integer array `idx : [R, C]` along the
  first axis (`x[idx]`, `take(x, idx, axis=0)`) is a gather whose start indices carry a trailing axis of extent 1: the
  result axis 2 is the offset axis, operand axis 0 is collapsed and is the one the start index addresses, and a slice is
  one whole row (sizes 1 and K). The result at (r, j, k) is entry k of the row whose number is the start index
  idx[r, j, 0], read as a signed integer and clamped into 0 … N − 1, as a gather clamps every start index.
-/
import Idealize.ShloMosaic.Lib.ValueIdx

noncomputable section

namespace Idealize.ShloMosaic.ValueIdx

open Idealize.ShloMosaic

section TakeRows
variable {α : Type}

/-- The dimension numbers of a gather of whole rows: operand `[N, K]`, start indices `[R, C, 1]`, result `[R, C, K]`. -/
abbrev takeRowsDims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- THE GATHER OF ROWS READ AT `(r, j, k)`: entry `k` of the row numbered by the start index `idx[r, j, 0]`, read signed
    and clamped into `[0, N − 1]`. -/
theorem gather_rows_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (j : Fin C) (k : Fin K) :
    Host.gather (takeRowsDims N K R C wf) x idx (ix3 r j k)
      = x (ix2 ⟨min (idx (ix3 r j ⟨0, Nat.one_pos⟩)).toInt.toNat (N - 1), by omega⟩ k) := by
  unfold Host.gather
  congr 1
  funext a
  refine Fin.ext ?_
  show (takeRowsDims N K R C wf).start (ix3 r j k) idx a + (takeRowsDims N K R C wf).batchCoord (ix3 r j k) a
    + (takeRowsDims N K R C wf).offCoord (ix3 r j k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin (⟨2, ![N, K]⟩ : Shape).rank) ∈ (takeRowsDims N K R C wf).startIndexMap from List.mem_singleton.mpr rfl)]
    have hsi : (takeRowsDims N K R C wf).siIdx (ix3 r j k) ⟨List.idxOf (⟨0, h0⟩ : Fin (⟨2, ![N, K]⟩ : Shape).rank) (takeRowsDims N K R C wf).startIndexMap,
        List.idxOf_lt_length_iff.2 (List.mem_singleton.mpr rfl)⟩ = ix3 r j ⟨0, Nat.one_pos⟩ := by
      funext b; refine Fin.ext ?_
      match b with
      | ⟨0, _⟩ => rfl
      | ⟨1, _⟩ => rfl
      | ⟨2, _⟩ => rfl
    rw [hsi]
    rfl
  | ⟨1, h1⟩ =>
    have hne : (⟨1, h1⟩ : Fin (⟨2, ![N, K]⟩ : Shape).rank) ∉ ([0] : List (Fin (⟨2, ![N, K]⟩ : Shape).rank)) := fun h =>
      absurd (congrArg Fin.val (List.mem_singleton.mp h)) Nat.one_ne_zero
    have hst : (takeRowsDims N K R C wf).start (ix3 r j k) idx ⟨1, h1⟩ = 0 := by
      unfold GatherDims.start
      rw [dif_neg hne]
    rw [hst]
    have hk : (⟨1, h1⟩ : Fin (⟨2, ![N, K]⟩ : Shape).rank) ∈ (takeRowsDims N K R C wf).sKept :=
      (GatherDims.mem_sKept _ _).mpr ⟨hne, List.not_mem_nil⟩
    unfold GatherDims.offCoord
    rw [dif_pos hk]
    simp only [Nat.zero_add]
    rfl

end TakeRows

end Idealize.ShloMosaic.ValueIdx

end
-- ==== Proof.LibReduceAnd.lean ====
/-
  A conjunction of ones is one. A `stablehlo.reduce` by "and" over one-bit words, started from 1, whose operand holds 1 at
  every index, holds 1 at every index of its result: the reduce at an index is a left fold of "and" over the operand's
  entries that reduce into it, and 1 and 1 is 1. (The converse direction, from the result to the entries, is the
  library's `Host.reduce_andi_eq_one`.)
-/
import Idealize.ShloMosaic.Lib.ReduceAll

namespace Idealize.ShloMosaic

namespace IntOp

/-- A left fold by "and" from 1 over words that are all 1 is 1. -/
theorem foldl_andi_of_all_one {ι : Type} (f : ι → BitVec 1) (hf : ∀ n, f n = 1#1) :
    ∀ l : List ι, l.foldl (fun r n => andi r (f n)) 1#1 = 1#1
  | [] => rfl
  | a :: l => by
    have h11 : andi 1#1 1#1 = 1#1 := by decide
    rw [List.foldl_cons, hf a, h11]
    exact foldl_andi_of_all_one f hf l

end IntOp

namespace Host

variable {s t u : Shape} {axes : List (Fin s.rank)}

/-- A reduce by "and" from the initial value 1 of an operand that is 1 everywhere is 1 everywhere. -/
theorem reduce_andi_of_all_one (x : s.Idx → BitVec 1) (hx : ∀ i, x i = 1#1) (init : u.Idx → BitVec 1)
    (h : s.ReducesTo axes t) (hu : 0 < u.numel) (hinit : init (Shape.Idx.first hu) = 1#1) (j : t.Idx) :
    Host.reduce IntOp.andi x init h hu j = 1#1 := by
  rw [Host.reduce_eq_foldl, hinit]
  exact IntOp.foldl_andi_of_all_one x hx _

end Host

end Idealize.ShloMosaic
-- ==== Proof.RefValue.lean ====
/-
  The reference's result, entry by entry, under the precondition. Where every entry of the index array is one of
  0 … 119: an entry is not negative as a signed integer, so the wrap leaves it as it is; it lies in 0 … 119, so the range
  test is 1 at every entry and the select keeps the gathered value, never the NaN; and the gather reads, at (r, j, k),
  entry k of the table's row whose number is the entry x(r, j) clamped into 0 … 119, which is x(r, j) itself. So the
  result at (r, j, k) is entry k of row x(r, j) of the table: the lookup.
-/
import proofs.«203043_g45337674776592_cont_8to1_c_201_37_alg».proof.Proof.RefTerm
import proofs.«203043_g45337674776592_cont_8to1_c_201_37_alg».proof.Proof.LibGatherRows
import proofs.«203043_g45337674776592_cont_8to1_c_201_37_alg».proof.Proof.LibReduceAnd
import Idealize.ShloMosaic.Lib.Pipeline.Value

noncomputable section

namespace Cert.Proof.Ref

open Cert.ReferenceIdeal Cert.ReferenceIdeal.Facts₀ Idealize.ShloMosaic Idealize.ShloMosaic.ValueIdx

/-! ## Words: a 32-bit word that denotes one of 0 … 119 -/

section Words
variable {v : BitVec 32}

/-- Its signed reading is its unsigned one. -/
theorem toInt_of_lt (h : v.toNat < 120) : v.toInt = (v.toNat : Int) := by
  rw [BitVec.toInt_eq_toNat_cond]
  split
  · rfl
  · omega

/-- It is not below 0 signed. -/
theorem slt_zero_of_lt (h : v.toNat < 120) : IntOp.cmpi .slt v 0#32 = 0#1 := by
  refine eq_zero_of_ne_one fun e => ?_
  have e' := IntOp.cmpi_slt.1 e
  have z : (0#32 : BitVec 32).toInt = 0 := by decide
  rw [toInt_of_lt h, z] at e'
  omega

/-- It is at least 0 signed. -/
theorem sge_zero_of_lt (h : v.toNat < 120) : IntOp.cmpi .sge v 0#32 = 1#1 := by
  refine IntOp.cmpi_sge.2 ?_
  have z : (0#32 : BitVec 32).toInt = 0 := by decide
  rw [toInt_of_lt h, z]
  omega

/-- It is at most 119 signed. -/
theorem sle_top_of_lt (h : v.toNat < 120) : IntOp.cmpi .sle v 119#32 = 1#1 := by
  refine IntOp.cmpi_sle.2 ?_
  have z : (119#32 : BitVec 32).toInt = 119 := by decide
  rw [toInt_of_lt h, z]
  omega

/-- Read signed and clamped into 0 … 119 it is itself, which is also itself modulo 120. -/
theorem clamp_of_lt (h : v.toNat < 120) : min v.toInt.toNat (120 - 1) = v.toNat % 120 := by
  rw [toInt_of_lt h, Int.toNat_natCast, Nat.mod_eq_of_lt h]
  omega

end Words

variable [Cert.ReferenceIdeal.Facts]

/-! ## The stages at an index, where every index entry is one of 0 … 119 -/

section Stages
variable (x : IVec S4096x100 32) (hx : ∀ i, (x i).toNat < 120)
include hx

/-- The wrap changes nothing. -/
theorem wrapIdx_apply (i : S4096x100.Idx) : wrapIdx x i = x i := by
  unfold wrapIdx
  rw [select_apply]
  have e : cmpi .slt x (broadcastInDim S4096x100 ![] bcast_S_S4096x100 (constantI S_ 32 0#32)) i = 0#1 :=
    slt_zero_of_lt (hx i)
  rw [e, select_zero]

/-- The start index at (r, j, 0) is x(r, j). -/
theorem startIdx_apply (r : Fin 4096) (j : Fin 100) (z : Fin 1) : startIdx x (ix3 r j z) = x (ix2 r j) := by
  unfold startIdx
  rw [broadcastInDim_apply _ _ _ _ (ix2 r j) (fun a => by match a with | ⟨0, _⟩ => rfl | ⟨1, _⟩ => rfl)]
  exact wrapIdx_apply x hx _

/-- The range test is 1 at every entry. -/
theorem inRange_apply (i : S4096x100.Idx) : inRange x i = 1#1 := by
  unfold inRange
  refine Host.reduce_andi_of_all_one _ (fun k => ?_) _ _ _ rfl _
  obtain ⟨r, j, z, rfl⟩ : ∃ (r : Fin 4096) (j : Fin 100) (z : Fin 1), k = ix3 r j z := ⟨k 0, k 1, k 2, eq_ix3 k⟩
  show IntOp.andi (IntOp.cmpi .sge (startIdx x (ix3 r j z)) 0#32) (IntOp.cmpi .sle (startIdx x (ix3 r j z)) 119#32) = 1#1
  rw [startIdx_apply x hx]
  exact IntOp.andi_eq_one.2 ⟨sge_zero_of_lt (hx _), sle_top_of_lt (hx _)⟩

variable {F : FTy → Type} [FloatOps F]

/-- The gather at (r, j, k) reads entry k of row x(r, j). -/
theorem gathered_apply (a : FVec F S120x200 .f32) (r : Fin 4096) (j : Fin 100) (k : Fin 200) :
    gathered x a (ix3 r j k) = a (ix2 (Cert.Proof.Spec.rowOf (x (ix2 r j))) k) := by
  unfold gathered
  have e : gather_S120x200_S4096x100x1_S4096x100x200_2_0_n_n_0_2_1200
      = takeRowsDims 120 200 4096 100 gather_S120x200_S4096x100x1_S4096x100x200_2_0_n_n_0_2_1200_wf := rfl
  rw [e, gather_rows_apply (by decide)]
  refine congrArg a (congrArg (fun q : Fin 120 => ix2 q k) (Fin.ext ?_))
  show min (startIdx x (ix3 r j ⟨0, Nat.one_pos⟩)).toInt.toNat (120 - 1) = (x (ix2 r j)).toNat % 120
  rw [startIdx_apply x hx]
  exact clamp_of_lt (hx _)

/-- The whole result at (r, j, k) is entry k of row x(r, j). -/
theorem out_apply (a : FVec F S120x200 .f32) (r : Fin 4096) (j : Fin 100) (k : Fin 200) :
    out x a (ix3 r j k) = a (ix2 (Cert.Proof.Spec.rowOf (x (ix2 r j))) k) := by
  unfold out
  rw [select_apply,
    broadcastInDim_apply _ _ _ _ (ix2 r j) (fun b => by match b with | ⟨0, _⟩ => rfl | ⟨1, _⟩ => rfl),
    inRange_apply x hx, select_one, gathered_apply x hx]

end Stages

/-- THE VALUE: under the precondition's integer half the reference's result is the lookup. -/
theorem refOut_eq (x : IVec Cert.Proof.Spec.SX 32) (a : FVec Ideal Cert.Proof.Spec.SA .f32) (hx : ∀ i, (x i).toNat < 120) :
    refOut x a = Cert.Proof.Spec.lookup x a := by
  funext i
  obtain ⟨r, j, k, rfl⟩ : ∃ (r : Fin 4096) (j : Fin 100) (k : Fin 200), i = ix3 r j k := ⟨i 0, i 1, i 2, eq_ix3 i⟩
  rw [Cert.Proof.Spec.lookup_apply]
  exact out_apply x hx a r j k

end Cert.Proof.Ref

end
-- ==== Proof.lean ====
/-
  The claim for the embedding lookup: kernel(x, a) gathers rows of the table on the SparseCores, reference(x, a) is
  jnp.take(a, x, axis = 0); both are the function `Spec.lookup`: entry (r, j, k) of the result is entry k of row
  x(r, j) of the table (Proof/Spec.lean). Pure data movement: no float law is used, and the precondition is used for
  one thing only — every row number is one of 0 … 119, so every indexed copy names a row of the table and the
  reference's wrap and mask are the identity.

  The kernel's two programs (as printed, at the word-level instance, and idealized, at the ideal instance) run by the
  SparseCore launch theorem (Proof/KB/Run.lean, Proof/KI/Run.lean: one text, generic in the float instance, over each
  printed program): the frames are that run with the result dropped. The reference's run is written out operation
  by operation (Proof/RefRun.lean), its value read index by index (Proof/RefValue.lean); the kernel's result read
  index by index (Proof/KI/Value.lean). The ideal pass rewrote nothing, so `preserves` is trivial.
-/
import proofs.«203043_g45337674776592_cont_8to1_c_201_37_alg».proof.Defs
import proofs.«203043_g45337674776592_cont_8to1_c_201_37_alg».proof.Proof.Gen.Kernel
import proofs.«203043_g45337674776592_cont_8to1_c_201_37_alg».proof.Proof.Gen.Kernel.Skeleton
import proofs.«203043_g45337674776592_cont_8to1_c_201_37_alg».proof.Proof.Gen.KernelIdeal
import proofs.«203043_g45337674776592_cont_8to1_c_201_37_alg».proof.Proof.Gen.KernelIdeal.Skeleton
import proofs.«203043_g45337674776592_cont_8to1_c_201_37_alg».proof.Proof.Gen.ReferenceIdeal
import proofs.«203043_g45337674776592_cont_8to1_c_201_37_alg».proof.Proof.Gen.Pre_input_domain
import proofs.«203043_g45337674776592_cont_8to1_c_201_37_alg».proof.Proof.KI.Run
import proofs.«203043_g45337674776592_cont_8to1_c_201_37_alg».proof.Proof.KB.Run
import proofs.«203043_g45337674776592_cont_8to1_c_201_37_alg».proof.Proof.RefRun
import proofs.«203043_g45337674776592_cont_8to1_c_201_37_alg».proof.Proof.RefValue
import Idealize.ShloMosaic.Adequacy
import Idealize.ShloMosaic.Init

noncomputable section

namespace Cert.Proof

open Idealize.ShloMosaic Idealize.SL.Sem

/-- The kernel as printed runs, and its arguments end unchanged. -/
theorem frame_k : Cert.frame_Kernel := fun m g hpre =>
  (θ_run Cert.Kernel.defs _ _).mono (fun _ h c => ⟨(h c).2.1, (h c).2.2⟩)
    (Cert.Proof.KB.run_main (F := Bits) m g (Cert.Proof.KB.ok_of_pre m hpre))

/-- The idealized kernel runs, and its arguments end unchanged. -/
theorem frame_ki : Cert.frame_KernelIdeal := fun m g hpre =>
  (θ_run Cert.KernelIdeal.defs _ _).mono (fun _ h c => ⟨(h c).2.1, (h c).2.2⟩)
    (Cert.Proof.KI.run_main (F := Ideal) m g (Cert.Proof.KI.ok_of_pre m hpre))

/-- The reference runs (no precondition is needed: host operations never fault), and its arguments end unchanged. -/
theorem frame_ri : Cert.frame_ReferenceIdeal := fun m g _ =>
  (θ_run Cert.ReferenceIdeal.defs _ _).mono (fun _ h c => ⟨(h c).2.1, (h c).2.2⟩) (Cert.Proof.Ref.run m g)

/-- At the ideal instance both programs end with the lookup of the same arguments. -/
theorem algebraic : Cert.algebraic_KernelIdeal_ReferenceIdeal := by
  intro m g m' g' hpre hagree
  have hok := Cert.Proof.KI.ok_of_pre (F := Ideal) m hpre
  refine ⟨fun c => Cert.Proof.KI.resF m c, ?_, ?_⟩
  · exact (θ_run Cert.KernelIdeal.defs _ _).mono (fun _ h c => ⟨(h c).1, (h c).2.1, (h c).2.2⟩) (Cert.Proof.KI.run_main (F := Ideal) m g hok)
  · refine (θ_run Cert.ReferenceIdeal.defs _ _).mono (fun _ h c => ⟨(h c).1.trans ?_, (h c).2.1, (h c).2.2⟩) (Cert.Proof.Ref.run m' g')
    rw [(hagree c).1, (hagree c).2]
    exact (Cert.Proof.Ref.refOut_eq _ _ (fun i => hok c i)).trans (Cert.Proof.KI.resF_eq m hok c).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
